-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v338)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v338) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v337) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x16x224x224 : Shape := ⟨5, ![16, 3, 16, 224, 224]⟩
abbrev S3x3x1x224 : Shape := ⟨4, ![3, 3, 1, 224]⟩
abbrev S3x3x10x224 : Shape := ⟨4, ![3, 3, 10, 224]⟩
abbrev S3x3x164x1 : Shape := ⟨4, ![3, 3, 164, 1]⟩
abbrev S3x3x164x10 : Shape := ⟨4, ![3, 3, 164, 10]⟩
abbrev S16 : Shape := ⟨1, ![16]⟩
abbrev S_ : Shape := ⟨0, ![]⟩

class Facts : Prop where
  bcast_S_S16x3x16x224x224 : S_.BroadcastsInDim S16x3x16x224x224 (![] : Fin 0 → Fin S16x3x16x224x224.rank)
  reducesTo_S16x3x16x224x224_S_d0_1_2_3_4 : S16x3x16x224x224.ReducesTo [0, 1, 2, 3, 4] S_
  h_S_ : 0 < S_.numel
  bcast_S_S3x3x1x224 : S_.BroadcastsInDim S3x3x1x224 (![] : Fin 0 → Fin S3x3x1x224.rank)
  reducesTo_S3x3x1x224_S_d0_1_2_3 : S3x3x1x224.ReducesTo [0, 1, 2, 3] S_
  bcast_S_S3x3x10x224 : S_.BroadcastsInDim S3x3x10x224 (![] : Fin 0 → Fin S3x3x10x224.rank)
  reducesTo_S3x3x10x224_S_d0_1_2_3 : S3x3x10x224.ReducesTo [0, 1, 2, 3] S_
  bcast_S_S3x3x164x1 : S_.BroadcastsInDim S3x3x164x1 (![] : Fin 0 → Fin S3x3x164x1.rank)
  reducesTo_S3x3x164x1_S_d0_1_2_3 : S3x3x164x1.ReducesTo [0, 1, 2, 3] S_
  bcast_S_S3x3x164x10 : S_.BroadcastsInDim S3x3x164x10 (![] : Fin 0 → Fin S3x3x164x10.rank)
  reducesTo_S3x3x164x10_S_d0_1_2_3 : S3x3x164x10.ReducesTo [0, 1, 2, 3] S_

variable [Facts]

def fn_part2 {F : FTy → Type} [FloatOps F] (main_arg7 : FVec F S3x3x164x1 .f32) (main_arg8 : FVec F S3x3x164x10 .f32) (main_v33 : IVec S_ 1) : IVec S_ 1 :=
  let main_v34 : FVec F S3x3x164x1 .f32 := Host.absf main_arg7
  let main_cst_12 : FVec F S_ .f32 := constant S_ .f32 0x7F800000#32
  let main_v35 : FVec F S3x3x164x1 .f32 := broadcastInDim S3x3x164x1 ![] bcast_S_S3x3x164x1 main_cst_12
  let main_v36 : IVec S3x3x164x1 1 := cmpf .olt main_v34 main_v35
  let main_c_13 : IVec S_ 1 := constantI S_ 1 1#1
  let main_v37 : IVec S_ 1 := (fun x v => Host.reduce IntOp.andi x v reducesTo_S3x3x164x1_S_d0_1_2_3 h_S_) main_v36 main_c_13
  let main_v38 : IVec S_ 1 := andi main_v33 main_v37
  let main_v39 : FVec F S3x3x164x10 .f32 := Host.absf main_arg8
  let main_cst_14 : FVec F S_ .f32 := constant S_ .f32 0x7F800000#32
  let main_v40 : FVec F S3x3x164x10 .f32 := broadcastInDim S3x3x164x10 ![] bcast_S_S3x3x164x10 main_cst_14
  let main_v41 : IVec S3x3x164x10 1 := cmpf .olt main_v39 main_v40
  let main_c_15 : IVec S_ 1 := constantI S_ 1 1#1
  let main_v42 : IVec S_ 1 := (fun x v => Host.reduce IntOp.andi x v reducesTo_S3x3x164x10_S_d0_1_2_3 h_S_) main_v41 main_c_15
  let main_v43 : IVec S_ 1 := andi main_v38 main_v42
  main_v43

def fn_part1 {F : FTy → Type} [FloatOps F] (main_arg4 : FVec F S3x3x10x224 .f32) (main_arg5 : FVec F S3x3x164x1 .f32) (main_arg6 : FVec F S3x3x164x10 .f32) (main_arg7 : FVec F S3x3x164x1 .f32) (main_arg8 : FVec F S3x3x164x10 .f32) (main_v13 : IVec S_ 1) (main_v16 : IVec S3x3x1x224 1) : IVec S_ 1 :=
  let main_c_5 : IVec S_ 1 := constantI S_ 1 1#1
  let main_v17 : IVec S_ 1 := (fun x v => Host.reduce IntOp.andi x v reducesTo_S3x3x1x224_S_d0_1_2_3 h_S_) main_v16 main_c_5
  let main_v18 : IVec S_ 1 := andi main_v13 main_v17
  let main_v19 : FVec F S3x3x10x224 .f32 := Host.absf main_arg4
  let main_cst_6 : FVec F S_ .f32 := constant S_ .f32 0x7F800000#32
  let main_v20 : FVec F S3x3x10x224 .f32 := broadcastInDim S3x3x10x224 ![] bcast_S_S3x3x10x224 main_cst_6
  let main_v21 : IVec S3x3x10x224 1 := cmpf .olt main_v19 main_v20
  let main_c_7 : IVec S_ 1 := constantI S_ 1 1#1
  let main_v22 : IVec S_ 1 := (fun x v => Host.reduce IntOp.andi x v reducesTo_S3x3x10x224_S_d0_1_2_3 h_S_) main_v21 main_c_7
  let main_v23 : IVec S_ 1 := andi main_v18 main_v22
  let main_v24 : FVec F S3x3x164x1 .f32 := Host.absf main_arg5
  let main_cst_8 : FVec F S_ .f32 := constant S_ .f32 0x7F800000#32
  let main_v25 : FVec F S3x3x164x1 .f32 := broadcastInDim S3x3x164x1 ![] bcast_S_S3x3x164x1 main_cst_8
  let main_v26 : IVec S3x3x164x1 1 := cmpf .olt main_v24 main_v25
  let main_c_9 : IVec S_ 1 := constantI S_ 1 1#1
  let main_v27 : IVec S_ 1 := (fun x v => Host.reduce IntOp.andi x v reducesTo_S3x3x164x1_S_d0_1_2_3 h_S_) main_v26 main_c_9
  let main_v28 : IVec S_ 1 := andi main_v23 main_v27
  let main_v29 : FVec F S3x3x164x10 .f32 := Host.absf main_arg6
  let main_cst_10 : FVec F S_ .f32 := constant S_ .f32 0x7F800000#32
  let main_v30 : FVec F S3x3x164x10 .f32 := broadcastInDim S3x3x164x10 ![] bcast_S_S3x3x164x10 main_cst_10
  let main_v31 : IVec S3x3x164x10 1 := cmpf .olt main_v29 main_v30
  let main_c_11 : IVec S_ 1 := constantI S_ 1 1#1
  let main_v32 : IVec S_ 1 := (fun x v => Host.reduce IntOp.andi x v reducesTo_S3x3x164x10_S_d0_1_2_3 h_S_) main_v31 main_c_11
  let main_v33 : IVec S_ 1 := andi main_v28 main_v32
  fn_part2 (F := F) main_arg7 main_arg8 main_v33

def fn {F : FTy → Type} [FloatOps F] (main_arg0 : FVec F S16x3x16x224x224 .f32) (main_arg1 : FVec F S3x3x1x224 .f32) (main_arg2 : FVec F S3x3x10x224 .f32) (main_arg3 : FVec F S3x3x1x224 .f32) (main_arg4 : FVec F S3x3x10x224 .f32) (main_arg5 : FVec F S3x3x164x1 .f32) (main_arg6 : FVec F S3x3x164x10 .f32) (main_arg7 : FVec F S3x3x164x1 .f32) (main_arg8 : FVec F S3x3x164x10 .f32) (main_arg9 : IVec S16 32) (main_arg10 : IVec S16 32) (main_arg11 : IVec S16 32) : IVec S_ 1 :=
  let main_v0 : FVec F S16x3x16x224x224 .f32 := Host.absf main_arg0
  let main_cst : FVec F S_ .f32 := constant S_ .f32 0x7F800000#32
  let main_v1 : FVec F S16x3x16x224x224 .f32 := broadcastInDim S16x3x16x224x224 ![] bcast_S_S16x3x16x224x224 main_cst
  let main_v2 : IVec S16x3x16x224x224 1 := cmpf .olt main_v0 main_v1
  let main_c : IVec S_ 1 := constantI S_ 1 1#1
  let main_v3 : IVec S_ 1 := (fun x v => Host.reduce IntOp.andi x v reducesTo_S16x3x16x224x224_S_d0_1_2_3_4 h_S_) main_v2 main_c
  let main_v4 : FVec F S3x3x1x224 .f32 := Host.absf main_arg1
  let main_cst_0 : FVec F S_ .f32 := constant S_ .f32 0x7F800000#32
  let main_v5 : FVec F S3x3x1x224 .f32 := broadcastInDim S3x3x1x224 ![] bcast_S_S3x3x1x224 main_cst_0
  let main_v6 : IVec S3x3x1x224 1 := cmpf .olt main_v4 main_v5
  let main_c_1 : IVec S_ 1 := constantI S_ 1 1#1
  let main_v7 : IVec S_ 1 := (fun x v => Host.reduce IntOp.andi x v reducesTo_S3x3x1x224_S_d0_1_2_3 h_S_) main_v6 main_c_1
  let main_v8 : IVec S_ 1 := andi main_v3 main_v7
  let main_v9 : FVec F S3x3x10x224 .f32 := Host.absf main_arg2
  let main_cst_2 : FVec F S_ .f32 := constant S_ .f32 0x7F800000#32
  let main_v10 : FVec F S3x3x10x224 .f32 := broadcastInDim S3x3x10x224 ![] bcast_S_S3x3x10x224 main_cst_2
  let main_v11 : IVec S3x3x10x224 1 := cmpf .olt main_v9 main_v10
  let main_c_3 : IVec S_ 1 := constantI S_ 1 1#1
  let main_v12 : IVec S_ 1 := (fun x v => Host.reduce IntOp.andi x v reducesTo_S3x3x10x224_S_d0_1_2_3 h_S_) main_v11 main_c_3
  let main_v13 : IVec S_ 1 := andi main_v8 main_v12
  let main_v14 : FVec F S3x3x1x224 .f32 := Host.absf main_arg3
  let main_cst_4 : FVec F S_ .f32 := constant S_ .f32 0x7F800000#32
  let main_v15 : FVec F S3x3x1x224 .f32 := broadcastInDim S3x3x1x224 ![] bcast_S_S3x3x1x224 main_cst_4
  let main_v16 : IVec S3x3x1x224 1 := cmpf .olt main_v14 main_v15
  fn_part1 (F := F) main_arg4 main_arg5 main_arg6 main_arg7 main_arg8 main_v13 main_v16
-- ==== Kernel.lean ====
abbrev S16x3x16x224x224 : Shape := ⟨5, ![16, 3, 16, 224, 224]⟩
abbrev S3x3x1x224 : Shape := ⟨4, ![3, 3, 1, 224]⟩
abbrev S3x3x10x224 : Shape := ⟨4, ![3, 3, 10, 224]⟩
abbrev S3x3x164x1 : Shape := ⟨4, ![3, 3, 164, 1]⟩
abbrev S3x3x164x10 : Shape := ⟨4, ![3, 3, 164, 10]⟩
abbrev S16 : Shape := ⟨1, ![16]⟩
abbrev S_ : Shape := ⟨0, ![]⟩
abbrev S16x1 : Shape := ⟨2, ![16, 1]⟩
abbrev S16x4 : Shape := ⟨2, ![16, 4]⟩
abbrev S16x1x3x1x224 : Shape := ⟨5, ![16, 1, 3, 1, 224]⟩
abbrev S16x3x224 : Shape := ⟨3, ![16, 3, 224]⟩
abbrev S16x1x3x10x224 : Shape := ⟨5, ![16, 1, 3, 10, 224]⟩
abbrev S16x3x10x224 : Shape := ⟨4, ![16, 3, 10, 224]⟩
abbrev S16x1x3x164x1 : Shape := ⟨5, ![16, 1, 3, 164, 1]⟩
abbrev S16x3x164 : Shape := ⟨3, ![16, 3, 164]⟩
abbrev S16x1x3x164x10 : Shape := ⟨5, ![16, 1, 3, 164, 10]⟩
abbrev S16x3x164x10 : Shape := ⟨4, ![16, 3, 164, 10]⟩
abbrev S224 : Shape := ⟨1, ![224]⟩
abbrev S224x1 : Shape := ⟨2, ![224, 1]⟩
abbrev S1x224 : Shape := ⟨2, ![1, 224]⟩
abbrev S1x224x1 : Shape := ⟨3, ![1, 224, 1]⟩
abbrev S16x1x1 : Shape := ⟨3, ![16, 1, 1]⟩
abbrev S16x224x1 : Shape := ⟨3, ![16, 224, 1]⟩
abbrev S16x3x224x224 : Shape := ⟨4, ![16, 3, 224, 224]⟩
abbrev S16x3x1x224 : Shape := ⟨4, ![16, 3, 1, 224]⟩
abbrev S16x224 : Shape := ⟨2, ![16, 224]⟩
abbrev S1x1x224 : Shape := ⟨3, ![1, 1, 224]⟩
abbrev S16x1x224 : Shape := ⟨3, ![16, 1, 224]⟩
abbrev S16x224x224 : Shape := ⟨3, ![16, 224, 224]⟩
abbrev S224x224 : Shape := ⟨2, ![224, 224]⟩
abbrev S16x224x224x1 : Shape := ⟨4, ![16, 224, 224, 1]⟩
abbrev S224x224x1 : Shape := ⟨3, ![224, 224, 1]⟩
abbrev S16x224x224x2 : Shape := ⟨4, ![16, 224, 224, 2]⟩
abbrev S16x3x224x1 : Shape := ⟨4, ![16, 3, 224, 1]⟩
abbrev S3x224x224 : Shape := ⟨3, ![3, 224, 224]⟩
abbrev S16x3x16x392x128 : Shape := ⟨5, ![16, 3, 16, 392, 128]⟩
abbrev S16x3x392x128 : Shape := ⟨4, ![16, 3, 392, 128]⟩
abbrev S1x3x16x392x128 : Shape := ⟨5, ![1, 3, 16, 392, 128]⟩
abbrev S1x3x392x128 : Shape := ⟨4, ![1, 3, 392, 128]⟩
abbrev S3x392x128 : Shape := ⟨3, ![3, 392, 128]⟩
abbrev S3x1x392x128 : Shape := ⟨4, ![3, 1, 392, 128]⟩
abbrev S1x3x1x392x128 : Shape := ⟨5, ![1, 3, 1, 392, 128]⟩

abbrev nBuf : Space → Nat
  | .hbm => 735
  | .vmem => 6
  | .smem => 0
  | _ => 0

abbrev hbmTy0_0 (i : Nat) : BufTy := match i % 128 with
  | 0 => ⟨S16x3x16x224x224, .f32⟩
  | 1 => ⟨S3x3x1x224, .f32⟩
  | 2 => ⟨S3x3x10x224, .f32⟩
  | 3 => ⟨S3x3x1x224, .f32⟩
  | 4 => ⟨S3x3x10x224, .f32⟩
  | 5 => ⟨S3x3x164x1, .f32⟩
  | 6 => ⟨S3x3x164x10, .f32⟩
  | 7 => ⟨S3x3x164x1, .f32⟩
  | 8 => ⟨S3x3x164x10, .f32⟩
  | 9 => ⟨S16, .i32⟩
  | 10 => ⟨S16, .i32⟩
  | 11 => ⟨S16, .i32⟩
  | 12 => ⟨S_, .i32⟩
  | 13 => ⟨S16, .i32⟩
  | 14 => ⟨S16, .i1⟩
  | 15 => ⟨S_, .i32⟩
  | 16 => ⟨S16, .i32⟩
  | 17 => ⟨S16, .i32⟩
  | 18 => ⟨S16, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S16x1, .i32⟩
  | 44 => ⟨S16x1, .i32⟩
  | 45 => ⟨S16x1, .i32⟩
  | 46 => ⟨S16x1, .i32⟩
  | 47 => ⟨S16x4, .i32⟩
  | 48 => ⟨S16x1x3x1x224, .f32⟩
  | 49 => ⟨S16x3x224, .f32⟩
  | 50 => ⟨S_, .i32⟩
  | 51 => ⟨S16, .i32⟩
  | 52 => ⟨S16, .i1⟩
  | 53 => ⟨S_, .i32⟩
  | 54 => ⟨S16, .i32⟩
  | 55 => ⟨S16, .i32⟩
  | 56 => ⟨S16, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S16x1, .i32⟩
  | 82 => ⟨S16x1, .i32⟩
  | 83 => ⟨S16x1, .i32⟩
  | 84 => ⟨S16x1, .i32⟩
  | 85 => ⟨S16x4, .i32⟩
  | 86 => ⟨S16x1x3x10x224, .f32⟩
  | 87 => ⟨S16x3x10x224, .f32⟩
  | 88 => ⟨S_, .i32⟩
  | 89 => ⟨S16, .i32⟩
  | 90 => ⟨S16, .i1⟩
  | 91 => ⟨S_, .i32⟩
  | 92 => ⟨S16, .i32⟩
  | 93 => ⟨S16, .i32⟩
  | 94 => ⟨S16, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S16x1, .i32⟩
  | 120 => ⟨S16x1, .i32⟩
  | 121 => ⟨S16x1, .i32⟩
  | 122 => ⟨S16x1, .i32⟩
  | 123 => ⟨S16x4, .i32⟩
  | 124 => ⟨S16x1x3x1x224, .f32⟩
  | 125 => ⟨S16x3x224, .f32⟩
  | 126 => ⟨S_, .i32⟩
  | 127 => ⟨S16, .i32⟩
  | _ => ⟨S16x3x16x224x224, .f32⟩

abbrev hbmTy0_1 (i : Nat) : BufTy := match i % 128 with
  | 0 => ⟨S16, .i1⟩
  | 1 => ⟨S_, .i32⟩
  | 2 => ⟨S16, .i32⟩
  | 3 => ⟨S16, .i32⟩
  | 4 => ⟨S16, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S16x1, .i32⟩
  | 30 => ⟨S16x1, .i32⟩
  | 31 => ⟨S16x1, .i32⟩
  | 32 => ⟨S16x1, .i32⟩
  | 33 => ⟨S16x4, .i32⟩
  | 34 => ⟨S16x1x3x10x224, .f32⟩
  | 35 => ⟨S16x3x10x224, .f32⟩
  | 36 => ⟨S_, .i32⟩
  | 37 => ⟨S16, .i32⟩
  | 38 => ⟨S16, .i1⟩
  | 39 => ⟨S_, .i32⟩
  | 40 => ⟨S16, .i32⟩
  | 41 => ⟨S16, .i32⟩
  | 42 => ⟨S16, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S16x1, .i32⟩
  | 68 => ⟨S16x1, .i32⟩
  | 69 => ⟨S16x1, .i32⟩
  | 70 => ⟨S16x1, .i32⟩
  | 71 => ⟨S16x4, .i32⟩
  | 72 => ⟨S16x1x3x164x1, .f32⟩
  | 73 => ⟨S16x3x164, .f32⟩
  | 74 => ⟨S_, .i32⟩
  | 75 => ⟨S16, .i32⟩
  | 76 => ⟨S16, .i1⟩
  | 77 => ⟨S_, .i32⟩
  | 78 => ⟨S16, .i32⟩
  | 79 => ⟨S16, .i32⟩
  | 80 => ⟨S16, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S16x1, .i32⟩
  | 106 => ⟨S16x1, .i32⟩
  | 107 => ⟨S16x1, .i32⟩
  | 108 => ⟨S16x1, .i32⟩
  | 109 => ⟨S16x4, .i32⟩
  | 110 => ⟨S16x1x3x164x10, .f32⟩
  | 111 => ⟨S16x3x164x10, .f32⟩
  | 112 => ⟨S_, .i32⟩
  | 113 => ⟨S16, .i32⟩
  | 114 => ⟨S16, .i1⟩
  | 115 => ⟨S_, .i32⟩
  | 116 => ⟨S16, .i32⟩
  | 117 => ⟨S16, .i32⟩
  | 118 => ⟨S16, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S16x3x16x224x224, .f32⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S16x1, .i32⟩
  | 16 => ⟨S16x1, .i32⟩
  | 17 => ⟨S16x1, .i32⟩
  | 18 => ⟨S16x1, .i32⟩
  | 19 => ⟨S16x4, .i32⟩
  | 20 => ⟨S16x1x3x164x1, .f32⟩
  | 21 => ⟨S16x3x164, .f32⟩
  | 22 => ⟨S_, .i32⟩
  | 23 => ⟨S16, .i32⟩
  | 24 => ⟨S16, .i1⟩
  | 25 => ⟨S_, .i32⟩
  | 26 => ⟨S16, .i32⟩
  | 27 => ⟨S16, .i32⟩
  | 28 => ⟨S16, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S16x1, .i32⟩
  | 54 => ⟨S16x1, .i32⟩
  | 55 => ⟨S16x1, .i32⟩
  | 56 => ⟨S16x1, .i32⟩
  | 57 => ⟨S16x4, .i32⟩
  | 58 => ⟨S16x1x3x164x10, .f32⟩
  | 59 => ⟨S16x3x164x10, .f32⟩
  | 60 => ⟨S_, .i32⟩
  | 61 => ⟨S16, .i32⟩
  | 62 => ⟨S16, .i32⟩
  | 63 => ⟨S_, .i32⟩
  | 64 => ⟨S16, .i32⟩
  | 65 => ⟨S16, .i32⟩
  | 66 => ⟨S_, .i32⟩
  | 67 => ⟨S_, .i32⟩
  | 68 => ⟨S16, .i32⟩
  | 69 => ⟨S16, .i32⟩
  | 70 => ⟨S16, .i32⟩
  | 71 => ⟨S_, .i32⟩
  | 72 => ⟨S16, .i32⟩
  | 73 => ⟨S16, .i1⟩
  | 74 => ⟨S16, .i32⟩
  | 75 => ⟨S16, .i32⟩
  | 76 => ⟨S_, .i32⟩
  | 77 => ⟨S16, .i32⟩
  | 78 => ⟨S16, .i1⟩
  | 79 => ⟨S16, .i1⟩
  | 80 => ⟨S_, .i32⟩
  | 81 => ⟨S16, .i32⟩
  | 82 => ⟨S16, .i32⟩
  | 83 => ⟨S16, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S16, .i32⟩
  | 91 => ⟨S16, .i32⟩
  | 92 => ⟨S_, .i32⟩
  | 93 => ⟨S16, .i32⟩
  | 94 => ⟨S16, .i1⟩
  | 95 => ⟨S_, .i32⟩
  | 96 => ⟨S16, .i32⟩
  | 97 => ⟨S16, .i1⟩
  | 98 => ⟨S_, .i32⟩
  | 99 => ⟨S_, .i1⟩
  | 100 => ⟨S16, .i1⟩
  | 101 => ⟨S16, .i1⟩
  | 102 => ⟨S16, .i1⟩
  | 103 => ⟨S16, .i32⟩
  | 104 => ⟨S16, .i32⟩
  | 105 => ⟨S16, .i32⟩
  | 106 => ⟨S_, .i32⟩
  | 107 => ⟨S_, .i32⟩
  | 108 => ⟨S16, .i32⟩
  | 109 => ⟨S16, .i32⟩
  | 110 => ⟨S16, .i32⟩
  | 111 => ⟨S_, .i32⟩
  | 112 => ⟨S16, .i32⟩
  | 113 => ⟨S16, .i1⟩
  | 114 => ⟨S16, .i32⟩
  | 115 => ⟨S16, .i32⟩
  | 116 => ⟨S_, .i32⟩
  | 117 => ⟨S16, .i32⟩
  | 118 => ⟨S16, .i1⟩
  | 119 => ⟨S16, .i1⟩
  | 120 => ⟨S_, .i32⟩
  | 121 => ⟨S16, .i32⟩
  | 122 => ⟨S16, .i32⟩
  | 123 => ⟨S16, .i32⟩
  | 124 => ⟨S_, .i32⟩
  | 125 => ⟨S_, .i32⟩
  | 126 => ⟨S_, .i32⟩
  | 127 => ⟨S_, .i1⟩
  | _ => ⟨S16x3x16x224x224, .f32⟩

abbrev hbmTy0_3 (i : Nat) : BufTy := match i % 128 with
  | 0 => ⟨S_, .i32⟩
  | 1 => ⟨S_, .i32⟩
  | 2 => ⟨S16, .i32⟩
  | 3 => ⟨S16, .i32⟩
  | 4 => ⟨S_, .i32⟩
  | 5 => ⟨S16, .i32⟩
  | 6 => ⟨S16, .i1⟩
  | 7 => ⟨S_, .i32⟩
  | 8 => ⟨S16, .i32⟩
  | 9 => ⟨S16, .i1⟩
  | 10 => ⟨S_, .i32⟩
  | 11 => ⟨S_, .i1⟩
  | 12 => ⟨S16, .i1⟩
  | 13 => ⟨S16, .i1⟩
  | 14 => ⟨S16, .i1⟩
  | 15 => ⟨S16, .i32⟩
  | 16 => ⟨S16, .i32⟩
  | 17 => ⟨S16, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S16, .i32⟩
  | 25 => ⟨S16, .i32⟩
  | 26 => ⟨S_, .i32⟩
  | 27 => ⟨S16, .i32⟩
  | 28 => ⟨S16, .i1⟩
  | 29 => ⟨S_, .i32⟩
  | 30 => ⟨S16, .i32⟩
  | 31 => ⟨S16, .i1⟩
  | 32 => ⟨S_, .i32⟩
  | 33 => ⟨S_, .i1⟩
  | 34 => ⟨S16, .i1⟩
  | 35 => ⟨S16, .i1⟩
  | 36 => ⟨S16, .i1⟩
  | 37 => ⟨S16, .i32⟩
  | 38 => ⟨S16, .i32⟩
  | 39 => ⟨S16, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S16, .i32⟩
  | 47 => ⟨S16, .i32⟩
  | 48 => ⟨S_, .i32⟩
  | 49 => ⟨S16, .i32⟩
  | 50 => ⟨S16, .i1⟩
  | 51 => ⟨S_, .i32⟩
  | 52 => ⟨S16, .i32⟩
  | 53 => ⟨S16, .i1⟩
  | 54 => ⟨S_, .i32⟩
  | 55 => ⟨S_, .i1⟩
  | 56 => ⟨S16, .i1⟩
  | 57 => ⟨S16, .i1⟩
  | 58 => ⟨S16, .i1⟩
  | 59 => ⟨S16, .i32⟩
  | 60 => ⟨S16, .i32⟩
  | 61 => ⟨S16, .i32⟩
  | 62 => ⟨S224, .i32⟩
  | 63 => ⟨S224, .i32⟩
  | 64 => ⟨S224x1, .i32⟩
  | 65 => ⟨S1x224, .i32⟩
  | 66 => ⟨S_, .i32⟩
  | 67 => ⟨S16, .i32⟩
  | 68 => ⟨S16, .i32⟩
  | 69 => ⟨S1x224x1, .i32⟩
  | 70 => ⟨S16x1x1, .i32⟩
  | 71 => ⟨S16x224x1, .i32⟩
  | 72 => ⟨S16x224x1, .i32⟩
  | 73 => ⟨S16x224x1, .i1⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S224, .i32⟩
  | 81 => ⟨S224, .i32⟩
  | 82 => ⟨S_, .i32⟩
  | 83 => ⟨S224, .i32⟩
  | 84 => ⟨S224, .i1⟩
  | 85 => ⟨S_, .i32⟩
  | 86 => ⟨S224, .i32⟩
  | 87 => ⟨S224, .i1⟩
  | 88 => ⟨S_, .i32⟩
  | 89 => ⟨S_, .i1⟩
  | 90 => ⟨S224, .i1⟩
  | 91 => ⟨S224, .i1⟩
  | 92 => ⟨S224, .i1⟩
  | 93 => ⟨S224, .i32⟩
  | 94 => ⟨S224, .i32⟩
  | 95 => ⟨S224, .i32⟩
  | 96 => ⟨S_, .i32⟩
  | 97 => ⟨S224, .i32⟩
  | 98 => ⟨S224, .i1⟩
  | 99 => ⟨S_, .i32⟩
  | 100 => ⟨S224, .i32⟩
  | 101 => ⟨S224, .i32⟩
  | 102 => ⟨S224, .i32⟩
  | 103 => ⟨S224x1, .i32⟩
  | 104 => ⟨S16x3x224x224, .f32⟩
  | 105 => ⟨S16x3x1x224, .f32⟩
  | 106 => ⟨S16x3x224x224, .i1⟩
  | 107 => ⟨S16x3x224x224, .f32⟩
  | 108 => ⟨S16x3x224x224, .f32⟩
  | 109 => ⟨S_, .i32⟩
  | 110 => ⟨S16, .i32⟩
  | 111 => ⟨S16, .i32⟩
  | 112 => ⟨S1x224x1, .i32⟩
  | 113 => ⟨S16x1x1, .i32⟩
  | 114 => ⟨S16x224x1, .i32⟩
  | 115 => ⟨S16x224x1, .i32⟩
  | 116 => ⟨S16x224x1, .i32⟩
  | 117 => ⟨S16x1x1, .i32⟩
  | 118 => ⟨S16x224x1, .i32⟩
  | 119 => ⟨S16x224x1, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S16x224x1, .i32⟩
  | 127 => ⟨S16x224x1, .i32⟩
  | _ => ⟨S16x3x16x224x224, .f32⟩

abbrev hbmTy0_4 (i : Nat) : BufTy := match i % 128 with
  | 0 => ⟨S_, .i32⟩
  | 1 => ⟨S16x224x1, .i32⟩
  | 2 => ⟨S16x224x1, .i1⟩
  | 3 => ⟨S_, .i32⟩
  | 4 => ⟨S16x224x1, .i32⟩
  | 5 => ⟨S16x224x1, .i1⟩
  | 6 => ⟨S_, .i32⟩
  | 7 => ⟨S_, .i1⟩
  | 8 => ⟨S16x224x1, .i1⟩
  | 9 => ⟨S16x224x1, .i1⟩
  | 10 => ⟨S16x224x1, .i1⟩
  | 11 => ⟨S16x224x1, .i32⟩
  | 12 => ⟨S16x224x1, .i32⟩
  | 13 => ⟨S16x224x1, .i32⟩
  | 14 => ⟨S16x224, .i32⟩
  | 15 => ⟨S16x1x1, .i32⟩
  | 16 => ⟨S16x224x1, .i32⟩
  | 17 => ⟨S16x224x1, .i1⟩
  | 18 => ⟨S16x3x1x224, .f32⟩
  | 19 => ⟨S_, .i32⟩
  | 20 => ⟨S16x224, .i32⟩
  | 21 => ⟨S16x224, .i1⟩
  | 22 => ⟨S_, .i32⟩
  | 23 => ⟨S16x224, .i32⟩
  | 24 => ⟨S16x224, .i32⟩
  | 25 => ⟨S16x224, .i32⟩
  | 26 => ⟨S16x224x1, .i32⟩
  | 27 => ⟨S16x3x224x224, .f32⟩
  | 28 => ⟨S16x3x224x224, .i1⟩
  | 29 => ⟨S16x3x224x224, .f32⟩
  | 30 => ⟨S16x3x224x224, .f32⟩
  | 31 => ⟨S1x224, .i32⟩
  | 32 => ⟨S16x1, .i32⟩
  | 33 => ⟨S16x224, .i32⟩
  | 34 => ⟨S16x224, .i32⟩
  | 35 => ⟨S16x224, .i32⟩
  | 36 => ⟨S_, .i32⟩
  | 37 => ⟨S_, .i32⟩
  | 38 => ⟨S_, .i32⟩
  | 39 => ⟨S16x224, .i32⟩
  | 40 => ⟨S16x224, .i32⟩
  | 41 => ⟨S_, .i32⟩
  | 42 => ⟨S16x224, .i32⟩
  | 43 => ⟨S16x224, .i32⟩
  | 44 => ⟨S_, .i32⟩
  | 45 => ⟨S16, .i32⟩
  | 46 => ⟨S16, .i32⟩
  | 47 => ⟨S1x1x224, .i32⟩
  | 48 => ⟨S16x1x1, .i32⟩
  | 49 => ⟨S16x1x224, .i32⟩
  | 50 => ⟨S16x1x224, .i32⟩
  | 51 => ⟨S16x1x224, .i1⟩
  | 52 => ⟨S16x224x1, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S224, .i32⟩
  | 60 => ⟨S224, .i32⟩
  | 61 => ⟨S_, .i32⟩
  | 62 => ⟨S224, .i32⟩
  | 63 => ⟨S224, .i1⟩
  | 64 => ⟨S_, .i32⟩
  | 65 => ⟨S224, .i32⟩
  | 66 => ⟨S224, .i1⟩
  | 67 => ⟨S_, .i32⟩
  | 68 => ⟨S_, .i1⟩
  | 69 => ⟨S224, .i1⟩
  | 70 => ⟨S224, .i1⟩
  | 71 => ⟨S224, .i1⟩
  | 72 => ⟨S224, .i32⟩
  | 73 => ⟨S224, .i32⟩
  | 74 => ⟨S224, .i32⟩
  | 75 => ⟨S1x224, .i32⟩
  | 76 => ⟨S_, .i32⟩
  | 77 => ⟨S16x224x1, .i32⟩
  | 78 => ⟨S16x224x1, .i1⟩
  | 79 => ⟨S_, .i32⟩
  | 80 => ⟨S16x224x1, .i32⟩
  | 81 => ⟨S16x224x1, .i32⟩
  | 82 => ⟨S16x224x1, .i32⟩
  | 83 => ⟨S_, .i32⟩
  | 84 => ⟨S1x224, .i32⟩
  | 85 => ⟨S1x224, .i1⟩
  | 86 => ⟨S_, .i32⟩
  | 87 => ⟨S1x224, .i32⟩
  | 88 => ⟨S1x224, .i32⟩
  | 89 => ⟨S1x224, .i32⟩
  | 90 => ⟨S16x224x224, .i32⟩
  | 91 => ⟨S224x224, .i32⟩
  | 92 => ⟨S16x224x224x1, .i32⟩
  | 93 => ⟨S224x224x1, .i32⟩
  | 94 => ⟨S16x224x224x1, .i32⟩
  | 95 => ⟨S16x224x224x2, .i32⟩
  | 96 => ⟨S16x3x224x224, .f32⟩
  | 97 => ⟨S_, .i32⟩
  | 98 => ⟨S16x224, .i32⟩
  | 99 => ⟨S16x224, .i1⟩
  | 100 => ⟨S_, .i32⟩
  | 101 => ⟨S16x224, .i32⟩
  | 102 => ⟨S16x224, .i32⟩
  | 103 => ⟨S16x224, .i32⟩
  | 104 => ⟨S16x224x1, .i32⟩
  | 105 => ⟨S16x3x224, .f32⟩
  | 106 => ⟨S16x3x224x1, .f32⟩
  | 107 => ⟨S16x3x224x224, .i1⟩
  | 108 => ⟨S16x3x224x224, .f32⟩
  | 109 => ⟨S16x3x224x224, .f32⟩
  | 110 => ⟨S_, .i32⟩
  | 111 => ⟨S16, .i32⟩
  | 112 => ⟨S16, .i32⟩
  | 113 => ⟨S1x224, .i32⟩
  | 114 => ⟨S16x1, .i32⟩
  | 115 => ⟨S16x224, .i32⟩
  | 116 => ⟨S16x224, .i32⟩
  | 117 => ⟨S16x224, .i32⟩
  | 118 => ⟨S16x1, .i32⟩
  | 119 => ⟨S16x224, .i32⟩
  | 120 => ⟨S16x224, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S16x224, .i32⟩
  | _ => ⟨S16x3x16x224x224, .f32⟩

abbrev hbmTy0_5 (i : Nat) : BufTy := match i % 128 with
  | 0 => ⟨S16x224, .i32⟩
  | 1 => ⟨S_, .i32⟩
  | 2 => ⟨S16x224, .i32⟩
  | 3 => ⟨S16x224, .i1⟩
  | 4 => ⟨S_, .i32⟩
  | 5 => ⟨S16x224, .i32⟩
  | 6 => ⟨S16x224, .i1⟩
  | 7 => ⟨S_, .i32⟩
  | 8 => ⟨S_, .i1⟩
  | 9 => ⟨S16x224, .i1⟩
  | 10 => ⟨S16x224, .i1⟩
  | 11 => ⟨S16x224, .i1⟩
  | 12 => ⟨S16x224, .i32⟩
  | 13 => ⟨S16x224, .i32⟩
  | 14 => ⟨S16x224, .i32⟩
  | 15 => ⟨S16x1x224, .i32⟩
  | 16 => ⟨S16x1x1, .i32⟩
  | 17 => ⟨S16x1x224, .i32⟩
  | 18 => ⟨S16x1x224, .i1⟩
  | 19 => ⟨S_, .i32⟩
  | 20 => ⟨S16x224, .i32⟩
  | 21 => ⟨S16x224, .i1⟩
  | 22 => ⟨S_, .i32⟩
  | 23 => ⟨S16x224, .i32⟩
  | 24 => ⟨S16x224, .i32⟩
  | 25 => ⟨S16x224, .i32⟩
  | 26 => ⟨S16x224x1, .i32⟩
  | 27 => ⟨S16x3x224, .f32⟩
  | 28 => ⟨S16x3x224x1, .f32⟩
  | 29 => ⟨S16x224x1, .i32⟩
  | 30 => ⟨S16x1x224, .i32⟩
  | 31 => ⟨S_, .i32⟩
  | 32 => ⟨S16x224x1, .i32⟩
  | 33 => ⟨S16x224x1, .i1⟩
  | 34 => ⟨S_, .i32⟩
  | 35 => ⟨S16x224x1, .i32⟩
  | 36 => ⟨S16x224x1, .i32⟩
  | 37 => ⟨S16x224x1, .i32⟩
  | 38 => ⟨S_, .i32⟩
  | 39 => ⟨S16x1x224, .i32⟩
  | 40 => ⟨S16x1x224, .i1⟩
  | 41 => ⟨S_, .i32⟩
  | 42 => ⟨S16x1x224, .i32⟩
  | 43 => ⟨S16x1x224, .i32⟩
  | 44 => ⟨S16x1x224, .i32⟩
  | 45 => ⟨S16x224x224, .i32⟩
  | 46 => ⟨S16x224x224, .i32⟩
  | 47 => ⟨S16x224x224x1, .i32⟩
  | 48 => ⟨S16x224x224x1, .i32⟩
  | 49 => ⟨S16x224x224x2, .i32⟩
  | 50 => ⟨S16x3x224x224, .f32⟩
  | 51 => ⟨S16x3x224x224, .i1⟩
  | 52 => ⟨S16x3x224x224, .f32⟩
  | 53 => ⟨S16x3x224x224, .f32⟩
  | 54 => ⟨S1x1x224, .i32⟩
  | 55 => ⟨S16x1x1, .i32⟩
  | 56 => ⟨S16x1x224, .i32⟩
  | 57 => ⟨S16x1x224, .i32⟩
  | 58 => ⟨S16x1x224, .i1⟩
  | 59 => ⟨S_, .i32⟩
  | 60 => ⟨S16, .i32⟩
  | 61 => ⟨S16, .i32⟩
  | 62 => ⟨S1x1x224, .i32⟩
  | 63 => ⟨S16x1x1, .i32⟩
  | 64 => ⟨S16x1x224, .i32⟩
  | 65 => ⟨S16x1x224, .i32⟩
  | 66 => ⟨S16x1x224, .i1⟩
  | 67 => ⟨S_, .f32⟩
  | 68 => ⟨S16x3x224x224, .i1⟩
  | 69 => ⟨S3x224x224, .f32⟩
  | 70 => ⟨S16x3x224x224, .f32⟩
  | 71 => ⟨S16x3x224x224, .f32⟩
  | 72 => ⟨S16x3x224x224, .i1⟩
  | 73 => ⟨S16x3x224x224, .f32⟩
  | 74 => ⟨S1x224x1, .i32⟩
  | 75 => ⟨S16x1x1, .i32⟩
  | 76 => ⟨S16x224x1, .i32⟩
  | 77 => ⟨S16x224x1, .i32⟩
  | 78 => ⟨S16x224x1, .i1⟩
  | 79 => ⟨S_, .i32⟩
  | 80 => ⟨S16, .i32⟩
  | 81 => ⟨S16, .i32⟩
  | 82 => ⟨S1x224x1, .i32⟩
  | 83 => ⟨S16x1x1, .i32⟩
  | 84 => ⟨S16x224x1, .i32⟩
  | 85 => ⟨S16x224x1, .i32⟩
  | 86 => ⟨S16x224x1, .i1⟩
  | 87 => ⟨S16x3x224x224, .i1⟩
  | 88 => ⟨S16x3x224x224, .f32⟩
  | 89 => ⟨S16x3x224x224, .i1⟩
  | 90 => ⟨S16x3x224x224, .f32⟩
  | 91 => ⟨S16x3x16x392x128, .f32⟩
  | 92 => ⟨S16x3x392x128, .f32⟩
  | 93 => ⟨S16x3x16x392x128, .f32⟩
  | 94 => ⟨S16x3x16x224x224, .f32⟩
  | _ => ⟨S16x3x16x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x3x16x224x224, .f32⟩

abbrev bufTy : (tb : Table) → Fin (tcTables nBuf tb) → BufTy
  | .hbm, ⟨i, _⟩ => hbmTy i
  | .local _ .vmem, ⟨0, _⟩ => ⟨S1x3x16x392x128, .f32⟩
  | .local _ .vmem, ⟨1, _⟩ => ⟨S1x3x16x392x128, .f32⟩
  | .local _ .vmem, ⟨2, _⟩ => ⟨S1x3x392x128, .f32⟩
  | .local _ .vmem, ⟨3, _⟩ => ⟨S1x3x392x128, .f32⟩
  | .local _ .vmem, ⟨4, _⟩ => ⟨S1x3x16x392x128, .f32⟩
  | .local _ .vmem, ⟨5, _⟩ => ⟨S1x3x16x392x128, .f32⟩
  | _, _ => ⟨S16x3x16x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_c_2 : Ref sig .tc := ⟨.hbm, 20, rfl⟩
abbrev main_v5 : Ref sig .tc := ⟨.hbm, 21, rfl⟩
abbrev main_c_3 : Ref sig .tc := ⟨.hbm, 22, rfl⟩
abbrev main_c_4 : Ref sig .tc := ⟨.hbm, 23, rfl⟩
abbrev main_v6 : Ref sig .tc := ⟨.hbm, 24, rfl⟩
abbrev main_c_5 : Ref sig .tc := ⟨.hbm, 25, rfl⟩
abbrev main_v7 : Ref sig .tc := ⟨.hbm, 26, rfl⟩
abbrev main_c_6 : Ref sig .tc := ⟨.hbm, 27, rfl⟩
abbrev main_c_7 : Ref sig .tc := ⟨.hbm, 28, rfl⟩
abbrev main_v8 : Ref sig .tc := ⟨.hbm, 29, rfl⟩
abbrev main_c_8 : Ref sig .tc := ⟨.hbm, 30, rfl⟩
abbrev main_c_9 : Ref sig .tc := ⟨.hbm, 31, rfl⟩
abbrev main_v9 : Ref sig .tc := ⟨.hbm, 32, rfl⟩
abbrev main_c_10 : Ref sig .tc := ⟨.hbm, 33, rfl⟩
abbrev main_v10 : Ref sig .tc := ⟨.hbm, 34, rfl⟩
abbrev main_c_11 : Ref sig .tc := ⟨.hbm, 35, rfl⟩
abbrev main_c_12 : Ref sig .tc := ⟨.hbm, 36, rfl⟩
abbrev main_v11 : Ref sig .tc := ⟨.hbm, 37, rfl⟩
abbrev main_c_13 : Ref sig .tc := ⟨.hbm, 38, rfl⟩
abbrev main_c_14 : Ref sig .tc := ⟨.hbm, 39, rfl⟩
abbrev main_v12 : Ref sig .tc := ⟨.hbm, 40, rfl⟩
abbrev main_c_15 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_16 : Ref sig .tc := ⟨.hbm, 50, rfl⟩
abbrev main_v21 : Ref sig .tc := ⟨.hbm, 51, rfl⟩
abbrev main_v22 : Ref sig .tc := ⟨.hbm, 52, rfl⟩
abbrev main_c_17 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_18 : Ref sig .tc := ⟨.hbm, 57, rfl⟩
abbrev main_c_19 : Ref sig .tc := ⟨.hbm, 58, rfl⟩
abbrev main_v26 : Ref sig .tc := ⟨.hbm, 59, rfl⟩
abbrev main_c_20 : Ref sig .tc := ⟨.hbm, 60, rfl⟩
abbrev main_c_21 : Ref sig .tc := ⟨.hbm, 61, rfl⟩
abbrev main_v27 : Ref sig .tc := ⟨.hbm, 62, rfl⟩
abbrev main_c_22 : Ref sig .tc := ⟨.hbm, 63, rfl⟩
abbrev main_v28 : Ref sig .tc := ⟨.hbm, 64, rfl⟩
abbrev main_c_23 : Ref sig .tc := ⟨.hbm, 65, rfl⟩
abbrev main_c_24 : Ref sig .tc := ⟨.hbm, 66, rfl⟩
abbrev main_v29 : Ref sig .tc := ⟨.hbm, 67, rfl⟩
abbrev main_c_25 : Ref sig .tc := ⟨.hbm, 68, rfl⟩
abbrev main_c_26 : Ref sig .tc := ⟨.hbm, 69, rfl⟩
abbrev main_v30 : Ref sig .tc := ⟨.hbm, 70, rfl⟩
abbrev main_c_27 : Ref sig .tc := ⟨.hbm, 71, rfl⟩
abbrev main_v31 : Ref sig .tc := ⟨.hbm, 72, rfl⟩
abbrev main_c_28 : Ref sig .tc := ⟨.hbm, 73, rfl⟩
abbrev main_c_29 : Ref sig .tc := ⟨.hbm, 74, rfl⟩
abbrev main_v32 : Ref sig .tc := ⟨.hbm, 75, rfl⟩
abbrev main_c_30 : Ref sig .tc := ⟨.hbm, 76, rfl⟩
abbrev main_c_31 : Ref sig .tc := ⟨.hbm, 77, rfl⟩
abbrev main_v33 : Ref sig .tc := ⟨.hbm, 78, rfl⟩
abbrev main_c_32 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_33 : Ref sig .tc := ⟨.hbm, 88, rfl⟩
abbrev main_v42 : Ref sig .tc := ⟨.hbm, 89, rfl⟩
abbrev main_v43 : Ref sig .tc := ⟨.hbm, 90, rfl⟩
abbrev main_c_34 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_c_35 : Ref sig .tc := ⟨.hbm, 95, rfl⟩
abbrev main_c_36 : Ref sig .tc := ⟨.hbm, 96, rfl⟩
abbrev main_v47 : Ref sig .tc := ⟨.hbm, 97, rfl⟩
abbrev main_c_37 : Ref sig .tc := ⟨.hbm, 98, rfl⟩
abbrev main_c_38 : Ref sig .tc := ⟨.hbm, 99, rfl⟩
abbrev main_v48 : Ref sig .tc := ⟨.hbm, 100, rfl⟩
abbrev main_c_39 : Ref sig .tc := ⟨.hbm, 101, rfl⟩
abbrev main_v49 : Ref sig .tc := ⟨.hbm, 102, rfl⟩
abbrev main_c_40 : Ref sig .tc := ⟨.hbm, 103, rfl⟩
abbrev main_c_41 : Ref sig .tc := ⟨.hbm, 104, rfl⟩
abbrev main_v50 : Ref sig .tc := ⟨.hbm, 105, rfl⟩
abbrev main_c_42 : Ref sig .tc := ⟨.hbm, 106, rfl⟩
abbrev main_c_43 : Ref sig .tc := ⟨.hbm, 107, rfl⟩
abbrev main_v51 : Ref sig .tc := ⟨.hbm, 108, rfl⟩
abbrev main_c_44 : Ref sig .tc := ⟨.hbm, 109, rfl⟩
abbrev main_v52 : Ref sig .tc := ⟨.hbm, 110, rfl⟩
abbrev main_c_45 : Ref sig .tc := ⟨.hbm, 111, rfl⟩
abbrev main_c_46 : Ref sig .tc := ⟨.hbm, 112, rfl⟩
abbrev main_v53 : Ref sig .tc := ⟨.hbm, 113, rfl⟩
abbrev main_c_47 : Ref sig .tc := ⟨.hbm, 114, rfl⟩
abbrev main_c_48 : Ref sig .tc := ⟨.hbm, 115, rfl⟩
abbrev main_v54 : Ref sig .tc := ⟨.hbm, 116, rfl⟩
abbrev main_c_49 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_c_50 : Ref sig .tc := ⟨.hbm, 126, rfl⟩
abbrev main_v63 : Ref sig .tc := ⟨.hbm, 127, rfl⟩
abbrev main_v64 : Ref sig .tc := ⟨.hbm, 128, rfl⟩
abbrev main_c_51 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_c_52 : Ref sig .tc := ⟨.hbm, 133, rfl⟩
abbrev main_c_53 : Ref sig .tc := ⟨.hbm, 134, rfl⟩
abbrev main_v68 : Ref sig .tc := ⟨.hbm, 135, rfl⟩
abbrev main_c_54 : Ref sig .tc := ⟨.hbm, 136, rfl⟩
abbrev main_c_55 : Ref sig .tc := ⟨.hbm, 137, rfl⟩
abbrev main_v69 : Ref sig .tc := ⟨.hbm, 138, rfl⟩
abbrev main_c_56 : Ref sig .tc := ⟨.hbm, 139, rfl⟩
abbrev main_v70 : Ref sig .tc := ⟨.hbm, 140, rfl⟩
abbrev main_c_57 : Ref sig .tc := ⟨.hbm, 141, rfl⟩
abbrev main_c_58 : Ref sig .tc := ⟨.hbm, 142, rfl⟩
abbrev main_v71 : Ref sig .tc := ⟨.hbm, 143, rfl⟩
abbrev main_c_59 : Ref sig .tc := ⟨.hbm, 144, rfl⟩
abbrev main_c_60 : Ref sig .tc := ⟨.hbm, 145, rfl⟩
abbrev main_v72 : Ref sig .tc := ⟨.hbm, 146, rfl⟩
abbrev main_c_61 : Ref sig .tc := ⟨.hbm, 147, rfl⟩
abbrev main_v73 : Ref sig .tc := ⟨.hbm, 148, rfl⟩
abbrev main_c_62 : Ref sig .tc := ⟨.hbm, 149, rfl⟩
abbrev main_c_63 : Ref sig .tc := ⟨.hbm, 150, rfl⟩
abbrev main_v74 : Ref sig .tc := ⟨.hbm, 151, rfl⟩
abbrev main_c_64 : Ref sig .tc := ⟨.hbm, 152, rfl⟩
abbrev main_c_65 : Ref sig .tc := ⟨.hbm, 153, rfl⟩
abbrev main_v75 : Ref sig .tc := ⟨.hbm, 154, rfl⟩
abbrev main_c_66 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_c_67 : Ref sig .tc := ⟨.hbm, 164, rfl⟩
abbrev main_v84 : Ref sig .tc := ⟨.hbm, 165, rfl⟩
abbrev main_v85 : Ref sig .tc := ⟨.hbm, 166, rfl⟩
abbrev main_c_68 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_c_69 : Ref sig .tc := ⟨.hbm, 171, rfl⟩
abbrev main_c_70 : Ref sig .tc := ⟨.hbm, 172, rfl⟩
abbrev main_v89 : Ref sig .tc := ⟨.hbm, 173, rfl⟩
abbrev main_c_71 : Ref sig .tc := ⟨.hbm, 174, rfl⟩
abbrev main_c_72 : Ref sig .tc := ⟨.hbm, 175, rfl⟩
abbrev main_v90 : Ref sig .tc := ⟨.hbm, 176, rfl⟩
abbrev main_c_73 : Ref sig .tc := ⟨.hbm, 177, rfl⟩
abbrev main_v91 : Ref sig .tc := ⟨.hbm, 178, rfl⟩
abbrev main_c_74 : Ref sig .tc := ⟨.hbm, 179, rfl⟩
abbrev main_c_75 : Ref sig .tc := ⟨.hbm, 180, rfl⟩
abbrev main_v92 : Ref sig .tc := ⟨.hbm, 181, rfl⟩
abbrev main_c_76 : Ref sig .tc := ⟨.hbm, 182, rfl⟩
abbrev main_c_77 : Ref sig .tc := ⟨.hbm, 183, rfl⟩
abbrev main_v93 : Ref sig .tc := ⟨.hbm, 184, rfl⟩
abbrev main_c_78 : Ref sig .tc := ⟨.hbm, 185, rfl⟩
abbrev main_v94 : Ref sig .tc := ⟨.hbm, 186, rfl⟩
abbrev main_c_79 : Ref sig .tc := ⟨.hbm, 187, rfl⟩
abbrev main_c_80 : Ref sig .tc := ⟨.hbm, 188, rfl⟩
abbrev main_v95 : Ref sig .tc := ⟨.hbm, 189, rfl⟩
abbrev main_c_81 : Ref sig .tc := ⟨.hbm, 190, rfl⟩
abbrev main_c_82 : Ref sig .tc := ⟨.hbm, 191, rfl⟩
abbrev main_v96 : Ref sig .tc := ⟨.hbm, 192, rfl⟩
abbrev main_c_83 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_c_84 : Ref sig .tc := ⟨.hbm, 202, rfl⟩
abbrev main_v105 : Ref sig .tc := ⟨.hbm, 203, rfl⟩
abbrev main_v106 : Ref sig .tc := ⟨.hbm, 204, rfl⟩
abbrev main_c_85 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_c_86 : Ref sig .tc := ⟨.hbm, 209, rfl⟩
abbrev main_c_87 : Ref sig .tc := ⟨.hbm, 210, rfl⟩
abbrev main_v110 : Ref sig .tc := ⟨.hbm, 211, rfl⟩
abbrev main_c_88 : Ref sig .tc := ⟨.hbm, 212, rfl⟩
abbrev main_c_89 : Ref sig .tc := ⟨.hbm, 213, rfl⟩
abbrev main_v111 : Ref sig .tc := ⟨.hbm, 214, rfl⟩
abbrev main_c_90 : Ref sig .tc := ⟨.hbm, 215, rfl⟩
abbrev main_v112 : Ref sig .tc := ⟨.hbm, 216, rfl⟩
abbrev main_c_91 : Ref sig .tc := ⟨.hbm, 217, rfl⟩
abbrev main_c_92 : Ref sig .tc := ⟨.hbm, 218, rfl⟩
abbrev main_v113 : Ref sig .tc := ⟨.hbm, 219, rfl⟩
abbrev main_c_93 : Ref sig .tc := ⟨.hbm, 220, rfl⟩
abbrev main_c_94 : Ref sig .tc := ⟨.hbm, 221, rfl⟩
abbrev main_v114 : Ref sig .tc := ⟨.hbm, 222, rfl⟩
abbrev main_c_95 : Ref sig .tc := ⟨.hbm, 223, rfl⟩
abbrev main_v115 : Ref sig .tc := ⟨.hbm, 224, rfl⟩
abbrev main_c_96 : Ref sig .tc := ⟨.hbm, 225, rfl⟩
abbrev main_c_97 : Ref sig .tc := ⟨.hbm, 226, rfl⟩
abbrev main_v116 : Ref sig .tc := ⟨.hbm, 227, rfl⟩
abbrev main_c_98 : Ref sig .tc := ⟨.hbm, 228, rfl⟩
abbrev main_c_99 : Ref sig .tc := ⟨.hbm, 229, rfl⟩
abbrev main_v117 : Ref sig .tc := ⟨.hbm, 230, rfl⟩
abbrev main_c_100 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_v124 : Ref sig .tc := ⟨.hbm, 238, rfl⟩
abbrev main_v125 : Ref sig .tc := ⟨.hbm, 239, rfl⟩
abbrev main_c_101 : Ref sig .tc := ⟨.hbm, 240, rfl⟩
abbrev main_v126 : Ref sig .tc := ⟨.hbm, 241, rfl⟩
abbrev main_v127 : Ref sig .tc := ⟨.hbm, 242, rfl⟩
abbrev main_c_102 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_c_103 : Ref sig .tc := ⟨.hbm, 247, rfl⟩
abbrev main_c_104 : Ref sig .tc := ⟨.hbm, 248, rfl⟩
abbrev main_v131 : Ref sig .tc := ⟨.hbm, 249, rfl⟩
abbrev main_c_105 : Ref sig .tc := ⟨.hbm, 250, rfl⟩
abbrev main_c_106 : Ref sig .tc := ⟨.hbm, 251, rfl⟩
abbrev main_v132 : Ref sig .tc := ⟨.hbm, 252, rfl⟩
abbrev main_c_107 : Ref sig .tc := ⟨.hbm, 253, rfl⟩
abbrev main_v133 : Ref sig .tc := ⟨.hbm, 254, rfl⟩
abbrev main_c_108 : Ref sig .tc := ⟨.hbm, 255, rfl⟩
abbrev main_c_109 : Ref sig .tc := ⟨.hbm, 256, rfl⟩
abbrev main_v134 : Ref sig .tc := ⟨.hbm, 257, rfl⟩
abbrev main_c_110 : Ref sig .tc := ⟨.hbm, 258, rfl⟩
abbrev main_c_111 : Ref sig .tc := ⟨.hbm, 259, rfl⟩
abbrev main_v135 : Ref sig .tc := ⟨.hbm, 260, rfl⟩
abbrev main_c_112 : Ref sig .tc := ⟨.hbm, 261, rfl⟩
abbrev main_v136 : Ref sig .tc := ⟨.hbm, 262, rfl⟩
abbrev main_c_113 : Ref sig .tc := ⟨.hbm, 263, rfl⟩
abbrev main_c_114 : Ref sig .tc := ⟨.hbm, 264, rfl⟩
abbrev main_v137 : Ref sig .tc := ⟨.hbm, 265, rfl⟩
abbrev main_c_115 : Ref sig .tc := ⟨.hbm, 266, rfl⟩
abbrev main_c_116 : Ref sig .tc := ⟨.hbm, 267, rfl⟩
abbrev main_v138 : Ref sig .tc := ⟨.hbm, 268, rfl⟩
abbrev main_c_117 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_c_118 : Ref sig .tc := ⟨.hbm, 278, rfl⟩
abbrev main_v147 : Ref sig .tc := ⟨.hbm, 279, rfl⟩
abbrev main_v148 : Ref sig .tc := ⟨.hbm, 280, rfl⟩
abbrev main_c_119 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_c_120 : Ref sig .tc := ⟨.hbm, 285, rfl⟩
abbrev main_c_121 : Ref sig .tc := ⟨.hbm, 286, rfl⟩
abbrev main_v152 : Ref sig .tc := ⟨.hbm, 287, rfl⟩
abbrev main_c_122 : Ref sig .tc := ⟨.hbm, 288, rfl⟩
abbrev main_c_123 : Ref sig .tc := ⟨.hbm, 289, rfl⟩
abbrev main_v153 : Ref sig .tc := ⟨.hbm, 290, rfl⟩
abbrev main_c_124 : Ref sig .tc := ⟨.hbm, 291, rfl⟩
abbrev main_v154 : Ref sig .tc := ⟨.hbm, 292, rfl⟩
abbrev main_c_125 : Ref sig .tc := ⟨.hbm, 293, rfl⟩
abbrev main_c_126 : Ref sig .tc := ⟨.hbm, 294, rfl⟩
abbrev main_v155 : Ref sig .tc := ⟨.hbm, 295, rfl⟩
abbrev main_c_127 : Ref sig .tc := ⟨.hbm, 296, rfl⟩
abbrev main_c_128 : Ref sig .tc := ⟨.hbm, 297, rfl⟩
abbrev main_v156 : Ref sig .tc := ⟨.hbm, 298, rfl⟩
abbrev main_c_129 : Ref sig .tc := ⟨.hbm, 299, rfl⟩
abbrev main_v157 : Ref sig .tc := ⟨.hbm, 300, rfl⟩
abbrev main_c_130 : Ref sig .tc := ⟨.hbm, 301, rfl⟩
abbrev main_c_131 : Ref sig .tc := ⟨.hbm, 302, rfl⟩
abbrev main_v158 : Ref sig .tc := ⟨.hbm, 303, rfl⟩
abbrev main_c_132 : Ref sig .tc := ⟨.hbm, 304, rfl⟩
abbrev main_c_133 : Ref sig .tc := ⟨.hbm, 305, rfl⟩
abbrev main_v159 : Ref sig .tc := ⟨.hbm, 306, rfl⟩
abbrev main_c_134 : Ref sig .tc := ⟨.hbm, 307, rfl⟩
abbrev main_v160 : Ref sig .tc := ⟨.hbm, 308, rfl⟩
abbrev main_v161 : Ref sig .tc := ⟨.hbm, 309, rfl⟩
abbrev main_v162 : Ref sig .tc := ⟨.hbm, 310, rfl⟩
abbrev main_v163 : Ref sig .tc := ⟨.hbm, 311, rfl⟩
abbrev main_v164 : Ref sig .tc := ⟨.hbm, 312, rfl⟩
abbrev main_v165 : Ref sig .tc := ⟨.hbm, 313, rfl⟩
abbrev main_v166 : Ref sig .tc := ⟨.hbm, 314, rfl⟩
abbrev main_v167 : Ref sig .tc := ⟨.hbm, 315, rfl⟩
abbrev main_c_135 : Ref sig .tc := ⟨.hbm, 316, rfl⟩
abbrev main_v168 : Ref sig .tc := ⟨.hbm, 317, rfl⟩
abbrev main_v169 : Ref sig .tc := ⟨.hbm, 318, rfl⟩
abbrev main_c_136 : Ref sig .tc := ⟨.hbm, 319, rfl⟩
abbrev main_v170 : Ref sig .tc := ⟨.hbm, 320, rfl⟩
abbrev main_v171 : Ref sig .tc := ⟨.hbm, 321, rfl⟩
abbrev main_c_137 : Ref sig .tc := ⟨.hbm, 322, rfl⟩
abbrev main_call0_v0 : Ref sig .tc := ⟨.hbm, 323, rfl⟩
abbrev main_call0_v1 : Ref sig .tc := ⟨.hbm, 324, rfl⟩
abbrev main_call0_v2 : Ref sig .tc := ⟨.hbm, 325, rfl⟩
abbrev main_call0_v3 : Ref sig .tc := ⟨.hbm, 326, rfl⟩
abbrev main_call0_v4 : Ref sig .tc := ⟨.hbm, 327, rfl⟩
abbrev main_call0_v5 : Ref sig .tc := ⟨.hbm, 328, rfl⟩
abbrev main_call0_v6 : Ref sig .tc := ⟨.hbm, 329, rfl⟩
abbrev main_call0_v7 : Ref sig .tc := ⟨.hbm, 330, rfl⟩
abbrev main_call0_v8 : Ref sig .tc := ⟨.hbm, 331, rfl⟩
abbrev main_call0_c : Ref sig .tc := ⟨.hbm, 332, rfl⟩
abbrev main_call0_v9 : Ref sig .tc := ⟨.hbm, 333, rfl⟩
abbrev main_call0_v10 : Ref sig .tc := ⟨.hbm, 334, rfl⟩
abbrev main_call0_v11 : Ref sig .tc := ⟨.hbm, 335, rfl⟩
abbrev main_call0_c_0 : Ref sig .tc := ⟨.hbm, 336, rfl⟩
abbrev main_call0_v12 : Ref sig .tc := ⟨.hbm, 337, rfl⟩
abbrev main_call0_v13 : Ref sig .tc := ⟨.hbm, 338, rfl⟩
abbrev main_v172 : Ref sig .tc := ⟨.hbm, 339, rfl⟩
abbrev main_c_138 : Ref sig .tc := ⟨.hbm, 340, rfl⟩
abbrev main_call1_v0 : Ref sig .tc := ⟨.hbm, 341, rfl⟩
abbrev main_call1_c : Ref sig .tc := ⟨.hbm, 342, rfl⟩
abbrev main_call1_v1 : Ref sig .tc := ⟨.hbm, 343, rfl⟩
abbrev main_call1_c_0 : Ref sig .tc := ⟨.hbm, 344, rfl⟩
abbrev main_call1_v2 : Ref sig .tc := ⟨.hbm, 345, rfl⟩
abbrev main_call1_v3 : Ref sig .tc := ⟨.hbm, 346, rfl⟩
abbrev main_call1_v4 : Ref sig .tc := ⟨.hbm, 347, rfl⟩
abbrev main_call1_c_1 : Ref sig .tc := ⟨.hbm, 348, rfl⟩
abbrev main_call1_v5 : Ref sig .tc := ⟨.hbm, 349, rfl⟩
abbrev main_call1_v6 : Ref sig .tc := ⟨.hbm, 350, rfl⟩
abbrev main_call1_c_2 : Ref sig .tc := ⟨.hbm, 351, rfl⟩
abbrev main_call1_v7 : Ref sig .tc := ⟨.hbm, 352, rfl⟩
abbrev main_call1_v8 : Ref sig .tc := ⟨.hbm, 353, rfl⟩
abbrev main_call1_c_3 : Ref sig .tc := ⟨.hbm, 354, rfl⟩
abbrev main_call1_v9 : Ref sig .tc := ⟨.hbm, 355, rfl⟩
abbrev main_call1_v10 : Ref sig .tc := ⟨.hbm, 356, rfl⟩
abbrev main_call1_v11 : Ref sig .tc := ⟨.hbm, 357, rfl⟩
abbrev main_call1_v12 : Ref sig .tc := ⟨.hbm, 358, rfl⟩
abbrev main_call1_v13 : Ref sig .tc := ⟨.hbm, 359, rfl⟩
abbrev main_call1_v14 : Ref sig .tc := ⟨.hbm, 360, rfl⟩
abbrev main_v173 : Ref sig .tc := ⟨.hbm, 361, rfl⟩
abbrev main_c_139 : Ref sig .tc := ⟨.hbm, 362, rfl⟩
abbrev main_call2_v0 : Ref sig .tc := ⟨.hbm, 363, rfl⟩
abbrev main_call2_v1 : Ref sig .tc := ⟨.hbm, 364, rfl⟩
abbrev main_call2_v2 : Ref sig .tc := ⟨.hbm, 365, rfl⟩
abbrev main_call2_v3 : Ref sig .tc := ⟨.hbm, 366, rfl⟩
abbrev main_call2_v4 : Ref sig .tc := ⟨.hbm, 367, rfl⟩
abbrev main_call2_v5 : Ref sig .tc := ⟨.hbm, 368, rfl⟩
abbrev main_call2_v6 : Ref sig .tc := ⟨.hbm, 369, rfl⟩
abbrev main_call2_v7 : Ref sig .tc := ⟨.hbm, 370, rfl⟩
abbrev main_call2_v8 : Ref sig .tc := ⟨.hbm, 371, rfl⟩
abbrev main_call2_c : Ref sig .tc := ⟨.hbm, 372, rfl⟩
abbrev main_call2_v9 : Ref sig .tc := ⟨.hbm, 373, rfl⟩
abbrev main_call2_v10 : Ref sig .tc := ⟨.hbm, 374, rfl⟩
abbrev main_call2_v11 : Ref sig .tc := ⟨.hbm, 375, rfl⟩
abbrev main_call2_c_0 : Ref sig .tc := ⟨.hbm, 376, rfl⟩
abbrev main_call2_v12 : Ref sig .tc := ⟨.hbm, 377, rfl⟩
abbrev main_call2_v13 : Ref sig .tc := ⟨.hbm, 378, rfl⟩
abbrev main_v174 : Ref sig .tc := ⟨.hbm, 379, rfl⟩
abbrev main_c_140 : Ref sig .tc := ⟨.hbm, 380, rfl⟩
abbrev main_call3_v0 : Ref sig .tc := ⟨.hbm, 381, rfl⟩
abbrev main_call3_c : Ref sig .tc := ⟨.hbm, 382, rfl⟩
abbrev main_call3_v1 : Ref sig .tc := ⟨.hbm, 383, rfl⟩
abbrev main_call3_c_0 : Ref sig .tc := ⟨.hbm, 384, rfl⟩
abbrev main_call3_v2 : Ref sig .tc := ⟨.hbm, 385, rfl⟩
abbrev main_call3_v3 : Ref sig .tc := ⟨.hbm, 386, rfl⟩
abbrev main_call3_v4 : Ref sig .tc := ⟨.hbm, 387, rfl⟩
abbrev main_call3_c_1 : Ref sig .tc := ⟨.hbm, 388, rfl⟩
abbrev main_call3_v5 : Ref sig .tc := ⟨.hbm, 389, rfl⟩
abbrev main_call3_v6 : Ref sig .tc := ⟨.hbm, 390, rfl⟩
abbrev main_call3_c_2 : Ref sig .tc := ⟨.hbm, 391, rfl⟩
abbrev main_call3_v7 : Ref sig .tc := ⟨.hbm, 392, rfl⟩
abbrev main_call3_v8 : Ref sig .tc := ⟨.hbm, 393, rfl⟩
abbrev main_call3_c_3 : Ref sig .tc := ⟨.hbm, 394, rfl⟩
abbrev main_call3_v9 : Ref sig .tc := ⟨.hbm, 395, rfl⟩
abbrev main_call3_v10 : Ref sig .tc := ⟨.hbm, 396, rfl⟩
abbrev main_call3_v11 : Ref sig .tc := ⟨.hbm, 397, rfl⟩
abbrev main_call3_v12 : Ref sig .tc := ⟨.hbm, 398, rfl⟩
abbrev main_call3_v13 : Ref sig .tc := ⟨.hbm, 399, rfl⟩
abbrev main_call3_v14 : Ref sig .tc := ⟨.hbm, 400, rfl⟩
abbrev main_v175 : Ref sig .tc := ⟨.hbm, 401, rfl⟩
abbrev main_c_141 : Ref sig .tc := ⟨.hbm, 402, rfl⟩
abbrev main_call4_v0 : Ref sig .tc := ⟨.hbm, 403, rfl⟩
abbrev main_call4_c : Ref sig .tc := ⟨.hbm, 404, rfl⟩
abbrev main_call4_v1 : Ref sig .tc := ⟨.hbm, 405, rfl⟩
abbrev main_call4_c_0 : Ref sig .tc := ⟨.hbm, 406, rfl⟩
abbrev main_call4_v2 : Ref sig .tc := ⟨.hbm, 407, rfl⟩
abbrev main_call4_v3 : Ref sig .tc := ⟨.hbm, 408, rfl⟩
abbrev main_call4_v4 : Ref sig .tc := ⟨.hbm, 409, rfl⟩
abbrev main_call4_c_1 : Ref sig .tc := ⟨.hbm, 410, rfl⟩
abbrev main_call4_v5 : Ref sig .tc := ⟨.hbm, 411, rfl⟩
abbrev main_call4_v6 : Ref sig .tc := ⟨.hbm, 412, rfl⟩
abbrev main_call4_c_2 : Ref sig .tc := ⟨.hbm, 413, rfl⟩
abbrev main_call4_v7 : Ref sig .tc := ⟨.hbm, 414, rfl⟩
abbrev main_call4_v8 : Ref sig .tc := ⟨.hbm, 415, rfl⟩
abbrev main_call4_c_3 : Ref sig .tc := ⟨.hbm, 416, rfl⟩
abbrev main_call4_v9 : Ref sig .tc := ⟨.hbm, 417, rfl⟩
abbrev main_call4_v10 : Ref sig .tc := ⟨.hbm, 418, rfl⟩
abbrev main_call4_v11 : Ref sig .tc := ⟨.hbm, 419, rfl⟩
abbrev main_call4_v12 : Ref sig .tc := ⟨.hbm, 420, rfl⟩
abbrev main_call4_v13 : Ref sig .tc := ⟨.hbm, 421, rfl⟩
abbrev main_call4_v14 : Ref sig .tc := ⟨.hbm, 422, rfl⟩
abbrev main_v176 : Ref sig .tc := ⟨.hbm, 423, rfl⟩
abbrev main_c_142 : Ref sig .tc := ⟨.hbm, 424, rfl⟩
abbrev main_call5_v0 : Ref sig .tc := ⟨.hbm, 425, rfl⟩
abbrev main_call5_c : Ref sig .tc := ⟨.hbm, 426, rfl⟩
abbrev main_call5_v1 : Ref sig .tc := ⟨.hbm, 427, rfl⟩
abbrev main_call5_c_0 : Ref sig .tc := ⟨.hbm, 428, rfl⟩
abbrev main_call5_v2 : Ref sig .tc := ⟨.hbm, 429, rfl⟩
abbrev main_call5_v3 : Ref sig .tc := ⟨.hbm, 430, rfl⟩
abbrev main_call5_v4 : Ref sig .tc := ⟨.hbm, 431, rfl⟩
abbrev main_call5_c_1 : Ref sig .tc := ⟨.hbm, 432, rfl⟩
abbrev main_call5_v5 : Ref sig .tc := ⟨.hbm, 433, rfl⟩
abbrev main_call5_v6 : Ref sig .tc := ⟨.hbm, 434, rfl⟩
abbrev main_call5_c_2 : Ref sig .tc := ⟨.hbm, 435, rfl⟩
abbrev main_call5_v7 : Ref sig .tc := ⟨.hbm, 436, rfl⟩
abbrev main_call5_v8 : Ref sig .tc := ⟨.hbm, 437, rfl⟩
abbrev main_call5_c_3 : Ref sig .tc := ⟨.hbm, 438, rfl⟩
abbrev main_call5_v9 : Ref sig .tc := ⟨.hbm, 439, rfl⟩
abbrev main_call5_v10 : Ref sig .tc := ⟨.hbm, 440, rfl⟩
abbrev main_call5_v11 : Ref sig .tc := ⟨.hbm, 441, rfl⟩
abbrev main_call5_v12 : Ref sig .tc := ⟨.hbm, 442, rfl⟩
abbrev main_call5_v13 : Ref sig .tc := ⟨.hbm, 443, rfl⟩
abbrev main_call5_v14 : Ref sig .tc := ⟨.hbm, 444, rfl⟩
abbrev main_v177 : Ref sig .tc := ⟨.hbm, 445, rfl⟩
abbrev main_v178 : Ref sig .tc := ⟨.hbm, 446, rfl⟩
abbrev main_v179 : Ref sig .tc := ⟨.hbm, 447, rfl⟩
abbrev main_v180 : Ref sig .tc := ⟨.hbm, 448, rfl⟩
abbrev main_v181 : Ref sig .tc := ⟨.hbm, 449, rfl⟩
abbrev main_c_143 : Ref sig .tc := ⟨.hbm, 450, rfl⟩
abbrev main_v182 : Ref sig .tc := ⟨.hbm, 451, rfl⟩
abbrev main_v183 : Ref sig .tc := ⟨.hbm, 452, rfl⟩
abbrev main_v184 : Ref sig .tc := ⟨.hbm, 453, rfl⟩
abbrev main_v185 : Ref sig .tc := ⟨.hbm, 454, rfl⟩
abbrev main_v186 : Ref sig .tc := ⟨.hbm, 455, rfl⟩
abbrev main_v187 : Ref sig .tc := ⟨.hbm, 456, rfl⟩
abbrev main_v188 : Ref sig .tc := ⟨.hbm, 457, rfl⟩
abbrev main_c_144 : Ref sig .tc := ⟨.hbm, 458, rfl⟩
abbrev main_call6_v0 : Ref sig .tc := ⟨.hbm, 459, rfl⟩
abbrev main_call6_c : Ref sig .tc := ⟨.hbm, 460, rfl⟩
abbrev main_call6_v1 : Ref sig .tc := ⟨.hbm, 461, rfl⟩
abbrev main_call6_c_0 : Ref sig .tc := ⟨.hbm, 462, rfl⟩
abbrev main_call6_v2 : Ref sig .tc := ⟨.hbm, 463, rfl⟩
abbrev main_call6_v3 : Ref sig .tc := ⟨.hbm, 464, rfl⟩
abbrev main_call6_v4 : Ref sig .tc := ⟨.hbm, 465, rfl⟩
abbrev main_call6_c_1 : Ref sig .tc := ⟨.hbm, 466, rfl⟩
abbrev main_call6_v5 : Ref sig .tc := ⟨.hbm, 467, rfl⟩
abbrev main_call6_v6 : Ref sig .tc := ⟨.hbm, 468, rfl⟩
abbrev main_call6_c_2 : Ref sig .tc := ⟨.hbm, 469, rfl⟩
abbrev main_call6_v7 : Ref sig .tc := ⟨.hbm, 470, rfl⟩
abbrev main_call6_v8 : Ref sig .tc := ⟨.hbm, 471, rfl⟩
abbrev main_call6_c_3 : Ref sig .tc := ⟨.hbm, 472, rfl⟩
abbrev main_call6_v9 : Ref sig .tc := ⟨.hbm, 473, rfl⟩
abbrev main_call6_v10 : Ref sig .tc := ⟨.hbm, 474, rfl⟩
abbrev main_call6_v11 : Ref sig .tc := ⟨.hbm, 475, rfl⟩
abbrev main_call6_v12 : Ref sig .tc := ⟨.hbm, 476, rfl⟩
abbrev main_call6_v13 : Ref sig .tc := ⟨.hbm, 477, rfl⟩
abbrev main_call6_v14 : Ref sig .tc := ⟨.hbm, 478, rfl⟩
abbrev main_v189 : Ref sig .tc := ⟨.hbm, 479, rfl⟩
abbrev main_c_145 : Ref sig .tc := ⟨.hbm, 480, rfl⟩
abbrev main_v190 : Ref sig .tc := ⟨.hbm, 481, rfl⟩
abbrev main_v191 : Ref sig .tc := ⟨.hbm, 482, rfl⟩
abbrev main_c_146 : Ref sig .tc := ⟨.hbm, 483, rfl⟩
abbrev main_v192 : Ref sig .tc := ⟨.hbm, 484, rfl⟩
abbrev main_v193 : Ref sig .tc := ⟨.hbm, 485, rfl⟩
abbrev main_v194 : Ref sig .tc := ⟨.hbm, 486, rfl⟩
abbrev main_v195 : Ref sig .tc := ⟨.hbm, 487, rfl⟩
abbrev main_v196 : Ref sig .tc := ⟨.hbm, 488, rfl⟩
abbrev main_v197 : Ref sig .tc := ⟨.hbm, 489, rfl⟩
abbrev main_call7_v0 : Ref sig .tc := ⟨.hbm, 490, rfl⟩
abbrev main_call7_v1 : Ref sig .tc := ⟨.hbm, 491, rfl⟩
abbrev main_v198 : Ref sig .tc := ⟨.hbm, 492, rfl⟩
abbrev main_c_147 : Ref sig .tc := ⟨.hbm, 493, rfl⟩
abbrev main_v199 : Ref sig .tc := ⟨.hbm, 494, rfl⟩
abbrev main_v200 : Ref sig .tc := ⟨.hbm, 495, rfl⟩
abbrev main_v201 : Ref sig .tc := ⟨.hbm, 496, rfl⟩
abbrev main_v202 : Ref sig .tc := ⟨.hbm, 497, rfl⟩
abbrev main_v203 : Ref sig .tc := ⟨.hbm, 498, rfl⟩
abbrev main_v204 : Ref sig .tc := ⟨.hbm, 499, rfl⟩
abbrev main_v205 : Ref sig .tc := ⟨.hbm, 500, rfl⟩
abbrev main_v206 : Ref sig .tc := ⟨.hbm, 501, rfl⟩
abbrev main_v207 : Ref sig .tc := ⟨.hbm, 502, rfl⟩
abbrev main_v208 : Ref sig .tc := ⟨.hbm, 503, rfl⟩
abbrev main_c_148 : Ref sig .tc := ⟨.hbm, 504, rfl⟩
abbrev main_call8_v0 : Ref sig .tc := ⟨.hbm, 505, rfl⟩
abbrev main_call8_c : Ref sig .tc := ⟨.hbm, 506, rfl⟩
abbrev main_call8_v1 : Ref sig .tc := ⟨.hbm, 507, rfl⟩
abbrev main_call8_c_0 : Ref sig .tc := ⟨.hbm, 508, rfl⟩
abbrev main_call8_v2 : Ref sig .tc := ⟨.hbm, 509, rfl⟩
abbrev main_call8_v3 : Ref sig .tc := ⟨.hbm, 510, rfl⟩
abbrev main_call8_v4 : Ref sig .tc := ⟨.hbm, 511, rfl⟩
abbrev main_call8_c_1 : Ref sig .tc := ⟨.hbm, 512, rfl⟩
abbrev main_call8_v5 : Ref sig .tc := ⟨.hbm, 513, rfl⟩
abbrev main_call8_v6 : Ref sig .tc := ⟨.hbm, 514, rfl⟩
abbrev main_call8_c_2 : Ref sig .tc := ⟨.hbm, 515, rfl⟩
abbrev main_call8_v7 : Ref sig .tc := ⟨.hbm, 516, rfl⟩
abbrev main_call8_v8 : Ref sig .tc := ⟨.hbm, 517, rfl⟩
abbrev main_call8_c_3 : Ref sig .tc := ⟨.hbm, 518, rfl⟩
abbrev main_call8_v9 : Ref sig .tc := ⟨.hbm, 519, rfl⟩
abbrev main_call8_v10 : Ref sig .tc := ⟨.hbm, 520, rfl⟩
abbrev main_call8_v11 : Ref sig .tc := ⟨.hbm, 521, rfl⟩
abbrev main_call8_v12 : Ref sig .tc := ⟨.hbm, 522, rfl⟩
abbrev main_call8_v13 : Ref sig .tc := ⟨.hbm, 523, rfl⟩
abbrev main_call8_v14 : Ref sig .tc := ⟨.hbm, 524, rfl⟩
abbrev main_v209 : Ref sig .tc := ⟨.hbm, 525, rfl⟩
abbrev main_v210 : Ref sig .tc := ⟨.hbm, 526, rfl⟩
abbrev main_v211 : Ref sig .tc := ⟨.hbm, 527, rfl⟩
abbrev main_v212 : Ref sig .tc := ⟨.hbm, 528, rfl⟩
abbrev main_v213 : Ref sig .tc := ⟨.hbm, 529, rfl⟩
abbrev main_v214 : Ref sig .tc := ⟨.hbm, 530, rfl⟩
abbrev main_c_149 : Ref sig .tc := ⟨.hbm, 531, rfl⟩
abbrev main_v215 : Ref sig .tc := ⟨.hbm, 532, rfl⟩
abbrev main_v216 : Ref sig .tc := ⟨.hbm, 533, rfl⟩
abbrev main_c_150 : Ref sig .tc := ⟨.hbm, 534, rfl⟩
abbrev main_v217 : Ref sig .tc := ⟨.hbm, 535, rfl⟩
abbrev main_v218 : Ref sig .tc := ⟨.hbm, 536, rfl⟩
abbrev main_v219 : Ref sig .tc := ⟨.hbm, 537, rfl⟩
abbrev main_v220 : Ref sig .tc := ⟨.hbm, 538, rfl⟩
abbrev main_v221 : Ref sig .tc := ⟨.hbm, 539, rfl⟩
abbrev main_call9_v0 : Ref sig .tc := ⟨.hbm, 540, rfl⟩
abbrev main_call9_v1 : Ref sig .tc := ⟨.hbm, 541, rfl⟩
abbrev main_v222 : Ref sig .tc := ⟨.hbm, 542, rfl⟩
abbrev main_v223 : Ref sig .tc := ⟨.hbm, 543, rfl⟩
abbrev main_v224 : Ref sig .tc := ⟨.hbm, 544, rfl⟩
abbrev main_v225 : Ref sig .tc := ⟨.hbm, 545, rfl⟩
abbrev main_v226 : Ref sig .tc := ⟨.hbm, 546, rfl⟩
abbrev main_v227 : Ref sig .tc := ⟨.hbm, 547, rfl⟩
abbrev main_c_151 : Ref sig .tc := ⟨.hbm, 548, rfl⟩
abbrev main_c_152 : Ref sig .tc := ⟨.hbm, 549, rfl⟩
abbrev main_call10_v0 : Ref sig .tc := ⟨.hbm, 550, rfl⟩
abbrev main_call10_v1 : Ref sig .tc := ⟨.hbm, 551, rfl⟩
abbrev main_call10_v2 : Ref sig .tc := ⟨.hbm, 552, rfl⟩
abbrev main_call10_v3 : Ref sig .tc := ⟨.hbm, 553, rfl⟩
abbrev main_call10_v4 : Ref sig .tc := ⟨.hbm, 554, rfl⟩
abbrev main_v228 : Ref sig .tc := ⟨.hbm, 555, rfl⟩
abbrev main_c_153 : Ref sig .tc := ⟨.hbm, 556, rfl⟩
abbrev main_v229 : Ref sig .tc := ⟨.hbm, 557, rfl⟩
abbrev main_v230 : Ref sig .tc := ⟨.hbm, 558, rfl⟩
abbrev main_v231 : Ref sig .tc := ⟨.hbm, 559, rfl⟩
abbrev main_v232 : Ref sig .tc := ⟨.hbm, 560, rfl⟩
abbrev main_v233 : Ref sig .tc := ⟨.hbm, 561, rfl⟩
abbrev main_v234 : Ref sig .tc := ⟨.hbm, 562, rfl⟩
abbrev main_v235 : Ref sig .tc := ⟨.hbm, 563, rfl⟩
abbrev main_v236 : Ref sig .tc := ⟨.hbm, 564, rfl⟩
abbrev main_c_154 : Ref sig .tc := ⟨.hbm, 565, rfl⟩
abbrev main_call11_v0 : Ref sig .tc := ⟨.hbm, 566, rfl⟩
abbrev main_call11_c : Ref sig .tc := ⟨.hbm, 567, rfl⟩
abbrev main_call11_v1 : Ref sig .tc := ⟨.hbm, 568, rfl⟩
abbrev main_call11_c_0 : Ref sig .tc := ⟨.hbm, 569, rfl⟩
abbrev main_call11_v2 : Ref sig .tc := ⟨.hbm, 570, rfl⟩
abbrev main_call11_v3 : Ref sig .tc := ⟨.hbm, 571, rfl⟩
abbrev main_call11_v4 : Ref sig .tc := ⟨.hbm, 572, rfl⟩
abbrev main_call11_c_1 : Ref sig .tc := ⟨.hbm, 573, rfl⟩
abbrev main_call11_v5 : Ref sig .tc := ⟨.hbm, 574, rfl⟩
abbrev main_call11_v6 : Ref sig .tc := ⟨.hbm, 575, rfl⟩
abbrev main_call11_c_2 : Ref sig .tc := ⟨.hbm, 576, rfl⟩
abbrev main_call11_v7 : Ref sig .tc := ⟨.hbm, 577, rfl⟩
abbrev main_call11_v8 : Ref sig .tc := ⟨.hbm, 578, rfl⟩
abbrev main_call11_c_3 : Ref sig .tc := ⟨.hbm, 579, rfl⟩
abbrev main_call11_v9 : Ref sig .tc := ⟨.hbm, 580, rfl⟩
abbrev main_call11_v10 : Ref sig .tc := ⟨.hbm, 581, rfl⟩
abbrev main_call11_v11 : Ref sig .tc := ⟨.hbm, 582, rfl⟩
abbrev main_call11_v12 : Ref sig .tc := ⟨.hbm, 583, rfl⟩
abbrev main_call11_v13 : Ref sig .tc := ⟨.hbm, 584, rfl⟩
abbrev main_call11_v14 : Ref sig .tc := ⟨.hbm, 585, rfl⟩
abbrev main_v237 : Ref sig .tc := ⟨.hbm, 586, rfl⟩
abbrev main_v238 : Ref sig .tc := ⟨.hbm, 587, rfl⟩
abbrev main_c_155 : Ref sig .tc := ⟨.hbm, 588, rfl⟩
abbrev main_v239 : Ref sig .tc := ⟨.hbm, 589, rfl⟩
abbrev main_v240 : Ref sig .tc := ⟨.hbm, 590, rfl⟩
abbrev main_c_156 : Ref sig .tc := ⟨.hbm, 591, rfl⟩
abbrev main_v241 : Ref sig .tc := ⟨.hbm, 592, rfl⟩
abbrev main_v242 : Ref sig .tc := ⟨.hbm, 593, rfl⟩
abbrev main_v243 : Ref sig .tc := ⟨.hbm, 594, rfl⟩
abbrev main_c_157 : Ref sig .tc := ⟨.hbm, 595, rfl⟩
abbrev main_v244 : Ref sig .tc := ⟨.hbm, 596, rfl⟩
abbrev main_v245 : Ref sig .tc := ⟨.hbm, 597, rfl⟩
abbrev main_c_158 : Ref sig .tc := ⟨.hbm, 598, rfl⟩
abbrev main_v246 : Ref sig .tc := ⟨.hbm, 599, rfl⟩
abbrev main_v247 : Ref sig .tc := ⟨.hbm, 600, rfl⟩
abbrev main_v248 : Ref sig .tc := ⟨.hbm, 601, rfl⟩
abbrev main_v249 : Ref sig .tc := ⟨.hbm, 602, rfl⟩
abbrev main_v250 : Ref sig .tc := ⟨.hbm, 603, rfl⟩
abbrev main_v251 : Ref sig .tc := ⟨.hbm, 604, rfl⟩
abbrev main_v252 : Ref sig .tc := ⟨.hbm, 605, rfl⟩
abbrev main_v253 : Ref sig .tc := ⟨.hbm, 606, rfl⟩
abbrev main_v254 : Ref sig .tc := ⟨.hbm, 607, rfl⟩
abbrev main_v255 : Ref sig .tc := ⟨.hbm, 608, rfl⟩
abbrev main_c_159 : Ref sig .tc := ⟨.hbm, 609, rfl⟩
abbrev main_v256 : Ref sig .tc := ⟨.hbm, 610, rfl⟩
abbrev main_v257 : Ref sig .tc := ⟨.hbm, 611, rfl⟩
abbrev main_c_160 : Ref sig .tc := ⟨.hbm, 612, rfl⟩
abbrev main_v258 : Ref sig .tc := ⟨.hbm, 613, rfl⟩
abbrev main_v259 : Ref sig .tc := ⟨.hbm, 614, rfl⟩
abbrev main_v260 : Ref sig .tc := ⟨.hbm, 615, rfl⟩
abbrev main_v261 : Ref sig .tc := ⟨.hbm, 616, rfl⟩
abbrev main_v262 : Ref sig .tc := ⟨.hbm, 617, rfl⟩
abbrev main_v263 : Ref sig .tc := ⟨.hbm, 618, rfl⟩
abbrev main_call12_v0 : Ref sig .tc := ⟨.hbm, 619, rfl⟩
abbrev main_call12_v1 : Ref sig .tc := ⟨.hbm, 620, rfl⟩
abbrev main_v264 : Ref sig .tc := ⟨.hbm, 621, rfl⟩
abbrev main_c_161 : Ref sig .tc := ⟨.hbm, 622, rfl⟩
abbrev main_v265 : Ref sig .tc := ⟨.hbm, 623, rfl⟩
abbrev main_v266 : Ref sig .tc := ⟨.hbm, 624, rfl⟩
abbrev main_v267 : Ref sig .tc := ⟨.hbm, 625, rfl⟩
abbrev main_v268 : Ref sig .tc := ⟨.hbm, 626, rfl⟩
abbrev main_v269 : Ref sig .tc := ⟨.hbm, 627, rfl⟩
abbrev main_v270 : Ref sig .tc := ⟨.hbm, 628, rfl⟩
abbrev main_v271 : Ref sig .tc := ⟨.hbm, 629, rfl⟩
abbrev main_v272 : Ref sig .tc := ⟨.hbm, 630, rfl⟩
abbrev main_v273 : Ref sig .tc := ⟨.hbm, 631, rfl⟩
abbrev main_v274 : Ref sig .tc := ⟨.hbm, 632, rfl⟩
abbrev main_c_162 : Ref sig .tc := ⟨.hbm, 633, rfl⟩
abbrev main_call13_v0 : Ref sig .tc := ⟨.hbm, 634, rfl⟩
abbrev main_call13_c : Ref sig .tc := ⟨.hbm, 635, rfl⟩
abbrev main_call13_v1 : Ref sig .tc := ⟨.hbm, 636, rfl⟩
abbrev main_call13_c_0 : Ref sig .tc := ⟨.hbm, 637, rfl⟩
abbrev main_call13_v2 : Ref sig .tc := ⟨.hbm, 638, rfl⟩
abbrev main_call13_v3 : Ref sig .tc := ⟨.hbm, 639, rfl⟩
abbrev main_call13_v4 : Ref sig .tc := ⟨.hbm, 640, rfl⟩
abbrev main_call13_c_1 : Ref sig .tc := ⟨.hbm, 641, rfl⟩
abbrev main_call13_v5 : Ref sig .tc := ⟨.hbm, 642, rfl⟩
abbrev main_call13_v6 : Ref sig .tc := ⟨.hbm, 643, rfl⟩
abbrev main_call13_c_2 : Ref sig .tc := ⟨.hbm, 644, rfl⟩
abbrev main_call13_v7 : Ref sig .tc := ⟨.hbm, 645, rfl⟩
abbrev main_call13_v8 : Ref sig .tc := ⟨.hbm, 646, rfl⟩
abbrev main_call13_c_3 : Ref sig .tc := ⟨.hbm, 647, rfl⟩
abbrev main_call13_v9 : Ref sig .tc := ⟨.hbm, 648, rfl⟩
abbrev main_call13_v10 : Ref sig .tc := ⟨.hbm, 649, rfl⟩
abbrev main_call13_v11 : Ref sig .tc := ⟨.hbm, 650, rfl⟩
abbrev main_call13_v12 : Ref sig .tc := ⟨.hbm, 651, rfl⟩
abbrev main_call13_v13 : Ref sig .tc := ⟨.hbm, 652, rfl⟩
abbrev main_call13_v14 : Ref sig .tc := ⟨.hbm, 653, rfl⟩
abbrev main_v275 : Ref sig .tc := ⟨.hbm, 654, rfl⟩
abbrev main_v276 : Ref sig .tc := ⟨.hbm, 655, rfl⟩
abbrev main_v277 : Ref sig .tc := ⟨.hbm, 656, rfl⟩
abbrev main_v278 : Ref sig .tc := ⟨.hbm, 657, rfl⟩
abbrev main_v279 : Ref sig .tc := ⟨.hbm, 658, rfl⟩
abbrev main_c_163 : Ref sig .tc := ⟨.hbm, 659, rfl⟩
abbrev main_v280 : Ref sig .tc := ⟨.hbm, 660, rfl⟩
abbrev main_v281 : Ref sig .tc := ⟨.hbm, 661, rfl⟩
abbrev main_c_164 : Ref sig .tc := ⟨.hbm, 662, rfl⟩
abbrev main_v282 : Ref sig .tc := ⟨.hbm, 663, rfl⟩
abbrev main_v283 : Ref sig .tc := ⟨.hbm, 664, rfl⟩
abbrev main_v284 : Ref sig .tc := ⟨.hbm, 665, rfl⟩
abbrev main_v285 : Ref sig .tc := ⟨.hbm, 666, rfl⟩
abbrev main_v286 : Ref sig .tc := ⟨.hbm, 667, rfl⟩
abbrev main_v287 : Ref sig .tc := ⟨.hbm, 668, rfl⟩
abbrev main_v288 : Ref sig .tc := ⟨.hbm, 669, rfl⟩
abbrev main_v289 : Ref sig .tc := ⟨.hbm, 670, rfl⟩
abbrev main_c_165 : Ref sig .tc := ⟨.hbm, 671, rfl⟩
abbrev main_v290 : Ref sig .tc := ⟨.hbm, 672, rfl⟩
abbrev main_v291 : Ref sig .tc := ⟨.hbm, 673, rfl⟩
abbrev main_c_166 : Ref sig .tc := ⟨.hbm, 674, rfl⟩
abbrev main_v292 : Ref sig .tc := ⟨.hbm, 675, rfl⟩
abbrev main_v293 : Ref sig .tc := ⟨.hbm, 676, rfl⟩
abbrev main_v294 : Ref sig .tc := ⟨.hbm, 677, rfl⟩
abbrev main_c_167 : Ref sig .tc := ⟨.hbm, 678, rfl⟩
abbrev main_v295 : Ref sig .tc := ⟨.hbm, 679, rfl⟩
abbrev main_v296 : Ref sig .tc := ⟨.hbm, 680, rfl⟩
abbrev main_c_168 : Ref sig .tc := ⟨.hbm, 681, rfl⟩
abbrev main_v297 : Ref sig .tc := ⟨.hbm, 682, rfl⟩
abbrev main_v298 : Ref sig .tc := ⟨.hbm, 683, rfl⟩
abbrev main_v299 : Ref sig .tc := ⟨.hbm, 684, rfl⟩
abbrev main_v300 : Ref sig .tc := ⟨.hbm, 685, rfl⟩
abbrev main_v301 : Ref sig .tc := ⟨.hbm, 686, rfl⟩
abbrev main_v302 : Ref sig .tc := ⟨.hbm, 687, rfl⟩
abbrev main_v303 : Ref sig .tc := ⟨.hbm, 688, rfl⟩
abbrev main_v304 : Ref sig .tc := ⟨.hbm, 689, rfl⟩
abbrev main_v305 : Ref sig .tc := ⟨.hbm, 690, rfl⟩
abbrev main_call14_v0 : Ref sig .tc := ⟨.hbm, 691, rfl⟩
abbrev main_call14_v1 : Ref sig .tc := ⟨.hbm, 692, rfl⟩
abbrev main_v306 : Ref sig .tc := ⟨.hbm, 693, rfl⟩
abbrev main_v307 : Ref sig .tc := ⟨.hbm, 694, rfl⟩
abbrev main_v308 : Ref sig .tc := ⟨.hbm, 695, rfl⟩
abbrev main_v309 : Ref sig .tc := ⟨.hbm, 696, rfl⟩
abbrev main_v310 : Ref sig .tc := ⟨.hbm, 697, rfl⟩
abbrev main_v311 : Ref sig .tc := ⟨.hbm, 698, rfl⟩
abbrev main_c_169 : Ref sig .tc := ⟨.hbm, 699, rfl⟩
abbrev main_v312 : Ref sig .tc := ⟨.hbm, 700, rfl⟩
abbrev main_v313 : Ref sig .tc := ⟨.hbm, 701, rfl⟩
abbrev main_v314 : Ref sig .tc := ⟨.hbm, 702, rfl⟩
abbrev main_v315 : Ref sig .tc := ⟨.hbm, 703, rfl⟩
abbrev main_v316 : Ref sig .tc := ⟨.hbm, 704, rfl⟩
abbrev main_v317 : Ref sig .tc := ⟨.hbm, 705, rfl⟩
abbrev main_v318 : Ref sig .tc := ⟨.hbm, 706, rfl⟩
abbrev main_cst : Ref sig .tc := ⟨.hbm, 707, rfl⟩
abbrev main_call15_v0 : Ref sig .tc := ⟨.hbm, 708, rfl⟩
abbrev main_call15_v1 : Ref sig .tc := ⟨.hbm, 709, rfl⟩
abbrev main_call15_v2 : Ref sig .tc := ⟨.hbm, 710, rfl⟩
abbrev main_v319 : Ref sig .tc := ⟨.hbm, 711, rfl⟩
abbrev main_call16_v0 : Ref sig .tc := ⟨.hbm, 712, rfl⟩
abbrev main_v320 : Ref sig .tc := ⟨.hbm, 713, rfl⟩
abbrev main_v321 : Ref sig .tc := ⟨.hbm, 714, rfl⟩
abbrev main_v322 : Ref sig .tc := ⟨.hbm, 715, rfl⟩
abbrev main_v323 : Ref sig .tc := ⟨.hbm, 716, rfl⟩
abbrev main_v324 : Ref sig .tc := ⟨.hbm, 717, rfl⟩
abbrev main_v325 : Ref sig .tc := ⟨.hbm, 718, rfl⟩
abbrev main_c_170 : Ref sig .tc := ⟨.hbm, 719, rfl⟩
abbrev main_v326 : Ref sig .tc := ⟨.hbm, 720, rfl⟩
abbrev main_v327 : Ref sig .tc := ⟨.hbm, 721, rfl⟩
abbrev main_v328 : Ref sig .tc := ⟨.hbm, 722, rfl⟩
abbrev main_v329 : Ref sig .tc := ⟨.hbm, 723, rfl⟩
abbrev main_v330 : Ref sig .tc := ⟨.hbm, 724, rfl⟩
abbrev main_v331 : Ref sig .tc := ⟨.hbm, 725, rfl⟩
abbrev main_v332 : Ref sig .tc := ⟨.hbm, 726, rfl⟩
abbrev main_call17_v0 : Ref sig .tc := ⟨.hbm, 727, rfl⟩
abbrev main_v333 : Ref sig .tc := ⟨.hbm, 728, rfl⟩
abbrev main_call18_v0 : Ref sig .tc := ⟨.hbm, 729, rfl⟩
abbrev main_v334 : Ref sig .tc := ⟨.hbm, 730, rfl⟩
abbrev main_v335 : Ref sig .tc := ⟨.hbm, 731, rfl⟩
abbrev main_v336 : Ref sig .tc := ⟨.hbm, 732, rfl⟩
abbrev main_v337 : Ref sig .tc := ⟨.hbm, 733, rfl⟩
abbrev main_v338 : Ref sig .tc := ⟨.hbm, 734, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x3x16x392x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x392x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x16x392x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  concatenates_S16x1_S16x1_S16x1_S16x1_S16x4_d1 : Shape.Concatenates [S16x1, S16x1, S16x1, S16x1] S16x4 1
  shapeCasts_S16x1x3x1x224_S16x3x224 : S16x1x3x1x224.ShapeCasts S16x3x224
  shapeCasts_S16x1x3x10x224_S16x3x10x224 : S16x1x3x10x224.ShapeCasts S16x3x10x224
  shapeCasts_S16x1x3x164x1_S16x3x164 : S16x1x3x164x1.ShapeCasts S16x3x164
  shapeCasts_S16x1x3x164x10_S16x3x164x10 : S16x1x3x164x10.ShapeCasts S16x3x164x10
  bcast_S224_S224x1_0 : S224.BroadcastsInDim S224x1 (![0] : Fin 1 → Fin S224x1.rank)
  bcast_S224_S1x224_1 : S224.BroadcastsInDim S1x224 (![1] : Fin 1 → Fin S1x224.rank)
  bcast_S224x1_S1x224x1_1_2 : S224x1.BroadcastsInDim S1x224x1 (![1, 2] : Fin 2 → Fin S1x224x1.rank)
  bcast_S16_S16x1x1_0 : S16.BroadcastsInDim S16x1x1 (![0] : Fin 1 → Fin S16x1x1.rank)
  bcast_S1x224x1_S16x224x1_0_1_2 : S1x224x1.BroadcastsInDim S16x224x1 (![0, 1, 2] : Fin 3 → Fin S16x224x1.rank)
  bcast_S16x1x1_S16x224x1_0_1_2 : S16x1x1.BroadcastsInDim S16x224x1 (![0, 1, 2] : Fin 3 → Fin S16x224x1.rank)
  bcast_S_S224 : S_.BroadcastsInDim S224 (![] : Fin 0 → Fin S224.rank)
  bcast_S16x3x224_S16x3x1x224_0_1_3 : S16x3x224.BroadcastsInDim S16x3x1x224 (![0, 1, 3] : Fin 3 → Fin S16x3x1x224.rank)
  bcast_S16x224x1_S16x3x224x224_0_2_3 : S16x224x1.BroadcastsInDim S16x3x224x224 (![0, 2, 3] : Fin 3 → Fin S16x3x224x224.rank)
  bcast_S16x3x1x224_S16x3x224x224_0_1_2_3 : S16x3x1x224.BroadcastsInDim S16x3x224x224 (![0, 1, 2, 3] : Fin 4 → Fin S16x3x224x224.rank)
  bcast_S_S16x224x1 : S_.BroadcastsInDim S16x224x1 (![] : Fin 0 → Fin S16x224x1.rank)
  shapeCasts_S16x224x1_S16x224 : S16x224x1.ShapeCasts S16x224
  bcast_S_S16x224 : S_.BroadcastsInDim S16x224 (![] : Fin 0 → Fin S16x224.rank)
  bcast_S16x224_S16x224x1_0_1 : S16x224.BroadcastsInDim S16x224x1 (![0, 1] : Fin 2 → Fin S16x224x1.rank)
  bcast_S1x224_S16x224_0_1 : S1x224.BroadcastsInDim S16x224 (![0, 1] : Fin 2 → Fin S16x224.rank)
  bcast_S16x1_S16x224_0_1 : S16x1.BroadcastsInDim S16x224 (![0, 1] : Fin 2 → Fin S16x224.rank)
  bcast_S1x224_S1x1x224_1_2 : S1x224.BroadcastsInDim S1x1x224 (![1, 2] : Fin 2 → Fin S1x1x224.rank)
  bcast_S1x1x224_S16x1x224_0_1_2 : S1x1x224.BroadcastsInDim S16x1x224 (![0, 1, 2] : Fin 3 → Fin S16x1x224.rank)
  bcast_S16x1x1_S16x1x224_0_1_2 : S16x1x1.BroadcastsInDim S16x1x224 (![0, 1, 2] : Fin 3 → Fin S16x1x224.rank)
  bcast_S_S1x224 : S_.BroadcastsInDim S1x224 (![] : Fin 0 → Fin S1x224.rank)
  bcast_S16x224x1_S16x224x224_0_1_2 : S16x224x1.BroadcastsInDim S16x224x224 (![0, 1, 2] : Fin 3 → Fin S16x224x224.rank)
  bcast_S1x224_S224x224_0_1 : S1x224.BroadcastsInDim S224x224 (![0, 1] : Fin 2 → Fin S224x224.rank)
  bcast_S16x224x224_S16x224x224x1_0_1_2 : S16x224x224.BroadcastsInDim S16x224x224x1 (![0, 1, 2] : Fin 3 → Fin S16x224x224x1.rank)
  bcast_S224x224_S224x224x1_0_1 : S224x224.BroadcastsInDim S224x224x1 (![0, 1] : Fin 2 → Fin S224x224x1.rank)
  bcast_S224x224x1_S16x224x224x1_1_2_3 : S224x224x1.BroadcastsInDim S16x224x224x1 (![1, 2, 3] : Fin 3 → Fin S16x224x224x1.rank)
  concatenates_S16x224x224x1_S16x224x224x1_S16x224x224x2_d3 : Shape.Concatenates [S16x224x224x1, S16x224x224x1] S16x224x224x2 3
  bcast_S16x3x224_S16x3x224x1_0_1_2 : S16x3x224.BroadcastsInDim S16x3x224x1 (![0, 1, 2] : Fin 3 → Fin S16x3x224x1.rank)
  bcast_S16x1x224_S16x3x224x224_0_2_3 : S16x1x224.BroadcastsInDim S16x3x224x224 (![0, 2, 3] : Fin 3 → Fin S16x3x224x224.rank)
  bcast_S16x3x224x1_S16x3x224x224_0_1_2_3 : S16x3x224x1.BroadcastsInDim S16x3x224x224 (![0, 1, 2, 3] : Fin 4 → Fin S16x3x224x224.rank)
  bcast_S16x224_S16x1x224_0_2 : S16x224.BroadcastsInDim S16x1x224 (![0, 2] : Fin 2 → Fin S16x1x224.rank)
  bcast_S_S16x1x224 : S_.BroadcastsInDim S16x1x224 (![] : Fin 0 → Fin S16x1x224.rank)
  bcast_S16x1x224_S16x224x224_0_1_2 : S16x1x224.BroadcastsInDim S16x224x224 (![0, 1, 2] : Fin 3 → Fin S16x224x224.rank)
  bcast_S_S3x224x224 : S_.BroadcastsInDim S3x224x224 (![] : Fin 0 → Fin S3x224x224.rank)
  bcast_S3x224x224_S16x3x224x224_1_2_3 : S3x224x224.BroadcastsInDim S16x3x224x224 (![1, 2, 3] : Fin 3 → Fin S16x3x224x224.rank)
  shapeCasts_S16x3x16x224x224_S16x3x16x392x128 : S16x3x16x224x224.ShapeCasts S16x3x16x392x128
  shapeCasts_S16x3x224x224_S16x3x392x128 : S16x3x224x224.ShapeCasts S16x3x392x128
  inb_S1x3x392x128_S1x3x392x128_0_0_0_0 : ∀ a, (![0, 0, 0, 0] : Fin 4 → Nat) a + S1x3x392x128.size a ≤ S1x3x392x128.size a
  h_S1x3x392x128 : 0 < S1x3x392x128.numel
  shapeCasts_S1x3x392x128_S3x392x128 : S1x3x392x128.ShapeCasts S3x392x128
  shapeCasts_S3x392x128_S3x1x392x128 : S3x392x128.ShapeCasts S3x1x392x128
  inb_S1x3x16x392x128_S1x3x1x392x128_0_0_0_0_0 : ∀ a, (![0, 0, 0, 0, 0] : Fin 5 → Nat) a + S1x3x1x392x128.size a ≤ S1x3x16x392x128.size a
  h_S1x3x1x392x128 : 0 < S1x3x1x392x128.numel
  shapeCasts_S1x3x1x392x128_S3x1x392x128 : S1x3x1x392x128.ShapeCasts S3x1x392x128
  shapeCasts_S3x1x392x128_S1x3x1x392x128 : S3x1x392x128.ShapeCasts S1x3x1x392x128
  inb_S1x3x16x392x128_S1x3x1x392x128_0_0_1_0_0 : ∀ a, (![0, 0, 1, 0, 0] : Fin 5 → Nat) a + S1x3x1x392x128.size a ≤ S1x3x16x392x128.size a
  inb_S1x3x16x392x128_S1x3x1x392x128_0_0_2_0_0 : ∀ a, (![0, 0, 2, 0, 0] : Fin 5 → Nat) a + S1x3x1x392x128.size a ≤ S1x3x16x392x128.size a
  inb_S1x3x16x392x128_S1x3x1x392x128_0_0_3_0_0 : ∀ a, (![0, 0, 3, 0, 0] : Fin 5 → Nat) a + S1x3x1x392x128.size a ≤ S1x3x16x392x128.size a
  inb_S1x3x16x392x128_S1x3x1x392x128_0_0_4_0_0 : ∀ a, (![0, 0, 4, 0, 0] : Fin 5 → Nat) a + S1x3x1x392x128.size a ≤ S1x3x16x392x128.size a
  inb_S1x3x16x392x128_S1x3x1x392x128_0_0_5_0_0 : ∀ a, (![0, 0, 5, 0, 0] : Fin 5 → Nat) a + S1x3x1x392x128.size a ≤ S1x3x16x392x128.size a
  inb_S1x3x16x392x128_S1x3x1x392x128_0_0_6_0_0 : ∀ a, (![0, 0, 6, 0, 0] : Fin 5 → Nat) a + S1x3x1x392x128.size a ≤ S1x3x16x392x128.size a
  inb_S1x3x16x392x128_S1x3x1x392x128_0_0_7_0_0 : ∀ a, (![0, 0, 7, 0, 0] : Fin 5 → Nat) a + S1x3x1x392x128.size a ≤ S1x3x16x392x128.size a
  inb_S1x3x16x392x128_S1x3x1x392x128_0_0_8_0_0 : ∀ a, (![0, 0, 8, 0, 0] : Fin 5 → Nat) a + S1x3x1x392x128.size a ≤ S1x3x16x392x128.size a
  inb_S1x3x16x392x128_S1x3x1x392x128_0_0_9_0_0 : ∀ a, (![0, 0, 9, 0, 0] : Fin 5 → Nat) a + S1x3x1x392x128.size a ≤ S1x3x16x392x128.size a
  inb_S1x3x16x392x128_S1x3x1x392x128_0_0_10_0_0 : ∀ a, (![0, 0, 10, 0, 0] : Fin 5 → Nat) a + S1x3x1x392x128.size a ≤ S1x3x16x392x128.size a
  inb_S1x3x16x392x128_S1x3x1x392x128_0_0_11_0_0 : ∀ a, (![0, 0, 11, 0, 0] : Fin 5 → Nat) a + S1x3x1x392x128.size a ≤ S1x3x16x392x128.size a
  inb_S1x3x16x392x128_S1x3x1x392x128_0_0_12_0_0 : ∀ a, (![0, 0, 12, 0, 0] : Fin 5 → Nat) a + S1x3x1x392x128.size a ≤ S1x3x16x392x128.size a
  inb_S1x3x16x392x128_S1x3x1x392x128_0_0_13_0_0 : ∀ a, (![0, 0, 13, 0, 0] : Fin 5 → Nat) a + S1x3x1x392x128.size a ≤ S1x3x16x392x128.size a
  inb_S1x3x16x392x128_S1x3x1x392x128_0_0_14_0_0 : ∀ a, (![0, 0, 14, 0, 0] : Fin 5 → Nat) a + S1x3x1x392x128.size a ≤ S1x3x16x392x128.size a
  inb_S1x3x16x392x128_S1x3x1x392x128_0_0_15_0_0 : ∀ a, (![0, 0, 15, 0, 0] : Fin 5 → Nat) a + S1x3x1x392x128.size a ≤ S1x3x16x392x128.size a
  shapeCasts_S16x3x16x392x128_S16x3x16x224x224 : S16x3x16x392x128.ShapeCasts S16x3x16x224x224
  gather_S3x3x1x224_S16x4_S16x1x3x1x224_1234_n_n_n_0123_1_131224_wf : GatherDims.WF S3x3x1x224 S16x4 S16x1x3x1x224 [1, 2, 3, 4] [] [] [0, 1, 2, 3] [] 1 ![1, 3, 1, 224]
  gather_S3x3x10x224_S16x4_S16x1x3x10x224_1234_n_n_n_0123_1_1310224_wf : GatherDims.WF S3x3x10x224 S16x4 S16x1x3x10x224 [1, 2, 3, 4] [] [] [0, 1, 2, 3] [] 1 ![1, 3, 10, 224]
  gather_S3x3x164x1_S16x4_S16x1x3x164x1_1234_n_n_n_0123_1_131641_wf : GatherDims.WF S3x3x164x1 S16x4 S16x1x3x164x1 [1, 2, 3, 4] [] [] [0, 1, 2, 3] [] 1 ![1, 3, 164, 1]
  gather_S3x3x164x10_S16x4_S16x1x3x164x10_1234_n_n_n_0123_1_1316410_wf : GatherDims.WF S3x3x164x10 S16x4 S16x1x3x164x10 [1, 2, 3, 4] [] [] [0, 1, 2, 3] [] 1 ![1, 3, 164, 10]
  gather_S16x3x10x224_S224x1_S16x3x224x224_013_2_n_n_2_1_1631224_wf : GatherDims.WF S16x3x10x224 S224x1 S16x3x224x224 [0, 1, 3] [2] [] [2] [] 1 ![16, 3, 1, 224]
  gather_S16x3x10x224_S16x224x1_S16x3x224x224_13_2_0_0_2_2_131224_wf : GatherDims.WF S16x3x10x224 S16x224x1 S16x3x224x224 [1, 3] [2] [0] [2] [0] 2 ![1, 3, 1, 224]
  gather_S16x3x164x10_S16x224x224x2_S16x3x224x224_1_23_0_0_23_3_1311_wf : GatherDims.WF S16x3x164x10 S16x224x224x2 S16x3x224x224 [1] [2, 3] [0] [2, 3] [0] 3 ![1, 3, 1, 1]
  gather_S16x3x164_S16x224x1_S16x3x224_1_2_0_0_2_2_131_wf : GatherDims.WF S16x3x164 S16x224x1 S16x3x224 [1] [2] [0] [2] [0] 2 ![1, 3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x16x392x128.size a ≤ S16x3x16x392x128.size a
  hwx0_0 : ∀ i : grid0.Coords, EltTy.bits .f32 = 32 ∨ (Rect.block (s := S16x3x16x392x128) S1x3x16x392x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x392x128.size a ≤ S16x3x392x128.size a
  hwx0_1 : ∀ i : grid0.Coords, EltTy.bits .f32 = 32 ∨ (Rect.block (s := S16x3x392x128) S1x3x392x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x16x392x128.size a ≤ S16x3x16x392x128.size a
  hwx0_2 : ∀ i : grid0.Coords, EltTy.bits .f32 = 32 ∨ (Rect.block (s := S16x3x16x392x128) S1x3x16x392x128.size (cc0_transform_2 i) (hinb0_2 i)).WholeWords (EltTy.packing .f32)

variable [Facts₀]

def gather_S3x3x1x224_S16x4_S16x1x3x1x224_1234_n_n_n_0123_1_131224 : GatherDims S3x3x1x224 S16x4 S16x1x3x1x224 where
  offsetDims := [1, 2, 3, 4]
  collapsedSliceDims := []
  operandBatchingDims := []
  startIndicesBatchingDims := []
  startIndexMap := [0, 1, 2, 3]
  indexVectorDim := 1
  sliceSizes := ![1, 3, 1, 224]
  wf := gather_S3x3x1x224_S16x4_S16x1x3x1x224_1234_n_n_n_0123_1_131224_wf
def gather_S3x3x10x224_S16x4_S16x1x3x10x224_1234_n_n_n_0123_1_1310224 : GatherDims S3x3x10x224 S16x4 S16x1x3x10x224 where
  offsetDims := [1, 2, 3, 4]
  collapsedSliceDims := []
  operandBatchingDims := []
  startIndicesBatchingDims := []
  startIndexMap := [0, 1, 2, 3]
  indexVectorDim := 1
  sliceSizes := ![1, 3, 10, 224]
  wf := gather_S3x3x10x224_S16x4_S16x1x3x10x224_1234_n_n_n_0123_1_1310224_wf
def gather_S3x3x164x1_S16x4_S16x1x3x164x1_1234_n_n_n_0123_1_131641 : GatherDims S3x3x164x1 S16x4 S16x1x3x164x1 where
  offsetDims := [1, 2, 3, 4]
  collapsedSliceDims := []
  operandBatchingDims := []
  startIndicesBatchingDims := []
  startIndexMap := [0, 1, 2, 3]
  indexVectorDim := 1
  sliceSizes := ![1, 3, 164, 1]
  wf := gather_S3x3x164x1_S16x4_S16x1x3x164x1_1234_n_n_n_0123_1_131641_wf
def gather_S3x3x164x10_S16x4_S16x1x3x164x10_1234_n_n_n_0123_1_1316410 : GatherDims S3x3x164x10 S16x4 S16x1x3x164x10 where
  offsetDims := [1, 2, 3, 4]
  collapsedSliceDims := []
  operandBatchingDims := []
  startIndicesBatchingDims := []
  startIndexMap := [0, 1, 2, 3]
  indexVectorDim := 1
  sliceSizes := ![1, 3, 164, 10]
  wf := gather_S3x3x164x10_S16x4_S16x1x3x164x10_1234_n_n_n_0123_1_1316410_wf
def gather_S16x3x10x224_S224x1_S16x3x224x224_013_2_n_n_2_1_1631224 : GatherDims S16x3x10x224 S224x1 S16x3x224x224 where
  offsetDims := [0, 1, 3]
  collapsedSliceDims := [2]
  operandBatchingDims := []
  startIndicesBatchingDims := []
  startIndexMap := [2]
  indexVectorDim := 1
  sliceSizes := ![16, 3, 1, 224]
  wf := gather_S16x3x10x224_S224x1_S16x3x224x224_013_2_n_n_2_1_1631224_wf
def gather_S16x3x10x224_S16x224x1_S16x3x224x224_13_2_0_0_2_2_131224 : GatherDims S16x3x10x224 S16x224x1 S16x3x224x224 where
  offsetDims := [1, 3]
  collapsedSliceDims := [2]
  operandBatchingDims := [0]
  startIndicesBatchingDims := [0]
  startIndexMap := [2]
  indexVectorDim := 2
  sliceSizes := ![1, 3, 1, 224]
  wf := gather_S16x3x10x224_S16x224x1_S16x3x224x224_13_2_0_0_2_2_131224_wf
def gather_S16x3x164x10_S16x224x224x2_S16x3x224x224_1_23_0_0_23_3_1311 : GatherDims S16x3x164x10 S16x224x224x2 S16x3x224x224 where
  offsetDims := [1]
  collapsedSliceDims := [2, 3]
  operandBatchingDims := [0]
  startIndicesBatchingDims := [0]
  startIndexMap := [2, 3]
  indexVectorDim := 3
  sliceSizes := ![1, 3, 1, 1]
  wf := gather_S16x3x164x10_S16x224x224x2_S16x3x224x224_1_23_0_0_23_3_1311_wf
def gather_S16x3x164_S16x224x1_S16x3x224_1_2_0_0_2_2_131 : GatherDims S16x3x164 S16x224x1 S16x3x224 where
  offsetDims := [1]
  collapsedSliceDims := [2]
  operandBatchingDims := [0]
  startIndicesBatchingDims := [0]
  startIndexMap := [2]
  indexVectorDim := 2
  sliceSizes := ![1, 3, 1]
  wf := gather_S16x3x164_S16x224x1_S16x3x224_1_2_0_0_2_2_131_wf

abbrev win0_0 : Pipeline.Window sig grid0 :=
  Pipeline.Window.ofSpec (Memref.whole main_v335) S1x3x16x392x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v336) S1x3x392x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v337) S1x3x16x392x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S16x3x16x224x224 : Shape := ⟨5, ![16, 3, 16, 224, 224]⟩
abbrev S3x3x1x224 : Shape := ⟨4, ![3, 3, 1, 224]⟩
abbrev S3x3x10x224 : Shape := ⟨4, ![3, 3, 10, 224]⟩
abbrev S3x3x164x1 : Shape := ⟨4, ![3, 3, 164, 1]⟩
abbrev S3x3x164x10 : Shape := ⟨4, ![3, 3, 164, 10]⟩
abbrev S16 : Shape := ⟨1, ![16]⟩
abbrev S_ : Shape := ⟨0, ![]⟩
abbrev S16x1 : Shape := ⟨2, ![16, 1]⟩
abbrev S16x4 : Shape := ⟨2, ![16, 4]⟩
abbrev S16x1x3x1x224 : Shape := ⟨5, ![16, 1, 3, 1, 224]⟩
abbrev S16x3x224 : Shape := ⟨3, ![16, 3, 224]⟩
abbrev S16x1x3x10x224 : Shape := ⟨5, ![16, 1, 3, 10, 224]⟩
abbrev S16x3x10x224 : Shape := ⟨4, ![16, 3, 10, 224]⟩
abbrev S16x1x3x164x1 : Shape := ⟨5, ![16, 1, 3, 164, 1]⟩
abbrev S16x3x164 : Shape := ⟨3, ![16, 3, 164]⟩
abbrev S16x1x3x164x10 : Shape := ⟨5, ![16, 1, 3, 164, 10]⟩
abbrev S16x3x164x10 : Shape := ⟨4, ![16, 3, 164, 10]⟩
abbrev S224 : Shape := ⟨1, ![224]⟩
abbrev S224x1 : Shape := ⟨2, ![224, 1]⟩
abbrev S1x224 : Shape := ⟨2, ![1, 224]⟩
abbrev S1x224x1 : Shape := ⟨3, ![1, 224, 1]⟩
abbrev S16x1x1 : Shape := ⟨3, ![16, 1, 1]⟩
abbrev S16x224x1 : Shape := ⟨3, ![16, 224, 1]⟩
abbrev S16x3x224x224 : Shape := ⟨4, ![16, 3, 224, 224]⟩
abbrev S16x3x1x224 : Shape := ⟨4, ![16, 3, 1, 224]⟩
abbrev S16x224 : Shape := ⟨2, ![16, 224]⟩
abbrev S1x1x224 : Shape := ⟨3, ![1, 1, 224]⟩
abbrev S16x1x224 : Shape := ⟨3, ![16, 1, 224]⟩
abbrev S16x224x224 : Shape := ⟨3, ![16, 224, 224]⟩
abbrev S224x224 : Shape := ⟨2, ![224, 224]⟩
abbrev S16x224x224x1 : Shape := ⟨4, ![16, 224, 224, 1]⟩
abbrev S224x224x1 : Shape := ⟨3, ![224, 224, 1]⟩
abbrev S16x224x224x2 : Shape := ⟨4, ![16, 224, 224, 2]⟩
abbrev S16x3x224x1 : Shape := ⟨4, ![16, 3, 224, 1]⟩
abbrev S3x224x224 : Shape := ⟨3, ![3, 224, 224]⟩
abbrev S16x3x1x224x224 : Shape := ⟨5, ![16, 3, 1, 224, 224]⟩

abbrev nBuf : Space → Nat
  | .hbm => 734
  | .vmem => 0
  | .smem => 0
  | _ => 0

abbrev hbmTy0_0 (i : Nat) : BufTy := match i % 128 with
  | 0 => ⟨S16x3x16x224x224, .f32⟩
  | 1 => ⟨S3x3x1x224, .f32⟩
  | 2 => ⟨S3x3x10x224, .f32⟩
  | 3 => ⟨S3x3x1x224, .f32⟩
  | 4 => ⟨S3x3x10x224, .f32⟩
  | 5 => ⟨S3x3x164x1, .f32⟩
  | 6 => ⟨S3x3x164x10, .f32⟩
  | 7 => ⟨S3x3x164x1, .f32⟩
  | 8 => ⟨S3x3x164x10, .f32⟩
  | 9 => ⟨S16, .i32⟩
  | 10 => ⟨S16, .i32⟩
  | 11 => ⟨S16, .i32⟩
  | 12 => ⟨S_, .i32⟩
  | 13 => ⟨S16, .i32⟩
  | 14 => ⟨S16, .i1⟩
  | 15 => ⟨S_, .i32⟩
  | 16 => ⟨S16, .i32⟩
  | 17 => ⟨S16, .i32⟩
  | 18 => ⟨S16, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S16x1, .i32⟩
  | 44 => ⟨S16x1, .i32⟩
  | 45 => ⟨S16x1, .i32⟩
  | 46 => ⟨S16x1, .i32⟩
  | 47 => ⟨S16x4, .i32⟩
  | 48 => ⟨S16x1x3x1x224, .f32⟩
  | 49 => ⟨S16x3x224, .f32⟩
  | 50 => ⟨S_, .i32⟩
  | 51 => ⟨S16, .i32⟩
  | 52 => ⟨S16, .i1⟩
  | 53 => ⟨S_, .i32⟩
  | 54 => ⟨S16, .i32⟩
  | 55 => ⟨S16, .i32⟩
  | 56 => ⟨S16, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S16x1, .i32⟩
  | 82 => ⟨S16x1, .i32⟩
  | 83 => ⟨S16x1, .i32⟩
  | 84 => ⟨S16x1, .i32⟩
  | 85 => ⟨S16x4, .i32⟩
  | 86 => ⟨S16x1x3x10x224, .f32⟩
  | 87 => ⟨S16x3x10x224, .f32⟩
  | 88 => ⟨S_, .i32⟩
  | 89 => ⟨S16, .i32⟩
  | 90 => ⟨S16, .i1⟩
  | 91 => ⟨S_, .i32⟩
  | 92 => ⟨S16, .i32⟩
  | 93 => ⟨S16, .i32⟩
  | 94 => ⟨S16, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S16x1, .i32⟩
  | 120 => ⟨S16x1, .i32⟩
  | 121 => ⟨S16x1, .i32⟩
  | 122 => ⟨S16x1, .i32⟩
  | 123 => ⟨S16x4, .i32⟩
  | 124 => ⟨S16x1x3x1x224, .f32⟩
  | 125 => ⟨S16x3x224, .f32⟩
  | 126 => ⟨S_, .i32⟩
  | 127 => ⟨S16, .i32⟩
  | _ => ⟨S16x3x16x224x224, .f32⟩

abbrev hbmTy0_1 (i : Nat) : BufTy := match i % 128 with
  | 0 => ⟨S16, .i1⟩
  | 1 => ⟨S_, .i32⟩
  | 2 => ⟨S16, .i32⟩
  | 3 => ⟨S16, .i32⟩
  | 4 => ⟨S16, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S16x1, .i32⟩
  | 30 => ⟨S16x1, .i32⟩
  | 31 => ⟨S16x1, .i32⟩
  | 32 => ⟨S16x1, .i32⟩
  | 33 => ⟨S16x4, .i32⟩
  | 34 => ⟨S16x1x3x10x224, .f32⟩
  | 35 => ⟨S16x3x10x224, .f32⟩
  | 36 => ⟨S_, .i32⟩
  | 37 => ⟨S16, .i32⟩
  | 38 => ⟨S16, .i1⟩
  | 39 => ⟨S_, .i32⟩
  | 40 => ⟨S16, .i32⟩
  | 41 => ⟨S16, .i32⟩
  | 42 => ⟨S16, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S16x1, .i32⟩
  | 68 => ⟨S16x1, .i32⟩
  | 69 => ⟨S16x1, .i32⟩
  | 70 => ⟨S16x1, .i32⟩
  | 71 => ⟨S16x4, .i32⟩
  | 72 => ⟨S16x1x3x164x1, .f32⟩
  | 73 => ⟨S16x3x164, .f32⟩
  | 74 => ⟨S_, .i32⟩
  | 75 => ⟨S16, .i32⟩
  | 76 => ⟨S16, .i1⟩
  | 77 => ⟨S_, .i32⟩
  | 78 => ⟨S16, .i32⟩
  | 79 => ⟨S16, .i32⟩
  | 80 => ⟨S16, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S16x1, .i32⟩
  | 106 => ⟨S16x1, .i32⟩
  | 107 => ⟨S16x1, .i32⟩
  | 108 => ⟨S16x1, .i32⟩
  | 109 => ⟨S16x4, .i32⟩
  | 110 => ⟨S16x1x3x164x10, .f32⟩
  | 111 => ⟨S16x3x164x10, .f32⟩
  | 112 => ⟨S_, .i32⟩
  | 113 => ⟨S16, .i32⟩
  | 114 => ⟨S16, .i1⟩
  | 115 => ⟨S_, .i32⟩
  | 116 => ⟨S16, .i32⟩
  | 117 => ⟨S16, .i32⟩
  | 118 => ⟨S16, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S16x3x16x224x224, .f32⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S16x1, .i32⟩
  | 16 => ⟨S16x1, .i32⟩
  | 17 => ⟨S16x1, .i32⟩
  | 18 => ⟨S16x1, .i32⟩
  | 19 => ⟨S16x4, .i32⟩
  | 20 => ⟨S16x1x3x164x1, .f32⟩
  | 21 => ⟨S16x3x164, .f32⟩
  | 22 => ⟨S_, .i32⟩
  | 23 => ⟨S16, .i32⟩
  | 24 => ⟨S16, .i1⟩
  | 25 => ⟨S_, .i32⟩
  | 26 => ⟨S16, .i32⟩
  | 27 => ⟨S16, .i32⟩
  | 28 => ⟨S16, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S16x1, .i32⟩
  | 54 => ⟨S16x1, .i32⟩
  | 55 => ⟨S16x1, .i32⟩
  | 56 => ⟨S16x1, .i32⟩
  | 57 => ⟨S16x4, .i32⟩
  | 58 => ⟨S16x1x3x164x10, .f32⟩
  | 59 => ⟨S16x3x164x10, .f32⟩
  | 60 => ⟨S_, .i32⟩
  | 61 => ⟨S16, .i32⟩
  | 62 => ⟨S16, .i32⟩
  | 63 => ⟨S_, .i32⟩
  | 64 => ⟨S16, .i32⟩
  | 65 => ⟨S16, .i32⟩
  | 66 => ⟨S_, .i32⟩
  | 67 => ⟨S_, .i32⟩
  | 68 => ⟨S16, .i32⟩
  | 69 => ⟨S16, .i32⟩
  | 70 => ⟨S16, .i32⟩
  | 71 => ⟨S_, .i32⟩
  | 72 => ⟨S16, .i32⟩
  | 73 => ⟨S16, .i1⟩
  | 74 => ⟨S16, .i32⟩
  | 75 => ⟨S16, .i32⟩
  | 76 => ⟨S_, .i32⟩
  | 77 => ⟨S16, .i32⟩
  | 78 => ⟨S16, .i1⟩
  | 79 => ⟨S16, .i1⟩
  | 80 => ⟨S_, .i32⟩
  | 81 => ⟨S16, .i32⟩
  | 82 => ⟨S16, .i32⟩
  | 83 => ⟨S16, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S16, .i32⟩
  | 91 => ⟨S16, .i32⟩
  | 92 => ⟨S_, .i32⟩
  | 93 => ⟨S16, .i32⟩
  | 94 => ⟨S16, .i1⟩
  | 95 => ⟨S_, .i32⟩
  | 96 => ⟨S16, .i32⟩
  | 97 => ⟨S16, .i1⟩
  | 98 => ⟨S_, .i32⟩
  | 99 => ⟨S_, .i1⟩
  | 100 => ⟨S16, .i1⟩
  | 101 => ⟨S16, .i1⟩
  | 102 => ⟨S16, .i1⟩
  | 103 => ⟨S16, .i32⟩
  | 104 => ⟨S16, .i32⟩
  | 105 => ⟨S16, .i32⟩
  | 106 => ⟨S_, .i32⟩
  | 107 => ⟨S_, .i32⟩
  | 108 => ⟨S16, .i32⟩
  | 109 => ⟨S16, .i32⟩
  | 110 => ⟨S16, .i32⟩
  | 111 => ⟨S_, .i32⟩
  | 112 => ⟨S16, .i32⟩
  | 113 => ⟨S16, .i1⟩
  | 114 => ⟨S16, .i32⟩
  | 115 => ⟨S16, .i32⟩
  | 116 => ⟨S_, .i32⟩
  | 117 => ⟨S16, .i32⟩
  | 118 => ⟨S16, .i1⟩
  | 119 => ⟨S16, .i1⟩
  | 120 => ⟨S_, .i32⟩
  | 121 => ⟨S16, .i32⟩
  | 122 => ⟨S16, .i32⟩
  | 123 => ⟨S16, .i32⟩
  | 124 => ⟨S_, .i32⟩
  | 125 => ⟨S_, .i32⟩
  | 126 => ⟨S_, .i32⟩
  | 127 => ⟨S_, .i1⟩
  | _ => ⟨S16x3x16x224x224, .f32⟩

abbrev hbmTy0_3 (i : Nat) : BufTy := match i % 128 with
  | 0 => ⟨S_, .i32⟩
  | 1 => ⟨S_, .i32⟩
  | 2 => ⟨S16, .i32⟩
  | 3 => ⟨S16, .i32⟩
  | 4 => ⟨S_, .i32⟩
  | 5 => ⟨S16, .i32⟩
  | 6 => ⟨S16, .i1⟩
  | 7 => ⟨S_, .i32⟩
  | 8 => ⟨S16, .i32⟩
  | 9 => ⟨S16, .i1⟩
  | 10 => ⟨S_, .i32⟩
  | 11 => ⟨S_, .i1⟩
  | 12 => ⟨S16, .i1⟩
  | 13 => ⟨S16, .i1⟩
  | 14 => ⟨S16, .i1⟩
  | 15 => ⟨S16, .i32⟩
  | 16 => ⟨S16, .i32⟩
  | 17 => ⟨S16, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S16, .i32⟩
  | 25 => ⟨S16, .i32⟩
  | 26 => ⟨S_, .i32⟩
  | 27 => ⟨S16, .i32⟩
  | 28 => ⟨S16, .i1⟩
  | 29 => ⟨S_, .i32⟩
  | 30 => ⟨S16, .i32⟩
  | 31 => ⟨S16, .i1⟩
  | 32 => ⟨S_, .i32⟩
  | 33 => ⟨S_, .i1⟩
  | 34 => ⟨S16, .i1⟩
  | 35 => ⟨S16, .i1⟩
  | 36 => ⟨S16, .i1⟩
  | 37 => ⟨S16, .i32⟩
  | 38 => ⟨S16, .i32⟩
  | 39 => ⟨S16, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S16, .i32⟩
  | 47 => ⟨S16, .i32⟩
  | 48 => ⟨S_, .i32⟩
  | 49 => ⟨S16, .i32⟩
  | 50 => ⟨S16, .i1⟩
  | 51 => ⟨S_, .i32⟩
  | 52 => ⟨S16, .i32⟩
  | 53 => ⟨S16, .i1⟩
  | 54 => ⟨S_, .i32⟩
  | 55 => ⟨S_, .i1⟩
  | 56 => ⟨S16, .i1⟩
  | 57 => ⟨S16, .i1⟩
  | 58 => ⟨S16, .i1⟩
  | 59 => ⟨S16, .i32⟩
  | 60 => ⟨S16, .i32⟩
  | 61 => ⟨S16, .i32⟩
  | 62 => ⟨S224, .i32⟩
  | 63 => ⟨S224, .i32⟩
  | 64 => ⟨S224x1, .i32⟩
  | 65 => ⟨S1x224, .i32⟩
  | 66 => ⟨S_, .i32⟩
  | 67 => ⟨S16, .i32⟩
  | 68 => ⟨S16, .i32⟩
  | 69 => ⟨S1x224x1, .i32⟩
  | 70 => ⟨S16x1x1, .i32⟩
  | 71 => ⟨S16x224x1, .i32⟩
  | 72 => ⟨S16x224x1, .i32⟩
  | 73 => ⟨S16x224x1, .i1⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S224, .i32⟩
  | 81 => ⟨S224, .i32⟩
  | 82 => ⟨S_, .i32⟩
  | 83 => ⟨S224, .i32⟩
  | 84 => ⟨S224, .i1⟩
  | 85 => ⟨S_, .i32⟩
  | 86 => ⟨S224, .i32⟩
  | 87 => ⟨S224, .i1⟩
  | 88 => ⟨S_, .i32⟩
  | 89 => ⟨S_, .i1⟩
  | 90 => ⟨S224, .i1⟩
  | 91 => ⟨S224, .i1⟩
  | 92 => ⟨S224, .i1⟩
  | 93 => ⟨S224, .i32⟩
  | 94 => ⟨S224, .i32⟩
  | 95 => ⟨S224, .i32⟩
  | 96 => ⟨S_, .i32⟩
  | 97 => ⟨S224, .i32⟩
  | 98 => ⟨S224, .i1⟩
  | 99 => ⟨S_, .i32⟩
  | 100 => ⟨S224, .i32⟩
  | 101 => ⟨S224, .i32⟩
  | 102 => ⟨S224, .i32⟩
  | 103 => ⟨S224x1, .i32⟩
  | 104 => ⟨S16x3x224x224, .f32⟩
  | 105 => ⟨S16x3x1x224, .f32⟩
  | 106 => ⟨S16x3x224x224, .i1⟩
  | 107 => ⟨S16x3x224x224, .f32⟩
  | 108 => ⟨S16x3x224x224, .f32⟩
  | 109 => ⟨S_, .i32⟩
  | 110 => ⟨S16, .i32⟩
  | 111 => ⟨S16, .i32⟩
  | 112 => ⟨S1x224x1, .i32⟩
  | 113 => ⟨S16x1x1, .i32⟩
  | 114 => ⟨S16x224x1, .i32⟩
  | 115 => ⟨S16x224x1, .i32⟩
  | 116 => ⟨S16x224x1, .i32⟩
  | 117 => ⟨S16x1x1, .i32⟩
  | 118 => ⟨S16x224x1, .i32⟩
  | 119 => ⟨S16x224x1, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S16x224x1, .i32⟩
  | 127 => ⟨S16x224x1, .i32⟩
  | _ => ⟨S16x3x16x224x224, .f32⟩

abbrev hbmTy0_4 (i : Nat) : BufTy := match i % 128 with
  | 0 => ⟨S_, .i32⟩
  | 1 => ⟨S16x224x1, .i32⟩
  | 2 => ⟨S16x224x1, .i1⟩
  | 3 => ⟨S_, .i32⟩
  | 4 => ⟨S16x224x1, .i32⟩
  | 5 => ⟨S16x224x1, .i1⟩
  | 6 => ⟨S_, .i32⟩
  | 7 => ⟨S_, .i1⟩
  | 8 => ⟨S16x224x1, .i1⟩
  | 9 => ⟨S16x224x1, .i1⟩
  | 10 => ⟨S16x224x1, .i1⟩
  | 11 => ⟨S16x224x1, .i32⟩
  | 12 => ⟨S16x224x1, .i32⟩
  | 13 => ⟨S16x224x1, .i32⟩
  | 14 => ⟨S16x224, .i32⟩
  | 15 => ⟨S16x1x1, .i32⟩
  | 16 => ⟨S16x224x1, .i32⟩
  | 17 => ⟨S16x224x1, .i1⟩
  | 18 => ⟨S16x3x1x224, .f32⟩
  | 19 => ⟨S_, .i32⟩
  | 20 => ⟨S16x224, .i32⟩
  | 21 => ⟨S16x224, .i1⟩
  | 22 => ⟨S_, .i32⟩
  | 23 => ⟨S16x224, .i32⟩
  | 24 => ⟨S16x224, .i32⟩
  | 25 => ⟨S16x224, .i32⟩
  | 26 => ⟨S16x224x1, .i32⟩
  | 27 => ⟨S16x3x224x224, .f32⟩
  | 28 => ⟨S16x3x224x224, .i1⟩
  | 29 => ⟨S16x3x224x224, .f32⟩
  | 30 => ⟨S16x3x224x224, .f32⟩
  | 31 => ⟨S1x224, .i32⟩
  | 32 => ⟨S16x1, .i32⟩
  | 33 => ⟨S16x224, .i32⟩
  | 34 => ⟨S16x224, .i32⟩
  | 35 => ⟨S16x224, .i32⟩
  | 36 => ⟨S_, .i32⟩
  | 37 => ⟨S_, .i32⟩
  | 38 => ⟨S_, .i32⟩
  | 39 => ⟨S16x224, .i32⟩
  | 40 => ⟨S16x224, .i32⟩
  | 41 => ⟨S_, .i32⟩
  | 42 => ⟨S16x224, .i32⟩
  | 43 => ⟨S16x224, .i32⟩
  | 44 => ⟨S_, .i32⟩
  | 45 => ⟨S16, .i32⟩
  | 46 => ⟨S16, .i32⟩
  | 47 => ⟨S1x1x224, .i32⟩
  | 48 => ⟨S16x1x1, .i32⟩
  | 49 => ⟨S16x1x224, .i32⟩
  | 50 => ⟨S16x1x224, .i32⟩
  | 51 => ⟨S16x1x224, .i1⟩
  | 52 => ⟨S16x224x1, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S224, .i32⟩
  | 60 => ⟨S224, .i32⟩
  | 61 => ⟨S_, .i32⟩
  | 62 => ⟨S224, .i32⟩
  | 63 => ⟨S224, .i1⟩
  | 64 => ⟨S_, .i32⟩
  | 65 => ⟨S224, .i32⟩
  | 66 => ⟨S224, .i1⟩
  | 67 => ⟨S_, .i32⟩
  | 68 => ⟨S_, .i1⟩
  | 69 => ⟨S224, .i1⟩
  | 70 => ⟨S224, .i1⟩
  | 71 => ⟨S224, .i1⟩
  | 72 => ⟨S224, .i32⟩
  | 73 => ⟨S224, .i32⟩
  | 74 => ⟨S224, .i32⟩
  | 75 => ⟨S1x224, .i32⟩
  | 76 => ⟨S_, .i32⟩
  | 77 => ⟨S16x224x1, .i32⟩
  | 78 => ⟨S16x224x1, .i1⟩
  | 79 => ⟨S_, .i32⟩
  | 80 => ⟨S16x224x1, .i32⟩
  | 81 => ⟨S16x224x1, .i32⟩
  | 82 => ⟨S16x224x1, .i32⟩
  | 83 => ⟨S_, .i32⟩
  | 84 => ⟨S1x224, .i32⟩
  | 85 => ⟨S1x224, .i1⟩
  | 86 => ⟨S_, .i32⟩
  | 87 => ⟨S1x224, .i32⟩
  | 88 => ⟨S1x224, .i32⟩
  | 89 => ⟨S1x224, .i32⟩
  | 90 => ⟨S16x224x224, .i32⟩
  | 91 => ⟨S224x224, .i32⟩
  | 92 => ⟨S16x224x224x1, .i32⟩
  | 93 => ⟨S224x224x1, .i32⟩
  | 94 => ⟨S16x224x224x1, .i32⟩
  | 95 => ⟨S16x224x224x2, .i32⟩
  | 96 => ⟨S16x3x224x224, .f32⟩
  | 97 => ⟨S_, .i32⟩
  | 98 => ⟨S16x224, .i32⟩
  | 99 => ⟨S16x224, .i1⟩
  | 100 => ⟨S_, .i32⟩
  | 101 => ⟨S16x224, .i32⟩
  | 102 => ⟨S16x224, .i32⟩
  | 103 => ⟨S16x224, .i32⟩
  | 104 => ⟨S16x224x1, .i32⟩
  | 105 => ⟨S16x3x224, .f32⟩
  | 106 => ⟨S16x3x224x1, .f32⟩
  | 107 => ⟨S16x3x224x224, .i1⟩
  | 108 => ⟨S16x3x224x224, .f32⟩
  | 109 => ⟨S16x3x224x224, .f32⟩
  | 110 => ⟨S_, .i32⟩
  | 111 => ⟨S16, .i32⟩
  | 112 => ⟨S16, .i32⟩
  | 113 => ⟨S1x224, .i32⟩
  | 114 => ⟨S16x1, .i32⟩
  | 115 => ⟨S16x224, .i32⟩
  | 116 => ⟨S16x224, .i32⟩
  | 117 => ⟨S16x224, .i32⟩
  | 118 => ⟨S16x1, .i32⟩
  | 119 => ⟨S16x224, .i32⟩
  | 120 => ⟨S16x224, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S16x224, .i32⟩
  | _ => ⟨S16x3x16x224x224, .f32⟩

abbrev hbmTy0_5 (i : Nat) : BufTy := match i % 128 with
  | 0 => ⟨S16x224, .i32⟩
  | 1 => ⟨S_, .i32⟩
  | 2 => ⟨S16x224, .i32⟩
  | 3 => ⟨S16x224, .i1⟩
  | 4 => ⟨S_, .i32⟩
  | 5 => ⟨S16x224, .i32⟩
  | 6 => ⟨S16x224, .i1⟩
  | 7 => ⟨S_, .i32⟩
  | 8 => ⟨S_, .i1⟩
  | 9 => ⟨S16x224, .i1⟩
  | 10 => ⟨S16x224, .i1⟩
  | 11 => ⟨S16x224, .i1⟩
  | 12 => ⟨S16x224, .i32⟩
  | 13 => ⟨S16x224, .i32⟩
  | 14 => ⟨S16x224, .i32⟩
  | 15 => ⟨S16x1x224, .i32⟩
  | 16 => ⟨S16x1x1, .i32⟩
  | 17 => ⟨S16x1x224, .i32⟩
  | 18 => ⟨S16x1x224, .i1⟩
  | 19 => ⟨S_, .i32⟩
  | 20 => ⟨S16x224, .i32⟩
  | 21 => ⟨S16x224, .i1⟩
  | 22 => ⟨S_, .i32⟩
  | 23 => ⟨S16x224, .i32⟩
  | 24 => ⟨S16x224, .i32⟩
  | 25 => ⟨S16x224, .i32⟩
  | 26 => ⟨S16x224x1, .i32⟩
  | 27 => ⟨S16x3x224, .f32⟩
  | 28 => ⟨S16x3x224x1, .f32⟩
  | 29 => ⟨S16x224x1, .i32⟩
  | 30 => ⟨S16x1x224, .i32⟩
  | 31 => ⟨S_, .i32⟩
  | 32 => ⟨S16x224x1, .i32⟩
  | 33 => ⟨S16x224x1, .i1⟩
  | 34 => ⟨S_, .i32⟩
  | 35 => ⟨S16x224x1, .i32⟩
  | 36 => ⟨S16x224x1, .i32⟩
  | 37 => ⟨S16x224x1, .i32⟩
  | 38 => ⟨S_, .i32⟩
  | 39 => ⟨S16x1x224, .i32⟩
  | 40 => ⟨S16x1x224, .i1⟩
  | 41 => ⟨S_, .i32⟩
  | 42 => ⟨S16x1x224, .i32⟩
  | 43 => ⟨S16x1x224, .i32⟩
  | 44 => ⟨S16x1x224, .i32⟩
  | 45 => ⟨S16x224x224, .i32⟩
  | 46 => ⟨S16x224x224, .i32⟩
  | 47 => ⟨S16x224x224x1, .i32⟩
  | 48 => ⟨S16x224x224x1, .i32⟩
  | 49 => ⟨S16x224x224x2, .i32⟩
  | 50 => ⟨S16x3x224x224, .f32⟩
  | 51 => ⟨S16x3x224x224, .i1⟩
  | 52 => ⟨S16x3x224x224, .f32⟩
  | 53 => ⟨S16x3x224x224, .f32⟩
  | 54 => ⟨S1x1x224, .i32⟩
  | 55 => ⟨S16x1x1, .i32⟩
  | 56 => ⟨S16x1x224, .i32⟩
  | 57 => ⟨S16x1x224, .i32⟩
  | 58 => ⟨S16x1x224, .i1⟩
  | 59 => ⟨S_, .i32⟩
  | 60 => ⟨S16, .i32⟩
  | 61 => ⟨S16, .i32⟩
  | 62 => ⟨S1x1x224, .i32⟩
  | 63 => ⟨S16x1x1, .i32⟩
  | 64 => ⟨S16x1x224, .i32⟩
  | 65 => ⟨S16x1x224, .i32⟩
  | 66 => ⟨S16x1x224, .i1⟩
  | 67 => ⟨S_, .f32⟩
  | 68 => ⟨S16x3x224x224, .i1⟩
  | 69 => ⟨S3x224x224, .f32⟩
  | 70 => ⟨S16x3x224x224, .f32⟩
  | 71 => ⟨S16x3x224x224, .f32⟩
  | 72 => ⟨S16x3x224x224, .i1⟩
  | 73 => ⟨S16x3x224x224, .f32⟩
  | 74 => ⟨S1x224x1, .i32⟩
  | 75 => ⟨S16x1x1, .i32⟩
  | 76 => ⟨S16x224x1, .i32⟩
  | 77 => ⟨S16x224x1, .i32⟩
  | 78 => ⟨S16x224x1, .i1⟩
  | 79 => ⟨S_, .i32⟩
  | 80 => ⟨S16, .i32⟩
  | 81 => ⟨S16, .i32⟩
  | 82 => ⟨S1x224x1, .i32⟩
  | 83 => ⟨S16x1x1, .i32⟩
  | 84 => ⟨S16x224x1, .i32⟩
  | 85 => ⟨S16x224x1, .i32⟩
  | 86 => ⟨S16x224x1, .i1⟩
  | 87 => ⟨S16x3x224x224, .i1⟩
  | 88 => ⟨S16x3x224x224, .f32⟩
  | 89 => ⟨S16x3x224x224, .i1⟩
  | 90 => ⟨S16x3x224x224, .f32⟩
  | 91 => ⟨S16x3x1x224x224, .f32⟩
  | 92 => ⟨S16x3x16x224x224, .f32⟩
  | 93 => ⟨S16x3x16x224x224, .f32⟩
  | _ => ⟨S16x3x16x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x3x16x224x224, .f32⟩

abbrev bufTy : (tb : Table) → Fin (tcTables nBuf tb) → BufTy
  | .hbm, ⟨i, _⟩ => hbmTy i
  | _, _ => ⟨S16x3x16x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_c_2 : Ref sig .tc := ⟨.hbm, 20, rfl⟩
abbrev main_v5 : Ref sig .tc := ⟨.hbm, 21, rfl⟩
abbrev main_c_3 : Ref sig .tc := ⟨.hbm, 22, rfl⟩
abbrev main_c_4 : Ref sig .tc := ⟨.hbm, 23, rfl⟩
abbrev main_v6 : Ref sig .tc := ⟨.hbm, 24, rfl⟩
abbrev main_c_5 : Ref sig .tc := ⟨.hbm, 25, rfl⟩
abbrev main_v7 : Ref sig .tc := ⟨.hbm, 26, rfl⟩
abbrev main_c_6 : Ref sig .tc := ⟨.hbm, 27, rfl⟩
abbrev main_c_7 : Ref sig .tc := ⟨.hbm, 28, rfl⟩
abbrev main_v8 : Ref sig .tc := ⟨.hbm, 29, rfl⟩
abbrev main_c_8 : Ref sig .tc := ⟨.hbm, 30, rfl⟩
abbrev main_c_9 : Ref sig .tc := ⟨.hbm, 31, rfl⟩
abbrev main_v9 : Ref sig .tc := ⟨.hbm, 32, rfl⟩
abbrev main_c_10 : Ref sig .tc := ⟨.hbm, 33, rfl⟩
abbrev main_v10 : Ref sig .tc := ⟨.hbm, 34, rfl⟩
abbrev main_c_11 : Ref sig .tc := ⟨.hbm, 35, rfl⟩
abbrev main_c_12 : Ref sig .tc := ⟨.hbm, 36, rfl⟩
abbrev main_v11 : Ref sig .tc := ⟨.hbm, 37, rfl⟩
abbrev main_c_13 : Ref sig .tc := ⟨.hbm, 38, rfl⟩
abbrev main_c_14 : Ref sig .tc := ⟨.hbm, 39, rfl⟩
abbrev main_v12 : Ref sig .tc := ⟨.hbm, 40, rfl⟩
abbrev main_c_15 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_16 : Ref sig .tc := ⟨.hbm, 50, rfl⟩
abbrev main_v21 : Ref sig .tc := ⟨.hbm, 51, rfl⟩
abbrev main_v22 : Ref sig .tc := ⟨.hbm, 52, rfl⟩
abbrev main_c_17 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_18 : Ref sig .tc := ⟨.hbm, 57, rfl⟩
abbrev main_c_19 : Ref sig .tc := ⟨.hbm, 58, rfl⟩
abbrev main_v26 : Ref sig .tc := ⟨.hbm, 59, rfl⟩
abbrev main_c_20 : Ref sig .tc := ⟨.hbm, 60, rfl⟩
abbrev main_c_21 : Ref sig .tc := ⟨.hbm, 61, rfl⟩
abbrev main_v27 : Ref sig .tc := ⟨.hbm, 62, rfl⟩
abbrev main_c_22 : Ref sig .tc := ⟨.hbm, 63, rfl⟩
abbrev main_v28 : Ref sig .tc := ⟨.hbm, 64, rfl⟩
abbrev main_c_23 : Ref sig .tc := ⟨.hbm, 65, rfl⟩
abbrev main_c_24 : Ref sig .tc := ⟨.hbm, 66, rfl⟩
abbrev main_v29 : Ref sig .tc := ⟨.hbm, 67, rfl⟩
abbrev main_c_25 : Ref sig .tc := ⟨.hbm, 68, rfl⟩
abbrev main_c_26 : Ref sig .tc := ⟨.hbm, 69, rfl⟩
abbrev main_v30 : Ref sig .tc := ⟨.hbm, 70, rfl⟩
abbrev main_c_27 : Ref sig .tc := ⟨.hbm, 71, rfl⟩
abbrev main_v31 : Ref sig .tc := ⟨.hbm, 72, rfl⟩
abbrev main_c_28 : Ref sig .tc := ⟨.hbm, 73, rfl⟩
abbrev main_c_29 : Ref sig .tc := ⟨.hbm, 74, rfl⟩
abbrev main_v32 : Ref sig .tc := ⟨.hbm, 75, rfl⟩
abbrev main_c_30 : Ref sig .tc := ⟨.hbm, 76, rfl⟩
abbrev main_c_31 : Ref sig .tc := ⟨.hbm, 77, rfl⟩
abbrev main_v33 : Ref sig .tc := ⟨.hbm, 78, rfl⟩
abbrev main_c_32 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_c_33 : Ref sig .tc := ⟨.hbm, 88, rfl⟩
abbrev main_v42 : Ref sig .tc := ⟨.hbm, 89, rfl⟩
abbrev main_v43 : Ref sig .tc := ⟨.hbm, 90, rfl⟩
abbrev main_c_34 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_c_35 : Ref sig .tc := ⟨.hbm, 95, rfl⟩
abbrev main_c_36 : Ref sig .tc := ⟨.hbm, 96, rfl⟩
abbrev main_v47 : Ref sig .tc := ⟨.hbm, 97, rfl⟩
abbrev main_c_37 : Ref sig .tc := ⟨.hbm, 98, rfl⟩
abbrev main_c_38 : Ref sig .tc := ⟨.hbm, 99, rfl⟩
abbrev main_v48 : Ref sig .tc := ⟨.hbm, 100, rfl⟩
abbrev main_c_39 : Ref sig .tc := ⟨.hbm, 101, rfl⟩
abbrev main_v49 : Ref sig .tc := ⟨.hbm, 102, rfl⟩
abbrev main_c_40 : Ref sig .tc := ⟨.hbm, 103, rfl⟩
abbrev main_c_41 : Ref sig .tc := ⟨.hbm, 104, rfl⟩
abbrev main_v50 : Ref sig .tc := ⟨.hbm, 105, rfl⟩
abbrev main_c_42 : Ref sig .tc := ⟨.hbm, 106, rfl⟩
abbrev main_c_43 : Ref sig .tc := ⟨.hbm, 107, rfl⟩
abbrev main_v51 : Ref sig .tc := ⟨.hbm, 108, rfl⟩
abbrev main_c_44 : Ref sig .tc := ⟨.hbm, 109, rfl⟩
abbrev main_v52 : Ref sig .tc := ⟨.hbm, 110, rfl⟩
abbrev main_c_45 : Ref sig .tc := ⟨.hbm, 111, rfl⟩
abbrev main_c_46 : Ref sig .tc := ⟨.hbm, 112, rfl⟩
abbrev main_v53 : Ref sig .tc := ⟨.hbm, 113, rfl⟩
abbrev main_c_47 : Ref sig .tc := ⟨.hbm, 114, rfl⟩
abbrev main_c_48 : Ref sig .tc := ⟨.hbm, 115, rfl⟩
abbrev main_v54 : Ref sig .tc := ⟨.hbm, 116, rfl⟩
abbrev main_c_49 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_c_50 : Ref sig .tc := ⟨.hbm, 126, rfl⟩
abbrev main_v63 : Ref sig .tc := ⟨.hbm, 127, rfl⟩
abbrev main_v64 : Ref sig .tc := ⟨.hbm, 128, rfl⟩
abbrev main_c_51 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_c_52 : Ref sig .tc := ⟨.hbm, 133, rfl⟩
abbrev main_c_53 : Ref sig .tc := ⟨.hbm, 134, rfl⟩
abbrev main_v68 : Ref sig .tc := ⟨.hbm, 135, rfl⟩
abbrev main_c_54 : Ref sig .tc := ⟨.hbm, 136, rfl⟩
abbrev main_c_55 : Ref sig .tc := ⟨.hbm, 137, rfl⟩
abbrev main_v69 : Ref sig .tc := ⟨.hbm, 138, rfl⟩
abbrev main_c_56 : Ref sig .tc := ⟨.hbm, 139, rfl⟩
abbrev main_v70 : Ref sig .tc := ⟨.hbm, 140, rfl⟩
abbrev main_c_57 : Ref sig .tc := ⟨.hbm, 141, rfl⟩
abbrev main_c_58 : Ref sig .tc := ⟨.hbm, 142, rfl⟩
abbrev main_v71 : Ref sig .tc := ⟨.hbm, 143, rfl⟩
abbrev main_c_59 : Ref sig .tc := ⟨.hbm, 144, rfl⟩
abbrev main_c_60 : Ref sig .tc := ⟨.hbm, 145, rfl⟩
abbrev main_v72 : Ref sig .tc := ⟨.hbm, 146, rfl⟩
abbrev main_c_61 : Ref sig .tc := ⟨.hbm, 147, rfl⟩
abbrev main_v73 : Ref sig .tc := ⟨.hbm, 148, rfl⟩
abbrev main_c_62 : Ref sig .tc := ⟨.hbm, 149, rfl⟩
abbrev main_c_63 : Ref sig .tc := ⟨.hbm, 150, rfl⟩
abbrev main_v74 : Ref sig .tc := ⟨.hbm, 151, rfl⟩
abbrev main_c_64 : Ref sig .tc := ⟨.hbm, 152, rfl⟩
abbrev main_c_65 : Ref sig .tc := ⟨.hbm, 153, rfl⟩
abbrev main_v75 : Ref sig .tc := ⟨.hbm, 154, rfl⟩
abbrev main_c_66 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_c_67 : Ref sig .tc := ⟨.hbm, 164, rfl⟩
abbrev main_v84 : Ref sig .tc := ⟨.hbm, 165, rfl⟩
abbrev main_v85 : Ref sig .tc := ⟨.hbm, 166, rfl⟩
abbrev main_c_68 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_c_69 : Ref sig .tc := ⟨.hbm, 171, rfl⟩
abbrev main_c_70 : Ref sig .tc := ⟨.hbm, 172, rfl⟩
abbrev main_v89 : Ref sig .tc := ⟨.hbm, 173, rfl⟩
abbrev main_c_71 : Ref sig .tc := ⟨.hbm, 174, rfl⟩
abbrev main_c_72 : Ref sig .tc := ⟨.hbm, 175, rfl⟩
abbrev main_v90 : Ref sig .tc := ⟨.hbm, 176, rfl⟩
abbrev main_c_73 : Ref sig .tc := ⟨.hbm, 177, rfl⟩
abbrev main_v91 : Ref sig .tc := ⟨.hbm, 178, rfl⟩
abbrev main_c_74 : Ref sig .tc := ⟨.hbm, 179, rfl⟩
abbrev main_c_75 : Ref sig .tc := ⟨.hbm, 180, rfl⟩
abbrev main_v92 : Ref sig .tc := ⟨.hbm, 181, rfl⟩
abbrev main_c_76 : Ref sig .tc := ⟨.hbm, 182, rfl⟩
abbrev main_c_77 : Ref sig .tc := ⟨.hbm, 183, rfl⟩
abbrev main_v93 : Ref sig .tc := ⟨.hbm, 184, rfl⟩
abbrev main_c_78 : Ref sig .tc := ⟨.hbm, 185, rfl⟩
abbrev main_v94 : Ref sig .tc := ⟨.hbm, 186, rfl⟩
abbrev main_c_79 : Ref sig .tc := ⟨.hbm, 187, rfl⟩
abbrev main_c_80 : Ref sig .tc := ⟨.hbm, 188, rfl⟩
abbrev main_v95 : Ref sig .tc := ⟨.hbm, 189, rfl⟩
abbrev main_c_81 : Ref sig .tc := ⟨.hbm, 190, rfl⟩
abbrev main_c_82 : Ref sig .tc := ⟨.hbm, 191, rfl⟩
abbrev main_v96 : Ref sig .tc := ⟨.hbm, 192, rfl⟩
abbrev main_c_83 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_c_84 : Ref sig .tc := ⟨.hbm, 202, rfl⟩
abbrev main_v105 : Ref sig .tc := ⟨.hbm, 203, rfl⟩
abbrev main_v106 : Ref sig .tc := ⟨.hbm, 204, rfl⟩
abbrev main_c_85 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_c_86 : Ref sig .tc := ⟨.hbm, 209, rfl⟩
abbrev main_c_87 : Ref sig .tc := ⟨.hbm, 210, rfl⟩
abbrev main_v110 : Ref sig .tc := ⟨.hbm, 211, rfl⟩
abbrev main_c_88 : Ref sig .tc := ⟨.hbm, 212, rfl⟩
abbrev main_c_89 : Ref sig .tc := ⟨.hbm, 213, rfl⟩
abbrev main_v111 : Ref sig .tc := ⟨.hbm, 214, rfl⟩
abbrev main_c_90 : Ref sig .tc := ⟨.hbm, 215, rfl⟩
abbrev main_v112 : Ref sig .tc := ⟨.hbm, 216, rfl⟩
abbrev main_c_91 : Ref sig .tc := ⟨.hbm, 217, rfl⟩
abbrev main_c_92 : Ref sig .tc := ⟨.hbm, 218, rfl⟩
abbrev main_v113 : Ref sig .tc := ⟨.hbm, 219, rfl⟩
abbrev main_c_93 : Ref sig .tc := ⟨.hbm, 220, rfl⟩
abbrev main_c_94 : Ref sig .tc := ⟨.hbm, 221, rfl⟩
abbrev main_v114 : Ref sig .tc := ⟨.hbm, 222, rfl⟩
abbrev main_c_95 : Ref sig .tc := ⟨.hbm, 223, rfl⟩
abbrev main_v115 : Ref sig .tc := ⟨.hbm, 224, rfl⟩
abbrev main_c_96 : Ref sig .tc := ⟨.hbm, 225, rfl⟩
abbrev main_c_97 : Ref sig .tc := ⟨.hbm, 226, rfl⟩
abbrev main_v116 : Ref sig .tc := ⟨.hbm, 227, rfl⟩
abbrev main_c_98 : Ref sig .tc := ⟨.hbm, 228, rfl⟩
abbrev main_c_99 : Ref sig .tc := ⟨.hbm, 229, rfl⟩
abbrev main_v117 : Ref sig .tc := ⟨.hbm, 230, rfl⟩
abbrev main_c_100 : Ref sig .tc := ⟨.hbm, 231, rfl⟩
abbrev main_v118 : Ref sig .tc := ⟨.hbm, 232, rfl⟩
abbrev main_v119 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_v123 : Ref sig .tc := ⟨.hbm, 237, rfl⟩
abbrev main_v124 : Ref sig .tc := ⟨.hbm, 238, rfl⟩
abbrev main_v125 : Ref sig .tc := ⟨.hbm, 239, rfl⟩
abbrev main_c_101 : Ref sig .tc := ⟨.hbm, 240, rfl⟩
abbrev main_v126 : Ref sig .tc := ⟨.hbm, 241, rfl⟩
abbrev main_v127 : Ref sig .tc := ⟨.hbm, 242, rfl⟩
abbrev main_c_102 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_c_103 : Ref sig .tc := ⟨.hbm, 247, rfl⟩
abbrev main_c_104 : Ref sig .tc := ⟨.hbm, 248, rfl⟩
abbrev main_v131 : Ref sig .tc := ⟨.hbm, 249, rfl⟩
abbrev main_c_105 : Ref sig .tc := ⟨.hbm, 250, rfl⟩
abbrev main_c_106 : Ref sig .tc := ⟨.hbm, 251, rfl⟩
abbrev main_v132 : Ref sig .tc := ⟨.hbm, 252, rfl⟩
abbrev main_c_107 : Ref sig .tc := ⟨.hbm, 253, rfl⟩
abbrev main_v133 : Ref sig .tc := ⟨.hbm, 254, rfl⟩
abbrev main_c_108 : Ref sig .tc := ⟨.hbm, 255, rfl⟩
abbrev main_c_109 : Ref sig .tc := ⟨.hbm, 256, rfl⟩
abbrev main_v134 : Ref sig .tc := ⟨.hbm, 257, rfl⟩
abbrev main_c_110 : Ref sig .tc := ⟨.hbm, 258, rfl⟩
abbrev main_c_111 : Ref sig .tc := ⟨.hbm, 259, rfl⟩
abbrev main_v135 : Ref sig .tc := ⟨.hbm, 260, rfl⟩
abbrev main_c_112 : Ref sig .tc := ⟨.hbm, 261, rfl⟩
abbrev main_v136 : Ref sig .tc := ⟨.hbm, 262, rfl⟩
abbrev main_c_113 : Ref sig .tc := ⟨.hbm, 263, rfl⟩
abbrev main_c_114 : Ref sig .tc := ⟨.hbm, 264, rfl⟩
abbrev main_v137 : Ref sig .tc := ⟨.hbm, 265, rfl⟩
abbrev main_c_115 : Ref sig .tc := ⟨.hbm, 266, rfl⟩
abbrev main_c_116 : Ref sig .tc := ⟨.hbm, 267, rfl⟩
abbrev main_v138 : Ref sig .tc := ⟨.hbm, 268, rfl⟩
abbrev main_c_117 : Ref sig .tc := ⟨.hbm, 269, rfl⟩
abbrev main_v139 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_v143 : Ref sig .tc := ⟨.hbm, 274, rfl⟩
abbrev main_v144 : Ref sig .tc := ⟨.hbm, 275, rfl⟩
abbrev main_v145 : Ref sig .tc := ⟨.hbm, 276, rfl⟩
abbrev main_v146 : Ref sig .tc := ⟨.hbm, 277, rfl⟩
abbrev main_c_118 : Ref sig .tc := ⟨.hbm, 278, rfl⟩
abbrev main_v147 : Ref sig .tc := ⟨.hbm, 279, rfl⟩
abbrev main_v148 : Ref sig .tc := ⟨.hbm, 280, rfl⟩
abbrev main_c_119 : Ref sig .tc := ⟨.hbm, 281, rfl⟩
abbrev main_v149 : Ref sig .tc := ⟨.hbm, 282, rfl⟩
abbrev main_v150 : Ref sig .tc := ⟨.hbm, 283, rfl⟩
abbrev main_v151 : Ref sig .tc := ⟨.hbm, 284, rfl⟩
abbrev main_c_120 : Ref sig .tc := ⟨.hbm, 285, rfl⟩
abbrev main_c_121 : Ref sig .tc := ⟨.hbm, 286, rfl⟩
abbrev main_v152 : Ref sig .tc := ⟨.hbm, 287, rfl⟩
abbrev main_c_122 : Ref sig .tc := ⟨.hbm, 288, rfl⟩
abbrev main_c_123 : Ref sig .tc := ⟨.hbm, 289, rfl⟩
abbrev main_v153 : Ref sig .tc := ⟨.hbm, 290, rfl⟩
abbrev main_c_124 : Ref sig .tc := ⟨.hbm, 291, rfl⟩
abbrev main_v154 : Ref sig .tc := ⟨.hbm, 292, rfl⟩
abbrev main_c_125 : Ref sig .tc := ⟨.hbm, 293, rfl⟩
abbrev main_c_126 : Ref sig .tc := ⟨.hbm, 294, rfl⟩
abbrev main_v155 : Ref sig .tc := ⟨.hbm, 295, rfl⟩
abbrev main_c_127 : Ref sig .tc := ⟨.hbm, 296, rfl⟩
abbrev main_c_128 : Ref sig .tc := ⟨.hbm, 297, rfl⟩
abbrev main_v156 : Ref sig .tc := ⟨.hbm, 298, rfl⟩
abbrev main_c_129 : Ref sig .tc := ⟨.hbm, 299, rfl⟩
abbrev main_v157 : Ref sig .tc := ⟨.hbm, 300, rfl⟩
abbrev main_c_130 : Ref sig .tc := ⟨.hbm, 301, rfl⟩
abbrev main_c_131 : Ref sig .tc := ⟨.hbm, 302, rfl⟩
abbrev main_v158 : Ref sig .tc := ⟨.hbm, 303, rfl⟩
abbrev main_c_132 : Ref sig .tc := ⟨.hbm, 304, rfl⟩
abbrev main_c_133 : Ref sig .tc := ⟨.hbm, 305, rfl⟩
abbrev main_v159 : Ref sig .tc := ⟨.hbm, 306, rfl⟩
abbrev main_c_134 : Ref sig .tc := ⟨.hbm, 307, rfl⟩
abbrev main_v160 : Ref sig .tc := ⟨.hbm, 308, rfl⟩
abbrev main_v161 : Ref sig .tc := ⟨.hbm, 309, rfl⟩
abbrev main_v162 : Ref sig .tc := ⟨.hbm, 310, rfl⟩
abbrev main_v163 : Ref sig .tc := ⟨.hbm, 311, rfl⟩
abbrev main_v164 : Ref sig .tc := ⟨.hbm, 312, rfl⟩
abbrev main_v165 : Ref sig .tc := ⟨.hbm, 313, rfl⟩
abbrev main_v166 : Ref sig .tc := ⟨.hbm, 314, rfl⟩
abbrev main_v167 : Ref sig .tc := ⟨.hbm, 315, rfl⟩
abbrev main_c_135 : Ref sig .tc := ⟨.hbm, 316, rfl⟩
abbrev main_v168 : Ref sig .tc := ⟨.hbm, 317, rfl⟩
abbrev main_v169 : Ref sig .tc := ⟨.hbm, 318, rfl⟩
abbrev main_c_136 : Ref sig .tc := ⟨.hbm, 319, rfl⟩
abbrev main_v170 : Ref sig .tc := ⟨.hbm, 320, rfl⟩
abbrev main_v171 : Ref sig .tc := ⟨.hbm, 321, rfl⟩
abbrev main_c_137 : Ref sig .tc := ⟨.hbm, 322, rfl⟩
abbrev main_call0_v0 : Ref sig .tc := ⟨.hbm, 323, rfl⟩
abbrev main_call0_v1 : Ref sig .tc := ⟨.hbm, 324, rfl⟩
abbrev main_call0_v2 : Ref sig .tc := ⟨.hbm, 325, rfl⟩
abbrev main_call0_v3 : Ref sig .tc := ⟨.hbm, 326, rfl⟩
abbrev main_call0_v4 : Ref sig .tc := ⟨.hbm, 327, rfl⟩
abbrev main_call0_v5 : Ref sig .tc := ⟨.hbm, 328, rfl⟩
abbrev main_call0_v6 : Ref sig .tc := ⟨.hbm, 329, rfl⟩
abbrev main_call0_v7 : Ref sig .tc := ⟨.hbm, 330, rfl⟩
abbrev main_call0_v8 : Ref sig .tc := ⟨.hbm, 331, rfl⟩
abbrev main_call0_c : Ref sig .tc := ⟨.hbm, 332, rfl⟩
abbrev main_call0_v9 : Ref sig .tc := ⟨.hbm, 333, rfl⟩
abbrev main_call0_v10 : Ref sig .tc := ⟨.hbm, 334, rfl⟩
abbrev main_call0_v11 : Ref sig .tc := ⟨.hbm, 335, rfl⟩
abbrev main_call0_c_0 : Ref sig .tc := ⟨.hbm, 336, rfl⟩
abbrev main_call0_v12 : Ref sig .tc := ⟨.hbm, 337, rfl⟩
abbrev main_call0_v13 : Ref sig .tc := ⟨.hbm, 338, rfl⟩
abbrev main_v172 : Ref sig .tc := ⟨.hbm, 339, rfl⟩
abbrev main_c_138 : Ref sig .tc := ⟨.hbm, 340, rfl⟩
abbrev main_call1_v0 : Ref sig .tc := ⟨.hbm, 341, rfl⟩
abbrev main_call1_c : Ref sig .tc := ⟨.hbm, 342, rfl⟩
abbrev main_call1_v1 : Ref sig .tc := ⟨.hbm, 343, rfl⟩
abbrev main_call1_c_0 : Ref sig .tc := ⟨.hbm, 344, rfl⟩
abbrev main_call1_v2 : Ref sig .tc := ⟨.hbm, 345, rfl⟩
abbrev main_call1_v3 : Ref sig .tc := ⟨.hbm, 346, rfl⟩
abbrev main_call1_v4 : Ref sig .tc := ⟨.hbm, 347, rfl⟩
abbrev main_call1_c_1 : Ref sig .tc := ⟨.hbm, 348, rfl⟩
abbrev main_call1_v5 : Ref sig .tc := ⟨.hbm, 349, rfl⟩
abbrev main_call1_v6 : Ref sig .tc := ⟨.hbm, 350, rfl⟩
abbrev main_call1_c_2 : Ref sig .tc := ⟨.hbm, 351, rfl⟩
abbrev main_call1_v7 : Ref sig .tc := ⟨.hbm, 352, rfl⟩
abbrev main_call1_v8 : Ref sig .tc := ⟨.hbm, 353, rfl⟩
abbrev main_call1_c_3 : Ref sig .tc := ⟨.hbm, 354, rfl⟩
abbrev main_call1_v9 : Ref sig .tc := ⟨.hbm, 355, rfl⟩
abbrev main_call1_v10 : Ref sig .tc := ⟨.hbm, 356, rfl⟩
abbrev main_call1_v11 : Ref sig .tc := ⟨.hbm, 357, rfl⟩
abbrev main_call1_v12 : Ref sig .tc := ⟨.hbm, 358, rfl⟩
abbrev main_call1_v13 : Ref sig .tc := ⟨.hbm, 359, rfl⟩
abbrev main_call1_v14 : Ref sig .tc := ⟨.hbm, 360, rfl⟩
abbrev main_v173 : Ref sig .tc := ⟨.hbm, 361, rfl⟩
abbrev main_c_139 : Ref sig .tc := ⟨.hbm, 362, rfl⟩
abbrev main_call2_v0 : Ref sig .tc := ⟨.hbm, 363, rfl⟩
abbrev main_call2_v1 : Ref sig .tc := ⟨.hbm, 364, rfl⟩
abbrev main_call2_v2 : Ref sig .tc := ⟨.hbm, 365, rfl⟩
abbrev main_call2_v3 : Ref sig .tc := ⟨.hbm, 366, rfl⟩
abbrev main_call2_v4 : Ref sig .tc := ⟨.hbm, 367, rfl⟩
abbrev main_call2_v5 : Ref sig .tc := ⟨.hbm, 368, rfl⟩
abbrev main_call2_v6 : Ref sig .tc := ⟨.hbm, 369, rfl⟩
abbrev main_call2_v7 : Ref sig .tc := ⟨.hbm, 370, rfl⟩
abbrev main_call2_v8 : Ref sig .tc := ⟨.hbm, 371, rfl⟩
abbrev main_call2_c : Ref sig .tc := ⟨.hbm, 372, rfl⟩
abbrev main_call2_v9 : Ref sig .tc := ⟨.hbm, 373, rfl⟩
abbrev main_call2_v10 : Ref sig .tc := ⟨.hbm, 374, rfl⟩
abbrev main_call2_v11 : Ref sig .tc := ⟨.hbm, 375, rfl⟩
abbrev main_call2_c_0 : Ref sig .tc := ⟨.hbm, 376, rfl⟩
abbrev main_call2_v12 : Ref sig .tc := ⟨.hbm, 377, rfl⟩
abbrev main_call2_v13 : Ref sig .tc := ⟨.hbm, 378, rfl⟩
abbrev main_v174 : Ref sig .tc := ⟨.hbm, 379, rfl⟩
abbrev main_c_140 : Ref sig .tc := ⟨.hbm, 380, rfl⟩
abbrev main_call3_v0 : Ref sig .tc := ⟨.hbm, 381, rfl⟩
abbrev main_call3_c : Ref sig .tc := ⟨.hbm, 382, rfl⟩
abbrev main_call3_v1 : Ref sig .tc := ⟨.hbm, 383, rfl⟩
abbrev main_call3_c_0 : Ref sig .tc := ⟨.hbm, 384, rfl⟩
abbrev main_call3_v2 : Ref sig .tc := ⟨.hbm, 385, rfl⟩
abbrev main_call3_v3 : Ref sig .tc := ⟨.hbm, 386, rfl⟩
abbrev main_call3_v4 : Ref sig .tc := ⟨.hbm, 387, rfl⟩
abbrev main_call3_c_1 : Ref sig .tc := ⟨.hbm, 388, rfl⟩
abbrev main_call3_v5 : Ref sig .tc := ⟨.hbm, 389, rfl⟩
abbrev main_call3_v6 : Ref sig .tc := ⟨.hbm, 390, rfl⟩
abbrev main_call3_c_2 : Ref sig .tc := ⟨.hbm, 391, rfl⟩
abbrev main_call3_v7 : Ref sig .tc := ⟨.hbm, 392, rfl⟩
abbrev main_call3_v8 : Ref sig .tc := ⟨.hbm, 393, rfl⟩
abbrev main_call3_c_3 : Ref sig .tc := ⟨.hbm, 394, rfl⟩
abbrev main_call3_v9 : Ref sig .tc := ⟨.hbm, 395, rfl⟩
abbrev main_call3_v10 : Ref sig .tc := ⟨.hbm, 396, rfl⟩
abbrev main_call3_v11 : Ref sig .tc := ⟨.hbm, 397, rfl⟩
abbrev main_call3_v12 : Ref sig .tc := ⟨.hbm, 398, rfl⟩
abbrev main_call3_v13 : Ref sig .tc := ⟨.hbm, 399, rfl⟩
abbrev main_call3_v14 : Ref sig .tc := ⟨.hbm, 400, rfl⟩
abbrev main_v175 : Ref sig .tc := ⟨.hbm, 401, rfl⟩
abbrev main_c_141 : Ref sig .tc := ⟨.hbm, 402, rfl⟩
abbrev main_call4_v0 : Ref sig .tc := ⟨.hbm, 403, rfl⟩
abbrev main_call4_c : Ref sig .tc := ⟨.hbm, 404, rfl⟩
abbrev main_call4_v1 : Ref sig .tc := ⟨.hbm, 405, rfl⟩
abbrev main_call4_c_0 : Ref sig .tc := ⟨.hbm, 406, rfl⟩
abbrev main_call4_v2 : Ref sig .tc := ⟨.hbm, 407, rfl⟩
abbrev main_call4_v3 : Ref sig .tc := ⟨.hbm, 408, rfl⟩
abbrev main_call4_v4 : Ref sig .tc := ⟨.hbm, 409, rfl⟩
abbrev main_call4_c_1 : Ref sig .tc := ⟨.hbm, 410, rfl⟩
abbrev main_call4_v5 : Ref sig .tc := ⟨.hbm, 411, rfl⟩
abbrev main_call4_v6 : Ref sig .tc := ⟨.hbm, 412, rfl⟩
abbrev main_call4_c_2 : Ref sig .tc := ⟨.hbm, 413, rfl⟩
abbrev main_call4_v7 : Ref sig .tc := ⟨.hbm, 414, rfl⟩
abbrev main_call4_v8 : Ref sig .tc := ⟨.hbm, 415, rfl⟩
abbrev main_call4_c_3 : Ref sig .tc := ⟨.hbm, 416, rfl⟩
abbrev main_call4_v9 : Ref sig .tc := ⟨.hbm, 417, rfl⟩
abbrev main_call4_v10 : Ref sig .tc := ⟨.hbm, 418, rfl⟩
abbrev main_call4_v11 : Ref sig .tc := ⟨.hbm, 419, rfl⟩
abbrev main_call4_v12 : Ref sig .tc := ⟨.hbm, 420, rfl⟩
abbrev main_call4_v13 : Ref sig .tc := ⟨.hbm, 421, rfl⟩
abbrev main_call4_v14 : Ref sig .tc := ⟨.hbm, 422, rfl⟩
abbrev main_v176 : Ref sig .tc := ⟨.hbm, 423, rfl⟩
abbrev main_c_142 : Ref sig .tc := ⟨.hbm, 424, rfl⟩
abbrev main_call5_v0 : Ref sig .tc := ⟨.hbm, 425, rfl⟩
abbrev main_call5_c : Ref sig .tc := ⟨.hbm, 426, rfl⟩
abbrev main_call5_v1 : Ref sig .tc := ⟨.hbm, 427, rfl⟩
abbrev main_call5_c_0 : Ref sig .tc := ⟨.hbm, 428, rfl⟩
abbrev main_call5_v2 : Ref sig .tc := ⟨.hbm, 429, rfl⟩
abbrev main_call5_v3 : Ref sig .tc := ⟨.hbm, 430, rfl⟩
abbrev main_call5_v4 : Ref sig .tc := ⟨.hbm, 431, rfl⟩
abbrev main_call5_c_1 : Ref sig .tc := ⟨.hbm, 432, rfl⟩
abbrev main_call5_v5 : Ref sig .tc := ⟨.hbm, 433, rfl⟩
abbrev main_call5_v6 : Ref sig .tc := ⟨.hbm, 434, rfl⟩
abbrev main_call5_c_2 : Ref sig .tc := ⟨.hbm, 435, rfl⟩
abbrev main_call5_v7 : Ref sig .tc := ⟨.hbm, 436, rfl⟩
abbrev main_call5_v8 : Ref sig .tc := ⟨.hbm, 437, rfl⟩
abbrev main_call5_c_3 : Ref sig .tc := ⟨.hbm, 438, rfl⟩
abbrev main_call5_v9 : Ref sig .tc := ⟨.hbm, 439, rfl⟩
abbrev main_call5_v10 : Ref sig .tc := ⟨.hbm, 440, rfl⟩
abbrev main_call5_v11 : Ref sig .tc := ⟨.hbm, 441, rfl⟩
abbrev main_call5_v12 : Ref sig .tc := ⟨.hbm, 442, rfl⟩
abbrev main_call5_v13 : Ref sig .tc := ⟨.hbm, 443, rfl⟩
abbrev main_call5_v14 : Ref sig .tc := ⟨.hbm, 444, rfl⟩
abbrev main_v177 : Ref sig .tc := ⟨.hbm, 445, rfl⟩
abbrev main_v178 : Ref sig .tc := ⟨.hbm, 446, rfl⟩
abbrev main_v179 : Ref sig .tc := ⟨.hbm, 447, rfl⟩
abbrev main_v180 : Ref sig .tc := ⟨.hbm, 448, rfl⟩
abbrev main_v181 : Ref sig .tc := ⟨.hbm, 449, rfl⟩
abbrev main_c_143 : Ref sig .tc := ⟨.hbm, 450, rfl⟩
abbrev main_v182 : Ref sig .tc := ⟨.hbm, 451, rfl⟩
abbrev main_v183 : Ref sig .tc := ⟨.hbm, 452, rfl⟩
abbrev main_v184 : Ref sig .tc := ⟨.hbm, 453, rfl⟩
abbrev main_v185 : Ref sig .tc := ⟨.hbm, 454, rfl⟩
abbrev main_v186 : Ref sig .tc := ⟨.hbm, 455, rfl⟩
abbrev main_v187 : Ref sig .tc := ⟨.hbm, 456, rfl⟩
abbrev main_v188 : Ref sig .tc := ⟨.hbm, 457, rfl⟩
abbrev main_c_144 : Ref sig .tc := ⟨.hbm, 458, rfl⟩
abbrev main_call6_v0 : Ref sig .tc := ⟨.hbm, 459, rfl⟩
abbrev main_call6_c : Ref sig .tc := ⟨.hbm, 460, rfl⟩
abbrev main_call6_v1 : Ref sig .tc := ⟨.hbm, 461, rfl⟩
abbrev main_call6_c_0 : Ref sig .tc := ⟨.hbm, 462, rfl⟩
abbrev main_call6_v2 : Ref sig .tc := ⟨.hbm, 463, rfl⟩
abbrev main_call6_v3 : Ref sig .tc := ⟨.hbm, 464, rfl⟩
abbrev main_call6_v4 : Ref sig .tc := ⟨.hbm, 465, rfl⟩
abbrev main_call6_c_1 : Ref sig .tc := ⟨.hbm, 466, rfl⟩
abbrev main_call6_v5 : Ref sig .tc := ⟨.hbm, 467, rfl⟩
abbrev main_call6_v6 : Ref sig .tc := ⟨.hbm, 468, rfl⟩
abbrev main_call6_c_2 : Ref sig .tc := ⟨.hbm, 469, rfl⟩
abbrev main_call6_v7 : Ref sig .tc := ⟨.hbm, 470, rfl⟩
abbrev main_call6_v8 : Ref sig .tc := ⟨.hbm, 471, rfl⟩
abbrev main_call6_c_3 : Ref sig .tc := ⟨.hbm, 472, rfl⟩
abbrev main_call6_v9 : Ref sig .tc := ⟨.hbm, 473, rfl⟩
abbrev main_call6_v10 : Ref sig .tc := ⟨.hbm, 474, rfl⟩
abbrev main_call6_v11 : Ref sig .tc := ⟨.hbm, 475, rfl⟩
abbrev main_call6_v12 : Ref sig .tc := ⟨.hbm, 476, rfl⟩
abbrev main_call6_v13 : Ref sig .tc := ⟨.hbm, 477, rfl⟩
abbrev main_call6_v14 : Ref sig .tc := ⟨.hbm, 478, rfl⟩
abbrev main_v189 : Ref sig .tc := ⟨.hbm, 479, rfl⟩
abbrev main_c_145 : Ref sig .tc := ⟨.hbm, 480, rfl⟩
abbrev main_v190 : Ref sig .tc := ⟨.hbm, 481, rfl⟩
abbrev main_v191 : Ref sig .tc := ⟨.hbm, 482, rfl⟩
abbrev main_c_146 : Ref sig .tc := ⟨.hbm, 483, rfl⟩
abbrev main_v192 : Ref sig .tc := ⟨.hbm, 484, rfl⟩
abbrev main_v193 : Ref sig .tc := ⟨.hbm, 485, rfl⟩
abbrev main_v194 : Ref sig .tc := ⟨.hbm, 486, rfl⟩
abbrev main_v195 : Ref sig .tc := ⟨.hbm, 487, rfl⟩
abbrev main_v196 : Ref sig .tc := ⟨.hbm, 488, rfl⟩
abbrev main_v197 : Ref sig .tc := ⟨.hbm, 489, rfl⟩
abbrev main_call7_v0 : Ref sig .tc := ⟨.hbm, 490, rfl⟩
abbrev main_call7_v1 : Ref sig .tc := ⟨.hbm, 491, rfl⟩
abbrev main_v198 : Ref sig .tc := ⟨.hbm, 492, rfl⟩
abbrev main_c_147 : Ref sig .tc := ⟨.hbm, 493, rfl⟩
abbrev main_v199 : Ref sig .tc := ⟨.hbm, 494, rfl⟩
abbrev main_v200 : Ref sig .tc := ⟨.hbm, 495, rfl⟩
abbrev main_v201 : Ref sig .tc := ⟨.hbm, 496, rfl⟩
abbrev main_v202 : Ref sig .tc := ⟨.hbm, 497, rfl⟩
abbrev main_v203 : Ref sig .tc := ⟨.hbm, 498, rfl⟩
abbrev main_v204 : Ref sig .tc := ⟨.hbm, 499, rfl⟩
abbrev main_v205 : Ref sig .tc := ⟨.hbm, 500, rfl⟩
abbrev main_v206 : Ref sig .tc := ⟨.hbm, 501, rfl⟩
abbrev main_v207 : Ref sig .tc := ⟨.hbm, 502, rfl⟩
abbrev main_v208 : Ref sig .tc := ⟨.hbm, 503, rfl⟩
abbrev main_c_148 : Ref sig .tc := ⟨.hbm, 504, rfl⟩
abbrev main_call8_v0 : Ref sig .tc := ⟨.hbm, 505, rfl⟩
abbrev main_call8_c : Ref sig .tc := ⟨.hbm, 506, rfl⟩
abbrev main_call8_v1 : Ref sig .tc := ⟨.hbm, 507, rfl⟩
abbrev main_call8_c_0 : Ref sig .tc := ⟨.hbm, 508, rfl⟩
abbrev main_call8_v2 : Ref sig .tc := ⟨.hbm, 509, rfl⟩
abbrev main_call8_v3 : Ref sig .tc := ⟨.hbm, 510, rfl⟩
abbrev main_call8_v4 : Ref sig .tc := ⟨.hbm, 511, rfl⟩
abbrev main_call8_c_1 : Ref sig .tc := ⟨.hbm, 512, rfl⟩
abbrev main_call8_v5 : Ref sig .tc := ⟨.hbm, 513, rfl⟩
abbrev main_call8_v6 : Ref sig .tc := ⟨.hbm, 514, rfl⟩
abbrev main_call8_c_2 : Ref sig .tc := ⟨.hbm, 515, rfl⟩
abbrev main_call8_v7 : Ref sig .tc := ⟨.hbm, 516, rfl⟩
abbrev main_call8_v8 : Ref sig .tc := ⟨.hbm, 517, rfl⟩
abbrev main_call8_c_3 : Ref sig .tc := ⟨.hbm, 518, rfl⟩
abbrev main_call8_v9 : Ref sig .tc := ⟨.hbm, 519, rfl⟩
abbrev main_call8_v10 : Ref sig .tc := ⟨.hbm, 520, rfl⟩
abbrev main_call8_v11 : Ref sig .tc := ⟨.hbm, 521, rfl⟩
abbrev main_call8_v12 : Ref sig .tc := ⟨.hbm, 522, rfl⟩
abbrev main_call8_v13 : Ref sig .tc := ⟨.hbm, 523, rfl⟩
abbrev main_call8_v14 : Ref sig .tc := ⟨.hbm, 524, rfl⟩
abbrev main_v209 : Ref sig .tc := ⟨.hbm, 525, rfl⟩
abbrev main_v210 : Ref sig .tc := ⟨.hbm, 526, rfl⟩
abbrev main_v211 : Ref sig .tc := ⟨.hbm, 527, rfl⟩
abbrev main_v212 : Ref sig .tc := ⟨.hbm, 528, rfl⟩
abbrev main_v213 : Ref sig .tc := ⟨.hbm, 529, rfl⟩
abbrev main_v214 : Ref sig .tc := ⟨.hbm, 530, rfl⟩
abbrev main_c_149 : Ref sig .tc := ⟨.hbm, 531, rfl⟩
abbrev main_v215 : Ref sig .tc := ⟨.hbm, 532, rfl⟩
abbrev main_v216 : Ref sig .tc := ⟨.hbm, 533, rfl⟩
abbrev main_c_150 : Ref sig .tc := ⟨.hbm, 534, rfl⟩
abbrev main_v217 : Ref sig .tc := ⟨.hbm, 535, rfl⟩
abbrev main_v218 : Ref sig .tc := ⟨.hbm, 536, rfl⟩
abbrev main_v219 : Ref sig .tc := ⟨.hbm, 537, rfl⟩
abbrev main_v220 : Ref sig .tc := ⟨.hbm, 538, rfl⟩
abbrev main_v221 : Ref sig .tc := ⟨.hbm, 539, rfl⟩
abbrev main_call9_v0 : Ref sig .tc := ⟨.hbm, 540, rfl⟩
abbrev main_call9_v1 : Ref sig .tc := ⟨.hbm, 541, rfl⟩
abbrev main_v222 : Ref sig .tc := ⟨.hbm, 542, rfl⟩
abbrev main_v223 : Ref sig .tc := ⟨.hbm, 543, rfl⟩
abbrev main_v224 : Ref sig .tc := ⟨.hbm, 544, rfl⟩
abbrev main_v225 : Ref sig .tc := ⟨.hbm, 545, rfl⟩
abbrev main_v226 : Ref sig .tc := ⟨.hbm, 546, rfl⟩
abbrev main_v227 : Ref sig .tc := ⟨.hbm, 547, rfl⟩
abbrev main_c_151 : Ref sig .tc := ⟨.hbm, 548, rfl⟩
abbrev main_c_152 : Ref sig .tc := ⟨.hbm, 549, rfl⟩
abbrev main_call10_v0 : Ref sig .tc := ⟨.hbm, 550, rfl⟩
abbrev main_call10_v1 : Ref sig .tc := ⟨.hbm, 551, rfl⟩
abbrev main_call10_v2 : Ref sig .tc := ⟨.hbm, 552, rfl⟩
abbrev main_call10_v3 : Ref sig .tc := ⟨.hbm, 553, rfl⟩
abbrev main_call10_v4 : Ref sig .tc := ⟨.hbm, 554, rfl⟩
abbrev main_v228 : Ref sig .tc := ⟨.hbm, 555, rfl⟩
abbrev main_c_153 : Ref sig .tc := ⟨.hbm, 556, rfl⟩
abbrev main_v229 : Ref sig .tc := ⟨.hbm, 557, rfl⟩
abbrev main_v230 : Ref sig .tc := ⟨.hbm, 558, rfl⟩
abbrev main_v231 : Ref sig .tc := ⟨.hbm, 559, rfl⟩
abbrev main_v232 : Ref sig .tc := ⟨.hbm, 560, rfl⟩
abbrev main_v233 : Ref sig .tc := ⟨.hbm, 561, rfl⟩
abbrev main_v234 : Ref sig .tc := ⟨.hbm, 562, rfl⟩
abbrev main_v235 : Ref sig .tc := ⟨.hbm, 563, rfl⟩
abbrev main_v236 : Ref sig .tc := ⟨.hbm, 564, rfl⟩
abbrev main_c_154 : Ref sig .tc := ⟨.hbm, 565, rfl⟩
abbrev main_call11_v0 : Ref sig .tc := ⟨.hbm, 566, rfl⟩
abbrev main_call11_c : Ref sig .tc := ⟨.hbm, 567, rfl⟩
abbrev main_call11_v1 : Ref sig .tc := ⟨.hbm, 568, rfl⟩
abbrev main_call11_c_0 : Ref sig .tc := ⟨.hbm, 569, rfl⟩
abbrev main_call11_v2 : Ref sig .tc := ⟨.hbm, 570, rfl⟩
abbrev main_call11_v3 : Ref sig .tc := ⟨.hbm, 571, rfl⟩
abbrev main_call11_v4 : Ref sig .tc := ⟨.hbm, 572, rfl⟩
abbrev main_call11_c_1 : Ref sig .tc := ⟨.hbm, 573, rfl⟩
abbrev main_call11_v5 : Ref sig .tc := ⟨.hbm, 574, rfl⟩
abbrev main_call11_v6 : Ref sig .tc := ⟨.hbm, 575, rfl⟩
abbrev main_call11_c_2 : Ref sig .tc := ⟨.hbm, 576, rfl⟩
abbrev main_call11_v7 : Ref sig .tc := ⟨.hbm, 577, rfl⟩
abbrev main_call11_v8 : Ref sig .tc := ⟨.hbm, 578, rfl⟩
abbrev main_call11_c_3 : Ref sig .tc := ⟨.hbm, 579, rfl⟩
abbrev main_call11_v9 : Ref sig .tc := ⟨.hbm, 580, rfl⟩
abbrev main_call11_v10 : Ref sig .tc := ⟨.hbm, 581, rfl⟩
abbrev main_call11_v11 : Ref sig .tc := ⟨.hbm, 582, rfl⟩
abbrev main_call11_v12 : Ref sig .tc := ⟨.hbm, 583, rfl⟩
abbrev main_call11_v13 : Ref sig .tc := ⟨.hbm, 584, rfl⟩
abbrev main_call11_v14 : Ref sig .tc := ⟨.hbm, 585, rfl⟩
abbrev main_v237 : Ref sig .tc := ⟨.hbm, 586, rfl⟩
abbrev main_v238 : Ref sig .tc := ⟨.hbm, 587, rfl⟩
abbrev main_c_155 : Ref sig .tc := ⟨.hbm, 588, rfl⟩
abbrev main_v239 : Ref sig .tc := ⟨.hbm, 589, rfl⟩
abbrev main_v240 : Ref sig .tc := ⟨.hbm, 590, rfl⟩
abbrev main_c_156 : Ref sig .tc := ⟨.hbm, 591, rfl⟩
abbrev main_v241 : Ref sig .tc := ⟨.hbm, 592, rfl⟩
abbrev main_v242 : Ref sig .tc := ⟨.hbm, 593, rfl⟩
abbrev main_v243 : Ref sig .tc := ⟨.hbm, 594, rfl⟩
abbrev main_c_157 : Ref sig .tc := ⟨.hbm, 595, rfl⟩
abbrev main_v244 : Ref sig .tc := ⟨.hbm, 596, rfl⟩
abbrev main_v245 : Ref sig .tc := ⟨.hbm, 597, rfl⟩
abbrev main_c_158 : Ref sig .tc := ⟨.hbm, 598, rfl⟩
abbrev main_v246 : Ref sig .tc := ⟨.hbm, 599, rfl⟩
abbrev main_v247 : Ref sig .tc := ⟨.hbm, 600, rfl⟩
abbrev main_v248 : Ref sig .tc := ⟨.hbm, 601, rfl⟩
abbrev main_v249 : Ref sig .tc := ⟨.hbm, 602, rfl⟩
abbrev main_v250 : Ref sig .tc := ⟨.hbm, 603, rfl⟩
abbrev main_v251 : Ref sig .tc := ⟨.hbm, 604, rfl⟩
abbrev main_v252 : Ref sig .tc := ⟨.hbm, 605, rfl⟩
abbrev main_v253 : Ref sig .tc := ⟨.hbm, 606, rfl⟩
abbrev main_v254 : Ref sig .tc := ⟨.hbm, 607, rfl⟩
abbrev main_v255 : Ref sig .tc := ⟨.hbm, 608, rfl⟩
abbrev main_c_159 : Ref sig .tc := ⟨.hbm, 609, rfl⟩
abbrev main_v256 : Ref sig .tc := ⟨.hbm, 610, rfl⟩
abbrev main_v257 : Ref sig .tc := ⟨.hbm, 611, rfl⟩
abbrev main_c_160 : Ref sig .tc := ⟨.hbm, 612, rfl⟩
abbrev main_v258 : Ref sig .tc := ⟨.hbm, 613, rfl⟩
abbrev main_v259 : Ref sig .tc := ⟨.hbm, 614, rfl⟩
abbrev main_v260 : Ref sig .tc := ⟨.hbm, 615, rfl⟩
abbrev main_v261 : Ref sig .tc := ⟨.hbm, 616, rfl⟩
abbrev main_v262 : Ref sig .tc := ⟨.hbm, 617, rfl⟩
abbrev main_v263 : Ref sig .tc := ⟨.hbm, 618, rfl⟩
abbrev main_call12_v0 : Ref sig .tc := ⟨.hbm, 619, rfl⟩
abbrev main_call12_v1 : Ref sig .tc := ⟨.hbm, 620, rfl⟩
abbrev main_v264 : Ref sig .tc := ⟨.hbm, 621, rfl⟩
abbrev main_c_161 : Ref sig .tc := ⟨.hbm, 622, rfl⟩
abbrev main_v265 : Ref sig .tc := ⟨.hbm, 623, rfl⟩
abbrev main_v266 : Ref sig .tc := ⟨.hbm, 624, rfl⟩
abbrev main_v267 : Ref sig .tc := ⟨.hbm, 625, rfl⟩
abbrev main_v268 : Ref sig .tc := ⟨.hbm, 626, rfl⟩
abbrev main_v269 : Ref sig .tc := ⟨.hbm, 627, rfl⟩
abbrev main_v270 : Ref sig .tc := ⟨.hbm, 628, rfl⟩
abbrev main_v271 : Ref sig .tc := ⟨.hbm, 629, rfl⟩
abbrev main_v272 : Ref sig .tc := ⟨.hbm, 630, rfl⟩
abbrev main_v273 : Ref sig .tc := ⟨.hbm, 631, rfl⟩
abbrev main_v274 : Ref sig .tc := ⟨.hbm, 632, rfl⟩
abbrev main_c_162 : Ref sig .tc := ⟨.hbm, 633, rfl⟩
abbrev main_call13_v0 : Ref sig .tc := ⟨.hbm, 634, rfl⟩
abbrev main_call13_c : Ref sig .tc := ⟨.hbm, 635, rfl⟩
abbrev main_call13_v1 : Ref sig .tc := ⟨.hbm, 636, rfl⟩
abbrev main_call13_c_0 : Ref sig .tc := ⟨.hbm, 637, rfl⟩
abbrev main_call13_v2 : Ref sig .tc := ⟨.hbm, 638, rfl⟩
abbrev main_call13_v3 : Ref sig .tc := ⟨.hbm, 639, rfl⟩
abbrev main_call13_v4 : Ref sig .tc := ⟨.hbm, 640, rfl⟩
abbrev main_call13_c_1 : Ref sig .tc := ⟨.hbm, 641, rfl⟩
abbrev main_call13_v5 : Ref sig .tc := ⟨.hbm, 642, rfl⟩
abbrev main_call13_v6 : Ref sig .tc := ⟨.hbm, 643, rfl⟩
abbrev main_call13_c_2 : Ref sig .tc := ⟨.hbm, 644, rfl⟩
abbrev main_call13_v7 : Ref sig .tc := ⟨.hbm, 645, rfl⟩
abbrev main_call13_v8 : Ref sig .tc := ⟨.hbm, 646, rfl⟩
abbrev main_call13_c_3 : Ref sig .tc := ⟨.hbm, 647, rfl⟩
abbrev main_call13_v9 : Ref sig .tc := ⟨.hbm, 648, rfl⟩
abbrev main_call13_v10 : Ref sig .tc := ⟨.hbm, 649, rfl⟩
abbrev main_call13_v11 : Ref sig .tc := ⟨.hbm, 650, rfl⟩
abbrev main_call13_v12 : Ref sig .tc := ⟨.hbm, 651, rfl⟩
abbrev main_call13_v13 : Ref sig .tc := ⟨.hbm, 652, rfl⟩
abbrev main_call13_v14 : Ref sig .tc := ⟨.hbm, 653, rfl⟩
abbrev main_v275 : Ref sig .tc := ⟨.hbm, 654, rfl⟩
abbrev main_v276 : Ref sig .tc := ⟨.hbm, 655, rfl⟩
abbrev main_v277 : Ref sig .tc := ⟨.hbm, 656, rfl⟩
abbrev main_v278 : Ref sig .tc := ⟨.hbm, 657, rfl⟩
abbrev main_v279 : Ref sig .tc := ⟨.hbm, 658, rfl⟩
abbrev main_c_163 : Ref sig .tc := ⟨.hbm, 659, rfl⟩
abbrev main_v280 : Ref sig .tc := ⟨.hbm, 660, rfl⟩
abbrev main_v281 : Ref sig .tc := ⟨.hbm, 661, rfl⟩
abbrev main_c_164 : Ref sig .tc := ⟨.hbm, 662, rfl⟩
abbrev main_v282 : Ref sig .tc := ⟨.hbm, 663, rfl⟩
abbrev main_v283 : Ref sig .tc := ⟨.hbm, 664, rfl⟩
abbrev main_v284 : Ref sig .tc := ⟨.hbm, 665, rfl⟩
abbrev main_v285 : Ref sig .tc := ⟨.hbm, 666, rfl⟩
abbrev main_v286 : Ref sig .tc := ⟨.hbm, 667, rfl⟩
abbrev main_v287 : Ref sig .tc := ⟨.hbm, 668, rfl⟩
abbrev main_v288 : Ref sig .tc := ⟨.hbm, 669, rfl⟩
abbrev main_v289 : Ref sig .tc := ⟨.hbm, 670, rfl⟩
abbrev main_c_165 : Ref sig .tc := ⟨.hbm, 671, rfl⟩
abbrev main_v290 : Ref sig .tc := ⟨.hbm, 672, rfl⟩
abbrev main_v291 : Ref sig .tc := ⟨.hbm, 673, rfl⟩
abbrev main_c_166 : Ref sig .tc := ⟨.hbm, 674, rfl⟩
abbrev main_v292 : Ref sig .tc := ⟨.hbm, 675, rfl⟩
abbrev main_v293 : Ref sig .tc := ⟨.hbm, 676, rfl⟩
abbrev main_v294 : Ref sig .tc := ⟨.hbm, 677, rfl⟩
abbrev main_c_167 : Ref sig .tc := ⟨.hbm, 678, rfl⟩
abbrev main_v295 : Ref sig .tc := ⟨.hbm, 679, rfl⟩
abbrev main_v296 : Ref sig .tc := ⟨.hbm, 680, rfl⟩
abbrev main_c_168 : Ref sig .tc := ⟨.hbm, 681, rfl⟩
abbrev main_v297 : Ref sig .tc := ⟨.hbm, 682, rfl⟩
abbrev main_v298 : Ref sig .tc := ⟨.hbm, 683, rfl⟩
abbrev main_v299 : Ref sig .tc := ⟨.hbm, 684, rfl⟩
abbrev main_v300 : Ref sig .tc := ⟨.hbm, 685, rfl⟩
abbrev main_v301 : Ref sig .tc := ⟨.hbm, 686, rfl⟩
abbrev main_v302 : Ref sig .tc := ⟨.hbm, 687, rfl⟩
abbrev main_v303 : Ref sig .tc := ⟨.hbm, 688, rfl⟩
abbrev main_v304 : Ref sig .tc := ⟨.hbm, 689, rfl⟩
abbrev main_v305 : Ref sig .tc := ⟨.hbm, 690, rfl⟩
abbrev main_call14_v0 : Ref sig .tc := ⟨.hbm, 691, rfl⟩
abbrev main_call14_v1 : Ref sig .tc := ⟨.hbm, 692, rfl⟩
abbrev main_v306 : Ref sig .tc := ⟨.hbm, 693, rfl⟩
abbrev main_v307 : Ref sig .tc := ⟨.hbm, 694, rfl⟩
abbrev main_v308 : Ref sig .tc := ⟨.hbm, 695, rfl⟩
abbrev main_v309 : Ref sig .tc := ⟨.hbm, 696, rfl⟩
abbrev main_v310 : Ref sig .tc := ⟨.hbm, 697, rfl⟩
abbrev main_v311 : Ref sig .tc := ⟨.hbm, 698, rfl⟩
abbrev main_c_169 : Ref sig .tc := ⟨.hbm, 699, rfl⟩
abbrev main_v312 : Ref sig .tc := ⟨.hbm, 700, rfl⟩
abbrev main_v313 : Ref sig .tc := ⟨.hbm, 701, rfl⟩
abbrev main_v314 : Ref sig .tc := ⟨.hbm, 702, rfl⟩
abbrev main_v315 : Ref sig .tc := ⟨.hbm, 703, rfl⟩
abbrev main_v316 : Ref sig .tc := ⟨.hbm, 704, rfl⟩
abbrev main_v317 : Ref sig .tc := ⟨.hbm, 705, rfl⟩
abbrev main_v318 : Ref sig .tc := ⟨.hbm, 706, rfl⟩
abbrev main_cst : Ref sig .tc := ⟨.hbm, 707, rfl⟩
abbrev main_call15_v0 : Ref sig .tc := ⟨.hbm, 708, rfl⟩
abbrev main_call15_v1 : Ref sig .tc := ⟨.hbm, 709, rfl⟩
abbrev main_call15_v2 : Ref sig .tc := ⟨.hbm, 710, rfl⟩
abbrev main_v319 : Ref sig .tc := ⟨.hbm, 711, rfl⟩
abbrev main_call16_v0 : Ref sig .tc := ⟨.hbm, 712, rfl⟩
abbrev main_v320 : Ref sig .tc := ⟨.hbm, 713, rfl⟩
abbrev main_v321 : Ref sig .tc := ⟨.hbm, 714, rfl⟩
abbrev main_v322 : Ref sig .tc := ⟨.hbm, 715, rfl⟩
abbrev main_v323 : Ref sig .tc := ⟨.hbm, 716, rfl⟩
abbrev main_v324 : Ref sig .tc := ⟨.hbm, 717, rfl⟩
abbrev main_v325 : Ref sig .tc := ⟨.hbm, 718, rfl⟩
abbrev main_c_170 : Ref sig .tc := ⟨.hbm, 719, rfl⟩
abbrev main_v326 : Ref sig .tc := ⟨.hbm, 720, rfl⟩
abbrev main_v327 : Ref sig .tc := ⟨.hbm, 721, rfl⟩
abbrev main_v328 : Ref sig .tc := ⟨.hbm, 722, rfl⟩
abbrev main_v329 : Ref sig .tc := ⟨.hbm, 723, rfl⟩
abbrev main_v330 : Ref sig .tc := ⟨.hbm, 724, rfl⟩
abbrev main_v331 : Ref sig .tc := ⟨.hbm, 725, rfl⟩
abbrev main_v332 : Ref sig .tc := ⟨.hbm, 726, rfl⟩
abbrev main_call17_v0 : Ref sig .tc := ⟨.hbm, 727, rfl⟩
abbrev main_v333 : Ref sig .tc := ⟨.hbm, 728, rfl⟩
abbrev main_call18_v0 : Ref sig .tc := ⟨.hbm, 729, rfl⟩
abbrev main_v334 : Ref sig .tc := ⟨.hbm, 730, rfl⟩
abbrev main_v335 : Ref sig .tc := ⟨.hbm, 731, rfl⟩
abbrev main_v336 : Ref sig .tc := ⟨.hbm, 732, rfl⟩
abbrev main_v337 : Ref sig .tc := ⟨.hbm, 733, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  concatenates_S16x1_S16x1_S16x1_S16x1_S16x4_d1 : Shape.Concatenates [S16x1, S16x1, S16x1, S16x1] S16x4 1
  shapeCasts_S16x1x3x1x224_S16x3x224 : S16x1x3x1x224.ShapeCasts S16x3x224
  shapeCasts_S16x1x3x10x224_S16x3x10x224 : S16x1x3x10x224.ShapeCasts S16x3x10x224
  shapeCasts_S16x1x3x164x1_S16x3x164 : S16x1x3x164x1.ShapeCasts S16x3x164
  shapeCasts_S16x1x3x164x10_S16x3x164x10 : S16x1x3x164x10.ShapeCasts S16x3x164x10
  bcast_S224_S224x1_0 : S224.BroadcastsInDim S224x1 (![0] : Fin 1 → Fin S224x1.rank)
  bcast_S224_S1x224_1 : S224.BroadcastsInDim S1x224 (![1] : Fin 1 → Fin S1x224.rank)
  bcast_S224x1_S1x224x1_1_2 : S224x1.BroadcastsInDim S1x224x1 (![1, 2] : Fin 2 → Fin S1x224x1.rank)
  bcast_S16_S16x1x1_0 : S16.BroadcastsInDim S16x1x1 (![0] : Fin 1 → Fin S16x1x1.rank)
  bcast_S1x224x1_S16x224x1_0_1_2 : S1x224x1.BroadcastsInDim S16x224x1 (![0, 1, 2] : Fin 3 → Fin S16x224x1.rank)
  bcast_S16x1x1_S16x224x1_0_1_2 : S16x1x1.BroadcastsInDim S16x224x1 (![0, 1, 2] : Fin 3 → Fin S16x224x1.rank)
  bcast_S_S224 : S_.BroadcastsInDim S224 (![] : Fin 0 → Fin S224.rank)
  bcast_S16x3x224_S16x3x1x224_0_1_3 : S16x3x224.BroadcastsInDim S16x3x1x224 (![0, 1, 3] : Fin 3 → Fin S16x3x1x224.rank)
  bcast_S16x224x1_S16x3x224x224_0_2_3 : S16x224x1.BroadcastsInDim S16x3x224x224 (![0, 2, 3] : Fin 3 → Fin S16x3x224x224.rank)
  bcast_S16x3x1x224_S16x3x224x224_0_1_2_3 : S16x3x1x224.BroadcastsInDim S16x3x224x224 (![0, 1, 2, 3] : Fin 4 → Fin S16x3x224x224.rank)
  bcast_S_S16x224x1 : S_.BroadcastsInDim S16x224x1 (![] : Fin 0 → Fin S16x224x1.rank)
  shapeCasts_S16x224x1_S16x224 : S16x224x1.ShapeCasts S16x224
  bcast_S_S16x224 : S_.BroadcastsInDim S16x224 (![] : Fin 0 → Fin S16x224.rank)
  bcast_S16x224_S16x224x1_0_1 : S16x224.BroadcastsInDim S16x224x1 (![0, 1] : Fin 2 → Fin S16x224x1.rank)
  bcast_S1x224_S16x224_0_1 : S1x224.BroadcastsInDim S16x224 (![0, 1] : Fin 2 → Fin S16x224.rank)
  bcast_S16x1_S16x224_0_1 : S16x1.BroadcastsInDim S16x224 (![0, 1] : Fin 2 → Fin S16x224.rank)
  bcast_S1x224_S1x1x224_1_2 : S1x224.BroadcastsInDim S1x1x224 (![1, 2] : Fin 2 → Fin S1x1x224.rank)
  bcast_S1x1x224_S16x1x224_0_1_2 : S1x1x224.BroadcastsInDim S16x1x224 (![0, 1, 2] : Fin 3 → Fin S16x1x224.rank)
  bcast_S16x1x1_S16x1x224_0_1_2 : S16x1x1.BroadcastsInDim S16x1x224 (![0, 1, 2] : Fin 3 → Fin S16x1x224.rank)
  bcast_S_S1x224 : S_.BroadcastsInDim S1x224 (![] : Fin 0 → Fin S1x224.rank)
  bcast_S16x224x1_S16x224x224_0_1_2 : S16x224x1.BroadcastsInDim S16x224x224 (![0, 1, 2] : Fin 3 → Fin S16x224x224.rank)
  bcast_S1x224_S224x224_0_1 : S1x224.BroadcastsInDim S224x224 (![0, 1] : Fin 2 → Fin S224x224.rank)
  bcast_S16x224x224_S16x224x224x1_0_1_2 : S16x224x224.BroadcastsInDim S16x224x224x1 (![0, 1, 2] : Fin 3 → Fin S16x224x224x1.rank)
  bcast_S224x224_S224x224x1_0_1 : S224x224.BroadcastsInDim S224x224x1 (![0, 1] : Fin 2 → Fin S224x224x1.rank)
  bcast_S224x224x1_S16x224x224x1_1_2_3 : S224x224x1.BroadcastsInDim S16x224x224x1 (![1, 2, 3] : Fin 3 → Fin S16x224x224x1.rank)
  concatenates_S16x224x224x1_S16x224x224x1_S16x224x224x2_d3 : Shape.Concatenates [S16x224x224x1, S16x224x224x1] S16x224x224x2 3
  bcast_S16x3x224_S16x3x224x1_0_1_2 : S16x3x224.BroadcastsInDim S16x3x224x1 (![0, 1, 2] : Fin 3 → Fin S16x3x224x1.rank)
  bcast_S16x1x224_S16x3x224x224_0_2_3 : S16x1x224.BroadcastsInDim S16x3x224x224 (![0, 2, 3] : Fin 3 → Fin S16x3x224x224.rank)
  bcast_S16x3x224x1_S16x3x224x224_0_1_2_3 : S16x3x224x1.BroadcastsInDim S16x3x224x224 (![0, 1, 2, 3] : Fin 4 → Fin S16x3x224x224.rank)
  bcast_S16x224_S16x1x224_0_2 : S16x224.BroadcastsInDim S16x1x224 (![0, 2] : Fin 2 → Fin S16x1x224.rank)
  bcast_S_S16x1x224 : S_.BroadcastsInDim S16x1x224 (![] : Fin 0 → Fin S16x1x224.rank)
  bcast_S16x1x224_S16x224x224_0_1_2 : S16x1x224.BroadcastsInDim S16x224x224 (![0, 1, 2] : Fin 3 → Fin S16x224x224.rank)
  bcast_S_S3x224x224 : S_.BroadcastsInDim S3x224x224 (![] : Fin 0 → Fin S3x224x224.rank)
  bcast_S3x224x224_S16x3x224x224_1_2_3 : S3x224x224.BroadcastsInDim S16x3x224x224 (![1, 2, 3] : Fin 3 → Fin S16x3x224x224.rank)
  bcast_S16x3x224x224_S16x3x1x224x224_0_1_3_4 : S16x3x224x224.BroadcastsInDim S16x3x1x224x224 (![0, 1, 3, 4] : Fin 4 → Fin S16x3x1x224x224.rank)
  bcast_S16x3x1x224x224_S16x3x16x224x224_0_1_2_3_4 : S16x3x1x224x224.BroadcastsInDim S16x3x16x224x224 (![0, 1, 2, 3, 4] : Fin 5 → Fin S16x3x16x224x224.rank)
  gather_S3x3x1x224_S16x4_S16x1x3x1x224_1234_n_n_n_0123_1_131224_wf : GatherDims.WF S3x3x1x224 S16x4 S16x1x3x1x224 [1, 2, 3, 4] [] [] [0, 1, 2, 3] [] 1 ![1, 3, 1, 224]
  gather_S3x3x10x224_S16x4_S16x1x3x10x224_1234_n_n_n_0123_1_1310224_wf : GatherDims.WF S3x3x10x224 S16x4 S16x1x3x10x224 [1, 2, 3, 4] [] [] [0, 1, 2, 3] [] 1 ![1, 3, 10, 224]
  gather_S3x3x164x1_S16x4_S16x1x3x164x1_1234_n_n_n_0123_1_131641_wf : GatherDims.WF S3x3x164x1 S16x4 S16x1x3x164x1 [1, 2, 3, 4] [] [] [0, 1, 2, 3] [] 1 ![1, 3, 164, 1]
  gather_S3x3x164x10_S16x4_S16x1x3x164x10_1234_n_n_n_0123_1_1316410_wf : GatherDims.WF S3x3x164x10 S16x4 S16x1x3x164x10 [1, 2, 3, 4] [] [] [0, 1, 2, 3] [] 1 ![1, 3, 164, 10]
  gather_S16x3x10x224_S224x1_S16x3x224x224_013_2_n_n_2_1_1631224_wf : GatherDims.WF S16x3x10x224 S224x1 S16x3x224x224 [0, 1, 3] [2] [] [2] [] 1 ![16, 3, 1, 224]
  gather_S16x3x10x224_S16x224x1_S16x3x224x224_13_2_0_0_2_2_131224_wf : GatherDims.WF S16x3x10x224 S16x224x1 S16x3x224x224 [1, 3] [2] [0] [2] [0] 2 ![1, 3, 1, 224]
  gather_S16x3x164x10_S16x224x224x2_S16x3x224x224_1_23_0_0_23_3_1311_wf : GatherDims.WF S16x3x164x10 S16x224x224x2 S16x3x224x224 [1] [2, 3] [0] [2, 3] [0] 3 ![1, 3, 1, 1]
  gather_S16x3x164_S16x224x1_S16x3x224_1_2_0_0_2_2_131_wf : GatherDims.WF S16x3x164 S16x224x1 S16x3x224 [1] [2] [0] [2] [0] 2 ![1, 3, 1]

variable [Facts₀]

def gather_S3x3x1x224_S16x4_S16x1x3x1x224_1234_n_n_n_0123_1_131224 : GatherDims S3x3x1x224 S16x4 S16x1x3x1x224 where
  offsetDims := [1, 2, 3, 4]
  collapsedSliceDims := []
  operandBatchingDims := []
  startIndicesBatchingDims := []
  startIndexMap := [0, 1, 2, 3]
  indexVectorDim := 1
  sliceSizes := ![1, 3, 1, 224]
  wf := gather_S3x3x1x224_S16x4_S16x1x3x1x224_1234_n_n_n_0123_1_131224_wf
def gather_S3x3x10x224_S16x4_S16x1x3x10x224_1234_n_n_n_0123_1_1310224 : GatherDims S3x3x10x224 S16x4 S16x1x3x10x224 where
  offsetDims := [1, 2, 3, 4]
  collapsedSliceDims := []
  operandBatchingDims := []
  startIndicesBatchingDims := []
  startIndexMap := [0, 1, 2, 3]
  indexVectorDim := 1
  sliceSizes := ![1, 3, 10, 224]
  wf := gather_S3x3x10x224_S16x4_S16x1x3x10x224_1234_n_n_n_0123_1_1310224_wf
def gather_S3x3x164x1_S16x4_S16x1x3x164x1_1234_n_n_n_0123_1_131641 : GatherDims S3x3x164x1 S16x4 S16x1x3x164x1 where
  offsetDims := [1, 2, 3, 4]
  collapsedSliceDims := []
  operandBatchingDims := []
  startIndicesBatchingDims := []
  startIndexMap := [0, 1, 2, 3]
  indexVectorDim := 1
  sliceSizes := ![1, 3, 164, 1]
  wf := gather_S3x3x164x1_S16x4_S16x1x3x164x1_1234_n_n_n_0123_1_131641_wf
def gather_S3x3x164x10_S16x4_S16x1x3x164x10_1234_n_n_n_0123_1_1316410 : GatherDims S3x3x164x10 S16x4 S16x1x3x164x10 where
  offsetDims := [1, 2, 3, 4]
  collapsedSliceDims := []
  operandBatchingDims := []
  startIndicesBatchingDims := []
  startIndexMap := [0, 1, 2, 3]
  indexVectorDim := 1
  sliceSizes := ![1, 3, 164, 10]
  wf := gather_S3x3x164x10_S16x4_S16x1x3x164x10_1234_n_n_n_0123_1_1316410_wf
def gather_S16x3x10x224_S224x1_S16x3x224x224_013_2_n_n_2_1_1631224 : GatherDims S16x3x10x224 S224x1 S16x3x224x224 where
  offsetDims := [0, 1, 3]
  collapsedSliceDims := [2]
  operandBatchingDims := []
  startIndicesBatchingDims := []
  startIndexMap := [2]
  indexVectorDim := 1
  sliceSizes := ![16, 3, 1, 224]
  wf := gather_S16x3x10x224_S224x1_S16x3x224x224_013_2_n_n_2_1_1631224_wf
def gather_S16x3x10x224_S16x224x1_S16x3x224x224_13_2_0_0_2_2_131224 : GatherDims S16x3x10x224 S16x224x1 S16x3x224x224 where
  offsetDims := [1, 3]
  collapsedSliceDims := [2]
  operandBatchingDims := [0]
  startIndicesBatchingDims := [0]
  startIndexMap := [2]
  indexVectorDim := 2
  sliceSizes := ![1, 3, 1, 224]
  wf := gather_S16x3x10x224_S16x224x1_S16x3x224x224_13_2_0_0_2_2_131224_wf
def gather_S16x3x164x10_S16x224x224x2_S16x3x224x224_1_23_0_0_23_3_1311 : GatherDims S16x3x164x10 S16x224x224x2 S16x3x224x224 where
  offsetDims := [1]
  collapsedSliceDims := [2, 3]
  operandBatchingDims := [0]
  startIndicesBatchingDims := [0]
  startIndexMap := [2, 3]
  indexVectorDim := 3
  sliceSizes := ![1, 3, 1, 1]
  wf := gather_S16x3x164x10_S16x224x224x2_S16x3x224x224_1_23_0_0_23_3_1311_wf
def gather_S16x3x164_S16x224x1_S16x3x224_1_2_0_0_2_2_131 : GatherDims S16x3x164 S16x224x1 S16x3x224 where
  offsetDims := [1]
  collapsedSliceDims := [2]
  operandBatchingDims := [0]
  startIndicesBatchingDims := [0]
  startIndexMap := [2]
  indexVectorDim := 2
  sliceSizes := ![1, 3, 1]
  wf := gather_S16x3x164_S16x224x1_S16x3x224_1_2_0_0_2_2_131_wf

class Facts : Prop extends Facts₀ where

variable [Facts]
-- ==== Proof.KernelFrameHost.lean ====
import proofs.«144763_j39642548142243_2_alg».proof.Proof.Gen.Kernel.Launch
import Idealize.ShloMosaic.Lib.Pipeline.FrameBody
import Idealize.ShloMosaic.Lib.Pipeline.FrameSuffix
import Idealize.ShloMosaic.Lib.Ring
import Idealize.ShloMosaic.Lib.Tactic

/-! # @main around its one region

The host operations before the region compute the prompt image and the two reshaped operands; one host operation
follows it (the result reshaped back). No host operation writes an argument array: each operation writes its own
result buffer only, and every result buffer has an index in HBM of 12 or more, the arguments being 0 … 11. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region-entry contents -/

/-- Core c's TensorCore buffer contents when the region is entered, as a valuation: after the host operations before
    the region. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) (fun b => m (c, b))
/-- The same read at a TensorCore reference. -/
abbrev V (c : Dev nD) (b : Ref sig .tc) : Buf (Elt F) ((c : Thread nD τ).loc b) := V0 m c (Proc.devRef .tc b)

/-! ## No host operation allocates or writes an argument -/

/-- The twelve argument references: the HBM buffers 0 … 11. -/
abbrev argRefs : List (Ref sig .tc) := [main_arg0, main_arg1, main_arg2, main_arg3, main_arg4, main_arg5, main_arg6, main_arg7, main_arg8, main_arg9, main_arg10, main_arg11]

theorem idx_lt_of_mem_argRefs {r : Ref sig .tc} (h : r ∈ argRefs) : r.idx.val < 12 := by
  simp only [argRefs, List.mem_cons, List.not_mem_nil, or_false] at h
  rcases h with rfl | rfl | rfl | rfl | rfl | rfl | rfl | rfl | rfl | rfl | rfl | rfl <;> decide

/-- A reference whose index is 12 or more is none of the arguments. -/
theorem arg_ne {r y : Ref sig .tc} (hr : r ∈ argRefs) (hy : 12 ≤ y.idx.val) : r ≠ y := by
  rintro rfl
  exact absurd (idx_lt_of_mem_argRefs hr) (Nat.not_lt.mpr hy)

/-- A list of host operations each of which allocates nothing and writes no argument. -/
structure Quiet (L : List (HloOp τ sig (Elt F))) : Prop where
  fresh : L.Forall fun op => op.fresh = ∅
  keeps : ∀ op ∈ L, ∀ r ∈ argRefs, Proc.devRef (τ := τ) .tc r ∉ op.writes

theorem Quiet.nil : Quiet ([] : List (HloOp τ sig (Elt F))) := ⟨trivial, fun _ h => nomatch h⟩

theorem Quiet.cons {op : HloOp τ sig (Elt F)} {L : List (HloOp τ sig (Elt F))} (h2 : op.fresh = ∅)
    (h3 : ∀ r ∈ argRefs, Proc.devRef (τ := τ) .tc r ∉ op.writes) (h : Quiet L) : Quiet (op :: L) :=
  ⟨(List.forall_cons _ _ _).2 ⟨h2, h.fresh⟩, List.forall_mem_cons.2 ⟨h3, h.keeps⟩⟩

section Builders

variable {x a b c y : Ref sig .tc} {L : List (HloOp τ sig (Elt F))}

theorem quiet_nullary {v : y.ty.Contents (Elt F)} {hy} (hne : 12 ≤ y.idx.val) (h : Quiet L) :
    Quiet (StableHlo.nullary (τ := τ) y v hy :: L) :=
  Quiet.cons rfl (fun r hr => by rw [StableHlo.nullary_writes, Finset.mem_singleton]; exact StableHlo.devRef_ne_of_ne (arg_ne hr hne)) h

theorem quiet_unary {f : x.ty.Contents (Elt F) → y.ty.Contents (Elt F)} {hx hy} (hne : 12 ≤ y.idx.val) (h : Quiet L) :
    Quiet (StableHlo.unary (τ := τ) x y f hx hy :: L) :=
  Quiet.cons rfl (fun r hr => by rw [StableHlo.unary_writes, Finset.mem_singleton]; exact StableHlo.devRef_ne_of_ne (arg_ne hr hne)) h

theorem quiet_binary {f : a.ty.Contents (Elt F) → b.ty.Contents (Elt F) → y.ty.Contents (Elt F)} {ha hb hy}
    (hne : 12 ≤ y.idx.val) (h : Quiet L) : Quiet (StableHlo.binary (τ := τ) a b y f ha hb hy :: L) :=
  Quiet.cons rfl (fun r hr => by rw [StableHlo.binary_writes, Finset.mem_singleton]; exact StableHlo.devRef_ne_of_ne (arg_ne hr hne)) h

theorem quiet_ternary
    {f : c.ty.Contents (Elt F) → a.ty.Contents (Elt F) → b.ty.Contents (Elt F) → y.ty.Contents (Elt F)} {hc ha hb hy}
    (hne : 12 ≤ y.idx.val) (h : Quiet L) : Quiet (StableHlo.ternary (τ := τ) c a b y f hc ha hb hy :: L) :=
  Quiet.cons rfl (fun r hr => by rw [StableHlo.ternary_writes, Finset.mem_singleton]; exact StableHlo.devRef_ne_of_ne (arg_ne hr hne)) h

theorem quiet_reshape {he hn hx hy} (hne : 12 ≤ y.idx.val) (h : Quiet L) :
    Quiet (StableHlo.reshape (τ := τ) (Val := Elt F) x y he hn hx hy :: L) :=
  Quiet.cons rfl (fun r hr => by rw [StableHlo.reshape_writes, Finset.mem_singleton]; exact StableHlo.devRef_ne_of_ne (arg_ne hr hne)) h

theorem quiet_nary {n : Nat} {xs : Fin n → Ref sig .tc}
    {f : ((k : Fin n) → (xs k).ty.Contents (Elt F)) → y.ty.Contents (Elt F)} {hxs hy}
    (hne : 12 ≤ y.idx.val) (h : Quiet L) : Quiet (StableHlo.nary (τ := τ) xs y f hxs hy :: L) :=
  Quiet.cons rfl (fun r hr => by rw [StableHlo.nary_writes, Finset.mem_singleton]; exact StableHlo.devRef_ne_of_ne (arg_ne hr hne)) h

end Builders

/-- A literal list of the builders' operations whose result buffers have index 12 or more is quiet: one builder's
    lemma per entry, the index compared with 12 by computation. -/
macro "hlo_quiet" : tactic =>
  `(tactic| repeat (first
      | exact Quiet.nil
      | refine quiet_nullary (by decide) ?_
      | refine quiet_unary (by decide) ?_
      | refine quiet_binary (by decide) ?_
      | refine quiet_ternary (by decide) ?_
      | refine quiet_reshape (by decide) ?_
      | refine quiet_nary (by decide) ?_))

/-! ## The stretches of @main -/

set_option maxHeartbeats 40000000 in
theorem hostOps0_quiet : Quiet (hostOps0 : List (HloOp τ sig (Elt F))) := by hlo_quiet
set_option maxHeartbeats 40000000 in
theorem hostOps0_1_quiet : Quiet (hostOps0_1 : List (HloOp τ sig (Elt F))) := by hlo_quiet
set_option maxHeartbeats 40000000 in
theorem hostOps0_2_quiet : Quiet (hostOps0_2 : List (HloOp τ sig (Elt F))) := by hlo_quiet
set_option maxHeartbeats 40000000 in
theorem hostOps0_3_quiet : Quiet (hostOps0_3 : List (HloOp τ sig (Elt F))) := by hlo_quiet
set_option maxHeartbeats 40000000 in
theorem hostOps0_4_quiet : Quiet (hostOps0_4 : List (HloOp τ sig (Elt F))) := by hlo_quiet
set_option maxHeartbeats 40000000 in
theorem hostOps0_5_quiet : Quiet (hostOps0_5 : List (HloOp τ sig (Elt F))) := by hlo_quiet
set_option maxHeartbeats 40000000 in
theorem hostOps0_6_quiet : Quiet (hostOps0_6 : List (HloOp τ sig (Elt F))) := by hlo_quiet
set_option maxHeartbeats 40000000 in
theorem hostOps0_7_quiet : Quiet (hostOps0_7 : List (HloOp τ sig (Elt F))) := by hlo_quiet
set_option maxHeartbeats 40000000 in
theorem hostOps0_8_quiet : Quiet (hostOps0_8 : List (HloOp τ sig (Elt F))) := by hlo_quiet
set_option maxHeartbeats 40000000 in
theorem hostOps0_9_quiet : Quiet (hostOps0_9 : List (HloOp τ sig (Elt F))) := by hlo_quiet
set_option maxHeartbeats 40000000 in
theorem hostOps0_10_quiet : Quiet (hostOps0_10 : List (HloOp τ sig (Elt F))) := by hlo_quiet
set_option maxHeartbeats 40000000 in
theorem hostOps0_11_quiet : Quiet (hostOps0_11 : List (HloOp τ sig (Elt F))) := by hlo_quiet
set_option maxHeartbeats 40000000 in
theorem hostOps0_12_quiet : Quiet (hostOps0_12 : List (HloOp τ sig (Elt F))) := by hlo_quiet
set_option maxHeartbeats 40000000 in
theorem hostOps0_13_quiet : Quiet (hostOps0_13 : List (HloOp τ sig (Elt F))) := by hlo_quiet
set_option maxHeartbeats 40000000 in
theorem hostOps0_14_quiet : Quiet (hostOps0_14 : List (HloOp τ sig (Elt F))) := by hlo_quiet
set_option maxHeartbeats 40000000 in
theorem hostOps0_15_quiet : Quiet (hostOps0_15 : List (HloOp τ sig (Elt F))) := by hlo_quiet
set_option maxHeartbeats 40000000 in
theorem hostOps0_16_quiet : Quiet (hostOps0_16 : List (HloOp τ sig (Elt F))) := by hlo_quiet
set_option maxHeartbeats 40000000 in
theorem hostOps0_17_quiet : Quiet (hostOps0_17 : List (HloOp τ sig (Elt F))) := by hlo_quiet
set_option maxHeartbeats 40000000 in
theorem hostOps0_18_quiet : Quiet (hostOps0_18 : List (HloOp τ sig (Elt F))) := by hlo_quiet
set_option maxHeartbeats 40000000 in
theorem hostOps0_19_quiet : Quiet (hostOps0_19 : List (HloOp τ sig (Elt F))) := by hlo_quiet
set_option maxHeartbeats 40000000 in
theorem hostOps0_20_quiet : Quiet (hostOps0_20 : List (HloOp τ sig (Elt F))) := by hlo_quiet
set_option maxHeartbeats 40000000 in
theorem hostOps0_21_quiet : Quiet (hostOps0_21 : List (HloOp τ sig (Elt F))) := by hlo_quiet
set_option maxHeartbeats 40000000 in
theorem hostOps0_22_quiet : Quiet (hostOps0_22 : List (HloOp τ sig (Elt F))) := by hlo_quiet
set_option maxHeartbeats 40000000 in
theorem hostOps0_23_quiet : Quiet (hostOps0_23 : List (HloOp τ sig (Elt F))) := by hlo_quiet
set_option maxHeartbeats 40000000 in
theorem hostOps0_24_quiet : Quiet (hostOps0_24 : List (HloOp τ sig (Elt F))) := by hlo_quiet
set_option maxHeartbeats 40000000 in
theorem hostOps0_25_quiet : Quiet (hostOps0_25 : List (HloOp τ sig (Elt F))) := by hlo_quiet
set_option maxHeartbeats 40000000 in
theorem hostOps0_26_quiet : Quiet (hostOps0_26 : List (HloOp τ sig (Elt F))) := by hlo_quiet
set_option maxHeartbeats 40000000 in
theorem hostOps0_27_quiet : Quiet (hostOps0_27 : List (HloOp τ sig (Elt F))) := by hlo_quiet
set_option maxHeartbeats 40000000 in
theorem hostOps0_28_quiet : Quiet (hostOps0_28 : List (HloOp τ sig (Elt F))) := by hlo_quiet
set_option maxHeartbeats 40000000 in
theorem hostOps0_29_quiet : Quiet (hostOps0_29 : List (HloOp τ sig (Elt F))) := by hlo_quiet
set_option maxHeartbeats 40000000 in
theorem hostOps0_30_quiet : Quiet (hostOps0_30 : List (HloOp τ sig (Elt F))) := by hlo_quiet
set_option maxHeartbeats 40000000 in
theorem hostOps0_31_quiet : Quiet (hostOps0_31 : List (HloOp τ sig (Elt F))) := by hlo_quiet
set_option maxHeartbeats 40000000 in
theorem hostOps0_32_quiet : Quiet (hostOps0_32 : List (HloOp τ sig (Elt F))) := by hlo_quiet
set_option maxHeartbeats 40000000 in
theorem hostOps0_33_quiet : Quiet (hostOps0_33 : List (HloOp τ sig (Elt F))) := by hlo_quiet
set_option maxHeartbeats 40000000 in
theorem hostOps0_34_quiet : Quiet (hostOps0_34 : List (HloOp τ sig (Elt F))) := by hlo_quiet
set_option maxHeartbeats 40000000 in
theorem hostOps0_35_quiet : Quiet (hostOps0_35 : List (HloOp τ sig (Elt F))) := by hlo_quiet
set_option maxHeartbeats 40000000 in
theorem hostOps0_36_quiet : Quiet (hostOps0_36 : List (HloOp τ sig (Elt F))) := by hlo_quiet
set_option maxHeartbeats 40000000 in
theorem hostOps1_quiet : Quiet (hostOps1 : List (HloOp τ sig (Elt F))) := by hlo_quiet

/-- Every stretch before the region touches TensorCore references only. -/
theorem pre_sub : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36] : List (List (HloOp τ sig (Elt F)))).Forall
    fun ops => ops.Forall fun op => op.bufs ⊆ StableHlo.tcRefs τ sig := by
  refine List.forall_iff_forall_mem.mpr fun ops hops => ?_
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact hostOps0_sub
  · exact hostOps0_1_sub
  · exact hostOps0_2_sub
  · exact hostOps0_3_sub
  · exact hostOps0_4_sub
  · exact hostOps0_5_sub
  · exact hostOps0_6_sub
  · exact hostOps0_7_sub
  · exact hostOps0_8_sub
  · exact hostOps0_9_sub
  · exact hostOps0_10_sub
  · exact hostOps0_11_sub
  · exact hostOps0_12_sub
  · exact hostOps0_13_sub
  · exact hostOps0_14_sub
  · exact hostOps0_15_sub
  · exact hostOps0_16_sub
  · exact hostOps0_17_sub
  · exact hostOps0_18_sub
  · exact hostOps0_19_sub
  · exact hostOps0_20_sub
  · exact hostOps0_21_sub
  · exact hostOps0_22_sub
  · exact hostOps0_23_sub
  · exact hostOps0_24_sub
  · exact hostOps0_25_sub
  · exact hostOps0_26_sub
  · exact hostOps0_27_sub
  · exact hostOps0_28_sub
  · exact hostOps0_29_sub
  · exact hostOps0_30_sub
  · exact hostOps0_31_sub
  · exact hostOps0_32_sub
  · exact hostOps0_33_sub
  · exact hostOps0_34_sub
  · exact hostOps0_35_sub
  · exact hostOps0_36_sub

/-- Every stretch before the region allocates nothing. -/
theorem pre_fresh : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36] : List (List (HloOp τ sig (Elt F)))).Forall
    fun ops => ops.Forall fun op => op.fresh = ∅ := by
  refine List.forall_iff_forall_mem.mpr fun ops hops => ?_
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact hostOps0_quiet.fresh
  · exact hostOps0_1_quiet.fresh
  · exact hostOps0_2_quiet.fresh
  · exact hostOps0_3_quiet.fresh
  · exact hostOps0_4_quiet.fresh
  · exact hostOps0_5_quiet.fresh
  · exact hostOps0_6_quiet.fresh
  · exact hostOps0_7_quiet.fresh
  · exact hostOps0_8_quiet.fresh
  · exact hostOps0_9_quiet.fresh
  · exact hostOps0_10_quiet.fresh
  · exact hostOps0_11_quiet.fresh
  · exact hostOps0_12_quiet.fresh
  · exact hostOps0_13_quiet.fresh
  · exact hostOps0_14_quiet.fresh
  · exact hostOps0_15_quiet.fresh
  · exact hostOps0_16_quiet.fresh
  · exact hostOps0_17_quiet.fresh
  · exact hostOps0_18_quiet.fresh
  · exact hostOps0_19_quiet.fresh
  · exact hostOps0_20_quiet.fresh
  · exact hostOps0_21_quiet.fresh
  · exact hostOps0_22_quiet.fresh
  · exact hostOps0_23_quiet.fresh
  · exact hostOps0_24_quiet.fresh
  · exact hostOps0_25_quiet.fresh
  · exact hostOps0_26_quiet.fresh
  · exact hostOps0_27_quiet.fresh
  · exact hostOps0_28_quiet.fresh
  · exact hostOps0_29_quiet.fresh
  · exact hostOps0_30_quiet.fresh
  · exact hostOps0_31_quiet.fresh
  · exact hostOps0_32_quiet.fresh
  · exact hostOps0_33_quiet.fresh
  · exact hostOps0_34_quiet.fresh
  · exact hostOps0_35_quiet.fresh
  · exact hostOps0_36_quiet.fresh

/-- No host operation before the region writes an argument. -/
theorem pre_keeps : ∀ op ∈ (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36] : List (HloOp τ sig (Elt F))),
    ∀ r ∈ argRefs, Proc.devRef (τ := τ) .tc r ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact hostOps0_quiet.keeps op hop
  · exact hostOps0_1_quiet.keeps op hop
  · exact hostOps0_2_quiet.keeps op hop
  · exact hostOps0_3_quiet.keeps op hop
  · exact hostOps0_4_quiet.keeps op hop
  · exact hostOps0_5_quiet.keeps op hop
  · exact hostOps0_6_quiet.keeps op hop
  · exact hostOps0_7_quiet.keeps op hop
  · exact hostOps0_8_quiet.keeps op hop
  · exact hostOps0_9_quiet.keeps op hop
  · exact hostOps0_10_quiet.keeps op hop
  · exact hostOps0_11_quiet.keeps op hop
  · exact hostOps0_12_quiet.keeps op hop
  · exact hostOps0_13_quiet.keeps op hop
  · exact hostOps0_14_quiet.keeps op hop
  · exact hostOps0_15_quiet.keeps op hop
  · exact hostOps0_16_quiet.keeps op hop
  · exact hostOps0_17_quiet.keeps op hop
  · exact hostOps0_18_quiet.keeps op hop
  · exact hostOps0_19_quiet.keeps op hop
  · exact hostOps0_20_quiet.keeps op hop
  · exact hostOps0_21_quiet.keeps op hop
  · exact hostOps0_22_quiet.keeps op hop
  · exact hostOps0_23_quiet.keeps op hop
  · exact hostOps0_24_quiet.keeps op hop
  · exact hostOps0_25_quiet.keeps op hop
  · exact hostOps0_26_quiet.keeps op hop
  · exact hostOps0_27_quiet.keeps op hop
  · exact hostOps0_28_quiet.keeps op hop
  · exact hostOps0_29_quiet.keeps op hop
  · exact hostOps0_30_quiet.keeps op hop
  · exact hostOps0_31_quiet.keeps op hop
  · exact hostOps0_32_quiet.keeps op hop
  · exact hostOps0_33_quiet.keeps op hop
  · exact hostOps0_34_quiet.keeps op hop
  · exact hostOps0_35_quiet.keeps op hop
  · exact hostOps0_36_quiet.keeps op hop

/-! ## @main around the region -/

/-- @main around the region: the host lines before it, the region, the host line after it; it reduces to the region
    continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36] [hostOps1] pre_sub pre_fresh main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_quiet.fresh) op hop
/-- And writes no array of the pipeline (it writes its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The arguments at the region's entry and at the end -/

/-- The region finds every argument array as launched. -/
theorem V_of_arg (c : Dev nD) {r : Ref sig .tc} (hr : r ∈ argRefs) : V m c r = m ((c : Thread nD τ).loc r) :=
  StableHlo.after_of_forall_not_mem (b := Proc.devRef .tc r) _ _ fun op hop => pre_keeps op hop r hr

theorem V_main_arg0 (c : Dev nD) : V m c main_arg0 = m ((c : Thread nD τ).loc main_arg0) := V_of_arg m c (by decide)
theorem V_main_arg1 (c : Dev nD) : V m c main_arg1 = m ((c : Thread nD τ).loc main_arg1) := V_of_arg m c (by decide)
theorem V_main_arg2 (c : Dev nD) : V m c main_arg2 = m ((c : Thread nD τ).loc main_arg2) := V_of_arg m c (by decide)
theorem V_main_arg3 (c : Dev nD) : V m c main_arg3 = m ((c : Thread nD τ).loc main_arg3) := V_of_arg m c (by decide)
theorem V_main_arg4 (c : Dev nD) : V m c main_arg4 = m ((c : Thread nD τ).loc main_arg4) := V_of_arg m c (by decide)
theorem V_main_arg5 (c : Dev nD) : V m c main_arg5 = m ((c : Thread nD τ).loc main_arg5) := V_of_arg m c (by decide)
theorem V_main_arg6 (c : Dev nD) : V m c main_arg6 = m ((c : Thread nD τ).loc main_arg6) := V_of_arg m c (by decide)
theorem V_main_arg7 (c : Dev nD) : V m c main_arg7 = m ((c : Thread nD τ).loc main_arg7) := V_of_arg m c (by decide)
theorem V_main_arg8 (c : Dev nD) : V m c main_arg8 = m ((c : Thread nD τ).loc main_arg8) := V_of_arg m c (by decide)
theorem V_main_arg9 (c : Dev nD) : V m c main_arg9 = m ((c : Thread nD τ).loc main_arg9) := V_of_arg m c (by decide)
theorem V_main_arg10 (c : Dev nD) : V m c main_arg10 = m ((c : Thread nD τ).loc main_arg10) := V_of_arg m c (by decide)
theorem V_main_arg11 (c : Dev nD) : V m c main_arg11 = m ((c : Thread nD τ).loc main_arg11) := V_of_arg m c (by decide)

/-- The line after the region writes no argument. -/
theorem sfx_keeps_arg : ∀ op ∈ (List.flatten [hostOps1] : List (HloOp τ sig (Elt F))),
    ∀ r ∈ argRefs, Proc.devRef (τ := τ) .tc r ∉ op.writes := by
  intro op hop
  rw [List.flatten_cons, List.flatten_nil, List.append_nil] at hop
  exact hostOps1_quiet.keeps op hop

/-- `main_arg0` ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (fun op hop => sfx_keeps_arg op hop main_arg0 (by decide)),
    Pipeline.withArrays_of_ne _ c (V0 m c) _ main_arg0 (by exact (by decide : ∀ w, Pipeline.arrRef spec0 w ≠ main_arg0))]
  exact V_main_arg0 m c
/-- `main_arg1` ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (fun op hop => sfx_keeps_arg op hop main_arg1 (by decide)),
    Pipeline.withArrays_of_ne _ c (V0 m c) _ main_arg1 (by exact (by decide : ∀ w, Pipeline.arrRef spec0 w ≠ main_arg1))]
  exact V_main_arg1 m c
/-- `main_arg2` ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (fun op hop => sfx_keeps_arg op hop main_arg2 (by decide)),
    Pipeline.withArrays_of_ne _ c (V0 m c) _ main_arg2 (by exact (by decide : ∀ w, Pipeline.arrRef spec0 w ≠ main_arg2))]
  exact V_main_arg2 m c
/-- `main_arg3` ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (fun op hop => sfx_keeps_arg op hop main_arg3 (by decide)),
    Pipeline.withArrays_of_ne _ c (V0 m c) _ main_arg3 (by exact (by decide : ∀ w, Pipeline.arrRef spec0 w ≠ main_arg3))]
  exact V_main_arg3 m c
/-- `main_arg4` ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (fun op hop => sfx_keeps_arg op hop main_arg4 (by decide)),
    Pipeline.withArrays_of_ne _ c (V0 m c) _ main_arg4 (by exact (by decide : ∀ w, Pipeline.arrRef spec0 w ≠ main_arg4))]
  exact V_main_arg4 m c
/-- `main_arg5` ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (fun op hop => sfx_keeps_arg op hop main_arg5 (by decide)),
    Pipeline.withArrays_of_ne _ c (V0 m c) _ main_arg5 (by exact (by decide : ∀ w, Pipeline.arrRef spec0 w ≠ main_arg5))]
  exact V_main_arg5 m c
/-- `main_arg6` ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (fun op hop => sfx_keeps_arg op hop main_arg6 (by decide)),
    Pipeline.withArrays_of_ne _ c (V0 m c) _ main_arg6 (by exact (by decide : ∀ w, Pipeline.arrRef spec0 w ≠ main_arg6))]
  exact V_main_arg6 m c
/-- `main_arg7` ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (fun op hop => sfx_keeps_arg op hop main_arg7 (by decide)),
    Pipeline.withArrays_of_ne _ c (V0 m c) _ main_arg7 (by exact (by decide : ∀ w, Pipeline.arrRef spec0 w ≠ main_arg7))]
  exact V_main_arg7 m c
/-- `main_arg8` ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (fun op hop => sfx_keeps_arg op hop main_arg8 (by decide)),
    Pipeline.withArrays_of_ne _ c (V0 m c) _ main_arg8 (by exact (by decide : ∀ w, Pipeline.arrRef spec0 w ≠ main_arg8))]
  exact V_main_arg8 m c
/-- `main_arg9` ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (fun op hop => sfx_keeps_arg op hop main_arg9 (by decide)),
    Pipeline.withArrays_of_ne _ c (V0 m c) _ main_arg9 (by exact (by decide : ∀ w, Pipeline.arrRef spec0 w ≠ main_arg9))]
  exact V_main_arg9 m c
/-- `main_arg10` ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (fun op hop => sfx_keeps_arg op hop main_arg10 (by decide)),
    Pipeline.withArrays_of_ne _ c (V0 m c) _ main_arg10 (by exact (by decide : ∀ w, Pipeline.arrRef spec0 w ≠ main_arg10))]
  exact V_main_arg10 m c
/-- `main_arg11` ends as launched. -/
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (fun op hop => sfx_keeps_arg op hop main_arg11 (by decide)),
    Pipeline.withArrays_of_ne _ c (V0 m c) _ main_arg11 (by exact (by decide : ∀ w, Pipeline.arrRef spec0 w ≠ main_arg11))]
  exact V_main_arg11 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A final state meeting the frame run's post has every argument array as launched: every argument bypasses the
    region (none is a window's array), so the post gives it what the line after the region leaves. -/
theorem kept_of (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c)⟩

/-- The frame from a frame run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept_of m dats r h c) h

end Cert.Kernel.Hand

end
-- ==== Proof.KernelFrameBody.lean ====
import proofs.«144763_j39642548142243_2_alg».proof.Proof.Gen.Kernel.Skeleton
import proofs.«144763_j39642548142243_2_alg».proof.Proof.Gen.Kernel.Points
import Idealize.ShloMosaic.Lib.Pipeline.FrameBody
import Idealize.ShloMosaic.Lib.Ring
import Idealize.ShloMosaic.Lib.Tactic

/-! # The kernel body's triple

The body adds the prompt block (window 1, read whole, once) to each of the sixteen slabs [0, 0, t, 0, 0] + [1, 3, 1, 392, 128]
of the input block (window 0) and stores the sum into the same slab of the output block (window 2). The sixteen
slabs tile the output block, so what the body leaves there is a function of the two input blocks alone. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole prompt block. -/
abbrev rw1 : Rect S1x3x392x128 := Rect.unit (s := S1x3x392x128) ![0, 0, 0, 0] S1x3x392x128.size inb_S1x3x392x128_S1x3x392x128_0_0_0_0

/-- Slab 0 along axis 2. -/
abbrev r0 : Rect S1x3x16x392x128 := Rect.unit (s := S1x3x16x392x128) ![0, 0, 0, 0, 0] S1x3x1x392x128.size inb_S1x3x16x392x128_S1x3x1x392x128_0_0_0_0_0
/-- Slab 1 along axis 2. -/
abbrev r1 : Rect S1x3x16x392x128 := Rect.unit (s := S1x3x16x392x128) ![0, 0, 1, 0, 0] S1x3x1x392x128.size inb_S1x3x16x392x128_S1x3x1x392x128_0_0_1_0_0
/-- Slab 2 along axis 2. -/
abbrev r2 : Rect S1x3x16x392x128 := Rect.unit (s := S1x3x16x392x128) ![0, 0, 2, 0, 0] S1x3x1x392x128.size inb_S1x3x16x392x128_S1x3x1x392x128_0_0_2_0_0
/-- Slab 3 along axis 2. -/
abbrev r3 : Rect S1x3x16x392x128 := Rect.unit (s := S1x3x16x392x128) ![0, 0, 3, 0, 0] S1x3x1x392x128.size inb_S1x3x16x392x128_S1x3x1x392x128_0_0_3_0_0
/-- Slab 4 along axis 2. -/
abbrev r4 : Rect S1x3x16x392x128 := Rect.unit (s := S1x3x16x392x128) ![0, 0, 4, 0, 0] S1x3x1x392x128.size inb_S1x3x16x392x128_S1x3x1x392x128_0_0_4_0_0
/-- Slab 5 along axis 2. -/
abbrev r5 : Rect S1x3x16x392x128 := Rect.unit (s := S1x3x16x392x128) ![0, 0, 5, 0, 0] S1x3x1x392x128.size inb_S1x3x16x392x128_S1x3x1x392x128_0_0_5_0_0
/-- Slab 6 along axis 2. -/
abbrev r6 : Rect S1x3x16x392x128 := Rect.unit (s := S1x3x16x392x128) ![0, 0, 6, 0, 0] S1x3x1x392x128.size inb_S1x3x16x392x128_S1x3x1x392x128_0_0_6_0_0
/-- Slab 7 along axis 2. -/
abbrev r7 : Rect S1x3x16x392x128 := Rect.unit (s := S1x3x16x392x128) ![0, 0, 7, 0, 0] S1x3x1x392x128.size inb_S1x3x16x392x128_S1x3x1x392x128_0_0_7_0_0
/-- Slab 8 along axis 2. -/
abbrev r8 : Rect S1x3x16x392x128 := Rect.unit (s := S1x3x16x392x128) ![0, 0, 8, 0, 0] S1x3x1x392x128.size inb_S1x3x16x392x128_S1x3x1x392x128_0_0_8_0_0
/-- Slab 9 along axis 2. -/
abbrev r9 : Rect S1x3x16x392x128 := Rect.unit (s := S1x3x16x392x128) ![0, 0, 9, 0, 0] S1x3x1x392x128.size inb_S1x3x16x392x128_S1x3x1x392x128_0_0_9_0_0
/-- Slab 10 along axis 2. -/
abbrev r10 : Rect S1x3x16x392x128 := Rect.unit (s := S1x3x16x392x128) ![0, 0, 10, 0, 0] S1x3x1x392x128.size inb_S1x3x16x392x128_S1x3x1x392x128_0_0_10_0_0
/-- Slab 11 along axis 2. -/
abbrev r11 : Rect S1x3x16x392x128 := Rect.unit (s := S1x3x16x392x128) ![0, 0, 11, 0, 0] S1x3x1x392x128.size inb_S1x3x16x392x128_S1x3x1x392x128_0_0_11_0_0
/-- Slab 12 along axis 2. -/
abbrev r12 : Rect S1x3x16x392x128 := Rect.unit (s := S1x3x16x392x128) ![0, 0, 12, 0, 0] S1x3x1x392x128.size inb_S1x3x16x392x128_S1x3x1x392x128_0_0_12_0_0
/-- Slab 13 along axis 2. -/
abbrev r13 : Rect S1x3x16x392x128 := Rect.unit (s := S1x3x16x392x128) ![0, 0, 13, 0, 0] S1x3x1x392x128.size inb_S1x3x16x392x128_S1x3x1x392x128_0_0_13_0_0
/-- Slab 14 along axis 2. -/
abbrev r14 : Rect S1x3x16x392x128 := Rect.unit (s := S1x3x16x392x128) ![0, 0, 14, 0, 0] S1x3x1x392x128.size inb_S1x3x16x392x128_S1x3x1x392x128_0_0_14_0_0
/-- Slab 15 along axis 2. -/
abbrev r15 : Rect S1x3x16x392x128 := Rect.unit (s := S1x3x16x392x128) ![0, 0, 15, 0, 0] S1x3x1x392x128.size inb_S1x3x16x392x128_S1x3x1x392x128_0_0_15_0_0

/-! ## What the body leaves in the output window's buffer -/

/-- The output block after the body, from the two input blocks: its sixteen stores as pieces, last first; slab t
    holds the sum of slab t of the input block and the prompt block. -/
def out0_2 (x0 : Vec F S1x3x16x392x128 .f32) (x1 : Vec F S1x3x392x128 .f32) : Vec F S1x3x16x392x128 .f32 :=
  View.canon [⟨r15, k0_pay20 (k0_pay1 (View.ld x1 rw1)) (View.ld x0 r15)⟩,
    ⟨r14, k0_pay19 (k0_pay1 (View.ld x1 rw1)) (View.ld x0 r14)⟩,
    ⟨r13, k0_pay18 (k0_pay1 (View.ld x1 rw1)) (View.ld x0 r13)⟩,
    ⟨r12, k0_pay17 (k0_pay16 (k0_pay1 (View.ld x1 rw1)) (View.ld x0 r12))⟩,
    ⟨r11, k0_pay15 (k0_pay1 (View.ld x1 rw1)) (View.ld x0 r11)⟩,
    ⟨r10, k0_pay14 (k0_pay1 (View.ld x1 rw1)) (View.ld x0 r10)⟩,
    ⟨r9, k0_pay13 (k0_pay12 (k0_pay1 (View.ld x1 rw1)) (View.ld x0 r9))⟩,
    ⟨r8, k0_pay11 (k0_pay1 (View.ld x1 rw1)) (View.ld x0 r8)⟩,
    ⟨r7, k0_pay10 (k0_pay1 (View.ld x1 rw1)) (View.ld x0 r7)⟩,
    ⟨r6, k0_pay9 (k0_pay1 (View.ld x1 rw1)) (View.ld x0 r6)⟩,
    ⟨r5, k0_pay8 (k0_pay1 (View.ld x1 rw1)) (View.ld x0 r5)⟩,
    ⟨r4, k0_pay7 (k0_pay1 (View.ld x1 rw1)) (View.ld x0 r4)⟩,
    ⟨r3, k0_pay6 (k0_pay1 (View.ld x1 rw1)) (View.ld x0 r3)⟩,
    ⟨r2, k0_pay5 (k0_pay4 (View.ld x1 rw1) (View.ld x0 r2))⟩,
    ⟨r1, k0_pay3 (View.ld x1 rw1) (View.ld x0 r1)⟩,
    ⟨r0, k0_pay2 (View.ld x1 rw1) (View.ld x0 r0)⟩]

/-- The sixteen slabs tile the block (checked by evaluation), so they cover it. -/
theorem cover0_2 (p0 p1 p2 p3 p4 p5 p6 p7 p8 p9 p10 p11 p12 p13 p14 p15 : Vec F S1x3x1x392x128 .f32) (y : S1x3x16x392x128.Idx) :
    ∃ pc ∈ ([⟨r15, p15⟩, ⟨r14, p14⟩, ⟨r13, p13⟩, ⟨r12, p12⟩, ⟨r11, p11⟩, ⟨r10, p10⟩, ⟨r9, p9⟩, ⟨r8, p8⟩, ⟨r7, p7⟩, ⟨r6, p6⟩, ⟨r5, p5⟩, ⟨r4, p4⟩, ⟨r3, p3⟩, ⟨r2, p2⟩, ⟨r1, p1⟩, ⟨r0, p0⟩] : List (View.Piece (Elt F) S1x3x16x392x128 .f32)), y ∈ pc.1.set :=
  View.cover_of_tiled [⟨r15, p15⟩, ⟨r14, p14⟩, ⟨r13, p13⟩, ⟨r12, p12⟩, ⟨r11, p11⟩, ⟨r10, p10⟩, ⟨r9, p9⟩, ⟨r8, p8⟩, ⟨r7, p7⟩, ⟨r6, p6⟩, ⟨r5, p5⟩, ⟨r4, p4⟩, ⟨r3, p3⟩, ⟨r2, p2⟩, ⟨r1, p1⟩, ⟨r0, p0⟩] S1x3x1x392x128.size (by rfl) y

/-! ## The body's triple -/

set_option maxHeartbeats 4000000 in
/-- The kernel body on whole staging memrefs, the inputs' at read contents x0, x1 and the output's at anything, runs
    to the continuation holding the inputs' as they were and the output's at out0_2 of the two. -/
theorem sound_kernel (c : Dev nD) (E : Set ℕ) (i : grid0.Coords) (arg1 : Memref sig .tc .vmem S1x3x16x392x128 .f32) (harg1 : arg1.IsWhole) (arg2 : Memref sig .tc .vmem S1x3x392x128 .f32) (harg2 : arg2.IsWhole) (arg3 : Memref sig .tc .vmem S1x3x16x392x128 .f32) (harg3 : arg3.IsWhole)
    (x0 : Vec F S1x3x16x392x128 .f32) (x1 : Vec F S1x3x392x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__add_kernel i arg1 harg1 arg2 harg2 arg3 harg3) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _ _ _ _ _ _ _ _)

end Cert.Kernel.Hand

end
-- ==== Proof.KernelFrame.lean ====
import proofs.«144763_j39642548142243_2_alg».proof.Proof.KernelFrameHost
import proofs.«144763_j39642548142243_2_alg».proof.Proof.KernelFrameBody

/-! # The frame run

The proof data of the one pipeline (the arrays as the region finds them; after the body each input window's buffer at
its block and the output window's at the body's function of the two input blocks), the body obligation at a generic
point from the body's triple, the run of @main to the frame post, and the frame claim: every argument array ends as
launched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core c: the arrays as the region finds them; after the body at point t each
    input's buffer at its block and the output's at the body's function of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's owed transfers pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data computes and
    every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A final state meeting the run's post has every argument array as launched. -/
theorem kept_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  kept_of m (dats m) r h c

/-- The frame claim at any F: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept_of_post m r h c) (run_main m ρ)

end Cert.Kernel.Hand

end
-- ==== Proof.KernelIdealFrameHost.lean ====
import proofs.«144763_j39642548142243_2_alg».proof.Proof.Gen.KernelIdeal.Launch
import Idealize.ShloMosaic.Lib.Pipeline.FrameBody
import Idealize.ShloMosaic.Lib.Pipeline.FrameSuffix
import Idealize.ShloMosaic.Lib.Ring
import Idealize.ShloMosaic.Lib.Tactic

/-! # @main around its one region

The host operations before the region compute the prompt image and the two reshaped operands; one host operation
follows it (the result reshaped back). No host operation writes an argument array: each operation writes its own
result buffer only, and every result buffer has an index in HBM of 12 or more, the arguments being 0 … 11. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region-entry contents -/

/-- Core c's TensorCore buffer contents when the region is entered, as a valuation: after the host operations before
    the region. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) (fun b => m (c, b))
/-- The same read at a TensorCore reference. -/
abbrev V (c : Dev nD) (b : Ref sig .tc) : Buf (Elt F) ((c : Thread nD τ).loc b) := V0 m c (Proc.devRef .tc b)

/-! ## No host operation allocates or writes an argument -/

/-- The twelve argument references: the HBM buffers 0 … 11. -/
abbrev argRefs : List (Ref sig .tc) := [main_arg0, main_arg1, main_arg2, main_arg3, main_arg4, main_arg5, main_arg6, main_arg7, main_arg8, main_arg9, main_arg10, main_arg11]

theorem idx_lt_of_mem_argRefs {r : Ref sig .tc} (h : r ∈ argRefs) : r.idx.val < 12 := by
  simp only [argRefs, List.mem_cons, List.not_mem_nil, or_false] at h
  rcases h with rfl | rfl | rfl | rfl | rfl | rfl | rfl | rfl | rfl | rfl | rfl | rfl <;> decide

/-- A reference whose index is 12 or more is none of the arguments. -/
theorem arg_ne {r y : Ref sig .tc} (hr : r ∈ argRefs) (hy : 12 ≤ y.idx.val) : r ≠ y := by
  rintro rfl
  exact absurd (idx_lt_of_mem_argRefs hr) (Nat.not_lt.mpr hy)

/-- A list of host operations each of which allocates nothing and writes no argument. -/
structure Quiet (L : List (HloOp τ sig (Elt F))) : Prop where
  fresh : L.Forall fun op => op.fresh = ∅
  keeps : ∀ op ∈ L, ∀ r ∈ argRefs, Proc.devRef (τ := τ) .tc r ∉ op.writes

theorem Quiet.nil : Quiet ([] : List (HloOp τ sig (Elt F))) := ⟨trivial, fun _ h => nomatch h⟩

theorem Quiet.cons {op : HloOp τ sig (Elt F)} {L : List (HloOp τ sig (Elt F))} (h2 : op.fresh = ∅)
    (h3 : ∀ r ∈ argRefs, Proc.devRef (τ := τ) .tc r ∉ op.writes) (h : Quiet L) : Quiet (op :: L) :=
  ⟨(List.forall_cons _ _ _).2 ⟨h2, h.fresh⟩, List.forall_mem_cons.2 ⟨h3, h.keeps⟩⟩

section Builders

variable {x a b c y : Ref sig .tc} {L : List (HloOp τ sig (Elt F))}

theorem quiet_nullary {v : y.ty.Contents (Elt F)} {hy} (hne : 12 ≤ y.idx.val) (h : Quiet L) :
    Quiet (StableHlo.nullary (τ := τ) y v hy :: L) :=
  Quiet.cons rfl (fun r hr => by rw [StableHlo.nullary_writes, Finset.mem_singleton]; exact StableHlo.devRef_ne_of_ne (arg_ne hr hne)) h

theorem quiet_unary {f : x.ty.Contents (Elt F) → y.ty.Contents (Elt F)} {hx hy} (hne : 12 ≤ y.idx.val) (h : Quiet L) :
    Quiet (StableHlo.unary (τ := τ) x y f hx hy :: L) :=
  Quiet.cons rfl (fun r hr => by rw [StableHlo.unary_writes, Finset.mem_singleton]; exact StableHlo.devRef_ne_of_ne (arg_ne hr hne)) h

theorem quiet_binary {f : a.ty.Contents (Elt F) → b.ty.Contents (Elt F) → y.ty.Contents (Elt F)} {ha hb hy}
    (hne : 12 ≤ y.idx.val) (h : Quiet L) : Quiet (StableHlo.binary (τ := τ) a b y f ha hb hy :: L) :=
  Quiet.cons rfl (fun r hr => by rw [StableHlo.binary_writes, Finset.mem_singleton]; exact StableHlo.devRef_ne_of_ne (arg_ne hr hne)) h

theorem quiet_ternary
    {f : c.ty.Contents (Elt F) → a.ty.Contents (Elt F) → b.ty.Contents (Elt F) → y.ty.Contents (Elt F)} {hc ha hb hy}
    (hne : 12 ≤ y.idx.val) (h : Quiet L) : Quiet (StableHlo.ternary (τ := τ) c a b y f hc ha hb hy :: L) :=
  Quiet.cons rfl (fun r hr => by rw [StableHlo.ternary_writes, Finset.mem_singleton]; exact StableHlo.devRef_ne_of_ne (arg_ne hr hne)) h

theorem quiet_reshape {he hn hx hy} (hne : 12 ≤ y.idx.val) (h : Quiet L) :
    Quiet (StableHlo.reshape (τ := τ) (Val := Elt F) x y he hn hx hy :: L) :=
  Quiet.cons rfl (fun r hr => by rw [StableHlo.reshape_writes, Finset.mem_singleton]; exact StableHlo.devRef_ne_of_ne (arg_ne hr hne)) h

theorem quiet_nary {n : Nat} {xs : Fin n → Ref sig .tc}
    {f : ((k : Fin n) → (xs k).ty.Contents (Elt F)) → y.ty.Contents (Elt F)} {hxs hy}
    (hne : 12 ≤ y.idx.val) (h : Quiet L) : Quiet (StableHlo.nary (τ := τ) xs y f hxs hy :: L) :=
  Quiet.cons rfl (fun r hr => by rw [StableHlo.nary_writes, Finset.mem_singleton]; exact StableHlo.devRef_ne_of_ne (arg_ne hr hne)) h

end Builders

/-- A literal list of the builders' operations whose result buffers have index 12 or more is quiet: one builder's
    lemma per entry, the index compared with 12 by computation. -/
macro "hlo_quiet" : tactic =>
  `(tactic| repeat (first
      | exact Quiet.nil
      | refine quiet_nullary (by decide) ?_
      | refine quiet_unary (by decide) ?_
      | refine quiet_binary (by decide) ?_
      | refine quiet_ternary (by decide) ?_
      | refine quiet_reshape (by decide) ?_
      | refine quiet_nary (by decide) ?_))

/-! ## The stretches of @main -/

set_option maxHeartbeats 40000000 in
theorem hostOps0_quiet : Quiet (hostOps0 : List (HloOp τ sig (Elt F))) := by hlo_quiet
set_option maxHeartbeats 40000000 in
theorem hostOps0_1_quiet : Quiet (hostOps0_1 : List (HloOp τ sig (Elt F))) := by hlo_quiet
set_option maxHeartbeats 40000000 in
theorem hostOps0_2_quiet : Quiet (hostOps0_2 : List (HloOp τ sig (Elt F))) := by hlo_quiet
set_option maxHeartbeats 40000000 in
theorem hostOps0_3_quiet : Quiet (hostOps0_3 : List (HloOp τ sig (Elt F))) := by hlo_quiet
set_option maxHeartbeats 40000000 in
theorem hostOps0_4_quiet : Quiet (hostOps0_4 : List (HloOp τ sig (Elt F))) := by hlo_quiet
set_option maxHeartbeats 40000000 in
theorem hostOps0_5_quiet : Quiet (hostOps0_5 : List (HloOp τ sig (Elt F))) := by hlo_quiet
set_option maxHeartbeats 40000000 in
theorem hostOps0_6_quiet : Quiet (hostOps0_6 : List (HloOp τ sig (Elt F))) := by hlo_quiet
set_option maxHeartbeats 40000000 in
theorem hostOps0_7_quiet : Quiet (hostOps0_7 : List (HloOp τ sig (Elt F))) := by hlo_quiet
set_option maxHeartbeats 40000000 in
theorem hostOps0_8_quiet : Quiet (hostOps0_8 : List (HloOp τ sig (Elt F))) := by hlo_quiet
set_option maxHeartbeats 40000000 in
theorem hostOps0_9_quiet : Quiet (hostOps0_9 : List (HloOp τ sig (Elt F))) := by hlo_quiet
set_option maxHeartbeats 40000000 in
theorem hostOps0_10_quiet : Quiet (hostOps0_10 : List (HloOp τ sig (Elt F))) := by hlo_quiet
set_option maxHeartbeats 40000000 in
theorem hostOps0_11_quiet : Quiet (hostOps0_11 : List (HloOp τ sig (Elt F))) := by hlo_quiet
set_option maxHeartbeats 40000000 in
theorem hostOps0_12_quiet : Quiet (hostOps0_12 : List (HloOp τ sig (Elt F))) := by hlo_quiet
set_option maxHeartbeats 40000000 in
theorem hostOps0_13_quiet : Quiet (hostOps0_13 : List (HloOp τ sig (Elt F))) := by hlo_quiet
set_option maxHeartbeats 40000000 in
theorem hostOps0_14_quiet : Quiet (hostOps0_14 : List (HloOp τ sig (Elt F))) := by hlo_quiet
set_option maxHeartbeats 40000000 in
theorem hostOps0_15_quiet : Quiet (hostOps0_15 : List (HloOp τ sig (Elt F))) := by hlo_quiet
set_option maxHeartbeats 40000000 in
theorem hostOps0_16_quiet : Quiet (hostOps0_16 : List (HloOp τ sig (Elt F))) := by hlo_quiet
set_option maxHeartbeats 40000000 in
theorem hostOps0_17_quiet : Quiet (hostOps0_17 : List (HloOp τ sig (Elt F))) := by hlo_quiet
set_option maxHeartbeats 40000000 in
theorem hostOps0_18_quiet : Quiet (hostOps0_18 : List (HloOp τ sig (Elt F))) := by hlo_quiet
set_option maxHeartbeats 40000000 in
theorem hostOps0_19_quiet : Quiet (hostOps0_19 : List (HloOp τ sig (Elt F))) := by hlo_quiet
set_option maxHeartbeats 40000000 in
theorem hostOps0_20_quiet : Quiet (hostOps0_20 : List (HloOp τ sig (Elt F))) := by hlo_quiet
set_option maxHeartbeats 40000000 in
theorem hostOps0_21_quiet : Quiet (hostOps0_21 : List (HloOp τ sig (Elt F))) := by hlo_quiet
set_option maxHeartbeats 40000000 in
theorem hostOps0_22_quiet : Quiet (hostOps0_22 : List (HloOp τ sig (Elt F))) := by hlo_quiet
set_option maxHeartbeats 40000000 in
theorem hostOps0_23_quiet : Quiet (hostOps0_23 : List (HloOp τ sig (Elt F))) := by hlo_quiet
set_option maxHeartbeats 40000000 in
theorem hostOps0_24_quiet : Quiet (hostOps0_24 : List (HloOp τ sig (Elt F))) := by hlo_quiet
set_option maxHeartbeats 40000000 in
theorem hostOps0_25_quiet : Quiet (hostOps0_25 : List (HloOp τ sig (Elt F))) := by hlo_quiet
set_option maxHeartbeats 40000000 in
theorem hostOps0_26_quiet : Quiet (hostOps0_26 : List (HloOp τ sig (Elt F))) := by hlo_quiet
set_option maxHeartbeats 40000000 in
theorem hostOps0_27_quiet : Quiet (hostOps0_27 : List (HloOp τ sig (Elt F))) := by hlo_quiet
set_option maxHeartbeats 40000000 in
theorem hostOps0_28_quiet : Quiet (hostOps0_28 : List (HloOp τ sig (Elt F))) := by hlo_quiet
set_option maxHeartbeats 40000000 in
theorem hostOps0_29_quiet : Quiet (hostOps0_29 : List (HloOp τ sig (Elt F))) := by hlo_quiet
set_option maxHeartbeats 40000000 in
theorem hostOps0_30_quiet : Quiet (hostOps0_30 : List (HloOp τ sig (Elt F))) := by hlo_quiet
set_option maxHeartbeats 40000000 in
theorem hostOps0_31_quiet : Quiet (hostOps0_31 : List (HloOp τ sig (Elt F))) := by hlo_quiet
set_option maxHeartbeats 40000000 in
theorem hostOps0_32_quiet : Quiet (hostOps0_32 : List (HloOp τ sig (Elt F))) := by hlo_quiet
set_option maxHeartbeats 40000000 in
theorem hostOps0_33_quiet : Quiet (hostOps0_33 : List (HloOp τ sig (Elt F))) := by hlo_quiet
set_option maxHeartbeats 40000000 in
theorem hostOps0_34_quiet : Quiet (hostOps0_34 : List (HloOp τ sig (Elt F))) := by hlo_quiet
set_option maxHeartbeats 40000000 in
theorem hostOps0_35_quiet : Quiet (hostOps0_35 : List (HloOp τ sig (Elt F))) := by hlo_quiet
set_option maxHeartbeats 40000000 in
theorem hostOps0_36_quiet : Quiet (hostOps0_36 : List (HloOp τ sig (Elt F))) := by hlo_quiet
set_option maxHeartbeats 40000000 in
theorem hostOps1_quiet : Quiet (hostOps1 : List (HloOp τ sig (Elt F))) := by hlo_quiet

/-- Every stretch before the region touches TensorCore references only. -/
theorem pre_sub : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36] : List (List (HloOp τ sig (Elt F)))).Forall
    fun ops => ops.Forall fun op => op.bufs ⊆ StableHlo.tcRefs τ sig := by
  refine List.forall_iff_forall_mem.mpr fun ops hops => ?_
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact hostOps0_sub
  · exact hostOps0_1_sub
  · exact hostOps0_2_sub
  · exact hostOps0_3_sub
  · exact hostOps0_4_sub
  · exact hostOps0_5_sub
  · exact hostOps0_6_sub
  · exact hostOps0_7_sub
  · exact hostOps0_8_sub
  · exact hostOps0_9_sub
  · exact hostOps0_10_sub
  · exact hostOps0_11_sub
  · exact hostOps0_12_sub
  · exact hostOps0_13_sub
  · exact hostOps0_14_sub
  · exact hostOps0_15_sub
  · exact hostOps0_16_sub
  · exact hostOps0_17_sub
  · exact hostOps0_18_sub
  · exact hostOps0_19_sub
  · exact hostOps0_20_sub
  · exact hostOps0_21_sub
  · exact hostOps0_22_sub
  · exact hostOps0_23_sub
  · exact hostOps0_24_sub
  · exact hostOps0_25_sub
  · exact hostOps0_26_sub
  · exact hostOps0_27_sub
  · exact hostOps0_28_sub
  · exact hostOps0_29_sub
  · exact hostOps0_30_sub
  · exact hostOps0_31_sub
  · exact hostOps0_32_sub
  · exact hostOps0_33_sub
  · exact hostOps0_34_sub
  · exact hostOps0_35_sub
  · exact hostOps0_36_sub

/-- Every stretch before the region allocates nothing. -/
theorem pre_fresh : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36] : List (List (HloOp τ sig (Elt F)))).Forall
    fun ops => ops.Forall fun op => op.fresh = ∅ := by
  refine List.forall_iff_forall_mem.mpr fun ops hops => ?_
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact hostOps0_quiet.fresh
  · exact hostOps0_1_quiet.fresh
  · exact hostOps0_2_quiet.fresh
  · exact hostOps0_3_quiet.fresh
  · exact hostOps0_4_quiet.fresh
  · exact hostOps0_5_quiet.fresh
  · exact hostOps0_6_quiet.fresh
  · exact hostOps0_7_quiet.fresh
  · exact hostOps0_8_quiet.fresh
  · exact hostOps0_9_quiet.fresh
  · exact hostOps0_10_quiet.fresh
  · exact hostOps0_11_quiet.fresh
  · exact hostOps0_12_quiet.fresh
  · exact hostOps0_13_quiet.fresh
  · exact hostOps0_14_quiet.fresh
  · exact hostOps0_15_quiet.fresh
  · exact hostOps0_16_quiet.fresh
  · exact hostOps0_17_quiet.fresh
  · exact hostOps0_18_quiet.fresh
  · exact hostOps0_19_quiet.fresh
  · exact hostOps0_20_quiet.fresh
  · exact hostOps0_21_quiet.fresh
  · exact hostOps0_22_quiet.fresh
  · exact hostOps0_23_quiet.fresh
  · exact hostOps0_24_quiet.fresh
  · exact hostOps0_25_quiet.fresh
  · exact hostOps0_26_quiet.fresh
  · exact hostOps0_27_quiet.fresh
  · exact hostOps0_28_quiet.fresh
  · exact hostOps0_29_quiet.fresh
  · exact hostOps0_30_quiet.fresh
  · exact hostOps0_31_quiet.fresh
  · exact hostOps0_32_quiet.fresh
  · exact hostOps0_33_quiet.fresh
  · exact hostOps0_34_quiet.fresh
  · exact hostOps0_35_quiet.fresh
  · exact hostOps0_36_quiet.fresh

/-- No host operation before the region writes an argument. -/
theorem pre_keeps : ∀ op ∈ (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36] : List (HloOp τ sig (Elt F))),
    ∀ r ∈ argRefs, Proc.devRef (τ := τ) .tc r ∉ op.writes := by
  intro op hop
  obtain ⟨ops, hops, hop⟩ := List.mem_flatten.mp hop
  simp only [List.mem_cons, List.mem_nil_iff, or_false] at hops
  rcases hops with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact hostOps0_quiet.keeps op hop
  · exact hostOps0_1_quiet.keeps op hop
  · exact hostOps0_2_quiet.keeps op hop
  · exact hostOps0_3_quiet.keeps op hop
  · exact hostOps0_4_quiet.keeps op hop
  · exact hostOps0_5_quiet.keeps op hop
  · exact hostOps0_6_quiet.keeps op hop
  · exact hostOps0_7_quiet.keeps op hop
  · exact hostOps0_8_quiet.keeps op hop
  · exact hostOps0_9_quiet.keeps op hop
  · exact hostOps0_10_quiet.keeps op hop
  · exact hostOps0_11_quiet.keeps op hop
  · exact hostOps0_12_quiet.keeps op hop
  · exact hostOps0_13_quiet.keeps op hop
  · exact hostOps0_14_quiet.keeps op hop
  · exact hostOps0_15_quiet.keeps op hop
  · exact hostOps0_16_quiet.keeps op hop
  · exact hostOps0_17_quiet.keeps op hop
  · exact hostOps0_18_quiet.keeps op hop
  · exact hostOps0_19_quiet.keeps op hop
  · exact hostOps0_20_quiet.keeps op hop
  · exact hostOps0_21_quiet.keeps op hop
  · exact hostOps0_22_quiet.keeps op hop
  · exact hostOps0_23_quiet.keeps op hop
  · exact hostOps0_24_quiet.keeps op hop
  · exact hostOps0_25_quiet.keeps op hop
  · exact hostOps0_26_quiet.keeps op hop
  · exact hostOps0_27_quiet.keeps op hop
  · exact hostOps0_28_quiet.keeps op hop
  · exact hostOps0_29_quiet.keeps op hop
  · exact hostOps0_30_quiet.keeps op hop
  · exact hostOps0_31_quiet.keeps op hop
  · exact hostOps0_32_quiet.keeps op hop
  · exact hostOps0_33_quiet.keeps op hop
  · exact hostOps0_34_quiet.keeps op hop
  · exact hostOps0_35_quiet.keeps op hop
  · exact hostOps0_36_quiet.keeps op hop

/-! ## @main around the region -/

/-- @main around the region: the host lines before it, the region, the host line after it; it reduces to the region
    continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36] [hostOps1] pre_sub pre_fresh main_chain

/-- The line after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_quiet.fresh) op hop
/-- And writes no array of the pipeline (it writes its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The arguments at the region's entry and at the end -/

/-- The region finds every argument array as launched. -/
theorem V_of_arg (c : Dev nD) {r : Ref sig .tc} (hr : r ∈ argRefs) : V m c r = m ((c : Thread nD τ).loc r) :=
  StableHlo.after_of_forall_not_mem (b := Proc.devRef .tc r) _ _ fun op hop => pre_keeps op hop r hr

theorem V_main_arg0 (c : Dev nD) : V m c main_arg0 = m ((c : Thread nD τ).loc main_arg0) := V_of_arg m c (by decide)
theorem V_main_arg1 (c : Dev nD) : V m c main_arg1 = m ((c : Thread nD τ).loc main_arg1) := V_of_arg m c (by decide)
theorem V_main_arg2 (c : Dev nD) : V m c main_arg2 = m ((c : Thread nD τ).loc main_arg2) := V_of_arg m c (by decide)
theorem V_main_arg3 (c : Dev nD) : V m c main_arg3 = m ((c : Thread nD τ).loc main_arg3) := V_of_arg m c (by decide)
theorem V_main_arg4 (c : Dev nD) : V m c main_arg4 = m ((c : Thread nD τ).loc main_arg4) := V_of_arg m c (by decide)
theorem V_main_arg5 (c : Dev nD) : V m c main_arg5 = m ((c : Thread nD τ).loc main_arg5) := V_of_arg m c (by decide)
theorem V_main_arg6 (c : Dev nD) : V m c main_arg6 = m ((c : Thread nD τ).loc main_arg6) := V_of_arg m c (by decide)
theorem V_main_arg7 (c : Dev nD) : V m c main_arg7 = m ((c : Thread nD τ).loc main_arg7) := V_of_arg m c (by decide)
theorem V_main_arg8 (c : Dev nD) : V m c main_arg8 = m ((c : Thread nD τ).loc main_arg8) := V_of_arg m c (by decide)
theorem V_main_arg9 (c : Dev nD) : V m c main_arg9 = m ((c : Thread nD τ).loc main_arg9) := V_of_arg m c (by decide)
theorem V_main_arg10 (c : Dev nD) : V m c main_arg10 = m ((c : Thread nD τ).loc main_arg10) := V_of_arg m c (by decide)
theorem V_main_arg11 (c : Dev nD) : V m c main_arg11 = m ((c : Thread nD τ).loc main_arg11) := V_of_arg m c (by decide)

/-- The line after the region writes no argument. -/
theorem sfx_keeps_arg : ∀ op ∈ (List.flatten [hostOps1] : List (HloOp τ sig (Elt F))),
    ∀ r ∈ argRefs, Proc.devRef (τ := τ) .tc r ∉ op.writes := by
  intro op hop
  rw [List.flatten_cons, List.flatten_nil, List.append_nil] at hop
  exact hostOps1_quiet.keeps op hop

/-- `main_arg0` ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (fun op hop => sfx_keeps_arg op hop main_arg0 (by decide)),
    Pipeline.withArrays_of_ne _ c (V0 m c) _ main_arg0 (by exact (by decide : ∀ w, Pipeline.arrRef spec0 w ≠ main_arg0))]
  exact V_main_arg0 m c
/-- `main_arg1` ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (fun op hop => sfx_keeps_arg op hop main_arg1 (by decide)),
    Pipeline.withArrays_of_ne _ c (V0 m c) _ main_arg1 (by exact (by decide : ∀ w, Pipeline.arrRef spec0 w ≠ main_arg1))]
  exact V_main_arg1 m c
/-- `main_arg2` ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (fun op hop => sfx_keeps_arg op hop main_arg2 (by decide)),
    Pipeline.withArrays_of_ne _ c (V0 m c) _ main_arg2 (by exact (by decide : ∀ w, Pipeline.arrRef spec0 w ≠ main_arg2))]
  exact V_main_arg2 m c
/-- `main_arg3` ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (fun op hop => sfx_keeps_arg op hop main_arg3 (by decide)),
    Pipeline.withArrays_of_ne _ c (V0 m c) _ main_arg3 (by exact (by decide : ∀ w, Pipeline.arrRef spec0 w ≠ main_arg3))]
  exact V_main_arg3 m c
/-- `main_arg4` ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (fun op hop => sfx_keeps_arg op hop main_arg4 (by decide)),
    Pipeline.withArrays_of_ne _ c (V0 m c) _ main_arg4 (by exact (by decide : ∀ w, Pipeline.arrRef spec0 w ≠ main_arg4))]
  exact V_main_arg4 m c
/-- `main_arg5` ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (fun op hop => sfx_keeps_arg op hop main_arg5 (by decide)),
    Pipeline.withArrays_of_ne _ c (V0 m c) _ main_arg5 (by exact (by decide : ∀ w, Pipeline.arrRef spec0 w ≠ main_arg5))]
  exact V_main_arg5 m c
/-- `main_arg6` ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (fun op hop => sfx_keeps_arg op hop main_arg6 (by decide)),
    Pipeline.withArrays_of_ne _ c (V0 m c) _ main_arg6 (by exact (by decide : ∀ w, Pipeline.arrRef spec0 w ≠ main_arg6))]
  exact V_main_arg6 m c
/-- `main_arg7` ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (fun op hop => sfx_keeps_arg op hop main_arg7 (by decide)),
    Pipeline.withArrays_of_ne _ c (V0 m c) _ main_arg7 (by exact (by decide : ∀ w, Pipeline.arrRef spec0 w ≠ main_arg7))]
  exact V_main_arg7 m c
/-- `main_arg8` ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (fun op hop => sfx_keeps_arg op hop main_arg8 (by decide)),
    Pipeline.withArrays_of_ne _ c (V0 m c) _ main_arg8 (by exact (by decide : ∀ w, Pipeline.arrRef spec0 w ≠ main_arg8))]
  exact V_main_arg8 m c
/-- `main_arg9` ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (fun op hop => sfx_keeps_arg op hop main_arg9 (by decide)),
    Pipeline.withArrays_of_ne _ c (V0 m c) _ main_arg9 (by exact (by decide : ∀ w, Pipeline.arrRef spec0 w ≠ main_arg9))]
  exact V_main_arg9 m c
/-- `main_arg10` ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (fun op hop => sfx_keeps_arg op hop main_arg10 (by decide)),
    Pipeline.withArrays_of_ne _ c (V0 m c) _ main_arg10 (by exact (by decide : ∀ w, Pipeline.arrRef spec0 w ≠ main_arg10))]
  exact V_main_arg10 m c
/-- `main_arg11` ends as launched. -/
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (fun op hop => sfx_keeps_arg op hop main_arg11 (by decide)),
    Pipeline.withArrays_of_ne _ c (V0 m c) _ main_arg11 (by exact (by decide : ∀ w, Pipeline.arrRef spec0 w ≠ main_arg11))]
  exact V_main_arg11 m c

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A final state meeting the frame run's post has every argument array as launched: every argument bypasses the
    region (none is a window's array), so the post gives it what the line after the region leaves. -/
theorem kept_of (dats : (p : Fin 1) → (c : Dev nD) → Dat τ (Elt F) Unit ℕ (UR sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c)⟩

/-- The frame from a frame run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept_of m dats r h c) h

end Cert.KernelIdeal.Hand

end
-- ==== Proof.KernelIdealFrameBody.lean ====
import proofs.«144763_j39642548142243_2_alg».proof.Proof.Gen.KernelIdeal.Skeleton
import proofs.«144763_j39642548142243_2_alg».proof.Proof.Gen.KernelIdeal.Points
import Idealize.ShloMosaic.Lib.Pipeline.FrameBody
import Idealize.ShloMosaic.Lib.Ring
import Idealize.ShloMosaic.Lib.Tactic

/-! # The kernel body's triple

The body adds the prompt block (window 1, read whole, once) to each of the sixteen slabs [0, 0, t, 0, 0] + [1, 3, 1, 392, 128]
of the input block (window 0) and stores the sum into the same slab of the output block (window 2). The sixteen
slabs tile the output block, so what the body leaves there is a function of the two input blocks alone. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole prompt block. -/
abbrev rw1 : Rect S1x3x392x128 := Rect.unit (s := S1x3x392x128) ![0, 0, 0, 0] S1x3x392x128.size inb_S1x3x392x128_S1x3x392x128_0_0_0_0

/-- Slab 0 along axis 2. -/
abbrev r0 : Rect S1x3x16x392x128 := Rect.unit (s := S1x3x16x392x128) ![0, 0, 0, 0, 0] S1x3x1x392x128.size inb_S1x3x16x392x128_S1x3x1x392x128_0_0_0_0_0
/-- Slab 1 along axis 2. -/
abbrev r1 : Rect S1x3x16x392x128 := Rect.unit (s := S1x3x16x392x128) ![0, 0, 1, 0, 0] S1x3x1x392x128.size inb_S1x3x16x392x128_S1x3x1x392x128_0_0_1_0_0
/-- Slab 2 along axis 2. -/
abbrev r2 : Rect S1x3x16x392x128 := Rect.unit (s := S1x3x16x392x128) ![0, 0, 2, 0, 0] S1x3x1x392x128.size inb_S1x3x16x392x128_S1x3x1x392x128_0_0_2_0_0
/-- Slab 3 along axis 2. -/
abbrev r3 : Rect S1x3x16x392x128 := Rect.unit (s := S1x3x16x392x128) ![0, 0, 3, 0, 0] S1x3x1x392x128.size inb_S1x3x16x392x128_S1x3x1x392x128_0_0_3_0_0
/-- Slab 4 along axis 2. -/
abbrev r4 : Rect S1x3x16x392x128 := Rect.unit (s := S1x3x16x392x128) ![0, 0, 4, 0, 0] S1x3x1x392x128.size inb_S1x3x16x392x128_S1x3x1x392x128_0_0_4_0_0
/-- Slab 5 along axis 2. -/
abbrev r5 : Rect S1x3x16x392x128 := Rect.unit (s := S1x3x16x392x128) ![0, 0, 5, 0, 0] S1x3x1x392x128.size inb_S1x3x16x392x128_S1x3x1x392x128_0_0_5_0_0
/-- Slab 6 along axis 2. -/
abbrev r6 : Rect S1x3x16x392x128 := Rect.unit (s := S1x3x16x392x128) ![0, 0, 6, 0, 0] S1x3x1x392x128.size inb_S1x3x16x392x128_S1x3x1x392x128_0_0_6_0_0
/-- Slab 7 along axis 2. -/
abbrev r7 : Rect S1x3x16x392x128 := Rect.unit (s := S1x3x16x392x128) ![0, 0, 7, 0, 0] S1x3x1x392x128.size inb_S1x3x16x392x128_S1x3x1x392x128_0_0_7_0_0
/-- Slab 8 along axis 2. -/
abbrev r8 : Rect S1x3x16x392x128 := Rect.unit (s := S1x3x16x392x128) ![0, 0, 8, 0, 0] S1x3x1x392x128.size inb_S1x3x16x392x128_S1x3x1x392x128_0_0_8_0_0
/-- Slab 9 along axis 2. -/
abbrev r9 : Rect S1x3x16x392x128 := Rect.unit (s := S1x3x16x392x128) ![0, 0, 9, 0, 0] S1x3x1x392x128.size inb_S1x3x16x392x128_S1x3x1x392x128_0_0_9_0_0
/-- Slab 10 along axis 2. -/
abbrev r10 : Rect S1x3x16x392x128 := Rect.unit (s := S1x3x16x392x128) ![0, 0, 10, 0, 0] S1x3x1x392x128.size inb_S1x3x16x392x128_S1x3x1x392x128_0_0_10_0_0
/-- Slab 11 along axis 2. -/
abbrev r11 : Rect S1x3x16x392x128 := Rect.unit (s := S1x3x16x392x128) ![0, 0, 11, 0, 0] S1x3x1x392x128.size inb_S1x3x16x392x128_S1x3x1x392x128_0_0_11_0_0
/-- Slab 12 along axis 2. -/
abbrev r12 : Rect S1x3x16x392x128 := Rect.unit (s := S1x3x16x392x128) ![0, 0, 12, 0, 0] S1x3x1x392x128.size inb_S1x3x16x392x128_S1x3x1x392x128_0_0_12_0_0
/-- Slab 13 along axis 2. -/
abbrev r13 : Rect S1x3x16x392x128 := Rect.unit (s := S1x3x16x392x128) ![0, 0, 13, 0, 0] S1x3x1x392x128.size inb_S1x3x16x392x128_S1x3x1x392x128_0_0_13_0_0
/-- Slab 14 along axis 2. -/
abbrev r14 : Rect S1x3x16x392x128 := Rect.unit (s := S1x3x16x392x128) ![0, 0, 14, 0, 0] S1x3x1x392x128.size inb_S1x3x16x392x128_S1x3x1x392x128_0_0_14_0_0
/-- Slab 15 along axis 2. -/
abbrev r15 : Rect S1x3x16x392x128 := Rect.unit (s := S1x3x16x392x128) ![0, 0, 15, 0, 0] S1x3x1x392x128.size inb_S1x3x16x392x128_S1x3x1x392x128_0_0_15_0_0

/-! ## What the body leaves in the output window's buffer -/

/-- The output block after the body, from the two input blocks: its sixteen stores as pieces, last first; slab t
    holds the sum of slab t of the input block and the prompt block. -/
def out0_2 (x0 : Vec F S1x3x16x392x128 .f32) (x1 : Vec F S1x3x392x128 .f32) : Vec F S1x3x16x392x128 .f32 :=
  View.canon [⟨r15, k0_pay20 (k0_pay1 (View.ld x1 rw1)) (View.ld x0 r15)⟩,
    ⟨r14, k0_pay19 (k0_pay1 (View.ld x1 rw1)) (View.ld x0 r14)⟩,
    ⟨r13, k0_pay18 (k0_pay1 (View.ld x1 rw1)) (View.ld x0 r13)⟩,
    ⟨r12, k0_pay17 (k0_pay16 (k0_pay1 (View.ld x1 rw1)) (View.ld x0 r12))⟩,
    ⟨r11, k0_pay15 (k0_pay1 (View.ld x1 rw1)) (View.ld x0 r11)⟩,
    ⟨r10, k0_pay14 (k0_pay1 (View.ld x1 rw1)) (View.ld x0 r10)⟩,
    ⟨r9, k0_pay13 (k0_pay12 (k0_pay1 (View.ld x1 rw1)) (View.ld x0 r9))⟩,
    ⟨r8, k0_pay11 (k0_pay1 (View.ld x1 rw1)) (View.ld x0 r8)⟩,
    ⟨r7, k0_pay10 (k0_pay1 (View.ld x1 rw1)) (View.ld x0 r7)⟩,
    ⟨r6, k0_pay9 (k0_pay1 (View.ld x1 rw1)) (View.ld x0 r6)⟩,
    ⟨r5, k0_pay8 (k0_pay1 (View.ld x1 rw1)) (View.ld x0 r5)⟩,
    ⟨r4, k0_pay7 (k0_pay1 (View.ld x1 rw1)) (View.ld x0 r4)⟩,
    ⟨r3, k0_pay6 (k0_pay1 (View.ld x1 rw1)) (View.ld x0 r3)⟩,
    ⟨r2, k0_pay5 (k0_pay4 (View.ld x1 rw1) (View.ld x0 r2))⟩,
    ⟨r1, k0_pay3 (View.ld x1 rw1) (View.ld x0 r1)⟩,
    ⟨r0, k0_pay2 (View.ld x1 rw1) (View.ld x0 r0)⟩]

/-- The sixteen slabs tile the block (checked by evaluation), so they cover it. -/
theorem cover0_2 (p0 p1 p2 p3 p4 p5 p6 p7 p8 p9 p10 p11 p12 p13 p14 p15 : Vec F S1x3x1x392x128 .f32) (y : S1x3x16x392x128.Idx) :
    ∃ pc ∈ ([⟨r15, p15⟩, ⟨r14, p14⟩, ⟨r13, p13⟩, ⟨r12, p12⟩, ⟨r11, p11⟩, ⟨r10, p10⟩, ⟨r9, p9⟩, ⟨r8, p8⟩, ⟨r7, p7⟩, ⟨r6, p6⟩, ⟨r5, p5⟩, ⟨r4, p4⟩, ⟨r3, p3⟩, ⟨r2, p2⟩, ⟨r1, p1⟩, ⟨r0, p0⟩] : List (View.Piece (Elt F) S1x3x16x392x128 .f32)), y ∈ pc.1.set :=
  View.cover_of_tiled [⟨r15, p15⟩, ⟨r14, p14⟩, ⟨r13, p13⟩, ⟨r12, p12⟩, ⟨r11, p11⟩, ⟨r10, p10⟩, ⟨r9, p9⟩, ⟨r8, p8⟩, ⟨r7, p7⟩, ⟨r6, p6⟩, ⟨r5, p5⟩, ⟨r4, p4⟩, ⟨r3, p3⟩, ⟨r2, p2⟩, ⟨r1, p1⟩, ⟨r0, p0⟩] S1x3x1x392x128.size (by rfl) y

/-! ## The body's triple -/

set_option maxHeartbeats 4000000 in
/-- The kernel body on whole staging memrefs, the inputs' at read contents x0, x1 and the output's at anything, runs
    to the continuation holding the inputs' as they were and the output's at out0_2 of the two. -/
theorem sound_kernel (c : Dev nD) (E : Set ℕ) (i : grid0.Coords) (arg1 : Memref sig .tc .vmem S1x3x16x392x128 .f32) (harg1 : arg1.IsWhole) (arg2 : Memref sig .tc .vmem S1x3x392x128 .f32) (harg2 : arg2.IsWhole) (arg3 : Memref sig .tc .vmem S1x3x16x392x128 .f32) (harg3 : arg3.IsWhole)
    (x0 : Vec F S1x3x16x392x128 .f32) (x1 : Vec F S1x3x392x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__add_kernel i arg1 harg1 arg2 harg2 arg3 harg3) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _ _ _ _ _ _ _ _)

end Cert.KernelIdeal.Hand

end
-- ==== Proof.KernelIdealFrame.lean ====
import proofs.«144763_j39642548142243_2_alg».proof.Proof.KernelIdealFrameHost
import proofs.«144763_j39642548142243_2_alg».proof.Proof.KernelIdealFrameBody

/-! # The frame run

The proof data of the one pipeline (the arrays as the region finds them; after the body each input window's buffer at
its block and the output window's at the body's function of the two input blocks), the body obligation at a generic
point from the body's triple, the run of @main to the frame post, and the frame claim: every argument array ends as
launched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core c: the arrays as the region finds them; after the body at point t each
    input's buffer at its block and the output's at the body's function of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's owed transfers pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data computes and
    every other unscoped buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A final state meeting the run's post has every argument array as launched. -/
theorem kept_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  kept_of m (dats m) r h c

/-- The frame claim at any F: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => kept_of_post m r h c) (run_main m ρ)

end Cert.KernelIdeal.Hand

end
-- ==== Proof.PromptSum.lean ====
/-
  The arithmetic that joins the two programs, stated once over literal shapes and no program.

  Both programs end with the array  x + prompt  where the prompt image (one per sample and channel) is added to each
  of the 16 frames of x.  One program forms the sum on the arrays as given, by broadcasting the prompt over the frame
  axis.  The other first re-lays the trailing 224 × 224 pixels of both operands as 392 × 128 (the same row-major
  order: 224 · 224 = 392 · 128 = 50176), adds there, and re-lays the sum back.  Re-laying moves no element's row-major
  position, so the two sums are the same array: that is `relaid_sum` below; `broadcast_sum` reads the broadcast form
  at an index.
-/
import Idealize.ShloMosaic.Lib.ValueIdx
import Idealize.ShloMosaic.Lib.Pipeline.Value

noncomputable section

namespace Cert.PromptSum

open Idealize.ShloMosaic Idealize.ShloMosaic.ValueIdx

/-- x: samples × channels × frames × 224 × 224. -/
abbrev SX : Shape := ⟨5, ![16, 3, 16, 224, 224]⟩
/-- x with its pixels re-laid 392 × 128. -/
abbrev SXr : Shape := ⟨5, ![16, 3, 16, 392, 128]⟩
/-- the prompt: samples × channels × 224 × 224. -/
abbrev SP : Shape := ⟨4, ![16, 3, 224, 224]⟩
/-- the prompt with its pixels re-laid 392 × 128. -/
abbrev SPr : Shape := ⟨4, ![16, 3, 392, 128]⟩
/-- the prompt with a unit frame axis. -/
abbrev SP1 : Shape := ⟨5, ![16, 3, 1, 224, 224]⟩

variable {α : Type}

/-- The sum on extended reals. -/
abbrev eadd : EReal → EReal → EReal := fun a b => a + b

/-- The result both programs compute: entry (b, c, t, h, w) of x plus entry (b, c, h, w) of the prompt. -/
def sumOver (add : α → α → α) (x : SX.Idx → α) (p : SP.Idx → α) : SX.Idx → α :=
  fun i => add (x i) (p (ix4 (i 0) (i 1) (i 3) (i 4)))

/-- The same sum on the re-laid arrays: entry (b, c, t, r, l) plus entry (b, c, r, l). -/
def sumOverRelaid (add : α → α → α) (xr : SXr.Idx → α) (pr : SPr.Idx → α) : SXr.Idx → α :=
  fun j => add (xr j) (pr (ix4 (j 0) (j 1) (j 3) (j 4)))

/-- Re-laying both operands, adding, and re-laying the sum back is the sum on the arrays as given: an element at
    pixel (h, w) sits at row-major position 224·h + w, which is (r, l) = ((224·h + w) / 128, (224·h + w) % 128) of
    the 392 × 128 layout, for x and for the prompt alike, the leading coordinates untouched. -/
theorem relaid_sum (add : α → α → α) (x : SX.Idx → α) (p : SP.Idx → α)
    (h1 : SX.ShapeCasts SXr) (h2 : SP.ShapeCasts SPr) (h3 : SXr.ShapeCasts SX) :
    shapeCast SX (sumOverRelaid add (shapeCast SXr x h1) (shapeCast SPr p h2)) h3 = sumOver add x p := by
  funext i
  obtain ⟨b, c, t, h, w, rfl⟩ : ∃ (b : Fin 16) (c : Fin 3) (t : Fin 16) (h : Fin 224) (w : Fin 224), i = ix5 b c t h w :=
    ⟨i 0, i 1, i 2, i 3, i 4, eq_ix5 i⟩
  have hb := b.isLt; have hc := c.isLt; have ht := t.isLt; have hh := h.isLt; have hw := w.isLt
  let r : Fin 392 := ⟨(h.val * 224 + w.val) / 128, by omega⟩
  let l : Fin 128 := ⟨(h.val * 224 + w.val) % 128, Nat.mod_lt _ (by decide)⟩
  have hr : r.val = (h.val * 224 + w.val) / 128 := rfl
  have hl : l.val = (h.val * 224 + w.val) % 128 := rfl
  rw [shapeCast_apply _ h3 (ix5 b c t h w) (ix5 b c t r l) (by
    rw [Shape.rowMajor_val_five, Shape.rowMajor_val_five]
    show (((b.val * 3 + c.val) * 16 + t.val) * 392 + r.val) * 128 + l.val
        = (((b.val * 3 + c.val) * 16 + t.val) * 224 + h.val) * 224 + w.val
    omega)]
  unfold sumOverRelaid sumOver
  rw [shapeCast_apply x h1 (ix5 b c t r l) (ix5 b c t h w) (by
    rw [Shape.rowMajor_val_five, Shape.rowMajor_val_five]
    show (((b.val * 3 + c.val) * 16 + t.val) * 224 + h.val) * 224 + w.val
        = (((b.val * 3 + c.val) * 16 + t.val) * 392 + r.val) * 128 + l.val
    omega)]
  rw [shapeCast_apply p h2 (ix4 b c r l) (ix4 b c h w) (by
    rw [Shape.rowMajor_val_four, Shape.rowMajor_val_four]
    show ((b.val * 3 + c.val) * 224 + h.val) * 224 + w.val = ((b.val * 3 + c.val) * 392 + r.val) * 128 + l.val
    omega)]

/-- The broadcast form read at an index: the prompt given a unit frame axis and then repeated along it, at
    (b, c, t, h, w), is the prompt at (b, c, h, w). -/
theorem broadcast_apply (p : SP.Idx → α) (hA : SP.BroadcastsInDim SP1 (![0, 1, 3, 4] : Fin 4 → Fin SP1.rank))
    (hB : SP1.BroadcastsInDim SX (![0, 1, 2, 3, 4] : Fin 5 → Fin SX.rank))
    (b : Fin 16) (c : Fin 3) (t : Fin 16) (h : Fin 224) (w : Fin 224) :
    broadcastInDim SX ![0, 1, 2, 3, 4] hB (broadcastInDim SP1 ![0, 1, 3, 4] hA p) (ix5 b c t h w) = p (ix4 b c h w) := by
  refine (broadcastInDim_apply ![0, 1, 2, 3, 4] hB _ (ix5 b c t h w) (ix5 b c (0 : Fin 1) h w) (by
    intro a; match a with
    | ⟨0, _⟩ => rfl | ⟨1, _⟩ => rfl | ⟨2, _⟩ => rfl | ⟨3, _⟩ => rfl | ⟨4, _⟩ => rfl)).trans ?_
  exact broadcastInDim_apply ![0, 1, 3, 4] hA p (ix5 b c (0 : Fin 1) h w) (ix4 b c h w) (by
    intro a; match a with
    | ⟨0, _⟩ => rfl | ⟨1, _⟩ => rfl | ⟨2, _⟩ => rfl | ⟨3, _⟩ => rfl)

/-- The sum by broadcasting is `sumOver`. -/
theorem broadcast_sum (add : α → α → α) (x : SX.Idx → α) (p : SP.Idx → α)
    (hA : SP.BroadcastsInDim SP1 (![0, 1, 3, 4] : Fin 4 → Fin SP1.rank))
    (hB : SP1.BroadcastsInDim SX (![0, 1, 2, 3, 4] : Fin 5 → Fin SX.rank)) :
    (fun i => add (x i) (broadcastInDim SX ![0, 1, 2, 3, 4] hB (broadcastInDim SP1 ![0, 1, 3, 4] hA p) i)) = sumOver add x p := by
  funext i
  obtain ⟨b, c, t, h, w, rfl⟩ : ∃ (b : Fin 16) (c : Fin 3) (t : Fin 16) (h : Fin 224) (w : Fin 224), i = ix5 b c t h w :=
    ⟨i 0, i 1, i 2, i 3, i 4, eq_ix5 i⟩
  unfold sumOver
  rw [broadcast_apply p hA hB b c t h w]

/-! ## One frame's slab inside a block

Inside one sample's block the body adds, frame by frame, the block's prompt (3 × 392 × 128, read once) to frame t of
the x block: it drops the unit sample axis of both, adds, and puts the unit axis back.  None of these re-layings moves
an element, so entry (0, c, 0, r, l) of the stored slab is entry (0, c, 0, r, l) of the loaded x slab plus entry
(0, c, r, l) of the prompt block. -/

/-- One loaded frame of an x block. -/
abbrev SSlab : Shape := ⟨5, ![1, 3, 1, 392, 128]⟩
/-- The same without the sample axis. -/
abbrev SSlab' : Shape := ⟨4, ![3, 1, 392, 128]⟩
/-- A prompt block. -/
abbrev SPb : Shape := ⟨4, ![1, 3, 392, 128]⟩
/-- The same without the sample axis. -/
abbrev SPb' : Shape := ⟨3, ![3, 392, 128]⟩

theorem slab_apply (add : α → α → α) (v : SSlab.Idx → α) (q : SPb.Idx → α)
    (h1 : SSlab.ShapeCasts SSlab') (h2 : SPb.ShapeCasts SPb') (h3 : SPb'.ShapeCasts SSlab') (h4 : SSlab'.ShapeCasts SSlab)
    (c : Fin 3) (r : Fin 392) (l : Fin 128) :
    shapeCast SSlab (fun k => add (shapeCast SSlab' v h1 k) (shapeCast SSlab' (shapeCast SPb' q h2) h3 k)) h4
        (ix5 (0 : Fin 1) c (0 : Fin 1) r l)
      = add (v (ix5 (0 : Fin 1) c (0 : Fin 1) r l)) (q (ix4 (0 : Fin 1) c r l)) := by
  have hc := c.isLt; have hr := r.isLt; have hl := l.isLt
  refine (shapeCast_apply _ h4 (ix5 (0 : Fin 1) c (0 : Fin 1) r l) (ix4 c (0 : Fin 1) r l) (by
    rw [Shape.rowMajor_val_four, Shape.rowMajor_val_five]
    show ((c.val * 1 + 0) * 392 + r.val) * 128 + l.val = ((((0 * 3 + c.val) * 1 + 0) * 392 + r.val) * 128 + l.val)
    omega)).trans ?_
  show add (shapeCast SSlab' v h1 (ix4 c (0 : Fin 1) r l)) (shapeCast SSlab' (shapeCast SPb' q h2) h3 (ix4 c (0 : Fin 1) r l)) = _
  rw [shapeCast_apply v h1 (ix4 c (0 : Fin 1) r l) (ix5 (0 : Fin 1) c (0 : Fin 1) r l) (by
    rw [Shape.rowMajor_val_four, Shape.rowMajor_val_five]
    show ((((0 * 3 + c.val) * 1 + 0) * 392 + r.val) * 128 + l.val) = ((c.val * 1 + 0) * 392 + r.val) * 128 + l.val
    omega)]
  rw [shapeCast_apply (shapeCast SPb' q h2) h3 (ix4 c (0 : Fin 1) r l) (ix3 c r l) (by
    rw [Shape.rowMajor_val_four, Shape.rowMajor_val_three]
    show (c.val * 392 + r.val) * 128 + l.val = ((c.val * 1 + 0) * 392 + r.val) * 128 + l.val
    omega)]
  rw [shapeCast_apply q h2 (ix3 c r l) (ix4 (0 : Fin 1) c r l) (by
    rw [Shape.rowMajor_val_four, Shape.rowMajor_val_three]
    show ((0 * 3 + c.val) * 392 + r.val) * 128 + l.val = (c.val * 392 + r.val) * 128 + l.val
    omega)]

end Cert.PromptSum

end
-- ==== Proof.KernelIdealBlock.lean ====
import proofs.«144763_j39642548142243_2_alg».proof.Proof.KernelIdealFrameBody
import proofs.«144763_j39642548142243_2_alg».proof.Proof.PromptSum
import Idealize.ShloMosaic.Lib.ValueIdx
import Idealize.ShloMosaic.Lib.Pipeline.Value

/-! # What one grid point leaves in the output block, as one function

At the exact extended reals the sixteen stores of the body — slab t of the output block receives slab t of the x
block plus the prompt block — are the restrictions, slab by slab, of ONE function of the two input blocks: entry
(0, c, t, r, l) of the x block plus entry (0, c, r, l) of the prompt block. -/

set_option maxRecDepth 16384

noncomputable section

namespace Cert.KernelIdeal.HandValue

open Cert.KernelIdeal Cert.KernelIdeal.Gen Cert.KernelIdeal.Hand Cert.PromptSum
open Idealize.ShloMosaic Idealize.ShloMosaic.ValueIdx

/-- One block of the result: the x block plus the prompt block repeated along the frame axis. -/
def blockSum (x0 : Vec Ideal S1x3x16x392x128 .f32) (x1 : Vec Ideal S1x3x392x128 .f32) : Vec Ideal S1x3x16x392x128 .f32 :=
  fun y => eadd (x0 y) (x1 (ix4 (0 : Fin 1) (y 1) (y 3) (y 4)))

/-- Slab t of what the body stores is the block sum read through slab t's rectangle. -/
theorem slab_eq (x0 : Vec Ideal S1x3x16x392x128 .f32) (x1 : Vec Ideal S1x3x392x128 .f32) (t : Fin 16)
    (inb : ∀ a, (![0, 0, t.val, 0, 0] : Fin 5 → Nat) a + S1x3x1x392x128.size a ≤ S1x3x16x392x128.size a)
    (h1 : S1x3x1x392x128.ShapeCasts S3x1x392x128) (h2 : S1x3x392x128.ShapeCasts S3x392x128)
    (h3 : S3x392x128.ShapeCasts S3x1x392x128) (h4 : S3x1x392x128.ShapeCasts S1x3x1x392x128)
    (x : S1x3x1x392x128.Idx) :
    (shapeCast S1x3x1x392x128
        (addf (F := Ideal)
          (shapeCast S3x1x392x128 (View.ld x0 (Rect.unit (s := S1x3x16x392x128) ![0, 0, t.val, 0, 0] S1x3x1x392x128.size inb) : FVec Ideal S1x3x1x392x128 .f32) h1 : FVec Ideal S3x1x392x128 .f32)
          (shapeCast S3x1x392x128 (shapeCast S3x392x128 (View.ld x1 rw1 : FVec Ideal S1x3x392x128 .f32) h2 : FVec Ideal S3x392x128 .f32) h3 : FVec Ideal S3x1x392x128 .f32))
        h4 : FVec Ideal S1x3x1x392x128 .f32) x
      = blockSum x0 x1 ((Rect.unit (s := S1x3x16x392x128) ![0, 0, t.val, 0, 0] S1x3x1x392x128.size inb).emb x) := by
  obtain ⟨a, c, d, r, l, rfl⟩ : ∃ (a : Fin 1) (c : Fin 3) (d : Fin 1) (r : Fin 392) (l : Fin 128), x = ix5 a c d r l :=
    ⟨x 0, x 1, x 2, x 3, x 4, eq_ix5 x⟩
  obtain rfl : a = 0 := Subsingleton.elim _ _
  obtain rfl : d = 0 := Subsingleton.elim _ _
  refine (slab_apply eadd _ _ h1 h2 h3 h4 c r l).trans ?_
  unfold blockSum
  refine congrArg₂ eadd rfl (congrArg x1 (funext fun a => Fin.ext ?_))
  match a with
  | ⟨0, _⟩ => rfl
  | ⟨1, _⟩ => rfl
  | ⟨2, _⟩ => rfl
  | ⟨3, _⟩ => rfl

set_option maxHeartbeats 1000000 in
/-- The output block after the body is the block sum of the two input blocks. -/
theorem out0_2_eq (x0 : Vec Ideal S1x3x16x392x128 .f32) (x1 : Vec Ideal S1x3x392x128 .f32) :
    out0_2 (F := Ideal) x0 x1 = blockSum x0 x1 := by
  funext y
  unfold out0_2
  refine View.canon_apply_of_pieces (blockSum x0 x1) _ ?_ y (cover0_2 _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl
  · exact slab_eq x0 x1 ⟨15, by decide⟩ _ _ _ _ _ x
  · exact slab_eq x0 x1 ⟨14, by decide⟩ _ _ _ _ _ x
  · exact slab_eq x0 x1 ⟨13, by decide⟩ _ _ _ _ _ x
  · exact slab_eq x0 x1 ⟨12, by decide⟩ _ _ _ _ _ x
  · exact slab_eq x0 x1 ⟨11, by decide⟩ _ _ _ _ _ x
  · exact slab_eq x0 x1 ⟨10, by decide⟩ _ _ _ _ _ x
  · exact slab_eq x0 x1 ⟨9, by decide⟩ _ _ _ _ _ x
  · exact slab_eq x0 x1 ⟨8, by decide⟩ _ _ _ _ _ x
  · exact slab_eq x0 x1 ⟨7, by decide⟩ _ _ _ _ _ x
  · exact slab_eq x0 x1 ⟨6, by decide⟩ _ _ _ _ _ x
  · exact slab_eq x0 x1 ⟨5, by decide⟩ _ _ _ _ _ x
  · exact slab_eq x0 x1 ⟨4, by decide⟩ _ _ _ _ _ x
  · exact slab_eq x0 x1 ⟨3, by decide⟩ _ _ _ _ _ x
  · exact slab_eq x0 x1 ⟨2, by decide⟩ _ _ _ _ _ x
  · exact slab_eq x0 x1 ⟨1, by decide⟩ _ _ _ _ _ x
  · exact slab_eq x0 x1 ⟨0, by decide⟩ _ _ _ _ _ x

end Cert.KernelIdeal.HandValue

end
-- ==== Proof.KernelIdealHostVals.lean ====
import proofs.«144763_j39642548142243_2_alg».proof.Proof.Gen.KernelIdeal.Launch
import Idealize.ShloMosaic.Lib.StableHlo.Run

/-! # The last host operations before the region, read off

The host prefix ends with three operations: x re-laid (16, 3, 16, 224, 224) → (16, 3, 16, 392, 128), the prompt
re-laid (16, 3, 224, 224) → (16, 3, 392, 128), and a copy of the re-laid x into the buffer the region overwrites.
Everything before them only builds the prompt.  So the three arrays the region stages are the re-laid x, the re-laid
prompt, and the re-laid x again, and the prompt itself is what the operations before them leave. -/

set_option maxRecDepth 16384

noncomputable section

namespace Cert.KernelIdeal.HandValue

open Cert.KernelIdeal Cert.KernelIdeal.Gen
open Idealize.ShloMosaic Idealize.ShloMosaic.TcCoe Idealize.SL.Sem

variable {F : FTy → Type} [FloatOps F]

/-- Running one line of operations after another is running their concatenation. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-- The operations that build the prompt: every stretch before the last. -/
abbrev promptOps : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35]

/-- The host prefix is the prompt's operations followed by the last three. -/
theorem prefix_split (M : Valuation τ sig (Elt F)) :
    StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36]) M
      = StableHlo.after hostOps0_36 (StableHlo.after (List.flatten (promptOps (F := F))) M) := by
  show StableHlo.after (List.flatten (promptOps (F := F) ++ [hostOps0_36])) M = _
  rw [List.flatten_append, after_append]
  simp only [List.flatten_cons, List.flatten_nil, List.append_nil]

/-- After the last three operations: the re-laid x, … -/
theorem last_v335 (W : Valuation τ sig (Elt F)) :
    StableHlo.after hostOps0_36 W (Proc.devRef .tc main_v335)
      = shapeCast S16x3x16x392x128 (W (Proc.devRef .tc main_arg0)) shapeCasts_S16x3x16x224x224_S16x3x16x392x128 := by
  simp only [hostOps0_36]; after_results; rfl
/-- … the re-laid prompt, … -/
theorem last_v336 (W : Valuation τ sig (Elt F)) :
    StableHlo.after hostOps0_36 W (Proc.devRef .tc main_v336)
      = shapeCast S16x3x392x128 (W (Proc.devRef .tc main_v334)) shapeCasts_S16x3x224x224_S16x3x392x128 := by
  simp only [hostOps0_36]; after_results; rfl
/-- … the copy of the re-laid x, … -/
theorem last_v337 (W : Valuation τ sig (Elt F)) :
    StableHlo.after hostOps0_36 W (Proc.devRef .tc main_v337)
      = shapeCast S16x3x16x392x128 (W (Proc.devRef .tc main_arg0)) shapeCasts_S16x3x16x224x224_S16x3x16x392x128 := by
  simp only [hostOps0_36]; after_results; rfl
/-- … and x and the prompt where they were. -/
theorem last_arg0 (W : Valuation τ sig (Elt F)) :
    StableHlo.after hostOps0_36 W (Proc.devRef .tc main_arg0) = W (Proc.devRef .tc main_arg0) := by
  simp only [hostOps0_36]; after_results
theorem last_v334 (W : Valuation τ sig (Elt F)) :
    StableHlo.after hostOps0_36 W (Proc.devRef .tc main_v334) = W (Proc.devRef .tc main_v334) := by
  simp only [hostOps0_36]; after_results

end Cert.KernelIdeal.HandValue

end
-- ==== Proof.KernelIdealValue.lean ====
import proofs.«144763_j39642548142243_2_alg».proof.Proof.KernelIdealFrame
import proofs.«144763_j39642548142243_2_alg».proof.Proof.KernelIdealBlock
import proofs.«144763_j39642548142243_2_alg».proof.Proof.KernelIdealHostVals

/-! # The kernel program's result array, as one function of x and the prompt

Grid point t handles sample t: its three blocks are sample t of the re-laid x, of the re-laid prompt and of the
result, each at block index (t, 0, …, 0).  Point t writes back the block sum of its two input blocks, which is sample
t of ONE whole-array function — the re-laid x plus the re-laid prompt repeated along the frame axis.  The sixteen
samples cover the result array, so the array ends at that function; re-laid back it is x plus the prompt. -/

set_option maxRecDepth 16384

noncomputable section

namespace Cert.KernelIdeal.HandValue

open Cert.KernelIdeal Cert.KernelIdeal.Gen Cert.KernelIdeal.Hand Cert.PromptSum
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps, decided over the grid: every window's block index at point t is (t, 0, …, 0). -/
theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 4) = t.val ∧ win0_1.index t (1 : Fin 4) = 0 ∧ win0_1.index t (2 : Fin 4) = 0
    ∧ win0_1.index t (3 : Fin 4) = 0
    ∧ win0_2.index t (0 : Fin 5) = t.val ∧ win0_2.index t (1 : Fin 5) = 0 ∧ win0_2.index t (2 : Fin 5) = 0
    ∧ win0_2.index t (3 : Fin 5) = 0 ∧ win0_2.index t (4 : Fin 5) = 0 :=
  (by decide +kernel : ∀ t : Fin grid0.N, _)

/-- The result array in the re-laid layout: re-laid x plus re-laid prompt, frame by frame. -/
abbrev relaidSum (c : Dev nD) : S16x3x16x392x128.Idx → EReal :=
  sumOverRelaid eadd (V m c (Pipeline.arrRef spec0 0) : S16x3x16x392x128.Idx → EReal) (V m c (Pipeline.arrRef spec0 1) : S16x3x392x128.Idx → EReal)

set_option maxHeartbeats 2000000 in
/-- For ANY two arrays X0 (window 0's) and X1 (window 1's): the block sum of their blocks at point t is block t of
    their whole-array sum — block t of each window is sample t, and the prompt block's entry (0, c, r, l) is the
    prompt array's entry (t, c, r, l). -/
theorem block_of_sum (X0 : S16x3x16x392x128.Idx → EReal) (X1 : S16x3x392x128.Idx → EReal) (t : Fin cfg0.N) :
    (cfg0.win 2).cut (grid0.coords t)
        (blockSum (((cfg0.win 0).blk t).view.read (Elt Ideal) X0) (((cfg0.win 1).blk t).view.read (Elt Ideal) X1))
      = ((cfg0.win 2).blk t).view.read (Elt Ideal) (sumOverRelaid eadd X0 X1) := by
  obtain ⟨a0, a1, a2, a3, a4, b0, b1, b2, b3, c0, c1, c2, c3, c4⟩ := idx_facts t
  funext j
  have hj0 : (j 0).val < 1 := (j 0).isLt
  have hj1 : (j 1).val < 3 := (j 1).isLt
  have hj2 : (j 2).val < 16 := (j 2).isLt
  have hj3 : (j 3).val < 392 := (j 3).isLt
  have hj4 : (j 4).val < 128 := (j 4).isLt
  show eadd (X0 (((cfg0.win 0).blk t).view.emb j))
        (X1 (((cfg0.win 1).blk t).view.emb (ix4 (0 : Fin 1) (j 1) (j 3) (j 4))))
      = eadd (X0 (((cfg0.win 2).blk t).view.emb j))
        (X1 (ix4 ((((cfg0.win 2).blk t).view.emb j) 0) ((((cfg0.win 2).blk t).view.emb j) 1)
          ((((cfg0.win 2).blk t).view.emb j) 3) ((((cfg0.win 2).blk t).view.emb j) 4)))
  have h0 : ((cfg0.win 0).blk t).view.emb j = ((cfg0.win 2).blk t).view.emb j := by
    funext a; apply Fin.ext
    match a with
    | ⟨0, _⟩ => show win0_0.index t (0 : Fin 5) * 1 + 1 * (j 0).val = win0_2.index t (0 : Fin 5) * 1 + 1 * (j 0).val; omega
    | ⟨1, _⟩ => show win0_0.index t (1 : Fin 5) * 3 + 1 * (j 1).val = win0_2.index t (1 : Fin 5) * 3 + 1 * (j 1).val; omega
    | ⟨2, _⟩ => show win0_0.index t (2 : Fin 5) * 16 + 1 * (j 2).val = win0_2.index t (2 : Fin 5) * 16 + 1 * (j 2).val; omega
    | ⟨3, _⟩ => show win0_0.index t (3 : Fin 5) * 392 + 1 * (j 3).val = win0_2.index t (3 : Fin 5) * 392 + 1 * (j 3).val; omega
    | ⟨4, _⟩ => show win0_0.index t (4 : Fin 5) * 128 + 1 * (j 4).val = win0_2.index t (4 : Fin 5) * 128 + 1 * (j 4).val; omega
  have h1 : ((cfg0.win 1).blk t).view.emb (ix4 (0 : Fin 1) (j 1) (j 3) (j 4))
      = ix4 ((((cfg0.win 2).blk t).view.emb j) 0) ((((cfg0.win 2).blk t).view.emb j) 1)
          ((((cfg0.win 2).blk t).view.emb j) 3) ((((cfg0.win 2).blk t).view.emb j) 4) := by
    funext a; apply Fin.ext
    match a with
    | ⟨0, _⟩ => show win0_1.index t (0 : Fin 4) * 1 + 1 * 0 = win0_2.index t (0 : Fin 5) * 1 + 1 * (j 0).val; omega
    | ⟨1, _⟩ => show win0_1.index t (1 : Fin 4) * 3 + 1 * (j 1).val = win0_2.index t (1 : Fin 5) * 3 + 1 * (j 1).val; omega
    | ⟨2, _⟩ => show win0_1.index t (2 : Fin 4) * 392 + 1 * (j 3).val = win0_2.index t (3 : Fin 5) * 392 + 1 * (j 3).val; omega
    | ⟨3, _⟩ => show win0_1.index t (3 : Fin 4) * 128 + 1 * (j 4).val = win0_2.index t (4 : Fin 5) * 128 + 1 * (j 4).val; omega
  rw [h0, h1]
  rfl

/-- What point t writes back is sample t of `relaidSum`. -/
theorem flushed2_eq (c : Dev nD) (t : Fin cfg0.N) :
    (dats m 0 c).flushed 2 t = ((cfg0.win 2).blk t).view.read (Elt Ideal) (relaidSum m c) := by
  show (cfg0.win 2).cut (grid0.coords t) ((dats m 0 c).after 2 t) = _
  rw [after0_2, out0_2_eq]
  exact block_of_sum _ _ t

/-- An index of the result array is in point t's block iff each coordinate is in the block's range on its axis. -/
theorem mem_blk2 (t : Fin cfg0.N) (i : S16x3x16x392x128.Idx) :
    i ∈ ((cfg0.win 2).blk t).view.set ↔ ∀ a : Fin 5, win0_2.index t a * S1x3x16x392x128.size a ≤ (i a).val ∧ (i a).val < win0_2.index t a * S1x3x16x392x128.size a + S1x3x16x392x128.size a := by
  show i ∈ ((View.whole main_v337).slice (win0_2.rect t)).set ↔ _
  rw [View.set_slice_whole, Rect.mem_set_unit]
  exact Iff.rfl

/-- Every index of the result array is in some point's block: the one of its sample. -/
theorem covered2 (i : S16x3x16x392x128.Idx) :
    ∃ t : Fin cfg0.N, (cfg0.win 2).flush t = true ∧ i ∈ ((cfg0.win 2).blk t).view.set := by
  have hN : cfg0.N = 16 := N_0
  have hi0 : (i 0).val < 16 := (i 0).isLt
  have hi1 : (i 1).val < 3 := (i 1).isLt
  have hi2 : (i 2).val < 16 := (i 2).isLt
  have hi3 : (i 3).val < 392 := (i 3).isLt
  have hi4 : (i 4).val < 128 := (i 4).isLt
  let t : Fin cfg0.N := ⟨(i 0).val, by omega⟩
  have ht : t.val = (i 0).val := rfl
  obtain ⟨a0, a1, a2, a3, a4, b0, b1, b2, b3, c0, c1, c2, c3, c4⟩ := idx_facts t
  refine ⟨t, flush0_2 t, ?_⟩
  rw [mem_blk2]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 3 ≤ (i 1).val ∧ (i 1).val < win0_2.index t (1 : Fin 5) * 3 + 3; omega
  | ⟨2, _⟩ => show win0_2.index t (2 : Fin 5) * 16 ≤ (i 2).val ∧ (i 2).val < win0_2.index t (2 : Fin 5) * 16 + 16; omega
  | ⟨3, _⟩ => show win0_2.index t (3 : Fin 5) * 392 ≤ (i 3).val ∧ (i 3).val < win0_2.index t (3 : Fin 5) * 392 + 392; omega
  | ⟨4, _⟩ => show win0_2.index t (4 : Fin 5) * 128 ≤ (i 4).val ∧ (i 4).val < win0_2.index t (4 : Fin 5) * 128 + 128; omega

/-- The result array after the region. -/
theorem final2 (c : Dev nD) : (dats m 0 c).arrAt 2 cfg0.N = relaidSum m c :=
  (dats m 0 c).arrAt_eq_of_cover 2 (relaidSum m c) (fun t _ => flushed2_eq m c t) covered2

/-! ## The arrays the region stages, and the line after it -/

/-- The prompt as this program's host operations leave it (everything before the last three). -/
abbrev promptK (c : Dev nD) : S16x3x224x224.Idx → EReal :=
  StableHlo.after (List.flatten (promptOps (F := Ideal))) (fun b => m (c, b)) (Proc.devRef .tc main_v334)

/-- x is untouched by the prompt's operations. -/
theorem prompt_keeps_x (c : Dev nD) :
    StableHlo.after (List.flatten (promptOps (F := Ideal))) (fun b => m (c, b)) (Proc.devRef .tc main_arg0)
      = m ((c : Thread nD τ).loc main_arg0) := by
  have h := V_main_arg0 m c
  dsimp only [V, V0] at h
  rw [prefix_split, last_arg0] at h
  exact h

/-- Window 0's array is x re-laid. -/
theorem V_v335 (c : Dev nD) :
    V m c (Pipeline.arrRef spec0 0) = shapeCast S16x3x16x392x128 (m ((c : Thread nD τ).loc main_arg0)) shapeCasts_S16x3x16x224x224_S16x3x16x392x128 := by
  show V m c main_v335 = _
  dsimp only [V, V0]
  rw [prefix_split, last_v335, prompt_keeps_x]

/-- Window 1's array is the prompt re-laid. -/
theorem V_v336 (c : Dev nD) :
    V m c (Pipeline.arrRef spec0 1) = shapeCast S16x3x392x128 (promptK m c) shapeCasts_S16x3x224x224_S16x3x392x128 := by
  show V m c main_v336 = _
  dsimp only [V, V0]
  rw [prefix_split, last_v336]

/-- The line after the region re-lays the result array back. -/
theorem tail_v338 (c : Dev nD) :
    Pipeline.afterTail₀ cfgs (dats m) 0 (V0 m) [hostOps1] c main_v338
      = shapeCast S16x3x16x224x224 ((dats m 0 c).arrAt 2 cfg0.N) shapeCasts_S16x3x16x392x128_S16x3x16x224x224 := by
  unfold Pipeline.afterTail₀
  show StableHlo.after hostOps1 _ (Proc.devRef .tc main_v338) = _
  simp only [hostOps1]
  after_results
  exact congrArg (fun z => shapeCast S16x3x16x224x224 z shapeCasts_S16x3x16x392x128_S16x3x16x224x224)
    (Pipeline.withArrays_arr spec0 launch0.win.arr_inj c _ _ 2)

/-- THE RESULT of the kernel program: x plus the prompt, frame by frame. -/
theorem kernel_result (c : Dev nD) :
    Pipeline.afterTail₀ cfgs (dats m) 0 (V0 m) [hostOps1] c main_v338
      = sumOver eadd (m ((c : Thread nD τ).loc main_arg0)) (promptK m c) := by
  rw [tail_v338, final2]
  unfold relaidSum
  rw [V_v335, V_v336]
  exact relaid_sum eadd _ _ _ _ _

/-- THE RUN, read: the result at x plus the prompt, the arguments as they were. -/
theorem run : θ_run defs (onTc (τ := τ) (main (F := Ideal))) ⟨m, fun _ => 0, ρ⟩ (fun r => ∀ c : Dev nD,
      r.2.mem ((c.tc : Thread nD τ).loc main_v338) = sumOver eadd (m ((c.tc : Thread nD τ).loc main_arg0)) (promptK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
      ⟨((h c).2 main_v338 (Pipeline.mem_restRefs_of main_v338 (by decide) (by decide))).trans (kernel_result m c),
        kept_of_post m r h c⟩)
    (run_main m ρ)

end Cert.KernelIdeal.HandValue

end
-- ==== Proof.RefRunBase.lean ====
/- The run of the reference's @main, part 1 of 3: what every window's module uses.
   A list of host operations is GOOD when each operation touches TensorCore references only, determines its
   results, and writes none of @main's twelve arguments; good lists concatenate, and a fold over a good list
   leaves the arguments' contents as they were. Each builder of a host operation whose result buffer is not an
   argument (its index in HBM is 12 or more, the arguments being 0 … 11) extends a good list. -/
import proofs.«144763_j39642548142243_2_alg».proof.ReferenceIdeal
import Idealize.ShloMosaic.Lib.StableHlo.Run
import Idealize.ShloMosaic.Lib.Pipeline.Regions

noncomputable section

namespace Cert.ReferenceIdeal.Hand

open Cert.ReferenceIdeal Idealize.ShloMosaic Idealize.SL.Sem Idealize.ShloMosaic.StableHlo

variable {F : FTy → Type} [FloatOps F] [Facts]

/-! ## Folds and sequences over concatenations -/

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The chain of the stretches' sequences is the sequence of their concatenation. -/
theorem chain_map_seq {Λ : Labels} (L : List (List (HloOp τ sig (Elt F)))) :
    Pipeline.chain (L.map fun l => (seq l : Prog (TpuEff nD τ sig (Elt F) Λ .tc) PUnit)) = seq L.flatten := by
  induction L with
  | nil => rfl
  | cons l L ih => simp only [List.map_cons, Pipeline.chain_cons, List.flatten_cons, seq_append, ih]

/-! ## @main's arguments and the lists that leave them alone -/

/-- @main's twelve arguments: the HBM buffers 0 … 11. -/
abbrev argRefs : List (Ref sig .tc) :=
  [main_arg0, main_arg1, main_arg2, main_arg3, main_arg4, main_arg5, main_arg6, main_arg7, main_arg8, main_arg9,
    main_arg10, main_arg11]

theorem idx_lt_of_mem_argRefs {r : Ref sig .tc} (h : r ∈ argRefs) : r.idx.val < 12 := by
  simp only [argRefs, List.mem_cons, List.not_mem_nil, or_false] at h
  rcases h with rfl | rfl | rfl | rfl | rfl | rfl | rfl | rfl | rfl | rfl | rfl | rfl <;> decide

/-- A reference whose index is 12 or more is none of the arguments. -/
theorem arg_ne {r y : Ref sig .tc} (hr : r ∈ argRefs) (hy : 12 ≤ y.idx.val) : r ≠ y := by
  rintro rfl
  exact absurd (idx_lt_of_mem_argRefs hr) (Nat.not_lt.mpr hy)

/-- A list of host operations each of which touches TensorCore references only, determines its results, and
    writes no argument of @main. -/
structure Good (L : List (HloOp τ sig (Elt F))) : Prop where
  sub : L.Forall fun op => op.bufs ⊆ tcRefs τ sig
  fresh : ∀ op ∈ L, op.fresh = ∅
  keeps : ∀ op ∈ L, ∀ r ∈ argRefs, Proc.devRef (τ := τ) .tc r ∉ op.writes

theorem Good.nil : Good ([] : List (HloOp τ sig (Elt F))) :=
  ⟨trivial, (fun _ h => nomatch h), (fun _ h => nomatch h)⟩

theorem Good.cons {op : HloOp τ sig (Elt F)} {L : List (HloOp τ sig (Elt F))} (h1 : op.bufs ⊆ tcRefs τ sig)
    (h2 : op.fresh = ∅) (h3 : ∀ r ∈ argRefs, Proc.devRef (τ := τ) .tc r ∉ op.writes) (h : Good L) : Good (op :: L) :=
  ⟨(List.forall_cons _ _ _).2 ⟨h1, h.sub⟩, List.forall_mem_cons.2 ⟨h2, h.fresh⟩, List.forall_mem_cons.2 ⟨h3, h.keeps⟩⟩

theorem Good.append {L₁ L₂ : List (HloOp τ sig (Elt F))} (h₁ : Good L₁) (h₂ : Good L₂) : Good (L₁ ++ L₂) :=
  ⟨List.forall_iff_forall_mem.2 fun op hop =>
      (List.mem_append.1 hop).elim (List.forall_iff_forall_mem.1 h₁.sub op) (List.forall_iff_forall_mem.1 h₂.sub op),
    fun op hop => (List.mem_append.1 hop).elim (h₁.fresh op) (h₂.fresh op),
    fun op hop => (List.mem_append.1 hop).elim (h₁.keeps op) (h₂.keeps op)⟩

theorem Good.of_append_left {L₁ L₂ : List (HloOp τ sig (Elt F))} (h : Good (L₁ ++ L₂)) : Good L₁ :=
  ⟨List.forall_iff_forall_mem.2 fun op hop => List.forall_iff_forall_mem.1 h.sub op (List.mem_append_left _ hop),
    fun op hop => h.fresh op (List.mem_append_left _ hop), fun op hop => h.keeps op (List.mem_append_left _ hop)⟩

theorem Good.flatten : ∀ {LL : List (List (HloOp τ sig (Elt F)))}, LL.Forall Good → Good LL.flatten
  | [], _ => Good.nil
  | L :: LL, h => by
    rw [List.flatten_cons]
    exact ((List.forall_cons _ _ _).1 h).1.append (Good.flatten ((List.forall_cons _ _ _).1 h).2)

/-- The fold over a good list leaves each argument's contents as they were. -/
theorem Good.after_arg {L : List (HloOp τ sig (Elt F))} (h : Good L) (V : Valuation τ sig (Elt F)) {r : Ref sig .tc}
    (hr : r ∈ argRefs) : after L V (Proc.devRef .tc r) = V (Proc.devRef .tc r) :=
  after_of_forall_not_mem L V fun op hop => h.keeps op hop r hr

/-! ## Each builder extends a good list -/

section Builders

variable {x a b c y : Ref sig .tc} {L : List (HloOp τ sig (Elt F))}

theorem good_nullary {v : y.ty.Contents (Elt F)} {hy} (hne : 12 ≤ y.idx.val) (h : Good L) :
    Good (StableHlo.nullary (τ := τ) y v hy :: L) :=
  Good.cons (nullary_bufs_sub ..) rfl
    (fun r hr => by rw [nullary_writes, Finset.mem_singleton]; exact devRef_ne_of_ne (arg_ne hr hne)) h

theorem good_unary {f : x.ty.Contents (Elt F) → y.ty.Contents (Elt F)} {hx hy} (hne : 12 ≤ y.idx.val) (h : Good L) :
    Good (StableHlo.unary (τ := τ) x y f hx hy :: L) :=
  Good.cons (unary_bufs_sub ..) rfl
    (fun r hr => by rw [unary_writes, Finset.mem_singleton]; exact devRef_ne_of_ne (arg_ne hr hne)) h

theorem good_binary {f : a.ty.Contents (Elt F) → b.ty.Contents (Elt F) → y.ty.Contents (Elt F)} {ha hb hy}
    (hne : 12 ≤ y.idx.val) (h : Good L) : Good (StableHlo.binary (τ := τ) a b y f ha hb hy :: L) :=
  Good.cons (binary_bufs_sub ..) rfl
    (fun r hr => by rw [binary_writes, Finset.mem_singleton]; exact devRef_ne_of_ne (arg_ne hr hne)) h

theorem good_ternary
    {f : c.ty.Contents (Elt F) → a.ty.Contents (Elt F) → b.ty.Contents (Elt F) → y.ty.Contents (Elt F)} {hc ha hb hy}
    (hne : 12 ≤ y.idx.val) (h : Good L) : Good (StableHlo.ternary (τ := τ) c a b y f hc ha hb hy :: L) :=
  Good.cons (ternary_bufs_sub ..) rfl
    (fun r hr => by rw [ternary_writes, Finset.mem_singleton]; exact devRef_ne_of_ne (arg_ne hr hne)) h

theorem good_reshape {he hn hx hy} (hne : 12 ≤ y.idx.val) (h : Good L) :
    Good (StableHlo.reshape (τ := τ) (Val := Elt F) x y he hn hx hy :: L) :=
  Good.cons (reshape_bufs_sub ..) rfl
    (fun r hr => by rw [reshape_writes, Finset.mem_singleton]; exact devRef_ne_of_ne (arg_ne hr hne)) h

theorem good_nary {n : Nat} {xs : Fin n → Ref sig .tc}
    {f : ((k : Fin n) → (xs k).ty.Contents (Elt F)) → y.ty.Contents (Elt F)} {hxs hy}
    (hne : 12 ≤ y.idx.val) (h : Good L) : Good (StableHlo.nary (τ := τ) xs y f hxs hy :: L) :=
  Good.cons (nary_bufs_sub ..) rfl
    (fun r hr => by rw [nary_writes, Finset.mem_singleton]; exact devRef_ne_of_ne (arg_ne hr hne)) h

end Builders

/-- A literal list of the builders' operations over literal references none of which is an argument is good:
    one builder's lemma per entry, the result buffer's index compared with 12 by computation. -/
macro "hlo_good" : tactic =>
  `(tactic| repeat (first
      | exact Good.nil
      | refine good_unary (by decide) ?_
      | refine good_binary (by decide) ?_
      | refine good_nullary (by decide) ?_
      | refine good_ternary (by decide) ?_
      | refine good_reshape (by decide) ?_
      | refine good_nary (by decide) ?_))

/-! ## The signature scopes nothing -/

theorem scopedRefs_eq : (Finset.univ.filter fun b : Ref sig .tc => b.isScoped) = ∅ :=
  Finset.filter_eq_empty_iff.2 fun b _ => by
    rcases b with ⟨sp, i, hn⟩
    cases sp with
    | hbm => exact Bool.false_ne_true
    | host => exact Bool.false_ne_true
    | shared => exact Fin.elim0 i
    | core cs => cases cs <;> exact Bool.false_ne_true

theorem scopedSems_eq : (Finset.univ.filter fun sm : SemLoc sig => sm.isScoped .tc) = ∅ := by decide

end Cert.ReferenceIdeal.Hand

end
-- ==== Proof.RefRunT0.lean ====
import proofs.«144763_j39642548142243_2_alg».proof.ReferenceIdeal

set_option synthInstance.maxSize 4096

noncomputable section

namespace Cert.ReferenceIdeal.Hand

open Cert.ReferenceIdeal Idealize.ShloMosaic Idealize.SL.Sem

variable {F : FTy → Type} [FloatOps F] [Facts]
open Facts₀ Facts

set_option maxHeartbeats 40000000 in
/-- 60 host operations of @main, window 0, in order. -/
abbrev w0_s0 : List (HloOp τ sig (Elt F)) :=
  [ StableHlo.nullary main_c (constantI S_ 32 0#32),
    StableHlo.unary main_c main_v0 (broadcastInDim S16 ![] bcast_S_S16 : (⟨S_, .i32⟩ : BufTy).Contents (Elt F) → (⟨S16, .i32⟩ : BufTy).Contents (Elt F)),
    StableHlo.binary main_arg9 main_v0 main_v1 (cmpi .slt : (⟨S16, .i32⟩ : BufTy).Contents (Elt F) → (⟨S16, .i32⟩ : BufTy).Contents (Elt F) → (⟨S16, .i1⟩ : BufTy).Contents (Elt F)),
    StableHlo.nullary main_c_0 (constantI S_ 32 3#32),
    StableHlo.unary main_c_0 main_v2 (broadcastInDim S16 ![] bcast_S_S16 : (⟨S_, .i32⟩ : BufTy).Contents (Elt F) → (⟨S16, .i32⟩ : BufTy).Contents (Elt F)),
    StableHlo.binary main_arg9 main_v2 main_v3 (addi : (⟨S16, .i32⟩ : BufTy).Contents (Elt F) → (⟨S16, .i32⟩ : BufTy).Contents (Elt F) → (⟨S16, .i32⟩ : BufTy).Contents (Elt F)),
    StableHlo.ternary main_v1 main_v3 main_arg9 main_v4 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_1 (constantI S_ 32 0#32),
    StableHlo.nullary main_c_2 (constantI S_ 32 0#32),
    StableHlo.binary main_c_1 main_c_2 main_v5 (cmpi .slt : (⟨S_, .i32⟩ : BufTy).Contents (Elt F) → (⟨S_, .i32⟩ : BufTy).Contents (Elt F) → (⟨S_, .i1⟩ : BufTy).Contents (Elt F)),
    StableHlo.nullary main_c_3 (constantI S_ 32 0#32),
    StableHlo.nullary main_c_4 (constantI S_ 32 3#32),
    StableHlo.binary main_c_3 main_c_4 main_v6 (addi : (⟨S_, .i32⟩ : BufTy).Contents (Elt F) → (⟨S_, .i32⟩ : BufTy).Contents (Elt F) → (⟨S_, .i32⟩ : BufTy).Contents (Elt F)),
    StableHlo.nullary main_c_5 (constantI S_ 32 0#32),
    StableHlo.ternary main_v5 main_v6 main_c_5 main_v7 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_6 (constantI S_ 32 0#32),
    StableHlo.nullary main_c_7 (constantI S_ 32 0#32),
    StableHlo.binary main_c_6 main_c_7 main_v8 (cmpi .slt : (⟨S_, .i32⟩ : BufTy).Contents (Elt F) → (⟨S_, .i32⟩ : BufTy).Contents (Elt F) → (⟨S_, .i1⟩ : BufTy).Contents (Elt F)),
    StableHlo.nullary main_c_8 (constantI S_ 32 0#32),
    StableHlo.nullary main_c_9 (constantI S_ 32 1#32),
    StableHlo.binary main_c_8 main_c_9 main_v9 (addi : (⟨S_, .i32⟩ : BufTy).Contents (Elt F) → (⟨S_, .i32⟩ : BufTy).Contents (Elt F) → (⟨S_, .i32⟩ : BufTy).Contents (Elt F)),
    StableHlo.nullary main_c_10 (constantI S_ 32 0#32),
    StableHlo.ternary main_v8 main_v9 main_c_10 main_v10 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_11 (constantI S_ 32 0#32),
    StableHlo.nullary main_c_12 (constantI S_ 32 0#32),
    StableHlo.binary main_c_11 main_c_12 main_v11 (cmpi .slt : (⟨S_, .i32⟩ : BufTy).Contents (Elt F) → (⟨S_, .i32⟩ : BufTy).Contents (Elt F) → (⟨S_, .i1⟩ : BufTy).Contents (Elt F)),
    StableHlo.nullary main_c_13 (constantI S_ 32 0#32),
    StableHlo.nullary main_c_14 (constantI S_ 32 224#32),
    StableHlo.binary main_c_13 main_c_14 main_v12 (addi : (⟨S_, .i32⟩ : BufTy).Contents (Elt F) → (⟨S_, .i32⟩ : BufTy).Contents (Elt F) → (⟨S_, .i32⟩ : BufTy).Contents (Elt F)),
    StableHlo.nullary main_c_15 (constantI S_ 32 0#32),
    StableHlo.ternary main_v11 main_v12 main_c_15 main_v13 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v4 main_v14 (broadcastInDim S16x1 ![0] bcast_S16_S16x1_0 : (⟨S16, .i32⟩ : BufTy).Contents (Elt F) → (⟨S16x1, .i32⟩ : BufTy).Contents (Elt F)),
    StableHlo.unary main_v7 main_v15 (broadcastInDim S16x1 ![] bcast_S_S16x1 : (⟨S_, .i32⟩ : BufTy).Contents (Elt F) → (⟨S16x1, .i32⟩ : BufTy).Contents (Elt F)),
    StableHlo.unary main_v10 main_v16 (broadcastInDim S16x1 ![] bcast_S_S16x1 : (⟨S_, .i32⟩ : BufTy).Contents (Elt F) → (⟨S16x1, .i32⟩ : BufTy).Contents (Elt F)),
    StableHlo.unary main_v13 main_v17 (broadcastInDim S16x1 ![] bcast_S_S16x1 : (⟨S_, .i32⟩ : BufTy).Contents (Elt F) → (⟨S16x1, .i32⟩ : BufTy).Contents (Elt F)),
    StableHlo.nary ![main_v14, main_v15, main_v16, main_v17] main_v18 (fun u => concatenate S16x4 1 [⟨S16x1, u 0⟩, ⟨S16x1, u 1⟩, ⟨S16x1, u 2⟩, ⟨S16x1, u 3⟩] concatenates_S16x1_S16x1_S16x1_S16x1_S16x4_d1),
    StableHlo.binary main_arg1 main_v18 main_v19 ((fun x i => Host.gather gather_S3x3x1x224_S16x4_S16x1x3x1x224_1234_n_n_n_0123_1_131224 x i) : (⟨S3x3x1x224, .f32⟩ : BufTy).Contents (Elt F) → (⟨S16x4, .i32⟩ : BufTy).Contents (Elt F) → (⟨S16x1x3x1x224, .f32⟩ : BufTy).Contents (Elt F)),
    StableHlo.reshape main_v19 main_v20 rfl shapeCasts_S16x1x3x1x224_S16x3x224,
    StableHlo.nullary main_c_16 (constantI S_ 32 0#32),
    StableHlo.unary main_c_16 main_v21 (broadcastInDim S16 ![] bcast_S_S16 : (⟨S_, .i32⟩ : BufTy).Contents (Elt F) → (⟨S16, .i32⟩ : BufTy).Contents (Elt F)),
    StableHlo.binary main_arg9 main_v21 main_v22 (cmpi .slt : (⟨S16, .i32⟩ : BufTy).Contents (Elt F) → (⟨S16, .i32⟩ : BufTy).Contents (Elt F) → (⟨S16, .i1⟩ : BufTy).Contents (Elt F)),
    StableHlo.nullary main_c_17 (constantI S_ 32 3#32),
    StableHlo.unary main_c_17 main_v23 (broadcastInDim S16 ![] bcast_S_S16 : (⟨S_, .i32⟩ : BufTy).Contents (Elt F) → (⟨S16, .i32⟩ : BufTy).Contents (Elt F)),
    StableHlo.binary main_arg9 main_v23 main_v24 (addi : (⟨S16, .i32⟩ : BufTy).Contents (Elt F) → (⟨S16, .i32⟩ : BufTy).Contents (Elt F) → (⟨S16, .i32⟩ : BufTy).Contents (Elt F)),
    StableHlo.ternary main_v22 main_v24 main_arg9 main_v25 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_18 (constantI S_ 32 0#32),
    StableHlo.nullary main_c_19 (constantI S_ 32 0#32),
    StableHlo.binary main_c_18 main_c_19 main_v26 (cmpi .slt : (⟨S_, .i32⟩ : BufTy).Contents (Elt F) → (⟨S_, .i32⟩ : BufTy).Contents (Elt F) → (⟨S_, .i1⟩ : BufTy).Contents (Elt F)),
    StableHlo.nullary main_c_20 (constantI S_ 32 0#32),
    StableHlo.nullary main_c_21 (constantI S_ 32 3#32),
    StableHlo.binary main_c_20 main_c_21 main_v27 (addi : (⟨S_, .i32⟩ : BufTy).Contents (Elt F) → (⟨S_, .i32⟩ : BufTy).Contents (Elt F) → (⟨S_, .i32⟩ : BufTy).Contents (Elt F)),
    StableHlo.nullary main_c_22 (constantI S_ 32 0#32),
    StableHlo.ternary main_v26 main_v27 main_c_22 main_v28 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_23 (constantI S_ 32 0#32),
    StableHlo.nullary main_c_24 (constantI S_ 32 0#32),
    StableHlo.binary main_c_23 main_c_24 main_v29 (cmpi .slt : (⟨S_, .i32⟩ : BufTy).Contents (Elt F) → (⟨S_, .i32⟩ : BufTy).Contents (Elt F) → (⟨S_, .i1⟩ : BufTy).Contents (Elt F)),
    StableHlo.nullary main_c_25 (constantI S_ 32 0#32),
    StableHlo.nullary main_c_26 (constantI S_ 32 10#32),
    StableHlo.binary main_c_25 main_c_26 main_v30 (addi : (⟨S_, .i32⟩ : BufTy).Contents (Elt F) → (⟨S_, .i32⟩ : BufTy).Contents (Elt F) → (⟨S_, .i32⟩ : BufTy).Contents (Elt F)),
    StableHlo.nullary main_c_27 (constantI S_ 32 0#32) ]

end Cert.ReferenceIdeal.Hand

end
-- ==== Proof.RefRunW0.lean ====
/- The run of the reference's @main, part 2 of 3, window 0 (statements 1 … 60): the window is the chain of its
   tables' sequences, and each table is a good list. -/
import proofs.«144763_j39642548142243_2_alg».proof.Proof.RefRunBase
import proofs.«144763_j39642548142243_2_alg».proof.Proof.RefRunT0

set_option maxRecDepth 5964

noncomputable section

namespace Cert.ReferenceIdeal.Hand

open Cert.ReferenceIdeal Idealize.ShloMosaic Idealize.SL.Sem Idealize.ShloMosaic.StableHlo

variable {F : FTy → Type} [FloatOps F] [Facts]

/-- The window is its stretches in order — @main's own operations, and at each call the callee's operations over
    the call's buffers —, its last statement in tail position: both sides unfold to the same line of steps. -/
theorem w0_chain (c : Dev nD) : main_part0 (F := F) c = (Pipeline.chainK
  [  ]
  (seq w0_s0) : Prog (TpuEff nD τ sig (Elt F) (Pipeline.Sig Λ₀ (Fin 0) fun p => (pcfgs (F := F) p).Adm) .tc) PUnit) := by
  chain_rfl

theorem w0_s0_good : Good (w0_s0 (F := F)) := by hlo_good

end Cert.ReferenceIdeal.Hand

end
-- ==== Proof.RefRunT1.lean ====
import proofs.«144763_j39642548142243_2_alg».proof.ReferenceIdeal

set_option synthInstance.maxSize 4096

noncomputable section

namespace Cert.ReferenceIdeal.Hand

open Cert.ReferenceIdeal Idealize.ShloMosaic Idealize.SL.Sem

variable {F : FTy → Type} [FloatOps F] [Facts]
open Facts₀ Facts

set_option maxHeartbeats 40000000 in
/-- 60 host operations of @main, window 1, in order. -/
abbrev w1_s0 : List (HloOp τ sig (Elt F)) :=
  [ StableHlo.ternary main_v29 main_v30 main_c_27 main_v31 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_28 (constantI S_ 32 0#32),
    StableHlo.nullary main_c_29 (constantI S_ 32 0#32),
    StableHlo.binary main_c_28 main_c_29 main_v32 (cmpi .slt : (⟨S_, .i32⟩ : BufTy).Contents (Elt F) → (⟨S_, .i32⟩ : BufTy).Contents (Elt F) → (⟨S_, .i1⟩ : BufTy).Contents (Elt F)),
    StableHlo.nullary main_c_30 (constantI S_ 32 0#32),
    StableHlo.nullary main_c_31 (constantI S_ 32 224#32),
    StableHlo.binary main_c_30 main_c_31 main_v33 (addi : (⟨S_, .i32⟩ : BufTy).Contents (Elt F) → (⟨S_, .i32⟩ : BufTy).Contents (Elt F) → (⟨S_, .i32⟩ : BufTy).Contents (Elt F)),
    StableHlo.nullary main_c_32 (constantI S_ 32 0#32),
    StableHlo.ternary main_v32 main_v33 main_c_32 main_v34 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v25 main_v35 (broadcastInDim S16x1 ![0] bcast_S16_S16x1_0 : (⟨S16, .i32⟩ : BufTy).Contents (Elt F) → (⟨S16x1, .i32⟩ : BufTy).Contents (Elt F)),
    StableHlo.unary main_v28 main_v36 (broadcastInDim S16x1 ![] bcast_S_S16x1 : (⟨S_, .i32⟩ : BufTy).Contents (Elt F) → (⟨S16x1, .i32⟩ : BufTy).Contents (Elt F)),
    StableHlo.unary main_v31 main_v37 (broadcastInDim S16x1 ![] bcast_S_S16x1 : (⟨S_, .i32⟩ : BufTy).Contents (Elt F) → (⟨S16x1, .i32⟩ : BufTy).Contents (Elt F)),
    StableHlo.unary main_v34 main_v38 (broadcastInDim S16x1 ![] bcast_S_S16x1 : (⟨S_, .i32⟩ : BufTy).Contents (Elt F) → (⟨S16x1, .i32⟩ : BufTy).Contents (Elt F)),
    StableHlo.nary ![main_v35, main_v36, main_v37, main_v38] main_v39 (fun u => concatenate S16x4 1 [⟨S16x1, u 0⟩, ⟨S16x1, u 1⟩, ⟨S16x1, u 2⟩, ⟨S16x1, u 3⟩] concatenates_S16x1_S16x1_S16x1_S16x1_S16x4_d1),
    StableHlo.binary main_arg2 main_v39 main_v40 ((fun x i => Host.gather gather_S3x3x10x224_S16x4_S16x1x3x10x224_1234_n_n_n_0123_1_1310224 x i) : (⟨S3x3x10x224, .f32⟩ : BufTy).Contents (Elt F) → (⟨S16x4, .i32⟩ : BufTy).Contents (Elt F) → (⟨S16x1x3x10x224, .f32⟩ : BufTy).Contents (Elt F)),
    StableHlo.reshape main_v40 main_v41 rfl shapeCasts_S16x1x3x10x224_S16x3x10x224,
    StableHlo.nullary main_c_33 (constantI S_ 32 0#32),
    StableHlo.unary main_c_33 main_v42 (broadcastInDim S16 ![] bcast_S_S16 : (⟨S_, .i32⟩ : BufTy).Contents (Elt F) → (⟨S16, .i32⟩ : BufTy).Contents (Elt F)),
    StableHlo.binary main_arg9 main_v42 main_v43 (cmpi .slt : (⟨S16, .i32⟩ : BufTy).Contents (Elt F) → (⟨S16, .i32⟩ : BufTy).Contents (Elt F) → (⟨S16, .i1⟩ : BufTy).Contents (Elt F)),
    StableHlo.nullary main_c_34 (constantI S_ 32 3#32),
    StableHlo.unary main_c_34 main_v44 (broadcastInDim S16 ![] bcast_S_S16 : (⟨S_, .i32⟩ : BufTy).Contents (Elt F) → (⟨S16, .i32⟩ : BufTy).Contents (Elt F)),
    StableHlo.binary main_arg9 main_v44 main_v45 (addi : (⟨S16, .i32⟩ : BufTy).Contents (Elt F) → (⟨S16, .i32⟩ : BufTy).Contents (Elt F) → (⟨S16, .i32⟩ : BufTy).Contents (Elt F)),
    StableHlo.ternary main_v43 main_v45 main_arg9 main_v46 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_35 (constantI S_ 32 0#32),
    StableHlo.nullary main_c_36 (constantI S_ 32 0#32),
    StableHlo.binary main_c_35 main_c_36 main_v47 (cmpi .slt : (⟨S_, .i32⟩ : BufTy).Contents (Elt F) → (⟨S_, .i32⟩ : BufTy).Contents (Elt F) → (⟨S_, .i1⟩ : BufTy).Contents (Elt F)),
    StableHlo.nullary main_c_37 (constantI S_ 32 0#32),
    StableHlo.nullary main_c_38 (constantI S_ 32 3#32),
    StableHlo.binary main_c_37 main_c_38 main_v48 (addi : (⟨S_, .i32⟩ : BufTy).Contents (Elt F) → (⟨S_, .i32⟩ : BufTy).Contents (Elt F) → (⟨S_, .i32⟩ : BufTy).Contents (Elt F)),
    StableHlo.nullary main_c_39 (constantI S_ 32 0#32),
    StableHlo.ternary main_v47 main_v48 main_c_39 main_v49 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_40 (constantI S_ 32 0#32),
    StableHlo.nullary main_c_41 (constantI S_ 32 0#32),
    StableHlo.binary main_c_40 main_c_41 main_v50 (cmpi .slt : (⟨S_, .i32⟩ : BufTy).Contents (Elt F) → (⟨S_, .i32⟩ : BufTy).Contents (Elt F) → (⟨S_, .i1⟩ : BufTy).Contents (Elt F)),
    StableHlo.nullary main_c_42 (constantI S_ 32 0#32),
    StableHlo.nullary main_c_43 (constantI S_ 32 1#32),
    StableHlo.binary main_c_42 main_c_43 main_v51 (addi : (⟨S_, .i32⟩ : BufTy).Contents (Elt F) → (⟨S_, .i32⟩ : BufTy).Contents (Elt F) → (⟨S_, .i32⟩ : BufTy).Contents (Elt F)),
    StableHlo.nullary main_c_44 (constantI S_ 32 0#32),
    StableHlo.ternary main_v50 main_v51 main_c_44 main_v52 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_45 (constantI S_ 32 0#32),
    StableHlo.nullary main_c_46 (constantI S_ 32 0#32),
    StableHlo.binary main_c_45 main_c_46 main_v53 (cmpi .slt : (⟨S_, .i32⟩ : BufTy).Contents (Elt F) → (⟨S_, .i32⟩ : BufTy).Contents (Elt F) → (⟨S_, .i1⟩ : BufTy).Contents (Elt F)),
    StableHlo.nullary main_c_47 (constantI S_ 32 0#32),
    StableHlo.nullary main_c_48 (constantI S_ 32 224#32),
    StableHlo.binary main_c_47 main_c_48 main_v54 (addi : (⟨S_, .i32⟩ : BufTy).Contents (Elt F) → (⟨S_, .i32⟩ : BufTy).Contents (Elt F) → (⟨S_, .i32⟩ : BufTy).Contents (Elt F)),
    StableHlo.nullary main_c_49 (constantI S_ 32 0#32),
    StableHlo.ternary main_v53 main_v54 main_c_49 main_v55 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v46 main_v56 (broadcastInDim S16x1 ![0] bcast_S16_S16x1_0 : (⟨S16, .i32⟩ : BufTy).Contents (Elt F) → (⟨S16x1, .i32⟩ : BufTy).Contents (Elt F)),
    StableHlo.unary main_v49 main_v57 (broadcastInDim S16x1 ![] bcast_S_S16x1 : (⟨S_, .i32⟩ : BufTy).Contents (Elt F) → (⟨S16x1, .i32⟩ : BufTy).Contents (Elt F)),
    StableHlo.unary main_v52 main_v58 (broadcastInDim S16x1 ![] bcast_S_S16x1 : (⟨S_, .i32⟩ : BufTy).Contents (Elt F) → (⟨S16x1, .i32⟩ : BufTy).Contents (Elt F)),
    StableHlo.unary main_v55 main_v59 (broadcastInDim S16x1 ![] bcast_S_S16x1 : (⟨S_, .i32⟩ : BufTy).Contents (Elt F) → (⟨S16x1, .i32⟩ : BufTy).Contents (Elt F)),
    StableHlo.nary ![main_v56, main_v57, main_v58, main_v59] main_v60 (fun u => concatenate S16x4 1 [⟨S16x1, u 0⟩, ⟨S16x1, u 1⟩, ⟨S16x1, u 2⟩, ⟨S16x1, u 3⟩] concatenates_S16x1_S16x1_S16x1_S16x1_S16x4_d1),
    StableHlo.binary main_arg3 main_v60 main_v61 ((fun x i => Host.gather gather_S3x3x1x224_S16x4_S16x1x3x1x224_1234_n_n_n_0123_1_131224 x i) : (⟨S3x3x1x224, .f32⟩ : BufTy).Contents (Elt F) → (⟨S16x4, .i32⟩ : BufTy).Contents (Elt F) → (⟨S16x1x3x1x224, .f32⟩ : BufTy).Contents (Elt F)),
    StableHlo.reshape main_v61 main_v62 rfl shapeCasts_S16x1x3x1x224_S16x3x224,
    StableHlo.nullary main_c_50 (constantI S_ 32 0#32),
    StableHlo.unary main_c_50 main_v63 (broadcastInDim S16 ![] bcast_S_S16 : (⟨S_, .i32⟩ : BufTy).Contents (Elt F) → (⟨S16, .i32⟩ : BufTy).Contents (Elt F)),
    StableHlo.binary main_arg9 main_v63 main_v64 (cmpi .slt : (⟨S16, .i32⟩ : BufTy).Contents (Elt F) → (⟨S16, .i32⟩ : BufTy).Contents (Elt F) → (⟨S16, .i1⟩ : BufTy).Contents (Elt F)),
    StableHlo.nullary main_c_51 (constantI S_ 32 3#32),
    StableHlo.unary main_c_51 main_v65 (broadcastInDim S16 ![] bcast_S_S16 : (⟨S_, .i32⟩ : BufTy).Contents (Elt F) → (⟨S16, .i32⟩ : BufTy).Contents (Elt F)),
    StableHlo.binary main_arg9 main_v65 main_v66 (addi : (⟨S16, .i32⟩ : BufTy).Contents (Elt F) → (⟨S16, .i32⟩ : BufTy).Contents (Elt F) → (⟨S16, .i32⟩ : BufTy).Contents (Elt F)) ]

end Cert.ReferenceIdeal.Hand

end
-- ==== Proof.RefRunW1.lean ====
/- The run of the reference's @main, part 2 of 3, window 1 (statements 61 … 120): the window is the chain of its
   tables' sequences, and each table is a good list. -/
import proofs.«144763_j39642548142243_2_alg».proof.Proof.RefRunBase
import proofs.«144763_j39642548142243_2_alg».proof.Proof.RefRunT1

set_option maxRecDepth 5964

noncomputable section

namespace Cert.ReferenceIdeal.Hand

open Cert.ReferenceIdeal Idealize.ShloMosaic Idealize.SL.Sem Idealize.ShloMosaic.StableHlo

variable {F : FTy → Type} [FloatOps F] [Facts]

/-- The window is its stretches in order — @main's own operations, and at each call the callee's operations over
    the call's buffers —, its last statement in tail position: both sides unfold to the same line of steps. -/
theorem w1_chain (c : Dev nD) : main_part1 (F := F) c = (Pipeline.chainK
  [  ]
  (seq w1_s0) : Prog (TpuEff nD τ sig (Elt F) (Pipeline.Sig Λ₀ (Fin 0) fun p => (pcfgs (F := F) p).Adm) .tc) PUnit) := by
  chain_rfl

theorem w1_s0_good : Good (w1_s0 (F := F)) := by hlo_good

end Cert.ReferenceIdeal.Hand

end
-- ==== Proof.RefRunT2.lean ====
import proofs.«144763_j39642548142243_2_alg».proof.ReferenceIdeal

set_option synthInstance.maxSize 4096

noncomputable section

namespace Cert.ReferenceIdeal.Hand

open Cert.ReferenceIdeal Idealize.ShloMosaic Idealize.SL.Sem

variable {F : FTy → Type} [FloatOps F] [Facts]
open Facts₀ Facts

set_option maxHeartbeats 40000000 in
/-- 60 host operations of @main, window 2, in order. -/
abbrev w2_s0 : List (HloOp τ sig (Elt F)) :=
  [ StableHlo.ternary main_v64 main_v66 main_arg9 main_v67 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_52 (constantI S_ 32 0#32),
    StableHlo.nullary main_c_53 (constantI S_ 32 0#32),
    StableHlo.binary main_c_52 main_c_53 main_v68 (cmpi .slt : (⟨S_, .i32⟩ : BufTy).Contents (Elt F) → (⟨S_, .i32⟩ : BufTy).Contents (Elt F) → (⟨S_, .i1⟩ : BufTy).Contents (Elt F)),
    StableHlo.nullary main_c_54 (constantI S_ 32 0#32),
    StableHlo.nullary main_c_55 (constantI S_ 32 3#32),
    StableHlo.binary main_c_54 main_c_55 main_v69 (addi : (⟨S_, .i32⟩ : BufTy).Contents (Elt F) → (⟨S_, .i32⟩ : BufTy).Contents (Elt F) → (⟨S_, .i32⟩ : BufTy).Contents (Elt F)),
    StableHlo.nullary main_c_56 (constantI S_ 32 0#32),
    StableHlo.ternary main_v68 main_v69 main_c_56 main_v70 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_57 (constantI S_ 32 0#32),
    StableHlo.nullary main_c_58 (constantI S_ 32 0#32),
    StableHlo.binary main_c_57 main_c_58 main_v71 (cmpi .slt : (⟨S_, .i32⟩ : BufTy).Contents (Elt F) → (⟨S_, .i32⟩ : BufTy).Contents (Elt F) → (⟨S_, .i1⟩ : BufTy).Contents (Elt F)),
    StableHlo.nullary main_c_59 (constantI S_ 32 0#32),
    StableHlo.nullary main_c_60 (constantI S_ 32 10#32),
    StableHlo.binary main_c_59 main_c_60 main_v72 (addi : (⟨S_, .i32⟩ : BufTy).Contents (Elt F) → (⟨S_, .i32⟩ : BufTy).Contents (Elt F) → (⟨S_, .i32⟩ : BufTy).Contents (Elt F)),
    StableHlo.nullary main_c_61 (constantI S_ 32 0#32),
    StableHlo.ternary main_v71 main_v72 main_c_61 main_v73 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_62 (constantI S_ 32 0#32),
    StableHlo.nullary main_c_63 (constantI S_ 32 0#32),
    StableHlo.binary main_c_62 main_c_63 main_v74 (cmpi .slt : (⟨S_, .i32⟩ : BufTy).Contents (Elt F) → (⟨S_, .i32⟩ : BufTy).Contents (Elt F) → (⟨S_, .i1⟩ : BufTy).Contents (Elt F)),
    StableHlo.nullary main_c_64 (constantI S_ 32 0#32),
    StableHlo.nullary main_c_65 (constantI S_ 32 224#32),
    StableHlo.binary main_c_64 main_c_65 main_v75 (addi : (⟨S_, .i32⟩ : BufTy).Contents (Elt F) → (⟨S_, .i32⟩ : BufTy).Contents (Elt F) → (⟨S_, .i32⟩ : BufTy).Contents (Elt F)),
    StableHlo.nullary main_c_66 (constantI S_ 32 0#32),
    StableHlo.ternary main_v74 main_v75 main_c_66 main_v76 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v67 main_v77 (broadcastInDim S16x1 ![0] bcast_S16_S16x1_0 : (⟨S16, .i32⟩ : BufTy).Contents (Elt F) → (⟨S16x1, .i32⟩ : BufTy).Contents (Elt F)),
    StableHlo.unary main_v70 main_v78 (broadcastInDim S16x1 ![] bcast_S_S16x1 : (⟨S_, .i32⟩ : BufTy).Contents (Elt F) → (⟨S16x1, .i32⟩ : BufTy).Contents (Elt F)),
    StableHlo.unary main_v73 main_v79 (broadcastInDim S16x1 ![] bcast_S_S16x1 : (⟨S_, .i32⟩ : BufTy).Contents (Elt F) → (⟨S16x1, .i32⟩ : BufTy).Contents (Elt F)),
    StableHlo.unary main_v76 main_v80 (broadcastInDim S16x1 ![] bcast_S_S16x1 : (⟨S_, .i32⟩ : BufTy).Contents (Elt F) → (⟨S16x1, .i32⟩ : BufTy).Contents (Elt F)),
    StableHlo.nary ![main_v77, main_v78, main_v79, main_v80] main_v81 (fun u => concatenate S16x4 1 [⟨S16x1, u 0⟩, ⟨S16x1, u 1⟩, ⟨S16x1, u 2⟩, ⟨S16x1, u 3⟩] concatenates_S16x1_S16x1_S16x1_S16x1_S16x4_d1),
    StableHlo.binary main_arg4 main_v81 main_v82 ((fun x i => Host.gather gather_S3x3x10x224_S16x4_S16x1x3x10x224_1234_n_n_n_0123_1_1310224 x i) : (⟨S3x3x10x224, .f32⟩ : BufTy).Contents (Elt F) → (⟨S16x4, .i32⟩ : BufTy).Contents (Elt F) → (⟨S16x1x3x10x224, .f32⟩ : BufTy).Contents (Elt F)),
    StableHlo.reshape main_v82 main_v83 rfl shapeCasts_S16x1x3x10x224_S16x3x10x224,
    StableHlo.nullary main_c_67 (constantI S_ 32 0#32),
    StableHlo.unary main_c_67 main_v84 (broadcastInDim S16 ![] bcast_S_S16 : (⟨S_, .i32⟩ : BufTy).Contents (Elt F) → (⟨S16, .i32⟩ : BufTy).Contents (Elt F)),
    StableHlo.binary main_arg9 main_v84 main_v85 (cmpi .slt : (⟨S16, .i32⟩ : BufTy).Contents (Elt F) → (⟨S16, .i32⟩ : BufTy).Contents (Elt F) → (⟨S16, .i1⟩ : BufTy).Contents (Elt F)),
    StableHlo.nullary main_c_68 (constantI S_ 32 3#32),
    StableHlo.unary main_c_68 main_v86 (broadcastInDim S16 ![] bcast_S_S16 : (⟨S_, .i32⟩ : BufTy).Contents (Elt F) → (⟨S16, .i32⟩ : BufTy).Contents (Elt F)),
    StableHlo.binary main_arg9 main_v86 main_v87 (addi : (⟨S16, .i32⟩ : BufTy).Contents (Elt F) → (⟨S16, .i32⟩ : BufTy).Contents (Elt F) → (⟨S16, .i32⟩ : BufTy).Contents (Elt F)),
    StableHlo.ternary main_v85 main_v87 main_arg9 main_v88 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_69 (constantI S_ 32 0#32),
    StableHlo.nullary main_c_70 (constantI S_ 32 0#32),
    StableHlo.binary main_c_69 main_c_70 main_v89 (cmpi .slt : (⟨S_, .i32⟩ : BufTy).Contents (Elt F) → (⟨S_, .i32⟩ : BufTy).Contents (Elt F) → (⟨S_, .i1⟩ : BufTy).Contents (Elt F)),
    StableHlo.nullary main_c_71 (constantI S_ 32 0#32),
    StableHlo.nullary main_c_72 (constantI S_ 32 3#32),
    StableHlo.binary main_c_71 main_c_72 main_v90 (addi : (⟨S_, .i32⟩ : BufTy).Contents (Elt F) → (⟨S_, .i32⟩ : BufTy).Contents (Elt F) → (⟨S_, .i32⟩ : BufTy).Contents (Elt F)),
    StableHlo.nullary main_c_73 (constantI S_ 32 0#32),
    StableHlo.ternary main_v89 main_v90 main_c_73 main_v91 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_74 (constantI S_ 32 0#32),
    StableHlo.nullary main_c_75 (constantI S_ 32 0#32),
    StableHlo.binary main_c_74 main_c_75 main_v92 (cmpi .slt : (⟨S_, .i32⟩ : BufTy).Contents (Elt F) → (⟨S_, .i32⟩ : BufTy).Contents (Elt F) → (⟨S_, .i1⟩ : BufTy).Contents (Elt F)),
    StableHlo.nullary main_c_76 (constantI S_ 32 0#32),
    StableHlo.nullary main_c_77 (constantI S_ 32 164#32),
    StableHlo.binary main_c_76 main_c_77 main_v93 (addi : (⟨S_, .i32⟩ : BufTy).Contents (Elt F) → (⟨S_, .i32⟩ : BufTy).Contents (Elt F) → (⟨S_, .i32⟩ : BufTy).Contents (Elt F)),
    StableHlo.nullary main_c_78 (constantI S_ 32 0#32),
    StableHlo.ternary main_v92 main_v93 main_c_78 main_v94 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_79 (constantI S_ 32 0#32),
    StableHlo.nullary main_c_80 (constantI S_ 32 0#32),
    StableHlo.binary main_c_79 main_c_80 main_v95 (cmpi .slt : (⟨S_, .i32⟩ : BufTy).Contents (Elt F) → (⟨S_, .i32⟩ : BufTy).Contents (Elt F) → (⟨S_, .i1⟩ : BufTy).Contents (Elt F)),
    StableHlo.nullary main_c_81 (constantI S_ 32 0#32),
    StableHlo.nullary main_c_82 (constantI S_ 32 1#32) ]

end Cert.ReferenceIdeal.Hand

end
-- ==== Proof.RefRunW2.lean ====
/- The run of the reference's @main, part 2 of 3, window 2 (statements 121 … 180): the window is the chain of its
   tables' sequences, and each table is a good list. -/
import proofs.«144763_j39642548142243_2_alg».proof.Proof.RefRunBase
import proofs.«144763_j39642548142243_2_alg».proof.Proof.RefRunT2

set_option maxRecDepth 5964

noncomputable section

namespace Cert.ReferenceIdeal.Hand

open Cert.ReferenceIdeal Idealize.ShloMosaic Idealize.SL.Sem Idealize.ShloMosaic.StableHlo

variable {F : FTy → Type} [FloatOps F] [Facts]

/-- The window is its stretches in order — @main's own operations, and at each call the callee's operations over
    the call's buffers —, its last statement in tail position: both sides unfold to the same line of steps. -/
theorem w2_chain (c : Dev nD) : main_part2 (F := F) c = (Pipeline.chainK
  [  ]
  (seq w2_s0) : Prog (TpuEff nD τ sig (Elt F) (Pipeline.Sig Λ₀ (Fin 0) fun p => (pcfgs (F := F) p).Adm) .tc) PUnit) := by
  chain_rfl

theorem w2_s0_good : Good (w2_s0 (F := F)) := by hlo_good

end Cert.ReferenceIdeal.Hand

end
-- ==== Proof.RefRunT3.lean ====
import proofs.«144763_j39642548142243_2_alg».proof.ReferenceIdeal

set_option synthInstance.maxSize 4096

noncomputable section

namespace Cert.ReferenceIdeal.Hand

open Cert.ReferenceIdeal Idealize.ShloMosaic Idealize.SL.Sem

variable {F : FTy → Type} [FloatOps F] [Facts]
open Facts₀ Facts

set_option maxHeartbeats 40000000 in
/-- 60 host operations of @main, window 3, in order. -/
abbrev w3_s0 : List (HloOp τ sig (Elt F)) :=
  [ StableHlo.binary main_c_81 main_c_82 main_v96 (addi : (⟨S_, .i32⟩ : BufTy).Contents (Elt F) → (⟨S_, .i32⟩ : BufTy).Contents (Elt F) → (⟨S_, .i32⟩ : BufTy).Contents (Elt F)),
    StableHlo.nullary main_c_83 (constantI S_ 32 0#32),
    StableHlo.ternary main_v95 main_v96 main_c_83 main_v97 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v88 main_v98 (broadcastInDim S16x1 ![0] bcast_S16_S16x1_0 : (⟨S16, .i32⟩ : BufTy).Contents (Elt F) → (⟨S16x1, .i32⟩ : BufTy).Contents (Elt F)),
    StableHlo.unary main_v91 main_v99 (broadcastInDim S16x1 ![] bcast_S_S16x1 : (⟨S_, .i32⟩ : BufTy).Contents (Elt F) → (⟨S16x1, .i32⟩ : BufTy).Contents (Elt F)),
    StableHlo.unary main_v94 main_v100 (broadcastInDim S16x1 ![] bcast_S_S16x1 : (⟨S_, .i32⟩ : BufTy).Contents (Elt F) → (⟨S16x1, .i32⟩ : BufTy).Contents (Elt F)),
    StableHlo.unary main_v97 main_v101 (broadcastInDim S16x1 ![] bcast_S_S16x1 : (⟨S_, .i32⟩ : BufTy).Contents (Elt F) → (⟨S16x1, .i32⟩ : BufTy).Contents (Elt F)),
    StableHlo.nary ![main_v98, main_v99, main_v100, main_v101] main_v102 (fun u => concatenate S16x4 1 [⟨S16x1, u 0⟩, ⟨S16x1, u 1⟩, ⟨S16x1, u 2⟩, ⟨S16x1, u 3⟩] concatenates_S16x1_S16x1_S16x1_S16x1_S16x4_d1),
    StableHlo.binary main_arg5 main_v102 main_v103 ((fun x i => Host.gather gather_S3x3x164x1_S16x4_S16x1x3x164x1_1234_n_n_n_0123_1_131641 x i) : (⟨S3x3x164x1, .f32⟩ : BufTy).Contents (Elt F) → (⟨S16x4, .i32⟩ : BufTy).Contents (Elt F) → (⟨S16x1x3x164x1, .f32⟩ : BufTy).Contents (Elt F)),
    StableHlo.reshape main_v103 main_v104 rfl shapeCasts_S16x1x3x164x1_S16x3x164,
    StableHlo.nullary main_c_84 (constantI S_ 32 0#32),
    StableHlo.unary main_c_84 main_v105 (broadcastInDim S16 ![] bcast_S_S16 : (⟨S_, .i32⟩ : BufTy).Contents (Elt F) → (⟨S16, .i32⟩ : BufTy).Contents (Elt F)),
    StableHlo.binary main_arg9 main_v105 main_v106 (cmpi .slt : (⟨S16, .i32⟩ : BufTy).Contents (Elt F) → (⟨S16, .i32⟩ : BufTy).Contents (Elt F) → (⟨S16, .i1⟩ : BufTy).Contents (Elt F)),
    StableHlo.nullary main_c_85 (constantI S_ 32 3#32),
    StableHlo.unary main_c_85 main_v107 (broadcastInDim S16 ![] bcast_S_S16 : (⟨S_, .i32⟩ : BufTy).Contents (Elt F) → (⟨S16, .i32⟩ : BufTy).Contents (Elt F)),
    StableHlo.binary main_arg9 main_v107 main_v108 (addi : (⟨S16, .i32⟩ : BufTy).Contents (Elt F) → (⟨S16, .i32⟩ : BufTy).Contents (Elt F) → (⟨S16, .i32⟩ : BufTy).Contents (Elt F)),
    StableHlo.ternary main_v106 main_v108 main_arg9 main_v109 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_86 (constantI S_ 32 0#32),
    StableHlo.nullary main_c_87 (constantI S_ 32 0#32),
    StableHlo.binary main_c_86 main_c_87 main_v110 (cmpi .slt : (⟨S_, .i32⟩ : BufTy).Contents (Elt F) → (⟨S_, .i32⟩ : BufTy).Contents (Elt F) → (⟨S_, .i1⟩ : BufTy).Contents (Elt F)),
    StableHlo.nullary main_c_88 (constantI S_ 32 0#32),
    StableHlo.nullary main_c_89 (constantI S_ 32 3#32),
    StableHlo.binary main_c_88 main_c_89 main_v111 (addi : (⟨S_, .i32⟩ : BufTy).Contents (Elt F) → (⟨S_, .i32⟩ : BufTy).Contents (Elt F) → (⟨S_, .i32⟩ : BufTy).Contents (Elt F)),
    StableHlo.nullary main_c_90 (constantI S_ 32 0#32),
    StableHlo.ternary main_v110 main_v111 main_c_90 main_v112 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_91 (constantI S_ 32 0#32),
    StableHlo.nullary main_c_92 (constantI S_ 32 0#32),
    StableHlo.binary main_c_91 main_c_92 main_v113 (cmpi .slt : (⟨S_, .i32⟩ : BufTy).Contents (Elt F) → (⟨S_, .i32⟩ : BufTy).Contents (Elt F) → (⟨S_, .i1⟩ : BufTy).Contents (Elt F)),
    StableHlo.nullary main_c_93 (constantI S_ 32 0#32),
    StableHlo.nullary main_c_94 (constantI S_ 32 164#32),
    StableHlo.binary main_c_93 main_c_94 main_v114 (addi : (⟨S_, .i32⟩ : BufTy).Contents (Elt F) → (⟨S_, .i32⟩ : BufTy).Contents (Elt F) → (⟨S_, .i32⟩ : BufTy).Contents (Elt F)),
    StableHlo.nullary main_c_95 (constantI S_ 32 0#32),
    StableHlo.ternary main_v113 main_v114 main_c_95 main_v115 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_96 (constantI S_ 32 0#32),
    StableHlo.nullary main_c_97 (constantI S_ 32 0#32),
    StableHlo.binary main_c_96 main_c_97 main_v116 (cmpi .slt : (⟨S_, .i32⟩ : BufTy).Contents (Elt F) → (⟨S_, .i32⟩ : BufTy).Contents (Elt F) → (⟨S_, .i1⟩ : BufTy).Contents (Elt F)),
    StableHlo.nullary main_c_98 (constantI S_ 32 0#32),
    StableHlo.nullary main_c_99 (constantI S_ 32 10#32),
    StableHlo.binary main_c_98 main_c_99 main_v117 (addi : (⟨S_, .i32⟩ : BufTy).Contents (Elt F) → (⟨S_, .i32⟩ : BufTy).Contents (Elt F) → (⟨S_, .i32⟩ : BufTy).Contents (Elt F)),
    StableHlo.nullary main_c_100 (constantI S_ 32 0#32),
    StableHlo.ternary main_v116 main_v117 main_c_100 main_v118 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v109 main_v119 (broadcastInDim S16x1 ![0] bcast_S16_S16x1_0 : (⟨S16, .i32⟩ : BufTy).Contents (Elt F) → (⟨S16x1, .i32⟩ : BufTy).Contents (Elt F)),
    StableHlo.unary main_v112 main_v120 (broadcastInDim S16x1 ![] bcast_S_S16x1 : (⟨S_, .i32⟩ : BufTy).Contents (Elt F) → (⟨S16x1, .i32⟩ : BufTy).Contents (Elt F)),
    StableHlo.unary main_v115 main_v121 (broadcastInDim S16x1 ![] bcast_S_S16x1 : (⟨S_, .i32⟩ : BufTy).Contents (Elt F) → (⟨S16x1, .i32⟩ : BufTy).Contents (Elt F)),
    StableHlo.unary main_v118 main_v122 (broadcastInDim S16x1 ![] bcast_S_S16x1 : (⟨S_, .i32⟩ : BufTy).Contents (Elt F) → (⟨S16x1, .i32⟩ : BufTy).Contents (Elt F)),
    StableHlo.nary ![main_v119, main_v120, main_v121, main_v122] main_v123 (fun u => concatenate S16x4 1 [⟨S16x1, u 0⟩, ⟨S16x1, u 1⟩, ⟨S16x1, u 2⟩, ⟨S16x1, u 3⟩] concatenates_S16x1_S16x1_S16x1_S16x1_S16x4_d1),
    StableHlo.binary main_arg6 main_v123 main_v124 ((fun x i => Host.gather gather_S3x3x164x10_S16x4_S16x1x3x164x10_1234_n_n_n_0123_1_1316410 x i) : (⟨S3x3x164x10, .f32⟩ : BufTy).Contents (Elt F) → (⟨S16x4, .i32⟩ : BufTy).Contents (Elt F) → (⟨S16x1x3x164x10, .f32⟩ : BufTy).Contents (Elt F)),
    StableHlo.reshape main_v124 main_v125 rfl shapeCasts_S16x1x3x164x10_S16x3x164x10,
    StableHlo.nullary main_c_101 (constantI S_ 32 0#32),
    StableHlo.unary main_c_101 main_v126 (broadcastInDim S16 ![] bcast_S_S16 : (⟨S_, .i32⟩ : BufTy).Contents (Elt F) → (⟨S16, .i32⟩ : BufTy).Contents (Elt F)),
    StableHlo.binary main_arg9 main_v126 main_v127 (cmpi .slt : (⟨S16, .i32⟩ : BufTy).Contents (Elt F) → (⟨S16, .i32⟩ : BufTy).Contents (Elt F) → (⟨S16, .i1⟩ : BufTy).Contents (Elt F)),
    StableHlo.nullary main_c_102 (constantI S_ 32 3#32),
    StableHlo.unary main_c_102 main_v128 (broadcastInDim S16 ![] bcast_S_S16 : (⟨S_, .i32⟩ : BufTy).Contents (Elt F) → (⟨S16, .i32⟩ : BufTy).Contents (Elt F)),
    StableHlo.binary main_arg9 main_v128 main_v129 (addi : (⟨S16, .i32⟩ : BufTy).Contents (Elt F) → (⟨S16, .i32⟩ : BufTy).Contents (Elt F) → (⟨S16, .i32⟩ : BufTy).Contents (Elt F)),
    StableHlo.ternary main_v127 main_v129 main_arg9 main_v130 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_103 (constantI S_ 32 0#32),
    StableHlo.nullary main_c_104 (constantI S_ 32 0#32),
    StableHlo.binary main_c_103 main_c_104 main_v131 (cmpi .slt : (⟨S_, .i32⟩ : BufTy).Contents (Elt F) → (⟨S_, .i32⟩ : BufTy).Contents (Elt F) → (⟨S_, .i1⟩ : BufTy).Contents (Elt F)),
    StableHlo.nullary main_c_105 (constantI S_ 32 0#32),
    StableHlo.nullary main_c_106 (constantI S_ 32 3#32) ]

end Cert.ReferenceIdeal.Hand

end
-- ==== Proof.RefRunW3.lean ====
/- The run of the reference's @main, part 2 of 3, window 3 (statements 181 … 240): the window is the chain of its
   tables' sequences, and each table is a good list. -/
import proofs.«144763_j39642548142243_2_alg».proof.Proof.RefRunBase
import proofs.«144763_j39642548142243_2_alg».proof.Proof.RefRunT3

set_option maxRecDepth 5964

noncomputable section

namespace Cert.ReferenceIdeal.Hand

open Cert.ReferenceIdeal Idealize.ShloMosaic Idealize.SL.Sem Idealize.ShloMosaic.StableHlo

variable {F : FTy → Type} [FloatOps F] [Facts]

/-- The window is its stretches in order — @main's own operations, and at each call the callee's operations over
    the call's buffers —, its last statement in tail position: both sides unfold to the same line of steps. -/
theorem w3_chain (c : Dev nD) : main_part3 (F := F) c = (Pipeline.chainK
  [  ]
  (seq w3_s0) : Prog (TpuEff nD τ sig (Elt F) (Pipeline.Sig Λ₀ (Fin 0) fun p => (pcfgs (F := F) p).Adm) .tc) PUnit) := by
  chain_rfl

theorem w3_s0_good : Good (w3_s0 (F := F)) := by hlo_good

end Cert.ReferenceIdeal.Hand

end
-- ==== Proof.RefRunT4.lean ====
import proofs.«144763_j39642548142243_2_alg».proof.ReferenceIdeal

set_option synthInstance.maxSize 4096

noncomputable section

namespace Cert.ReferenceIdeal.Hand

open Cert.ReferenceIdeal Idealize.ShloMosaic Idealize.SL.Sem

variable {F : FTy → Type} [FloatOps F] [Facts]
open Facts₀ Facts

set_option maxHeartbeats 40000000 in
/-- 60 host operations of @main, window 4, in order. -/
abbrev w4_s0 : List (HloOp τ sig (Elt F)) :=
  [ StableHlo.binary main_c_105 main_c_106 main_v132 (addi : (⟨S_, .i32⟩ : BufTy).Contents (Elt F) → (⟨S_, .i32⟩ : BufTy).Contents (Elt F) → (⟨S_, .i32⟩ : BufTy).Contents (Elt F)),
    StableHlo.nullary main_c_107 (constantI S_ 32 0#32),
    StableHlo.ternary main_v131 main_v132 main_c_107 main_v133 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_108 (constantI S_ 32 0#32),
    StableHlo.nullary main_c_109 (constantI S_ 32 0#32),
    StableHlo.binary main_c_108 main_c_109 main_v134 (cmpi .slt : (⟨S_, .i32⟩ : BufTy).Contents (Elt F) → (⟨S_, .i32⟩ : BufTy).Contents (Elt F) → (⟨S_, .i1⟩ : BufTy).Contents (Elt F)),
    StableHlo.nullary main_c_110 (constantI S_ 32 0#32),
    StableHlo.nullary main_c_111 (constantI S_ 32 164#32),
    StableHlo.binary main_c_110 main_c_111 main_v135 (addi : (⟨S_, .i32⟩ : BufTy).Contents (Elt F) → (⟨S_, .i32⟩ : BufTy).Contents (Elt F) → (⟨S_, .i32⟩ : BufTy).Contents (Elt F)),
    StableHlo.nullary main_c_112 (constantI S_ 32 0#32),
    StableHlo.ternary main_v134 main_v135 main_c_112 main_v136 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_113 (constantI S_ 32 0#32),
    StableHlo.nullary main_c_114 (constantI S_ 32 0#32),
    StableHlo.binary main_c_113 main_c_114 main_v137 (cmpi .slt : (⟨S_, .i32⟩ : BufTy).Contents (Elt F) → (⟨S_, .i32⟩ : BufTy).Contents (Elt F) → (⟨S_, .i1⟩ : BufTy).Contents (Elt F)),
    StableHlo.nullary main_c_115 (constantI S_ 32 0#32),
    StableHlo.nullary main_c_116 (constantI S_ 32 1#32),
    StableHlo.binary main_c_115 main_c_116 main_v138 (addi : (⟨S_, .i32⟩ : BufTy).Contents (Elt F) → (⟨S_, .i32⟩ : BufTy).Contents (Elt F) → (⟨S_, .i32⟩ : BufTy).Contents (Elt F)),
    StableHlo.nullary main_c_117 (constantI S_ 32 0#32),
    StableHlo.ternary main_v137 main_v138 main_c_117 main_v139 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v130 main_v140 (broadcastInDim S16x1 ![0] bcast_S16_S16x1_0 : (⟨S16, .i32⟩ : BufTy).Contents (Elt F) → (⟨S16x1, .i32⟩ : BufTy).Contents (Elt F)),
    StableHlo.unary main_v133 main_v141 (broadcastInDim S16x1 ![] bcast_S_S16x1 : (⟨S_, .i32⟩ : BufTy).Contents (Elt F) → (⟨S16x1, .i32⟩ : BufTy).Contents (Elt F)),
    StableHlo.unary main_v136 main_v142 (broadcastInDim S16x1 ![] bcast_S_S16x1 : (⟨S_, .i32⟩ : BufTy).Contents (Elt F) → (⟨S16x1, .i32⟩ : BufTy).Contents (Elt F)),
    StableHlo.unary main_v139 main_v143 (broadcastInDim S16x1 ![] bcast_S_S16x1 : (⟨S_, .i32⟩ : BufTy).Contents (Elt F) → (⟨S16x1, .i32⟩ : BufTy).Contents (Elt F)),
    StableHlo.nary ![main_v140, main_v141, main_v142, main_v143] main_v144 (fun u => concatenate S16x4 1 [⟨S16x1, u 0⟩, ⟨S16x1, u 1⟩, ⟨S16x1, u 2⟩, ⟨S16x1, u 3⟩] concatenates_S16x1_S16x1_S16x1_S16x1_S16x4_d1),
    StableHlo.binary main_arg7 main_v144 main_v145 ((fun x i => Host.gather gather_S3x3x164x1_S16x4_S16x1x3x164x1_1234_n_n_n_0123_1_131641 x i) : (⟨S3x3x164x1, .f32⟩ : BufTy).Contents (Elt F) → (⟨S16x4, .i32⟩ : BufTy).Contents (Elt F) → (⟨S16x1x3x164x1, .f32⟩ : BufTy).Contents (Elt F)),
    StableHlo.reshape main_v145 main_v146 rfl shapeCasts_S16x1x3x164x1_S16x3x164,
    StableHlo.nullary main_c_118 (constantI S_ 32 0#32),
    StableHlo.unary main_c_118 main_v147 (broadcastInDim S16 ![] bcast_S_S16 : (⟨S_, .i32⟩ : BufTy).Contents (Elt F) → (⟨S16, .i32⟩ : BufTy).Contents (Elt F)),
    StableHlo.binary main_arg9 main_v147 main_v148 (cmpi .slt : (⟨S16, .i32⟩ : BufTy).Contents (Elt F) → (⟨S16, .i32⟩ : BufTy).Contents (Elt F) → (⟨S16, .i1⟩ : BufTy).Contents (Elt F)),
    StableHlo.nullary main_c_119 (constantI S_ 32 3#32),
    StableHlo.unary main_c_119 main_v149 (broadcastInDim S16 ![] bcast_S_S16 : (⟨S_, .i32⟩ : BufTy).Contents (Elt F) → (⟨S16, .i32⟩ : BufTy).Contents (Elt F)),
    StableHlo.binary main_arg9 main_v149 main_v150 (addi : (⟨S16, .i32⟩ : BufTy).Contents (Elt F) → (⟨S16, .i32⟩ : BufTy).Contents (Elt F) → (⟨S16, .i32⟩ : BufTy).Contents (Elt F)),
    StableHlo.ternary main_v148 main_v150 main_arg9 main_v151 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_120 (constantI S_ 32 0#32),
    StableHlo.nullary main_c_121 (constantI S_ 32 0#32),
    StableHlo.binary main_c_120 main_c_121 main_v152 (cmpi .slt : (⟨S_, .i32⟩ : BufTy).Contents (Elt F) → (⟨S_, .i32⟩ : BufTy).Contents (Elt F) → (⟨S_, .i1⟩ : BufTy).Contents (Elt F)),
    StableHlo.nullary main_c_122 (constantI S_ 32 0#32),
    StableHlo.nullary main_c_123 (constantI S_ 32 3#32),
    StableHlo.binary main_c_122 main_c_123 main_v153 (addi : (⟨S_, .i32⟩ : BufTy).Contents (Elt F) → (⟨S_, .i32⟩ : BufTy).Contents (Elt F) → (⟨S_, .i32⟩ : BufTy).Contents (Elt F)),
    StableHlo.nullary main_c_124 (constantI S_ 32 0#32),
    StableHlo.ternary main_v152 main_v153 main_c_124 main_v154 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_125 (constantI S_ 32 0#32),
    StableHlo.nullary main_c_126 (constantI S_ 32 0#32),
    StableHlo.binary main_c_125 main_c_126 main_v155 (cmpi .slt : (⟨S_, .i32⟩ : BufTy).Contents (Elt F) → (⟨S_, .i32⟩ : BufTy).Contents (Elt F) → (⟨S_, .i1⟩ : BufTy).Contents (Elt F)),
    StableHlo.nullary main_c_127 (constantI S_ 32 0#32),
    StableHlo.nullary main_c_128 (constantI S_ 32 164#32),
    StableHlo.binary main_c_127 main_c_128 main_v156 (addi : (⟨S_, .i32⟩ : BufTy).Contents (Elt F) → (⟨S_, .i32⟩ : BufTy).Contents (Elt F) → (⟨S_, .i32⟩ : BufTy).Contents (Elt F)),
    StableHlo.nullary main_c_129 (constantI S_ 32 0#32),
    StableHlo.ternary main_v155 main_v156 main_c_129 main_v157 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_130 (constantI S_ 32 0#32),
    StableHlo.nullary main_c_131 (constantI S_ 32 0#32),
    StableHlo.binary main_c_130 main_c_131 main_v158 (cmpi .slt : (⟨S_, .i32⟩ : BufTy).Contents (Elt F) → (⟨S_, .i32⟩ : BufTy).Contents (Elt F) → (⟨S_, .i1⟩ : BufTy).Contents (Elt F)),
    StableHlo.nullary main_c_132 (constantI S_ 32 0#32),
    StableHlo.nullary main_c_133 (constantI S_ 32 10#32),
    StableHlo.binary main_c_132 main_c_133 main_v159 (addi : (⟨S_, .i32⟩ : BufTy).Contents (Elt F) → (⟨S_, .i32⟩ : BufTy).Contents (Elt F) → (⟨S_, .i32⟩ : BufTy).Contents (Elt F)),
    StableHlo.nullary main_c_134 (constantI S_ 32 0#32),
    StableHlo.ternary main_v158 main_v159 main_c_134 main_v160 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v151 main_v161 (broadcastInDim S16x1 ![0] bcast_S16_S16x1_0 : (⟨S16, .i32⟩ : BufTy).Contents (Elt F) → (⟨S16x1, .i32⟩ : BufTy).Contents (Elt F)),
    StableHlo.unary main_v154 main_v162 (broadcastInDim S16x1 ![] bcast_S_S16x1 : (⟨S_, .i32⟩ : BufTy).Contents (Elt F) → (⟨S16x1, .i32⟩ : BufTy).Contents (Elt F)),
    StableHlo.unary main_v157 main_v163 (broadcastInDim S16x1 ![] bcast_S_S16x1 : (⟨S_, .i32⟩ : BufTy).Contents (Elt F) → (⟨S16x1, .i32⟩ : BufTy).Contents (Elt F)) ]

end Cert.ReferenceIdeal.Hand

end
-- ==== Proof.RefRunW4.lean ====
/- The run of the reference's @main, part 2 of 3, window 4 (statements 241 … 300): the window is the chain of its
   tables' sequences, and each table is a good list. -/
import proofs.«144763_j39642548142243_2_alg».proof.Proof.RefRunBase
import proofs.«144763_j39642548142243_2_alg».proof.Proof.RefRunT4

set_option maxRecDepth 5964

noncomputable section

namespace Cert.ReferenceIdeal.Hand

open Cert.ReferenceIdeal Idealize.ShloMosaic Idealize.SL.Sem Idealize.ShloMosaic.StableHlo

variable {F : FTy → Type} [FloatOps F] [Facts]

/-- The window is its stretches in order — @main's own operations, and at each call the callee's operations over
    the call's buffers —, its last statement in tail position: both sides unfold to the same line of steps. -/
theorem w4_chain (c : Dev nD) : main_part4 (F := F) c = (Pipeline.chainK
  [  ]
  (seq w4_s0) : Prog (TpuEff nD τ sig (Elt F) (Pipeline.Sig Λ₀ (Fin 0) fun p => (pcfgs (F := F) p).Adm) .tc) PUnit) := by
  chain_rfl

theorem w4_s0_good : Good (w4_s0 (F := F)) := by hlo_good

end Cert.ReferenceIdeal.Hand

end
-- ==== Proof.RefRunT5.lean ====
import proofs.«144763_j39642548142243_2_alg».proof.ReferenceIdeal

set_option synthInstance.maxSize 4096

noncomputable section

namespace Cert.ReferenceIdeal.Hand

open Cert.ReferenceIdeal Idealize.ShloMosaic Idealize.SL.Sem

variable {F : FTy → Type} [FloatOps F] [Facts]
open Facts₀ Facts

set_option maxHeartbeats 40000000 in
/-- 11 host operations of @main, window 5, in order. -/
abbrev w5_s0 : List (HloOp τ sig (Elt F)) :=
  [ StableHlo.unary main_v160 main_v164 (broadcastInDim S16x1 ![] bcast_S_S16x1 : (⟨S_, .i32⟩ : BufTy).Contents (Elt F) → (⟨S16x1, .i32⟩ : BufTy).Contents (Elt F)),
    StableHlo.nary ![main_v161, main_v162, main_v163, main_v164] main_v165 (fun u => concatenate S16x4 1 [⟨S16x1, u 0⟩, ⟨S16x1, u 1⟩, ⟨S16x1, u 2⟩, ⟨S16x1, u 3⟩] concatenates_S16x1_S16x1_S16x1_S16x1_S16x4_d1),
    StableHlo.binary main_arg8 main_v165 main_v166 ((fun x i => Host.gather gather_S3x3x164x10_S16x4_S16x1x3x164x10_1234_n_n_n_0123_1_1316410 x i) : (⟨S3x3x164x10, .f32⟩ : BufTy).Contents (Elt F) → (⟨S16x4, .i32⟩ : BufTy).Contents (Elt F) → (⟨S16x1x3x164x10, .f32⟩ : BufTy).Contents (Elt F)),
    StableHlo.reshape main_v166 main_v167 rfl shapeCasts_S16x1x3x164x10_S16x3x164x10,
    StableHlo.nullary main_c_135 (constantI S_ 32 60#32),
    StableHlo.unary main_c_135 main_v168 (broadcastInDim S16 ![] bcast_S_S16 : (⟨S_, .i32⟩ : BufTy).Contents (Elt F) → (⟨S16, .i32⟩ : BufTy).Contents (Elt F)),
    StableHlo.binary main_v168 main_arg10 main_v169 (subi : (⟨S16, .i32⟩ : BufTy).Contents (Elt F) → (⟨S16, .i32⟩ : BufTy).Contents (Elt F) → (⟨S16, .i32⟩ : BufTy).Contents (Elt F)),
    StableHlo.nullary main_c_136 (constantI S_ 32 60#32),
    StableHlo.unary main_c_136 main_v170 (broadcastInDim S16 ![] bcast_S_S16 : (⟨S_, .i32⟩ : BufTy).Contents (Elt F) → (⟨S16, .i32⟩ : BufTy).Contents (Elt F)),
    StableHlo.binary main_v170 main_arg11 main_v171 (subi : (⟨S16, .i32⟩ : BufTy).Contents (Elt F) → (⟨S16, .i32⟩ : BufTy).Contents (Elt F) → (⟨S16, .i32⟩ : BufTy).Contents (Elt F)),
    StableHlo.nullary main_c_137 (constantI S_ 32 10#32) ]

set_option maxHeartbeats 40000000 in
/-- 17 host operations of fn_floor_divide (main_call0), window 5, in order. -/
abbrev w5_s1 : List (HloOp τ sig (Elt F)) :=
  [ StableHlo.TRef.unary (.of main_c_137 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S16, .i32⟩) (broadcastInDim S16 ![] bcast_S_S16),
    StableHlo.TRef.binary (.of main_v169 : StableHlo.TRef sig ⟨S16, .i32⟩) (.of main_call0_v1 : StableHlo.TRef sig ⟨S16, .i32⟩) (.of main_call0_v2 : StableHlo.TRef sig ⟨S16, .i32⟩) Host.divsi,
    StableHlo.TRef.unary (.of main_v169 : StableHlo.TRef sig ⟨S16, .i32⟩) (.of main_call0_v3 : StableHlo.TRef sig ⟨S16, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S16, .i32⟩) (broadcastInDim S16 ![] bcast_S_S16),
    StableHlo.TRef.binary (.of main_call0_v3 : StableHlo.TRef sig ⟨S16, .i32⟩) (.of main_call0_v5 : StableHlo.TRef sig ⟨S16, .i32⟩) (.of main_call0_v6 : StableHlo.TRef sig ⟨S16, .i1⟩) (cmpi .ne),
    StableHlo.TRef.unary (.of main_call0_v0 : StableHlo.TRef sig ⟨S_, .i32⟩) (.of main_call0_v7 : StableHlo.TRef sig ⟨S16, .i32⟩) (broadcastInDim S16 ![] bcast_S_S16),
    StableHlo.TRef.binary (.of main_v169 : StableHlo.TRef sig ⟨S16, .i32⟩) (.of main_call0_v7 : StableHlo.TRef sig ⟨S16, .i32⟩) (.of main_call0_v8 : StableHlo.TRef sig ⟨S16, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S16, .i32⟩) (broadcastInDim S16 ![] bcast_S_S16),
    StableHlo.TRef.binary (.of main_call0_v8 : StableHlo.TRef sig ⟨S16, .i32⟩) (.of main_call0_v9 : StableHlo.TRef sig ⟨S16, .i32⟩) (.of main_call0_v10 : StableHlo.TRef sig ⟨S16, .i1⟩) (cmpi .ne),
    StableHlo.TRef.binary (.of main_call0_v6 : StableHlo.TRef sig ⟨S16, .i1⟩) (.of main_call0_v10 : StableHlo.TRef sig ⟨S16, .i1⟩) (.of main_call0_v11 : StableHlo.TRef sig ⟨S16, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S16, .i32⟩) (broadcastInDim S16 ![] bcast_S_S16),
    StableHlo.TRef.binary (.of main_call0_v2 : StableHlo.TRef sig ⟨S16, .i32⟩) (.of main_call0_v12 : StableHlo.TRef sig ⟨S16, .i32⟩) (.of main_call0_v13 : StableHlo.TRef sig ⟨S16, .i32⟩) subi,
    StableHlo.TRef.ternary (.of main_call0_v11 : StableHlo.TRef sig ⟨S16, .i1⟩) (.of main_call0_v13 : StableHlo.TRef sig ⟨S16, .i32⟩) (.of main_call0_v2 : StableHlo.TRef sig ⟨S16, .i32⟩) (.of main_v172 : StableHlo.TRef sig ⟨S16, .i32⟩) select ]

set_option maxHeartbeats 40000000 in
/-- 1 host operation of @main, window 5, in order. -/
abbrev w5_s2 : List (HloOp τ sig (Elt F)) :=
  [ StableHlo.nullary main_c_138 (constantI S_ 32 10#32) ]

set_option maxHeartbeats 40000000 in
/-- 21 host operations of fn_remainder (main_call1), window 5, in order. -/
abbrev w5_s3 : List (HloOp τ sig (Elt F)) :=
  [ StableHlo.TRef.unary (.of main_c_138 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S16, .i32⟩) (broadcastInDim S16 ![] bcast_S_S16),
    StableHlo.TRef.binary (.of main_v169 : StableHlo.TRef sig ⟨S16, .i32⟩) (.of main_call1_v3 : StableHlo.TRef sig ⟨S16, .i32⟩) (.of main_call1_v4 : StableHlo.TRef sig ⟨S16, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S16, .i32⟩) (broadcastInDim S16 ![] bcast_S_S16),
    StableHlo.TRef.binary (.of main_call1_v4 : StableHlo.TRef sig ⟨S16, .i32⟩) (.of main_call1_v5 : StableHlo.TRef sig ⟨S16, .i32⟩) (.of main_call1_v6 : StableHlo.TRef sig ⟨S16, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S16, .i32⟩) (broadcastInDim S16 ![] bcast_S_S16),
    StableHlo.TRef.binary (.of main_call1_v4 : StableHlo.TRef sig ⟨S16, .i32⟩) (.of main_call1_v7 : StableHlo.TRef sig ⟨S16, .i32⟩) (.of main_call1_v8 : StableHlo.TRef sig ⟨S16, .i1⟩) (cmpi .slt),
    StableHlo.TRef.nullary (.of main_call1_c_3 : StableHlo.TRef sig ⟨S_, .i32⟩) (constantI S_ 32 0#32),
    StableHlo.TRef.binary (.of main_call1_v2 : StableHlo.TRef sig ⟨S_, .i32⟩) (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S16, .i1⟩) (broadcastInDim S16 ![] bcast_S_S16),
    StableHlo.TRef.binary (.of main_call1_v8 : StableHlo.TRef sig ⟨S16, .i1⟩) (.of main_call1_v10 : StableHlo.TRef sig ⟨S16, .i1⟩) (.of main_call1_v11 : StableHlo.TRef sig ⟨S16, .i1⟩) (cmpi .ne),
    StableHlo.TRef.binary (.of main_call1_v11 : StableHlo.TRef sig ⟨S16, .i1⟩) (.of main_call1_v6 : StableHlo.TRef sig ⟨S16, .i1⟩) (.of main_call1_v12 : StableHlo.TRef sig ⟨S16, .i1⟩) andi,
    StableHlo.TRef.unary (.of main_call1_v2 : StableHlo.TRef sig ⟨S_, .i32⟩) (.of main_call1_v13 : StableHlo.TRef sig ⟨S16, .i32⟩) (broadcastInDim S16 ![] bcast_S_S16),
    StableHlo.TRef.binary (.of main_call1_v4 : StableHlo.TRef sig ⟨S16, .i32⟩) (.of main_call1_v13 : StableHlo.TRef sig ⟨S16, .i32⟩) (.of main_call1_v14 : StableHlo.TRef sig ⟨S16, .i32⟩) addi,
    StableHlo.TRef.ternary (.of main_call1_v12 : StableHlo.TRef sig ⟨S16, .i1⟩) (.of main_call1_v14 : StableHlo.TRef sig ⟨S16, .i32⟩) (.of main_call1_v4 : StableHlo.TRef sig ⟨S16, .i32⟩) (.of main_v173 : StableHlo.TRef sig ⟨S16, .i32⟩) select ]

set_option maxHeartbeats 40000000 in
/-- 1 host operation of @main, window 5, in order. -/
abbrev w5_s4 : List (HloOp τ sig (Elt F)) :=
  [ StableHlo.nullary main_c_139 (constantI S_ 32 10#32) ]

set_option maxHeartbeats 40000000 in
/-- 17 host operations of fn_floor_divide (main_call2), window 5, in order. -/
abbrev w5_s5 : List (HloOp τ sig (Elt F)) :=
  [ StableHlo.TRef.unary (.of main_c_139 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16, .i32⟩) (broadcastInDim S16 ![] bcast_S_S16),
    StableHlo.TRef.binary (.of main_v171 : StableHlo.TRef sig ⟨S16, .i32⟩) (.of main_call2_v1 : StableHlo.TRef sig ⟨S16, .i32⟩) (.of main_call2_v2 : StableHlo.TRef sig ⟨S16, .i32⟩) Host.divsi,
    StableHlo.TRef.unary (.of main_v171 : StableHlo.TRef sig ⟨S16, .i32⟩) (.of main_call2_v3 : StableHlo.TRef sig ⟨S16, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S16, .i32⟩) (broadcastInDim S16 ![] bcast_S_S16),
    StableHlo.TRef.binary (.of main_call2_v3 : StableHlo.TRef sig ⟨S16, .i32⟩) (.of main_call2_v5 : StableHlo.TRef sig ⟨S16, .i32⟩) (.of main_call2_v6 : StableHlo.TRef sig ⟨S16, .i1⟩) (cmpi .ne),
    StableHlo.TRef.unary (.of main_call2_v0 : StableHlo.TRef sig ⟨S_, .i32⟩) (.of main_call2_v7 : StableHlo.TRef sig ⟨S16, .i32⟩) (broadcastInDim S16 ![] bcast_S_S16),
    StableHlo.TRef.binary (.of main_v171 : StableHlo.TRef sig ⟨S16, .i32⟩) (.of main_call2_v7 : StableHlo.TRef sig ⟨S16, .i32⟩) (.of main_call2_v8 : StableHlo.TRef sig ⟨S16, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S16, .i32⟩) (broadcastInDim S16 ![] bcast_S_S16),
    StableHlo.TRef.binary (.of main_call2_v8 : StableHlo.TRef sig ⟨S16, .i32⟩) (.of main_call2_v9 : StableHlo.TRef sig ⟨S16, .i32⟩) (.of main_call2_v10 : StableHlo.TRef sig ⟨S16, .i1⟩) (cmpi .ne),
    StableHlo.TRef.binary (.of main_call2_v6 : StableHlo.TRef sig ⟨S16, .i1⟩) (.of main_call2_v10 : StableHlo.TRef sig ⟨S16, .i1⟩) (.of main_call2_v11 : StableHlo.TRef sig ⟨S16, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S16, .i32⟩) (broadcastInDim S16 ![] bcast_S_S16),
    StableHlo.TRef.binary (.of main_call2_v2 : StableHlo.TRef sig ⟨S16, .i32⟩) (.of main_call2_v12 : StableHlo.TRef sig ⟨S16, .i32⟩) (.of main_call2_v13 : StableHlo.TRef sig ⟨S16, .i32⟩) subi,
    StableHlo.TRef.ternary (.of main_call2_v11 : StableHlo.TRef sig ⟨S16, .i1⟩) (.of main_call2_v13 : StableHlo.TRef sig ⟨S16, .i32⟩) (.of main_call2_v2 : StableHlo.TRef sig ⟨S16, .i32⟩) (.of main_v174 : StableHlo.TRef sig ⟨S16, .i32⟩) select ]

set_option maxHeartbeats 40000000 in
/-- 1 host operation of @main, window 5, in order. -/
abbrev w5_s6 : List (HloOp τ sig (Elt F)) :=
  [ StableHlo.nullary main_c_140 (constantI S_ 32 10#32) ]

set_option maxHeartbeats 40000000 in
/-- 21 host operations of fn_remainder (main_call3), window 5, in order. -/
abbrev w5_s7 : List (HloOp τ sig (Elt F)) :=
  [ StableHlo.TRef.unary (.of main_c_140 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S16, .i32⟩) (broadcastInDim S16 ![] bcast_S_S16),
    StableHlo.TRef.binary (.of main_v171 : StableHlo.TRef sig ⟨S16, .i32⟩) (.of main_call3_v3 : StableHlo.TRef sig ⟨S16, .i32⟩) (.of main_call3_v4 : StableHlo.TRef sig ⟨S16, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S16, .i32⟩) (broadcastInDim S16 ![] bcast_S_S16),
    StableHlo.TRef.binary (.of main_call3_v4 : StableHlo.TRef sig ⟨S16, .i32⟩) (.of main_call3_v5 : StableHlo.TRef sig ⟨S16, .i32⟩) (.of main_call3_v6 : StableHlo.TRef sig ⟨S16, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S16, .i32⟩) (broadcastInDim S16 ![] bcast_S_S16),
    StableHlo.TRef.binary (.of main_call3_v4 : StableHlo.TRef sig ⟨S16, .i32⟩) (.of main_call3_v7 : StableHlo.TRef sig ⟨S16, .i32⟩) (.of main_call3_v8 : StableHlo.TRef sig ⟨S16, .i1⟩) (cmpi .slt),
    StableHlo.TRef.nullary (.of main_call3_c_3 : StableHlo.TRef sig ⟨S_, .i32⟩) (constantI S_ 32 0#32),
    StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S16, .i1⟩) (broadcastInDim S16 ![] bcast_S_S16),
    StableHlo.TRef.binary (.of main_call3_v8 : StableHlo.TRef sig ⟨S16, .i1⟩) (.of main_call3_v10 : StableHlo.TRef sig ⟨S16, .i1⟩) (.of main_call3_v11 : StableHlo.TRef sig ⟨S16, .i1⟩) (cmpi .ne),
    StableHlo.TRef.binary (.of main_call3_v11 : StableHlo.TRef sig ⟨S16, .i1⟩) (.of main_call3_v6 : StableHlo.TRef sig ⟨S16, .i1⟩) (.of main_call3_v12 : StableHlo.TRef sig ⟨S16, .i1⟩) andi,
    StableHlo.TRef.unary (.of main_call3_v2 : StableHlo.TRef sig ⟨S_, .i32⟩) (.of main_call3_v13 : StableHlo.TRef sig ⟨S16, .i32⟩) (broadcastInDim S16 ![] bcast_S_S16),
    StableHlo.TRef.binary (.of main_call3_v4 : StableHlo.TRef sig ⟨S16, .i32⟩) (.of main_call3_v13 : StableHlo.TRef sig ⟨S16, .i32⟩) (.of main_call3_v14 : StableHlo.TRef sig ⟨S16, .i32⟩) addi,
    StableHlo.TRef.ternary (.of main_call3_v12 : StableHlo.TRef sig ⟨S16, .i1⟩) (.of main_call3_v14 : StableHlo.TRef sig ⟨S16, .i32⟩) (.of main_call3_v4 : StableHlo.TRef sig ⟨S16, .i32⟩) (.of main_v175 : StableHlo.TRef sig ⟨S16, .i32⟩) select ]

set_option maxHeartbeats 40000000 in
/-- 1 host operation of @main, window 5, in order. -/
abbrev w5_s8 : List (HloOp τ sig (Elt F)) :=
  [ StableHlo.nullary main_c_141 (constantI S_ 32 10#32) ]

set_option maxHeartbeats 40000000 in
/-- 21 host operations of fn_remainder_1 (main_call4), window 5, in order. -/
abbrev w5_s9 : List (HloOp τ sig (Elt F)) :=
  [ StableHlo.TRef.unary (.of main_c_141 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary (.of main_call4_v2 : StableHlo.TRef sig ⟨S_, .i32⟩) (.of main_call4_v3 : StableHlo.TRef sig ⟨S16, .i32⟩) (broadcastInDim S16 ![] bcast_S_S16),
    StableHlo.TRef.binary (.of main_arg10 : StableHlo.TRef sig ⟨S16, .i32⟩) (.of main_call4_v3 : StableHlo.TRef sig ⟨S16, .i32⟩) (.of main_call4_v4 : StableHlo.TRef sig ⟨S16, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S16, .i32⟩) (broadcastInDim S16 ![] bcast_S_S16),
    StableHlo.TRef.binary (.of main_call4_v4 : StableHlo.TRef sig ⟨S16, .i32⟩) (.of main_call4_v5 : StableHlo.TRef sig ⟨S16, .i32⟩) (.of main_call4_v6 : StableHlo.TRef sig ⟨S16, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S16, .i32⟩) (broadcastInDim S16 ![] bcast_S_S16),
    StableHlo.TRef.binary (.of main_call4_v4 : StableHlo.TRef sig ⟨S16, .i32⟩) (.of main_call4_v7 : StableHlo.TRef sig ⟨S16, .i32⟩) (.of main_call4_v8 : StableHlo.TRef sig ⟨S16, .i1⟩) (cmpi .slt),
    StableHlo.TRef.nullary (.of main_call4_c_3 : StableHlo.TRef sig ⟨S_, .i32⟩) (constantI S_ 32 0#32),
    StableHlo.TRef.binary (.of main_call4_v2 : StableHlo.TRef sig ⟨S_, .i32⟩) (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S16, .i1⟩) (broadcastInDim S16 ![] bcast_S_S16),
    StableHlo.TRef.binary (.of main_call4_v8 : StableHlo.TRef sig ⟨S16, .i1⟩) (.of main_call4_v10 : StableHlo.TRef sig ⟨S16, .i1⟩) (.of main_call4_v11 : StableHlo.TRef sig ⟨S16, .i1⟩) (cmpi .ne),
    StableHlo.TRef.binary (.of main_call4_v11 : StableHlo.TRef sig ⟨S16, .i1⟩) (.of main_call4_v6 : StableHlo.TRef sig ⟨S16, .i1⟩) (.of main_call4_v12 : StableHlo.TRef sig ⟨S16, .i1⟩) andi,
    StableHlo.TRef.unary (.of main_call4_v2 : StableHlo.TRef sig ⟨S_, .i32⟩) (.of main_call4_v13 : StableHlo.TRef sig ⟨S16, .i32⟩) (broadcastInDim S16 ![] bcast_S_S16),
    StableHlo.TRef.binary (.of main_call4_v4 : StableHlo.TRef sig ⟨S16, .i32⟩) (.of main_call4_v13 : StableHlo.TRef sig ⟨S16, .i32⟩) (.of main_call4_v14 : StableHlo.TRef sig ⟨S16, .i32⟩) addi,
    StableHlo.TRef.ternary (.of main_call4_v12 : StableHlo.TRef sig ⟨S16, .i1⟩) (.of main_call4_v14 : StableHlo.TRef sig ⟨S16, .i32⟩) (.of main_call4_v4 : StableHlo.TRef sig ⟨S16, .i32⟩) (.of main_v176 : StableHlo.TRef sig ⟨S16, .i32⟩) select ]

set_option maxHeartbeats 40000000 in
/-- 1 host operation of @main, window 5, in order. -/
abbrev w5_s10 : List (HloOp τ sig (Elt F)) :=
  [ StableHlo.nullary main_c_142 (constantI S_ 32 10#32) ]

set_option maxHeartbeats 40000000 in
/-- 21 host operations of fn_remainder_1 (main_call5), window 5, in order. -/
abbrev w5_s11 : List (HloOp τ sig (Elt F)) :=
  [ StableHlo.TRef.unary (.of main_c_142 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary (.of main_call5_v2 : StableHlo.TRef sig ⟨S_, .i32⟩) (.of main_call5_v3 : StableHlo.TRef sig ⟨S16, .i32⟩) (broadcastInDim S16 ![] bcast_S_S16),
    StableHlo.TRef.binary (.of main_arg11 : StableHlo.TRef sig ⟨S16, .i32⟩) (.of main_call5_v3 : StableHlo.TRef sig ⟨S16, .i32⟩) (.of main_call5_v4 : StableHlo.TRef sig ⟨S16, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S16, .i32⟩) (broadcastInDim S16 ![] bcast_S_S16),
    StableHlo.TRef.binary (.of main_call5_v4 : StableHlo.TRef sig ⟨S16, .i32⟩) (.of main_call5_v5 : StableHlo.TRef sig ⟨S16, .i32⟩) (.of main_call5_v6 : StableHlo.TRef sig ⟨S16, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S16, .i32⟩) (broadcastInDim S16 ![] bcast_S_S16),
    StableHlo.TRef.binary (.of main_call5_v4 : StableHlo.TRef sig ⟨S16, .i32⟩) (.of main_call5_v7 : StableHlo.TRef sig ⟨S16, .i32⟩) (.of main_call5_v8 : StableHlo.TRef sig ⟨S16, .i1⟩) (cmpi .slt),
    StableHlo.TRef.nullary (.of main_call5_c_3 : StableHlo.TRef sig ⟨S_, .i32⟩) (constantI S_ 32 0#32),
    StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S16, .i1⟩) (broadcastInDim S16 ![] bcast_S_S16),
    StableHlo.TRef.binary (.of main_call5_v8 : StableHlo.TRef sig ⟨S16, .i1⟩) (.of main_call5_v10 : StableHlo.TRef sig ⟨S16, .i1⟩) (.of main_call5_v11 : StableHlo.TRef sig ⟨S16, .i1⟩) (cmpi .ne),
    StableHlo.TRef.binary (.of main_call5_v11 : StableHlo.TRef sig ⟨S16, .i1⟩) (.of main_call5_v6 : StableHlo.TRef sig ⟨S16, .i1⟩) (.of main_call5_v12 : StableHlo.TRef sig ⟨S16, .i1⟩) andi,
    StableHlo.TRef.unary (.of main_call5_v2 : StableHlo.TRef sig ⟨S_, .i32⟩) (.of main_call5_v13 : StableHlo.TRef sig ⟨S16, .i32⟩) (broadcastInDim S16 ![] bcast_S_S16),
    StableHlo.TRef.binary (.of main_call5_v4 : StableHlo.TRef sig ⟨S16, .i32⟩) (.of main_call5_v13 : StableHlo.TRef sig ⟨S16, .i32⟩) (.of main_call5_v14 : StableHlo.TRef sig ⟨S16, .i32⟩) addi,
    StableHlo.TRef.ternary (.of main_call5_v12 : StableHlo.TRef sig ⟨S16, .i1⟩) (.of main_call5_v14 : StableHlo.TRef sig ⟨S16, .i32⟩) (.of main_call5_v4 : StableHlo.TRef sig ⟨S16, .i32⟩) (.of main_v177 : StableHlo.TRef sig ⟨S16, .i32⟩) select ]

set_option maxHeartbeats 40000000 in
/-- 13 host operations of @main, window 5, in order. -/
abbrev w5_s12 : List (HloOp τ sig (Elt F)) :=
  [ StableHlo.nullary main_v178 (iotaInDim S224 32 0),
    StableHlo.nullary main_v179 (iotaInDim S224 32 0),
    StableHlo.unary main_v178 main_v180 (broadcastInDim S224x1 ![0] bcast_S224_S224x1_0 : (⟨S224, .i32⟩ : BufTy).Contents (Elt F) → (⟨S224x1, .i32⟩ : BufTy).Contents (Elt F)),
    StableHlo.unary main_v179 main_v181 (broadcastInDim S1x224 ![1] bcast_S224_S1x224_1 : (⟨S224, .i32⟩ : BufTy).Contents (Elt F) → (⟨S1x224, .i32⟩ : BufTy).Contents (Elt F)),
    StableHlo.nullary main_c_143 (constantI S_ 32 10#32),
    StableHlo.unary main_c_143 main_v182 (broadcastInDim S16 ![] bcast_S_S16 : (⟨S_, .i32⟩ : BufTy).Contents (Elt F) → (⟨S16, .i32⟩ : BufTy).Contents (Elt F)),
    StableHlo.binary main_v174 main_v182 main_v183 (muli : (⟨S16, .i32⟩ : BufTy).Contents (Elt F) → (⟨S16, .i32⟩ : BufTy).Contents (Elt F) → (⟨S16, .i32⟩ : BufTy).Contents (Elt F)),
    StableHlo.unary main_v180 main_v184 (broadcastInDim S1x224x1 ![1, 2] bcast_S224x1_S1x224x1_1_2 : (⟨S224x1, .i32⟩ : BufTy).Contents (Elt F) → (⟨S1x224x1, .i32⟩ : BufTy).Contents (Elt F)),
    StableHlo.unary main_v183 main_v185 (broadcastInDim S16x1x1 ![0] bcast_S16_S16x1x1_0 : (⟨S16, .i32⟩ : BufTy).Contents (Elt F) → (⟨S16x1x1, .i32⟩ : BufTy).Contents (Elt F)),
    StableHlo.unary main_v184 main_v186 (broadcastInDim S16x224x1 ![0, 1, 2] bcast_S1x224x1_S16x224x1_0_1_2 : (⟨S1x224x1, .i32⟩ : BufTy).Contents (Elt F) → (⟨S16x224x1, .i32⟩ : BufTy).Contents (Elt F)),
    StableHlo.unary main_v185 main_v187 (broadcastInDim S16x224x1 ![0, 1, 2] bcast_S16x1x1_S16x224x1_0_1_2 : (⟨S16x1x1, .i32⟩ : BufTy).Contents (Elt F) → (⟨S16x224x1, .i32⟩ : BufTy).Contents (Elt F)),
    StableHlo.binary main_v186 main_v187 main_v188 (cmpi .slt : (⟨S16x224x1, .i32⟩ : BufTy).Contents (Elt F) → (⟨S16x224x1, .i32⟩ : BufTy).Contents (Elt F) → (⟨S16x224x1, .i1⟩ : BufTy).Contents (Elt F)),
    StableHlo.nullary main_c_144 (constantI S_ 32 10#32) ]

set_option maxHeartbeats 40000000 in
/-- 21 host operations of fn_remainder_2 (main_call6), window 5, in order. -/
abbrev w5_s13 : List (HloOp τ sig (Elt F)) :=
  [ StableHlo.TRef.unary (.of main_c_144 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary (.of main_call6_v2 : StableHlo.TRef sig ⟨S_, .i32⟩) (.of main_call6_v3 : StableHlo.TRef sig ⟨S224, .i32⟩) (broadcastInDim S224 ![] bcast_S_S224),
    StableHlo.TRef.binary (.of main_v178 : StableHlo.TRef sig ⟨S224, .i32⟩) (.of main_call6_v3 : StableHlo.TRef sig ⟨S224, .i32⟩) (.of main_call6_v4 : StableHlo.TRef sig ⟨S224, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S224, .i32⟩) (broadcastInDim S224 ![] bcast_S_S224),
    StableHlo.TRef.binary (.of main_call6_v4 : StableHlo.TRef sig ⟨S224, .i32⟩) (.of main_call6_v5 : StableHlo.TRef sig ⟨S224, .i32⟩) (.of main_call6_v6 : StableHlo.TRef sig ⟨S224, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S224, .i32⟩) (broadcastInDim S224 ![] bcast_S_S224),
    StableHlo.TRef.binary (.of main_call6_v4 : StableHlo.TRef sig ⟨S224, .i32⟩) (.of main_call6_v7 : StableHlo.TRef sig ⟨S224, .i32⟩) (.of main_call6_v8 : StableHlo.TRef sig ⟨S224, .i1⟩) (cmpi .slt),
    StableHlo.TRef.nullary (.of main_call6_c_3 : StableHlo.TRef sig ⟨S_, .i32⟩) (constantI S_ 32 0#32),
    StableHlo.TRef.binary (.of main_call6_v2 : StableHlo.TRef sig ⟨S_, .i32⟩) (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S224, .i1⟩) (broadcastInDim S224 ![] bcast_S_S224),
    StableHlo.TRef.binary (.of main_call6_v8 : StableHlo.TRef sig ⟨S224, .i1⟩) (.of main_call6_v10 : StableHlo.TRef sig ⟨S224, .i1⟩) (.of main_call6_v11 : StableHlo.TRef sig ⟨S224, .i1⟩) (cmpi .ne),
    StableHlo.TRef.binary (.of main_call6_v11 : StableHlo.TRef sig ⟨S224, .i1⟩) (.of main_call6_v6 : StableHlo.TRef sig ⟨S224, .i1⟩) (.of main_call6_v12 : StableHlo.TRef sig ⟨S224, .i1⟩) andi,
    StableHlo.TRef.unary (.of main_call6_v2 : StableHlo.TRef sig ⟨S_, .i32⟩) (.of main_call6_v13 : StableHlo.TRef sig ⟨S224, .i32⟩) (broadcastInDim S224 ![] bcast_S_S224),
    StableHlo.TRef.binary (.of main_call6_v4 : StableHlo.TRef sig ⟨S224, .i32⟩) (.of main_call6_v13 : StableHlo.TRef sig ⟨S224, .i32⟩) (.of main_call6_v14 : StableHlo.TRef sig ⟨S224, .i32⟩) addi,
    StableHlo.TRef.ternary (.of main_call6_v12 : StableHlo.TRef sig ⟨S224, .i1⟩) (.of main_call6_v14 : StableHlo.TRef sig ⟨S224, .i32⟩) (.of main_call6_v4 : StableHlo.TRef sig ⟨S224, .i32⟩) (.of main_v189 : StableHlo.TRef sig ⟨S224, .i32⟩) select ]

set_option maxHeartbeats 40000000 in
/-- 10 host operations of @main, window 5, in order. -/
abbrev w5_s14 : List (HloOp τ sig (Elt F)) :=
  [ StableHlo.nullary main_c_145 (constantI S_ 32 0#32),
    StableHlo.unary main_c_145 main_v190 (broadcastInDim S224 ![] bcast_S_S224 : (⟨S_, .i32⟩ : BufTy).Contents (Elt F) → (⟨S224, .i32⟩ : BufTy).Contents (Elt F)),
    StableHlo.binary main_v189 main_v190 main_v191 (cmpi .slt : (⟨S224, .i32⟩ : BufTy).Contents (Elt F) → (⟨S224, .i32⟩ : BufTy).Contents (Elt F) → (⟨S224, .i1⟩ : BufTy).Contents (Elt F)),
    StableHlo.nullary main_c_146 (constantI S_ 32 10#32),
    StableHlo.unary main_c_146 main_v192 (broadcastInDim S224 ![] bcast_S_S224 : (⟨S_, .i32⟩ : BufTy).Contents (Elt F) → (⟨S224, .i32⟩ : BufTy).Contents (Elt F)),
    StableHlo.binary main_v189 main_v192 main_v193 (addi : (⟨S224, .i32⟩ : BufTy).Contents (Elt F) → (⟨S224, .i32⟩ : BufTy).Contents (Elt F) → (⟨S224, .i32⟩ : BufTy).Contents (Elt F)),
    StableHlo.ternary main_v191 main_v193 main_v189 main_v194 (select : (⟨S224, .i1⟩ : BufTy).Contents (Elt F) → (⟨S224, .i32⟩ : BufTy).Contents (Elt F) → (⟨S224, .i32⟩ : BufTy).Contents (Elt F) → (⟨S224, .i32⟩ : BufTy).Contents (Elt F)),
    StableHlo.unary main_v194 main_v195 (broadcastInDim S224x1 ![0] bcast_S224_S224x1_0 : (⟨S224, .i32⟩ : BufTy).Contents (Elt F) → (⟨S224x1, .i32⟩ : BufTy).Contents (Elt F)),
    StableHlo.binary main_v41 main_v195 main_v196 ((fun x i => Host.gather gather_S16x3x10x224_S224x1_S16x3x224x224_013_2_n_n_2_1_1631224 x i) : (⟨S16x3x10x224, .f32⟩ : BufTy).Contents (Elt F) → (⟨S224x1, .i32⟩ : BufTy).Contents (Elt F) → (⟨S16x3x224x224, .f32⟩ : BufTy).Contents (Elt F)),
    StableHlo.unary main_v20 main_v197 (broadcastInDim S16x3x1x224 ![0, 1, 3] bcast_S16x3x224_S16x3x1x224_0_1_3 : (⟨S16x3x224, .f32⟩ : BufTy).Contents (Elt F) → (⟨S16x3x1x224, .f32⟩ : BufTy).Contents (Elt F)) ]

set_option maxHeartbeats 40000000 in
/-- 3 host operations of fn_where_3 (main_call7), window 5, in order. -/
abbrev w5_s15 : List (HloOp τ sig (Elt F)) :=
  [ StableHlo.TRef.unary (.of main_v188 : StableHlo.TRef sig ⟨S16x224x1, .i1⟩) (.of main_call7_v0 : StableHlo.TRef sig ⟨S16x3x224x224, .i1⟩) (broadcastInDim S16x3x224x224 ![0, 2, 3] bcast_S16x224x1_S16x3x224x224_0_2_3),
    StableHlo.TRef.unary (.of main_v197 : StableHlo.TRef sig ⟨S16x3x1x224, .f32⟩) (.of main_call7_v1 : StableHlo.TRef sig ⟨S16x3x224x224, .f32⟩) (broadcastInDim S16x3x224x224 ![0, 1, 2, 3] bcast_S16x3x1x224_S16x3x224x224_0_1_2_3),
    StableHlo.TRef.ternary (.of main_call7_v0 : StableHlo.TRef sig ⟨S16x3x224x224, .i1⟩) (.of main_v196 : StableHlo.TRef sig ⟨S16x3x224x224, .f32⟩) (.of main_call7_v1 : StableHlo.TRef sig ⟨S16x3x224x224, .f32⟩) (.of main_v198 : StableHlo.TRef sig ⟨S16x3x224x224, .f32⟩) select ]

set_option maxHeartbeats 40000000 in
/-- 12 host operations of @main, window 5, in order. -/
abbrev w5_s16 : List (HloOp τ sig (Elt F)) :=
  [ StableHlo.nullary main_c_147 (constantI S_ 32 224#32),
    StableHlo.unary main_c_147 main_v199 (broadcastInDim S16 ![] bcast_S_S16 : (⟨S_, .i32⟩ : BufTy).Contents (Elt F) → (⟨S16, .i32⟩ : BufTy).Contents (Elt F)),
    StableHlo.binary main_v199 main_arg11 main_v200 (subi : (⟨S16, .i32⟩ : BufTy).Contents (Elt F) → (⟨S16, .i32⟩ : BufTy).Contents (Elt F) → (⟨S16, .i32⟩ : BufTy).Contents (Elt F)),
    StableHlo.unary main_v180 main_v201 (broadcastInDim S1x224x1 ![1, 2] bcast_S224x1_S1x224x1_1_2 : (⟨S224x1, .i32⟩ : BufTy).Contents (Elt F) → (⟨S1x224x1, .i32⟩ : BufTy).Contents (Elt F)),
    StableHlo.unary main_v200 main_v202 (broadcastInDim S16x1x1 ![0] bcast_S16_S16x1x1_0 : (⟨S16, .i32⟩ : BufTy).Contents (Elt F) → (⟨S16x1x1, .i32⟩ : BufTy).Contents (Elt F)),
    StableHlo.unary main_v201 main_v203 (broadcastInDim S16x224x1 ![0, 1, 2] bcast_S1x224x1_S16x224x1_0_1_2 : (⟨S1x224x1, .i32⟩ : BufTy).Contents (Elt F) → (⟨S16x224x1, .i32⟩ : BufTy).Contents (Elt F)),
    StableHlo.unary main_v202 main_v204 (broadcastInDim S16x224x1 ![0, 1, 2] bcast_S16x1x1_S16x224x1_0_1_2 : (⟨S16x1x1, .i32⟩ : BufTy).Contents (Elt F) → (⟨S16x224x1, .i32⟩ : BufTy).Contents (Elt F)),
    StableHlo.binary main_v203 main_v204 main_v205 (subi : (⟨S16x224x1, .i32⟩ : BufTy).Contents (Elt F) → (⟨S16x224x1, .i32⟩ : BufTy).Contents (Elt F) → (⟨S16x224x1, .i32⟩ : BufTy).Contents (Elt F)),
    StableHlo.unary main_v177 main_v206 (broadcastInDim S16x1x1 ![0] bcast_S16_S16x1x1_0 : (⟨S16, .i32⟩ : BufTy).Contents (Elt F) → (⟨S16x1x1, .i32⟩ : BufTy).Contents (Elt F)),
    StableHlo.unary main_v206 main_v207 (broadcastInDim S16x224x1 ![0, 1, 2] bcast_S16x1x1_S16x224x1_0_1_2 : (⟨S16x1x1, .i32⟩ : BufTy).Contents (Elt F) → (⟨S16x224x1, .i32⟩ : BufTy).Contents (Elt F)),
    StableHlo.binary main_v205 main_v207 main_v208 (subi : (⟨S16x224x1, .i32⟩ : BufTy).Contents (Elt F) → (⟨S16x224x1, .i32⟩ : BufTy).Contents (Elt F) → (⟨S16x224x1, .i32⟩ : BufTy).Contents (Elt F)),
    StableHlo.nullary main_c_148 (constantI S_ 32 10#32) ]

set_option maxHeartbeats 40000000 in
/-- 21 host operations of fn_remainder_4 (main_call8), window 5, in order. -/
abbrev w5_s17 : List (HloOp τ sig (Elt F)) :=
  [ StableHlo.TRef.unary (.of main_c_148 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32),
    StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select,
    StableHlo.TRef.unary (.of main_call8_v2 : StableHlo.TRef sig ⟨S_, .i32⟩) (.of main_call8_v3 : StableHlo.TRef sig ⟨S16x224x1, .i32⟩) (broadcastInDim S16x224x1 ![] bcast_S_S16x224x1),
    StableHlo.TRef.binary (.of main_v208 : StableHlo.TRef sig ⟨S16x224x1, .i32⟩) (.of main_call8_v3 : StableHlo.TRef sig ⟨S16x224x1, .i32⟩) (.of main_call8_v4 : StableHlo.TRef sig ⟨S16x224x1, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S16x224x1, .i32⟩) (broadcastInDim S16x224x1 ![] bcast_S_S16x224x1),
    StableHlo.TRef.binary (.of main_call8_v4 : StableHlo.TRef sig ⟨S16x224x1, .i32⟩) (.of main_call8_v5 : StableHlo.TRef sig ⟨S16x224x1, .i32⟩) (.of main_call8_v6 : StableHlo.TRef sig ⟨S16x224x1, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S16x224x1, .i32⟩) (broadcastInDim S16x224x1 ![] bcast_S_S16x224x1),
    StableHlo.TRef.binary (.of main_call8_v4 : StableHlo.TRef sig ⟨S16x224x1, .i32⟩) (.of main_call8_v7 : StableHlo.TRef sig ⟨S16x224x1, .i32⟩) (.of main_call8_v8 : StableHlo.TRef sig ⟨S16x224x1, .i1⟩) (cmpi .slt),
    StableHlo.TRef.nullary (.of main_call8_c_3 : StableHlo.TRef sig ⟨S_, .i32⟩) (constantI S_ 32 0#32),
    StableHlo.TRef.binary (.of main_call8_v2 : StableHlo.TRef sig ⟨S_, .i32⟩) (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S16x224x1, .i1⟩) (broadcastInDim S16x224x1 ![] bcast_S_S16x224x1),
    StableHlo.TRef.binary (.of main_call8_v8 : StableHlo.TRef sig ⟨S16x224x1, .i1⟩) (.of main_call8_v10 : StableHlo.TRef sig ⟨S16x224x1, .i1⟩) (.of main_call8_v11 : StableHlo.TRef sig ⟨S16x224x1, .i1⟩) (cmpi .ne),
    StableHlo.TRef.binary (.of main_call8_v11 : StableHlo.TRef sig ⟨S16x224x1, .i1⟩) (.of main_call8_v6 : StableHlo.TRef sig ⟨S16x224x1, .i1⟩) (.of main_call8_v12 : StableHlo.TRef sig ⟨S16x224x1, .i1⟩) andi,
    StableHlo.TRef.unary (.of main_call8_v2 : StableHlo.TRef sig ⟨S_, .i32⟩) (.of main_call8_v13 : StableHlo.TRef sig ⟨S16x224x1, .i32⟩) (broadcastInDim S16x224x1 ![] bcast_S_S16x224x1),
    StableHlo.TRef.binary (.of main_call8_v4 : StableHlo.TRef sig ⟨S16x224x1, .i32⟩) (.of main_call8_v13 : StableHlo.TRef sig ⟨S16x224x1, .i32⟩) (.of main_call8_v14 : StableHlo.TRef sig ⟨S16x224x1, .i32⟩) addi,
    StableHlo.TRef.ternary (.of main_call8_v12 : StableHlo.TRef sig ⟨S16x224x1, .i1⟩) (.of main_call8_v14 : StableHlo.TRef sig ⟨S16x224x1, .i32⟩) (.of main_call8_v4 : StableHlo.TRef sig ⟨S16x224x1, .i32⟩) (.of main_v209 : StableHlo.TRef sig ⟨S16x224x1, .i32⟩) select ]

end Cert.ReferenceIdeal.Hand

end
-- ==== Proof.RefRunW5.lean ====
/- The run of the reference's @main, part 2 of 3, window 5 (statements 301 … 360): the window is the chain of its
   tables' sequences, and each table is a good list. -/
import proofs.«144763_j39642548142243_2_alg».proof.Proof.RefRunBase
import proofs.«144763_j39642548142243_2_alg».proof.Proof.RefRunT5

set_option maxRecDepth 5964

noncomputable section

namespace Cert.ReferenceIdeal.Hand

open Cert.ReferenceIdeal Idealize.ShloMosaic Idealize.SL.Sem Idealize.ShloMosaic.StableHlo

variable {F : FTy → Type} [FloatOps F] [Facts]

/-- The window is its stretches in order — @main's own operations, and at each call the callee's operations over
    the call's buffers —, its last statement in tail position: both sides unfold to the same line of steps. -/
theorem w5_chain (c : Dev nD) : main_part5 (F := F) c = (Pipeline.chainK
  [ seq w5_s0,
    seq w5_s1,
    seq w5_s2,
    seq w5_s3,
    seq w5_s4,
    seq w5_s5,
    seq w5_s6,
    seq w5_s7,
    seq w5_s8,
    seq w5_s9,
    seq w5_s10,
    seq w5_s11,
    seq w5_s12,
    seq w5_s13,
    seq w5_s14,
    seq w5_s15,
    seq w5_s16 ]
  (seq w5_s17) : Prog (TpuEff nD τ sig (Elt F) (Pipeline.Sig Λ₀ (Fin 0) fun p => (pcfgs (F := F) p).Adm) .tc) PUnit) := by
  chain_rfl

theorem w5_s0_good : Good (w5_s0 (F := F)) := by hlo_good
theorem w5_s1_good : Good (w5_s1 (F := F)) := by hlo_good
theorem w5_s2_good : Good (w5_s2 (F := F)) := by hlo_good
theorem w5_s3_good : Good (w5_s3 (F := F)) := by hlo_good
theorem w5_s4_good : Good (w5_s4 (F := F)) := by hlo_good
theorem w5_s5_good : Good (w5_s5 (F := F)) := by hlo_good
theorem w5_s6_good : Good (w5_s6 (F := F)) := by hlo_good
theorem w5_s7_good : Good (w5_s7 (F := F)) := by hlo_good
theorem w5_s8_good : Good (w5_s8 (F := F)) := by hlo_good
theorem w5_s9_good : Good (w5_s9 (F := F)) := by hlo_good
theorem w5_s10_good : Good (w5_s10 (F := F)) := by hlo_good
theorem w5_s11_good : Good (w5_s11 (F := F)) := by hlo_good
theorem w5_s12_good : Good (w5_s12 (F := F)) := by hlo_good
theorem w5_s13_good : Good (w5_s13 (F := F)) := by hlo_good
theorem w5_s14_good : Good (w5_s14 (F := F)) := by hlo_good
theorem w5_s15_good : Good (w5_s15 (F := F)) := by hlo_good
theorem w5_s16_good : Good (w5_s16 (F := F)) := by hlo_good
theorem w5_s17_good : Good (w5_s17 (F := F)) := by hlo_good

end Cert.ReferenceIdeal.Hand

end
-- ==== Proof.RefRunT6.lean ====
import proofs.«144763_j39642548142243_2_alg».proof.ReferenceIdeal

set_option synthInstance.maxSize 4096

noncomputable section

namespace Cert.ReferenceIdeal.Hand

open Cert.ReferenceIdeal Idealize.ShloMosaic Idealize.SL.Sem

variable {F : FTy → Type} [FloatOps F] [Facts]
open Facts₀ Facts

set_option maxHeartbeats 40000000 in
/-- 14 host operations of @main, window 6, in order. -/
abbrev w6_s0 : List (HloOp τ sig (Elt F)) :=
  [ StableHlo.reshape main_v209 main_v210 rfl shapeCasts_S16x224x1_S16x224,
    StableHlo.unary main_v177 main_v211 (broadcastInDim S16x1x1 ![0] bcast_S16_S16x1x1_0 : (⟨S16, .i32⟩ : BufTy).Contents (Elt F) → (⟨S16x1x1, .i32⟩ : BufTy).Contents (Elt F)),
    StableHlo.unary main_v211 main_v212 (broadcastInDim S16x224x1 ![0, 1, 2] bcast_S16x1x1_S16x224x1_0_1_2 : (⟨S16x1x1, .i32⟩ : BufTy).Contents (Elt F) → (⟨S16x224x1, .i32⟩ : BufTy).Contents (Elt F)),
    StableHlo.binary main_v205 main_v212 main_v213 (cmpi .slt : (⟨S16x224x1, .i32⟩ : BufTy).Contents (Elt F) → (⟨S16x224x1, .i32⟩ : BufTy).Contents (Elt F) → (⟨S16x224x1, .i1⟩ : BufTy).Contents (Elt F)),
    StableHlo.unary main_v62 main_v214 (broadcastInDim S16x3x1x224 ![0, 1, 3] bcast_S16x3x224_S16x3x1x224_0_1_3 : (⟨S16x3x224, .f32⟩ : BufTy).Contents (Elt F) → (⟨S16x3x1x224, .f32⟩ : BufTy).Contents (Elt F)),
    StableHlo.nullary main_c_149 (constantI S_ 32 0#32),
    StableHlo.unary main_c_149 main_v215 (broadcastInDim S16x224 ![] bcast_S_S16x224 : (⟨S_, .i32⟩ : BufTy).Contents (Elt F) → (⟨S16x224, .i32⟩ : BufTy).Contents (Elt F)),
    StableHlo.binary main_v210 main_v215 main_v216 (cmpi .slt : (⟨S16x224, .i32⟩ : BufTy).Contents (Elt F) → (⟨S16x224, .i32⟩ : BufTy).Contents (Elt F) → (⟨S16x224, .i1⟩ : BufTy).Contents (Elt F)),
    StableHlo.nullary main_c_150 (constantI S_ 32 10#32),
    StableHlo.unary main_c_150 main_v217 (broadcastInDim S16x224 ![] bcast_S_S16x224 : (⟨S_, .i32⟩ : BufTy).Contents (Elt F) → (⟨S16x224, .i32⟩ : BufTy).Contents (Elt F)),
    StableHlo.binary main_v210 main_v217 main_v218 (addi : (⟨S16x224, .i32⟩ : BufTy).Contents (Elt F) → (⟨S16x224, .i32⟩ : BufTy).Contents (Elt F) → (⟨S16x224, .i32⟩ : BufTy).Contents (Elt F)),
    StableHlo.ternary main_v216 main_v218 main_v210 main_v219 (select : (⟨S16x224, .i1⟩ : BufTy).Contents (Elt F) → (⟨S16x224, .i32⟩ : BufTy).Contents (Elt F) → (⟨S16x224, .i32⟩ : BufTy).Contents (Elt F) → (⟨S16x224, .i32⟩ : BufTy).Contents (Elt F)),
    StableHlo.unary main_v219 main_v220 (broadcastInDim S16x224x1 ![0, 1] bcast_S16x224_S16x224x1_0_1 : (⟨S16x224, .i32⟩ : BufTy).Contents (Elt F) → (⟨S16x224x1, .i32⟩ : BufTy).Contents (Elt F)),
    StableHlo.binary main_v83 main_v220 main_v221 ((fun x i => Host.gather gather_S16x3x10x224_S16x224x1_S16x3x224x224_13_2_0_0_2_2_131224 x i) : (⟨S16x3x10x224, .f32⟩ : BufTy).Contents (Elt F) → (⟨S16x224x1, .i32⟩ : BufTy).Contents (Elt F) → (⟨S16x3x224x224, .f32⟩ : BufTy).Contents (Elt F)) ]

set_option maxHeartbeats 40000000 in
/-- 3 host operations of fn_where_5 (main_call9), window 6, in order. -/
abbrev w6_s1 : List (HloOp τ sig (Elt F)) :=
  [ StableHlo.TRef.unary (.of main_v213 : StableHlo.TRef sig ⟨S16x224x1, .i1⟩) (.of main_call9_v0 : StableHlo.TRef sig ⟨S16x3x224x224, .i1⟩) (broadcastInDim S16x3x224x224 ![0, 2, 3] bcast_S16x224x1_S16x3x224x224_0_2_3),
    StableHlo.TRef.unary (.of main_v214 : StableHlo.TRef sig ⟨S16x3x1x224, .f32⟩) (.of main_call9_v1 : StableHlo.TRef sig ⟨S16x3x224x224, .f32⟩) (broadcastInDim S16x3x224x224 ![0, 1, 2, 3] bcast_S16x3x1x224_S16x3x224x224_0_1_2_3),
    StableHlo.TRef.ternary (.of main_call9_v0 : StableHlo.TRef sig ⟨S16x3x224x224, .i1⟩) (.of main_call9_v1 : StableHlo.TRef sig ⟨S16x3x224x224, .f32⟩) (.of main_v221 : StableHlo.TRef sig ⟨S16x3x224x224, .f32⟩) (.of main_v222 : StableHlo.TRef sig ⟨S16x3x224x224, .f32⟩) select ]

set_option maxHeartbeats 40000000 in
/-- 7 host operations of @main, window 6, in order. -/
abbrev w6_s2 : List (HloOp τ sig (Elt F)) :=
  [ StableHlo.unary main_v178 main_v223 (broadcastInDim S1x224 ![1] bcast_S224_S1x224_1 : (⟨S224, .i32⟩ : BufTy).Contents (Elt F) → (⟨S1x224, .i32⟩ : BufTy).Contents (Elt F)),
    StableHlo.unary main_v171 main_v224 (broadcastInDim S16x1 ![0] bcast_S16_S16x1_0 : (⟨S16, .i32⟩ : BufTy).Contents (Elt F) → (⟨S16x1, .i32⟩ : BufTy).Contents (Elt F)),
    StableHlo.unary main_v223 main_v225 (broadcastInDim S16x224 ![0, 1] bcast_S1x224_S16x224_0_1 : (⟨S1x224, .i32⟩ : BufTy).Contents (Elt F) → (⟨S16x224, .i32⟩ : BufTy).Contents (Elt F)),
    StableHlo.unary main_v224 main_v226 (broadcastInDim S16x224 ![0, 1] bcast_S16x1_S16x224_0_1 : (⟨S16x1, .i32⟩ : BufTy).Contents (Elt F) → (⟨S16x224, .i32⟩ : BufTy).Contents (Elt F)),
    StableHlo.binary main_v225 main_v226 main_v227 (subi : (⟨S16x224, .i32⟩ : BufTy).Contents (Elt F) → (⟨S16x224, .i32⟩ : BufTy).Contents (Elt F) → (⟨S16x224, .i32⟩ : BufTy).Contents (Elt F)),
    StableHlo.nullary main_c_151 (constantI S_ 32 0#32),
    StableHlo.nullary main_c_152 (constantI S_ 32 163#32) ]

set_option maxHeartbeats 40000000 in
/-- 6 host operations of fn_clip (main_call10), window 6, in order. -/
abbrev w6_s3 : List (HloOp τ sig (Elt F)) :=
  [ StableHlo.TRef.unary (.of main_c_151 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S16x224, .i32⟩) (broadcastInDim S16x224 ![] bcast_S_S16x224),
    StableHlo.TRef.binary (.of main_call10_v1 : StableHlo.TRef sig ⟨S16x224, .i32⟩) (.of main_v227 : StableHlo.TRef sig ⟨S16x224, .i32⟩) (.of main_call10_v2 : StableHlo.TRef sig ⟨S16x224, .i32⟩) maxsi,
    StableHlo.TRef.unary (.of main_c_152 : StableHlo.TRef sig ⟨S_, .i32⟩) (.of main_call10_v3 : StableHlo.TRef sig ⟨S_, .i32⟩) id,
    StableHlo.TRef.unary (.of main_call10_v3 : StableHlo.TRef sig ⟨S_, .i32⟩) (.of main_call10_v4 : StableHlo.TRef sig ⟨S16x224, .i32⟩) (broadcastInDim S16x224 ![] bcast_S_S16x224),
    StableHlo.TRef.binary (.of main_call10_v4 : StableHlo.TRef sig ⟨S16x224, .i32⟩) (.of main_call10_v2 : StableHlo.TRef sig ⟨S16x224, .i32⟩) (.of main_v228 : StableHlo.TRef sig ⟨S16x224, .i32⟩) minsi ]

set_option maxHeartbeats 40000000 in
/-- 10 host operations of @main, window 6, in order. -/
abbrev w6_s4 : List (HloOp τ sig (Elt F)) :=
  [ StableHlo.nullary main_c_153 (constantI S_ 32 10#32),
    StableHlo.unary main_c_153 main_v229 (broadcastInDim S16 ![] bcast_S_S16 : (⟨S_, .i32⟩ : BufTy).Contents (Elt F) → (⟨S16, .i32⟩ : BufTy).Contents (Elt F)),
    StableHlo.binary main_v172 main_v229 main_v230 (muli : (⟨S16, .i32⟩ : BufTy).Contents (Elt F) → (⟨S16, .i32⟩ : BufTy).Contents (Elt F) → (⟨S16, .i32⟩ : BufTy).Contents (Elt F)),
    StableHlo.unary main_v181 main_v231 (broadcastInDim S1x1x224 ![1, 2] bcast_S1x224_S1x1x224_1_2 : (⟨S1x224, .i32⟩ : BufTy).Contents (Elt F) → (⟨S1x1x224, .i32⟩ : BufTy).Contents (Elt F)),
    StableHlo.unary main_v230 main_v232 (broadcastInDim S16x1x1 ![0] bcast_S16_S16x1x1_0 : (⟨S16, .i32⟩ : BufTy).Contents (Elt F) → (⟨S16x1x1, .i32⟩ : BufTy).Contents (Elt F)),
    StableHlo.unary main_v231 main_v233 (broadcastInDim S16x1x224 ![0, 1, 2] bcast_S1x1x224_S16x1x224_0_1_2 : (⟨S1x1x224, .i32⟩ : BufTy).Contents (Elt F) → (⟨S16x1x224, .i32⟩ : BufTy).Contents (Elt F)),
    StableHlo.unary main_v232 main_v234 (broadcastInDim S16x1x224 ![0, 1, 2] bcast_S16x1x1_S16x1x224_0_1_2 : (⟨S16x1x1, .i32⟩ : BufTy).Contents (Elt F) → (⟨S16x1x224, .i32⟩ : BufTy).Contents (Elt F)),
    StableHlo.binary main_v233 main_v234 main_v235 (cmpi .slt : (⟨S16x1x224, .i32⟩ : BufTy).Contents (Elt F) → (⟨S16x1x224, .i32⟩ : BufTy).Contents (Elt F) → (⟨S16x1x224, .i1⟩ : BufTy).Contents (Elt F)),
    StableHlo.unary main_v228 main_v236 (broadcastInDim S16x224x1 ![0, 1] bcast_S16x224_S16x224x1_0_1 : (⟨S16x224, .i32⟩ : BufTy).Contents (Elt F) → (⟨S16x224x1, .i32⟩ : BufTy).Contents (Elt F)),
    StableHlo.nullary main_c_154 (constantI S_ 32 10#32) ]

set_option maxHeartbeats 40000000 in
/-- 21 host operations of fn_remainder_2 (main_call11), window 6, in order. -/
abbrev w6_s5 : List (HloOp τ sig (Elt F)) :=
  [ StableHlo.TRef.unary (.of main_c_154 : StableHlo.TRef sig ⟨S_, .i32⟩) (.of main_call11_v0 : StableHlo.TRef sig ⟨S_, .i32⟩) id,
    StableHlo.TRef.nullary (.of main_call11_c : StableHlo.TRef sig ⟨S_, .i32⟩) (constantI S_ 32 0#32),
    StableHlo.TRef.binary (.of main_call11_v0 : StableHlo.TRef sig ⟨S_, .i32⟩) (.of main_call11_c : StableHlo.TRef sig ⟨S_, .i32⟩) (.of main_call11_v1 : StableHlo.TRef sig ⟨S_, .i1⟩) (cmpi .eq),
    StableHlo.TRef.nullary (.of main_call11_c_0 : StableHlo.TRef sig ⟨S_, .i32⟩) (constantI S_ 32 1#32),
    StableHlo.TRef.ternary (.of main_call11_v1 : StableHlo.TRef sig ⟨S_, .i1⟩) (.of main_call11_c_0 : StableHlo.TRef sig ⟨S_, .i32⟩) (.of main_call11_v0 : StableHlo.TRef sig ⟨S_, .i32⟩) (.of main_call11_v2 : StableHlo.TRef sig ⟨S_, .i32⟩) select,
    StableHlo.TRef.unary (.of main_call11_v2 : StableHlo.TRef sig ⟨S_, .i32⟩) (.of main_call11_v3 : StableHlo.TRef sig ⟨S224, .i32⟩) (broadcastInDim S224 ![] bcast_S_S224),
    StableHlo.TRef.binary (.of main_v179 : StableHlo.TRef sig ⟨S224, .i32⟩) (.of main_call11_v3 : StableHlo.TRef sig ⟨S224, .i32⟩) (.of main_call11_v4 : StableHlo.TRef sig ⟨S224, .i32⟩) Host.remsi,
    StableHlo.TRef.nullary (.of main_call11_c_1 : StableHlo.TRef sig ⟨S_, .i32⟩) (constantI S_ 32 0#32),
    StableHlo.TRef.unary (.of main_call11_c_1 : StableHlo.TRef sig ⟨S_, .i32⟩) (.of main_call11_v5 : StableHlo.TRef sig ⟨S224, .i32⟩) (broadcastInDim S224 ![] bcast_S_S224),
    StableHlo.TRef.binary (.of main_call11_v4 : StableHlo.TRef sig ⟨S224, .i32⟩) (.of main_call11_v5 : StableHlo.TRef sig ⟨S224, .i32⟩) (.of main_call11_v6 : StableHlo.TRef sig ⟨S224, .i1⟩) (cmpi .ne),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v7 : StableHlo.TRef sig ⟨S224, .i32⟩) (broadcastInDim S224 ![] bcast_S_S224),
    StableHlo.TRef.binary (.of main_call11_v4 : StableHlo.TRef sig ⟨S224, .i32⟩) (.of main_call11_v7 : StableHlo.TRef sig ⟨S224, .i32⟩) (.of main_call11_v8 : StableHlo.TRef sig ⟨S224, .i1⟩) (cmpi .slt),
    StableHlo.TRef.nullary (.of main_call11_c_3 : StableHlo.TRef sig ⟨S_, .i32⟩) (constantI S_ 32 0#32),
    StableHlo.TRef.binary (.of main_call11_v2 : StableHlo.TRef sig ⟨S_, .i32⟩) (.of main_call11_c_3 : StableHlo.TRef sig ⟨S_, .i32⟩) (.of main_call11_v9 : StableHlo.TRef sig ⟨S_, .i1⟩) (cmpi .slt),
    StableHlo.TRef.unary (.of main_call11_v9 : StableHlo.TRef sig ⟨S_, .i1⟩) (.of main_call11_v10 : StableHlo.TRef sig ⟨S224, .i1⟩) (broadcastInDim S224 ![] bcast_S_S224),
    StableHlo.TRef.binary (.of main_call11_v8 : StableHlo.TRef sig ⟨S224, .i1⟩) (.of main_call11_v10 : StableHlo.TRef sig ⟨S224, .i1⟩) (.of main_call11_v11 : StableHlo.TRef sig ⟨S224, .i1⟩) (cmpi .ne),
    StableHlo.TRef.binary (.of main_call11_v11 : StableHlo.TRef sig ⟨S224, .i1⟩) (.of main_call11_v6 : StableHlo.TRef sig ⟨S224, .i1⟩) (.of main_call11_v12 : StableHlo.TRef sig ⟨S224, .i1⟩) andi,
    StableHlo.TRef.unary (.of main_call11_v2 : StableHlo.TRef sig ⟨S_, .i32⟩) (.of main_call11_v13 : StableHlo.TRef sig ⟨S224, .i32⟩) (broadcastInDim S224 ![] bcast_S_S224),
    StableHlo.TRef.binary (.of main_call11_v4 : StableHlo.TRef sig ⟨S224, .i32⟩) (.of main_call11_v13 : StableHlo.TRef sig ⟨S224, .i32⟩) (.of main_call11_v14 : StableHlo.TRef sig ⟨S224, .i32⟩) addi,
    StableHlo.TRef.ternary (.of main_call11_v12 : StableHlo.TRef sig ⟨S224, .i1⟩) (.of main_call11_v14 : StableHlo.TRef sig ⟨S224, .i32⟩) (.of main_call11_v4 : StableHlo.TRef sig ⟨S224, .i32⟩) (.of main_v237 : StableHlo.TRef sig ⟨S224, .i32⟩) select ]

set_option maxHeartbeats 40000000 in
/-- 26 host operations of @main, window 6, in order. -/
abbrev w6_s6 : List (HloOp τ sig (Elt F)) :=
  [ StableHlo.unary main_v237 main_v238 (broadcastInDim S1x224 ![1] bcast_S224_S1x224_1 : (⟨S224, .i32⟩ : BufTy).Contents (Elt F) → (⟨S1x224, .i32⟩ : BufTy).Contents (Elt F)),
    StableHlo.nullary main_c_155 (constantI S_ 32 0#32),
    StableHlo.unary main_c_155 main_v239 (broadcastInDim S16x224x1 ![] bcast_S_S16x224x1 : (⟨S_, .i32⟩ : BufTy).Contents (Elt F) → (⟨S16x224x1, .i32⟩ : BufTy).Contents (Elt F)),
    StableHlo.binary main_v236 main_v239 main_v240 (cmpi .slt : (⟨S16x224x1, .i32⟩ : BufTy).Contents (Elt F) → (⟨S16x224x1, .i32⟩ : BufTy).Contents (Elt F) → (⟨S16x224x1, .i1⟩ : BufTy).Contents (Elt F)),
    StableHlo.nullary main_c_156 (constantI S_ 32 164#32),
    StableHlo.unary main_c_156 main_v241 (broadcastInDim S16x224x1 ![] bcast_S_S16x224x1 : (⟨S_, .i32⟩ : BufTy).Contents (Elt F) → (⟨S16x224x1, .i32⟩ : BufTy).Contents (Elt F)),
    StableHlo.binary main_v236 main_v241 main_v242 (addi : (⟨S16x224x1, .i32⟩ : BufTy).Contents (Elt F) → (⟨S16x224x1, .i32⟩ : BufTy).Contents (Elt F) → (⟨S16x224x1, .i32⟩ : BufTy).Contents (Elt F)),
    StableHlo.ternary main_v240 main_v242 main_v236 main_v243 (select : (⟨S16x224x1, .i1⟩ : BufTy).Contents (Elt F) → (⟨S16x224x1, .i32⟩ : BufTy).Contents (Elt F) → (⟨S16x224x1, .i32⟩ : BufTy).Contents (Elt F) → (⟨S16x224x1, .i32⟩ : BufTy).Contents (Elt F)),
    StableHlo.nullary main_c_157 (constantI S_ 32 0#32),
    StableHlo.unary main_c_157 main_v244 (broadcastInDim S1x224 ![] bcast_S_S1x224 : (⟨S_, .i32⟩ : BufTy).Contents (Elt F) → (⟨S1x224, .i32⟩ : BufTy).Contents (Elt F)),
    StableHlo.binary main_v238 main_v244 main_v245 (cmpi .slt : (⟨S1x224, .i32⟩ : BufTy).Contents (Elt F) → (⟨S1x224, .i32⟩ : BufTy).Contents (Elt F) → (⟨S1x224, .i1⟩ : BufTy).Contents (Elt F)),
    StableHlo.nullary main_c_158 (constantI S_ 32 10#32),
    StableHlo.unary main_c_158 main_v246 (broadcastInDim S1x224 ![] bcast_S_S1x224 : (⟨S_, .i32⟩ : BufTy).Contents (Elt F) → (⟨S1x224, .i32⟩ : BufTy).Contents (Elt F)),
    StableHlo.binary main_v238 main_v246 main_v247 (addi : (⟨S1x224, .i32⟩ : BufTy).Contents (Elt F) → (⟨S1x224, .i32⟩ : BufTy).Contents (Elt F) → (⟨S1x224, .i32⟩ : BufTy).Contents (Elt F)),
    StableHlo.ternary main_v245 main_v247 main_v238 main_v248 (select : (⟨S1x224, .i1⟩ : BufTy).Contents (Elt F) → (⟨S1x224, .i32⟩ : BufTy).Contents (Elt F) → (⟨S1x224, .i32⟩ : BufTy).Contents (Elt F) → (⟨S1x224, .i32⟩ : BufTy).Contents (Elt F)),
    StableHlo.unary main_v243 main_v249 (broadcastInDim S16x224x224 ![0, 1, 2] bcast_S16x224x1_S16x224x224_0_1_2 : (⟨S16x224x1, .i32⟩ : BufTy).Contents (Elt F) → (⟨S16x224x224, .i32⟩ : BufTy).Contents (Elt F)),
    StableHlo.unary main_v248 main_v250 (broadcastInDim S224x224 ![0, 1] bcast_S1x224_S224x224_0_1 : (⟨S1x224, .i32⟩ : BufTy).Contents (Elt F) → (⟨S224x224, .i32⟩ : BufTy).Contents (Elt F)),
    StableHlo.unary main_v249 main_v251 (broadcastInDim S16x224x224x1 ![0, 1, 2] bcast_S16x224x224_S16x224x224x1_0_1_2 : (⟨S16x224x224, .i32⟩ : BufTy).Contents (Elt F) → (⟨S16x224x224x1, .i32⟩ : BufTy).Contents (Elt F)),
    StableHlo.unary main_v250 main_v252 (broadcastInDim S224x224x1 ![0, 1] bcast_S224x224_S224x224x1_0_1 : (⟨S224x224, .i32⟩ : BufTy).Contents (Elt F) → (⟨S224x224x1, .i32⟩ : BufTy).Contents (Elt F)),
    StableHlo.unary main_v252 main_v253 (broadcastInDim S16x224x224x1 ![1, 2, 3] bcast_S224x224x1_S16x224x224x1_1_2_3 : (⟨S224x224x1, .i32⟩ : BufTy).Contents (Elt F) → (⟨S16x224x224x1, .i32⟩ : BufTy).Contents (Elt F)),
    StableHlo.binary main_v251 main_v253 main_v254 ((fun a b => concatenate S16x224x224x2 3 [⟨S16x224x224x1, a⟩, ⟨S16x224x224x1, b⟩] concatenates_S16x224x224x1_S16x224x224x1_S16x224x224x2_d3) : (⟨S16x224x224x1, .i32⟩ : BufTy).Contents (Elt F) → (⟨S16x224x224x1, .i32⟩ : BufTy).Contents (Elt F) → (⟨S16x224x224x2, .i32⟩ : BufTy).Contents (Elt F)),
    StableHlo.binary main_v125 main_v254 main_v255 ((fun x i => Host.gather gather_S16x3x164x10_S16x224x224x2_S16x3x224x224_1_23_0_0_23_3_1311 x i) : (⟨S16x3x164x10, .f32⟩ : BufTy).Contents (Elt F) → (⟨S16x224x224x2, .i32⟩ : BufTy).Contents (Elt F) → (⟨S16x3x224x224, .f32⟩ : BufTy).Contents (Elt F)),
    StableHlo.nullary main_c_159 (constantI S_ 32 0#32),
    StableHlo.unary main_c_159 main_v256 (broadcastInDim S16x224 ![] bcast_S_S16x224 : (⟨S_, .i32⟩ : BufTy).Contents (Elt F) → (⟨S16x224, .i32⟩ : BufTy).Contents (Elt F)),
    StableHlo.binary main_v228 main_v256 main_v257 (cmpi .slt : (⟨S16x224, .i32⟩ : BufTy).Contents (Elt F) → (⟨S16x224, .i32⟩ : BufTy).Contents (Elt F) → (⟨S16x224, .i1⟩ : BufTy).Contents (Elt F)),
    StableHlo.nullary main_c_160 (constantI S_ 32 164#32) ]

end Cert.ReferenceIdeal.Hand

end
-- ==== Proof.RefRunW6.lean ====
/- The run of the reference's @main, part 2 of 3, window 6 (statements 361 … 420): the window is the chain of its
   tables' sequences, and each table is a good list. -/
import proofs.«144763_j39642548142243_2_alg».proof.Proof.RefRunBase
import proofs.«144763_j39642548142243_2_alg».proof.Proof.RefRunT6

set_option maxRecDepth 5964

noncomputable section

namespace Cert.ReferenceIdeal.Hand

open Cert.ReferenceIdeal Idealize.ShloMosaic Idealize.SL.Sem Idealize.ShloMosaic.StableHlo

variable {F : FTy → Type} [FloatOps F] [Facts]

/-- The window is its stretches in order — @main's own operations, and at each call the callee's operations over
    the call's buffers —, its last statement in tail position: both sides unfold to the same line of steps. -/
theorem w6_chain (c : Dev nD) : main_part6 (F := F) c = (Pipeline.chainK
  [ seq w6_s0,
    seq w6_s1,
    seq w6_s2,
    seq w6_s3,
    seq w6_s4,
    seq w6_s5 ]
  (seq w6_s6) : Prog (TpuEff nD τ sig (Elt F) (Pipeline.Sig Λ₀ (Fin 0) fun p => (pcfgs (F := F) p).Adm) .tc) PUnit) := by
  chain_rfl

theorem w6_s0_good : Good (w6_s0 (F := F)) := by hlo_good
theorem w6_s1_good : Good (w6_s1 (F := F)) := by hlo_good
theorem w6_s2_good : Good (w6_s2 (F := F)) := by hlo_good
theorem w6_s3_good : Good (w6_s3 (F := F)) := by hlo_good
theorem w6_s4_good : Good (w6_s4 (F := F)) := by hlo_good
theorem w6_s5_good : Good (w6_s5 (F := F)) := by hlo_good
theorem w6_s6_good : Good (w6_s6 (F := F)) := by hlo_good

end Cert.ReferenceIdeal.Hand

end
-- ==== Proof.RefRunT7.lean ====
import proofs.«144763_j39642548142243_2_alg».proof.ReferenceIdeal

set_option synthInstance.maxSize 4096

noncomputable section

namespace Cert.ReferenceIdeal.Hand

open Cert.ReferenceIdeal Idealize.ShloMosaic Idealize.SL.Sem

variable {F : FTy → Type} [FloatOps F] [Facts]
open Facts₀ Facts

set_option maxHeartbeats 40000000 in
/-- 6 host operations of @main, window 7, in order. -/
abbrev w7_s0 : List (HloOp τ sig (Elt F)) :=
  [ StableHlo.unary main_c_160 main_v258 (broadcastInDim S16x224 ![] bcast_S_S16x224 : (⟨S_, .i32⟩ : BufTy).Contents (Elt F) → (⟨S16x224, .i32⟩ : BufTy).Contents (Elt F)),
    StableHlo.binary main_v228 main_v258 main_v259 (addi : (⟨S16x224, .i32⟩ : BufTy).Contents (Elt F) → (⟨S16x224, .i32⟩ : BufTy).Contents (Elt F) → (⟨S16x224, .i32⟩ : BufTy).Contents (Elt F)),
    StableHlo.ternary main_v257 main_v259 main_v228 main_v260 (select : (⟨S16x224, .i1⟩ : BufTy).Contents (Elt F) → (⟨S16x224, .i32⟩ : BufTy).Contents (Elt F) → (⟨S16x224, .i32⟩ : BufTy).Contents (Elt F) → (⟨S16x224, .i32⟩ : BufTy).Contents (Elt F)),
    StableHlo.unary main_v260 main_v261 (broadcastInDim S16x224x1 ![0, 1] bcast_S16x224_S16x224x1_0_1 : (⟨S16x224, .i32⟩ : BufTy).Contents (Elt F) → (⟨S16x224x1, .i32⟩ : BufTy).Contents (Elt F)),
    StableHlo.binary main_v104 main_v261 main_v262 ((fun x i => Host.gather gather_S16x3x164_S16x224x1_S16x3x224_1_2_0_0_2_2_131 x i) : (⟨S16x3x164, .f32⟩ : BufTy).Contents (Elt F) → (⟨S16x224x1, .i32⟩ : BufTy).Contents (Elt F) → (⟨S16x3x224, .f32⟩ : BufTy).Contents (Elt F)),
    StableHlo.unary main_v262 main_v263 (broadcastInDim S16x3x224x1 ![0, 1, 2] bcast_S16x3x224_S16x3x224x1_0_1_2 : (⟨S16x3x224, .f32⟩ : BufTy).Contents (Elt F) → (⟨S16x3x224x1, .f32⟩ : BufTy).Contents (Elt F)) ]

set_option maxHeartbeats 40000000 in
/-- 3 host operations of fn_where_6 (main_call12), window 7, in order. -/
abbrev w7_s1 : List (HloOp τ sig (Elt F)) :=
  [ StableHlo.TRef.unary (.of main_v235 : StableHlo.TRef sig ⟨S16x1x224, .i1⟩) (.of main_call12_v0 : StableHlo.TRef sig ⟨S16x3x224x224, .i1⟩) (broadcastInDim S16x3x224x224 ![0, 2, 3] bcast_S16x1x224_S16x3x224x224_0_2_3),
    StableHlo.TRef.unary (.of main_v263 : StableHlo.TRef sig ⟨S16x3x224x1, .f32⟩) (.of main_call12_v1 : StableHlo.TRef sig ⟨S16x3x224x224, .f32⟩) (broadcastInDim S16x3x224x224 ![0, 1, 2, 3] bcast_S16x3x224x1_S16x3x224x224_0_1_2_3),
    StableHlo.TRef.ternary (.of main_call12_v0 : StableHlo.TRef sig ⟨S16x3x224x224, .i1⟩) (.of main_v255 : StableHlo.TRef sig ⟨S16x3x224x224, .f32⟩) (.of main_call12_v1 : StableHlo.TRef sig ⟨S16x3x224x224, .f32⟩) (.of main_v264 : StableHlo.TRef sig ⟨S16x3x224x224, .f32⟩) select ]

set_option maxHeartbeats 40000000 in
/-- 12 host operations of @main, window 7, in order. -/
abbrev w7_s2 : List (HloOp τ sig (Elt F)) :=
  [ StableHlo.nullary main_c_161 (constantI S_ 32 224#32),
    StableHlo.unary main_c_161 main_v265 (broadcastInDim S16 ![] bcast_S_S16 : (⟨S_, .i32⟩ : BufTy).Contents (Elt F) → (⟨S16, .i32⟩ : BufTy).Contents (Elt F)),
    StableHlo.binary main_v265 main_arg10 main_v266 (subi : (⟨S16, .i32⟩ : BufTy).Contents (Elt F) → (⟨S16, .i32⟩ : BufTy).Contents (Elt F) → (⟨S16, .i32⟩ : BufTy).Contents (Elt F)),
    StableHlo.unary main_v179 main_v267 (broadcastInDim S1x224 ![1] bcast_S224_S1x224_1 : (⟨S224, .i32⟩ : BufTy).Contents (Elt F) → (⟨S1x224, .i32⟩ : BufTy).Contents (Elt F)),
    StableHlo.unary main_v266 main_v268 (broadcastInDim S16x1 ![0] bcast_S16_S16x1_0 : (⟨S16, .i32⟩ : BufTy).Contents (Elt F) → (⟨S16x1, .i32⟩ : BufTy).Contents (Elt F)),
    StableHlo.unary main_v267 main_v269 (broadcastInDim S16x224 ![0, 1] bcast_S1x224_S16x224_0_1 : (⟨S1x224, .i32⟩ : BufTy).Contents (Elt F) → (⟨S16x224, .i32⟩ : BufTy).Contents (Elt F)),
    StableHlo.unary main_v268 main_v270 (broadcastInDim S16x224 ![0, 1] bcast_S16x1_S16x224_0_1 : (⟨S16x1, .i32⟩ : BufTy).Contents (Elt F) → (⟨S16x224, .i32⟩ : BufTy).Contents (Elt F)),
    StableHlo.binary main_v269 main_v270 main_v271 (subi : (⟨S16x224, .i32⟩ : BufTy).Contents (Elt F) → (⟨S16x224, .i32⟩ : BufTy).Contents (Elt F) → (⟨S16x224, .i32⟩ : BufTy).Contents (Elt F)),
    StableHlo.unary main_v176 main_v272 (broadcastInDim S16x1 ![0] bcast_S16_S16x1_0 : (⟨S16, .i32⟩ : BufTy).Contents (Elt F) → (⟨S16x1, .i32⟩ : BufTy).Contents (Elt F)),
    StableHlo.unary main_v272 main_v273 (broadcastInDim S16x224 ![0, 1] bcast_S16x1_S16x224_0_1 : (⟨S16x1, .i32⟩ : BufTy).Contents (Elt F) → (⟨S16x224, .i32⟩ : BufTy).Contents (Elt F)),
    StableHlo.binary main_v271 main_v273 main_v274 (subi : (⟨S16x224, .i32⟩ : BufTy).Contents (Elt F) → (⟨S16x224, .i32⟩ : BufTy).Contents (Elt F) → (⟨S16x224, .i32⟩ : BufTy).Contents (Elt F)),
    StableHlo.nullary main_c_162 (constantI S_ 32 10#32) ]

set_option maxHeartbeats 40000000 in
/-- 21 host operations of fn_remainder_7 (main_call13), window 7, in order. -/
abbrev w7_s3 : List (HloOp τ sig (Elt F)) :=
  [ StableHlo.TRef.unary (.of main_c_162 : StableHlo.TRef sig ⟨S_, .i32⟩) (.of main_call13_v0 : StableHlo.TRef sig ⟨S_, .i32⟩) id,
    StableHlo.TRef.nullary (.of main_call13_c : StableHlo.TRef sig ⟨S_, .i32⟩) (constantI S_ 32 0#32),
    StableHlo.TRef.binary (.of main_call13_v0 : StableHlo.TRef sig ⟨S_, .i32⟩) (.of main_call13_c : StableHlo.TRef sig ⟨S_, .i32⟩) (.of main_call13_v1 : StableHlo.TRef sig ⟨S_, .i1⟩) (cmpi .eq),
    StableHlo.TRef.nullary (.of main_call13_c_0 : StableHlo.TRef sig ⟨S_, .i32⟩) (constantI S_ 32 1#32),
    StableHlo.TRef.ternary (.of main_call13_v1 : StableHlo.TRef sig ⟨S_, .i1⟩) (.of main_call13_c_0 : StableHlo.TRef sig ⟨S_, .i32⟩) (.of main_call13_v0 : StableHlo.TRef sig ⟨S_, .i32⟩) (.of main_call13_v2 : StableHlo.TRef sig ⟨S_, .i32⟩) select,
    StableHlo.TRef.unary (.of main_call13_v2 : StableHlo.TRef sig ⟨S_, .i32⟩) (.of main_call13_v3 : StableHlo.TRef sig ⟨S16x224, .i32⟩) (broadcastInDim S16x224 ![] bcast_S_S16x224),
    StableHlo.TRef.binary (.of main_v274 : StableHlo.TRef sig ⟨S16x224, .i32⟩) (.of main_call13_v3 : StableHlo.TRef sig ⟨S16x224, .i32⟩) (.of main_call13_v4 : StableHlo.TRef sig ⟨S16x224, .i32⟩) Host.remsi,
    StableHlo.TRef.nullary (.of main_call13_c_1 : StableHlo.TRef sig ⟨S_, .i32⟩) (constantI S_ 32 0#32),
    StableHlo.TRef.unary (.of main_call13_c_1 : StableHlo.TRef sig ⟨S_, .i32⟩) (.of main_call13_v5 : StableHlo.TRef sig ⟨S16x224, .i32⟩) (broadcastInDim S16x224 ![] bcast_S_S16x224),
    StableHlo.TRef.binary (.of main_call13_v4 : StableHlo.TRef sig ⟨S16x224, .i32⟩) (.of main_call13_v5 : StableHlo.TRef sig ⟨S16x224, .i32⟩) (.of main_call13_v6 : StableHlo.TRef sig ⟨S16x224, .i1⟩) (cmpi .ne),
    StableHlo.TRef.nullary (.of main_call13_c_2 : StableHlo.TRef sig ⟨S_, .i32⟩) (constantI S_ 32 0#32),
    StableHlo.TRef.unary (.of main_call13_c_2 : StableHlo.TRef sig ⟨S_, .i32⟩) (.of main_call13_v7 : StableHlo.TRef sig ⟨S16x224, .i32⟩) (broadcastInDim S16x224 ![] bcast_S_S16x224),
    StableHlo.TRef.binary (.of main_call13_v4 : StableHlo.TRef sig ⟨S16x224, .i32⟩) (.of main_call13_v7 : StableHlo.TRef sig ⟨S16x224, .i32⟩) (.of main_call13_v8 : StableHlo.TRef sig ⟨S16x224, .i1⟩) (cmpi .slt),
    StableHlo.TRef.nullary (.of main_call13_c_3 : StableHlo.TRef sig ⟨S_, .i32⟩) (constantI S_ 32 0#32),
    StableHlo.TRef.binary (.of main_call13_v2 : StableHlo.TRef sig ⟨S_, .i32⟩) (.of main_call13_c_3 : StableHlo.TRef sig ⟨S_, .i32⟩) (.of main_call13_v9 : StableHlo.TRef sig ⟨S_, .i1⟩) (cmpi .slt),
    StableHlo.TRef.unary (.of main_call13_v9 : StableHlo.TRef sig ⟨S_, .i1⟩) (.of main_call13_v10 : StableHlo.TRef sig ⟨S16x224, .i1⟩) (broadcastInDim S16x224 ![] bcast_S_S16x224),
    StableHlo.TRef.binary (.of main_call13_v8 : StableHlo.TRef sig ⟨S16x224, .i1⟩) (.of main_call13_v10 : StableHlo.TRef sig ⟨S16x224, .i1⟩) (.of main_call13_v11 : StableHlo.TRef sig ⟨S16x224, .i1⟩) (cmpi .ne),
    StableHlo.TRef.binary (.of main_call13_v11 : StableHlo.TRef sig ⟨S16x224, .i1⟩) (.of main_call13_v6 : StableHlo.TRef sig ⟨S16x224, .i1⟩) (.of main_call13_v12 : StableHlo.TRef sig ⟨S16x224, .i1⟩) andi,
    StableHlo.TRef.unary (.of main_call13_v2 : StableHlo.TRef sig ⟨S_, .i32⟩) (.of main_call13_v13 : StableHlo.TRef sig ⟨S16x224, .i32⟩) (broadcastInDim S16x224 ![] bcast_S_S16x224),
    StableHlo.TRef.binary (.of main_call13_v4 : StableHlo.TRef sig ⟨S16x224, .i32⟩) (.of main_call13_v13 : StableHlo.TRef sig ⟨S16x224, .i32⟩) (.of main_call13_v14 : StableHlo.TRef sig ⟨S16x224, .i32⟩) addi,
    StableHlo.TRef.ternary (.of main_call13_v12 : StableHlo.TRef sig ⟨S16x224, .i1⟩) (.of main_call13_v14 : StableHlo.TRef sig ⟨S16x224, .i32⟩) (.of main_call13_v4 : StableHlo.TRef sig ⟨S16x224, .i32⟩) (.of main_v275 : StableHlo.TRef sig ⟨S16x224, .i32⟩) select ]

set_option maxHeartbeats 40000000 in
/-- 36 host operations of @main, window 7, in order. -/
abbrev w7_s4 : List (HloOp τ sig (Elt F)) :=
  [ StableHlo.unary main_v271 main_v276 (broadcastInDim S16x1x224 ![0, 2] bcast_S16x224_S16x1x224_0_2 : (⟨S16x224, .i32⟩ : BufTy).Contents (Elt F) → (⟨S16x1x224, .i32⟩ : BufTy).Contents (Elt F)),
    StableHlo.unary main_v176 main_v277 (broadcastInDim S16x1x1 ![0] bcast_S16_S16x1x1_0 : (⟨S16, .i32⟩ : BufTy).Contents (Elt F) → (⟨S16x1x1, .i32⟩ : BufTy).Contents (Elt F)),
    StableHlo.unary main_v277 main_v278 (broadcastInDim S16x1x224 ![0, 1, 2] bcast_S16x1x1_S16x1x224_0_1_2 : (⟨S16x1x1, .i32⟩ : BufTy).Contents (Elt F) → (⟨S16x1x224, .i32⟩ : BufTy).Contents (Elt F)),
    StableHlo.binary main_v276 main_v278 main_v279 (cmpi .slt : (⟨S16x1x224, .i32⟩ : BufTy).Contents (Elt F) → (⟨S16x1x224, .i32⟩ : BufTy).Contents (Elt F) → (⟨S16x1x224, .i1⟩ : BufTy).Contents (Elt F)),
    StableHlo.nullary main_c_163 (constantI S_ 32 0#32),
    StableHlo.unary main_c_163 main_v280 (broadcastInDim S16x224 ![] bcast_S_S16x224 : (⟨S_, .i32⟩ : BufTy).Contents (Elt F) → (⟨S16x224, .i32⟩ : BufTy).Contents (Elt F)),
    StableHlo.binary main_v228 main_v280 main_v281 (cmpi .slt : (⟨S16x224, .i32⟩ : BufTy).Contents (Elt F) → (⟨S16x224, .i32⟩ : BufTy).Contents (Elt F) → (⟨S16x224, .i1⟩ : BufTy).Contents (Elt F)),
    StableHlo.nullary main_c_164 (constantI S_ 32 164#32),
    StableHlo.unary main_c_164 main_v282 (broadcastInDim S16x224 ![] bcast_S_S16x224 : (⟨S_, .i32⟩ : BufTy).Contents (Elt F) → (⟨S16x224, .i32⟩ : BufTy).Contents (Elt F)),
    StableHlo.binary main_v228 main_v282 main_v283 (addi : (⟨S16x224, .i32⟩ : BufTy).Contents (Elt F) → (⟨S16x224, .i32⟩ : BufTy).Contents (Elt F) → (⟨S16x224, .i32⟩ : BufTy).Contents (Elt F)),
    StableHlo.ternary main_v281 main_v283 main_v228 main_v284 (select : (⟨S16x224, .i1⟩ : BufTy).Contents (Elt F) → (⟨S16x224, .i32⟩ : BufTy).Contents (Elt F) → (⟨S16x224, .i32⟩ : BufTy).Contents (Elt F) → (⟨S16x224, .i32⟩ : BufTy).Contents (Elt F)),
    StableHlo.unary main_v284 main_v285 (broadcastInDim S16x224x1 ![0, 1] bcast_S16x224_S16x224x1_0_1 : (⟨S16x224, .i32⟩ : BufTy).Contents (Elt F) → (⟨S16x224x1, .i32⟩ : BufTy).Contents (Elt F)),
    StableHlo.binary main_v146 main_v285 main_v286 ((fun x i => Host.gather gather_S16x3x164_S16x224x1_S16x3x224_1_2_0_0_2_2_131 x i) : (⟨S16x3x164, .f32⟩ : BufTy).Contents (Elt F) → (⟨S16x224x1, .i32⟩ : BufTy).Contents (Elt F) → (⟨S16x3x224, .f32⟩ : BufTy).Contents (Elt F)),
    StableHlo.unary main_v286 main_v287 (broadcastInDim S16x3x224x1 ![0, 1, 2] bcast_S16x3x224_S16x3x224x1_0_1_2 : (⟨S16x3x224, .f32⟩ : BufTy).Contents (Elt F) → (⟨S16x3x224x1, .f32⟩ : BufTy).Contents (Elt F)),
    StableHlo.unary main_v228 main_v288 (broadcastInDim S16x224x1 ![0, 1] bcast_S16x224_S16x224x1_0_1 : (⟨S16x224, .i32⟩ : BufTy).Contents (Elt F) → (⟨S16x224x1, .i32⟩ : BufTy).Contents (Elt F)),
    StableHlo.unary main_v275 main_v289 (broadcastInDim S16x1x224 ![0, 2] bcast_S16x224_S16x1x224_0_2 : (⟨S16x224, .i32⟩ : BufTy).Contents (Elt F) → (⟨S16x1x224, .i32⟩ : BufTy).Contents (Elt F)),
    StableHlo.nullary main_c_165 (constantI S_ 32 0#32),
    StableHlo.unary main_c_165 main_v290 (broadcastInDim S16x224x1 ![] bcast_S_S16x224x1 : (⟨S_, .i32⟩ : BufTy).Contents (Elt F) → (⟨S16x224x1, .i32⟩ : BufTy).Contents (Elt F)),
    StableHlo.binary main_v288 main_v290 main_v291 (cmpi .slt : (⟨S16x224x1, .i32⟩ : BufTy).Contents (Elt F) → (⟨S16x224x1, .i32⟩ : BufTy).Contents (Elt F) → (⟨S16x224x1, .i1⟩ : BufTy).Contents (Elt F)),
    StableHlo.nullary main_c_166 (constantI S_ 32 164#32),
    StableHlo.unary main_c_166 main_v292 (broadcastInDim S16x224x1 ![] bcast_S_S16x224x1 : (⟨S_, .i32⟩ : BufTy).Contents (Elt F) → (⟨S16x224x1, .i32⟩ : BufTy).Contents (Elt F)),
    StableHlo.binary main_v288 main_v292 main_v293 (addi : (⟨S16x224x1, .i32⟩ : BufTy).Contents (Elt F) → (⟨S16x224x1, .i32⟩ : BufTy).Contents (Elt F) → (⟨S16x224x1, .i32⟩ : BufTy).Contents (Elt F)),
    StableHlo.ternary main_v291 main_v293 main_v288 main_v294 (select : (⟨S16x224x1, .i1⟩ : BufTy).Contents (Elt F) → (⟨S16x224x1, .i32⟩ : BufTy).Contents (Elt F) → (⟨S16x224x1, .i32⟩ : BufTy).Contents (Elt F) → (⟨S16x224x1, .i32⟩ : BufTy).Contents (Elt F)),
    StableHlo.nullary main_c_167 (constantI S_ 32 0#32),
    StableHlo.unary main_c_167 main_v295 (broadcastInDim S16x1x224 ![] bcast_S_S16x1x224 : (⟨S_, .i32⟩ : BufTy).Contents (Elt F) → (⟨S16x1x224, .i32⟩ : BufTy).Contents (Elt F)),
    StableHlo.binary main_v289 main_v295 main_v296 (cmpi .slt : (⟨S16x1x224, .i32⟩ : BufTy).Contents (Elt F) → (⟨S16x1x224, .i32⟩ : BufTy).Contents (Elt F) → (⟨S16x1x224, .i1⟩ : BufTy).Contents (Elt F)),
    StableHlo.nullary main_c_168 (constantI S_ 32 10#32),
    StableHlo.unary main_c_168 main_v297 (broadcastInDim S16x1x224 ![] bcast_S_S16x1x224 : (⟨S_, .i32⟩ : BufTy).Contents (Elt F) → (⟨S16x1x224, .i32⟩ : BufTy).Contents (Elt F)),
    StableHlo.binary main_v289 main_v297 main_v298 (addi : (⟨S16x1x224, .i32⟩ : BufTy).Contents (Elt F) → (⟨S16x1x224, .i32⟩ : BufTy).Contents (Elt F) → (⟨S16x1x224, .i32⟩ : BufTy).Contents (Elt F)),
    StableHlo.ternary main_v296 main_v298 main_v289 main_v299 (select : (⟨S16x1x224, .i1⟩ : BufTy).Contents (Elt F) → (⟨S16x1x224, .i32⟩ : BufTy).Contents (Elt F) → (⟨S16x1x224, .i32⟩ : BufTy).Contents (Elt F) → (⟨S16x1x224, .i32⟩ : BufTy).Contents (Elt F)),
    StableHlo.unary main_v294 main_v300 (broadcastInDim S16x224x224 ![0, 1, 2] bcast_S16x224x1_S16x224x224_0_1_2 : (⟨S16x224x1, .i32⟩ : BufTy).Contents (Elt F) → (⟨S16x224x224, .i32⟩ : BufTy).Contents (Elt F)),
    StableHlo.unary main_v299 main_v301 (broadcastInDim S16x224x224 ![0, 1, 2] bcast_S16x1x224_S16x224x224_0_1_2 : (⟨S16x1x224, .i32⟩ : BufTy).Contents (Elt F) → (⟨S16x224x224, .i32⟩ : BufTy).Contents (Elt F)),
    StableHlo.unary main_v300 main_v302 (broadcastInDim S16x224x224x1 ![0, 1, 2] bcast_S16x224x224_S16x224x224x1_0_1_2 : (⟨S16x224x224, .i32⟩ : BufTy).Contents (Elt F) → (⟨S16x224x224x1, .i32⟩ : BufTy).Contents (Elt F)),
    StableHlo.unary main_v301 main_v303 (broadcastInDim S16x224x224x1 ![0, 1, 2] bcast_S16x224x224_S16x224x224x1_0_1_2 : (⟨S16x224x224, .i32⟩ : BufTy).Contents (Elt F) → (⟨S16x224x224x1, .i32⟩ : BufTy).Contents (Elt F)),
    StableHlo.binary main_v302 main_v303 main_v304 ((fun a b => concatenate S16x224x224x2 3 [⟨S16x224x224x1, a⟩, ⟨S16x224x224x1, b⟩] concatenates_S16x224x224x1_S16x224x224x1_S16x224x224x2_d3) : (⟨S16x224x224x1, .i32⟩ : BufTy).Contents (Elt F) → (⟨S16x224x224x1, .i32⟩ : BufTy).Contents (Elt F) → (⟨S16x224x224x2, .i32⟩ : BufTy).Contents (Elt F)),
    StableHlo.binary main_v167 main_v304 main_v305 ((fun x i => Host.gather gather_S16x3x164x10_S16x224x224x2_S16x3x224x224_1_23_0_0_23_3_1311 x i) : (⟨S16x3x164x10, .f32⟩ : BufTy).Contents (Elt F) → (⟨S16x224x224x2, .i32⟩ : BufTy).Contents (Elt F) → (⟨S16x3x224x224, .f32⟩ : BufTy).Contents (Elt F)) ]

set_option maxHeartbeats 40000000 in
/-- 3 host operations of fn_where_8 (main_call14), window 7, in order. -/
abbrev w7_s5 : List (HloOp τ sig (Elt F)) :=
  [ StableHlo.TRef.unary (.of main_v279 : StableHlo.TRef sig ⟨S16x1x224, .i1⟩) (.of main_call14_v0 : StableHlo.TRef sig ⟨S16x3x224x224, .i1⟩) (broadcastInDim S16x3x224x224 ![0, 2, 3] bcast_S16x1x224_S16x3x224x224_0_2_3),
    StableHlo.TRef.unary (.of main_v287 : StableHlo.TRef sig ⟨S16x3x224x1, .f32⟩) (.of main_call14_v1 : StableHlo.TRef sig ⟨S16x3x224x224, .f32⟩) (broadcastInDim S16x3x224x224 ![0, 1, 2, 3] bcast_S16x3x224x1_S16x3x224x224_0_1_2_3),
    StableHlo.TRef.ternary (.of main_call14_v0 : StableHlo.TRef sig ⟨S16x3x224x224, .i1⟩) (.of main_call14_v1 : StableHlo.TRef sig ⟨S16x3x224x224, .f32⟩) (.of main_v305 : StableHlo.TRef sig ⟨S16x3x224x224, .f32⟩) (.of main_v306 : StableHlo.TRef sig ⟨S16x3x224x224, .f32⟩) select ]

set_option maxHeartbeats 40000000 in
/-- 3 host operations of @main, window 7, in order. -/
abbrev w7_s6 : List (HloOp τ sig (Elt F)) :=
  [ StableHlo.unary main_v181 main_v307 (broadcastInDim S1x1x224 ![1, 2] bcast_S1x224_S1x1x224_1_2 : (⟨S1x224, .i32⟩ : BufTy).Contents (Elt F) → (⟨S1x1x224, .i32⟩ : BufTy).Contents (Elt F)),
    StableHlo.unary main_v169 main_v308 (broadcastInDim S16x1x1 ![0] bcast_S16_S16x1x1_0 : (⟨S16, .i32⟩ : BufTy).Contents (Elt F) → (⟨S16x1x1, .i32⟩ : BufTy).Contents (Elt F)),
    StableHlo.unary main_v307 main_v309 (broadcastInDim S16x1x224 ![0, 1, 2] bcast_S1x1x224_S16x1x224_0_1_2 : (⟨S1x1x224, .i32⟩ : BufTy).Contents (Elt F) → (⟨S16x1x224, .i32⟩ : BufTy).Contents (Elt F)) ]

end Cert.ReferenceIdeal.Hand

end
-- ==== Proof.RefRunW7.lean ====
/- The run of the reference's @main, part 2 of 3, window 7 (statements 421 … 480): the window is the chain of its
   tables' sequences, and each table is a good list. -/
import proofs.«144763_j39642548142243_2_alg».proof.Proof.RefRunBase
import proofs.«144763_j39642548142243_2_alg».proof.Proof.RefRunT7

set_option maxRecDepth 5964

noncomputable section

namespace Cert.ReferenceIdeal.Hand

open Cert.ReferenceIdeal Idealize.ShloMosaic Idealize.SL.Sem Idealize.ShloMosaic.StableHlo

variable {F : FTy → Type} [FloatOps F] [Facts]

/-- The window is its stretches in order — @main's own operations, and at each call the callee's operations over
    the call's buffers —, its last statement in tail position: both sides unfold to the same line of steps. -/
theorem w7_chain (c : Dev nD) : main_part7 (F := F) c = (Pipeline.chainK
  [ seq w7_s0,
    seq w7_s1,
    seq w7_s2,
    seq w7_s3,
    seq w7_s4,
    seq w7_s5 ]
  (seq w7_s6) : Prog (TpuEff nD τ sig (Elt F) (Pipeline.Sig Λ₀ (Fin 0) fun p => (pcfgs (F := F) p).Adm) .tc) PUnit) := by
  chain_rfl

theorem w7_s0_good : Good (w7_s0 (F := F)) := by hlo_good
theorem w7_s1_good : Good (w7_s1 (F := F)) := by hlo_good
theorem w7_s2_good : Good (w7_s2 (F := F)) := by hlo_good
theorem w7_s3_good : Good (w7_s3 (F := F)) := by hlo_good
theorem w7_s4_good : Good (w7_s4 (F := F)) := by hlo_good
theorem w7_s5_good : Good (w7_s5 (F := F)) := by hlo_good
theorem w7_s6_good : Good (w7_s6 (F := F)) := by hlo_good

end Cert.ReferenceIdeal.Hand

end
-- ==== Proof.RefRunT8.lean ====
import proofs.«144763_j39642548142243_2_alg».proof.ReferenceIdeal

set_option synthInstance.maxSize 4096

noncomputable section

namespace Cert.ReferenceIdeal.Hand

open Cert.ReferenceIdeal Idealize.ShloMosaic Idealize.SL.Sem

variable {F : FTy → Type} [FloatOps F] [Facts]
open Facts₀ Facts

set_option maxHeartbeats 40000000 in
/-- 11 host operations of @main, window 8, in order. -/
abbrev w8_s0 : List (HloOp τ sig (Elt F)) :=
  [ StableHlo.unary main_v308 main_v310 (broadcastInDim S16x1x224 ![0, 1, 2] bcast_S16x1x1_S16x1x224_0_1_2 : (⟨S16x1x1, .i32⟩ : BufTy).Contents (Elt F) → (⟨S16x1x224, .i32⟩ : BufTy).Contents (Elt F)),
    StableHlo.binary main_v309 main_v310 main_v311 (cmpi .slt : (⟨S16x1x224, .i32⟩ : BufTy).Contents (Elt F) → (⟨S16x1x224, .i32⟩ : BufTy).Contents (Elt F) → (⟨S16x1x224, .i1⟩ : BufTy).Contents (Elt F)),
    StableHlo.nullary main_c_169 (constantI S_ 32 224#32),
    StableHlo.unary main_c_169 main_v312 (broadcastInDim S16 ![] bcast_S_S16 : (⟨S_, .i32⟩ : BufTy).Contents (Elt F) → (⟨S16, .i32⟩ : BufTy).Contents (Elt F)),
    StableHlo.binary main_v312 main_arg10 main_v313 (subi : (⟨S16, .i32⟩ : BufTy).Contents (Elt F) → (⟨S16, .i32⟩ : BufTy).Contents (Elt F) → (⟨S16, .i32⟩ : BufTy).Contents (Elt F)),
    StableHlo.unary main_v181 main_v314 (broadcastInDim S1x1x224 ![1, 2] bcast_S1x224_S1x1x224_1_2 : (⟨S1x224, .i32⟩ : BufTy).Contents (Elt F) → (⟨S1x1x224, .i32⟩ : BufTy).Contents (Elt F)),
    StableHlo.unary main_v313 main_v315 (broadcastInDim S16x1x1 ![0] bcast_S16_S16x1x1_0 : (⟨S16, .i32⟩ : BufTy).Contents (Elt F) → (⟨S16x1x1, .i32⟩ : BufTy).Contents (Elt F)),
    StableHlo.unary main_v314 main_v316 (broadcastInDim S16x1x224 ![0, 1, 2] bcast_S1x1x224_S16x1x224_0_1_2 : (⟨S1x1x224, .i32⟩ : BufTy).Contents (Elt F) → (⟨S16x1x224, .i32⟩ : BufTy).Contents (Elt F)),
    StableHlo.unary main_v315 main_v317 (broadcastInDim S16x1x224 ![0, 1, 2] bcast_S16x1x1_S16x1x224_0_1_2 : (⟨S16x1x1, .i32⟩ : BufTy).Contents (Elt F) → (⟨S16x1x224, .i32⟩ : BufTy).Contents (Elt F)),
    StableHlo.binary main_v316 main_v317 main_v318 (cmpi .sge : (⟨S16x1x224, .i32⟩ : BufTy).Contents (Elt F) → (⟨S16x1x224, .i32⟩ : BufTy).Contents (Elt F) → (⟨S16x1x224, .i1⟩ : BufTy).Contents (Elt F)),
    StableHlo.nullary main_cst (constant S_ .f32 0x00000000#32) ]

set_option maxHeartbeats 40000000 in
/-- 4 host operations of fn_where_9 (main_call15), window 8, in order. -/
abbrev w8_s1 : List (HloOp τ sig (Elt F)) :=
  [ StableHlo.TRef.unary (.of main_v318 : StableHlo.TRef sig ⟨S16x1x224, .i1⟩) (.of main_call15_v0 : StableHlo.TRef sig ⟨S16x3x224x224, .i1⟩) (broadcastInDim S16x3x224x224 ![0, 2, 3] bcast_S16x1x224_S16x3x224x224_0_2_3),
    StableHlo.TRef.unary (.of main_cst : StableHlo.TRef sig ⟨S_, .f32⟩) (.of main_call15_v1 : StableHlo.TRef sig ⟨S3x224x224, .f32⟩) (broadcastInDim S3x224x224 ![] bcast_S_S3x224x224),
    StableHlo.TRef.unary (.of main_call15_v1 : StableHlo.TRef sig ⟨S3x224x224, .f32⟩) (.of main_call15_v2 : StableHlo.TRef sig ⟨S16x3x224x224, .f32⟩) (broadcastInDim S16x3x224x224 ![1, 2, 3] bcast_S3x224x224_S16x3x224x224_1_2_3),
    StableHlo.TRef.ternary (.of main_call15_v0 : StableHlo.TRef sig ⟨S16x3x224x224, .i1⟩) (.of main_v306 : StableHlo.TRef sig ⟨S16x3x224x224, .f32⟩) (.of main_call15_v2 : StableHlo.TRef sig ⟨S16x3x224x224, .f32⟩) (.of main_v319 : StableHlo.TRef sig ⟨S16x3x224x224, .f32⟩) select ]

set_option maxHeartbeats 40000000 in
/-- 2 host operations of fn_where_10 (main_call16), window 8, in order. -/
abbrev w8_s2 : List (HloOp τ sig (Elt F)) :=
  [ StableHlo.TRef.unary (.of main_v311 : StableHlo.TRef sig ⟨S16x1x224, .i1⟩) (.of main_call16_v0 : StableHlo.TRef sig ⟨S16x3x224x224, .i1⟩) (broadcastInDim S16x3x224x224 ![0, 2, 3] bcast_S16x1x224_S16x3x224x224_0_2_3),
    StableHlo.TRef.ternary (.of main_call16_v0 : StableHlo.TRef sig ⟨S16x3x224x224, .i1⟩) (.of main_v264 : StableHlo.TRef sig ⟨S16x3x224x224, .f32⟩) (.of main_v319 : StableHlo.TRef sig ⟨S16x3x224x224, .f32⟩) (.of main_v320 : StableHlo.TRef sig ⟨S16x3x224x224, .f32⟩) select ]

set_option maxHeartbeats 40000000 in
/-- 13 host operations of @main, window 8, in order. -/
abbrev w8_s3 : List (HloOp τ sig (Elt F)) :=
  [ StableHlo.unary main_v180 main_v321 (broadcastInDim S1x224x1 ![1, 2] bcast_S224x1_S1x224x1_1_2 : (⟨S224x1, .i32⟩ : BufTy).Contents (Elt F) → (⟨S1x224x1, .i32⟩ : BufTy).Contents (Elt F)),
    StableHlo.unary main_v171 main_v322 (broadcastInDim S16x1x1 ![0] bcast_S16_S16x1x1_0 : (⟨S16, .i32⟩ : BufTy).Contents (Elt F) → (⟨S16x1x1, .i32⟩ : BufTy).Contents (Elt F)),
    StableHlo.unary main_v321 main_v323 (broadcastInDim S16x224x1 ![0, 1, 2] bcast_S1x224x1_S16x224x1_0_1_2 : (⟨S1x224x1, .i32⟩ : BufTy).Contents (Elt F) → (⟨S16x224x1, .i32⟩ : BufTy).Contents (Elt F)),
    StableHlo.unary main_v322 main_v324 (broadcastInDim S16x224x1 ![0, 1, 2] bcast_S16x1x1_S16x224x1_0_1_2 : (⟨S16x1x1, .i32⟩ : BufTy).Contents (Elt F) → (⟨S16x224x1, .i32⟩ : BufTy).Contents (Elt F)),
    StableHlo.binary main_v323 main_v324 main_v325 (cmpi .slt : (⟨S16x224x1, .i32⟩ : BufTy).Contents (Elt F) → (⟨S16x224x1, .i32⟩ : BufTy).Contents (Elt F) → (⟨S16x224x1, .i1⟩ : BufTy).Contents (Elt F)),
    StableHlo.nullary main_c_170 (constantI S_ 32 224#32),
    StableHlo.unary main_c_170 main_v326 (broadcastInDim S16 ![] bcast_S_S16 : (⟨S_, .i32⟩ : BufTy).Contents (Elt F) → (⟨S16, .i32⟩ : BufTy).Contents (Elt F)),
    StableHlo.binary main_v326 main_arg11 main_v327 (subi : (⟨S16, .i32⟩ : BufTy).Contents (Elt F) → (⟨S16, .i32⟩ : BufTy).Contents (Elt F) → (⟨S16, .i32⟩ : BufTy).Contents (Elt F)),
    StableHlo.unary main_v180 main_v328 (broadcastInDim S1x224x1 ![1, 2] bcast_S224x1_S1x224x1_1_2 : (⟨S224x1, .i32⟩ : BufTy).Contents (Elt F) → (⟨S1x224x1, .i32⟩ : BufTy).Contents (Elt F)),
    StableHlo.unary main_v327 main_v329 (broadcastInDim S16x1x1 ![0] bcast_S16_S16x1x1_0 : (⟨S16, .i32⟩ : BufTy).Contents (Elt F) → (⟨S16x1x1, .i32⟩ : BufTy).Contents (Elt F)),
    StableHlo.unary main_v328 main_v330 (broadcastInDim S16x224x1 ![0, 1, 2] bcast_S1x224x1_S16x224x1_0_1_2 : (⟨S1x224x1, .i32⟩ : BufTy).Contents (Elt F) → (⟨S16x224x1, .i32⟩ : BufTy).Contents (Elt F)),
    StableHlo.unary main_v329 main_v331 (broadcastInDim S16x224x1 ![0, 1, 2] bcast_S16x1x1_S16x224x1_0_1_2 : (⟨S16x1x1, .i32⟩ : BufTy).Contents (Elt F) → (⟨S16x224x1, .i32⟩ : BufTy).Contents (Elt F)),
    StableHlo.binary main_v330 main_v331 main_v332 (cmpi .sge : (⟨S16x224x1, .i32⟩ : BufTy).Contents (Elt F) → (⟨S16x224x1, .i32⟩ : BufTy).Contents (Elt F) → (⟨S16x224x1, .i1⟩ : BufTy).Contents (Elt F)) ]

set_option maxHeartbeats 40000000 in
/-- 2 host operations of fn_where_11 (main_call17), window 8, in order. -/
abbrev w8_s4 : List (HloOp τ sig (Elt F)) :=
  [ StableHlo.TRef.unary (.of main_v332 : StableHlo.TRef sig ⟨S16x224x1, .i1⟩) (.of main_call17_v0 : StableHlo.TRef sig ⟨S16x3x224x224, .i1⟩) (broadcastInDim S16x3x224x224 ![0, 2, 3] bcast_S16x224x1_S16x3x224x224_0_2_3),
    StableHlo.TRef.ternary (.of main_call17_v0 : StableHlo.TRef sig ⟨S16x3x224x224, .i1⟩) (.of main_v222 : StableHlo.TRef sig ⟨S16x3x224x224, .f32⟩) (.of main_v320 : StableHlo.TRef sig ⟨S16x3x224x224, .f32⟩) (.of main_v333 : StableHlo.TRef sig ⟨S16x3x224x224, .f32⟩) select ]

set_option maxHeartbeats 40000000 in
/-- 2 host operations of fn_where_11 (main_call18), window 8, in order. -/
abbrev w8_s5 : List (HloOp τ sig (Elt F)) :=
  [ StableHlo.TRef.unary (.of main_v325 : StableHlo.TRef sig ⟨S16x224x1, .i1⟩) (.of main_call18_v0 : StableHlo.TRef sig ⟨S16x3x224x224, .i1⟩) (broadcastInDim S16x3x224x224 ![0, 2, 3] bcast_S16x224x1_S16x3x224x224_0_2_3),
    StableHlo.TRef.ternary (.of main_call18_v0 : StableHlo.TRef sig ⟨S16x3x224x224, .i1⟩) (.of main_v198 : StableHlo.TRef sig ⟨S16x3x224x224, .f32⟩) (.of main_v333 : StableHlo.TRef sig ⟨S16x3x224x224, .f32⟩) (.of main_v334 : StableHlo.TRef sig ⟨S16x3x224x224, .f32⟩) select ]

set_option maxHeartbeats 40000000 in
/-- 3 host operations of @main, window 8, in order. -/
abbrev w8_s6 : List (HloOp τ sig (Elt F)) :=
  [ StableHlo.unary main_v334 main_v335 (broadcastInDim S16x3x1x224x224 ![0, 1, 3, 4] bcast_S16x3x224x224_S16x3x1x224x224_0_1_3_4 : (⟨S16x3x224x224, .f32⟩ : BufTy).Contents (Elt F) → (⟨S16x3x1x224x224, .f32⟩ : BufTy).Contents (Elt F)),
    StableHlo.unary main_v335 main_v336 (broadcastInDim S16x3x16x224x224 ![0, 1, 2, 3, 4] bcast_S16x3x1x224x224_S16x3x16x224x224_0_1_2_3_4 : (⟨S16x3x1x224x224, .f32⟩ : BufTy).Contents (Elt F) → (⟨S16x3x16x224x224, .f32⟩ : BufTy).Contents (Elt F)),
    StableHlo.binary main_arg0 main_v336 main_v337 (addf : (⟨S16x3x16x224x224, .f32⟩ : BufTy).Contents (Elt F) → (⟨S16x3x16x224x224, .f32⟩ : BufTy).Contents (Elt F) → (⟨S16x3x16x224x224, .f32⟩ : BufTy).Contents (Elt F)) ]

end Cert.ReferenceIdeal.Hand

end
-- ==== Proof.RefRunW8.lean ====
/- The run of the reference's @main, part 2 of 3, window 8 (statements 481 … 512): the window is the chain of its
   tables' sequences, and each table is a good list. -/
import proofs.«144763_j39642548142243_2_alg».proof.Proof.RefRunBase
import proofs.«144763_j39642548142243_2_alg».proof.Proof.RefRunT8

set_option maxRecDepth 5964

noncomputable section

namespace Cert.ReferenceIdeal.Hand

open Cert.ReferenceIdeal Idealize.ShloMosaic Idealize.SL.Sem Idealize.ShloMosaic.StableHlo

variable {F : FTy → Type} [FloatOps F] [Facts]

/-- The last window is its stretches in order — @main's own operations, and at each call the callee's operations
    over the call's buffers —, then the return: both sides unfold to the same line of steps. -/
theorem w8_chain (c : Dev nD) : main_part8 (F := F) c = (Pipeline.chain
  [ seq w8_s0,
    seq w8_s1,
    seq w8_s2,
    seq w8_s3,
    seq w8_s4,
    seq w8_s5,
    seq w8_s6 ] : Prog (TpuEff nD τ sig (Elt F) (Pipeline.Sig Λ₀ (Fin 0) fun p => (pcfgs (F := F) p).Adm) .tc) PUnit) := by
  chain_rfl

theorem w8_s0_good : Good (w8_s0 (F := F)) := by hlo_good
theorem w8_s1_good : Good (w8_s1 (F := F)) := by hlo_good
theorem w8_s2_good : Good (w8_s2 (F := F)) := by hlo_good
theorem w8_s3_good : Good (w8_s3 (F := F)) := by hlo_good
theorem w8_s4_good : Good (w8_s4 (F := F)) := by hlo_good
theorem w8_s5_good : Good (w8_s5 (F := F)) := by hlo_good
theorem w8_s6_good : Good (w8_s6 (F := F)) := by hlo_good

end Cert.ReferenceIdeal.Hand

end
-- ==== Proof.RefRun.lean ====
/- The run of the reference's @main, part 3 of 3: @main is the sequence of its windows' stretches concatenated, that
   list is good, so every weakly fair execution of @main terminates with each buffer at the fold of the operations
   over the launch contents and the twelve arguments as they were; and the fold at the result buffer is the closing
   sum of the first argument and the twice-broadcast fold, over all stretches but the last, at the prompt's buffer. -/
import proofs.«144763_j39642548142243_2_alg».proof.Proof.RefRunW0
import proofs.«144763_j39642548142243_2_alg».proof.Proof.RefRunW1
import proofs.«144763_j39642548142243_2_alg».proof.Proof.RefRunW2
import proofs.«144763_j39642548142243_2_alg».proof.Proof.RefRunW3
import proofs.«144763_j39642548142243_2_alg».proof.Proof.RefRunW4
import proofs.«144763_j39642548142243_2_alg».proof.Proof.RefRunW5
import proofs.«144763_j39642548142243_2_alg».proof.Proof.RefRunW6
import proofs.«144763_j39642548142243_2_alg».proof.Proof.RefRunW7
import proofs.«144763_j39642548142243_2_alg».proof.Proof.RefRunW8

set_option maxRecDepth 5964

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- @main's host operations in order, each call's callee inlined over the call's buffers, cut in stretches: a
    window's own operations between calls, and each call's; the last stretch is the closing three operations (the
    prompt broadcast along the new axis, then along its sixteen copies, and the sum with the first argument). -/
abbrev opss : List (List (HloOp τ sig (Elt F))) :=
  [ w0_s0, w1_s0, w2_s0, w3_s0, w4_s0, w5_s0, w5_s1, w5_s2, w5_s3, w5_s4, w5_s5, w5_s6, w5_s7, w5_s8, w5_s9,
    w5_s10, w5_s11, w5_s12, w5_s13, w5_s14, w5_s15, w5_s16, w5_s17, w6_s0, w6_s1, w6_s2, w6_s3, w6_s4, w6_s5,
    w6_s6, w7_s0, w7_s1, w7_s2, w7_s3, w7_s4, w7_s5, w7_s6, w8_s0, w8_s1, w8_s2, w8_s3, w8_s4, w8_s5, w8_s6 ]

/-- @main is the chain of its windows' stretches: each window's equation, joined at the eight boundaries. -/
theorem main_chain (c : Dev nD) : main (F := F) c = (Pipeline.chain
  [ seq w0_s0, seq w1_s0, seq w2_s0, seq w3_s0, seq w4_s0, seq w5_s0, seq w5_s1, seq w5_s2, seq w5_s3, seq w5_s4,
    seq w5_s5, seq w5_s6, seq w5_s7, seq w5_s8, seq w5_s9, seq w5_s10, seq w5_s11, seq w5_s12, seq w5_s13,
    seq w5_s14, seq w5_s15, seq w5_s16, seq w5_s17, seq w6_s0, seq w6_s1, seq w6_s2, seq w6_s3, seq w6_s4,
    seq w6_s5, seq w6_s6, seq w7_s0, seq w7_s1, seq w7_s2, seq w7_s3, seq w7_s4, seq w7_s5, seq w7_s6, seq w8_s0,
    seq w8_s1, seq w8_s2, seq w8_s3, seq w8_s4, seq w8_s5, seq w8_s6 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c) = _
  rewrite [w8_chain, w7_chain, Pipeline.chainK_bind_chain, w6_chain, Pipeline.chainK_bind_chain, w5_chain, Pipeline.chainK_bind_chain, w4_chain, Pipeline.chainK_bind_chain, w3_chain, Pipeline.chainK_bind_chain, w2_chain, Pipeline.chainK_bind_chain, w1_chain, Pipeline.chainK_bind_chain, w0_chain, Pipeline.chainK_bind_chain]
  chain_rfl

/-- @main is the sequence of all its operations. -/
theorem main_eq (c : Dev nD) : main (F := F) c = seq (opss (F := F)).flatten :=
  (main_chain c).trans (chain_map_seq (opss (F := F)))

theorem opss_good : (opss (F := F)).Forall Good :=
  ⟨w0_s0_good, w1_s0_good, w2_s0_good, w3_s0_good, w4_s0_good, w5_s0_good, w5_s1_good, w5_s2_good, w5_s3_good,
    w5_s4_good, w5_s5_good, w5_s6_good, w5_s7_good, w5_s8_good, w5_s9_good, w5_s10_good, w5_s11_good, w5_s12_good,
    w5_s13_good, w5_s14_good, w5_s15_good, w5_s16_good, w5_s17_good, w6_s0_good, w6_s1_good, w6_s2_good,
    w6_s3_good, w6_s4_good, w6_s5_good, w6_s6_good, w7_s0_good, w7_s1_good, w7_s2_good, w7_s3_good, w7_s4_good,
    w7_s5_good, w7_s6_good, w8_s0_good, w8_s1_good, w8_s2_good, w8_s3_good, w8_s4_good, w8_s5_good, w8_s6_good⟩

theorem flat_good : Good (opss (F := F)).flatten := Good.flatten opss_good

/-- On every device, for any float values, from any memory with zero counters: every weakly fair execution of @main
    terminates with the result buffer at the fold of the operations over the launch contents and the twelve
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v337)
          = after (opss (F := F)).flatten (fun b => m (c, b)) (Proc.devRef .tc main_v337)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨h c main_v337,
      (h c main_arg0).trans (flat_good.after_arg _ (by decide)),
      (h c main_arg1).trans (flat_good.after_arg _ (by decide)),
      (h c main_arg2).trans (flat_good.after_arg _ (by decide)),
      (h c main_arg3).trans (flat_good.after_arg _ (by decide)),
      (h c main_arg4).trans (flat_good.after_arg _ (by decide)),
      (h c main_arg5).trans (flat_good.after_arg _ (by decide)),
      (h c main_arg6).trans (flat_good.after_arg _ (by decide)),
      (h c main_arg7).trans (flat_good.after_arg _ (by decide)),
      (h c main_arg8).trans (flat_good.after_arg _ (by decide)),
      (h c main_arg9).trans (flat_good.after_arg _ (by decide)),
      (h c main_arg10).trans (flat_good.after_arg _ (by decide)),
      (h c main_arg11).trans (flat_good.after_arg _ (by decide))⟩)
    (run_seq scopedRefs_eq scopedSems_eq defs main (fun _ => (opss (F := F)).flatten) main_eq (fun _ => flat_good.sub) m ρ
      (fun _ => flat_good.fresh))

/-! ## The result buffer: the closing three operations peeled -/

/-- The closing stretch from any contents: the sum of the first argument and the prompt broadcast twice. -/
theorem last_result (W : Valuation τ sig (Elt F)) :
    after (w8_s6 (F := F)) W (Proc.devRef .tc main_v337)
      = addf (W (Proc.devRef .tc main_arg0))
          (broadcastInDim S16x3x16x224x224 ![0, 1, 2, 3, 4] bcast_S16x3x1x224x224_S16x3x16x224x224_0_1_2_3_4
            (broadcastInDim S16x3x1x224x224 ![0, 1, 3, 4] bcast_S16x3x224x224_S16x3x1x224x224_0_1_3_4
              (W (Proc.devRef .tc main_v334)))) := by
  after_results

theorem opss_eq : (opss (F := F)) = (opss (F := F)).dropLast ++ [w8_s6] := rfl

theorem flatten_split : (opss (F := F)).flatten = (opss (F := F)).dropLast.flatten ++ w8_s6 :=
  (congrArg List.flatten opss_eq).trans (by
    simp only [List.flatten_append, List.flatten_cons, List.flatten_nil, List.append_nil])

/-- The fold at the result buffer, the closing stretch peeled: what is left under the two broadcasts is the fold of
    every stretch but the last at the prompt's buffer. -/
theorem result_peel (V : Valuation τ sig (Elt F)) :
    after (opss (F := F)).flatten V (Proc.devRef .tc main_v337)
      = addf (V (Proc.devRef .tc main_arg0))
          (broadcastInDim S16x3x16x224x224 ![0, 1, 2, 3, 4] bcast_S16x3x1x224x224_S16x3x16x224x224_0_1_2_3_4
            (broadcastInDim S16x3x1x224x224 ![0, 1, 3, 4] bcast_S16x3x224x224_S16x3x1x224x224_0_1_3_4
              (after (opss (F := F)).dropLast.flatten V (Proc.devRef .tc main_v334)))) := by
  have hinit : Good (opss (F := F)).dropLast.flatten := (flatten_split (F := F) ▸ flat_good).of_append_left
  rw [flatten_split, after_append, last_result, hinit.after_arg V (r := main_arg0) (by decide)]

end Cert.ReferenceIdeal.Hand

end
-- ==== Proof.RefValue.lean ====
import proofs.«144763_j39642548142243_2_alg».proof.Proof.Gen.ReferenceIdeal
import proofs.«144763_j39642548142243_2_alg».proof.Proof.RefRun
import proofs.«144763_j39642548142243_2_alg».proof.Proof.PromptSum
import Idealize.ShloMosaic.Lib.ValueIdx

/-! # The reference program's result array, as one function of x and the prompt

The reference's last three operations give the prompt a unit frame axis, repeat it along that axis, and add x: at
the exact extended reals the result is x plus the prompt, frame by frame. -/

set_option maxRecDepth 16384

noncomputable section

namespace Cert.ReferenceIdeal.HandValue

open Cert.ReferenceIdeal Cert.ReferenceIdeal.Hand Cert.PromptSum
open Idealize.ShloMosaic Idealize.ShloMosaic.TcCoe Idealize.ShloMosaic.ValueIdx Idealize.SL.Sem

variable (m : (ℓ : Loc nD τ sig) → Buf (Elt Ideal) ℓ)

/-- The prompt as this program's host operations leave it (everything before the last three). -/
abbrev promptR (c : Dev nD) : S16x3x224x224.Idx → EReal :=
  StableHlo.after (opss (F := Ideal)).dropLast.flatten (fun b => m (c, b)) (Proc.devRef .tc main_v334)

/-- THE RESULT of the reference program: x plus the prompt, frame by frame. -/
theorem ref_result (c : Dev nD) :
    StableHlo.after (opss (F := Ideal)).flatten (fun b => m (c, b)) (Proc.devRef .tc main_v337)
      = sumOver eadd (m ((c.tc : Thread nD τ).loc main_arg0)) (promptR m c) := by
  rw [result_peel]
  exact broadcast_sum eadd _ _ _ _

end Cert.ReferenceIdeal.HandValue

end
-- ==== Proof.ResultsAgree.lean ====
import proofs.«144763_j39642548142243_2_alg».proof.Proof.KernelIdealValue
import proofs.«144763_j39642548142243_2_alg».proof.Proof.RefValue

/-! # The two results are one array

Each program's result is x plus its prompt (the two value modules).  Given that the two x arrays are the same and
the two prompts are the same, the two results are the same array.  Every equation here is stated at the literal
type of the array (16 × 3 × 16 × 224 × 224, or 16 × 3 × 224 × 224, extended reals). -/

set_option maxRecDepth 16384

noncomputable section

namespace Cert.ResultsAgree

open Idealize.ShloMosaic Idealize.ShloMosaic.TcCoe Idealize.SL.Sem Cert.PromptSum

/-- The reference's result buffer holds the kernel program's result, when x and the prompt agree. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (c' : Dev Cert.ReferenceIdeal.nD)
    (hx : (m' ((c'.tc : Thread Cert.ReferenceIdeal.nD Cert.ReferenceIdeal.τ).loc Cert.ReferenceIdeal.main_arg0) : SX.Idx → EReal)
        = (m ((c.tc : Thread Cert.KernelIdeal.nD Cert.KernelIdeal.τ).loc Cert.KernelIdeal.main_arg0) : SX.Idx → EReal))
    (hp : (Cert.KernelIdeal.HandValue.promptK m c : SP.Idx → EReal) = (Cert.ReferenceIdeal.HandValue.promptR m' c' : SP.Idx → EReal)) :
    (StableHlo.after (Cert.ReferenceIdeal.Hand.opss (F := Ideal)).flatten (fun b => m' (c', b)) (Proc.devRef .tc Cert.ReferenceIdeal.main_v337) : SX.Idx → EReal)
      = sumOver eadd (m ((c.tc : Thread Cert.KernelIdeal.nD Cert.KernelIdeal.τ).loc Cert.KernelIdeal.main_arg0) : SX.Idx → EReal)
          (Cert.KernelIdeal.HandValue.promptK m c : SP.Idx → EReal) := by
  refine (Cert.ReferenceIdeal.HandValue.ref_result m' c').trans ?_
  exact congrArg₂ (sumOver eadd) hx hp.symm

end Cert.ResultsAgree

end
-- ==== Proof.PromptBridgeT.lean ====
import proofs.«144763_j39642548142243_2_alg».proof.Proof.RefRun
import proofs.«144763_j39642548142243_2_alg».proof.Proof.Gen.KernelIdeal.Launch

noncomputable section

namespace Cert.PromptBridge

open Idealize.ShloMosaic Idealize.SL.Sem

variable {F : FTy → Type} [FloatOps F] [Cert.KernelIdeal.Facts] [Cert.ReferenceIdeal.Facts]

/-- A valuation of the kernel program's buffers, and one of the reference's. -/
abbrev ValK (F : FTy → Type) [FloatOps F] := Valuation Cert.KernelIdeal.τ Cert.KernelIdeal.sig (Elt F)
abbrev ValR (F : FTy → Type) [FloatOps F] := Valuation Cert.ReferenceIdeal.τ Cert.ReferenceIdeal.sig (Elt F)

/-- The 11 buffers live at boundary 0 (before stretch w0_s0). -/
abbrev Inv0 (WK : ValK F) (WR : ValR F) : Prop :=
  @Eq ((⟨Cert.ReferenceIdeal.S3x3x1x224, .f32⟩ : BufTy).Contents (Elt F)) (WK (Proc.devRef .tc Cert.KernelIdeal.main_arg1)) (WR (Proc.devRef .tc Cert.ReferenceIdeal.main_arg1))
    ∧ @Eq ((⟨Cert.ReferenceIdeal.S3x3x10x224, .f32⟩ : BufTy).Contents (Elt F)) (WK (Proc.devRef .tc Cert.KernelIdeal.main_arg2)) (WR (Proc.devRef .tc Cert.ReferenceIdeal.main_arg2))
    ∧ @Eq ((⟨Cert.ReferenceIdeal.S3x3x1x224, .f32⟩ : BufTy).Contents (Elt F)) (WK (Proc.devRef .tc Cert.KernelIdeal.main_arg3)) (WR (Proc.devRef .tc Cert.ReferenceIdeal.main_arg3))
    ∧ @Eq ((⟨Cert.ReferenceIdeal.S3x3x10x224, .f32⟩ : BufTy).Contents (Elt F)) (WK (Proc.devRef .tc Cert.KernelIdeal.main_arg4)) (WR (Proc.devRef .tc Cert.ReferenceIdeal.main_arg4))
    ∧ @Eq ((⟨Cert.ReferenceIdeal.S3x3x164x1, .f32⟩ : BufTy).Contents (Elt F)) (WK (Proc.devRef .tc Cert.KernelIdeal.main_arg5)) (WR (Proc.devRef .tc Cert.ReferenceIdeal.main_arg5))
    ∧ @Eq ((⟨Cert.ReferenceIdeal.S3x3x164x10, .f32⟩ : BufTy).Contents (Elt F)) (WK (Proc.devRef .tc Cert.KernelIdeal.main_arg6)) (WR (Proc.devRef .tc Cert.ReferenceIdeal.main_arg6))
    ∧ @Eq ((⟨Cert.ReferenceIdeal.S3x3x164x1, .f32⟩ : BufTy).Contents (Elt F)) (WK (Proc.devRef .tc Cert.KernelIdeal.main_arg7)) (WR (Proc.devRef .tc Cert.ReferenceIdeal.main_arg7))
    ∧ @Eq ((⟨Cert.ReferenceIdeal.S3x3x164x10, .f32⟩ : BufTy).Contents (Elt F)) (WK (Proc.devRef .tc Cert.KernelIdeal.main_arg8)) (WR (Proc.devRef .tc Cert.ReferenceIdeal.main_arg8))
    ∧ @Eq ((⟨Cert.ReferenceIdeal.S16, .i32⟩ : BufTy).Contents (Elt F)) (WK (Proc.devRef .tc Cert.KernelIdeal.main_arg9)) (WR (Proc.devRef .tc Cert.ReferenceIdeal.main_arg9))
    ∧ @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))

/-- The 16 buffers live at boundary 1 (before stretch w1_s0). -/
abbrev Inv1 (WK : ValK F) (WR : ValR F) : Prop :=
  @Eq ((⟨Cert.ReferenceIdeal.S3x3x10x224, .f32⟩ : BufTy).Contents (Elt F)) (WK (Proc.devRef .tc Cert.KernelIdeal.main_arg2)) (WR (Proc.devRef .tc Cert.ReferenceIdeal.main_arg2))
    ∧ @Eq ((⟨Cert.ReferenceIdeal.S3x3x1x224, .f32⟩ : BufTy).Contents (Elt F)) (WK (Proc.devRef .tc Cert.KernelIdeal.main_arg3)) (WR (Proc.devRef .tc Cert.ReferenceIdeal.main_arg3))
    ∧ @Eq ((⟨Cert.ReferenceIdeal.S3x3x10x224, .f32⟩ : BufTy).Contents (Elt F)) (WK (Proc.devRef .tc Cert.KernelIdeal.main_arg4)) (WR (Proc.devRef .tc Cert.ReferenceIdeal.main_arg4))
    ∧ @Eq ((⟨Cert.ReferenceIdeal.S3x3x164x1, .f32⟩ : BufTy).Contents (Elt F)) (WK (Proc.devRef .tc Cert.KernelIdeal.main_arg5)) (WR (Proc.devRef .tc Cert.ReferenceIdeal.main_arg5))
    ∧ @Eq ((⟨Cert.ReferenceIdeal.S3x3x164x10, .f32⟩ : BufTy).Contents (Elt F)) (WK (Proc.devRef .tc Cert.KernelIdeal.main_arg6)) (WR (Proc.devRef .tc Cert.ReferenceIdeal.main_arg6))
    ∧ @Eq ((⟨Cert.ReferenceIdeal.S3x3x164x1, .f32⟩ : BufTy).Contents (Elt F)) (WK (Proc.devRef .tc Cert.KernelIdeal.main_arg7)) (WR (Proc.devRef .tc Cert.ReferenceIdeal.main_arg7))
    ∧ @Eq ((⟨Cert.ReferenceIdeal.S3x3x164x10, .f32⟩ : BufTy).Contents (Elt F)) (WK (Proc.devRef .tc Cert.KernelIdeal.main_arg8)) (WR (Proc.devRef .tc Cert.ReferenceIdeal.main_arg8))
    ∧ @Eq ((⟨Cert.ReferenceIdeal.S16, .i32⟩ : BufTy).Contents (Elt F)) (WK (Proc.devRef .tc Cert.KernelIdeal.main_arg9)) (WR (Proc.devRef .tc Cert.ReferenceIdeal.main_arg9))
    ∧ @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16, .i32⟩ : BufTy).Contents (Elt F)) (WK (Proc.devRef .tc Cert.KernelIdeal.main_v25)) (WR (Proc.devRef .tc Cert.ReferenceIdeal.main_v25))
    ∧ @Eq ((⟨Cert.ReferenceIdeal.S_, .i32⟩ : BufTy).Contents (Elt F)) (WK (Proc.devRef .tc Cert.KernelIdeal.main_v28)) (WR (Proc.devRef .tc Cert.ReferenceIdeal.main_v28))
    ∧ @Eq ((⟨Cert.ReferenceIdeal.S_, .i1⟩ : BufTy).Contents (Elt F)) (WK (Proc.devRef .tc Cert.KernelIdeal.main_v29)) (WR (Proc.devRef .tc Cert.ReferenceIdeal.main_v29))
    ∧ @Eq ((⟨Cert.ReferenceIdeal.S_, .i32⟩ : BufTy).Contents (Elt F)) (WK (Proc.devRef .tc Cert.KernelIdeal.main_v30)) (WR (Proc.devRef .tc Cert.ReferenceIdeal.main_v30))
    ∧ @Eq ((⟨Cert.ReferenceIdeal.S_, .i32⟩ : BufTy).Contents (Elt F)) (WK (Proc.devRef .tc Cert.KernelIdeal.main_c_27)) (WR (Proc.devRef .tc Cert.ReferenceIdeal.main_c_27))

/-- The 13 buffers live at boundary 2 (before stretch w2_s0). -/
abbrev Inv2 (WK : ValK F) (WR : ValR F) : Prop :=
  @Eq ((⟨Cert.ReferenceIdeal.S3x3x10x224, .f32⟩ : BufTy).Contents (Elt F)) (WK (Proc.devRef .tc Cert.KernelIdeal.main_arg4)) (WR (Proc.devRef .tc Cert.ReferenceIdeal.main_arg4))
    ∧ @Eq ((⟨Cert.ReferenceIdeal.S3x3x164x1, .f32⟩ : BufTy).Contents (Elt F)) (WK (Proc.devRef .tc Cert.KernelIdeal.main_arg5)) (WR (Proc.devRef .tc Cert.ReferenceIdeal.main_arg5))
    ∧ @Eq ((⟨Cert.ReferenceIdeal.S3x3x164x10, .f32⟩ : BufTy).Contents (Elt F)) (WK (Proc.devRef .tc Cert.KernelIdeal.main_arg6)) (WR (Proc.devRef .tc Cert.ReferenceIdeal.main_arg6))
    ∧ @Eq ((⟨Cert.ReferenceIdeal.S3x3x164x1, .f32⟩ : BufTy).Contents (Elt F)) (WK (Proc.devRef .tc Cert.KernelIdeal.main_arg7)) (WR (Proc.devRef .tc Cert.ReferenceIdeal.main_arg7))
    ∧ @Eq ((⟨Cert.ReferenceIdeal.S3x3x164x10, .f32⟩ : BufTy).Contents (Elt F)) (WK (Proc.devRef .tc Cert.KernelIdeal.main_arg8)) (WR (Proc.devRef .tc Cert.ReferenceIdeal.main_arg8))
    ∧ @Eq ((⟨Cert.ReferenceIdeal.S16, .i32⟩ : BufTy).Contents (Elt F)) (WK (Proc.devRef .tc Cert.KernelIdeal.main_arg9)) (WR (Proc.devRef .tc Cert.ReferenceIdeal.main_arg9))
    ∧ @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16, .i1⟩ : BufTy).Contents (Elt F)) (WK (Proc.devRef .tc Cert.KernelIdeal.main_v64)) (WR (Proc.devRef .tc Cert.ReferenceIdeal.main_v64))
    ∧ @Eq ((⟨Cert.ReferenceIdeal.S16, .i32⟩ : BufTy).Contents (Elt F)) (WK (Proc.devRef .tc Cert.KernelIdeal.main_v66)) (WR (Proc.devRef .tc Cert.ReferenceIdeal.main_v66))

/-- The 17 buffers live at boundary 3 (before stretch w3_s0). -/
abbrev Inv3 (WK : ValK F) (WR : ValR F) : Prop :=
  @Eq ((⟨Cert.ReferenceIdeal.S3x3x164x1, .f32⟩ : BufTy).Contents (Elt F)) (WK (Proc.devRef .tc Cert.KernelIdeal.main_arg5)) (WR (Proc.devRef .tc Cert.ReferenceIdeal.main_arg5))
    ∧ @Eq ((⟨Cert.ReferenceIdeal.S3x3x164x10, .f32⟩ : BufTy).Contents (Elt F)) (WK (Proc.devRef .tc Cert.KernelIdeal.main_arg6)) (WR (Proc.devRef .tc Cert.ReferenceIdeal.main_arg6))
    ∧ @Eq ((⟨Cert.ReferenceIdeal.S3x3x164x1, .f32⟩ : BufTy).Contents (Elt F)) (WK (Proc.devRef .tc Cert.KernelIdeal.main_arg7)) (WR (Proc.devRef .tc Cert.ReferenceIdeal.main_arg7))
    ∧ @Eq ((⟨Cert.ReferenceIdeal.S3x3x164x10, .f32⟩ : BufTy).Contents (Elt F)) (WK (Proc.devRef .tc Cert.KernelIdeal.main_arg8)) (WR (Proc.devRef .tc Cert.ReferenceIdeal.main_arg8))
    ∧ @Eq ((⟨Cert.ReferenceIdeal.S16, .i32⟩ : BufTy).Contents (Elt F)) (WK (Proc.devRef .tc Cert.KernelIdeal.main_arg9)) (WR (Proc.devRef .tc Cert.ReferenceIdeal.main_arg9))
    ∧ @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16, .i32⟩ : BufTy).Contents (Elt F)) (WK (Proc.devRef .tc Cert.KernelIdeal.main_v88)) (WR (Proc.devRef .tc Cert.ReferenceIdeal.main_v88))
    ∧ @Eq ((⟨Cert.ReferenceIdeal.S_, .i32⟩ : BufTy).Contents (Elt F)) (WK (Proc.devRef .tc Cert.KernelIdeal.main_v91)) (WR (Proc.devRef .tc Cert.ReferenceIdeal.main_v91))
    ∧ @Eq ((⟨Cert.ReferenceIdeal.S_, .i32⟩ : BufTy).Contents (Elt F)) (WK (Proc.devRef .tc Cert.KernelIdeal.main_v94)) (WR (Proc.devRef .tc Cert.ReferenceIdeal.main_v94))
    ∧ @Eq ((⟨Cert.ReferenceIdeal.S_, .i1⟩ : BufTy).Contents (Elt F)) (WK (Proc.devRef .tc Cert.KernelIdeal.main_v95)) (WR (Proc.devRef .tc Cert.ReferenceIdeal.main_v95))
    ∧ @Eq ((⟨Cert.ReferenceIdeal.S_, .i32⟩ : BufTy).Contents (Elt F)) (WK (Proc.devRef .tc Cert.KernelIdeal.main_c_81)) (WR (Proc.devRef .tc Cert.ReferenceIdeal.main_c_81))
    ∧ @Eq ((⟨Cert.ReferenceIdeal.S_, .i32⟩ : BufTy).Contents (Elt F)) (WK (Proc.devRef .tc Cert.KernelIdeal.main_c_82)) (WR (Proc.devRef .tc Cert.ReferenceIdeal.main_c_82))

/-- The 15 buffers live at boundary 4 (before stretch w4_s0). -/
abbrev Inv4 (WK : ValK F) (WR : ValR F) : Prop :=
  @Eq ((⟨Cert.ReferenceIdeal.S3x3x164x1, .f32⟩ : BufTy).Contents (Elt F)) (WK (Proc.devRef .tc Cert.KernelIdeal.main_arg7)) (WR (Proc.devRef .tc Cert.ReferenceIdeal.main_arg7))
    ∧ @Eq ((⟨Cert.ReferenceIdeal.S3x3x164x10, .f32⟩ : BufTy).Contents (Elt F)) (WK (Proc.devRef .tc Cert.KernelIdeal.main_arg8)) (WR (Proc.devRef .tc Cert.ReferenceIdeal.main_arg8))
    ∧ @Eq ((⟨Cert.ReferenceIdeal.S16, .i32⟩ : BufTy).Contents (Elt F)) (WK (Proc.devRef .tc Cert.KernelIdeal.main_arg9)) (WR (Proc.devRef .tc Cert.ReferenceIdeal.main_arg9))
    ∧ @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16, .i32⟩ : BufTy).Contents (Elt F)) (WK (Proc.devRef .tc Cert.KernelIdeal.main_v130)) (WR (Proc.devRef .tc Cert.ReferenceIdeal.main_v130))
    ∧ @Eq ((⟨Cert.ReferenceIdeal.S_, .i1⟩ : BufTy).Contents (Elt F)) (WK (Proc.devRef .tc Cert.KernelIdeal.main_v131)) (WR (Proc.devRef .tc Cert.ReferenceIdeal.main_v131))
    ∧ @Eq ((⟨Cert.ReferenceIdeal.S_, .i32⟩ : BufTy).Contents (Elt F)) (WK (Proc.devRef .tc Cert.KernelIdeal.main_c_105)) (WR (Proc.devRef .tc Cert.ReferenceIdeal.main_c_105))
    ∧ @Eq ((⟨Cert.ReferenceIdeal.S_, .i32⟩ : BufTy).Contents (Elt F)) (WK (Proc.devRef .tc Cert.KernelIdeal.main_c_106)) (WR (Proc.devRef .tc Cert.ReferenceIdeal.main_c_106))

/-- The 14 buffers live at boundary 5 (before stretch w5_s0). -/
abbrev Inv5 (WK : ValK F) (WR : ValR F) : Prop :=
  @Eq ((⟨Cert.ReferenceIdeal.S3x3x164x10, .f32⟩ : BufTy).Contents (Elt F)) (WK (Proc.devRef .tc Cert.KernelIdeal.main_arg8)) (WR (Proc.devRef .tc Cert.ReferenceIdeal.main_arg8))
    ∧ @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S_, .i32⟩ : BufTy).Contents (Elt F)) (WK (Proc.devRef .tc Cert.KernelIdeal.main_v160)) (WR (Proc.devRef .tc Cert.ReferenceIdeal.main_v160))
    ∧ @Eq ((⟨Cert.ReferenceIdeal.S16x1, .i32⟩ : BufTy).Contents (Elt F)) (WK (Proc.devRef .tc Cert.KernelIdeal.main_v161)) (WR (Proc.devRef .tc Cert.ReferenceIdeal.main_v161))
    ∧ @Eq ((⟨Cert.ReferenceIdeal.S16x1, .i32⟩ : BufTy).Contents (Elt F)) (WK (Proc.devRef .tc Cert.KernelIdeal.main_v162)) (WR (Proc.devRef .tc Cert.ReferenceIdeal.main_v162))
    ∧ @Eq ((⟨Cert.ReferenceIdeal.S16x1, .i32⟩ : BufTy).Contents (Elt F)) (WK (Proc.devRef .tc Cert.KernelIdeal.main_v163)) (WR (Proc.devRef .tc Cert.ReferenceIdeal.main_v163))

/-- The 13 buffers live at boundary 6 (before stretch w5_s1). -/
abbrev Inv6 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S_, .i32⟩ : BufTy).Contents (Elt F)) (WK (Proc.devRef .tc Cert.KernelIdeal.main_c_137)) (WR (Proc.devRef .tc Cert.ReferenceIdeal.main_c_137))

/-- The 13 buffers live at boundary 7 (before stretch w5_s2). -/
abbrev Inv7 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))

/-- The 14 buffers live at boundary 8 (before stretch w5_s3). -/
abbrev Inv8 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S_, .i32⟩ : BufTy).Contents (Elt F)) (WK (Proc.devRef .tc Cert.KernelIdeal.main_c_138)) (WR (Proc.devRef .tc Cert.ReferenceIdeal.main_c_138))

/-- The 13 buffers live at boundary 9 (before stretch w5_s4). -/
abbrev Inv9 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))

/-- The 14 buffers live at boundary 10 (before stretch w5_s5). -/
abbrev Inv10 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S_, .i32⟩ : BufTy).Contents (Elt F)) (WK (Proc.devRef .tc Cert.KernelIdeal.main_c_139)) (WR (Proc.devRef .tc Cert.ReferenceIdeal.main_c_139))

/-- The 14 buffers live at boundary 11 (before stretch w5_s6). -/
abbrev Inv11 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v174)) (WR (Proc.devRef .tc Cert.ReferenceIdeal.main_v174))

/-- The 15 buffers live at boundary 12 (before stretch w5_s7). -/
abbrev Inv12 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v174)) (WR (Proc.devRef .tc Cert.ReferenceIdeal.main_v174))
    ∧ @Eq ((⟨Cert.ReferenceIdeal.S_, .i32⟩ : BufTy).Contents (Elt F)) (WK (Proc.devRef .tc Cert.KernelIdeal.main_c_140)) (WR (Proc.devRef .tc Cert.ReferenceIdeal.main_c_140))

/-- The 14 buffers live at boundary 13 (before stretch w5_s8). -/
abbrev Inv13 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v174)) (WR (Proc.devRef .tc Cert.ReferenceIdeal.main_v174))

/-- The 15 buffers live at boundary 14 (before stretch w5_s9). -/
abbrev Inv14 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v174)) (WR (Proc.devRef .tc Cert.ReferenceIdeal.main_v174))
    ∧ @Eq ((⟨Cert.ReferenceIdeal.S_, .i32⟩ : BufTy).Contents (Elt F)) (WK (Proc.devRef .tc Cert.KernelIdeal.main_c_141)) (WR (Proc.devRef .tc Cert.ReferenceIdeal.main_c_141))

/-- The 15 buffers live at boundary 15 (before stretch w5_s10). -/
abbrev Inv15 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v174)) (WR (Proc.devRef .tc Cert.ReferenceIdeal.main_v174))
    ∧ @Eq ((⟨Cert.ReferenceIdeal.S16, .i32⟩ : BufTy).Contents (Elt F)) (WK (Proc.devRef .tc Cert.KernelIdeal.main_v176)) (WR (Proc.devRef .tc Cert.ReferenceIdeal.main_v176))

/-- The 16 buffers live at boundary 16 (before stretch w5_s11). -/
abbrev Inv16 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v174)) (WR (Proc.devRef .tc Cert.ReferenceIdeal.main_v174))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S_, .i32⟩ : BufTy).Contents (Elt F)) (WK (Proc.devRef .tc Cert.KernelIdeal.main_c_142)) (WR (Proc.devRef .tc Cert.ReferenceIdeal.main_c_142))

/-- The 16 buffers live at boundary 17 (before stretch w5_s12). -/
abbrev Inv17 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v174)) (WR (Proc.devRef .tc Cert.ReferenceIdeal.main_v174))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S16, .i32⟩ : BufTy).Contents (Elt F)) (WK (Proc.devRef .tc Cert.KernelIdeal.main_v177)) (WR (Proc.devRef .tc Cert.ReferenceIdeal.main_v177))

/-- The 21 buffers live at boundary 18 (before stretch w5_s13). -/
abbrev Inv18 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S16, .i32⟩ : BufTy).Contents (Elt F)) (WK (Proc.devRef .tc Cert.KernelIdeal.main_v177)) (WR (Proc.devRef .tc Cert.ReferenceIdeal.main_v177))
    ∧ @Eq ((⟨Cert.ReferenceIdeal.S224, .i32⟩ : BufTy).Contents (Elt F)) (WK (Proc.devRef .tc Cert.KernelIdeal.main_v178)) (WR (Proc.devRef .tc Cert.ReferenceIdeal.main_v178))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x224x1, .i1⟩ : BufTy).Contents (Elt F)) (WK (Proc.devRef .tc Cert.KernelIdeal.main_v188)) (WR (Proc.devRef .tc Cert.ReferenceIdeal.main_v188))
    ∧ @Eq ((⟨Cert.ReferenceIdeal.S_, .i32⟩ : BufTy).Contents (Elt F)) (WK (Proc.devRef .tc Cert.KernelIdeal.main_c_144)) (WR (Proc.devRef .tc Cert.ReferenceIdeal.main_c_144))

/-- The 21 buffers live at boundary 19 (before stretch w5_s14). -/
abbrev Inv19 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v20)) (WR (Proc.devRef .tc Cert.ReferenceIdeal.main_v20))
    ∧ @Eq ((⟨Cert.ReferenceIdeal.S16x3x10x224, .f32⟩ : BufTy).Contents (Elt F)) (WK (Proc.devRef .tc Cert.KernelIdeal.main_v41)) (WR (Proc.devRef .tc Cert.ReferenceIdeal.main_v41))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S16, .i32⟩ : BufTy).Contents (Elt F)) (WK (Proc.devRef .tc Cert.KernelIdeal.main_v177)) (WR (Proc.devRef .tc Cert.ReferenceIdeal.main_v177))
    ∧ @Eq ((⟨Cert.ReferenceIdeal.S224, .i32⟩ : BufTy).Contents (Elt F)) (WK (Proc.devRef .tc Cert.KernelIdeal.main_v178)) (WR (Proc.devRef .tc Cert.ReferenceIdeal.main_v178))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x224x1, .i1⟩ : BufTy).Contents (Elt F)) (WK (Proc.devRef .tc Cert.KernelIdeal.main_v188)) (WR (Proc.devRef .tc Cert.ReferenceIdeal.main_v188))
    ∧ @Eq ((⟨Cert.ReferenceIdeal.S224, .i32⟩ : BufTy).Contents (Elt F)) (WK (Proc.devRef .tc Cert.KernelIdeal.main_v189)) (WR (Proc.devRef .tc Cert.ReferenceIdeal.main_v189))

/-- The 20 buffers live at boundary 20 (before stretch w5_s15). -/
abbrev Inv20 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S16, .i32⟩ : BufTy).Contents (Elt F)) (WK (Proc.devRef .tc Cert.KernelIdeal.main_v177)) (WR (Proc.devRef .tc Cert.ReferenceIdeal.main_v177))
    ∧ @Eq ((⟨Cert.ReferenceIdeal.S224, .i32⟩ : BufTy).Contents (Elt F)) (WK (Proc.devRef .tc Cert.KernelIdeal.main_v178)) (WR (Proc.devRef .tc Cert.ReferenceIdeal.main_v178))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x224x1, .i1⟩ : BufTy).Contents (Elt F)) (WK (Proc.devRef .tc Cert.KernelIdeal.main_v188)) (WR (Proc.devRef .tc Cert.ReferenceIdeal.main_v188))
    ∧ @Eq ((⟨Cert.ReferenceIdeal.S16x3x224x224, .f32⟩ : BufTy).Contents (Elt F)) (WK (Proc.devRef .tc Cert.KernelIdeal.main_v196)) (WR (Proc.devRef .tc Cert.ReferenceIdeal.main_v196))
    ∧ @Eq ((⟨Cert.ReferenceIdeal.S16x3x1x224, .f32⟩ : BufTy).Contents (Elt F)) (WK (Proc.devRef .tc Cert.KernelIdeal.main_v197)) (WR (Proc.devRef .tc Cert.ReferenceIdeal.main_v197))

/-- The 18 buffers live at boundary 21 (before stretch w5_s16). -/
abbrev Inv21 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S16, .i32⟩ : BufTy).Contents (Elt F)) (WK (Proc.devRef .tc Cert.KernelIdeal.main_v177)) (WR (Proc.devRef .tc Cert.ReferenceIdeal.main_v177))
    ∧ @Eq ((⟨Cert.ReferenceIdeal.S224, .i32⟩ : BufTy).Contents (Elt F)) (WK (Proc.devRef .tc Cert.KernelIdeal.main_v178)) (WR (Proc.devRef .tc Cert.ReferenceIdeal.main_v178))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))

/-- The 21 buffers live at boundary 22 (before stretch w5_s17). -/
abbrev Inv22 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S16, .i32⟩ : BufTy).Contents (Elt F)) (WK (Proc.devRef .tc Cert.KernelIdeal.main_v177)) (WR (Proc.devRef .tc Cert.ReferenceIdeal.main_v177))
    ∧ @Eq ((⟨Cert.ReferenceIdeal.S224, .i32⟩ : BufTy).Contents (Elt F)) (WK (Proc.devRef .tc Cert.KernelIdeal.main_v178)) (WR (Proc.devRef .tc Cert.ReferenceIdeal.main_v178))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x224x1, .i32⟩ : BufTy).Contents (Elt F)) (WK (Proc.devRef .tc Cert.KernelIdeal.main_v205)) (WR (Proc.devRef .tc Cert.ReferenceIdeal.main_v205))
    ∧ @Eq ((⟨Cert.ReferenceIdeal.S16x224x1, .i32⟩ : BufTy).Contents (Elt F)) (WK (Proc.devRef .tc Cert.KernelIdeal.main_v208)) (WR (Proc.devRef .tc Cert.ReferenceIdeal.main_v208))
    ∧ @Eq ((⟨Cert.ReferenceIdeal.S_, .i32⟩ : BufTy).Contents (Elt F)) (WK (Proc.devRef .tc Cert.KernelIdeal.main_c_148)) (WR (Proc.devRef .tc Cert.ReferenceIdeal.main_c_148))

/-- The 20 buffers live at boundary 23 (before stretch w6_s0). -/
abbrev Inv23 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x224, .f32⟩ : BufTy).Contents (Elt F)) (WK (Proc.devRef .tc Cert.KernelIdeal.main_v62)) (WR (Proc.devRef .tc Cert.ReferenceIdeal.main_v62))
    ∧ @Eq ((⟨Cert.ReferenceIdeal.S16x3x10x224, .f32⟩ : BufTy).Contents (Elt F)) (WK (Proc.devRef .tc Cert.KernelIdeal.main_v83)) (WR (Proc.devRef .tc Cert.ReferenceIdeal.main_v83))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S16, .i32⟩ : BufTy).Contents (Elt F)) (WK (Proc.devRef .tc Cert.KernelIdeal.main_v177)) (WR (Proc.devRef .tc Cert.ReferenceIdeal.main_v177))
    ∧ @Eq ((⟨Cert.ReferenceIdeal.S224, .i32⟩ : BufTy).Contents (Elt F)) (WK (Proc.devRef .tc Cert.KernelIdeal.main_v178)) (WR (Proc.devRef .tc Cert.ReferenceIdeal.main_v178))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x224x1, .i32⟩ : BufTy).Contents (Elt F)) (WK (Proc.devRef .tc Cert.KernelIdeal.main_v205)) (WR (Proc.devRef .tc Cert.ReferenceIdeal.main_v205))
    ∧ @Eq ((⟨Cert.ReferenceIdeal.S16x224x1, .i32⟩ : BufTy).Contents (Elt F)) (WK (Proc.devRef .tc Cert.KernelIdeal.main_v209)) (WR (Proc.devRef .tc Cert.ReferenceIdeal.main_v209))

/-- The 18 buffers live at boundary 24 (before stretch w6_s1). -/
abbrev Inv24 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224, .i32⟩ : BufTy).Contents (Elt F)) (WK (Proc.devRef .tc Cert.KernelIdeal.main_v178)) (WR (Proc.devRef .tc Cert.ReferenceIdeal.main_v178))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x224x1, .i1⟩ : BufTy).Contents (Elt F)) (WK (Proc.devRef .tc Cert.KernelIdeal.main_v213)) (WR (Proc.devRef .tc Cert.ReferenceIdeal.main_v213))
    ∧ @Eq ((⟨Cert.ReferenceIdeal.S16x3x1x224, .f32⟩ : BufTy).Contents (Elt F)) (WK (Proc.devRef .tc Cert.KernelIdeal.main_v214)) (WR (Proc.devRef .tc Cert.ReferenceIdeal.main_v214))
    ∧ @Eq ((⟨Cert.ReferenceIdeal.S16x3x224x224, .f32⟩ : BufTy).Contents (Elt F)) (WK (Proc.devRef .tc Cert.KernelIdeal.main_v221)) (WR (Proc.devRef .tc Cert.ReferenceIdeal.main_v221))

/-- The 16 buffers live at boundary 25 (before stretch w6_s2). -/
abbrev Inv25 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224, .i32⟩ : BufTy).Contents (Elt F)) (WK (Proc.devRef .tc Cert.KernelIdeal.main_v178)) (WR (Proc.devRef .tc Cert.ReferenceIdeal.main_v178))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))

/-- The 18 buffers live at boundary 26 (before stretch w6_s3). -/
abbrev Inv26 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x224, .i32⟩ : BufTy).Contents (Elt F)) (WK (Proc.devRef .tc Cert.KernelIdeal.main_v227)) (WR (Proc.devRef .tc Cert.ReferenceIdeal.main_v227))
    ∧ @Eq ((⟨Cert.ReferenceIdeal.S_, .i32⟩ : BufTy).Contents (Elt F)) (WK (Proc.devRef .tc Cert.KernelIdeal.main_c_151)) (WR (Proc.devRef .tc Cert.ReferenceIdeal.main_c_151))
    ∧ @Eq ((⟨Cert.ReferenceIdeal.S_, .i32⟩ : BufTy).Contents (Elt F)) (WK (Proc.devRef .tc Cert.KernelIdeal.main_c_152)) (WR (Proc.devRef .tc Cert.ReferenceIdeal.main_c_152))

/-- The 16 buffers live at boundary 27 (before stretch w6_s4). -/
abbrev Inv27 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v172)) (WR (Proc.devRef .tc Cert.ReferenceIdeal.main_v172))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x224, .i32⟩ : BufTy).Contents (Elt F)) (WK (Proc.devRef .tc Cert.KernelIdeal.main_v228)) (WR (Proc.devRef .tc Cert.ReferenceIdeal.main_v228))

/-- The 18 buffers live at boundary 28 (before stretch w6_s5). -/
abbrev Inv28 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x224, .i32⟩ : BufTy).Contents (Elt F)) (WK (Proc.devRef .tc Cert.KernelIdeal.main_v228)) (WR (Proc.devRef .tc Cert.ReferenceIdeal.main_v228))
    ∧ @Eq ((⟨Cert.ReferenceIdeal.S16x1x224, .i1⟩ : BufTy).Contents (Elt F)) (WK (Proc.devRef .tc Cert.KernelIdeal.main_v235)) (WR (Proc.devRef .tc Cert.ReferenceIdeal.main_v235))
    ∧ @Eq ((⟨Cert.ReferenceIdeal.S16x224x1, .i32⟩ : BufTy).Contents (Elt F)) (WK (Proc.devRef .tc Cert.KernelIdeal.main_v236)) (WR (Proc.devRef .tc Cert.ReferenceIdeal.main_v236))
    ∧ @Eq ((⟨Cert.ReferenceIdeal.S_, .i32⟩ : BufTy).Contents (Elt F)) (WK (Proc.devRef .tc Cert.KernelIdeal.main_c_154)) (WR (Proc.devRef .tc Cert.ReferenceIdeal.main_c_154))

/-- The 18 buffers live at boundary 29 (before stretch w6_s6). -/
abbrev Inv29 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164x10, .f32⟩ : BufTy).Contents (Elt F)) (WK (Proc.devRef .tc Cert.KernelIdeal.main_v125)) (WR (Proc.devRef .tc Cert.ReferenceIdeal.main_v125))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x224, .i32⟩ : BufTy).Contents (Elt F)) (WK (Proc.devRef .tc Cert.KernelIdeal.main_v228)) (WR (Proc.devRef .tc Cert.ReferenceIdeal.main_v228))
    ∧ @Eq ((⟨Cert.ReferenceIdeal.S16x1x224, .i1⟩ : BufTy).Contents (Elt F)) (WK (Proc.devRef .tc Cert.KernelIdeal.main_v235)) (WR (Proc.devRef .tc Cert.ReferenceIdeal.main_v235))
    ∧ @Eq ((⟨Cert.ReferenceIdeal.S16x224x1, .i32⟩ : BufTy).Contents (Elt F)) (WK (Proc.devRef .tc Cert.KernelIdeal.main_v236)) (WR (Proc.devRef .tc Cert.ReferenceIdeal.main_v236))
    ∧ @Eq ((⟨Cert.ReferenceIdeal.S224, .i32⟩ : BufTy).Contents (Elt F)) (WK (Proc.devRef .tc Cert.KernelIdeal.main_v237)) (WR (Proc.devRef .tc Cert.ReferenceIdeal.main_v237))

/-- The 18 buffers live at boundary 30 (before stretch w7_s0). -/
abbrev Inv30 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v104)) (WR (Proc.devRef .tc Cert.ReferenceIdeal.main_v104))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x224, .i32⟩ : BufTy).Contents (Elt F)) (WK (Proc.devRef .tc Cert.KernelIdeal.main_v228)) (WR (Proc.devRef .tc Cert.ReferenceIdeal.main_v228))
    ∧ @Eq ((⟨Cert.ReferenceIdeal.S16x1x224, .i1⟩ : BufTy).Contents (Elt F)) (WK (Proc.devRef .tc Cert.KernelIdeal.main_v235)) (WR (Proc.devRef .tc Cert.ReferenceIdeal.main_v235))
    ∧ @Eq ((⟨Cert.ReferenceIdeal.S16x3x224x224, .f32⟩ : BufTy).Contents (Elt F)) (WK (Proc.devRef .tc Cert.KernelIdeal.main_v255)) (WR (Proc.devRef .tc Cert.ReferenceIdeal.main_v255))
    ∧ @Eq ((⟨Cert.ReferenceIdeal.S16x224, .i1⟩ : BufTy).Contents (Elt F)) (WK (Proc.devRef .tc Cert.KernelIdeal.main_v257)) (WR (Proc.devRef .tc Cert.ReferenceIdeal.main_v257))
    ∧ @Eq ((⟨Cert.ReferenceIdeal.S_, .i32⟩ : BufTy).Contents (Elt F)) (WK (Proc.devRef .tc Cert.KernelIdeal.main_c_160)) (WR (Proc.devRef .tc Cert.ReferenceIdeal.main_c_160))

/-- The 16 buffers live at boundary 31 (before stretch w7_s1). -/
abbrev Inv31 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x224, .i32⟩ : BufTy).Contents (Elt F)) (WK (Proc.devRef .tc Cert.KernelIdeal.main_v228)) (WR (Proc.devRef .tc Cert.ReferenceIdeal.main_v228))
    ∧ @Eq ((⟨Cert.ReferenceIdeal.S16x1x224, .i1⟩ : BufTy).Contents (Elt F)) (WK (Proc.devRef .tc Cert.KernelIdeal.main_v235)) (WR (Proc.devRef .tc Cert.ReferenceIdeal.main_v235))
    ∧ @Eq ((⟨Cert.ReferenceIdeal.S16x3x224x224, .f32⟩ : BufTy).Contents (Elt F)) (WK (Proc.devRef .tc Cert.KernelIdeal.main_v255)) (WR (Proc.devRef .tc Cert.ReferenceIdeal.main_v255))
    ∧ @Eq ((⟨Cert.ReferenceIdeal.S16x3x224x1, .f32⟩ : BufTy).Contents (Elt F)) (WK (Proc.devRef .tc Cert.KernelIdeal.main_v263)) (WR (Proc.devRef .tc Cert.ReferenceIdeal.main_v263))

/-- The 14 buffers live at boundary 32 (before stretch w7_s2). -/
abbrev Inv32 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224, .i32⟩ : BufTy).Contents (Elt F)) (WK (Proc.devRef .tc Cert.KernelIdeal.main_v179)) (WR (Proc.devRef .tc Cert.ReferenceIdeal.main_v179))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x224, .i32⟩ : BufTy).Contents (Elt F)) (WK (Proc.devRef .tc Cert.KernelIdeal.main_v228)) (WR (Proc.devRef .tc Cert.ReferenceIdeal.main_v228))
    ∧ @Eq ((⟨Cert.ReferenceIdeal.S16x3x224x224, .f32⟩ : BufTy).Contents (Elt F)) (WK (Proc.devRef .tc Cert.KernelIdeal.main_v264)) (WR (Proc.devRef .tc Cert.ReferenceIdeal.main_v264))

/-- The 16 buffers live at boundary 33 (before stretch w7_s3). -/
abbrev Inv33 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x224, .i32⟩ : BufTy).Contents (Elt F)) (WK (Proc.devRef .tc Cert.KernelIdeal.main_v228)) (WR (Proc.devRef .tc Cert.ReferenceIdeal.main_v228))
    ∧ @Eq ((⟨Cert.ReferenceIdeal.S16x3x224x224, .f32⟩ : BufTy).Contents (Elt F)) (WK (Proc.devRef .tc Cert.KernelIdeal.main_v264)) (WR (Proc.devRef .tc Cert.ReferenceIdeal.main_v264))
    ∧ @Eq ((⟨Cert.ReferenceIdeal.S16x224, .i32⟩ : BufTy).Contents (Elt F)) (WK (Proc.devRef .tc Cert.KernelIdeal.main_v271)) (WR (Proc.devRef .tc Cert.ReferenceIdeal.main_v271))
    ∧ @Eq ((⟨Cert.ReferenceIdeal.S16x224, .i32⟩ : BufTy).Contents (Elt F)) (WK (Proc.devRef .tc Cert.KernelIdeal.main_v274)) (WR (Proc.devRef .tc Cert.ReferenceIdeal.main_v274))
    ∧ @Eq ((⟨Cert.ReferenceIdeal.S_, .i32⟩ : BufTy).Contents (Elt F)) (WK (Proc.devRef .tc Cert.KernelIdeal.main_c_162)) (WR (Proc.devRef .tc Cert.ReferenceIdeal.main_c_162))

/-- The 15 buffers live at boundary 34 (before stretch w7_s4). -/
abbrev Inv34 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16x3x164, .f32⟩ : BufTy).Contents (Elt F)) (WK (Proc.devRef .tc Cert.KernelIdeal.main_v146)) (WR (Proc.devRef .tc Cert.ReferenceIdeal.main_v146))
    ∧ @Eq ((⟨Cert.ReferenceIdeal.S16x3x164x10, .f32⟩ : BufTy).Contents (Elt F)) (WK (Proc.devRef .tc Cert.KernelIdeal.main_v167)) (WR (Proc.devRef .tc Cert.ReferenceIdeal.main_v167))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S16, .i32⟩ : BufTy).Contents (Elt F)) (WK (Proc.devRef .tc Cert.KernelIdeal.main_v176)) (WR (Proc.devRef .tc Cert.ReferenceIdeal.main_v176))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x224, .i32⟩ : BufTy).Contents (Elt F)) (WK (Proc.devRef .tc Cert.KernelIdeal.main_v228)) (WR (Proc.devRef .tc Cert.ReferenceIdeal.main_v228))
    ∧ @Eq ((⟨Cert.ReferenceIdeal.S16x3x224x224, .f32⟩ : BufTy).Contents (Elt F)) (WK (Proc.devRef .tc Cert.KernelIdeal.main_v264)) (WR (Proc.devRef .tc Cert.ReferenceIdeal.main_v264))
    ∧ @Eq ((⟨Cert.ReferenceIdeal.S16x224, .i32⟩ : BufTy).Contents (Elt F)) (WK (Proc.devRef .tc Cert.KernelIdeal.main_v271)) (WR (Proc.devRef .tc Cert.ReferenceIdeal.main_v271))
    ∧ @Eq ((⟨Cert.ReferenceIdeal.S16x224, .i32⟩ : BufTy).Contents (Elt F)) (WK (Proc.devRef .tc Cert.KernelIdeal.main_v275)) (WR (Proc.devRef .tc Cert.ReferenceIdeal.main_v275))

/-- The 12 buffers live at boundary 35 (before stretch w7_s5). -/
abbrev Inv35 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x3x224x224, .f32⟩ : BufTy).Contents (Elt F)) (WK (Proc.devRef .tc Cert.KernelIdeal.main_v264)) (WR (Proc.devRef .tc Cert.ReferenceIdeal.main_v264))
    ∧ @Eq ((⟨Cert.ReferenceIdeal.S16x1x224, .i1⟩ : BufTy).Contents (Elt F)) (WK (Proc.devRef .tc Cert.KernelIdeal.main_v279)) (WR (Proc.devRef .tc Cert.ReferenceIdeal.main_v279))
    ∧ @Eq ((⟨Cert.ReferenceIdeal.S16x3x224x1, .f32⟩ : BufTy).Contents (Elt F)) (WK (Proc.devRef .tc Cert.KernelIdeal.main_v287)) (WR (Proc.devRef .tc Cert.ReferenceIdeal.main_v287))
    ∧ @Eq ((⟨Cert.ReferenceIdeal.S16x3x224x224, .f32⟩ : BufTy).Contents (Elt F)) (WK (Proc.devRef .tc Cert.KernelIdeal.main_v305)) (WR (Proc.devRef .tc Cert.ReferenceIdeal.main_v305))

/-- The 10 buffers live at boundary 36 (before stretch w7_s6). -/
abbrev Inv36 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16, .i32⟩ : BufTy).Contents (Elt F)) (WK (Proc.devRef .tc Cert.KernelIdeal.main_v169)) (WR (Proc.devRef .tc Cert.ReferenceIdeal.main_v169))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x3x224x224, .f32⟩ : BufTy).Contents (Elt F)) (WK (Proc.devRef .tc Cert.KernelIdeal.main_v264)) (WR (Proc.devRef .tc Cert.ReferenceIdeal.main_v264))
    ∧ @Eq ((⟨Cert.ReferenceIdeal.S16x3x224x224, .f32⟩ : BufTy).Contents (Elt F)) (WK (Proc.devRef .tc Cert.KernelIdeal.main_v306)) (WR (Proc.devRef .tc Cert.ReferenceIdeal.main_v306))

/-- The 11 buffers live at boundary 37 (before stretch w8_s0). -/
abbrev Inv37 (WK : ValK F) (WR : ValR F) : Prop :=
  @Eq ((⟨Cert.ReferenceIdeal.S16, .i32⟩ : BufTy).Contents (Elt F)) (WK (Proc.devRef .tc Cert.KernelIdeal.main_arg10)) (WR (Proc.devRef .tc Cert.ReferenceIdeal.main_arg10))
    ∧ @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S1x224, .i32⟩ : BufTy).Contents (Elt F)) (WK (Proc.devRef .tc Cert.KernelIdeal.main_v181)) (WR (Proc.devRef .tc Cert.ReferenceIdeal.main_v181))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x3x224x224, .f32⟩ : BufTy).Contents (Elt F)) (WK (Proc.devRef .tc Cert.KernelIdeal.main_v264)) (WR (Proc.devRef .tc Cert.ReferenceIdeal.main_v264))
    ∧ @Eq ((⟨Cert.ReferenceIdeal.S16x3x224x224, .f32⟩ : BufTy).Contents (Elt F)) (WK (Proc.devRef .tc Cert.KernelIdeal.main_v306)) (WR (Proc.devRef .tc Cert.ReferenceIdeal.main_v306))
    ∧ @Eq ((⟨Cert.ReferenceIdeal.S16x1x1, .i32⟩ : BufTy).Contents (Elt F)) (WK (Proc.devRef .tc Cert.KernelIdeal.main_v308)) (WR (Proc.devRef .tc Cert.ReferenceIdeal.main_v308))
    ∧ @Eq ((⟨Cert.ReferenceIdeal.S16x1x224, .i32⟩ : BufTy).Contents (Elt F)) (WK (Proc.devRef .tc Cert.KernelIdeal.main_v309)) (WR (Proc.devRef .tc Cert.ReferenceIdeal.main_v309))

/-- The 10 buffers live at boundary 38 (before stretch w8_s1). -/
abbrev Inv38 (WK : ValK F) (WR : ValR F) : Prop :=
  @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x3x224x224, .f32⟩ : BufTy).Contents (Elt F)) (WK (Proc.devRef .tc Cert.KernelIdeal.main_v264)) (WR (Proc.devRef .tc Cert.ReferenceIdeal.main_v264))
    ∧ @Eq ((⟨Cert.ReferenceIdeal.S16x3x224x224, .f32⟩ : BufTy).Contents (Elt F)) (WK (Proc.devRef .tc Cert.KernelIdeal.main_v306)) (WR (Proc.devRef .tc Cert.ReferenceIdeal.main_v306))
    ∧ @Eq ((⟨Cert.ReferenceIdeal.S16x1x224, .i1⟩ : BufTy).Contents (Elt F)) (WK (Proc.devRef .tc Cert.KernelIdeal.main_v311)) (WR (Proc.devRef .tc Cert.ReferenceIdeal.main_v311))
    ∧ @Eq ((⟨Cert.ReferenceIdeal.S16x1x224, .i1⟩ : BufTy).Contents (Elt F)) (WK (Proc.devRef .tc Cert.KernelIdeal.main_v318)) (WR (Proc.devRef .tc Cert.ReferenceIdeal.main_v318))
    ∧ @Eq ((⟨Cert.ReferenceIdeal.S_, .f32⟩ : BufTy).Contents (Elt F)) (WK (Proc.devRef .tc Cert.KernelIdeal.main_cst)) (WR (Proc.devRef .tc Cert.ReferenceIdeal.main_cst))

/-- The 8 buffers live at boundary 39 (before stretch w8_s2). -/
abbrev Inv39 (WK : ValK F) (WR : ValR F) : Prop :=
  @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x3x224x224, .f32⟩ : BufTy).Contents (Elt F)) (WK (Proc.devRef .tc Cert.KernelIdeal.main_v264)) (WR (Proc.devRef .tc Cert.ReferenceIdeal.main_v264))
    ∧ @Eq ((⟨Cert.ReferenceIdeal.S16x1x224, .i1⟩ : BufTy).Contents (Elt F)) (WK (Proc.devRef .tc Cert.KernelIdeal.main_v311)) (WR (Proc.devRef .tc Cert.ReferenceIdeal.main_v311))
    ∧ @Eq ((⟨Cert.ReferenceIdeal.S16x3x224x224, .f32⟩ : BufTy).Contents (Elt F)) (WK (Proc.devRef .tc Cert.KernelIdeal.main_v319)) (WR (Proc.devRef .tc Cert.ReferenceIdeal.main_v319))

/-- The 6 buffers live at boundary 40 (before stretch w8_s3). -/
abbrev Inv40 (WK : ValK F) (WR : ValR F) : Prop :=
  @Eq ((⟨Cert.ReferenceIdeal.S16, .i32⟩ : BufTy).Contents (Elt F)) (WK (Proc.devRef .tc Cert.KernelIdeal.main_arg11)) (WR (Proc.devRef .tc Cert.ReferenceIdeal.main_arg11))
    ∧ @Eq ((⟨Cert.ReferenceIdeal.S16, .i32⟩ : BufTy).Contents (Elt F)) (WK (Proc.devRef .tc Cert.KernelIdeal.main_v171)) (WR (Proc.devRef .tc Cert.ReferenceIdeal.main_v171))
    ∧ @Eq ((⟨Cert.ReferenceIdeal.S224x1, .i32⟩ : BufTy).Contents (Elt F)) (WK (Proc.devRef .tc Cert.KernelIdeal.main_v180)) (WR (Proc.devRef .tc Cert.ReferenceIdeal.main_v180))
    ∧ @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x3x224x224, .f32⟩ : BufTy).Contents (Elt F)) (WK (Proc.devRef .tc Cert.KernelIdeal.main_v320)) (WR (Proc.devRef .tc Cert.ReferenceIdeal.main_v320))

/-- The 5 buffers live at boundary 41 (before stretch w8_s4). -/
abbrev Inv41 (WK : ValK F) (WR : ValR F) : Prop :=
  @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x3x224x224, .f32⟩ : BufTy).Contents (Elt F)) (WK (Proc.devRef .tc Cert.KernelIdeal.main_v222)) (WR (Proc.devRef .tc Cert.ReferenceIdeal.main_v222))
    ∧ @Eq ((⟨Cert.ReferenceIdeal.S16x3x224x224, .f32⟩ : BufTy).Contents (Elt F)) (WK (Proc.devRef .tc Cert.KernelIdeal.main_v320)) (WR (Proc.devRef .tc Cert.ReferenceIdeal.main_v320))
    ∧ @Eq ((⟨Cert.ReferenceIdeal.S16x224x1, .i1⟩ : BufTy).Contents (Elt F)) (WK (Proc.devRef .tc Cert.KernelIdeal.main_v325)) (WR (Proc.devRef .tc Cert.ReferenceIdeal.main_v325))
    ∧ @Eq ((⟨Cert.ReferenceIdeal.S16x224x1, .i1⟩ : BufTy).Contents (Elt F)) (WK (Proc.devRef .tc Cert.KernelIdeal.main_v332)) (WR (Proc.devRef .tc Cert.ReferenceIdeal.main_v332))

/-- The 3 buffers live at boundary 42 (before stretch w8_s5). -/
abbrev Inv42 (WK : ValK F) (WR : ValR F) : Prop :=
  @Eq ((⟨Cert.ReferenceIdeal.S16x3x224x224, .f32⟩ : BufTy).Contents (Elt F)) (WK (Proc.devRef .tc Cert.KernelIdeal.main_v198)) (WR (Proc.devRef .tc Cert.ReferenceIdeal.main_v198))
    ∧ @Eq ((⟨Cert.ReferenceIdeal.S16x224x1, .i1⟩ : BufTy).Contents (Elt F)) (WK (Proc.devRef .tc Cert.KernelIdeal.main_v325)) (WR (Proc.devRef .tc Cert.ReferenceIdeal.main_v325))
    ∧ @Eq ((⟨Cert.ReferenceIdeal.S16x3x224x224, .f32⟩ : BufTy).Contents (Elt F)) (WK (Proc.devRef .tc Cert.KernelIdeal.main_v333)) (WR (Proc.devRef .tc Cert.ReferenceIdeal.main_v333))

/-- The 1 buffer live at boundary 43. -/
abbrev Inv43 (WK : ValK F) (WR : ValR F) : Prop :=
  @Eq ((⟨Cert.ReferenceIdeal.S16x3x224x224, .f32⟩ : BufTy).Contents (Elt F)) (WK (Proc.devRef .tc Cert.KernelIdeal.main_v334)) (WR (Proc.devRef .tc Cert.ReferenceIdeal.main_v334))

end Cert.PromptBridge

end
-- ==== Proof.PromptBridgeBase.lean ====
/- The bridge between the two programs' prompts, part 1 of 3: the steps, one stretch at a time.
   The kernel program and the reference build the prompt by the same host operations over buffers of the same names,
   each in its own signature; a buffer's type is a lookup in its signature's table, and two lookups in two tables
   are costly to compare, while a lookup against a literal type is not. So the two programs never meet directly:
   each stretch's effect on a buffer is a pure function at literal types (phi, the tables of PromptBridgePhiJ), the
   kernel program's fold is that function of its contents, the reference's fold is that function of its contents,
   and agreement of the contents is carried through the function's literal-typed arguments. -/
import proofs.«144763_j39642548142243_2_alg».proof.Proof.PromptBridgeT
import proofs.«144763_j39642548142243_2_alg».proof.Proof.KernelIdealHostVals

namespace Cert.PromptBridge

open Idealize.ShloMosaic Idealize.ShloMosaic.StableHlo

/-- A fold over a literal list at a literal buffer as a pure term of the contents before it, in one pass: each
    operation's result at its own buffer is its function's value, at any other buffer what was there (the two
    references told apart by computation); a concatenation of four operands reads each at its own reference. -/
macro "fold_results" : tactic =>
  `(tactic| simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne'])

/-- What the one pass leaves under a concatenation's operands, one rewrite at a time: the same two kinds of
    step (an operation's result at its own buffer; at another, told apart by computation). -/
macro "fold_rest" : tactic =>
  `(tactic| repeat (first
      | rw [nullary_result] | rw [unary_result] | rw [binary_result] | rw [ternary_result] | rw [reshape_result]
      | rw [nary4_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-- A fold at a buffer the stretch writes is the stretch's pure function: open the list and the function, read the
    fold as a pure term of the contents before the stretch (each operation's result at its own buffer, what was
    there at any other), drop the typed references' transports (the identity at literal references), and compare
    the two terms, the fold's side against the function's literal types. -/
macro "phi_step" a:ident p:ident : tactic => `(tactic| (
  delta $a $p
  fold_results
  all_goals (try fold_rest)
  all_goals (try simp only [cast_eq])
  all_goals rfl))

/-- A fold at a buffer the stretch does not write is what was there: every operation's result buffer is another. -/
macro "keep_step" a:ident : tactic => `(tactic| (
  delta $a
  fold_results))

/-- One stretch carries the agreement: at each buffer live after it, both folds are the same pure function of the
    contents before it (or the contents themselves), and those agree by the hypothesis `h`. -/
syntax "sim_step" ident ident ident "[" term,* "]" : tactic
macro_rules
  | `(tactic| sim_step $h $inv $inv' [$ls,*]) => do
      let alts ← ls.getElems.mapM fun l => `(tactic| rw [$l:term])
      `(tactic| (
        delta $inv at $h:ident
        delta $inv'
        repeat' (refine And.intro ?_ ?_)
        all_goals (
          repeat (first $[| $alts:tactic]*)
          first | done | simp only [$h:ident])))

/-- The congruence lemmas the one-pass rewriting asks for — of the concatenation's builder, of a typed reference's
    constructor and of the two programs' gather records —, stated once here so that every window's module finds
    them in this one. -/
theorem congr_simp_realized : True := by
  have := @StableHlo.nary.congr_simp; have := @StableHlo.TRef.of.congr_simp
  have := @Cert.KernelIdeal.gather_S3x3x1x224_S16x4_S16x1x3x1x224_1234_n_n_n_0123_1_131224.congr_simp; have := @Cert.ReferenceIdeal.gather_S3x3x1x224_S16x4_S16x1x3x1x224_1234_n_n_n_0123_1_131224.congr_simp
  have := @Cert.KernelIdeal.gather_S3x3x10x224_S16x4_S16x1x3x10x224_1234_n_n_n_0123_1_1310224.congr_simp; have := @Cert.ReferenceIdeal.gather_S3x3x10x224_S16x4_S16x1x3x10x224_1234_n_n_n_0123_1_1310224.congr_simp
  have := @Cert.KernelIdeal.gather_S3x3x164x1_S16x4_S16x1x3x164x1_1234_n_n_n_0123_1_131641.congr_simp; have := @Cert.ReferenceIdeal.gather_S3x3x164x1_S16x4_S16x1x3x164x1_1234_n_n_n_0123_1_131641.congr_simp
  have := @Cert.KernelIdeal.gather_S3x3x164x10_S16x4_S16x1x3x164x10_1234_n_n_n_0123_1_1316410.congr_simp; have := @Cert.ReferenceIdeal.gather_S3x3x164x10_S16x4_S16x1x3x164x10_1234_n_n_n_0123_1_1316410.congr_simp
  have := @Cert.KernelIdeal.gather_S16x3x10x224_S224x1_S16x3x224x224_013_2_n_n_2_1_1631224.congr_simp; have := @Cert.ReferenceIdeal.gather_S16x3x10x224_S224x1_S16x3x224x224_013_2_n_n_2_1_1631224.congr_simp
  have := @Cert.KernelIdeal.gather_S16x3x10x224_S16x224x1_S16x3x224x224_13_2_0_0_2_2_131224.congr_simp; have := @Cert.ReferenceIdeal.gather_S16x3x10x224_S16x224x1_S16x3x224x224_13_2_0_0_2_2_131224.congr_simp
  have := @Cert.KernelIdeal.gather_S16x3x164x10_S16x224x224x2_S16x3x224x224_1_23_0_0_23_3_1311.congr_simp; have := @Cert.ReferenceIdeal.gather_S16x3x164x10_S16x224x224x2_S16x3x224x224_1_23_0_0_23_3_1311.congr_simp
  have := @Cert.KernelIdeal.gather_S16x3x164_S16x224x1_S16x3x224_1_2_0_0_2_2_131.congr_simp; have := @Cert.ReferenceIdeal.gather_S16x3x164_S16x224x1_S16x3x224_1_2_0_0_2_2_131.congr_simp
  trivial

end Cert.PromptBridge
-- ==== Proof.PromptBridgePhi0.lean ====
import proofs.«144763_j39642548142243_2_alg».proof.Proof.PromptBridgeBase

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

/-- main_v20 after stretch w0_s0, from the contents before it. -/
def phi_w0_s0_main_v20 (t_main_arg1 : (⟨S3x3x1x224, .f32⟩ : BufTy).Contents (Elt F)) (t_main_arg9 : (⟨S16, .i32⟩ : BufTy).Contents (Elt F)) : (⟨S16x3x224, .f32⟩ : BufTy).Contents (Elt F) :=
  let t_main_c : (⟨S_, .i32⟩ : BufTy).Contents (Elt F) := (constantI S_ 32 0#32)
  let t_main_v0 : (⟨S16, .i32⟩ : BufTy).Contents (Elt F) := (broadcastInDim S16 ![] bcast_S_S16 : (⟨S_, .i32⟩ : BufTy).Contents (Elt F) → (⟨S16, .i32⟩ : BufTy).Contents (Elt F)) t_main_c
  let t_main_v1 : (⟨S16, .i1⟩ : BufTy).Contents (Elt F) := (cmpi .slt : (⟨S16, .i32⟩ : BufTy).Contents (Elt F) → (⟨S16, .i32⟩ : BufTy).Contents (Elt F) → (⟨S16, .i1⟩ : BufTy).Contents (Elt F)) t_main_arg9 t_main_v0
  let t_main_c_0 : (⟨S_, .i32⟩ : BufTy).Contents (Elt F) := (constantI S_ 32 3#32)
  let t_main_v2 : (⟨S16, .i32⟩ : BufTy).Contents (Elt F) := (broadcastInDim S16 ![] bcast_S_S16 : (⟨S_, .i32⟩ : BufTy).Contents (Elt F) → (⟨S16, .i32⟩ : BufTy).Contents (Elt F)) t_main_c_0
  let t_main_v3 : (⟨S16, .i32⟩ : BufTy).Contents (Elt F) := (addi : (⟨S16, .i32⟩ : BufTy).Contents (Elt F) → (⟨S16, .i32⟩ : BufTy).Contents (Elt F) → (⟨S16, .i32⟩ : BufTy).Contents (Elt F)) t_main_arg9 t_main_v2
  let t_main_v4 : (⟨S16, .i32⟩ : BufTy).Contents (Elt F) := (select : (⟨S16, .i1⟩ : BufTy).Contents (Elt F) → (⟨S16, .i32⟩ : BufTy).Contents (Elt F) → (⟨S16, .i32⟩ : BufTy).Contents (Elt F) → (⟨S16, .i32⟩ : BufTy).Contents (Elt F)) t_main_v1 t_main_v3 t_main_arg9
  let t_main_c_1 : (⟨S_, .i32⟩ : BufTy).Contents (Elt F) := (constantI S_ 32 0#32)
  let t_main_c_2 : (⟨S_, .i32⟩ : BufTy).Contents (Elt F) := (constantI S_ 32 0#32)
  let t_main_v5 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_1 t_main_c_2
  let t_main_c_3 : (⟨S_, .i32⟩ : BufTy).Contents (Elt F) := (constantI S_ 32 0#32)
  let t_main_c_4 : (⟨S_, .i32⟩ : BufTy).Contents (Elt F) := (constantI S_ 32 3#32)
  let t_main_v6 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_3 t_main_c_4
  let t_main_c_5 : (⟨S_, .i32⟩ : BufTy).Contents (Elt F) := (constantI S_ 32 0#32)
  let t_main_v7 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v5 t_main_v6 t_main_c_5
  let t_main_c_6 : (⟨S_, .i32⟩ : BufTy).Contents (Elt F) := (constantI S_ 32 0#32)
  let t_main_c_7 : (⟨S_, .i32⟩ : BufTy).Contents (Elt F) := (constantI S_ 32 0#32)
  let t_main_v8 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_6 t_main_c_7
  let t_main_c_8 : (⟨S_, .i32⟩ : BufTy).Contents (Elt F) := (constantI S_ 32 0#32)
  let t_main_c_9 : (⟨S_, .i32⟩ : BufTy).Contents (Elt F) := (constantI S_ 32 1#32)
  let t_main_v9 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_8 t_main_c_9
  let t_main_c_10 : (⟨S_, .i32⟩ : BufTy).Contents (Elt F) := (constantI S_ 32 0#32)
  let t_main_v10 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v8 t_main_v9 t_main_c_10
  let t_main_c_11 : (⟨S_, .i32⟩ : BufTy).Contents (Elt F) := (constantI S_ 32 0#32)
  let t_main_c_12 : (⟨S_, .i32⟩ : BufTy).Contents (Elt F) := (constantI S_ 32 0#32)
  let t_main_v11 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_11 t_main_c_12
  let t_main_c_13 : (⟨S_, .i32⟩ : BufTy).Contents (Elt F) := (constantI S_ 32 0#32)
  let t_main_c_14 : (⟨S_, .i32⟩ : BufTy).Contents (Elt F) := (constantI S_ 32 224#32)
  let t_main_v12 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_13 t_main_c_14
  let t_main_c_15 : (⟨S_, .i32⟩ : BufTy).Contents (Elt F) := (constantI S_ 32 0#32)
  let t_main_v13 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v11 t_main_v12 t_main_c_15
  let t_main_v14 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v4
  let t_main_v15 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v7
  let t_main_v16 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v10
  let t_main_v17 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v13
  let t_main_v18 : (⟨S16x4, .i32⟩ : BufTy).Contents (Elt F) := concatenate S16x4 1 [⟨S16x1, t_main_v14⟩, ⟨S16x1, t_main_v15⟩, ⟨S16x1, t_main_v16⟩, ⟨S16x1, t_main_v17⟩] concatenates_S16x1_S16x1_S16x1_S16x1_S16x4_d1
  let t_main_v19 : (⟨S16x1x3x1x224, .f32⟩ : BufTy).Contents (Elt F) := ((fun x i => Host.gather gather_S3x3x1x224_S16x4_S16x1x3x1x224_1234_n_n_n_0123_1_131224 x i) : (⟨S3x3x1x224, .f32⟩ : BufTy).Contents (Elt F) → (⟨S16x4, .i32⟩ : BufTy).Contents (Elt F) → (⟨S16x1x3x1x224, .f32⟩ : BufTy).Contents (Elt F)) t_main_arg1 t_main_v18
  let t_main_v20 : (⟨S16x3x224, .f32⟩ : BufTy).Contents (Elt F) := (fun i => shapeCast S16x3x224 t_main_v19 shapeCasts_S16x1x3x1x224_S16x3x224 i)
  t_main_v20

/-- main_v25 after stretch w0_s0, from the contents before it. -/
def phi_w0_s0_main_v25 (t_main_arg9 : (⟨S16, .i32⟩ : BufTy).Contents (Elt F)) : (⟨S16, .i32⟩ : BufTy).Contents (Elt F) :=
  let t_main_c_16 : (⟨S_, .i32⟩ : BufTy).Contents (Elt F) := (constantI S_ 32 0#32)
  let t_main_v21 : (⟨S16, .i32⟩ : BufTy).Contents (Elt F) := (broadcastInDim S16 ![] bcast_S_S16 : (⟨S_, .i32⟩ : BufTy).Contents (Elt F) → (⟨S16, .i32⟩ : BufTy).Contents (Elt F)) t_main_c_16
  let t_main_v22 : (⟨S16, .i1⟩ : BufTy).Contents (Elt F) := (cmpi .slt : (⟨S16, .i32⟩ : BufTy).Contents (Elt F) → (⟨S16, .i32⟩ : BufTy).Contents (Elt F) → (⟨S16, .i1⟩ : BufTy).Contents (Elt F)) t_main_arg9 t_main_v21
  let t_main_c_17 : (⟨S_, .i32⟩ : BufTy).Contents (Elt F) := (constantI S_ 32 3#32)
  let t_main_v23 : (⟨S16, .i32⟩ : BufTy).Contents (Elt F) := (broadcastInDim S16 ![] bcast_S_S16 : (⟨S_, .i32⟩ : BufTy).Contents (Elt F) → (⟨S16, .i32⟩ : BufTy).Contents (Elt F)) t_main_c_17
  let t_main_v24 : (⟨S16, .i32⟩ : BufTy).Contents (Elt F) := (addi : (⟨S16, .i32⟩ : BufTy).Contents (Elt F) → (⟨S16, .i32⟩ : BufTy).Contents (Elt F) → (⟨S16, .i32⟩ : BufTy).Contents (Elt F)) t_main_arg9 t_main_v23
  let t_main_v25 : (⟨S16, .i32⟩ : BufTy).Contents (Elt F) := (select : (⟨S16, .i1⟩ : BufTy).Contents (Elt F) → (⟨S16, .i32⟩ : BufTy).Contents (Elt F) → (⟨S16, .i32⟩ : BufTy).Contents (Elt F) → (⟨S16, .i32⟩ : BufTy).Contents (Elt F)) t_main_v22 t_main_v24 t_main_arg9
  t_main_v25

/-- main_v28 after stretch w0_s0, from the contents before it. -/
def phi_w0_s0_main_v28  : (⟨S_, .i32⟩ : BufTy).Contents (Elt F) :=
  let t_main_c_18 : (⟨S_, .i32⟩ : BufTy).Contents (Elt F) := (constantI S_ 32 0#32)
  let t_main_c_19 : (⟨S_, .i32⟩ : BufTy).Contents (Elt F) := (constantI S_ 32 0#32)
  let t_main_v26 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_18 t_main_c_19
  let t_main_c_20 : (⟨S_, .i32⟩ : BufTy).Contents (Elt F) := (constantI S_ 32 0#32)
  let t_main_c_21 : (⟨S_, .i32⟩ : BufTy).Contents (Elt F) := (constantI S_ 32 3#32)
  let t_main_v27 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_20 t_main_c_21
  let t_main_c_22 : (⟨S_, .i32⟩ : BufTy).Contents (Elt F) := (constantI S_ 32 0#32)
  let t_main_v28 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v26 t_main_v27 t_main_c_22
  t_main_v28

/-- main_v29 after stretch w0_s0, from the contents before it. -/
def phi_w0_s0_main_v29  : (⟨S_, .i1⟩ : BufTy).Contents (Elt F) :=
  let t_main_c_23 : (⟨S_, .i32⟩ : BufTy).Contents (Elt F) := (constantI S_ 32 0#32)
  let t_main_c_24 : (⟨S_, .i32⟩ : BufTy).Contents (Elt F) := (constantI S_ 32 0#32)
  let t_main_v29 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_23 t_main_c_24
  t_main_v29

/-- main_v30 after stretch w0_s0, from the contents before it. -/
def phi_w0_s0_main_v30  : (⟨S_, .i32⟩ : BufTy).Contents (Elt F) :=
  let t_main_c_25 : (⟨S_, .i32⟩ : BufTy).Contents (Elt F) := (constantI S_ 32 0#32)
  let t_main_c_26 : (⟨S_, .i32⟩ : BufTy).Contents (Elt F) := (constantI S_ 32 10#32)
  let t_main_v30 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_25 t_main_c_26
  t_main_v30

/-- main_c_27 after stretch w0_s0, from the contents before it. -/
def phi_w0_s0_main_c_27  : (⟨S_, .i32⟩ : BufTy).Contents (Elt F) :=
  let t_main_c_27 : (⟨S_, .i32⟩ : BufTy).Contents (Elt F) := (constantI S_ 32 0#32)
  t_main_c_27

end Cert.PromptBridge

end
-- ==== Proof.PromptBridgeL0.lean ====
import proofs.«144763_j39642548142243_2_alg».proof.Proof.PromptBridgePhi0

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

theorem keepK_w0_s0_main_arg2 (WK : ValK F) :
    after Cert.KernelIdeal.Gen.main_part0_ops0 WK (Proc.devRef .tc Cert.KernelIdeal.main_arg2) = WK (Proc.devRef .tc Cert.KernelIdeal.main_arg2) := by
  keep_step Cert.KernelIdeal.Gen.main_part0_ops0
theorem keepR_w0_s0_main_arg2 (WR : ValR F) :
    after Cert.ReferenceIdeal.Hand.w0_s0 WR (Proc.devRef .tc Cert.ReferenceIdeal.main_arg2) = WR (Proc.devRef .tc Cert.ReferenceIdeal.main_arg2) := by
  keep_step Cert.ReferenceIdeal.Hand.w0_s0
theorem keepK_w0_s0_main_arg3 (WK : ValK F) :
    after Cert.KernelIdeal.Gen.main_part0_ops0 WK (Proc.devRef .tc Cert.KernelIdeal.main_arg3) = WK (Proc.devRef .tc Cert.KernelIdeal.main_arg3) := by
  keep_step Cert.KernelIdeal.Gen.main_part0_ops0
theorem keepR_w0_s0_main_arg3 (WR : ValR F) :
    after Cert.ReferenceIdeal.Hand.w0_s0 WR (Proc.devRef .tc Cert.ReferenceIdeal.main_arg3) = WR (Proc.devRef .tc Cert.ReferenceIdeal.main_arg3) := by
  keep_step Cert.ReferenceIdeal.Hand.w0_s0
theorem keepK_w0_s0_main_arg4 (WK : ValK F) :
    after Cert.KernelIdeal.Gen.main_part0_ops0 WK (Proc.devRef .tc Cert.KernelIdeal.main_arg4) = WK (Proc.devRef .tc Cert.KernelIdeal.main_arg4) := by
  keep_step Cert.KernelIdeal.Gen.main_part0_ops0
theorem keepR_w0_s0_main_arg4 (WR : ValR F) :
    after Cert.ReferenceIdeal.Hand.w0_s0 WR (Proc.devRef .tc Cert.ReferenceIdeal.main_arg4) = WR (Proc.devRef .tc Cert.ReferenceIdeal.main_arg4) := by
  keep_step Cert.ReferenceIdeal.Hand.w0_s0
theorem keepK_w0_s0_main_arg5 (WK : ValK F) :
    after Cert.KernelIdeal.Gen.main_part0_ops0 WK (Proc.devRef .tc Cert.KernelIdeal.main_arg5) = WK (Proc.devRef .tc Cert.KernelIdeal.main_arg5) := by
  keep_step Cert.KernelIdeal.Gen.main_part0_ops0
theorem keepR_w0_s0_main_arg5 (WR : ValR F) :
    after Cert.ReferenceIdeal.Hand.w0_s0 WR (Proc.devRef .tc Cert.ReferenceIdeal.main_arg5) = WR (Proc.devRef .tc Cert.ReferenceIdeal.main_arg5) := by
  keep_step Cert.ReferenceIdeal.Hand.w0_s0
theorem keepK_w0_s0_main_arg6 (WK : ValK F) :
    after Cert.KernelIdeal.Gen.main_part0_ops0 WK (Proc.devRef .tc Cert.KernelIdeal.main_arg6) = WK (Proc.devRef .tc Cert.KernelIdeal.main_arg6) := by
  keep_step Cert.KernelIdeal.Gen.main_part0_ops0
theorem keepR_w0_s0_main_arg6 (WR : ValR F) :
    after Cert.ReferenceIdeal.Hand.w0_s0 WR (Proc.devRef .tc Cert.ReferenceIdeal.main_arg6) = WR (Proc.devRef .tc Cert.ReferenceIdeal.main_arg6) := by
  keep_step Cert.ReferenceIdeal.Hand.w0_s0
theorem keepK_w0_s0_main_arg7 (WK : ValK F) :
    after Cert.KernelIdeal.Gen.main_part0_ops0 WK (Proc.devRef .tc Cert.KernelIdeal.main_arg7) = WK (Proc.devRef .tc Cert.KernelIdeal.main_arg7) := by
  keep_step Cert.KernelIdeal.Gen.main_part0_ops0
theorem keepR_w0_s0_main_arg7 (WR : ValR F) :
    after Cert.ReferenceIdeal.Hand.w0_s0 WR (Proc.devRef .tc Cert.ReferenceIdeal.main_arg7) = WR (Proc.devRef .tc Cert.ReferenceIdeal.main_arg7) := by
  keep_step Cert.ReferenceIdeal.Hand.w0_s0
theorem keepK_w0_s0_main_arg8 (WK : ValK F) :
    after Cert.KernelIdeal.Gen.main_part0_ops0 WK (Proc.devRef .tc Cert.KernelIdeal.main_arg8) = WK (Proc.devRef .tc Cert.KernelIdeal.main_arg8) := by
  keep_step Cert.KernelIdeal.Gen.main_part0_ops0
theorem keepR_w0_s0_main_arg8 (WR : ValR F) :
    after Cert.ReferenceIdeal.Hand.w0_s0 WR (Proc.devRef .tc Cert.ReferenceIdeal.main_arg8) = WR (Proc.devRef .tc Cert.ReferenceIdeal.main_arg8) := by
  keep_step Cert.ReferenceIdeal.Hand.w0_s0
theorem keepK_w0_s0_main_arg9 (WK : ValK F) :
    after Cert.KernelIdeal.Gen.main_part0_ops0 WK (Proc.devRef .tc Cert.KernelIdeal.main_arg9) = WK (Proc.devRef .tc Cert.KernelIdeal.main_arg9) := by
  keep_step Cert.KernelIdeal.Gen.main_part0_ops0
theorem keepR_w0_s0_main_arg9 (WR : ValR F) :
    after Cert.ReferenceIdeal.Hand.w0_s0 WR (Proc.devRef .tc Cert.ReferenceIdeal.main_arg9) = WR (Proc.devRef .tc Cert.ReferenceIdeal.main_arg9) := by
  keep_step Cert.ReferenceIdeal.Hand.w0_s0
theorem keepK_w0_s0_main_arg10 (WK : ValK F) :
    after Cert.KernelIdeal.Gen.main_part0_ops0 WK (Proc.devRef .tc Cert.KernelIdeal.main_arg10) = WK (Proc.devRef .tc Cert.KernelIdeal.main_arg10) := by
  keep_step Cert.KernelIdeal.Gen.main_part0_ops0
theorem keepR_w0_s0_main_arg10 (WR : ValR F) :
    after Cert.ReferenceIdeal.Hand.w0_s0 WR (Proc.devRef .tc Cert.ReferenceIdeal.main_arg10) = WR (Proc.devRef .tc Cert.ReferenceIdeal.main_arg10) := by
  keep_step Cert.ReferenceIdeal.Hand.w0_s0
theorem keepK_w0_s0_main_arg11 (WK : ValK F) :
    after Cert.KernelIdeal.Gen.main_part0_ops0 WK (Proc.devRef .tc Cert.KernelIdeal.main_arg11) = WK (Proc.devRef .tc Cert.KernelIdeal.main_arg11) := by
  keep_step Cert.KernelIdeal.Gen.main_part0_ops0
theorem keepR_w0_s0_main_arg11 (WR : ValR F) :
    after Cert.ReferenceIdeal.Hand.w0_s0 WR (Proc.devRef .tc Cert.ReferenceIdeal.main_arg11) = WR (Proc.devRef .tc Cert.ReferenceIdeal.main_arg11) := by
  keep_step Cert.ReferenceIdeal.Hand.w0_s0
theorem phiK_w0_s0_main_v20 (WK : ValK F) :
    @Eq ((⟨S16x3x224, .f32⟩ : BufTy).Contents (Elt F)) (after Cert.KernelIdeal.Gen.main_part0_ops0 WK (Proc.devRef .tc Cert.KernelIdeal.main_v20))
      (phi_w0_s0_main_v20 (WK (Proc.devRef .tc Cert.KernelIdeal.main_arg1)) (WK (Proc.devRef .tc Cert.KernelIdeal.main_arg9))) := by
  phi_step Cert.KernelIdeal.Gen.main_part0_ops0 phi_w0_s0_main_v20
theorem phiR_w0_s0_main_v20 (WR : ValR F) :
    @Eq ((⟨S16x3x224, .f32⟩ : BufTy).Contents (Elt F)) (after Cert.ReferenceIdeal.Hand.w0_s0 WR (Proc.devRef .tc Cert.ReferenceIdeal.main_v20))
      (phi_w0_s0_main_v20 (WR (Proc.devRef .tc Cert.ReferenceIdeal.main_arg1)) (WR (Proc.devRef .tc Cert.ReferenceIdeal.main_arg9))) := by
  phi_step Cert.ReferenceIdeal.Hand.w0_s0 phi_w0_s0_main_v20
theorem phiK_w0_s0_main_v25 (WK : ValK F) :
    @Eq ((⟨S16, .i32⟩ : BufTy).Contents (Elt F)) (after Cert.KernelIdeal.Gen.main_part0_ops0 WK (Proc.devRef .tc Cert.KernelIdeal.main_v25))
      (phi_w0_s0_main_v25 (WK (Proc.devRef .tc Cert.KernelIdeal.main_arg9))) := by
  phi_step Cert.KernelIdeal.Gen.main_part0_ops0 phi_w0_s0_main_v25
theorem phiR_w0_s0_main_v25 (WR : ValR F) :
    @Eq ((⟨S16, .i32⟩ : BufTy).Contents (Elt F)) (after Cert.ReferenceIdeal.Hand.w0_s0 WR (Proc.devRef .tc Cert.ReferenceIdeal.main_v25))
      (phi_w0_s0_main_v25 (WR (Proc.devRef .tc Cert.ReferenceIdeal.main_arg9))) := by
  phi_step Cert.ReferenceIdeal.Hand.w0_s0 phi_w0_s0_main_v25
theorem phiK_w0_s0_main_v28 (WK : ValK F) :
    @Eq ((⟨S_, .i32⟩ : BufTy).Contents (Elt F)) (after Cert.KernelIdeal.Gen.main_part0_ops0 WK (Proc.devRef .tc Cert.KernelIdeal.main_v28))
      (phi_w0_s0_main_v28) := by
  phi_step Cert.KernelIdeal.Gen.main_part0_ops0 phi_w0_s0_main_v28
theorem phiR_w0_s0_main_v28 (WR : ValR F) :
    @Eq ((⟨S_, .i32⟩ : BufTy).Contents (Elt F)) (after Cert.ReferenceIdeal.Hand.w0_s0 WR (Proc.devRef .tc Cert.ReferenceIdeal.main_v28))
      (phi_w0_s0_main_v28) := by
  phi_step Cert.ReferenceIdeal.Hand.w0_s0 phi_w0_s0_main_v28
theorem phiK_w0_s0_main_v29 (WK : ValK F) :
    @Eq ((⟨S_, .i1⟩ : BufTy).Contents (Elt F)) (after Cert.KernelIdeal.Gen.main_part0_ops0 WK (Proc.devRef .tc Cert.KernelIdeal.main_v29))
      (phi_w0_s0_main_v29) := by
  phi_step Cert.KernelIdeal.Gen.main_part0_ops0 phi_w0_s0_main_v29
theorem phiR_w0_s0_main_v29 (WR : ValR F) :
    @Eq ((⟨S_, .i1⟩ : BufTy).Contents (Elt F)) (after Cert.ReferenceIdeal.Hand.w0_s0 WR (Proc.devRef .tc Cert.ReferenceIdeal.main_v29))
      (phi_w0_s0_main_v29) := by
  phi_step Cert.ReferenceIdeal.Hand.w0_s0 phi_w0_s0_main_v29
theorem phiK_w0_s0_main_v30 (WK : ValK F) :
    @Eq ((⟨S_, .i32⟩ : BufTy).Contents (Elt F)) (after Cert.KernelIdeal.Gen.main_part0_ops0 WK (Proc.devRef .tc Cert.KernelIdeal.main_v30))
      (phi_w0_s0_main_v30) := by
  phi_step Cert.KernelIdeal.Gen.main_part0_ops0 phi_w0_s0_main_v30
theorem phiR_w0_s0_main_v30 (WR : ValR F) :
    @Eq ((⟨S_, .i32⟩ : BufTy).Contents (Elt F)) (after Cert.ReferenceIdeal.Hand.w0_s0 WR (Proc.devRef .tc Cert.ReferenceIdeal.main_v30))
      (phi_w0_s0_main_v30) := by
  phi_step Cert.ReferenceIdeal.Hand.w0_s0 phi_w0_s0_main_v30
theorem phiK_w0_s0_main_c_27 (WK : ValK F) :
    @Eq ((⟨S_, .i32⟩ : BufTy).Contents (Elt F)) (after Cert.KernelIdeal.Gen.main_part0_ops0 WK (Proc.devRef .tc Cert.KernelIdeal.main_c_27))
      (phi_w0_s0_main_c_27) := by
  phi_step Cert.KernelIdeal.Gen.main_part0_ops0 phi_w0_s0_main_c_27
theorem phiR_w0_s0_main_c_27 (WR : ValR F) :
    @Eq ((⟨S_, .i32⟩ : BufTy).Contents (Elt F)) (after Cert.ReferenceIdeal.Hand.w0_s0 WR (Proc.devRef .tc Cert.ReferenceIdeal.main_c_27))
      (phi_w0_s0_main_c_27) := by
  phi_step Cert.ReferenceIdeal.Hand.w0_s0 phi_w0_s0_main_c_27

theorem sim_w0_s0 (WK : ValK F) (WR : ValR F) (h : Inv0 WK WR) :
    Inv1 (after Cert.KernelIdeal.Gen.main_part0_ops0 WK) (after Cert.ReferenceIdeal.Hand.w0_s0 WR) := by
  sim_step h Inv0 Inv1 [keepK_w0_s0_main_arg2, keepR_w0_s0_main_arg2, keepK_w0_s0_main_arg3, keepR_w0_s0_main_arg3, keepK_w0_s0_main_arg4, keepR_w0_s0_main_arg4, keepK_w0_s0_main_arg5, keepR_w0_s0_main_arg5, keepK_w0_s0_main_arg6, keepR_w0_s0_main_arg6, keepK_w0_s0_main_arg7, keepR_w0_s0_main_arg7, keepK_w0_s0_main_arg8, keepR_w0_s0_main_arg8, keepK_w0_s0_main_arg9, keepR_w0_s0_main_arg9, keepK_w0_s0_main_arg10, keepR_w0_s0_main_arg10, keepK_w0_s0_main_arg11, keepR_w0_s0_main_arg11, phiK_w0_s0_main_v20, phiR_w0_s0_main_v20, phiK_w0_s0_main_v25, phiR_w0_s0_main_v25, phiK_w0_s0_main_v28, phiR_w0_s0_main_v28, phiK_w0_s0_main_v29, phiR_w0_s0_main_v29, phiK_w0_s0_main_v30, phiR_w0_s0_main_v30, phiK_w0_s0_main_c_27, phiR_w0_s0_main_c_27]

end Cert.PromptBridge

end
-- ==== Proof.PromptBridgePhi1.lean ====
import proofs.«144763_j39642548142243_2_alg».proof.Proof.PromptBridgeBase

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

/-- main_v41 after stretch w1_s0, from the contents before it. -/
def phi_w1_s0_main_v41 (t_main_arg2 : (⟨S3x3x10x224, .f32⟩ : BufTy).Contents (Elt F)) (t_main_v25 : (⟨S16, .i32⟩ : BufTy).Contents (Elt F)) (t_main_v28 : (⟨S_, .i32⟩ : BufTy).Contents (Elt F)) (t_main_v29 : (⟨S_, .i1⟩ : BufTy).Contents (Elt F)) (t_main_v30 : (⟨S_, .i32⟩ : BufTy).Contents (Elt F)) (t_main_c_27 : (⟨S_, .i32⟩ : BufTy).Contents (Elt F)) : (⟨S16x3x10x224, .f32⟩ : BufTy).Contents (Elt F) :=
  let t_main_v31 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v29 t_main_v30 t_main_c_27
  let t_main_c_28 : (⟨S_, .i32⟩ : BufTy).Contents (Elt F) := (constantI S_ 32 0#32)
  let t_main_c_29 : (⟨S_, .i32⟩ : BufTy).Contents (Elt F) := (constantI S_ 32 0#32)
  let t_main_v32 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_28 t_main_c_29
  let t_main_c_30 : (⟨S_, .i32⟩ : BufTy).Contents (Elt F) := (constantI S_ 32 0#32)
  let t_main_c_31 : (⟨S_, .i32⟩ : BufTy).Contents (Elt F) := (constantI S_ 32 224#32)
  let t_main_v33 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_30 t_main_c_31
  let t_main_c_32 : (⟨S_, .i32⟩ : BufTy).Contents (Elt F) := (constantI S_ 32 0#32)
  let t_main_v34 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v32 t_main_v33 t_main_c_32
  let t_main_v35 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v25
  let t_main_v36 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v28
  let t_main_v37 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v31
  let t_main_v38 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v34
  let t_main_v39 : (⟨S16x4, .i32⟩ : BufTy).Contents (Elt F) := concatenate S16x4 1 [⟨S16x1, t_main_v35⟩, ⟨S16x1, t_main_v36⟩, ⟨S16x1, t_main_v37⟩, ⟨S16x1, t_main_v38⟩] concatenates_S16x1_S16x1_S16x1_S16x1_S16x4_d1
  let t_main_v40 : (⟨S16x1x3x10x224, .f32⟩ : BufTy).Contents (Elt F) := ((fun x i => Host.gather gather_S3x3x10x224_S16x4_S16x1x3x10x224_1234_n_n_n_0123_1_1310224 x i) : (⟨S3x3x10x224, .f32⟩ : BufTy).Contents (Elt F) → (⟨S16x4, .i32⟩ : BufTy).Contents (Elt F) → (⟨S16x1x3x10x224, .f32⟩ : BufTy).Contents (Elt F)) t_main_arg2 t_main_v39
  let t_main_v41 : (⟨S16x3x10x224, .f32⟩ : BufTy).Contents (Elt F) := (fun i => shapeCast S16x3x10x224 t_main_v40 shapeCasts_S16x1x3x10x224_S16x3x10x224 i)
  t_main_v41

/-- main_v62 after stretch w1_s0, from the contents before it. -/
def phi_w1_s0_main_v62 (t_main_arg3 : (⟨S3x3x1x224, .f32⟩ : BufTy).Contents (Elt F)) (t_main_arg9 : (⟨S16, .i32⟩ : BufTy).Contents (Elt F)) : (⟨S16x3x224, .f32⟩ : BufTy).Contents (Elt F) :=
  let t_main_c_33 : (⟨S_, .i32⟩ : BufTy).Contents (Elt F) := (constantI S_ 32 0#32)
  let t_main_v42 : (⟨S16, .i32⟩ : BufTy).Contents (Elt F) := (broadcastInDim S16 ![] bcast_S_S16 : (⟨S_, .i32⟩ : BufTy).Contents (Elt F) → (⟨S16, .i32⟩ : BufTy).Contents (Elt F)) t_main_c_33
  let t_main_v43 : (⟨S16, .i1⟩ : BufTy).Contents (Elt F) := (cmpi .slt : (⟨S16, .i32⟩ : BufTy).Contents (Elt F) → (⟨S16, .i32⟩ : BufTy).Contents (Elt F) → (⟨S16, .i1⟩ : BufTy).Contents (Elt F)) t_main_arg9 t_main_v42
  let t_main_c_34 : (⟨S_, .i32⟩ : BufTy).Contents (Elt F) := (constantI S_ 32 3#32)
  let t_main_v44 : (⟨S16, .i32⟩ : BufTy).Contents (Elt F) := (broadcastInDim S16 ![] bcast_S_S16 : (⟨S_, .i32⟩ : BufTy).Contents (Elt F) → (⟨S16, .i32⟩ : BufTy).Contents (Elt F)) t_main_c_34
  let t_main_v45 : (⟨S16, .i32⟩ : BufTy).Contents (Elt F) := (addi : (⟨S16, .i32⟩ : BufTy).Contents (Elt F) → (⟨S16, .i32⟩ : BufTy).Contents (Elt F) → (⟨S16, .i32⟩ : BufTy).Contents (Elt F)) t_main_arg9 t_main_v44
  let t_main_v46 : (⟨S16, .i32⟩ : BufTy).Contents (Elt F) := (select : (⟨S16, .i1⟩ : BufTy).Contents (Elt F) → (⟨S16, .i32⟩ : BufTy).Contents (Elt F) → (⟨S16, .i32⟩ : BufTy).Contents (Elt F) → (⟨S16, .i32⟩ : BufTy).Contents (Elt F)) t_main_v43 t_main_v45 t_main_arg9
  let t_main_c_35 : (⟨S_, .i32⟩ : BufTy).Contents (Elt F) := (constantI S_ 32 0#32)
  let t_main_c_36 : (⟨S_, .i32⟩ : BufTy).Contents (Elt F) := (constantI S_ 32 0#32)
  let t_main_v47 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_35 t_main_c_36
  let t_main_c_37 : (⟨S_, .i32⟩ : BufTy).Contents (Elt F) := (constantI S_ 32 0#32)
  let t_main_c_38 : (⟨S_, .i32⟩ : BufTy).Contents (Elt F) := (constantI S_ 32 3#32)
  let t_main_v48 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_37 t_main_c_38
  let t_main_c_39 : (⟨S_, .i32⟩ : BufTy).Contents (Elt F) := (constantI S_ 32 0#32)
  let t_main_v49 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v47 t_main_v48 t_main_c_39
  let t_main_c_40 : (⟨S_, .i32⟩ : BufTy).Contents (Elt F) := (constantI S_ 32 0#32)
  let t_main_c_41 : (⟨S_, .i32⟩ : BufTy).Contents (Elt F) := (constantI S_ 32 0#32)
  let t_main_v50 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_40 t_main_c_41
  let t_main_c_42 : (⟨S_, .i32⟩ : BufTy).Contents (Elt F) := (constantI S_ 32 0#32)
  let t_main_c_43 : (⟨S_, .i32⟩ : BufTy).Contents (Elt F) := (constantI S_ 32 1#32)
  let t_main_v51 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_42 t_main_c_43
  let t_main_c_44 : (⟨S_, .i32⟩ : BufTy).Contents (Elt F) := (constantI S_ 32 0#32)
  let t_main_v52 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v50 t_main_v51 t_main_c_44
  let t_main_c_45 : (⟨S_, .i32⟩ : BufTy).Contents (Elt F) := (constantI S_ 32 0#32)
  let t_main_c_46 : (⟨S_, .i32⟩ : BufTy).Contents (Elt F) := (constantI S_ 32 0#32)
  let t_main_v53 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_45 t_main_c_46
  let t_main_c_47 : (⟨S_, .i32⟩ : BufTy).Contents (Elt F) := (constantI S_ 32 0#32)
  let t_main_c_48 : (⟨S_, .i32⟩ : BufTy).Contents (Elt F) := (constantI S_ 32 224#32)
  let t_main_v54 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_47 t_main_c_48
  let t_main_c_49 : (⟨S_, .i32⟩ : BufTy).Contents (Elt F) := (constantI S_ 32 0#32)
  let t_main_v55 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v53 t_main_v54 t_main_c_49
  let t_main_v56 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v46
  let t_main_v57 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v49
  let t_main_v58 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v52
  let t_main_v59 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v55
  let t_main_v60 : (⟨S16x4, .i32⟩ : BufTy).Contents (Elt F) := concatenate S16x4 1 [⟨S16x1, t_main_v56⟩, ⟨S16x1, t_main_v57⟩, ⟨S16x1, t_main_v58⟩, ⟨S16x1, t_main_v59⟩] concatenates_S16x1_S16x1_S16x1_S16x1_S16x4_d1
  let t_main_v61 : (⟨S16x1x3x1x224, .f32⟩ : BufTy).Contents (Elt F) := ((fun x i => Host.gather gather_S3x3x1x224_S16x4_S16x1x3x1x224_1234_n_n_n_0123_1_131224 x i) : (⟨S3x3x1x224, .f32⟩ : BufTy).Contents (Elt F) → (⟨S16x4, .i32⟩ : BufTy).Contents (Elt F) → (⟨S16x1x3x1x224, .f32⟩ : BufTy).Contents (Elt F)) t_main_arg3 t_main_v60
  let t_main_v62 : (⟨S16x3x224, .f32⟩ : BufTy).Contents (Elt F) := (fun i => shapeCast S16x3x224 t_main_v61 shapeCasts_S16x1x3x1x224_S16x3x224 i)
  t_main_v62

/-- main_v64 after stretch w1_s0, from the contents before it. -/
def phi_w1_s0_main_v64 (t_main_arg9 : (⟨S16, .i32⟩ : BufTy).Contents (Elt F)) : (⟨S16, .i1⟩ : BufTy).Contents (Elt F) :=
  let t_main_c_50 : (⟨S_, .i32⟩ : BufTy).Contents (Elt F) := (constantI S_ 32 0#32)
  let t_main_v63 : (⟨S16, .i32⟩ : BufTy).Contents (Elt F) := (broadcastInDim S16 ![] bcast_S_S16 : (⟨S_, .i32⟩ : BufTy).Contents (Elt F) → (⟨S16, .i32⟩ : BufTy).Contents (Elt F)) t_main_c_50
  let t_main_v64 : (⟨S16, .i1⟩ : BufTy).Contents (Elt F) := (cmpi .slt : (⟨S16, .i32⟩ : BufTy).Contents (Elt F) → (⟨S16, .i32⟩ : BufTy).Contents (Elt F) → (⟨S16, .i1⟩ : BufTy).Contents (Elt F)) t_main_arg9 t_main_v63
  t_main_v64

/-- main_v66 after stretch w1_s0, from the contents before it. -/
def phi_w1_s0_main_v66 (t_main_arg9 : (⟨S16, .i32⟩ : BufTy).Contents (Elt F)) : (⟨S16, .i32⟩ : BufTy).Contents (Elt F) :=
  let t_main_c_51 : (⟨S_, .i32⟩ : BufTy).Contents (Elt F) := (constantI S_ 32 3#32)
  let t_main_v65 : (⟨S16, .i32⟩ : BufTy).Contents (Elt F) := (broadcastInDim S16 ![] bcast_S_S16 : (⟨S_, .i32⟩ : BufTy).Contents (Elt F) → (⟨S16, .i32⟩ : BufTy).Contents (Elt F)) t_main_c_51
  let t_main_v66 : (⟨S16, .i32⟩ : BufTy).Contents (Elt F) := (addi : (⟨S16, .i32⟩ : BufTy).Contents (Elt F) → (⟨S16, .i32⟩ : BufTy).Contents (Elt F) → (⟨S16, .i32⟩ : BufTy).Contents (Elt F)) t_main_arg9 t_main_v65
  t_main_v66

end Cert.PromptBridge

end
-- ==== Proof.PromptBridgeL1.lean ====
import proofs.«144763_j39642548142243_2_alg».proof.Proof.PromptBridgePhi1

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

theorem keepK_w1_s0_main_arg4 (WK : ValK F) :
    after Cert.KernelIdeal.Gen.main_part1_ops0 WK (Proc.devRef .tc Cert.KernelIdeal.main_arg4) = WK (Proc.devRef .tc Cert.KernelIdeal.main_arg4) := by
  keep_step Cert.KernelIdeal.Gen.main_part1_ops0
theorem keepR_w1_s0_main_arg4 (WR : ValR F) :
    after Cert.ReferenceIdeal.Hand.w1_s0 WR (Proc.devRef .tc Cert.ReferenceIdeal.main_arg4) = WR (Proc.devRef .tc Cert.ReferenceIdeal.main_arg4) := by
  keep_step Cert.ReferenceIdeal.Hand.w1_s0
theorem keepK_w1_s0_main_arg5 (WK : ValK F) :
    after Cert.KernelIdeal.Gen.main_part1_ops0 WK (Proc.devRef .tc Cert.KernelIdeal.main_arg5) = WK (Proc.devRef .tc Cert.KernelIdeal.main_arg5) := by
  keep_step Cert.KernelIdeal.Gen.main_part1_ops0
theorem keepR_w1_s0_main_arg5 (WR : ValR F) :
    after Cert.ReferenceIdeal.Hand.w1_s0 WR (Proc.devRef .tc Cert.ReferenceIdeal.main_arg5) = WR (Proc.devRef .tc Cert.ReferenceIdeal.main_arg5) := by
  keep_step Cert.ReferenceIdeal.Hand.w1_s0
theorem keepK_w1_s0_main_arg6 (WK : ValK F) :
    after Cert.KernelIdeal.Gen.main_part1_ops0 WK (Proc.devRef .tc Cert.KernelIdeal.main_arg6) = WK (Proc.devRef .tc Cert.KernelIdeal.main_arg6) := by
  keep_step Cert.KernelIdeal.Gen.main_part1_ops0
theorem keepR_w1_s0_main_arg6 (WR : ValR F) :
    after Cert.ReferenceIdeal.Hand.w1_s0 WR (Proc.devRef .tc Cert.ReferenceIdeal.main_arg6) = WR (Proc.devRef .tc Cert.ReferenceIdeal.main_arg6) := by
  keep_step Cert.ReferenceIdeal.Hand.w1_s0
theorem keepK_w1_s0_main_arg7 (WK : ValK F) :
    after Cert.KernelIdeal.Gen.main_part1_ops0 WK (Proc.devRef .tc Cert.KernelIdeal.main_arg7) = WK (Proc.devRef .tc Cert.KernelIdeal.main_arg7) := by
  keep_step Cert.KernelIdeal.Gen.main_part1_ops0
theorem keepR_w1_s0_main_arg7 (WR : ValR F) :
    after Cert.ReferenceIdeal.Hand.w1_s0 WR (Proc.devRef .tc Cert.ReferenceIdeal.main_arg7) = WR (Proc.devRef .tc Cert.ReferenceIdeal.main_arg7) := by
  keep_step Cert.ReferenceIdeal.Hand.w1_s0
theorem keepK_w1_s0_main_arg8 (WK : ValK F) :
    after Cert.KernelIdeal.Gen.main_part1_ops0 WK (Proc.devRef .tc Cert.KernelIdeal.main_arg8) = WK (Proc.devRef .tc Cert.KernelIdeal.main_arg8) := by
  keep_step Cert.KernelIdeal.Gen.main_part1_ops0
theorem keepR_w1_s0_main_arg8 (WR : ValR F) :
    after Cert.ReferenceIdeal.Hand.w1_s0 WR (Proc.devRef .tc Cert.ReferenceIdeal.main_arg8) = WR (Proc.devRef .tc Cert.ReferenceIdeal.main_arg8) := by
  keep_step Cert.ReferenceIdeal.Hand.w1_s0
theorem keepK_w1_s0_main_arg9 (WK : ValK F) :
    after Cert.KernelIdeal.Gen.main_part1_ops0 WK (Proc.devRef .tc Cert.KernelIdeal.main_arg9) = WK (Proc.devRef .tc Cert.KernelIdeal.main_arg9) := by
  keep_step Cert.KernelIdeal.Gen.main_part1_ops0
theorem keepR_w1_s0_main_arg9 (WR : ValR F) :
    after Cert.ReferenceIdeal.Hand.w1_s0 WR (Proc.devRef .tc Cert.ReferenceIdeal.main_arg9) = WR (Proc.devRef .tc Cert.ReferenceIdeal.main_arg9) := by
  keep_step Cert.ReferenceIdeal.Hand.w1_s0
theorem keepK_w1_s0_main_arg10 (WK : ValK F) :
    after Cert.KernelIdeal.Gen.main_part1_ops0 WK (Proc.devRef .tc Cert.KernelIdeal.main_arg10) = WK (Proc.devRef .tc Cert.KernelIdeal.main_arg10) := by
  keep_step Cert.KernelIdeal.Gen.main_part1_ops0
theorem keepR_w1_s0_main_arg10 (WR : ValR F) :
    after Cert.ReferenceIdeal.Hand.w1_s0 WR (Proc.devRef .tc Cert.ReferenceIdeal.main_arg10) = WR (Proc.devRef .tc Cert.ReferenceIdeal.main_arg10) := by
  keep_step Cert.ReferenceIdeal.Hand.w1_s0
theorem keepK_w1_s0_main_arg11 (WK : ValK F) :
    after Cert.KernelIdeal.Gen.main_part1_ops0 WK (Proc.devRef .tc Cert.KernelIdeal.main_arg11) = WK (Proc.devRef .tc Cert.KernelIdeal.main_arg11) := by
  keep_step Cert.KernelIdeal.Gen.main_part1_ops0
theorem keepR_w1_s0_main_arg11 (WR : ValR F) :
    after Cert.ReferenceIdeal.Hand.w1_s0 WR (Proc.devRef .tc Cert.ReferenceIdeal.main_arg11) = WR (Proc.devRef .tc Cert.ReferenceIdeal.main_arg11) := by
  keep_step Cert.ReferenceIdeal.Hand.w1_s0
theorem keepK_w1_s0_main_v20 (WK : ValK F) :
    after Cert.KernelIdeal.Gen.main_part1_ops0 WK (Proc.devRef .tc Cert.KernelIdeal.main_v20) = WK (Proc.devRef .tc Cert.KernelIdeal.main_v20) := by
  keep_step Cert.KernelIdeal.Gen.main_part1_ops0
theorem keepR_w1_s0_main_v20 (WR : ValR F) :
    after Cert.ReferenceIdeal.Hand.w1_s0 WR (Proc.devRef .tc Cert.ReferenceIdeal.main_v20) = WR (Proc.devRef .tc Cert.ReferenceIdeal.main_v20) := by
  keep_step Cert.ReferenceIdeal.Hand.w1_s0
theorem phiK_w1_s0_main_v41 (WK : ValK F) :
    @Eq ((⟨S16x3x10x224, .f32⟩ : BufTy).Contents (Elt F)) (after Cert.KernelIdeal.Gen.main_part1_ops0 WK (Proc.devRef .tc Cert.KernelIdeal.main_v41))
      (phi_w1_s0_main_v41 (WK (Proc.devRef .tc Cert.KernelIdeal.main_arg2)) (WK (Proc.devRef .tc Cert.KernelIdeal.main_v25)) (WK (Proc.devRef .tc Cert.KernelIdeal.main_v28)) (WK (Proc.devRef .tc Cert.KernelIdeal.main_v29)) (WK (Proc.devRef .tc Cert.KernelIdeal.main_v30)) (WK (Proc.devRef .tc Cert.KernelIdeal.main_c_27))) := by
  phi_step Cert.KernelIdeal.Gen.main_part1_ops0 phi_w1_s0_main_v41
theorem phiR_w1_s0_main_v41 (WR : ValR F) :
    @Eq ((⟨S16x3x10x224, .f32⟩ : BufTy).Contents (Elt F)) (after Cert.ReferenceIdeal.Hand.w1_s0 WR (Proc.devRef .tc Cert.ReferenceIdeal.main_v41))
      (phi_w1_s0_main_v41 (WR (Proc.devRef .tc Cert.ReferenceIdeal.main_arg2)) (WR (Proc.devRef .tc Cert.ReferenceIdeal.main_v25)) (WR (Proc.devRef .tc Cert.ReferenceIdeal.main_v28)) (WR (Proc.devRef .tc Cert.ReferenceIdeal.main_v29)) (WR (Proc.devRef .tc Cert.ReferenceIdeal.main_v30)) (WR (Proc.devRef .tc Cert.ReferenceIdeal.main_c_27))) := by
  phi_step Cert.ReferenceIdeal.Hand.w1_s0 phi_w1_s0_main_v41
theorem phiK_w1_s0_main_v62 (WK : ValK F) :
    @Eq ((⟨S16x3x224, .f32⟩ : BufTy).Contents (Elt F)) (after Cert.KernelIdeal.Gen.main_part1_ops0 WK (Proc.devRef .tc Cert.KernelIdeal.main_v62))
      (phi_w1_s0_main_v62 (WK (Proc.devRef .tc Cert.KernelIdeal.main_arg3)) (WK (Proc.devRef .tc Cert.KernelIdeal.main_arg9))) := by
  phi_step Cert.KernelIdeal.Gen.main_part1_ops0 phi_w1_s0_main_v62
theorem phiR_w1_s0_main_v62 (WR : ValR F) :
    @Eq ((⟨S16x3x224, .f32⟩ : BufTy).Contents (Elt F)) (after Cert.ReferenceIdeal.Hand.w1_s0 WR (Proc.devRef .tc Cert.ReferenceIdeal.main_v62))
      (phi_w1_s0_main_v62 (WR (Proc.devRef .tc Cert.ReferenceIdeal.main_arg3)) (WR (Proc.devRef .tc Cert.ReferenceIdeal.main_arg9))) := by
  phi_step Cert.ReferenceIdeal.Hand.w1_s0 phi_w1_s0_main_v62
theorem phiK_w1_s0_main_v64 (WK : ValK F) :
    @Eq ((⟨S16, .i1⟩ : BufTy).Contents (Elt F)) (after Cert.KernelIdeal.Gen.main_part1_ops0 WK (Proc.devRef .tc Cert.KernelIdeal.main_v64))
      (phi_w1_s0_main_v64 (WK (Proc.devRef .tc Cert.KernelIdeal.main_arg9))) := by
  phi_step Cert.KernelIdeal.Gen.main_part1_ops0 phi_w1_s0_main_v64
theorem phiR_w1_s0_main_v64 (WR : ValR F) :
    @Eq ((⟨S16, .i1⟩ : BufTy).Contents (Elt F)) (after Cert.ReferenceIdeal.Hand.w1_s0 WR (Proc.devRef .tc Cert.ReferenceIdeal.main_v64))
      (phi_w1_s0_main_v64 (WR (Proc.devRef .tc Cert.ReferenceIdeal.main_arg9))) := by
  phi_step Cert.ReferenceIdeal.Hand.w1_s0 phi_w1_s0_main_v64
theorem phiK_w1_s0_main_v66 (WK : ValK F) :
    @Eq ((⟨S16, .i32⟩ : BufTy).Contents (Elt F)) (after Cert.KernelIdeal.Gen.main_part1_ops0 WK (Proc.devRef .tc Cert.KernelIdeal.main_v66))
      (phi_w1_s0_main_v66 (WK (Proc.devRef .tc Cert.KernelIdeal.main_arg9))) := by
  phi_step Cert.KernelIdeal.Gen.main_part1_ops0 phi_w1_s0_main_v66
theorem phiR_w1_s0_main_v66 (WR : ValR F) :
    @Eq ((⟨S16, .i32⟩ : BufTy).Contents (Elt F)) (after Cert.ReferenceIdeal.Hand.w1_s0 WR (Proc.devRef .tc Cert.ReferenceIdeal.main_v66))
      (phi_w1_s0_main_v66 (WR (Proc.devRef .tc Cert.ReferenceIdeal.main_arg9))) := by
  phi_step Cert.ReferenceIdeal.Hand.w1_s0 phi_w1_s0_main_v66

theorem sim_w1_s0 (WK : ValK F) (WR : ValR F) (h : Inv1 WK WR) :
    Inv2 (after Cert.KernelIdeal.Gen.main_part1_ops0 WK) (after Cert.ReferenceIdeal.Hand.w1_s0 WR) := by
  sim_step h Inv1 Inv2 [keepK_w1_s0_main_arg4, keepR_w1_s0_main_arg4, keepK_w1_s0_main_arg5, keepR_w1_s0_main_arg5, keepK_w1_s0_main_arg6, keepR_w1_s0_main_arg6, keepK_w1_s0_main_arg7, keepR_w1_s0_main_arg7, keepK_w1_s0_main_arg8, keepR_w1_s0_main_arg8, keepK_w1_s0_main_arg9, keepR_w1_s0_main_arg9, keepK_w1_s0_main_arg10, keepR_w1_s0_main_arg10, keepK_w1_s0_main_arg11, keepR_w1_s0_main_arg11, keepK_w1_s0_main_v20, keepR_w1_s0_main_v20, phiK_w1_s0_main_v41, phiR_w1_s0_main_v41, phiK_w1_s0_main_v62, phiR_w1_s0_main_v62, phiK_w1_s0_main_v64, phiR_w1_s0_main_v64, phiK_w1_s0_main_v66, phiR_w1_s0_main_v66]

end Cert.PromptBridge

end
-- ==== Proof.PromptBridgePhi2.lean ====
import proofs.«144763_j39642548142243_2_alg».proof.Proof.PromptBridgeBase

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

/-- main_v83 after stretch w2_s0, from the contents before it. -/
def phi_w2_s0_main_v83 (t_main_arg4 : (⟨S3x3x10x224, .f32⟩ : BufTy).Contents (Elt F)) (t_main_arg9 : (⟨S16, .i32⟩ : BufTy).Contents (Elt F)) (t_main_v64 : (⟨S16, .i1⟩ : BufTy).Contents (Elt F)) (t_main_v66 : (⟨S16, .i32⟩ : BufTy).Contents (Elt F)) : (⟨S16x3x10x224, .f32⟩ : BufTy).Contents (Elt F) :=
  let t_main_v67 : (⟨S16, .i32⟩ : BufTy).Contents (Elt F) := (select : (⟨S16, .i1⟩ : BufTy).Contents (Elt F) → (⟨S16, .i32⟩ : BufTy).Contents (Elt F) → (⟨S16, .i32⟩ : BufTy).Contents (Elt F) → (⟨S16, .i32⟩ : BufTy).Contents (Elt F)) t_main_v64 t_main_v66 t_main_arg9
  let t_main_c_52 : (⟨S_, .i32⟩ : BufTy).Contents (Elt F) := (constantI S_ 32 0#32)
  let t_main_c_53 : (⟨S_, .i32⟩ : BufTy).Contents (Elt F) := (constantI S_ 32 0#32)
  let t_main_v68 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_52 t_main_c_53
  let t_main_c_54 : (⟨S_, .i32⟩ : BufTy).Contents (Elt F) := (constantI S_ 32 0#32)
  let t_main_c_55 : (⟨S_, .i32⟩ : BufTy).Contents (Elt F) := (constantI S_ 32 3#32)
  let t_main_v69 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_54 t_main_c_55
  let t_main_c_56 : (⟨S_, .i32⟩ : BufTy).Contents (Elt F) := (constantI S_ 32 0#32)
  let t_main_v70 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v68 t_main_v69 t_main_c_56
  let t_main_c_57 : (⟨S_, .i32⟩ : BufTy).Contents (Elt F) := (constantI S_ 32 0#32)
  let t_main_c_58 : (⟨S_, .i32⟩ : BufTy).Contents (Elt F) := (constantI S_ 32 0#32)
  let t_main_v71 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_57 t_main_c_58
  let t_main_c_59 : (⟨S_, .i32⟩ : BufTy).Contents (Elt F) := (constantI S_ 32 0#32)
  let t_main_c_60 : (⟨S_, .i32⟩ : BufTy).Contents (Elt F) := (constantI S_ 32 10#32)
  let t_main_v72 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_59 t_main_c_60
  let t_main_c_61 : (⟨S_, .i32⟩ : BufTy).Contents (Elt F) := (constantI S_ 32 0#32)
  let t_main_v73 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v71 t_main_v72 t_main_c_61
  let t_main_c_62 : (⟨S_, .i32⟩ : BufTy).Contents (Elt F) := (constantI S_ 32 0#32)
  let t_main_c_63 : (⟨S_, .i32⟩ : BufTy).Contents (Elt F) := (constantI S_ 32 0#32)
  let t_main_v74 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_62 t_main_c_63
  let t_main_c_64 : (⟨S_, .i32⟩ : BufTy).Contents (Elt F) := (constantI S_ 32 0#32)
  let t_main_c_65 : (⟨S_, .i32⟩ : BufTy).Contents (Elt F) := (constantI S_ 32 224#32)
  let t_main_v75 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_64 t_main_c_65
  let t_main_c_66 : (⟨S_, .i32⟩ : BufTy).Contents (Elt F) := (constantI S_ 32 0#32)
  let t_main_v76 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v74 t_main_v75 t_main_c_66
  let t_main_v77 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v67
  let t_main_v78 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v70
  let t_main_v79 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v73
  let t_main_v80 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v76
  let t_main_v81 : (⟨S16x4, .i32⟩ : BufTy).Contents (Elt F) := concatenate S16x4 1 [⟨S16x1, t_main_v77⟩, ⟨S16x1, t_main_v78⟩, ⟨S16x1, t_main_v79⟩, ⟨S16x1, t_main_v80⟩] concatenates_S16x1_S16x1_S16x1_S16x1_S16x4_d1
  let t_main_v82 : (⟨S16x1x3x10x224, .f32⟩ : BufTy).Contents (Elt F) := ((fun x i => Host.gather gather_S3x3x10x224_S16x4_S16x1x3x10x224_1234_n_n_n_0123_1_1310224 x i) : (⟨S3x3x10x224, .f32⟩ : BufTy).Contents (Elt F) → (⟨S16x4, .i32⟩ : BufTy).Contents (Elt F) → (⟨S16x1x3x10x224, .f32⟩ : BufTy).Contents (Elt F)) t_main_arg4 t_main_v81
  let t_main_v83 : (⟨S16x3x10x224, .f32⟩ : BufTy).Contents (Elt F) := (fun i => shapeCast S16x3x10x224 t_main_v82 shapeCasts_S16x1x3x10x224_S16x3x10x224 i)
  t_main_v83

/-- main_v88 after stretch w2_s0, from the contents before it. -/
def phi_w2_s0_main_v88 (t_main_arg9 : (⟨S16, .i32⟩ : BufTy).Contents (Elt F)) : (⟨S16, .i32⟩ : BufTy).Contents (Elt F) :=
  let t_main_c_67 : (⟨S_, .i32⟩ : BufTy).Contents (Elt F) := (constantI S_ 32 0#32)
  let t_main_v84 : (⟨S16, .i32⟩ : BufTy).Contents (Elt F) := (broadcastInDim S16 ![] bcast_S_S16 : (⟨S_, .i32⟩ : BufTy).Contents (Elt F) → (⟨S16, .i32⟩ : BufTy).Contents (Elt F)) t_main_c_67
  let t_main_v85 : (⟨S16, .i1⟩ : BufTy).Contents (Elt F) := (cmpi .slt : (⟨S16, .i32⟩ : BufTy).Contents (Elt F) → (⟨S16, .i32⟩ : BufTy).Contents (Elt F) → (⟨S16, .i1⟩ : BufTy).Contents (Elt F)) t_main_arg9 t_main_v84
  let t_main_c_68 : (⟨S_, .i32⟩ : BufTy).Contents (Elt F) := (constantI S_ 32 3#32)
  let t_main_v86 : (⟨S16, .i32⟩ : BufTy).Contents (Elt F) := (broadcastInDim S16 ![] bcast_S_S16 : (⟨S_, .i32⟩ : BufTy).Contents (Elt F) → (⟨S16, .i32⟩ : BufTy).Contents (Elt F)) t_main_c_68
  let t_main_v87 : (⟨S16, .i32⟩ : BufTy).Contents (Elt F) := (addi : (⟨S16, .i32⟩ : BufTy).Contents (Elt F) → (⟨S16, .i32⟩ : BufTy).Contents (Elt F) → (⟨S16, .i32⟩ : BufTy).Contents (Elt F)) t_main_arg9 t_main_v86
  let t_main_v88 : (⟨S16, .i32⟩ : BufTy).Contents (Elt F) := (select : (⟨S16, .i1⟩ : BufTy).Contents (Elt F) → (⟨S16, .i32⟩ : BufTy).Contents (Elt F) → (⟨S16, .i32⟩ : BufTy).Contents (Elt F) → (⟨S16, .i32⟩ : BufTy).Contents (Elt F)) t_main_v85 t_main_v87 t_main_arg9
  t_main_v88

/-- main_v91 after stretch w2_s0, from the contents before it. -/
def phi_w2_s0_main_v91  : (⟨S_, .i32⟩ : BufTy).Contents (Elt F) :=
  let t_main_c_69 : (⟨S_, .i32⟩ : BufTy).Contents (Elt F) := (constantI S_ 32 0#32)
  let t_main_c_70 : (⟨S_, .i32⟩ : BufTy).Contents (Elt F) := (constantI S_ 32 0#32)
  let t_main_v89 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_69 t_main_c_70
  let t_main_c_71 : (⟨S_, .i32⟩ : BufTy).Contents (Elt F) := (constantI S_ 32 0#32)
  let t_main_c_72 : (⟨S_, .i32⟩ : BufTy).Contents (Elt F) := (constantI S_ 32 3#32)
  let t_main_v90 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_71 t_main_c_72
  let t_main_c_73 : (⟨S_, .i32⟩ : BufTy).Contents (Elt F) := (constantI S_ 32 0#32)
  let t_main_v91 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v89 t_main_v90 t_main_c_73
  t_main_v91

/-- main_v94 after stretch w2_s0, from the contents before it. -/
def phi_w2_s0_main_v94  : (⟨S_, .i32⟩ : BufTy).Contents (Elt F) :=
  let t_main_c_74 : (⟨S_, .i32⟩ : BufTy).Contents (Elt F) := (constantI S_ 32 0#32)
  let t_main_c_75 : (⟨S_, .i32⟩ : BufTy).Contents (Elt F) := (constantI S_ 32 0#32)
  let t_main_v92 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_74 t_main_c_75
  let t_main_c_76 : (⟨S_, .i32⟩ : BufTy).Contents (Elt F) := (constantI S_ 32 0#32)
  let t_main_c_77 : (⟨S_, .i32⟩ : BufTy).Contents (Elt F) := (constantI S_ 32 164#32)
  let t_main_v93 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_76 t_main_c_77
  let t_main_c_78 : (⟨S_, .i32⟩ : BufTy).Contents (Elt F) := (constantI S_ 32 0#32)
  let t_main_v94 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v92 t_main_v93 t_main_c_78
  t_main_v94

/-- main_v95 after stretch w2_s0, from the contents before it. -/
def phi_w2_s0_main_v95  : (⟨S_, .i1⟩ : BufTy).Contents (Elt F) :=
  let t_main_c_79 : (⟨S_, .i32⟩ : BufTy).Contents (Elt F) := (constantI S_ 32 0#32)
  let t_main_c_80 : (⟨S_, .i32⟩ : BufTy).Contents (Elt F) := (constantI S_ 32 0#32)
  let t_main_v95 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_79 t_main_c_80
  t_main_v95

/-- main_c_81 after stretch w2_s0, from the contents before it. -/
def phi_w2_s0_main_c_81  : (⟨S_, .i32⟩ : BufTy).Contents (Elt F) :=
  let t_main_c_81 : (⟨S_, .i32⟩ : BufTy).Contents (Elt F) := (constantI S_ 32 0#32)
  t_main_c_81

/-- main_c_82 after stretch w2_s0, from the contents before it. -/
def phi_w2_s0_main_c_82  : (⟨S_, .i32⟩ : BufTy).Contents (Elt F) :=
  let t_main_c_82 : (⟨S_, .i32⟩ : BufTy).Contents (Elt F) := (constantI S_ 32 1#32)
  t_main_c_82

end Cert.PromptBridge

end
-- ==== Proof.PromptBridgeL2.lean ====
import proofs.«144763_j39642548142243_2_alg».proof.Proof.PromptBridgePhi2

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

theorem keepK_w2_s0_main_arg5 (WK : ValK F) :
    after Cert.KernelIdeal.Gen.main_part2_ops0 WK (Proc.devRef .tc Cert.KernelIdeal.main_arg5) = WK (Proc.devRef .tc Cert.KernelIdeal.main_arg5) := by
  keep_step Cert.KernelIdeal.Gen.main_part2_ops0
theorem keepR_w2_s0_main_arg5 (WR : ValR F) :
    after Cert.ReferenceIdeal.Hand.w2_s0 WR (Proc.devRef .tc Cert.ReferenceIdeal.main_arg5) = WR (Proc.devRef .tc Cert.ReferenceIdeal.main_arg5) := by
  keep_step Cert.ReferenceIdeal.Hand.w2_s0
theorem keepK_w2_s0_main_arg6 (WK : ValK F) :
    after Cert.KernelIdeal.Gen.main_part2_ops0 WK (Proc.devRef .tc Cert.KernelIdeal.main_arg6) = WK (Proc.devRef .tc Cert.KernelIdeal.main_arg6) := by
  keep_step Cert.KernelIdeal.Gen.main_part2_ops0
theorem keepR_w2_s0_main_arg6 (WR : ValR F) :
    after Cert.ReferenceIdeal.Hand.w2_s0 WR (Proc.devRef .tc Cert.ReferenceIdeal.main_arg6) = WR (Proc.devRef .tc Cert.ReferenceIdeal.main_arg6) := by
  keep_step Cert.ReferenceIdeal.Hand.w2_s0
theorem keepK_w2_s0_main_arg7 (WK : ValK F) :
    after Cert.KernelIdeal.Gen.main_part2_ops0 WK (Proc.devRef .tc Cert.KernelIdeal.main_arg7) = WK (Proc.devRef .tc Cert.KernelIdeal.main_arg7) := by
  keep_step Cert.KernelIdeal.Gen.main_part2_ops0
theorem keepR_w2_s0_main_arg7 (WR : ValR F) :
    after Cert.ReferenceIdeal.Hand.w2_s0 WR (Proc.devRef .tc Cert.ReferenceIdeal.main_arg7) = WR (Proc.devRef .tc Cert.ReferenceIdeal.main_arg7) := by
  keep_step Cert.ReferenceIdeal.Hand.w2_s0
theorem keepK_w2_s0_main_arg8 (WK : ValK F) :
    after Cert.KernelIdeal.Gen.main_part2_ops0 WK (Proc.devRef .tc Cert.KernelIdeal.main_arg8) = WK (Proc.devRef .tc Cert.KernelIdeal.main_arg8) := by
  keep_step Cert.KernelIdeal.Gen.main_part2_ops0
theorem keepR_w2_s0_main_arg8 (WR : ValR F) :
    after Cert.ReferenceIdeal.Hand.w2_s0 WR (Proc.devRef .tc Cert.ReferenceIdeal.main_arg8) = WR (Proc.devRef .tc Cert.ReferenceIdeal.main_arg8) := by
  keep_step Cert.ReferenceIdeal.Hand.w2_s0
theorem keepK_w2_s0_main_arg9 (WK : ValK F) :
    after Cert.KernelIdeal.Gen.main_part2_ops0 WK (Proc.devRef .tc Cert.KernelIdeal.main_arg9) = WK (Proc.devRef .tc Cert.KernelIdeal.main_arg9) := by
  keep_step Cert.KernelIdeal.Gen.main_part2_ops0
theorem keepR_w2_s0_main_arg9 (WR : ValR F) :
    after Cert.ReferenceIdeal.Hand.w2_s0 WR (Proc.devRef .tc Cert.ReferenceIdeal.main_arg9) = WR (Proc.devRef .tc Cert.ReferenceIdeal.main_arg9) := by
  keep_step Cert.ReferenceIdeal.Hand.w2_s0
theorem keepK_w2_s0_main_arg10 (WK : ValK F) :
    after Cert.KernelIdeal.Gen.main_part2_ops0 WK (Proc.devRef .tc Cert.KernelIdeal.main_arg10) = WK (Proc.devRef .tc Cert.KernelIdeal.main_arg10) := by
  keep_step Cert.KernelIdeal.Gen.main_part2_ops0
theorem keepR_w2_s0_main_arg10 (WR : ValR F) :
    after Cert.ReferenceIdeal.Hand.w2_s0 WR (Proc.devRef .tc Cert.ReferenceIdeal.main_arg10) = WR (Proc.devRef .tc Cert.ReferenceIdeal.main_arg10) := by
  keep_step Cert.ReferenceIdeal.Hand.w2_s0
theorem keepK_w2_s0_main_arg11 (WK : ValK F) :
    after Cert.KernelIdeal.Gen.main_part2_ops0 WK (Proc.devRef .tc Cert.KernelIdeal.main_arg11) = WK (Proc.devRef .tc Cert.KernelIdeal.main_arg11) := by
  keep_step Cert.KernelIdeal.Gen.main_part2_ops0
theorem keepR_w2_s0_main_arg11 (WR : ValR F) :
    after Cert.ReferenceIdeal.Hand.w2_s0 WR (Proc.devRef .tc Cert.ReferenceIdeal.main_arg11) = WR (Proc.devRef .tc Cert.ReferenceIdeal.main_arg11) := by
  keep_step Cert.ReferenceIdeal.Hand.w2_s0
theorem keepK_w2_s0_main_v20 (WK : ValK F) :
    after Cert.KernelIdeal.Gen.main_part2_ops0 WK (Proc.devRef .tc Cert.KernelIdeal.main_v20) = WK (Proc.devRef .tc Cert.KernelIdeal.main_v20) := by
  keep_step Cert.KernelIdeal.Gen.main_part2_ops0
theorem keepR_w2_s0_main_v20 (WR : ValR F) :
    after Cert.ReferenceIdeal.Hand.w2_s0 WR (Proc.devRef .tc Cert.ReferenceIdeal.main_v20) = WR (Proc.devRef .tc Cert.ReferenceIdeal.main_v20) := by
  keep_step Cert.ReferenceIdeal.Hand.w2_s0
theorem keepK_w2_s0_main_v41 (WK : ValK F) :
    after Cert.KernelIdeal.Gen.main_part2_ops0 WK (Proc.devRef .tc Cert.KernelIdeal.main_v41) = WK (Proc.devRef .tc Cert.KernelIdeal.main_v41) := by
  keep_step Cert.KernelIdeal.Gen.main_part2_ops0
theorem keepR_w2_s0_main_v41 (WR : ValR F) :
    after Cert.ReferenceIdeal.Hand.w2_s0 WR (Proc.devRef .tc Cert.ReferenceIdeal.main_v41) = WR (Proc.devRef .tc Cert.ReferenceIdeal.main_v41) := by
  keep_step Cert.ReferenceIdeal.Hand.w2_s0
theorem keepK_w2_s0_main_v62 (WK : ValK F) :
    after Cert.KernelIdeal.Gen.main_part2_ops0 WK (Proc.devRef .tc Cert.KernelIdeal.main_v62) = WK (Proc.devRef .tc Cert.KernelIdeal.main_v62) := by
  keep_step Cert.KernelIdeal.Gen.main_part2_ops0
theorem keepR_w2_s0_main_v62 (WR : ValR F) :
    after Cert.ReferenceIdeal.Hand.w2_s0 WR (Proc.devRef .tc Cert.ReferenceIdeal.main_v62) = WR (Proc.devRef .tc Cert.ReferenceIdeal.main_v62) := by
  keep_step Cert.ReferenceIdeal.Hand.w2_s0
theorem phiK_w2_s0_main_v83 (WK : ValK F) :
    @Eq ((⟨S16x3x10x224, .f32⟩ : BufTy).Contents (Elt F)) (after Cert.KernelIdeal.Gen.main_part2_ops0 WK (Proc.devRef .tc Cert.KernelIdeal.main_v83))
      (phi_w2_s0_main_v83 (WK (Proc.devRef .tc Cert.KernelIdeal.main_arg4)) (WK (Proc.devRef .tc Cert.KernelIdeal.main_arg9)) (WK (Proc.devRef .tc Cert.KernelIdeal.main_v64)) (WK (Proc.devRef .tc Cert.KernelIdeal.main_v66))) := by
  phi_step Cert.KernelIdeal.Gen.main_part2_ops0 phi_w2_s0_main_v83
theorem phiR_w2_s0_main_v83 (WR : ValR F) :
    @Eq ((⟨S16x3x10x224, .f32⟩ : BufTy).Contents (Elt F)) (after Cert.ReferenceIdeal.Hand.w2_s0 WR (Proc.devRef .tc Cert.ReferenceIdeal.main_v83))
      (phi_w2_s0_main_v83 (WR (Proc.devRef .tc Cert.ReferenceIdeal.main_arg4)) (WR (Proc.devRef .tc Cert.ReferenceIdeal.main_arg9)) (WR (Proc.devRef .tc Cert.ReferenceIdeal.main_v64)) (WR (Proc.devRef .tc Cert.ReferenceIdeal.main_v66))) := by
  phi_step Cert.ReferenceIdeal.Hand.w2_s0 phi_w2_s0_main_v83
theorem phiK_w2_s0_main_v88 (WK : ValK F) :
    @Eq ((⟨S16, .i32⟩ : BufTy).Contents (Elt F)) (after Cert.KernelIdeal.Gen.main_part2_ops0 WK (Proc.devRef .tc Cert.KernelIdeal.main_v88))
      (phi_w2_s0_main_v88 (WK (Proc.devRef .tc Cert.KernelIdeal.main_arg9))) := by
  phi_step Cert.KernelIdeal.Gen.main_part2_ops0 phi_w2_s0_main_v88
theorem phiR_w2_s0_main_v88 (WR : ValR F) :
    @Eq ((⟨S16, .i32⟩ : BufTy).Contents (Elt F)) (after Cert.ReferenceIdeal.Hand.w2_s0 WR (Proc.devRef .tc Cert.ReferenceIdeal.main_v88))
      (phi_w2_s0_main_v88 (WR (Proc.devRef .tc Cert.ReferenceIdeal.main_arg9))) := by
  phi_step Cert.ReferenceIdeal.Hand.w2_s0 phi_w2_s0_main_v88
theorem phiK_w2_s0_main_v91 (WK : ValK F) :
    @Eq ((⟨S_, .i32⟩ : BufTy).Contents (Elt F)) (after Cert.KernelIdeal.Gen.main_part2_ops0 WK (Proc.devRef .tc Cert.KernelIdeal.main_v91))
      (phi_w2_s0_main_v91) := by
  phi_step Cert.KernelIdeal.Gen.main_part2_ops0 phi_w2_s0_main_v91
theorem phiR_w2_s0_main_v91 (WR : ValR F) :
    @Eq ((⟨S_, .i32⟩ : BufTy).Contents (Elt F)) (after Cert.ReferenceIdeal.Hand.w2_s0 WR (Proc.devRef .tc Cert.ReferenceIdeal.main_v91))
      (phi_w2_s0_main_v91) := by
  phi_step Cert.ReferenceIdeal.Hand.w2_s0 phi_w2_s0_main_v91
theorem phiK_w2_s0_main_v94 (WK : ValK F) :
    @Eq ((⟨S_, .i32⟩ : BufTy).Contents (Elt F)) (after Cert.KernelIdeal.Gen.main_part2_ops0 WK (Proc.devRef .tc Cert.KernelIdeal.main_v94))
      (phi_w2_s0_main_v94) := by
  phi_step Cert.KernelIdeal.Gen.main_part2_ops0 phi_w2_s0_main_v94
theorem phiR_w2_s0_main_v94 (WR : ValR F) :
    @Eq ((⟨S_, .i32⟩ : BufTy).Contents (Elt F)) (after Cert.ReferenceIdeal.Hand.w2_s0 WR (Proc.devRef .tc Cert.ReferenceIdeal.main_v94))
      (phi_w2_s0_main_v94) := by
  phi_step Cert.ReferenceIdeal.Hand.w2_s0 phi_w2_s0_main_v94
theorem phiK_w2_s0_main_v95 (WK : ValK F) :
    @Eq ((⟨S_, .i1⟩ : BufTy).Contents (Elt F)) (after Cert.KernelIdeal.Gen.main_part2_ops0 WK (Proc.devRef .tc Cert.KernelIdeal.main_v95))
      (phi_w2_s0_main_v95) := by
  phi_step Cert.KernelIdeal.Gen.main_part2_ops0 phi_w2_s0_main_v95
theorem phiR_w2_s0_main_v95 (WR : ValR F) :
    @Eq ((⟨S_, .i1⟩ : BufTy).Contents (Elt F)) (after Cert.ReferenceIdeal.Hand.w2_s0 WR (Proc.devRef .tc Cert.ReferenceIdeal.main_v95))
      (phi_w2_s0_main_v95) := by
  phi_step Cert.ReferenceIdeal.Hand.w2_s0 phi_w2_s0_main_v95
theorem phiK_w2_s0_main_c_81 (WK : ValK F) :
    @Eq ((⟨S_, .i32⟩ : BufTy).Contents (Elt F)) (after Cert.KernelIdeal.Gen.main_part2_ops0 WK (Proc.devRef .tc Cert.KernelIdeal.main_c_81))
      (phi_w2_s0_main_c_81) := by
  phi_step Cert.KernelIdeal.Gen.main_part2_ops0 phi_w2_s0_main_c_81
theorem phiR_w2_s0_main_c_81 (WR : ValR F) :
    @Eq ((⟨S_, .i32⟩ : BufTy).Contents (Elt F)) (after Cert.ReferenceIdeal.Hand.w2_s0 WR (Proc.devRef .tc Cert.ReferenceIdeal.main_c_81))
      (phi_w2_s0_main_c_81) := by
  phi_step Cert.ReferenceIdeal.Hand.w2_s0 phi_w2_s0_main_c_81
theorem phiK_w2_s0_main_c_82 (WK : ValK F) :
    @Eq ((⟨S_, .i32⟩ : BufTy).Contents (Elt F)) (after Cert.KernelIdeal.Gen.main_part2_ops0 WK (Proc.devRef .tc Cert.KernelIdeal.main_c_82))
      (phi_w2_s0_main_c_82) := by
  phi_step Cert.KernelIdeal.Gen.main_part2_ops0 phi_w2_s0_main_c_82
theorem phiR_w2_s0_main_c_82 (WR : ValR F) :
    @Eq ((⟨S_, .i32⟩ : BufTy).Contents (Elt F)) (after Cert.ReferenceIdeal.Hand.w2_s0 WR (Proc.devRef .tc Cert.ReferenceIdeal.main_c_82))
      (phi_w2_s0_main_c_82) := by
  phi_step Cert.ReferenceIdeal.Hand.w2_s0 phi_w2_s0_main_c_82

theorem sim_w2_s0 (WK : ValK F) (WR : ValR F) (h : Inv2 WK WR) :
    Inv3 (after Cert.KernelIdeal.Gen.main_part2_ops0 WK) (after Cert.ReferenceIdeal.Hand.w2_s0 WR) := by
  sim_step h Inv2 Inv3 [keepK_w2_s0_main_arg5, keepR_w2_s0_main_arg5, keepK_w2_s0_main_arg6, keepR_w2_s0_main_arg6, keepK_w2_s0_main_arg7, keepR_w2_s0_main_arg7, keepK_w2_s0_main_arg8, keepR_w2_s0_main_arg8, keepK_w2_s0_main_arg9, keepR_w2_s0_main_arg9, keepK_w2_s0_main_arg10, keepR_w2_s0_main_arg10, keepK_w2_s0_main_arg11, keepR_w2_s0_main_arg11, keepK_w2_s0_main_v20, keepR_w2_s0_main_v20, keepK_w2_s0_main_v41, keepR_w2_s0_main_v41, keepK_w2_s0_main_v62, keepR_w2_s0_main_v62, phiK_w2_s0_main_v83, phiR_w2_s0_main_v83, phiK_w2_s0_main_v88, phiR_w2_s0_main_v88, phiK_w2_s0_main_v91, phiR_w2_s0_main_v91, phiK_w2_s0_main_v94, phiR_w2_s0_main_v94, phiK_w2_s0_main_v95, phiR_w2_s0_main_v95, phiK_w2_s0_main_c_81, phiR_w2_s0_main_c_81, phiK_w2_s0_main_c_82, phiR_w2_s0_main_c_82]

end Cert.PromptBridge

end
-- ==== Proof.PromptBridgePhi3.lean ====
import proofs.«144763_j39642548142243_2_alg».proof.Proof.PromptBridgeBase

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

/-- main_v104 after stretch w3_s0, from the contents before it. -/
def phi_w3_s0_main_v104 (t_main_arg5 : (⟨S3x3x164x1, .f32⟩ : BufTy).Contents (Elt F)) (t_main_v88 : (⟨S16, .i32⟩ : BufTy).Contents (Elt F)) (t_main_v91 : (⟨S_, .i32⟩ : BufTy).Contents (Elt F)) (t_main_v94 : (⟨S_, .i32⟩ : BufTy).Contents (Elt F)) (t_main_v95 : (⟨S_, .i1⟩ : BufTy).Contents (Elt F)) (t_main_c_81 : (⟨S_, .i32⟩ : BufTy).Contents (Elt F)) (t_main_c_82 : (⟨S_, .i32⟩ : BufTy).Contents (Elt F)) : (⟨S16x3x164, .f32⟩ : BufTy).Contents (Elt F) :=
  let t_main_v96 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_81 t_main_c_82
  let t_main_c_83 : (⟨S_, .i32⟩ : BufTy).Contents (Elt F) := (constantI S_ 32 0#32)
  let t_main_v97 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v95 t_main_v96 t_main_c_83
  let t_main_v98 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v88
  let t_main_v99 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v91
  let t_main_v100 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v94
  let t_main_v101 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v97
  let t_main_v102 : (⟨S16x4, .i32⟩ : BufTy).Contents (Elt F) := concatenate S16x4 1 [⟨S16x1, t_main_v98⟩, ⟨S16x1, t_main_v99⟩, ⟨S16x1, t_main_v100⟩, ⟨S16x1, t_main_v101⟩] concatenates_S16x1_S16x1_S16x1_S16x1_S16x4_d1
  let t_main_v103 : (⟨S16x1x3x164x1, .f32⟩ : BufTy).Contents (Elt F) := ((fun x i => Host.gather gather_S3x3x164x1_S16x4_S16x1x3x164x1_1234_n_n_n_0123_1_131641 x i) : (⟨S3x3x164x1, .f32⟩ : BufTy).Contents (Elt F) → (⟨S16x4, .i32⟩ : BufTy).Contents (Elt F) → (⟨S16x1x3x164x1, .f32⟩ : BufTy).Contents (Elt F)) t_main_arg5 t_main_v102
  let t_main_v104 : (⟨S16x3x164, .f32⟩ : BufTy).Contents (Elt F) := (fun i => shapeCast S16x3x164 t_main_v103 shapeCasts_S16x1x3x164x1_S16x3x164 i)
  t_main_v104

/-- main_v125 after stretch w3_s0, from the contents before it. -/
def phi_w3_s0_main_v125 (t_main_arg6 : (⟨S3x3x164x10, .f32⟩ : BufTy).Contents (Elt F)) (t_main_arg9 : (⟨S16, .i32⟩ : BufTy).Contents (Elt F)) : (⟨S16x3x164x10, .f32⟩ : BufTy).Contents (Elt F) :=
  let t_main_c_84 : (⟨S_, .i32⟩ : BufTy).Contents (Elt F) := (constantI S_ 32 0#32)
  let t_main_v105 : (⟨S16, .i32⟩ : BufTy).Contents (Elt F) := (broadcastInDim S16 ![] bcast_S_S16 : (⟨S_, .i32⟩ : BufTy).Contents (Elt F) → (⟨S16, .i32⟩ : BufTy).Contents (Elt F)) t_main_c_84
  let t_main_v106 : (⟨S16, .i1⟩ : BufTy).Contents (Elt F) := (cmpi .slt : (⟨S16, .i32⟩ : BufTy).Contents (Elt F) → (⟨S16, .i32⟩ : BufTy).Contents (Elt F) → (⟨S16, .i1⟩ : BufTy).Contents (Elt F)) t_main_arg9 t_main_v105
  let t_main_c_85 : (⟨S_, .i32⟩ : BufTy).Contents (Elt F) := (constantI S_ 32 3#32)
  let t_main_v107 : (⟨S16, .i32⟩ : BufTy).Contents (Elt F) := (broadcastInDim S16 ![] bcast_S_S16 : (⟨S_, .i32⟩ : BufTy).Contents (Elt F) → (⟨S16, .i32⟩ : BufTy).Contents (Elt F)) t_main_c_85
  let t_main_v108 : (⟨S16, .i32⟩ : BufTy).Contents (Elt F) := (addi : (⟨S16, .i32⟩ : BufTy).Contents (Elt F) → (⟨S16, .i32⟩ : BufTy).Contents (Elt F) → (⟨S16, .i32⟩ : BufTy).Contents (Elt F)) t_main_arg9 t_main_v107
  let t_main_v109 : (⟨S16, .i32⟩ : BufTy).Contents (Elt F) := (select : (⟨S16, .i1⟩ : BufTy).Contents (Elt F) → (⟨S16, .i32⟩ : BufTy).Contents (Elt F) → (⟨S16, .i32⟩ : BufTy).Contents (Elt F) → (⟨S16, .i32⟩ : BufTy).Contents (Elt F)) t_main_v106 t_main_v108 t_main_arg9
  let t_main_c_86 : (⟨S_, .i32⟩ : BufTy).Contents (Elt F) := (constantI S_ 32 0#32)
  let t_main_c_87 : (⟨S_, .i32⟩ : BufTy).Contents (Elt F) := (constantI S_ 32 0#32)
  let t_main_v110 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_86 t_main_c_87
  let t_main_c_88 : (⟨S_, .i32⟩ : BufTy).Contents (Elt F) := (constantI S_ 32 0#32)
  let t_main_c_89 : (⟨S_, .i32⟩ : BufTy).Contents (Elt F) := (constantI S_ 32 3#32)
  let t_main_v111 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_88 t_main_c_89
  let t_main_c_90 : (⟨S_, .i32⟩ : BufTy).Contents (Elt F) := (constantI S_ 32 0#32)
  let t_main_v112 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v110 t_main_v111 t_main_c_90
  let t_main_c_91 : (⟨S_, .i32⟩ : BufTy).Contents (Elt F) := (constantI S_ 32 0#32)
  let t_main_c_92 : (⟨S_, .i32⟩ : BufTy).Contents (Elt F) := (constantI S_ 32 0#32)
  let t_main_v113 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_91 t_main_c_92
  let t_main_c_93 : (⟨S_, .i32⟩ : BufTy).Contents (Elt F) := (constantI S_ 32 0#32)
  let t_main_c_94 : (⟨S_, .i32⟩ : BufTy).Contents (Elt F) := (constantI S_ 32 164#32)
  let t_main_v114 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_93 t_main_c_94
  let t_main_c_95 : (⟨S_, .i32⟩ : BufTy).Contents (Elt F) := (constantI S_ 32 0#32)
  let t_main_v115 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v113 t_main_v114 t_main_c_95
  let t_main_c_96 : (⟨S_, .i32⟩ : BufTy).Contents (Elt F) := (constantI S_ 32 0#32)
  let t_main_c_97 : (⟨S_, .i32⟩ : BufTy).Contents (Elt F) := (constantI S_ 32 0#32)
  let t_main_v116 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_96 t_main_c_97
  let t_main_c_98 : (⟨S_, .i32⟩ : BufTy).Contents (Elt F) := (constantI S_ 32 0#32)
  let t_main_c_99 : (⟨S_, .i32⟩ : BufTy).Contents (Elt F) := (constantI S_ 32 10#32)
  let t_main_v117 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_98 t_main_c_99
  let t_main_c_100 : (⟨S_, .i32⟩ : BufTy).Contents (Elt F) := (constantI S_ 32 0#32)
  let t_main_v118 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v116 t_main_v117 t_main_c_100
  let t_main_v119 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v109
  let t_main_v120 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v112
  let t_main_v121 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v115
  let t_main_v122 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v118
  let t_main_v123 : (⟨S16x4, .i32⟩ : BufTy).Contents (Elt F) := concatenate S16x4 1 [⟨S16x1, t_main_v119⟩, ⟨S16x1, t_main_v120⟩, ⟨S16x1, t_main_v121⟩, ⟨S16x1, t_main_v122⟩] concatenates_S16x1_S16x1_S16x1_S16x1_S16x4_d1
  let t_main_v124 : (⟨S16x1x3x164x10, .f32⟩ : BufTy).Contents (Elt F) := ((fun x i => Host.gather gather_S3x3x164x10_S16x4_S16x1x3x164x10_1234_n_n_n_0123_1_1316410 x i) : (⟨S3x3x164x10, .f32⟩ : BufTy).Contents (Elt F) → (⟨S16x4, .i32⟩ : BufTy).Contents (Elt F) → (⟨S16x1x3x164x10, .f32⟩ : BufTy).Contents (Elt F)) t_main_arg6 t_main_v123
  let t_main_v125 : (⟨S16x3x164x10, .f32⟩ : BufTy).Contents (Elt F) := (fun i => shapeCast S16x3x164x10 t_main_v124 shapeCasts_S16x1x3x164x10_S16x3x164x10 i)
  t_main_v125

/-- main_v130 after stretch w3_s0, from the contents before it. -/
def phi_w3_s0_main_v130 (t_main_arg9 : (⟨S16, .i32⟩ : BufTy).Contents (Elt F)) : (⟨S16, .i32⟩ : BufTy).Contents (Elt F) :=
  let t_main_c_101 : (⟨S_, .i32⟩ : BufTy).Contents (Elt F) := (constantI S_ 32 0#32)
  let t_main_v126 : (⟨S16, .i32⟩ : BufTy).Contents (Elt F) := (broadcastInDim S16 ![] bcast_S_S16 : (⟨S_, .i32⟩ : BufTy).Contents (Elt F) → (⟨S16, .i32⟩ : BufTy).Contents (Elt F)) t_main_c_101
  let t_main_v127 : (⟨S16, .i1⟩ : BufTy).Contents (Elt F) := (cmpi .slt : (⟨S16, .i32⟩ : BufTy).Contents (Elt F) → (⟨S16, .i32⟩ : BufTy).Contents (Elt F) → (⟨S16, .i1⟩ : BufTy).Contents (Elt F)) t_main_arg9 t_main_v126
  let t_main_c_102 : (⟨S_, .i32⟩ : BufTy).Contents (Elt F) := (constantI S_ 32 3#32)
  let t_main_v128 : (⟨S16, .i32⟩ : BufTy).Contents (Elt F) := (broadcastInDim S16 ![] bcast_S_S16 : (⟨S_, .i32⟩ : BufTy).Contents (Elt F) → (⟨S16, .i32⟩ : BufTy).Contents (Elt F)) t_main_c_102
  let t_main_v129 : (⟨S16, .i32⟩ : BufTy).Contents (Elt F) := (addi : (⟨S16, .i32⟩ : BufTy).Contents (Elt F) → (⟨S16, .i32⟩ : BufTy).Contents (Elt F) → (⟨S16, .i32⟩ : BufTy).Contents (Elt F)) t_main_arg9 t_main_v128
  let t_main_v130 : (⟨S16, .i32⟩ : BufTy).Contents (Elt F) := (select : (⟨S16, .i1⟩ : BufTy).Contents (Elt F) → (⟨S16, .i32⟩ : BufTy).Contents (Elt F) → (⟨S16, .i32⟩ : BufTy).Contents (Elt F) → (⟨S16, .i32⟩ : BufTy).Contents (Elt F)) t_main_v127 t_main_v129 t_main_arg9
  t_main_v130

/-- main_v131 after stretch w3_s0, from the contents before it. -/
def phi_w3_s0_main_v131  : (⟨S_, .i1⟩ : BufTy).Contents (Elt F) :=
  let t_main_c_103 : (⟨S_, .i32⟩ : BufTy).Contents (Elt F) := (constantI S_ 32 0#32)
  let t_main_c_104 : (⟨S_, .i32⟩ : BufTy).Contents (Elt F) := (constantI S_ 32 0#32)
  let t_main_v131 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_103 t_main_c_104
  t_main_v131

/-- main_c_105 after stretch w3_s0, from the contents before it. -/
def phi_w3_s0_main_c_105  : (⟨S_, .i32⟩ : BufTy).Contents (Elt F) :=
  let t_main_c_105 : (⟨S_, .i32⟩ : BufTy).Contents (Elt F) := (constantI S_ 32 0#32)
  t_main_c_105

/-- main_c_106 after stretch w3_s0, from the contents before it. -/
def phi_w3_s0_main_c_106  : (⟨S_, .i32⟩ : BufTy).Contents (Elt F) :=
  let t_main_c_106 : (⟨S_, .i32⟩ : BufTy).Contents (Elt F) := (constantI S_ 32 3#32)
  t_main_c_106

end Cert.PromptBridge

end
-- ==== Proof.PromptBridgeL3.lean ====
import proofs.«144763_j39642548142243_2_alg».proof.Proof.PromptBridgePhi3

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

theorem keepK_w3_s0_main_arg7 (WK : ValK F) :
    after Cert.KernelIdeal.Gen.main_part3_ops0 WK (Proc.devRef .tc Cert.KernelIdeal.main_arg7) = WK (Proc.devRef .tc Cert.KernelIdeal.main_arg7) := by
  keep_step Cert.KernelIdeal.Gen.main_part3_ops0
theorem keepR_w3_s0_main_arg7 (WR : ValR F) :
    after Cert.ReferenceIdeal.Hand.w3_s0 WR (Proc.devRef .tc Cert.ReferenceIdeal.main_arg7) = WR (Proc.devRef .tc Cert.ReferenceIdeal.main_arg7) := by
  keep_step Cert.ReferenceIdeal.Hand.w3_s0
theorem keepK_w3_s0_main_arg8 (WK : ValK F) :
    after Cert.KernelIdeal.Gen.main_part3_ops0 WK (Proc.devRef .tc Cert.KernelIdeal.main_arg8) = WK (Proc.devRef .tc Cert.KernelIdeal.main_arg8) := by
  keep_step Cert.KernelIdeal.Gen.main_part3_ops0
theorem keepR_w3_s0_main_arg8 (WR : ValR F) :
    after Cert.ReferenceIdeal.Hand.w3_s0 WR (Proc.devRef .tc Cert.ReferenceIdeal.main_arg8) = WR (Proc.devRef .tc Cert.ReferenceIdeal.main_arg8) := by
  keep_step Cert.ReferenceIdeal.Hand.w3_s0
theorem keepK_w3_s0_main_arg9 (WK : ValK F) :
    after Cert.KernelIdeal.Gen.main_part3_ops0 WK (Proc.devRef .tc Cert.KernelIdeal.main_arg9) = WK (Proc.devRef .tc Cert.KernelIdeal.main_arg9) := by
  keep_step Cert.KernelIdeal.Gen.main_part3_ops0
theorem keepR_w3_s0_main_arg9 (WR : ValR F) :
    after Cert.ReferenceIdeal.Hand.w3_s0 WR (Proc.devRef .tc Cert.ReferenceIdeal.main_arg9) = WR (Proc.devRef .tc Cert.ReferenceIdeal.main_arg9) := by
  keep_step Cert.ReferenceIdeal.Hand.w3_s0
theorem keepK_w3_s0_main_arg10 (WK : ValK F) :
    after Cert.KernelIdeal.Gen.main_part3_ops0 WK (Proc.devRef .tc Cert.KernelIdeal.main_arg10) = WK (Proc.devRef .tc Cert.KernelIdeal.main_arg10) := by
  keep_step Cert.KernelIdeal.Gen.main_part3_ops0
theorem keepR_w3_s0_main_arg10 (WR : ValR F) :
    after Cert.ReferenceIdeal.Hand.w3_s0 WR (Proc.devRef .tc Cert.ReferenceIdeal.main_arg10) = WR (Proc.devRef .tc Cert.ReferenceIdeal.main_arg10) := by
  keep_step Cert.ReferenceIdeal.Hand.w3_s0
theorem keepK_w3_s0_main_arg11 (WK : ValK F) :
    after Cert.KernelIdeal.Gen.main_part3_ops0 WK (Proc.devRef .tc Cert.KernelIdeal.main_arg11) = WK (Proc.devRef .tc Cert.KernelIdeal.main_arg11) := by
  keep_step Cert.KernelIdeal.Gen.main_part3_ops0
theorem keepR_w3_s0_main_arg11 (WR : ValR F) :
    after Cert.ReferenceIdeal.Hand.w3_s0 WR (Proc.devRef .tc Cert.ReferenceIdeal.main_arg11) = WR (Proc.devRef .tc Cert.ReferenceIdeal.main_arg11) := by
  keep_step Cert.ReferenceIdeal.Hand.w3_s0
theorem keepK_w3_s0_main_v20 (WK : ValK F) :
    after Cert.KernelIdeal.Gen.main_part3_ops0 WK (Proc.devRef .tc Cert.KernelIdeal.main_v20) = WK (Proc.devRef .tc Cert.KernelIdeal.main_v20) := by
  keep_step Cert.KernelIdeal.Gen.main_part3_ops0
theorem keepR_w3_s0_main_v20 (WR : ValR F) :
    after Cert.ReferenceIdeal.Hand.w3_s0 WR (Proc.devRef .tc Cert.ReferenceIdeal.main_v20) = WR (Proc.devRef .tc Cert.ReferenceIdeal.main_v20) := by
  keep_step Cert.ReferenceIdeal.Hand.w3_s0
theorem keepK_w3_s0_main_v41 (WK : ValK F) :
    after Cert.KernelIdeal.Gen.main_part3_ops0 WK (Proc.devRef .tc Cert.KernelIdeal.main_v41) = WK (Proc.devRef .tc Cert.KernelIdeal.main_v41) := by
  keep_step Cert.KernelIdeal.Gen.main_part3_ops0
theorem keepR_w3_s0_main_v41 (WR : ValR F) :
    after Cert.ReferenceIdeal.Hand.w3_s0 WR (Proc.devRef .tc Cert.ReferenceIdeal.main_v41) = WR (Proc.devRef .tc Cert.ReferenceIdeal.main_v41) := by
  keep_step Cert.ReferenceIdeal.Hand.w3_s0
theorem keepK_w3_s0_main_v62 (WK : ValK F) :
    after Cert.KernelIdeal.Gen.main_part3_ops0 WK (Proc.devRef .tc Cert.KernelIdeal.main_v62) = WK (Proc.devRef .tc Cert.KernelIdeal.main_v62) := by
  keep_step Cert.KernelIdeal.Gen.main_part3_ops0
theorem keepR_w3_s0_main_v62 (WR : ValR F) :
    after Cert.ReferenceIdeal.Hand.w3_s0 WR (Proc.devRef .tc Cert.ReferenceIdeal.main_v62) = WR (Proc.devRef .tc Cert.ReferenceIdeal.main_v62) := by
  keep_step Cert.ReferenceIdeal.Hand.w3_s0
theorem keepK_w3_s0_main_v83 (WK : ValK F) :
    after Cert.KernelIdeal.Gen.main_part3_ops0 WK (Proc.devRef .tc Cert.KernelIdeal.main_v83) = WK (Proc.devRef .tc Cert.KernelIdeal.main_v83) := by
  keep_step Cert.KernelIdeal.Gen.main_part3_ops0
theorem keepR_w3_s0_main_v83 (WR : ValR F) :
    after Cert.ReferenceIdeal.Hand.w3_s0 WR (Proc.devRef .tc Cert.ReferenceIdeal.main_v83) = WR (Proc.devRef .tc Cert.ReferenceIdeal.main_v83) := by
  keep_step Cert.ReferenceIdeal.Hand.w3_s0
theorem phiK_w3_s0_main_v104 (WK : ValK F) :
    @Eq ((⟨S16x3x164, .f32⟩ : BufTy).Contents (Elt F)) (after Cert.KernelIdeal.Gen.main_part3_ops0 WK (Proc.devRef .tc Cert.KernelIdeal.main_v104))
      (phi_w3_s0_main_v104 (WK (Proc.devRef .tc Cert.KernelIdeal.main_arg5)) (WK (Proc.devRef .tc Cert.KernelIdeal.main_v88)) (WK (Proc.devRef .tc Cert.KernelIdeal.main_v91)) (WK (Proc.devRef .tc Cert.KernelIdeal.main_v94)) (WK (Proc.devRef .tc Cert.KernelIdeal.main_v95)) (WK (Proc.devRef .tc Cert.KernelIdeal.main_c_81)) (WK (Proc.devRef .tc Cert.KernelIdeal.main_c_82))) := by
  phi_step Cert.KernelIdeal.Gen.main_part3_ops0 phi_w3_s0_main_v104
theorem phiR_w3_s0_main_v104 (WR : ValR F) :
    @Eq ((⟨S16x3x164, .f32⟩ : BufTy).Contents (Elt F)) (after Cert.ReferenceIdeal.Hand.w3_s0 WR (Proc.devRef .tc Cert.ReferenceIdeal.main_v104))
      (phi_w3_s0_main_v104 (WR (Proc.devRef .tc Cert.ReferenceIdeal.main_arg5)) (WR (Proc.devRef .tc Cert.ReferenceIdeal.main_v88)) (WR (Proc.devRef .tc Cert.ReferenceIdeal.main_v91)) (WR (Proc.devRef .tc Cert.ReferenceIdeal.main_v94)) (WR (Proc.devRef .tc Cert.ReferenceIdeal.main_v95)) (WR (Proc.devRef .tc Cert.ReferenceIdeal.main_c_81)) (WR (Proc.devRef .tc Cert.ReferenceIdeal.main_c_82))) := by
  phi_step Cert.ReferenceIdeal.Hand.w3_s0 phi_w3_s0_main_v104
theorem phiK_w3_s0_main_v125 (WK : ValK F) :
    @Eq ((⟨S16x3x164x10, .f32⟩ : BufTy).Contents (Elt F)) (after Cert.KernelIdeal.Gen.main_part3_ops0 WK (Proc.devRef .tc Cert.KernelIdeal.main_v125))
      (phi_w3_s0_main_v125 (WK (Proc.devRef .tc Cert.KernelIdeal.main_arg6)) (WK (Proc.devRef .tc Cert.KernelIdeal.main_arg9))) := by
  phi_step Cert.KernelIdeal.Gen.main_part3_ops0 phi_w3_s0_main_v125
theorem phiR_w3_s0_main_v125 (WR : ValR F) :
    @Eq ((⟨S16x3x164x10, .f32⟩ : BufTy).Contents (Elt F)) (after Cert.ReferenceIdeal.Hand.w3_s0 WR (Proc.devRef .tc Cert.ReferenceIdeal.main_v125))
      (phi_w3_s0_main_v125 (WR (Proc.devRef .tc Cert.ReferenceIdeal.main_arg6)) (WR (Proc.devRef .tc Cert.ReferenceIdeal.main_arg9))) := by
  phi_step Cert.ReferenceIdeal.Hand.w3_s0 phi_w3_s0_main_v125
theorem phiK_w3_s0_main_v130 (WK : ValK F) :
    @Eq ((⟨S16, .i32⟩ : BufTy).Contents (Elt F)) (after Cert.KernelIdeal.Gen.main_part3_ops0 WK (Proc.devRef .tc Cert.KernelIdeal.main_v130))
      (phi_w3_s0_main_v130 (WK (Proc.devRef .tc Cert.KernelIdeal.main_arg9))) := by
  phi_step Cert.KernelIdeal.Gen.main_part3_ops0 phi_w3_s0_main_v130
theorem phiR_w3_s0_main_v130 (WR : ValR F) :
    @Eq ((⟨S16, .i32⟩ : BufTy).Contents (Elt F)) (after Cert.ReferenceIdeal.Hand.w3_s0 WR (Proc.devRef .tc Cert.ReferenceIdeal.main_v130))
      (phi_w3_s0_main_v130 (WR (Proc.devRef .tc Cert.ReferenceIdeal.main_arg9))) := by
  phi_step Cert.ReferenceIdeal.Hand.w3_s0 phi_w3_s0_main_v130
theorem phiK_w3_s0_main_v131 (WK : ValK F) :
    @Eq ((⟨S_, .i1⟩ : BufTy).Contents (Elt F)) (after Cert.KernelIdeal.Gen.main_part3_ops0 WK (Proc.devRef .tc Cert.KernelIdeal.main_v131))
      (phi_w3_s0_main_v131) := by
  phi_step Cert.KernelIdeal.Gen.main_part3_ops0 phi_w3_s0_main_v131
theorem phiR_w3_s0_main_v131 (WR : ValR F) :
    @Eq ((⟨S_, .i1⟩ : BufTy).Contents (Elt F)) (after Cert.ReferenceIdeal.Hand.w3_s0 WR (Proc.devRef .tc Cert.ReferenceIdeal.main_v131))
      (phi_w3_s0_main_v131) := by
  phi_step Cert.ReferenceIdeal.Hand.w3_s0 phi_w3_s0_main_v131
theorem phiK_w3_s0_main_c_105 (WK : ValK F) :
    @Eq ((⟨S_, .i32⟩ : BufTy).Contents (Elt F)) (after Cert.KernelIdeal.Gen.main_part3_ops0 WK (Proc.devRef .tc Cert.KernelIdeal.main_c_105))
      (phi_w3_s0_main_c_105) := by
  phi_step Cert.KernelIdeal.Gen.main_part3_ops0 phi_w3_s0_main_c_105
theorem phiR_w3_s0_main_c_105 (WR : ValR F) :
    @Eq ((⟨S_, .i32⟩ : BufTy).Contents (Elt F)) (after Cert.ReferenceIdeal.Hand.w3_s0 WR (Proc.devRef .tc Cert.ReferenceIdeal.main_c_105))
      (phi_w3_s0_main_c_105) := by
  phi_step Cert.ReferenceIdeal.Hand.w3_s0 phi_w3_s0_main_c_105
theorem phiK_w3_s0_main_c_106 (WK : ValK F) :
    @Eq ((⟨S_, .i32⟩ : BufTy).Contents (Elt F)) (after Cert.KernelIdeal.Gen.main_part3_ops0 WK (Proc.devRef .tc Cert.KernelIdeal.main_c_106))
      (phi_w3_s0_main_c_106) := by
  phi_step Cert.KernelIdeal.Gen.main_part3_ops0 phi_w3_s0_main_c_106
theorem phiR_w3_s0_main_c_106 (WR : ValR F) :
    @Eq ((⟨S_, .i32⟩ : BufTy).Contents (Elt F)) (after Cert.ReferenceIdeal.Hand.w3_s0 WR (Proc.devRef .tc Cert.ReferenceIdeal.main_c_106))
      (phi_w3_s0_main_c_106) := by
  phi_step Cert.ReferenceIdeal.Hand.w3_s0 phi_w3_s0_main_c_106

theorem sim_w3_s0 (WK : ValK F) (WR : ValR F) (h : Inv3 WK WR) :
    Inv4 (after Cert.KernelIdeal.Gen.main_part3_ops0 WK) (after Cert.ReferenceIdeal.Hand.w3_s0 WR) := by
  sim_step h Inv3 Inv4 [keepK_w3_s0_main_arg7, keepR_w3_s0_main_arg7, keepK_w3_s0_main_arg8, keepR_w3_s0_main_arg8, keepK_w3_s0_main_arg9, keepR_w3_s0_main_arg9, keepK_w3_s0_main_arg10, keepR_w3_s0_main_arg10, keepK_w3_s0_main_arg11, keepR_w3_s0_main_arg11, keepK_w3_s0_main_v20, keepR_w3_s0_main_v20, keepK_w3_s0_main_v41, keepR_w3_s0_main_v41, keepK_w3_s0_main_v62, keepR_w3_s0_main_v62, keepK_w3_s0_main_v83, keepR_w3_s0_main_v83, phiK_w3_s0_main_v104, phiR_w3_s0_main_v104, phiK_w3_s0_main_v125, phiR_w3_s0_main_v125, phiK_w3_s0_main_v130, phiR_w3_s0_main_v130, phiK_w3_s0_main_v131, phiR_w3_s0_main_v131, phiK_w3_s0_main_c_105, phiR_w3_s0_main_c_105, phiK_w3_s0_main_c_106, phiR_w3_s0_main_c_106]

end Cert.PromptBridge

end
-- ==== Proof.PromptBridgePhi4.lean ====
import proofs.«144763_j39642548142243_2_alg».proof.Proof.PromptBridgeBase

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

/-- main_v146 after stretch w4_s0, from the contents before it. -/
def phi_w4_s0_main_v146 (t_main_arg7 : (⟨S3x3x164x1, .f32⟩ : BufTy).Contents (Elt F)) (t_main_v130 : (⟨S16, .i32⟩ : BufTy).Contents (Elt F)) (t_main_v131 : (⟨S_, .i1⟩ : BufTy).Contents (Elt F)) (t_main_c_105 : (⟨S_, .i32⟩ : BufTy).Contents (Elt F)) (t_main_c_106 : (⟨S_, .i32⟩ : BufTy).Contents (Elt F)) : (⟨S16x3x164, .f32⟩ : BufTy).Contents (Elt F) :=
  let t_main_v132 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_105 t_main_c_106
  let t_main_c_107 : (⟨S_, .i32⟩ : BufTy).Contents (Elt F) := (constantI S_ 32 0#32)
  let t_main_v133 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v131 t_main_v132 t_main_c_107
  let t_main_c_108 : (⟨S_, .i32⟩ : BufTy).Contents (Elt F) := (constantI S_ 32 0#32)
  let t_main_c_109 : (⟨S_, .i32⟩ : BufTy).Contents (Elt F) := (constantI S_ 32 0#32)
  let t_main_v134 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_108 t_main_c_109
  let t_main_c_110 : (⟨S_, .i32⟩ : BufTy).Contents (Elt F) := (constantI S_ 32 0#32)
  let t_main_c_111 : (⟨S_, .i32⟩ : BufTy).Contents (Elt F) := (constantI S_ 32 164#32)
  let t_main_v135 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_110 t_main_c_111
  let t_main_c_112 : (⟨S_, .i32⟩ : BufTy).Contents (Elt F) := (constantI S_ 32 0#32)
  let t_main_v136 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v134 t_main_v135 t_main_c_112
  let t_main_c_113 : (⟨S_, .i32⟩ : BufTy).Contents (Elt F) := (constantI S_ 32 0#32)
  let t_main_c_114 : (⟨S_, .i32⟩ : BufTy).Contents (Elt F) := (constantI S_ 32 0#32)
  let t_main_v137 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_113 t_main_c_114
  let t_main_c_115 : (⟨S_, .i32⟩ : BufTy).Contents (Elt F) := (constantI S_ 32 0#32)
  let t_main_c_116 : (⟨S_, .i32⟩ : BufTy).Contents (Elt F) := (constantI S_ 32 1#32)
  let t_main_v138 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_115 t_main_c_116
  let t_main_c_117 : (⟨S_, .i32⟩ : BufTy).Contents (Elt F) := (constantI S_ 32 0#32)
  let t_main_v139 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v137 t_main_v138 t_main_c_117
  let t_main_v140 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v130
  let t_main_v141 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v133
  let t_main_v142 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v136
  let t_main_v143 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v139
  let t_main_v144 : (⟨S16x4, .i32⟩ : BufTy).Contents (Elt F) := concatenate S16x4 1 [⟨S16x1, t_main_v140⟩, ⟨S16x1, t_main_v141⟩, ⟨S16x1, t_main_v142⟩, ⟨S16x1, t_main_v143⟩] concatenates_S16x1_S16x1_S16x1_S16x1_S16x4_d1
  let t_main_v145 : (⟨S16x1x3x164x1, .f32⟩ : BufTy).Contents (Elt F) := ((fun x i => Host.gather gather_S3x3x164x1_S16x4_S16x1x3x164x1_1234_n_n_n_0123_1_131641 x i) : (⟨S3x3x164x1, .f32⟩ : BufTy).Contents (Elt F) → (⟨S16x4, .i32⟩ : BufTy).Contents (Elt F) → (⟨S16x1x3x164x1, .f32⟩ : BufTy).Contents (Elt F)) t_main_arg7 t_main_v144
  let t_main_v146 : (⟨S16x3x164, .f32⟩ : BufTy).Contents (Elt F) := (fun i => shapeCast S16x3x164 t_main_v145 shapeCasts_S16x1x3x164x1_S16x3x164 i)
  t_main_v146

/-- main_v160 after stretch w4_s0, from the contents before it. -/
def phi_w4_s0_main_v160  : (⟨S_, .i32⟩ : BufTy).Contents (Elt F) :=
  let t_main_c_130 : (⟨S_, .i32⟩ : BufTy).Contents (Elt F) := (constantI S_ 32 0#32)
  let t_main_c_131 : (⟨S_, .i32⟩ : BufTy).Contents (Elt F) := (constantI S_ 32 0#32)
  let t_main_v158 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_130 t_main_c_131
  let t_main_c_132 : (⟨S_, .i32⟩ : BufTy).Contents (Elt F) := (constantI S_ 32 0#32)
  let t_main_c_133 : (⟨S_, .i32⟩ : BufTy).Contents (Elt F) := (constantI S_ 32 10#32)
  let t_main_v159 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_132 t_main_c_133
  let t_main_c_134 : (⟨S_, .i32⟩ : BufTy).Contents (Elt F) := (constantI S_ 32 0#32)
  let t_main_v160 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v158 t_main_v159 t_main_c_134
  t_main_v160

/-- main_v161 after stretch w4_s0, from the contents before it. -/
def phi_w4_s0_main_v161 (t_main_arg9 : (⟨S16, .i32⟩ : BufTy).Contents (Elt F)) : (⟨S16x1, .i32⟩ : BufTy).Contents (Elt F) :=
  let t_main_c_118 : (⟨S_, .i32⟩ : BufTy).Contents (Elt F) := (constantI S_ 32 0#32)
  let t_main_v147 : (⟨S16, .i32⟩ : BufTy).Contents (Elt F) := (broadcastInDim S16 ![] bcast_S_S16 : (⟨S_, .i32⟩ : BufTy).Contents (Elt F) → (⟨S16, .i32⟩ : BufTy).Contents (Elt F)) t_main_c_118
  let t_main_v148 : (⟨S16, .i1⟩ : BufTy).Contents (Elt F) := (cmpi .slt : (⟨S16, .i32⟩ : BufTy).Contents (Elt F) → (⟨S16, .i32⟩ : BufTy).Contents (Elt F) → (⟨S16, .i1⟩ : BufTy).Contents (Elt F)) t_main_arg9 t_main_v147
  let t_main_c_119 : (⟨S_, .i32⟩ : BufTy).Contents (Elt F) := (constantI S_ 32 3#32)
  let t_main_v149 : (⟨S16, .i32⟩ : BufTy).Contents (Elt F) := (broadcastInDim S16 ![] bcast_S_S16 : (⟨S_, .i32⟩ : BufTy).Contents (Elt F) → (⟨S16, .i32⟩ : BufTy).Contents (Elt F)) t_main_c_119
  let t_main_v150 : (⟨S16, .i32⟩ : BufTy).Contents (Elt F) := (addi : (⟨S16, .i32⟩ : BufTy).Contents (Elt F) → (⟨S16, .i32⟩ : BufTy).Contents (Elt F) → (⟨S16, .i32⟩ : BufTy).Contents (Elt F)) t_main_arg9 t_main_v149
  let t_main_v151 : (⟨S16, .i32⟩ : BufTy).Contents (Elt F) := (select : (⟨S16, .i1⟩ : BufTy).Contents (Elt F) → (⟨S16, .i32⟩ : BufTy).Contents (Elt F) → (⟨S16, .i32⟩ : BufTy).Contents (Elt F) → (⟨S16, .i32⟩ : BufTy).Contents (Elt F)) t_main_v148 t_main_v150 t_main_arg9
  let t_main_v161 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v151
  t_main_v161

/-- main_v162 after stretch w4_s0, from the contents before it. -/
def phi_w4_s0_main_v162  : (⟨S16x1, .i32⟩ : BufTy).Contents (Elt F) :=
  let t_main_c_120 : (⟨S_, .i32⟩ : BufTy).Contents (Elt F) := (constantI S_ 32 0#32)
  let t_main_c_121 : (⟨S_, .i32⟩ : BufTy).Contents (Elt F) := (constantI S_ 32 0#32)
  let t_main_v152 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_120 t_main_c_121
  let t_main_c_122 : (⟨S_, .i32⟩ : BufTy).Contents (Elt F) := (constantI S_ 32 0#32)
  let t_main_c_123 : (⟨S_, .i32⟩ : BufTy).Contents (Elt F) := (constantI S_ 32 3#32)
  let t_main_v153 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_122 t_main_c_123
  let t_main_c_124 : (⟨S_, .i32⟩ : BufTy).Contents (Elt F) := (constantI S_ 32 0#32)
  let t_main_v154 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v152 t_main_v153 t_main_c_124
  let t_main_v162 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v154
  t_main_v162

/-- main_v163 after stretch w4_s0, from the contents before it. -/
def phi_w4_s0_main_v163  : (⟨S16x1, .i32⟩ : BufTy).Contents (Elt F) :=
  let t_main_c_125 : (⟨S_, .i32⟩ : BufTy).Contents (Elt F) := (constantI S_ 32 0#32)
  let t_main_c_126 : (⟨S_, .i32⟩ : BufTy).Contents (Elt F) := (constantI S_ 32 0#32)
  let t_main_v155 : (⟨S_, .i1⟩ : BufTy).Contents (Elt F) := (cmpi .slt : (⟨S_, .i32⟩ : BufTy).Contents (Elt F) → (⟨S_, .i32⟩ : BufTy).Contents (Elt F) → (⟨S_, .i1⟩ : BufTy).Contents (Elt F)) t_main_c_125 t_main_c_126
  let t_main_c_127 : (⟨S_, .i32⟩ : BufTy).Contents (Elt F) := (constantI S_ 32 0#32)
  let t_main_c_128 : (⟨S_, .i32⟩ : BufTy).Contents (Elt F) := (constantI S_ 32 164#32)
  let t_main_v156 : (⟨S_, .i32⟩ : BufTy).Contents (Elt F) := (addi : (⟨S_, .i32⟩ : BufTy).Contents (Elt F) → (⟨S_, .i32⟩ : BufTy).Contents (Elt F) → (⟨S_, .i32⟩ : BufTy).Contents (Elt F)) t_main_c_127 t_main_c_128
  let t_main_c_129 : (⟨S_, .i32⟩ : BufTy).Contents (Elt F) := (constantI S_ 32 0#32)
  let t_main_v157 : (⟨S_, .i32⟩ : BufTy).Contents (Elt F) := (select : (⟨S_, .i1⟩ : BufTy).Contents (Elt F) → (⟨S_, .i32⟩ : BufTy).Contents (Elt F) → (⟨S_, .i32⟩ : BufTy).Contents (Elt F) → (⟨S_, .i32⟩ : BufTy).Contents (Elt F)) t_main_v155 t_main_v156 t_main_c_129
  let t_main_v163 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v157
  t_main_v163

end Cert.PromptBridge

end
-- ==== Proof.PromptBridgeL4.lean ====
import proofs.«144763_j39642548142243_2_alg».proof.Proof.PromptBridgePhi4

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

theorem keepK_w4_s0_main_arg8 (WK : ValK F) :
    after Cert.KernelIdeal.Gen.main_part4_ops0 WK (Proc.devRef .tc Cert.KernelIdeal.main_arg8) = WK (Proc.devRef .tc Cert.KernelIdeal.main_arg8) := by
  keep_step Cert.KernelIdeal.Gen.main_part4_ops0
theorem keepR_w4_s0_main_arg8 (WR : ValR F) :
    after Cert.ReferenceIdeal.Hand.w4_s0 WR (Proc.devRef .tc Cert.ReferenceIdeal.main_arg8) = WR (Proc.devRef .tc Cert.ReferenceIdeal.main_arg8) := by
  keep_step Cert.ReferenceIdeal.Hand.w4_s0
theorem keepK_w4_s0_main_arg10 (WK : ValK F) :
    after Cert.KernelIdeal.Gen.main_part4_ops0 WK (Proc.devRef .tc Cert.KernelIdeal.main_arg10) = WK (Proc.devRef .tc Cert.KernelIdeal.main_arg10) := by
  keep_step Cert.KernelIdeal.Gen.main_part4_ops0
theorem keepR_w4_s0_main_arg10 (WR : ValR F) :
    after Cert.ReferenceIdeal.Hand.w4_s0 WR (Proc.devRef .tc Cert.ReferenceIdeal.main_arg10) = WR (Proc.devRef .tc Cert.ReferenceIdeal.main_arg10) := by
  keep_step Cert.ReferenceIdeal.Hand.w4_s0
theorem keepK_w4_s0_main_arg11 (WK : ValK F) :
    after Cert.KernelIdeal.Gen.main_part4_ops0 WK (Proc.devRef .tc Cert.KernelIdeal.main_arg11) = WK (Proc.devRef .tc Cert.KernelIdeal.main_arg11) := by
  keep_step Cert.KernelIdeal.Gen.main_part4_ops0
theorem keepR_w4_s0_main_arg11 (WR : ValR F) :
    after Cert.ReferenceIdeal.Hand.w4_s0 WR (Proc.devRef .tc Cert.ReferenceIdeal.main_arg11) = WR (Proc.devRef .tc Cert.ReferenceIdeal.main_arg11) := by
  keep_step Cert.ReferenceIdeal.Hand.w4_s0
theorem keepK_w4_s0_main_v20 (WK : ValK F) :
    after Cert.KernelIdeal.Gen.main_part4_ops0 WK (Proc.devRef .tc Cert.KernelIdeal.main_v20) = WK (Proc.devRef .tc Cert.KernelIdeal.main_v20) := by
  keep_step Cert.KernelIdeal.Gen.main_part4_ops0
theorem keepR_w4_s0_main_v20 (WR : ValR F) :
    after Cert.ReferenceIdeal.Hand.w4_s0 WR (Proc.devRef .tc Cert.ReferenceIdeal.main_v20) = WR (Proc.devRef .tc Cert.ReferenceIdeal.main_v20) := by
  keep_step Cert.ReferenceIdeal.Hand.w4_s0
theorem keepK_w4_s0_main_v41 (WK : ValK F) :
    after Cert.KernelIdeal.Gen.main_part4_ops0 WK (Proc.devRef .tc Cert.KernelIdeal.main_v41) = WK (Proc.devRef .tc Cert.KernelIdeal.main_v41) := by
  keep_step Cert.KernelIdeal.Gen.main_part4_ops0
theorem keepR_w4_s0_main_v41 (WR : ValR F) :
    after Cert.ReferenceIdeal.Hand.w4_s0 WR (Proc.devRef .tc Cert.ReferenceIdeal.main_v41) = WR (Proc.devRef .tc Cert.ReferenceIdeal.main_v41) := by
  keep_step Cert.ReferenceIdeal.Hand.w4_s0
theorem keepK_w4_s0_main_v62 (WK : ValK F) :
    after Cert.KernelIdeal.Gen.main_part4_ops0 WK (Proc.devRef .tc Cert.KernelIdeal.main_v62) = WK (Proc.devRef .tc Cert.KernelIdeal.main_v62) := by
  keep_step Cert.KernelIdeal.Gen.main_part4_ops0
theorem keepR_w4_s0_main_v62 (WR : ValR F) :
    after Cert.ReferenceIdeal.Hand.w4_s0 WR (Proc.devRef .tc Cert.ReferenceIdeal.main_v62) = WR (Proc.devRef .tc Cert.ReferenceIdeal.main_v62) := by
  keep_step Cert.ReferenceIdeal.Hand.w4_s0
theorem keepK_w4_s0_main_v83 (WK : ValK F) :
    after Cert.KernelIdeal.Gen.main_part4_ops0 WK (Proc.devRef .tc Cert.KernelIdeal.main_v83) = WK (Proc.devRef .tc Cert.KernelIdeal.main_v83) := by
  keep_step Cert.KernelIdeal.Gen.main_part4_ops0
theorem keepR_w4_s0_main_v83 (WR : ValR F) :
    after Cert.ReferenceIdeal.Hand.w4_s0 WR (Proc.devRef .tc Cert.ReferenceIdeal.main_v83) = WR (Proc.devRef .tc Cert.ReferenceIdeal.main_v83) := by
  keep_step Cert.ReferenceIdeal.Hand.w4_s0
theorem keepK_w4_s0_main_v104 (WK : ValK F) :
    after Cert.KernelIdeal.Gen.main_part4_ops0 WK (Proc.devRef .tc Cert.KernelIdeal.main_v104) = WK (Proc.devRef .tc Cert.KernelIdeal.main_v104) := by
  keep_step Cert.KernelIdeal.Gen.main_part4_ops0
theorem keepR_w4_s0_main_v104 (WR : ValR F) :
    after Cert.ReferenceIdeal.Hand.w4_s0 WR (Proc.devRef .tc Cert.ReferenceIdeal.main_v104) = WR (Proc.devRef .tc Cert.ReferenceIdeal.main_v104) := by
  keep_step Cert.ReferenceIdeal.Hand.w4_s0
theorem keepK_w4_s0_main_v125 (WK : ValK F) :
    after Cert.KernelIdeal.Gen.main_part4_ops0 WK (Proc.devRef .tc Cert.KernelIdeal.main_v125) = WK (Proc.devRef .tc Cert.KernelIdeal.main_v125) := by
  keep_step Cert.KernelIdeal.Gen.main_part4_ops0
theorem keepR_w4_s0_main_v125 (WR : ValR F) :
    after Cert.ReferenceIdeal.Hand.w4_s0 WR (Proc.devRef .tc Cert.ReferenceIdeal.main_v125) = WR (Proc.devRef .tc Cert.ReferenceIdeal.main_v125) := by
  keep_step Cert.ReferenceIdeal.Hand.w4_s0
theorem phiK_w4_s0_main_v146 (WK : ValK F) :
    @Eq ((⟨S16x3x164, .f32⟩ : BufTy).Contents (Elt F)) (after Cert.KernelIdeal.Gen.main_part4_ops0 WK (Proc.devRef .tc Cert.KernelIdeal.main_v146))
      (phi_w4_s0_main_v146 (WK (Proc.devRef .tc Cert.KernelIdeal.main_arg7)) (WK (Proc.devRef .tc Cert.KernelIdeal.main_v130)) (WK (Proc.devRef .tc Cert.KernelIdeal.main_v131)) (WK (Proc.devRef .tc Cert.KernelIdeal.main_c_105)) (WK (Proc.devRef .tc Cert.KernelIdeal.main_c_106))) := by
  phi_step Cert.KernelIdeal.Gen.main_part4_ops0 phi_w4_s0_main_v146
theorem phiR_w4_s0_main_v146 (WR : ValR F) :
    @Eq ((⟨S16x3x164, .f32⟩ : BufTy).Contents (Elt F)) (after Cert.ReferenceIdeal.Hand.w4_s0 WR (Proc.devRef .tc Cert.ReferenceIdeal.main_v146))
      (phi_w4_s0_main_v146 (WR (Proc.devRef .tc Cert.ReferenceIdeal.main_arg7)) (WR (Proc.devRef .tc Cert.ReferenceIdeal.main_v130)) (WR (Proc.devRef .tc Cert.ReferenceIdeal.main_v131)) (WR (Proc.devRef .tc Cert.ReferenceIdeal.main_c_105)) (WR (Proc.devRef .tc Cert.ReferenceIdeal.main_c_106))) := by
  phi_step Cert.ReferenceIdeal.Hand.w4_s0 phi_w4_s0_main_v146
theorem phiK_w4_s0_main_v160 (WK : ValK F) :
    @Eq ((⟨S_, .i32⟩ : BufTy).Contents (Elt F)) (after Cert.KernelIdeal.Gen.main_part4_ops0 WK (Proc.devRef .tc Cert.KernelIdeal.main_v160))
      (phi_w4_s0_main_v160) := by
  phi_step Cert.KernelIdeal.Gen.main_part4_ops0 phi_w4_s0_main_v160
theorem phiR_w4_s0_main_v160 (WR : ValR F) :
    @Eq ((⟨S_, .i32⟩ : BufTy).Contents (Elt F)) (after Cert.ReferenceIdeal.Hand.w4_s0 WR (Proc.devRef .tc Cert.ReferenceIdeal.main_v160))
      (phi_w4_s0_main_v160) := by
  phi_step Cert.ReferenceIdeal.Hand.w4_s0 phi_w4_s0_main_v160
theorem phiK_w4_s0_main_v161 (WK : ValK F) :
    @Eq ((⟨S16x1, .i32⟩ : BufTy).Contents (Elt F)) (after Cert.KernelIdeal.Gen.main_part4_ops0 WK (Proc.devRef .tc Cert.KernelIdeal.main_v161))
      (phi_w4_s0_main_v161 (WK (Proc.devRef .tc Cert.KernelIdeal.main_arg9))) := by
  phi_step Cert.KernelIdeal.Gen.main_part4_ops0 phi_w4_s0_main_v161
theorem phiR_w4_s0_main_v161 (WR : ValR F) :
    @Eq ((⟨S16x1, .i32⟩ : BufTy).Contents (Elt F)) (after Cert.ReferenceIdeal.Hand.w4_s0 WR (Proc.devRef .tc Cert.ReferenceIdeal.main_v161))
      (phi_w4_s0_main_v161 (WR (Proc.devRef .tc Cert.ReferenceIdeal.main_arg9))) := by
  phi_step Cert.ReferenceIdeal.Hand.w4_s0 phi_w4_s0_main_v161
theorem phiK_w4_s0_main_v162 (WK : ValK F) :
    @Eq ((⟨S16x1, .i32⟩ : BufTy).Contents (Elt F)) (after Cert.KernelIdeal.Gen.main_part4_ops0 WK (Proc.devRef .tc Cert.KernelIdeal.main_v162))
      (phi_w4_s0_main_v162) := by
  phi_step Cert.KernelIdeal.Gen.main_part4_ops0 phi_w4_s0_main_v162
theorem phiR_w4_s0_main_v162 (WR : ValR F) :
    @Eq ((⟨S16x1, .i32⟩ : BufTy).Contents (Elt F)) (after Cert.ReferenceIdeal.Hand.w4_s0 WR (Proc.devRef .tc Cert.ReferenceIdeal.main_v162))
      (phi_w4_s0_main_v162) := by
  phi_step Cert.ReferenceIdeal.Hand.w4_s0 phi_w4_s0_main_v162
theorem phiK_w4_s0_main_v163 (WK : ValK F) :
    @Eq ((⟨S16x1, .i32⟩ : BufTy).Contents (Elt F)) (after Cert.KernelIdeal.Gen.main_part4_ops0 WK (Proc.devRef .tc Cert.KernelIdeal.main_v163))
      (phi_w4_s0_main_v163) := by
  phi_step Cert.KernelIdeal.Gen.main_part4_ops0 phi_w4_s0_main_v163
theorem phiR_w4_s0_main_v163 (WR : ValR F) :
    @Eq ((⟨S16x1, .i32⟩ : BufTy).Contents (Elt F)) (after Cert.ReferenceIdeal.Hand.w4_s0 WR (Proc.devRef .tc Cert.ReferenceIdeal.main_v163))
      (phi_w4_s0_main_v163) := by
  phi_step Cert.ReferenceIdeal.Hand.w4_s0 phi_w4_s0_main_v163

theorem sim_w4_s0 (WK : ValK F) (WR : ValR F) (h : Inv4 WK WR) :
    Inv5 (after Cert.KernelIdeal.Gen.main_part4_ops0 WK) (after Cert.ReferenceIdeal.Hand.w4_s0 WR) := by
  sim_step h Inv4 Inv5 [keepK_w4_s0_main_arg8, keepR_w4_s0_main_arg8, keepK_w4_s0_main_arg10, keepR_w4_s0_main_arg10, keepK_w4_s0_main_arg11, keepR_w4_s0_main_arg11, keepK_w4_s0_main_v20, keepR_w4_s0_main_v20, keepK_w4_s0_main_v41, keepR_w4_s0_main_v41, keepK_w4_s0_main_v62, keepR_w4_s0_main_v62, keepK_w4_s0_main_v83, keepR_w4_s0_main_v83, keepK_w4_s0_main_v104, keepR_w4_s0_main_v104, keepK_w4_s0_main_v125, keepR_w4_s0_main_v125, phiK_w4_s0_main_v146, phiR_w4_s0_main_v146, phiK_w4_s0_main_v160, phiR_w4_s0_main_v160, phiK_w4_s0_main_v161, phiR_w4_s0_main_v161, phiK_w4_s0_main_v162, phiR_w4_s0_main_v162, phiK_w4_s0_main_v163, phiR_w4_s0_main_v163]

end Cert.PromptBridge

end
-- ==== Proof.PromptBridgePhi5.lean ====
import proofs.«144763_j39642548142243_2_alg».proof.Proof.PromptBridgeBase

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

/-- main_v167 after stretch w5_s0, from the contents before it. -/
def phi_w5_s0_main_v167 (t_main_arg8 : (⟨S3x3x164x10, .f32⟩ : BufTy).Contents (Elt F)) (t_main_v160 : (⟨S_, .i32⟩ : BufTy).Contents (Elt F)) (t_main_v161 : (⟨S16x1, .i32⟩ : BufTy).Contents (Elt F)) (t_main_v162 : (⟨S16x1, .i32⟩ : BufTy).Contents (Elt F)) (t_main_v163 : (⟨S16x1, .i32⟩ : BufTy).Contents (Elt F)) : (⟨S16x3x164x10, .f32⟩ : BufTy).Contents (Elt F) :=
  let t_main_v164 : (⟨S16x1, .i32⟩ : BufTy).Contents (Elt F) := (broadcastInDim S16x1 ![] bcast_S_S16x1 : (⟨S_, .i32⟩ : BufTy).Contents (Elt F) → (⟨S16x1, .i32⟩ : BufTy).Contents (Elt F)) t_main_v160
  let t_main_v165 : (⟨S16x4, .i32⟩ : BufTy).Contents (Elt F) := concatenate S16x4 1 [⟨S16x1, t_main_v161⟩, ⟨S16x1, t_main_v162⟩, ⟨S16x1, t_main_v163⟩, ⟨S16x1, t_main_v164⟩] concatenates_S16x1_S16x1_S16x1_S16x1_S16x4_d1
  let t_main_v166 : (⟨S16x1x3x164x10, .f32⟩ : BufTy).Contents (Elt F) := ((fun x i => Host.gather gather_S3x3x164x10_S16x4_S16x1x3x164x10_1234_n_n_n_0123_1_1316410 x i) : (⟨S3x3x164x10, .f32⟩ : BufTy).Contents (Elt F) → (⟨S16x4, .i32⟩ : BufTy).Contents (Elt F) → (⟨S16x1x3x164x10, .f32⟩ : BufTy).Contents (Elt F)) t_main_arg8 t_main_v165
  let t_main_v167 : (⟨S16x3x164x10, .f32⟩ : BufTy).Contents (Elt F) := (fun i => shapeCast S16x3x164x10 t_main_v166 shapeCasts_S16x1x3x164x10_S16x3x164x10 i)
  t_main_v167

/-- main_v169 after stretch w5_s0, from the contents before it. -/
def phi_w5_s0_main_v169 (t_main_arg10 : (⟨S16, .i32⟩ : BufTy).Contents (Elt F)) : (⟨S16, .i32⟩ : BufTy).Contents (Elt F) :=
  let t_main_c_135 : (⟨S_, .i32⟩ : BufTy).Contents (Elt F) := (constantI S_ 32 60#32)
  let t_main_v168 : (⟨S16, .i32⟩ : BufTy).Contents (Elt F) := (broadcastInDim S16 ![] bcast_S_S16 : (⟨S_, .i32⟩ : BufTy).Contents (Elt F) → (⟨S16, .i32⟩ : BufTy).Contents (Elt F)) t_main_c_135
  let t_main_v169 : (⟨S16, .i32⟩ : BufTy).Contents (Elt F) := (subi : (⟨S16, .i32⟩ : BufTy).Contents (Elt F) → (⟨S16, .i32⟩ : BufTy).Contents (Elt F) → (⟨S16, .i32⟩ : BufTy).Contents (Elt F)) t_main_v168 t_main_arg10
  t_main_v169

/-- main_v171 after stretch w5_s0, from the contents before it. -/
def phi_w5_s0_main_v171 (t_main_arg11 : (⟨S16, .i32⟩ : BufTy).Contents (Elt F)) : (⟨S16, .i32⟩ : BufTy).Contents (Elt F) :=
  let t_main_c_136 : (⟨S_, .i32⟩ : BufTy).Contents (Elt F) := (constantI S_ 32 60#32)
  let t_main_v170 : (⟨S16, .i32⟩ : BufTy).Contents (Elt F) := (broadcastInDim S16 ![] bcast_S_S16 : (⟨S_, .i32⟩ : BufTy).Contents (Elt F) → (⟨S16, .i32⟩ : BufTy).Contents (Elt F)) t_main_c_136
  let t_main_v171 : (⟨S16, .i32⟩ : BufTy).Contents (Elt F) := (subi : (⟨S16, .i32⟩ : BufTy).Contents (Elt F) → (⟨S16, .i32⟩ : BufTy).Contents (Elt F) → (⟨S16, .i32⟩ : BufTy).Contents (Elt F)) t_main_v170 t_main_arg11
  t_main_v171

/-- main_c_137 after stretch w5_s0, from the contents before it. -/
def phi_w5_s0_main_c_137  : (⟨S_, .i32⟩ : BufTy).Contents (Elt F) :=
  let t_main_c_137 : (⟨S_, .i32⟩ : BufTy).Contents (Elt F) := (constantI S_ 32 10#32)
  t_main_c_137

/-- main_v172 after stretch w5_s1, from the contents before it. -/
def phi_w5_s1_main_v172 (t_main_v169 : (⟨S16, .i32⟩ : BufTy).Contents (Elt F)) (t_main_c_137 : (⟨S_, .i32⟩ : BufTy).Contents (Elt F)) : (⟨S16, .i32⟩ : BufTy).Contents (Elt F) :=
  let t_main_call0_v0 : (⟨S_, .i32⟩ : BufTy).Contents (Elt F) := (id) t_main_c_137
  let t_main_call0_v1 : (⟨S16, .i32⟩ : BufTy).Contents (Elt F) := (broadcastInDim S16 ![] bcast_S_S16) t_main_call0_v0
  let t_main_call0_v2 : (⟨S16, .i32⟩ : BufTy).Contents (Elt F) := (Host.divsi) t_main_v169 t_main_call0_v1
  let t_main_call0_v3 : (⟨S16, .i32⟩ : BufTy).Contents (Elt F) := (signi) t_main_v169
  let t_main_call0_v4 : (⟨S_, .i32⟩ : BufTy).Contents (Elt F) := (signi) t_main_call0_v0
  let t_main_call0_v5 : (⟨S16, .i32⟩ : BufTy).Contents (Elt F) := (broadcastInDim S16 ![] bcast_S_S16) t_main_call0_v4
  let t_main_call0_v6 : (⟨S16, .i1⟩ : BufTy).Contents (Elt F) := (cmpi .ne) t_main_call0_v3 t_main_call0_v5
  let t_main_call0_v7 : (⟨S16, .i32⟩ : BufTy).Contents (Elt F) := (broadcastInDim S16 ![] bcast_S_S16) t_main_call0_v0
  let t_main_call0_v8 : (⟨S16, .i32⟩ : BufTy).Contents (Elt F) := (Host.remsi) t_main_v169 t_main_call0_v7
  let t_main_call0_c : (⟨S_, .i32⟩ : BufTy).Contents (Elt F) := (constantI S_ 32 0#32)
  let t_main_call0_v9 : (⟨S16, .i32⟩ : BufTy).Contents (Elt F) := (broadcastInDim S16 ![] bcast_S_S16) t_main_call0_c
  let t_main_call0_v10 : (⟨S16, .i1⟩ : BufTy).Contents (Elt F) := (cmpi .ne) t_main_call0_v8 t_main_call0_v9
  let t_main_call0_v11 : (⟨S16, .i1⟩ : BufTy).Contents (Elt F) := (andi) t_main_call0_v6 t_main_call0_v10
  let t_main_call0_c_0 : (⟨S_, .i32⟩ : BufTy).Contents (Elt F) := (constantI S_ 32 1#32)
  let t_main_call0_v12 : (⟨S16, .i32⟩ : BufTy).Contents (Elt F) := (broadcastInDim S16 ![] bcast_S_S16) t_main_call0_c_0
  let t_main_call0_v13 : (⟨S16, .i32⟩ : BufTy).Contents (Elt F) := (subi) t_main_call0_v2 t_main_call0_v12
  let t_main_v172 : (⟨S16, .i32⟩ : BufTy).Contents (Elt F) := (select) t_main_call0_v11 t_main_call0_v13 t_main_call0_v2
  t_main_v172

/-- main_c_138 after stretch w5_s2, from the contents before it. -/
def phi_w5_s2_main_c_138  : (⟨S_, .i32⟩ : BufTy).Contents (Elt F) :=
  let t_main_c_138 : (⟨S_, .i32⟩ : BufTy).Contents (Elt F) := (constantI S_ 32 10#32)
  t_main_c_138

/-- main_c_139 after stretch w5_s4, from the contents before it. -/
def phi_w5_s4_main_c_139  : (⟨S_, .i32⟩ : BufTy).Contents (Elt F) :=
  let t_main_c_139 : (⟨S_, .i32⟩ : BufTy).Contents (Elt F) := (constantI S_ 32 10#32)
  t_main_c_139

/-- main_v174 after stretch w5_s5, from the contents before it. -/
def phi_w5_s5_main_v174 (t_main_v171 : (⟨S16, .i32⟩ : BufTy).Contents (Elt F)) (t_main_c_139 : (⟨S_, .i32⟩ : BufTy).Contents (Elt F)) : (⟨S16, .i32⟩ : BufTy).Contents (Elt F) :=
  let t_main_call2_v0 : (⟨S_, .i32⟩ : BufTy).Contents (Elt F) := (id) t_main_c_139
  let t_main_call2_v1 : (⟨S16, .i32⟩ : BufTy).Contents (Elt F) := (broadcastInDim S16 ![] bcast_S_S16) t_main_call2_v0
  let t_main_call2_v2 : (⟨S16, .i32⟩ : BufTy).Contents (Elt F) := (Host.divsi) t_main_v171 t_main_call2_v1
  let t_main_call2_v3 : (⟨S16, .i32⟩ : BufTy).Contents (Elt F) := (signi) t_main_v171
  let t_main_call2_v4 : (⟨S_, .i32⟩ : BufTy).Contents (Elt F) := (signi) t_main_call2_v0
  let t_main_call2_v5 : (⟨S16, .i32⟩ : BufTy).Contents (Elt F) := (broadcastInDim S16 ![] bcast_S_S16) t_main_call2_v4
  let t_main_call2_v6 : (⟨S16, .i1⟩ : BufTy).Contents (Elt F) := (cmpi .ne) t_main_call2_v3 t_main_call2_v5
  let t_main_call2_v7 : (⟨S16, .i32⟩ : BufTy).Contents (Elt F) := (broadcastInDim S16 ![] bcast_S_S16) t_main_call2_v0
  let t_main_call2_v8 : (⟨S16, .i32⟩ : BufTy).Contents (Elt F) := (Host.remsi) t_main_v171 t_main_call2_v7
  let t_main_call2_c : (⟨S_, .i32⟩ : BufTy).Contents (Elt F) := (constantI S_ 32 0#32)
  let t_main_call2_v9 : (⟨S16, .i32⟩ : BufTy).Contents (Elt F) := (broadcastInDim S16 ![] bcast_S_S16) t_main_call2_c
  let t_main_call2_v10 : (⟨S16, .i1⟩ : BufTy).Contents (Elt F) := (cmpi .ne) t_main_call2_v8 t_main_call2_v9
  let t_main_call2_v11 : (⟨S16, .i1⟩ : BufTy).Contents (Elt F) := (andi) t_main_call2_v6 t_main_call2_v10
  let t_main_call2_c_0 : (⟨S_, .i32⟩ : BufTy).Contents (Elt F) := (constantI S_ 32 1#32)
  let t_main_call2_v12 : (⟨S16, .i32⟩ : BufTy).Contents (Elt F) := (broadcastInDim S16 ![] bcast_S_S16) t_main_call2_c_0
  let t_main_call2_v13 : (⟨S16, .i32⟩ : BufTy).Contents (Elt F) := (subi) t_main_call2_v2 t_main_call2_v12
  let t_main_v174 : (⟨S16, .i32⟩ : BufTy).Contents (Elt F) := (select) t_main_call2_v11 t_main_call2_v13 t_main_call2_v2
  t_main_v174

/-- main_c_140 after stretch w5_s6, from the contents before it. -/
def phi_w5_s6_main_c_140  : (⟨S_, .i32⟩ : BufTy).Contents (Elt F) :=
  let t_main_c_140 : (⟨S_, .i32⟩ : BufTy).Contents (Elt F) := (constantI S_ 32 10#32)
  t_main_c_140

/-- main_c_141 after stretch w5_s8, from the contents before it. -/
def phi_w5_s8_main_c_141  : (⟨S_, .i32⟩ : BufTy).Contents (Elt F) :=
  let t_main_c_141 : (⟨S_, .i32⟩ : BufTy).Contents (Elt F) := (constantI S_ 32 10#32)
  t_main_c_141

/-- main_v176 after stretch w5_s9, from the contents before it. -/
def phi_w5_s9_main_v176 (t_main_arg10 : (⟨S16, .i32⟩ : BufTy).Contents (Elt F)) (t_main_c_141 : (⟨S_, .i32⟩ : BufTy).Contents (Elt F)) : (⟨S16, .i32⟩ : BufTy).Contents (Elt F) :=
  let t_main_call4_v0 : (⟨S_, .i32⟩ : BufTy).Contents (Elt F) := (id) t_main_c_141
  let t_main_call4_c : (⟨S_, .i32⟩ : BufTy).Contents (Elt F) := (constantI S_ 32 0#32)
  let t_main_call4_v1 : (⟨S_, .i1⟩ : BufTy).Contents (Elt F) := (cmpi .eq) t_main_call4_v0 t_main_call4_c
  let t_main_call4_c_0 : (⟨S_, .i32⟩ : BufTy).Contents (Elt F) := (constantI S_ 32 1#32)
  let t_main_call4_v2 : (⟨S_, .i32⟩ : BufTy).Contents (Elt F) := (select) t_main_call4_v1 t_main_call4_c_0 t_main_call4_v0
  let t_main_call4_v3 : (⟨S16, .i32⟩ : BufTy).Contents (Elt F) := (broadcastInDim S16 ![] bcast_S_S16) t_main_call4_v2
  let t_main_call4_v4 : (⟨S16, .i32⟩ : BufTy).Contents (Elt F) := (Host.remsi) t_main_arg10 t_main_call4_v3
  let t_main_call4_c_1 : (⟨S_, .i32⟩ : BufTy).Contents (Elt F) := (constantI S_ 32 0#32)
  let t_main_call4_v5 : (⟨S16, .i32⟩ : BufTy).Contents (Elt F) := (broadcastInDim S16 ![] bcast_S_S16) t_main_call4_c_1
  let t_main_call4_v6 : (⟨S16, .i1⟩ : BufTy).Contents (Elt F) := (cmpi .ne) t_main_call4_v4 t_main_call4_v5
  let t_main_call4_c_2 : (⟨S_, .i32⟩ : BufTy).Contents (Elt F) := (constantI S_ 32 0#32)
  let t_main_call4_v7 : (⟨S16, .i32⟩ : BufTy).Contents (Elt F) := (broadcastInDim S16 ![] bcast_S_S16) t_main_call4_c_2
  let t_main_call4_v8 : (⟨S16, .i1⟩ : BufTy).Contents (Elt F) := (cmpi .slt) t_main_call4_v4 t_main_call4_v7
  let t_main_call4_c_3 : (⟨S_, .i32⟩ : BufTy).Contents (Elt F) := (constantI S_ 32 0#32)
  let t_main_call4_v9 : (⟨S_, .i1⟩ : BufTy).Contents (Elt F) := (cmpi .slt) t_main_call4_v2 t_main_call4_c_3
  let t_main_call4_v10 : (⟨S16, .i1⟩ : BufTy).Contents (Elt F) := (broadcastInDim S16 ![] bcast_S_S16) t_main_call4_v9
  let t_main_call4_v11 : (⟨S16, .i1⟩ : BufTy).Contents (Elt F) := (cmpi .ne) t_main_call4_v8 t_main_call4_v10
  let t_main_call4_v12 : (⟨S16, .i1⟩ : BufTy).Contents (Elt F) := (andi) t_main_call4_v11 t_main_call4_v6
  let t_main_call4_v13 : (⟨S16, .i32⟩ : BufTy).Contents (Elt F) := (broadcastInDim S16 ![] bcast_S_S16) t_main_call4_v2
  let t_main_call4_v14 : (⟨S16, .i32⟩ : BufTy).Contents (Elt F) := (addi) t_main_call4_v4 t_main_call4_v13
  let t_main_v176 : (⟨S16, .i32⟩ : BufTy).Contents (Elt F) := (select) t_main_call4_v12 t_main_call4_v14 t_main_call4_v4
  t_main_v176

/-- main_c_142 after stretch w5_s10, from the contents before it. -/
def phi_w5_s10_main_c_142  : (⟨S_, .i32⟩ : BufTy).Contents (Elt F) :=
  let t_main_c_142 : (⟨S_, .i32⟩ : BufTy).Contents (Elt F) := (constantI S_ 32 10#32)
  t_main_c_142

/-- main_v177 after stretch w5_s11, from the contents before it. -/
def phi_w5_s11_main_v177 (t_main_arg11 : (⟨S16, .i32⟩ : BufTy).Contents (Elt F)) (t_main_c_142 : (⟨S_, .i32⟩ : BufTy).Contents (Elt F)) : (⟨S16, .i32⟩ : BufTy).Contents (Elt F) :=
  let t_main_call5_v0 : (⟨S_, .i32⟩ : BufTy).Contents (Elt F) := (id) t_main_c_142
  let t_main_call5_c : (⟨S_, .i32⟩ : BufTy).Contents (Elt F) := (constantI S_ 32 0#32)
  let t_main_call5_v1 : (⟨S_, .i1⟩ : BufTy).Contents (Elt F) := (cmpi .eq) t_main_call5_v0 t_main_call5_c
  let t_main_call5_c_0 : (⟨S_, .i32⟩ : BufTy).Contents (Elt F) := (constantI S_ 32 1#32)
  let t_main_call5_v2 : (⟨S_, .i32⟩ : BufTy).Contents (Elt F) := (select) t_main_call5_v1 t_main_call5_c_0 t_main_call5_v0
  let t_main_call5_v3 : (⟨S16, .i32⟩ : BufTy).Contents (Elt F) := (broadcastInDim S16 ![] bcast_S_S16) t_main_call5_v2
  let t_main_call5_v4 : (⟨S16, .i32⟩ : BufTy).Contents (Elt F) := (Host.remsi) t_main_arg11 t_main_call5_v3
  let t_main_call5_c_1 : (⟨S_, .i32⟩ : BufTy).Contents (Elt F) := (constantI S_ 32 0#32)
  let t_main_call5_v5 : (⟨S16, .i32⟩ : BufTy).Contents (Elt F) := (broadcastInDim S16 ![] bcast_S_S16) t_main_call5_c_1
  let t_main_call5_v6 : (⟨S16, .i1⟩ : BufTy).Contents (Elt F) := (cmpi .ne) t_main_call5_v4 t_main_call5_v5
  let t_main_call5_c_2 : (⟨S_, .i32⟩ : BufTy).Contents (Elt F) := (constantI S_ 32 0#32)
  let t_main_call5_v7 : (⟨S16, .i32⟩ : BufTy).Contents (Elt F) := (broadcastInDim S16 ![] bcast_S_S16) t_main_call5_c_2
  let t_main_call5_v8 : (⟨S16, .i1⟩ : BufTy).Contents (Elt F) := (cmpi .slt) t_main_call5_v4 t_main_call5_v7
  let t_main_call5_c_3 : (⟨S_, .i32⟩ : BufTy).Contents (Elt F) := (constantI S_ 32 0#32)
  let t_main_call5_v9 : (⟨S_, .i1⟩ : BufTy).Contents (Elt F) := (cmpi .slt) t_main_call5_v2 t_main_call5_c_3
  let t_main_call5_v10 : (⟨S16, .i1⟩ : BufTy).Contents (Elt F) := (broadcastInDim S16 ![] bcast_S_S16) t_main_call5_v9
  let t_main_call5_v11 : (⟨S16, .i1⟩ : BufTy).Contents (Elt F) := (cmpi .ne) t_main_call5_v8 t_main_call5_v10
  let t_main_call5_v12 : (⟨S16, .i1⟩ : BufTy).Contents (Elt F) := (andi) t_main_call5_v11 t_main_call5_v6
  let t_main_call5_v13 : (⟨S16, .i32⟩ : BufTy).Contents (Elt F) := (broadcastInDim S16 ![] bcast_S_S16) t_main_call5_v2
  let t_main_call5_v14 : (⟨S16, .i32⟩ : BufTy).Contents (Elt F) := (addi) t_main_call5_v4 t_main_call5_v13
  let t_main_v177 : (⟨S16, .i32⟩ : BufTy).Contents (Elt F) := (select) t_main_call5_v12 t_main_call5_v14 t_main_call5_v4
  t_main_v177

/-- main_v178 after stretch w5_s12, from the contents before it. -/
def phi_w5_s12_main_v178  : (⟨S224, .i32⟩ : BufTy).Contents (Elt F) :=
  let t_main_v178 : (⟨S224, .i32⟩ : BufTy).Contents (Elt F) := (iotaInDim S224 32 0)
  t_main_v178

/-- main_v179 after stretch w5_s12, from the contents before it. -/
def phi_w5_s12_main_v179  : (⟨S224, .i32⟩ : BufTy).Contents (Elt F) :=
  let t_main_v179 : (⟨S224, .i32⟩ : BufTy).Contents (Elt F) := (iotaInDim S224 32 0)
  t_main_v179

/-- main_v180 after stretch w5_s12, from the contents before it. -/
def phi_w5_s12_main_v180  : (⟨S224x1, .i32⟩ : BufTy).Contents (Elt F) :=
  let t_main_v178 : (⟨S224, .i32⟩ : BufTy).Contents (Elt F) := (iotaInDim S224 32 0)
  let t_main_v180 : (⟨S224x1, .i32⟩ : BufTy).Contents (Elt F) := (broadcastInDim S224x1 ![0] bcast_S224_S224x1_0 : (⟨S224, .i32⟩ : BufTy).Contents (Elt F) → (⟨S224x1, .i32⟩ : BufTy).Contents (Elt F)) t_main_v178
  t_main_v180

/-- main_v181 after stretch w5_s12, from the contents before it. -/
def phi_w5_s12_main_v181  : (⟨S1x224, .i32⟩ : BufTy).Contents (Elt F) :=
  let t_main_v179 : (⟨S224, .i32⟩ : BufTy).Contents (Elt F) := (iotaInDim S224 32 0)
  let t_main_v181 : (⟨S1x224, .i32⟩ : BufTy).Contents (Elt F) := (broadcastInDim S1x224 ![1] bcast_S224_S1x224_1 : (⟨S224, .i32⟩ : BufTy).Contents (Elt F) → (⟨S1x224, .i32⟩ : BufTy).Contents (Elt F)) t_main_v179
  t_main_v181

/-- main_v188 after stretch w5_s12, from the contents before it. -/
def phi_w5_s12_main_v188 (t_main_v174 : (⟨S16, .i32⟩ : BufTy).Contents (Elt F)) : (⟨S16x224x1, .i1⟩ : BufTy).Contents (Elt F) :=
  let t_main_v178 : (⟨S224, .i32⟩ : BufTy).Contents (Elt F) := (iotaInDim S224 32 0)
  let t_main_v180 : (⟨S224x1, .i32⟩ : BufTy).Contents (Elt F) := (broadcastInDim S224x1 ![0] bcast_S224_S224x1_0 : (⟨S224, .i32⟩ : BufTy).Contents (Elt F) → (⟨S224x1, .i32⟩ : BufTy).Contents (Elt F)) t_main_v178
  let t_main_c_143 : (⟨S_, .i32⟩ : BufTy).Contents (Elt F) := (constantI S_ 32 10#32)
  let t_main_v182 : (⟨S16, .i32⟩ : BufTy).Contents (Elt F) := (broadcastInDim S16 ![] bcast_S_S16 : (⟨S_, .i32⟩ : BufTy).Contents (Elt F) → (⟨S16, .i32⟩ : BufTy).Contents (Elt F)) t_main_c_143
  let t_main_v183 : (⟨S16, .i32⟩ : BufTy).Contents (Elt F) := (muli : (⟨S16, .i32⟩ : BufTy).Contents (Elt F) → (⟨S16, .i32⟩ : BufTy).Contents (Elt F) → (⟨S16, .i32⟩ : BufTy).Contents (Elt F)) t_main_v174 t_main_v182
  let t_main_v184 : (⟨S1x224x1, .i32⟩ : BufTy).Contents (Elt F) := (broadcastInDim S1x224x1 ![1, 2] bcast_S224x1_S1x224x1_1_2 : (⟨S224x1, .i32⟩ : BufTy).Contents (Elt F) → (⟨S1x224x1, .i32⟩ : BufTy).Contents (Elt F)) t_main_v180
  let t_main_v185 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v183
  let t_main_v186 : (⟨S16x224x1, .i32⟩ : BufTy).Contents (Elt F) := (broadcastInDim S16x224x1 ![0, 1, 2] bcast_S1x224x1_S16x224x1_0_1_2 : (⟨S1x224x1, .i32⟩ : BufTy).Contents (Elt F) → (⟨S16x224x1, .i32⟩ : BufTy).Contents (Elt F)) t_main_v184
  let t_main_v187 : (⟨S16x224x1, .i32⟩ : BufTy).Contents (Elt F) := (broadcastInDim S16x224x1 ![0, 1, 2] bcast_S16x1x1_S16x224x1_0_1_2 : (⟨S16x1x1, .i32⟩ : BufTy).Contents (Elt F) → (⟨S16x224x1, .i32⟩ : BufTy).Contents (Elt F)) t_main_v185
  let t_main_v188 : (⟨S16x224x1, .i1⟩ : BufTy).Contents (Elt F) := (cmpi .slt : (⟨S16x224x1, .i32⟩ : BufTy).Contents (Elt F) → (⟨S16x224x1, .i32⟩ : BufTy).Contents (Elt F) → (⟨S16x224x1, .i1⟩ : BufTy).Contents (Elt F)) t_main_v186 t_main_v187
  t_main_v188

/-- main_c_144 after stretch w5_s12, from the contents before it. -/
def phi_w5_s12_main_c_144  : (⟨S_, .i32⟩ : BufTy).Contents (Elt F) :=
  let t_main_c_144 : (⟨S_, .i32⟩ : BufTy).Contents (Elt F) := (constantI S_ 32 10#32)
  t_main_c_144

/-- main_v189 after stretch w5_s13, from the contents before it. -/
def phi_w5_s13_main_v189 (t_main_v178 : (⟨S224, .i32⟩ : BufTy).Contents (Elt F)) (t_main_c_144 : (⟨S_, .i32⟩ : BufTy).Contents (Elt F)) : (⟨S224, .i32⟩ : BufTy).Contents (Elt F) :=
  let t_main_call6_v0 : (⟨S_, .i32⟩ : BufTy).Contents (Elt F) := (id) t_main_c_144
  let t_main_call6_c : (⟨S_, .i32⟩ : BufTy).Contents (Elt F) := (constantI S_ 32 0#32)
  let t_main_call6_v1 : (⟨S_, .i1⟩ : BufTy).Contents (Elt F) := (cmpi .eq) t_main_call6_v0 t_main_call6_c
  let t_main_call6_c_0 : (⟨S_, .i32⟩ : BufTy).Contents (Elt F) := (constantI S_ 32 1#32)
  let t_main_call6_v2 : (⟨S_, .i32⟩ : BufTy).Contents (Elt F) := (select) t_main_call6_v1 t_main_call6_c_0 t_main_call6_v0
  let t_main_call6_v3 : (⟨S224, .i32⟩ : BufTy).Contents (Elt F) := (broadcastInDim S224 ![] bcast_S_S224) t_main_call6_v2
  let t_main_call6_v4 : (⟨S224, .i32⟩ : BufTy).Contents (Elt F) := (Host.remsi) t_main_v178 t_main_call6_v3
  let t_main_call6_c_1 : (⟨S_, .i32⟩ : BufTy).Contents (Elt F) := (constantI S_ 32 0#32)
  let t_main_call6_v5 : (⟨S224, .i32⟩ : BufTy).Contents (Elt F) := (broadcastInDim S224 ![] bcast_S_S224) t_main_call6_c_1
  let t_main_call6_v6 : (⟨S224, .i1⟩ : BufTy).Contents (Elt F) := (cmpi .ne) t_main_call6_v4 t_main_call6_v5
  let t_main_call6_c_2 : (⟨S_, .i32⟩ : BufTy).Contents (Elt F) := (constantI S_ 32 0#32)
  let t_main_call6_v7 : (⟨S224, .i32⟩ : BufTy).Contents (Elt F) := (broadcastInDim S224 ![] bcast_S_S224) t_main_call6_c_2
  let t_main_call6_v8 : (⟨S224, .i1⟩ : BufTy).Contents (Elt F) := (cmpi .slt) t_main_call6_v4 t_main_call6_v7
  let t_main_call6_c_3 : (⟨S_, .i32⟩ : BufTy).Contents (Elt F) := (constantI S_ 32 0#32)
  let t_main_call6_v9 : (⟨S_, .i1⟩ : BufTy).Contents (Elt F) := (cmpi .slt) t_main_call6_v2 t_main_call6_c_3
  let t_main_call6_v10 : (⟨S224, .i1⟩ : BufTy).Contents (Elt F) := (broadcastInDim S224 ![] bcast_S_S224) t_main_call6_v9
  let t_main_call6_v11 : (⟨S224, .i1⟩ : BufTy).Contents (Elt F) := (cmpi .ne) t_main_call6_v8 t_main_call6_v10
  let t_main_call6_v12 : (⟨S224, .i1⟩ : BufTy).Contents (Elt F) := (andi) t_main_call6_v11 t_main_call6_v6
  let t_main_call6_v13 : (⟨S224, .i32⟩ : BufTy).Contents (Elt F) := (broadcastInDim S224 ![] bcast_S_S224) t_main_call6_v2
  let t_main_call6_v14 : (⟨S224, .i32⟩ : BufTy).Contents (Elt F) := (addi) t_main_call6_v4 t_main_call6_v13
  let t_main_v189 : (⟨S224, .i32⟩ : BufTy).Contents (Elt F) := (select) t_main_call6_v12 t_main_call6_v14 t_main_call6_v4
  t_main_v189

/-- main_v196 after stretch w5_s14, from the contents before it. -/
def phi_w5_s14_main_v196 (t_main_v41 : (⟨S16x3x10x224, .f32⟩ : BufTy).Contents (Elt F)) (t_main_v189 : (⟨S224, .i32⟩ : BufTy).Contents (Elt F)) : (⟨S16x3x224x224, .f32⟩ : BufTy).Contents (Elt F) :=
  let t_main_c_145 : (⟨S_, .i32⟩ : BufTy).Contents (Elt F) := (constantI S_ 32 0#32)
  let t_main_v190 : (⟨S224, .i32⟩ : BufTy).Contents (Elt F) := (broadcastInDim S224 ![] bcast_S_S224 : (⟨S_, .i32⟩ : BufTy).Contents (Elt F) → (⟨S224, .i32⟩ : BufTy).Contents (Elt F)) t_main_c_145
  let t_main_v191 : (⟨S224, .i1⟩ : BufTy).Contents (Elt F) := (cmpi .slt : (⟨S224, .i32⟩ : BufTy).Contents (Elt F) → (⟨S224, .i32⟩ : BufTy).Contents (Elt F) → (⟨S224, .i1⟩ : BufTy).Contents (Elt F)) t_main_v189 t_main_v190
  let t_main_c_146 : (⟨S_, .i32⟩ : BufTy).Contents (Elt F) := (constantI S_ 32 10#32)
  let t_main_v192 : (⟨S224, .i32⟩ : BufTy).Contents (Elt F) := (broadcastInDim S224 ![] bcast_S_S224 : (⟨S_, .i32⟩ : BufTy).Contents (Elt F) → (⟨S224, .i32⟩ : BufTy).Contents (Elt F)) t_main_c_146
  let t_main_v193 : (⟨S224, .i32⟩ : BufTy).Contents (Elt F) := (addi : (⟨S224, .i32⟩ : BufTy).Contents (Elt F) → (⟨S224, .i32⟩ : BufTy).Contents (Elt F) → (⟨S224, .i32⟩ : BufTy).Contents (Elt F)) t_main_v189 t_main_v192
  let t_main_v194 : (⟨S224, .i32⟩ : BufTy).Contents (Elt F) := (select : (⟨S224, .i1⟩ : BufTy).Contents (Elt F) → (⟨S224, .i32⟩ : BufTy).Contents (Elt F) → (⟨S224, .i32⟩ : BufTy).Contents (Elt F) → (⟨S224, .i32⟩ : BufTy).Contents (Elt F)) t_main_v191 t_main_v193 t_main_v189
  let t_main_v195 : (⟨S224x1, .i32⟩ : BufTy).Contents (Elt F) := (broadcastInDim S224x1 ![0] bcast_S224_S224x1_0 : (⟨S224, .i32⟩ : BufTy).Contents (Elt F) → (⟨S224x1, .i32⟩ : BufTy).Contents (Elt F)) t_main_v194
  let t_main_v196 : (⟨S16x3x224x224, .f32⟩ : BufTy).Contents (Elt F) := ((fun x i => Host.gather gather_S16x3x10x224_S224x1_S16x3x224x224_013_2_n_n_2_1_1631224 x i) : (⟨S16x3x10x224, .f32⟩ : BufTy).Contents (Elt F) → (⟨S224x1, .i32⟩ : BufTy).Contents (Elt F) → (⟨S16x3x224x224, .f32⟩ : BufTy).Contents (Elt F)) t_main_v41 t_main_v195
  t_main_v196

/-- main_v197 after stretch w5_s14, from the contents before it. -/
def phi_w5_s14_main_v197 (t_main_v20 : (⟨S16x3x224, .f32⟩ : BufTy).Contents (Elt F)) : (⟨S16x3x1x224, .f32⟩ : BufTy).Contents (Elt F) :=
  let t_main_v197 : (⟨S16x3x1x224, .f32⟩ : BufTy).Contents (Elt F) := (broadcastInDim S16x3x1x224 ![0, 1, 3] bcast_S16x3x224_S16x3x1x224_0_1_3 : (⟨S16x3x224, .f32⟩ : BufTy).Contents (Elt F) → (⟨S16x3x1x224, .f32⟩ : BufTy).Contents (Elt F)) t_main_v20
  t_main_v197

/-- main_v198 after stretch w5_s15, from the contents before it. -/
def phi_w5_s15_main_v198 (t_main_v188 : (⟨S16x224x1, .i1⟩ : BufTy).Contents (Elt F)) (t_main_v196 : (⟨S16x3x224x224, .f32⟩ : BufTy).Contents (Elt F)) (t_main_v197 : (⟨S16x3x1x224, .f32⟩ : BufTy).Contents (Elt F)) : (⟨S16x3x224x224, .f32⟩ : BufTy).Contents (Elt F) :=
  let t_main_call7_v0 : (⟨S16x3x224x224, .i1⟩ : BufTy).Contents (Elt F) := (broadcastInDim S16x3x224x224 ![0, 2, 3] bcast_S16x224x1_S16x3x224x224_0_2_3) t_main_v188
  let t_main_call7_v1 : (⟨S16x3x224x224, .f32⟩ : BufTy).Contents (Elt F) := (broadcastInDim S16x3x224x224 ![0, 1, 2, 3] bcast_S16x3x1x224_S16x3x224x224_0_1_2_3) t_main_v197
  let t_main_v198 : (⟨S16x3x224x224, .f32⟩ : BufTy).Contents (Elt F) := (select) t_main_call7_v0 t_main_v196 t_main_call7_v1
  t_main_v198

/-- main_v205 after stretch w5_s16, from the contents before it. -/
def phi_w5_s16_main_v205 (t_main_arg11 : (⟨S16, .i32⟩ : BufTy).Contents (Elt F)) (t_main_v180 : (⟨S224x1, .i32⟩ : BufTy).Contents (Elt F)) : (⟨S16x224x1, .i32⟩ : BufTy).Contents (Elt F) :=
  let t_main_c_147 : (⟨S_, .i32⟩ : BufTy).Contents (Elt F) := (constantI S_ 32 224#32)
  let t_main_v199 : (⟨S16, .i32⟩ : BufTy).Contents (Elt F) := (broadcastInDim S16 ![] bcast_S_S16 : (⟨S_, .i32⟩ : BufTy).Contents (Elt F) → (⟨S16, .i32⟩ : BufTy).Contents (Elt F)) t_main_c_147
  let t_main_v200 : (⟨S16, .i32⟩ : BufTy).Contents (Elt F) := (subi : (⟨S16, .i32⟩ : BufTy).Contents (Elt F) → (⟨S16, .i32⟩ : BufTy).Contents (Elt F) → (⟨S16, .i32⟩ : BufTy).Contents (Elt F)) t_main_v199 t_main_arg11
  let t_main_v201 : (⟨S1x224x1, .i32⟩ : BufTy).Contents (Elt F) := (broadcastInDim S1x224x1 ![1, 2] bcast_S224x1_S1x224x1_1_2 : (⟨S224x1, .i32⟩ : BufTy).Contents (Elt F) → (⟨S1x224x1, .i32⟩ : BufTy).Contents (Elt F)) t_main_v180
  let t_main_v202 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v200
  let t_main_v203 : (⟨S16x224x1, .i32⟩ : BufTy).Contents (Elt F) := (broadcastInDim S16x224x1 ![0, 1, 2] bcast_S1x224x1_S16x224x1_0_1_2 : (⟨S1x224x1, .i32⟩ : BufTy).Contents (Elt F) → (⟨S16x224x1, .i32⟩ : BufTy).Contents (Elt F)) t_main_v201
  let t_main_v204 : (⟨S16x224x1, .i32⟩ : BufTy).Contents (Elt F) := (broadcastInDim S16x224x1 ![0, 1, 2] bcast_S16x1x1_S16x224x1_0_1_2 : (⟨S16x1x1, .i32⟩ : BufTy).Contents (Elt F) → (⟨S16x224x1, .i32⟩ : BufTy).Contents (Elt F)) t_main_v202
  let t_main_v205 : (⟨S16x224x1, .i32⟩ : BufTy).Contents (Elt F) := (subi : (⟨S16x224x1, .i32⟩ : BufTy).Contents (Elt F) → (⟨S16x224x1, .i32⟩ : BufTy).Contents (Elt F) → (⟨S16x224x1, .i32⟩ : BufTy).Contents (Elt F)) t_main_v203 t_main_v204
  t_main_v205

/-- main_v208 after stretch w5_s16, from the contents before it. -/
def phi_w5_s16_main_v208 (t_main_arg11 : (⟨S16, .i32⟩ : BufTy).Contents (Elt F)) (t_main_v177 : (⟨S16, .i32⟩ : BufTy).Contents (Elt F)) (t_main_v180 : (⟨S224x1, .i32⟩ : BufTy).Contents (Elt F)) : (⟨S16x224x1, .i32⟩ : BufTy).Contents (Elt F) :=
  let t_main_c_147 : (⟨S_, .i32⟩ : BufTy).Contents (Elt F) := (constantI S_ 32 224#32)
  let t_main_v199 : (⟨S16, .i32⟩ : BufTy).Contents (Elt F) := (broadcastInDim S16 ![] bcast_S_S16 : (⟨S_, .i32⟩ : BufTy).Contents (Elt F) → (⟨S16, .i32⟩ : BufTy).Contents (Elt F)) t_main_c_147
  let t_main_v200 : (⟨S16, .i32⟩ : BufTy).Contents (Elt F) := (subi : (⟨S16, .i32⟩ : BufTy).Contents (Elt F) → (⟨S16, .i32⟩ : BufTy).Contents (Elt F) → (⟨S16, .i32⟩ : BufTy).Contents (Elt F)) t_main_v199 t_main_arg11
  let t_main_v201 : (⟨S1x224x1, .i32⟩ : BufTy).Contents (Elt F) := (broadcastInDim S1x224x1 ![1, 2] bcast_S224x1_S1x224x1_1_2 : (⟨S224x1, .i32⟩ : BufTy).Contents (Elt F) → (⟨S1x224x1, .i32⟩ : BufTy).Contents (Elt F)) t_main_v180
  let t_main_v202 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v200
  let t_main_v203 : (⟨S16x224x1, .i32⟩ : BufTy).Contents (Elt F) := (broadcastInDim S16x224x1 ![0, 1, 2] bcast_S1x224x1_S16x224x1_0_1_2 : (⟨S1x224x1, .i32⟩ : BufTy).Contents (Elt F) → (⟨S16x224x1, .i32⟩ : BufTy).Contents (Elt F)) t_main_v201
  let t_main_v204 : (⟨S16x224x1, .i32⟩ : BufTy).Contents (Elt F) := (broadcastInDim S16x224x1 ![0, 1, 2] bcast_S16x1x1_S16x224x1_0_1_2 : (⟨S16x1x1, .i32⟩ : BufTy).Contents (Elt F) → (⟨S16x224x1, .i32⟩ : BufTy).Contents (Elt F)) t_main_v202
  let t_main_v205 : (⟨S16x224x1, .i32⟩ : BufTy).Contents (Elt F) := (subi : (⟨S16x224x1, .i32⟩ : BufTy).Contents (Elt F) → (⟨S16x224x1, .i32⟩ : BufTy).Contents (Elt F) → (⟨S16x224x1, .i32⟩ : BufTy).Contents (Elt F)) t_main_v203 t_main_v204
  let t_main_v206 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v177
  let t_main_v207 : (⟨S16x224x1, .i32⟩ : BufTy).Contents (Elt F) := (broadcastInDim S16x224x1 ![0, 1, 2] bcast_S16x1x1_S16x224x1_0_1_2 : (⟨S16x1x1, .i32⟩ : BufTy).Contents (Elt F) → (⟨S16x224x1, .i32⟩ : BufTy).Contents (Elt F)) t_main_v206
  let t_main_v208 : (⟨S16x224x1, .i32⟩ : BufTy).Contents (Elt F) := (subi : (⟨S16x224x1, .i32⟩ : BufTy).Contents (Elt F) → (⟨S16x224x1, .i32⟩ : BufTy).Contents (Elt F) → (⟨S16x224x1, .i32⟩ : BufTy).Contents (Elt F)) t_main_v205 t_main_v207
  t_main_v208

/-- main_c_148 after stretch w5_s16, from the contents before it. -/
def phi_w5_s16_main_c_148  : (⟨S_, .i32⟩ : BufTy).Contents (Elt F) :=
  let t_main_c_148 : (⟨S_, .i32⟩ : BufTy).Contents (Elt F) := (constantI S_ 32 10#32)
  t_main_c_148

/-- main_v209 after stretch w5_s17, from the contents before it. -/
def phi_w5_s17_main_v209 (t_main_v208 : (⟨S16x224x1, .i32⟩ : BufTy).Contents (Elt F)) (t_main_c_148 : (⟨S_, .i32⟩ : BufTy).Contents (Elt F)) : (⟨S16x224x1, .i32⟩ : BufTy).Contents (Elt F) :=
  let t_main_call8_v0 : (⟨S_, .i32⟩ : BufTy).Contents (Elt F) := (id) t_main_c_148
  let t_main_call8_c : (⟨S_, .i32⟩ : BufTy).Contents (Elt F) := (constantI S_ 32 0#32)
  let t_main_call8_v1 : (⟨S_, .i1⟩ : BufTy).Contents (Elt F) := (cmpi .eq) t_main_call8_v0 t_main_call8_c
  let t_main_call8_c_0 : (⟨S_, .i32⟩ : BufTy).Contents (Elt F) := (constantI S_ 32 1#32)
  let t_main_call8_v2 : (⟨S_, .i32⟩ : BufTy).Contents (Elt F) := (select) t_main_call8_v1 t_main_call8_c_0 t_main_call8_v0
  let t_main_call8_v3 : (⟨S16x224x1, .i32⟩ : BufTy).Contents (Elt F) := (broadcastInDim S16x224x1 ![] bcast_S_S16x224x1) t_main_call8_v2
  let t_main_call8_v4 : (⟨S16x224x1, .i32⟩ : BufTy).Contents (Elt F) := (Host.remsi) t_main_v208 t_main_call8_v3
  let t_main_call8_c_1 : (⟨S_, .i32⟩ : BufTy).Contents (Elt F) := (constantI S_ 32 0#32)
  let t_main_call8_v5 : (⟨S16x224x1, .i32⟩ : BufTy).Contents (Elt F) := (broadcastInDim S16x224x1 ![] bcast_S_S16x224x1) t_main_call8_c_1
  let t_main_call8_v6 : (⟨S16x224x1, .i1⟩ : BufTy).Contents (Elt F) := (cmpi .ne) t_main_call8_v4 t_main_call8_v5
  let t_main_call8_c_2 : (⟨S_, .i32⟩ : BufTy).Contents (Elt F) := (constantI S_ 32 0#32)
  let t_main_call8_v7 : (⟨S16x224x1, .i32⟩ : BufTy).Contents (Elt F) := (broadcastInDim S16x224x1 ![] bcast_S_S16x224x1) t_main_call8_c_2
  let t_main_call8_v8 : (⟨S16x224x1, .i1⟩ : BufTy).Contents (Elt F) := (cmpi .slt) t_main_call8_v4 t_main_call8_v7
  let t_main_call8_c_3 : (⟨S_, .i32⟩ : BufTy).Contents (Elt F) := (constantI S_ 32 0#32)
  let t_main_call8_v9 : (⟨S_, .i1⟩ : BufTy).Contents (Elt F) := (cmpi .slt) t_main_call8_v2 t_main_call8_c_3
  let t_main_call8_v10 : (⟨S16x224x1, .i1⟩ : BufTy).Contents (Elt F) := (broadcastInDim S16x224x1 ![] bcast_S_S16x224x1) t_main_call8_v9
  let t_main_call8_v11 : (⟨S16x224x1, .i1⟩ : BufTy).Contents (Elt F) := (cmpi .ne) t_main_call8_v8 t_main_call8_v10
  let t_main_call8_v12 : (⟨S16x224x1, .i1⟩ : BufTy).Contents (Elt F) := (andi) t_main_call8_v11 t_main_call8_v6
  let t_main_call8_v13 : (⟨S16x224x1, .i32⟩ : BufTy).Contents (Elt F) := (broadcastInDim S16x224x1 ![] bcast_S_S16x224x1) t_main_call8_v2
  let t_main_call8_v14 : (⟨S16x224x1, .i32⟩ : BufTy).Contents (Elt F) := (addi) t_main_call8_v4 t_main_call8_v13
  let t_main_v209 : (⟨S16x224x1, .i32⟩ : BufTy).Contents (Elt F) := (select) t_main_call8_v12 t_main_call8_v14 t_main_call8_v4
  t_main_v209

end Cert.PromptBridge

end
-- ==== Proof.PromptBridgeL5.lean ====
import proofs.«144763_j39642548142243_2_alg».proof.Proof.PromptBridgePhi5

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

theorem keepK_w5_s0_main_arg10 (WK : ValK F) :
    after Cert.KernelIdeal.Gen.main_part5_ops0 WK (Proc.devRef .tc Cert.KernelIdeal.main_arg10) = WK (Proc.devRef .tc Cert.KernelIdeal.main_arg10) := by
  keep_step Cert.KernelIdeal.Gen.main_part5_ops0
theorem keepR_w5_s0_main_arg10 (WR : ValR F) :
    after Cert.ReferenceIdeal.Hand.w5_s0 WR (Proc.devRef .tc Cert.ReferenceIdeal.main_arg10) = WR (Proc.devRef .tc Cert.ReferenceIdeal.main_arg10) := by
  keep_step Cert.ReferenceIdeal.Hand.w5_s0
theorem keepK_w5_s0_main_arg11 (WK : ValK F) :
    after Cert.KernelIdeal.Gen.main_part5_ops0 WK (Proc.devRef .tc Cert.KernelIdeal.main_arg11) = WK (Proc.devRef .tc Cert.KernelIdeal.main_arg11) := by
  keep_step Cert.KernelIdeal.Gen.main_part5_ops0
theorem keepR_w5_s0_main_arg11 (WR : ValR F) :
    after Cert.ReferenceIdeal.Hand.w5_s0 WR (Proc.devRef .tc Cert.ReferenceIdeal.main_arg11) = WR (Proc.devRef .tc Cert.ReferenceIdeal.main_arg11) := by
  keep_step Cert.ReferenceIdeal.Hand.w5_s0
theorem keepK_w5_s0_main_v20 (WK : ValK F) :
    after Cert.KernelIdeal.Gen.main_part5_ops0 WK (Proc.devRef .tc Cert.KernelIdeal.main_v20) = WK (Proc.devRef .tc Cert.KernelIdeal.main_v20) := by
  keep_step Cert.KernelIdeal.Gen.main_part5_ops0
theorem keepR_w5_s0_main_v20 (WR : ValR F) :
    after Cert.ReferenceIdeal.Hand.w5_s0 WR (Proc.devRef .tc Cert.ReferenceIdeal.main_v20) = WR (Proc.devRef .tc Cert.ReferenceIdeal.main_v20) := by
  keep_step Cert.ReferenceIdeal.Hand.w5_s0
theorem keepK_w5_s0_main_v41 (WK : ValK F) :
    after Cert.KernelIdeal.Gen.main_part5_ops0 WK (Proc.devRef .tc Cert.KernelIdeal.main_v41) = WK (Proc.devRef .tc Cert.KernelIdeal.main_v41) := by
  keep_step Cert.KernelIdeal.Gen.main_part5_ops0
theorem keepR_w5_s0_main_v41 (WR : ValR F) :
    after Cert.ReferenceIdeal.Hand.w5_s0 WR (Proc.devRef .tc Cert.ReferenceIdeal.main_v41) = WR (Proc.devRef .tc Cert.ReferenceIdeal.main_v41) := by
  keep_step Cert.ReferenceIdeal.Hand.w5_s0
theorem keepK_w5_s0_main_v62 (WK : ValK F) :
    after Cert.KernelIdeal.Gen.main_part5_ops0 WK (Proc.devRef .tc Cert.KernelIdeal.main_v62) = WK (Proc.devRef .tc Cert.KernelIdeal.main_v62) := by
  keep_step Cert.KernelIdeal.Gen.main_part5_ops0
theorem keepR_w5_s0_main_v62 (WR : ValR F) :
    after Cert.ReferenceIdeal.Hand.w5_s0 WR (Proc.devRef .tc Cert.ReferenceIdeal.main_v62) = WR (Proc.devRef .tc Cert.ReferenceIdeal.main_v62) := by
  keep_step Cert.ReferenceIdeal.Hand.w5_s0
theorem keepK_w5_s0_main_v83 (WK : ValK F) :
    after Cert.KernelIdeal.Gen.main_part5_ops0 WK (Proc.devRef .tc Cert.KernelIdeal.main_v83) = WK (Proc.devRef .tc Cert.KernelIdeal.main_v83) := by
  keep_step Cert.KernelIdeal.Gen.main_part5_ops0
theorem keepR_w5_s0_main_v83 (WR : ValR F) :
    after Cert.ReferenceIdeal.Hand.w5_s0 WR (Proc.devRef .tc Cert.ReferenceIdeal.main_v83) = WR (Proc.devRef .tc Cert.ReferenceIdeal.main_v83) := by
  keep_step Cert.ReferenceIdeal.Hand.w5_s0
theorem keepK_w5_s0_main_v104 (WK : ValK F) :
    after Cert.KernelIdeal.Gen.main_part5_ops0 WK (Proc.devRef .tc Cert.KernelIdeal.main_v104) = WK (Proc.devRef .tc Cert.KernelIdeal.main_v104) := by
  keep_step Cert.KernelIdeal.Gen.main_part5_ops0
theorem keepR_w5_s0_main_v104 (WR : ValR F) :
    after Cert.ReferenceIdeal.Hand.w5_s0 WR (Proc.devRef .tc Cert.ReferenceIdeal.main_v104) = WR (Proc.devRef .tc Cert.ReferenceIdeal.main_v104) := by
  keep_step Cert.ReferenceIdeal.Hand.w5_s0
theorem keepK_w5_s0_main_v125 (WK : ValK F) :
    after Cert.KernelIdeal.Gen.main_part5_ops0 WK (Proc.devRef .tc Cert.KernelIdeal.main_v125) = WK (Proc.devRef .tc Cert.KernelIdeal.main_v125) := by
  keep_step Cert.KernelIdeal.Gen.main_part5_ops0
theorem keepR_w5_s0_main_v125 (WR : ValR F) :
    after Cert.ReferenceIdeal.Hand.w5_s0 WR (Proc.devRef .tc Cert.ReferenceIdeal.main_v125) = WR (Proc.devRef .tc Cert.ReferenceIdeal.main_v125) := by
  keep_step Cert.ReferenceIdeal.Hand.w5_s0
theorem keepK_w5_s0_main_v146 (WK : ValK F) :
    after Cert.KernelIdeal.Gen.main_part5_ops0 WK (Proc.devRef .tc Cert.KernelIdeal.main_v146) = WK (Proc.devRef .tc Cert.KernelIdeal.main_v146) := by
  keep_step Cert.KernelIdeal.Gen.main_part5_ops0
theorem keepR_w5_s0_main_v146 (WR : ValR F) :
    after Cert.ReferenceIdeal.Hand.w5_s0 WR (Proc.devRef .tc Cert.ReferenceIdeal.main_v146) = WR (Proc.devRef .tc Cert.ReferenceIdeal.main_v146) := by
  keep_step Cert.ReferenceIdeal.Hand.w5_s0
theorem phiK_w5_s0_main_v167 (WK : ValK F) :
    @Eq ((⟨S16x3x164x10, .f32⟩ : BufTy).Contents (Elt F)) (after Cert.KernelIdeal.Gen.main_part5_ops0 WK (Proc.devRef .tc Cert.KernelIdeal.main_v167))
      (phi_w5_s0_main_v167 (WK (Proc.devRef .tc Cert.KernelIdeal.main_arg8)) (WK (Proc.devRef .tc Cert.KernelIdeal.main_v160)) (WK (Proc.devRef .tc Cert.KernelIdeal.main_v161)) (WK (Proc.devRef .tc Cert.KernelIdeal.main_v162)) (WK (Proc.devRef .tc Cert.KernelIdeal.main_v163))) := by
  phi_step Cert.KernelIdeal.Gen.main_part5_ops0 phi_w5_s0_main_v167
theorem phiR_w5_s0_main_v167 (WR : ValR F) :
    @Eq ((⟨S16x3x164x10, .f32⟩ : BufTy).Contents (Elt F)) (after Cert.ReferenceIdeal.Hand.w5_s0 WR (Proc.devRef .tc Cert.ReferenceIdeal.main_v167))
      (phi_w5_s0_main_v167 (WR (Proc.devRef .tc Cert.ReferenceIdeal.main_arg8)) (WR (Proc.devRef .tc Cert.ReferenceIdeal.main_v160)) (WR (Proc.devRef .tc Cert.ReferenceIdeal.main_v161)) (WR (Proc.devRef .tc Cert.ReferenceIdeal.main_v162)) (WR (Proc.devRef .tc Cert.ReferenceIdeal.main_v163))) := by
  phi_step Cert.ReferenceIdeal.Hand.w5_s0 phi_w5_s0_main_v167
theorem phiK_w5_s0_main_v169 (WK : ValK F) :
    @Eq ((⟨S16, .i32⟩ : BufTy).Contents (Elt F)) (after Cert.KernelIdeal.Gen.main_part5_ops0 WK (Proc.devRef .tc Cert.KernelIdeal.main_v169))
      (phi_w5_s0_main_v169 (WK (Proc.devRef .tc Cert.KernelIdeal.main_arg10))) := by
  phi_step Cert.KernelIdeal.Gen.main_part5_ops0 phi_w5_s0_main_v169
theorem phiR_w5_s0_main_v169 (WR : ValR F) :
    @Eq ((⟨S16, .i32⟩ : BufTy).Contents (Elt F)) (after Cert.ReferenceIdeal.Hand.w5_s0 WR (Proc.devRef .tc Cert.ReferenceIdeal.main_v169))
      (phi_w5_s0_main_v169 (WR (Proc.devRef .tc Cert.ReferenceIdeal.main_arg10))) := by
  phi_step Cert.ReferenceIdeal.Hand.w5_s0 phi_w5_s0_main_v169
theorem phiK_w5_s0_main_v171 (WK : ValK F) :
    @Eq ((⟨S16, .i32⟩ : BufTy).Contents (Elt F)) (after Cert.KernelIdeal.Gen.main_part5_ops0 WK (Proc.devRef .tc Cert.KernelIdeal.main_v171))
      (phi_w5_s0_main_v171 (WK (Proc.devRef .tc Cert.KernelIdeal.main_arg11))) := by
  phi_step Cert.KernelIdeal.Gen.main_part5_ops0 phi_w5_s0_main_v171
theorem phiR_w5_s0_main_v171 (WR : ValR F) :
    @Eq ((⟨S16, .i32⟩ : BufTy).Contents (Elt F)) (after Cert.ReferenceIdeal.Hand.w5_s0 WR (Proc.devRef .tc Cert.ReferenceIdeal.main_v171))
      (phi_w5_s0_main_v171 (WR (Proc.devRef .tc Cert.ReferenceIdeal.main_arg11))) := by
  phi_step Cert.ReferenceIdeal.Hand.w5_s0 phi_w5_s0_main_v171
theorem phiK_w5_s0_main_c_137 (WK : ValK F) :
    @Eq ((⟨S_, .i32⟩ : BufTy).Contents (Elt F)) (after Cert.KernelIdeal.Gen.main_part5_ops0 WK (Proc.devRef .tc Cert.KernelIdeal.main_c_137))
      (phi_w5_s0_main_c_137) := by
  phi_step Cert.KernelIdeal.Gen.main_part5_ops0 phi_w5_s0_main_c_137
theorem phiR_w5_s0_main_c_137 (WR : ValR F) :
    @Eq ((⟨S_, .i32⟩ : BufTy).Contents (Elt F)) (after Cert.ReferenceIdeal.Hand.w5_s0 WR (Proc.devRef .tc Cert.ReferenceIdeal.main_c_137))
      (phi_w5_s0_main_c_137) := by
  phi_step Cert.ReferenceIdeal.Hand.w5_s0 phi_w5_s0_main_c_137

theorem sim_w5_s0 (WK : ValK F) (WR : ValR F) (h : Inv5 WK WR) :
    Inv6 (after Cert.KernelIdeal.Gen.main_part5_ops0 WK) (after Cert.ReferenceIdeal.Hand.w5_s0 WR) := by
  sim_step h Inv5 Inv6 [keepK_w5_s0_main_arg10, keepR_w5_s0_main_arg10, keepK_w5_s0_main_arg11, keepR_w5_s0_main_arg11, keepK_w5_s0_main_v20, keepR_w5_s0_main_v20, keepK_w5_s0_main_v41, keepR_w5_s0_main_v41, keepK_w5_s0_main_v62, keepR_w5_s0_main_v62, keepK_w5_s0_main_v83, keepR_w5_s0_main_v83, keepK_w5_s0_main_v104, keepR_w5_s0_main_v104, keepK_w5_s0_main_v125, keepR_w5_s0_main_v125, keepK_w5_s0_main_v146, keepR_w5_s0_main_v146, phiK_w5_s0_main_v167, phiR_w5_s0_main_v167, phiK_w5_s0_main_v169, phiR_w5_s0_main_v169, phiK_w5_s0_main_v171, phiR_w5_s0_main_v171, phiK_w5_s0_main_c_137, phiR_w5_s0_main_c_137]

theorem keepK_w5_s1_main_arg10 (WK : ValK F) :
    after Cert.KernelIdeal.Gen.main_part5_ops1 WK (Proc.devRef .tc Cert.KernelIdeal.main_arg10) = WK (Proc.devRef .tc Cert.KernelIdeal.main_arg10) := by
  keep_step Cert.KernelIdeal.Gen.main_part5_ops1
theorem keepR_w5_s1_main_arg10 (WR : ValR F) :
    after Cert.ReferenceIdeal.Hand.w5_s1 WR (Proc.devRef .tc Cert.ReferenceIdeal.main_arg10) = WR (Proc.devRef .tc Cert.ReferenceIdeal.main_arg10) := by
  keep_step Cert.ReferenceIdeal.Hand.w5_s1
theorem keepK_w5_s1_main_arg11 (WK : ValK F) :
    after Cert.KernelIdeal.Gen.main_part5_ops1 WK (Proc.devRef .tc Cert.KernelIdeal.main_arg11) = WK (Proc.devRef .tc Cert.KernelIdeal.main_arg11) := by
  keep_step Cert.KernelIdeal.Gen.main_part5_ops1
theorem keepR_w5_s1_main_arg11 (WR : ValR F) :
    after Cert.ReferenceIdeal.Hand.w5_s1 WR (Proc.devRef .tc Cert.ReferenceIdeal.main_arg11) = WR (Proc.devRef .tc Cert.ReferenceIdeal.main_arg11) := by
  keep_step Cert.ReferenceIdeal.Hand.w5_s1
theorem keepK_w5_s1_main_v20 (WK : ValK F) :
    after Cert.KernelIdeal.Gen.main_part5_ops1 WK (Proc.devRef .tc Cert.KernelIdeal.main_v20) = WK (Proc.devRef .tc Cert.KernelIdeal.main_v20) := by
  keep_step Cert.KernelIdeal.Gen.main_part5_ops1
theorem keepR_w5_s1_main_v20 (WR : ValR F) :
    after Cert.ReferenceIdeal.Hand.w5_s1 WR (Proc.devRef .tc Cert.ReferenceIdeal.main_v20) = WR (Proc.devRef .tc Cert.ReferenceIdeal.main_v20) := by
  keep_step Cert.ReferenceIdeal.Hand.w5_s1
theorem keepK_w5_s1_main_v41 (WK : ValK F) :
    after Cert.KernelIdeal.Gen.main_part5_ops1 WK (Proc.devRef .tc Cert.KernelIdeal.main_v41) = WK (Proc.devRef .tc Cert.KernelIdeal.main_v41) := by
  keep_step Cert.KernelIdeal.Gen.main_part5_ops1
theorem keepR_w5_s1_main_v41 (WR : ValR F) :
    after Cert.ReferenceIdeal.Hand.w5_s1 WR (Proc.devRef .tc Cert.ReferenceIdeal.main_v41) = WR (Proc.devRef .tc Cert.ReferenceIdeal.main_v41) := by
  keep_step Cert.ReferenceIdeal.Hand.w5_s1
theorem keepK_w5_s1_main_v62 (WK : ValK F) :
    after Cert.KernelIdeal.Gen.main_part5_ops1 WK (Proc.devRef .tc Cert.KernelIdeal.main_v62) = WK (Proc.devRef .tc Cert.KernelIdeal.main_v62) := by
  keep_step Cert.KernelIdeal.Gen.main_part5_ops1
theorem keepR_w5_s1_main_v62 (WR : ValR F) :
    after Cert.ReferenceIdeal.Hand.w5_s1 WR (Proc.devRef .tc Cert.ReferenceIdeal.main_v62) = WR (Proc.devRef .tc Cert.ReferenceIdeal.main_v62) := by
  keep_step Cert.ReferenceIdeal.Hand.w5_s1
theorem keepK_w5_s1_main_v83 (WK : ValK F) :
    after Cert.KernelIdeal.Gen.main_part5_ops1 WK (Proc.devRef .tc Cert.KernelIdeal.main_v83) = WK (Proc.devRef .tc Cert.KernelIdeal.main_v83) := by
  keep_step Cert.KernelIdeal.Gen.main_part5_ops1
theorem keepR_w5_s1_main_v83 (WR : ValR F) :
    after Cert.ReferenceIdeal.Hand.w5_s1 WR (Proc.devRef .tc Cert.ReferenceIdeal.main_v83) = WR (Proc.devRef .tc Cert.ReferenceIdeal.main_v83) := by
  keep_step Cert.ReferenceIdeal.Hand.w5_s1
theorem keepK_w5_s1_main_v104 (WK : ValK F) :
    after Cert.KernelIdeal.Gen.main_part5_ops1 WK (Proc.devRef .tc Cert.KernelIdeal.main_v104) = WK (Proc.devRef .tc Cert.KernelIdeal.main_v104) := by
  keep_step Cert.KernelIdeal.Gen.main_part5_ops1
theorem keepR_w5_s1_main_v104 (WR : ValR F) :
    after Cert.ReferenceIdeal.Hand.w5_s1 WR (Proc.devRef .tc Cert.ReferenceIdeal.main_v104) = WR (Proc.devRef .tc Cert.ReferenceIdeal.main_v104) := by
  keep_step Cert.ReferenceIdeal.Hand.w5_s1
theorem keepK_w5_s1_main_v125 (WK : ValK F) :
    after Cert.KernelIdeal.Gen.main_part5_ops1 WK (Proc.devRef .tc Cert.KernelIdeal.main_v125) = WK (Proc.devRef .tc Cert.KernelIdeal.main_v125) := by
  keep_step Cert.KernelIdeal.Gen.main_part5_ops1
theorem keepR_w5_s1_main_v125 (WR : ValR F) :
    after Cert.ReferenceIdeal.Hand.w5_s1 WR (Proc.devRef .tc Cert.ReferenceIdeal.main_v125) = WR (Proc.devRef .tc Cert.ReferenceIdeal.main_v125) := by
  keep_step Cert.ReferenceIdeal.Hand.w5_s1
theorem keepK_w5_s1_main_v146 (WK : ValK F) :
    after Cert.KernelIdeal.Gen.main_part5_ops1 WK (Proc.devRef .tc Cert.KernelIdeal.main_v146) = WK (Proc.devRef .tc Cert.KernelIdeal.main_v146) := by
  keep_step Cert.KernelIdeal.Gen.main_part5_ops1
theorem keepR_w5_s1_main_v146 (WR : ValR F) :
    after Cert.ReferenceIdeal.Hand.w5_s1 WR (Proc.devRef .tc Cert.ReferenceIdeal.main_v146) = WR (Proc.devRef .tc Cert.ReferenceIdeal.main_v146) := by
  keep_step Cert.ReferenceIdeal.Hand.w5_s1
theorem keepK_w5_s1_main_v167 (WK : ValK F) :
    after Cert.KernelIdeal.Gen.main_part5_ops1 WK (Proc.devRef .tc Cert.KernelIdeal.main_v167) = WK (Proc.devRef .tc Cert.KernelIdeal.main_v167) := by
  keep_step Cert.KernelIdeal.Gen.main_part5_ops1
theorem keepR_w5_s1_main_v167 (WR : ValR F) :
    after Cert.ReferenceIdeal.Hand.w5_s1 WR (Proc.devRef .tc Cert.ReferenceIdeal.main_v167) = WR (Proc.devRef .tc Cert.ReferenceIdeal.main_v167) := by
  keep_step Cert.ReferenceIdeal.Hand.w5_s1
theorem keepK_w5_s1_main_v169 (WK : ValK F) :
    after Cert.KernelIdeal.Gen.main_part5_ops1 WK (Proc.devRef .tc Cert.KernelIdeal.main_v169) = WK (Proc.devRef .tc Cert.KernelIdeal.main_v169) := by
  keep_step Cert.KernelIdeal.Gen.main_part5_ops1
theorem keepR_w5_s1_main_v169 (WR : ValR F) :
    after Cert.ReferenceIdeal.Hand.w5_s1 WR (Proc.devRef .tc Cert.ReferenceIdeal.main_v169) = WR (Proc.devRef .tc Cert.ReferenceIdeal.main_v169) := by
  keep_step Cert.ReferenceIdeal.Hand.w5_s1
theorem keepK_w5_s1_main_v171 (WK : ValK F) :
    after Cert.KernelIdeal.Gen.main_part5_ops1 WK (Proc.devRef .tc Cert.KernelIdeal.main_v171) = WK (Proc.devRef .tc Cert.KernelIdeal.main_v171) := by
  keep_step Cert.KernelIdeal.Gen.main_part5_ops1
theorem keepR_w5_s1_main_v171 (WR : ValR F) :
    after Cert.ReferenceIdeal.Hand.w5_s1 WR (Proc.devRef .tc Cert.ReferenceIdeal.main_v171) = WR (Proc.devRef .tc Cert.ReferenceIdeal.main_v171) := by
  keep_step Cert.ReferenceIdeal.Hand.w5_s1
theorem phiK_w5_s1_main_v172 (WK : ValK F) :
    @Eq ((⟨S16, .i32⟩ : BufTy).Contents (Elt F)) (after Cert.KernelIdeal.Gen.main_part5_ops1 WK (Proc.devRef .tc Cert.KernelIdeal.main_v172))
      (phi_w5_s1_main_v172 (WK (Proc.devRef .tc Cert.KernelIdeal.main_v169)) (WK (Proc.devRef .tc Cert.KernelIdeal.main_c_137))) := by
  phi_step Cert.KernelIdeal.Gen.main_part5_ops1 phi_w5_s1_main_v172
theorem phiR_w5_s1_main_v172 (WR : ValR F) :
    @Eq ((⟨S16, .i32⟩ : BufTy).Contents (Elt F)) (after Cert.ReferenceIdeal.Hand.w5_s1 WR (Proc.devRef .tc Cert.ReferenceIdeal.main_v172))
      (phi_w5_s1_main_v172 (WR (Proc.devRef .tc Cert.ReferenceIdeal.main_v169)) (WR (Proc.devRef .tc Cert.ReferenceIdeal.main_c_137))) := by
  phi_step Cert.ReferenceIdeal.Hand.w5_s1 phi_w5_s1_main_v172

theorem sim_w5_s1 (WK : ValK F) (WR : ValR F) (h : Inv6 WK WR) :
    Inv7 (after Cert.KernelIdeal.Gen.main_part5_ops1 WK) (after Cert.ReferenceIdeal.Hand.w5_s1 WR) := by
  sim_step h Inv6 Inv7 [keepK_w5_s1_main_arg10, keepR_w5_s1_main_arg10, keepK_w5_s1_main_arg11, keepR_w5_s1_main_arg11, keepK_w5_s1_main_v20, keepR_w5_s1_main_v20, keepK_w5_s1_main_v41, keepR_w5_s1_main_v41, keepK_w5_s1_main_v62, keepR_w5_s1_main_v62, keepK_w5_s1_main_v83, keepR_w5_s1_main_v83, keepK_w5_s1_main_v104, keepR_w5_s1_main_v104, keepK_w5_s1_main_v125, keepR_w5_s1_main_v125, keepK_w5_s1_main_v146, keepR_w5_s1_main_v146, keepK_w5_s1_main_v167, keepR_w5_s1_main_v167, keepK_w5_s1_main_v169, keepR_w5_s1_main_v169, keepK_w5_s1_main_v171, keepR_w5_s1_main_v171, phiK_w5_s1_main_v172, phiR_w5_s1_main_v172]

theorem keepK_w5_s2_main_arg10 (WK : ValK F) :
    after Cert.KernelIdeal.Gen.main_part5_ops2 WK (Proc.devRef .tc Cert.KernelIdeal.main_arg10) = WK (Proc.devRef .tc Cert.KernelIdeal.main_arg10) := by
  keep_step Cert.KernelIdeal.Gen.main_part5_ops2
theorem keepR_w5_s2_main_arg10 (WR : ValR F) :
    after Cert.ReferenceIdeal.Hand.w5_s2 WR (Proc.devRef .tc Cert.ReferenceIdeal.main_arg10) = WR (Proc.devRef .tc Cert.ReferenceIdeal.main_arg10) := by
  keep_step Cert.ReferenceIdeal.Hand.w5_s2
theorem keepK_w5_s2_main_arg11 (WK : ValK F) :
    after Cert.KernelIdeal.Gen.main_part5_ops2 WK (Proc.devRef .tc Cert.KernelIdeal.main_arg11) = WK (Proc.devRef .tc Cert.KernelIdeal.main_arg11) := by
  keep_step Cert.KernelIdeal.Gen.main_part5_ops2
theorem keepR_w5_s2_main_arg11 (WR : ValR F) :
    after Cert.ReferenceIdeal.Hand.w5_s2 WR (Proc.devRef .tc Cert.ReferenceIdeal.main_arg11) = WR (Proc.devRef .tc Cert.ReferenceIdeal.main_arg11) := by
  keep_step Cert.ReferenceIdeal.Hand.w5_s2
theorem keepK_w5_s2_main_v20 (WK : ValK F) :
    after Cert.KernelIdeal.Gen.main_part5_ops2 WK (Proc.devRef .tc Cert.KernelIdeal.main_v20) = WK (Proc.devRef .tc Cert.KernelIdeal.main_v20) := by
  keep_step Cert.KernelIdeal.Gen.main_part5_ops2
theorem keepR_w5_s2_main_v20 (WR : ValR F) :
    after Cert.ReferenceIdeal.Hand.w5_s2 WR (Proc.devRef .tc Cert.ReferenceIdeal.main_v20) = WR (Proc.devRef .tc Cert.ReferenceIdeal.main_v20) := by
  keep_step Cert.ReferenceIdeal.Hand.w5_s2
theorem keepK_w5_s2_main_v41 (WK : ValK F) :
    after Cert.KernelIdeal.Gen.main_part5_ops2 WK (Proc.devRef .tc Cert.KernelIdeal.main_v41) = WK (Proc.devRef .tc Cert.KernelIdeal.main_v41) := by
  keep_step Cert.KernelIdeal.Gen.main_part5_ops2
theorem keepR_w5_s2_main_v41 (WR : ValR F) :
    after Cert.ReferenceIdeal.Hand.w5_s2 WR (Proc.devRef .tc Cert.ReferenceIdeal.main_v41) = WR (Proc.devRef .tc Cert.ReferenceIdeal.main_v41) := by
  keep_step Cert.ReferenceIdeal.Hand.w5_s2
theorem keepK_w5_s2_main_v62 (WK : ValK F) :
    after Cert.KernelIdeal.Gen.main_part5_ops2 WK (Proc.devRef .tc Cert.KernelIdeal.main_v62) = WK (Proc.devRef .tc Cert.KernelIdeal.main_v62) := by
  keep_step Cert.KernelIdeal.Gen.main_part5_ops2
theorem keepR_w5_s2_main_v62 (WR : ValR F) :
    after Cert.ReferenceIdeal.Hand.w5_s2 WR (Proc.devRef .tc Cert.ReferenceIdeal.main_v62) = WR (Proc.devRef .tc Cert.ReferenceIdeal.main_v62) := by
  keep_step Cert.ReferenceIdeal.Hand.w5_s2
theorem keepK_w5_s2_main_v83 (WK : ValK F) :
    after Cert.KernelIdeal.Gen.main_part5_ops2 WK (Proc.devRef .tc Cert.KernelIdeal.main_v83) = WK (Proc.devRef .tc Cert.KernelIdeal.main_v83) := by
  keep_step Cert.KernelIdeal.Gen.main_part5_ops2
theorem keepR_w5_s2_main_v83 (WR : ValR F) :
    after Cert.ReferenceIdeal.Hand.w5_s2 WR (Proc.devRef .tc Cert.ReferenceIdeal.main_v83) = WR (Proc.devRef .tc Cert.ReferenceIdeal.main_v83) := by
  keep_step Cert.ReferenceIdeal.Hand.w5_s2
theorem keepK_w5_s2_main_v104 (WK : ValK F) :
    after Cert.KernelIdeal.Gen.main_part5_ops2 WK (Proc.devRef .tc Cert.KernelIdeal.main_v104) = WK (Proc.devRef .tc Cert.KernelIdeal.main_v104) := by
  keep_step Cert.KernelIdeal.Gen.main_part5_ops2
theorem keepR_w5_s2_main_v104 (WR : ValR F) :
    after Cert.ReferenceIdeal.Hand.w5_s2 WR (Proc.devRef .tc Cert.ReferenceIdeal.main_v104) = WR (Proc.devRef .tc Cert.ReferenceIdeal.main_v104) := by
  keep_step Cert.ReferenceIdeal.Hand.w5_s2
theorem keepK_w5_s2_main_v125 (WK : ValK F) :
    after Cert.KernelIdeal.Gen.main_part5_ops2 WK (Proc.devRef .tc Cert.KernelIdeal.main_v125) = WK (Proc.devRef .tc Cert.KernelIdeal.main_v125) := by
  keep_step Cert.KernelIdeal.Gen.main_part5_ops2
theorem keepR_w5_s2_main_v125 (WR : ValR F) :
    after Cert.ReferenceIdeal.Hand.w5_s2 WR (Proc.devRef .tc Cert.ReferenceIdeal.main_v125) = WR (Proc.devRef .tc Cert.ReferenceIdeal.main_v125) := by
  keep_step Cert.ReferenceIdeal.Hand.w5_s2
theorem keepK_w5_s2_main_v146 (WK : ValK F) :
    after Cert.KernelIdeal.Gen.main_part5_ops2 WK (Proc.devRef .tc Cert.KernelIdeal.main_v146) = WK (Proc.devRef .tc Cert.KernelIdeal.main_v146) := by
  keep_step Cert.KernelIdeal.Gen.main_part5_ops2
theorem keepR_w5_s2_main_v146 (WR : ValR F) :
    after Cert.ReferenceIdeal.Hand.w5_s2 WR (Proc.devRef .tc Cert.ReferenceIdeal.main_v146) = WR (Proc.devRef .tc Cert.ReferenceIdeal.main_v146) := by
  keep_step Cert.ReferenceIdeal.Hand.w5_s2
theorem keepK_w5_s2_main_v167 (WK : ValK F) :
    after Cert.KernelIdeal.Gen.main_part5_ops2 WK (Proc.devRef .tc Cert.KernelIdeal.main_v167) = WK (Proc.devRef .tc Cert.KernelIdeal.main_v167) := by
  keep_step Cert.KernelIdeal.Gen.main_part5_ops2
theorem keepR_w5_s2_main_v167 (WR : ValR F) :
    after Cert.ReferenceIdeal.Hand.w5_s2 WR (Proc.devRef .tc Cert.ReferenceIdeal.main_v167) = WR (Proc.devRef .tc Cert.ReferenceIdeal.main_v167) := by
  keep_step Cert.ReferenceIdeal.Hand.w5_s2
theorem keepK_w5_s2_main_v169 (WK : ValK F) :
    after Cert.KernelIdeal.Gen.main_part5_ops2 WK (Proc.devRef .tc Cert.KernelIdeal.main_v169) = WK (Proc.devRef .tc Cert.KernelIdeal.main_v169) := by
  keep_step Cert.KernelIdeal.Gen.main_part5_ops2
theorem keepR_w5_s2_main_v169 (WR : ValR F) :
    after Cert.ReferenceIdeal.Hand.w5_s2 WR (Proc.devRef .tc Cert.ReferenceIdeal.main_v169) = WR (Proc.devRef .tc Cert.ReferenceIdeal.main_v169) := by
  keep_step Cert.ReferenceIdeal.Hand.w5_s2
theorem keepK_w5_s2_main_v171 (WK : ValK F) :
    after Cert.KernelIdeal.Gen.main_part5_ops2 WK (Proc.devRef .tc Cert.KernelIdeal.main_v171) = WK (Proc.devRef .tc Cert.KernelIdeal.main_v171) := by
  keep_step Cert.KernelIdeal.Gen.main_part5_ops2
theorem keepR_w5_s2_main_v171 (WR : ValR F) :
    after Cert.ReferenceIdeal.Hand.w5_s2 WR (Proc.devRef .tc Cert.ReferenceIdeal.main_v171) = WR (Proc.devRef .tc Cert.ReferenceIdeal.main_v171) := by
  keep_step Cert.ReferenceIdeal.Hand.w5_s2
theorem keepK_w5_s2_main_v172 (WK : ValK F) :
    after Cert.KernelIdeal.Gen.main_part5_ops2 WK (Proc.devRef .tc Cert.KernelIdeal.main_v172) = WK (Proc.devRef .tc Cert.KernelIdeal.main_v172) := by
  keep_step Cert.KernelIdeal.Gen.main_part5_ops2
theorem keepR_w5_s2_main_v172 (WR : ValR F) :
    after Cert.ReferenceIdeal.Hand.w5_s2 WR (Proc.devRef .tc Cert.ReferenceIdeal.main_v172) = WR (Proc.devRef .tc Cert.ReferenceIdeal.main_v172) := by
  keep_step Cert.ReferenceIdeal.Hand.w5_s2
theorem phiK_w5_s2_main_c_138 (WK : ValK F) :
    @Eq ((⟨S_, .i32⟩ : BufTy).Contents (Elt F)) (after Cert.KernelIdeal.Gen.main_part5_ops2 WK (Proc.devRef .tc Cert.KernelIdeal.main_c_138))
      (phi_w5_s2_main_c_138) := by
  phi_step Cert.KernelIdeal.Gen.main_part5_ops2 phi_w5_s2_main_c_138
theorem phiR_w5_s2_main_c_138 (WR : ValR F) :
    @Eq ((⟨S_, .i32⟩ : BufTy).Contents (Elt F)) (after Cert.ReferenceIdeal.Hand.w5_s2 WR (Proc.devRef .tc Cert.ReferenceIdeal.main_c_138))
      (phi_w5_s2_main_c_138) := by
  phi_step Cert.ReferenceIdeal.Hand.w5_s2 phi_w5_s2_main_c_138

theorem sim_w5_s2 (WK : ValK F) (WR : ValR F) (h : Inv7 WK WR) :
    Inv8 (after Cert.KernelIdeal.Gen.main_part5_ops2 WK) (after Cert.ReferenceIdeal.Hand.w5_s2 WR) := by
  sim_step h Inv7 Inv8 [keepK_w5_s2_main_arg10, keepR_w5_s2_main_arg10, keepK_w5_s2_main_arg11, keepR_w5_s2_main_arg11, keepK_w5_s2_main_v20, keepR_w5_s2_main_v20, keepK_w5_s2_main_v41, keepR_w5_s2_main_v41, keepK_w5_s2_main_v62, keepR_w5_s2_main_v62, keepK_w5_s2_main_v83, keepR_w5_s2_main_v83, keepK_w5_s2_main_v104, keepR_w5_s2_main_v104, keepK_w5_s2_main_v125, keepR_w5_s2_main_v125, keepK_w5_s2_main_v146, keepR_w5_s2_main_v146, keepK_w5_s2_main_v167, keepR_w5_s2_main_v167, keepK_w5_s2_main_v169, keepR_w5_s2_main_v169, keepK_w5_s2_main_v171, keepR_w5_s2_main_v171, keepK_w5_s2_main_v172, keepR_w5_s2_main_v172, phiK_w5_s2_main_c_138, phiR_w5_s2_main_c_138]

theorem keepK_w5_s3_main_arg10 (WK : ValK F) :
    after Cert.KernelIdeal.Gen.main_part5_ops3 WK (Proc.devRef .tc Cert.KernelIdeal.main_arg10) = WK (Proc.devRef .tc Cert.KernelIdeal.main_arg10) := by
  keep_step Cert.KernelIdeal.Gen.main_part5_ops3
theorem keepR_w5_s3_main_arg10 (WR : ValR F) :
    after Cert.ReferenceIdeal.Hand.w5_s3 WR (Proc.devRef .tc Cert.ReferenceIdeal.main_arg10) = WR (Proc.devRef .tc Cert.ReferenceIdeal.main_arg10) := by
  keep_step Cert.ReferenceIdeal.Hand.w5_s3
theorem keepK_w5_s3_main_arg11 (WK : ValK F) :
    after Cert.KernelIdeal.Gen.main_part5_ops3 WK (Proc.devRef .tc Cert.KernelIdeal.main_arg11) = WK (Proc.devRef .tc Cert.KernelIdeal.main_arg11) := by
  keep_step Cert.KernelIdeal.Gen.main_part5_ops3
theorem keepR_w5_s3_main_arg11 (WR : ValR F) :
    after Cert.ReferenceIdeal.Hand.w5_s3 WR (Proc.devRef .tc Cert.ReferenceIdeal.main_arg11) = WR (Proc.devRef .tc Cert.ReferenceIdeal.main_arg11) := by
  keep_step Cert.ReferenceIdeal.Hand.w5_s3
theorem keepK_w5_s3_main_v20 (WK : ValK F) :
    after Cert.KernelIdeal.Gen.main_part5_ops3 WK (Proc.devRef .tc Cert.KernelIdeal.main_v20) = WK (Proc.devRef .tc Cert.KernelIdeal.main_v20) := by
  keep_step Cert.KernelIdeal.Gen.main_part5_ops3
theorem keepR_w5_s3_main_v20 (WR : ValR F) :
    after Cert.ReferenceIdeal.Hand.w5_s3 WR (Proc.devRef .tc Cert.ReferenceIdeal.main_v20) = WR (Proc.devRef .tc Cert.ReferenceIdeal.main_v20) := by
  keep_step Cert.ReferenceIdeal.Hand.w5_s3
theorem keepK_w5_s3_main_v41 (WK : ValK F) :
    after Cert.KernelIdeal.Gen.main_part5_ops3 WK (Proc.devRef .tc Cert.KernelIdeal.main_v41) = WK (Proc.devRef .tc Cert.KernelIdeal.main_v41) := by
  keep_step Cert.KernelIdeal.Gen.main_part5_ops3
theorem keepR_w5_s3_main_v41 (WR : ValR F) :
    after Cert.ReferenceIdeal.Hand.w5_s3 WR (Proc.devRef .tc Cert.ReferenceIdeal.main_v41) = WR (Proc.devRef .tc Cert.ReferenceIdeal.main_v41) := by
  keep_step Cert.ReferenceIdeal.Hand.w5_s3
theorem keepK_w5_s3_main_v62 (WK : ValK F) :
    after Cert.KernelIdeal.Gen.main_part5_ops3 WK (Proc.devRef .tc Cert.KernelIdeal.main_v62) = WK (Proc.devRef .tc Cert.KernelIdeal.main_v62) := by
  keep_step Cert.KernelIdeal.Gen.main_part5_ops3
theorem keepR_w5_s3_main_v62 (WR : ValR F) :
    after Cert.ReferenceIdeal.Hand.w5_s3 WR (Proc.devRef .tc Cert.ReferenceIdeal.main_v62) = WR (Proc.devRef .tc Cert.ReferenceIdeal.main_v62) := by
  keep_step Cert.ReferenceIdeal.Hand.w5_s3
theorem keepK_w5_s3_main_v83 (WK : ValK F) :
    after Cert.KernelIdeal.Gen.main_part5_ops3 WK (Proc.devRef .tc Cert.KernelIdeal.main_v83) = WK (Proc.devRef .tc Cert.KernelIdeal.main_v83) := by
  keep_step Cert.KernelIdeal.Gen.main_part5_ops3
theorem keepR_w5_s3_main_v83 (WR : ValR F) :
    after Cert.ReferenceIdeal.Hand.w5_s3 WR (Proc.devRef .tc Cert.ReferenceIdeal.main_v83) = WR (Proc.devRef .tc Cert.ReferenceIdeal.main_v83) := by
  keep_step Cert.ReferenceIdeal.Hand.w5_s3
theorem keepK_w5_s3_main_v104 (WK : ValK F) :
    after Cert.KernelIdeal.Gen.main_part5_ops3 WK (Proc.devRef .tc Cert.KernelIdeal.main_v104) = WK (Proc.devRef .tc Cert.KernelIdeal.main_v104) := by
  keep_step Cert.KernelIdeal.Gen.main_part5_ops3
theorem keepR_w5_s3_main_v104 (WR : ValR F) :
    after Cert.ReferenceIdeal.Hand.w5_s3 WR (Proc.devRef .tc Cert.ReferenceIdeal.main_v104) = WR (Proc.devRef .tc Cert.ReferenceIdeal.main_v104) := by
  keep_step Cert.ReferenceIdeal.Hand.w5_s3
theorem keepK_w5_s3_main_v125 (WK : ValK F) :
    after Cert.KernelIdeal.Gen.main_part5_ops3 WK (Proc.devRef .tc Cert.KernelIdeal.main_v125) = WK (Proc.devRef .tc Cert.KernelIdeal.main_v125) := by
  keep_step Cert.KernelIdeal.Gen.main_part5_ops3
theorem keepR_w5_s3_main_v125 (WR : ValR F) :
    after Cert.ReferenceIdeal.Hand.w5_s3 WR (Proc.devRef .tc Cert.ReferenceIdeal.main_v125) = WR (Proc.devRef .tc Cert.ReferenceIdeal.main_v125) := by
  keep_step Cert.ReferenceIdeal.Hand.w5_s3
theorem keepK_w5_s3_main_v146 (WK : ValK F) :
    after Cert.KernelIdeal.Gen.main_part5_ops3 WK (Proc.devRef .tc Cert.KernelIdeal.main_v146) = WK (Proc.devRef .tc Cert.KernelIdeal.main_v146) := by
  keep_step Cert.KernelIdeal.Gen.main_part5_ops3
theorem keepR_w5_s3_main_v146 (WR : ValR F) :
    after Cert.ReferenceIdeal.Hand.w5_s3 WR (Proc.devRef .tc Cert.ReferenceIdeal.main_v146) = WR (Proc.devRef .tc Cert.ReferenceIdeal.main_v146) := by
  keep_step Cert.ReferenceIdeal.Hand.w5_s3
theorem keepK_w5_s3_main_v167 (WK : ValK F) :
    after Cert.KernelIdeal.Gen.main_part5_ops3 WK (Proc.devRef .tc Cert.KernelIdeal.main_v167) = WK (Proc.devRef .tc Cert.KernelIdeal.main_v167) := by
  keep_step Cert.KernelIdeal.Gen.main_part5_ops3
theorem keepR_w5_s3_main_v167 (WR : ValR F) :
    after Cert.ReferenceIdeal.Hand.w5_s3 WR (Proc.devRef .tc Cert.ReferenceIdeal.main_v167) = WR (Proc.devRef .tc Cert.ReferenceIdeal.main_v167) := by
  keep_step Cert.ReferenceIdeal.Hand.w5_s3
theorem keepK_w5_s3_main_v169 (WK : ValK F) :
    after Cert.KernelIdeal.Gen.main_part5_ops3 WK (Proc.devRef .tc Cert.KernelIdeal.main_v169) = WK (Proc.devRef .tc Cert.KernelIdeal.main_v169) := by
  keep_step Cert.KernelIdeal.Gen.main_part5_ops3
theorem keepR_w5_s3_main_v169 (WR : ValR F) :
    after Cert.ReferenceIdeal.Hand.w5_s3 WR (Proc.devRef .tc Cert.ReferenceIdeal.main_v169) = WR (Proc.devRef .tc Cert.ReferenceIdeal.main_v169) := by
  keep_step Cert.ReferenceIdeal.Hand.w5_s3
theorem keepK_w5_s3_main_v171 (WK : ValK F) :
    after Cert.KernelIdeal.Gen.main_part5_ops3 WK (Proc.devRef .tc Cert.KernelIdeal.main_v171) = WK (Proc.devRef .tc Cert.KernelIdeal.main_v171) := by
  keep_step Cert.KernelIdeal.Gen.main_part5_ops3
theorem keepR_w5_s3_main_v171 (WR : ValR F) :
    after Cert.ReferenceIdeal.Hand.w5_s3 WR (Proc.devRef .tc Cert.ReferenceIdeal.main_v171) = WR (Proc.devRef .tc Cert.ReferenceIdeal.main_v171) := by
  keep_step Cert.ReferenceIdeal.Hand.w5_s3
theorem keepK_w5_s3_main_v172 (WK : ValK F) :
    after Cert.KernelIdeal.Gen.main_part5_ops3 WK (Proc.devRef .tc Cert.KernelIdeal.main_v172) = WK (Proc.devRef .tc Cert.KernelIdeal.main_v172) := by
  keep_step Cert.KernelIdeal.Gen.main_part5_ops3
theorem keepR_w5_s3_main_v172 (WR : ValR F) :
    after Cert.ReferenceIdeal.Hand.w5_s3 WR (Proc.devRef .tc Cert.ReferenceIdeal.main_v172) = WR (Proc.devRef .tc Cert.ReferenceIdeal.main_v172) := by
  keep_step Cert.ReferenceIdeal.Hand.w5_s3

theorem sim_w5_s3 (WK : ValK F) (WR : ValR F) (h : Inv8 WK WR) :
    Inv9 (after Cert.KernelIdeal.Gen.main_part5_ops3 WK) (after Cert.ReferenceIdeal.Hand.w5_s3 WR) := by
  sim_step h Inv8 Inv9 [keepK_w5_s3_main_arg10, keepR_w5_s3_main_arg10, keepK_w5_s3_main_arg11, keepR_w5_s3_main_arg11, keepK_w5_s3_main_v20, keepR_w5_s3_main_v20, keepK_w5_s3_main_v41, keepR_w5_s3_main_v41, keepK_w5_s3_main_v62, keepR_w5_s3_main_v62, keepK_w5_s3_main_v83, keepR_w5_s3_main_v83, keepK_w5_s3_main_v104, keepR_w5_s3_main_v104, keepK_w5_s3_main_v125, keepR_w5_s3_main_v125, keepK_w5_s3_main_v146, keepR_w5_s3_main_v146, keepK_w5_s3_main_v167, keepR_w5_s3_main_v167, keepK_w5_s3_main_v169, keepR_w5_s3_main_v169, keepK_w5_s3_main_v171, keepR_w5_s3_main_v171, keepK_w5_s3_main_v172, keepR_w5_s3_main_v172]

theorem keepK_w5_s4_main_arg10 (WK : ValK F) :
    after Cert.KernelIdeal.Gen.main_part5_ops4 WK (Proc.devRef .tc Cert.KernelIdeal.main_arg10) = WK (Proc.devRef .tc Cert.KernelIdeal.main_arg10) := by
  keep_step Cert.KernelIdeal.Gen.main_part5_ops4
theorem keepR_w5_s4_main_arg10 (WR : ValR F) :
    after Cert.ReferenceIdeal.Hand.w5_s4 WR (Proc.devRef .tc Cert.ReferenceIdeal.main_arg10) = WR (Proc.devRef .tc Cert.ReferenceIdeal.main_arg10) := by
  keep_step Cert.ReferenceIdeal.Hand.w5_s4
theorem keepK_w5_s4_main_arg11 (WK : ValK F) :
    after Cert.KernelIdeal.Gen.main_part5_ops4 WK (Proc.devRef .tc Cert.KernelIdeal.main_arg11) = WK (Proc.devRef .tc Cert.KernelIdeal.main_arg11) := by
  keep_step Cert.KernelIdeal.Gen.main_part5_ops4
theorem keepR_w5_s4_main_arg11 (WR : ValR F) :
    after Cert.ReferenceIdeal.Hand.w5_s4 WR (Proc.devRef .tc Cert.ReferenceIdeal.main_arg11) = WR (Proc.devRef .tc Cert.ReferenceIdeal.main_arg11) := by
  keep_step Cert.ReferenceIdeal.Hand.w5_s4
theorem keepK_w5_s4_main_v20 (WK : ValK F) :
    after Cert.KernelIdeal.Gen.main_part5_ops4 WK (Proc.devRef .tc Cert.KernelIdeal.main_v20) = WK (Proc.devRef .tc Cert.KernelIdeal.main_v20) := by
  keep_step Cert.KernelIdeal.Gen.main_part5_ops4
theorem keepR_w5_s4_main_v20 (WR : ValR F) :
    after Cert.ReferenceIdeal.Hand.w5_s4 WR (Proc.devRef .tc Cert.ReferenceIdeal.main_v20) = WR (Proc.devRef .tc Cert.ReferenceIdeal.main_v20) := by
  keep_step Cert.ReferenceIdeal.Hand.w5_s4
theorem keepK_w5_s4_main_v41 (WK : ValK F) :
    after Cert.KernelIdeal.Gen.main_part5_ops4 WK (Proc.devRef .tc Cert.KernelIdeal.main_v41) = WK (Proc.devRef .tc Cert.KernelIdeal.main_v41) := by
  keep_step Cert.KernelIdeal.Gen.main_part5_ops4
theorem keepR_w5_s4_main_v41 (WR : ValR F) :
    after Cert.ReferenceIdeal.Hand.w5_s4 WR (Proc.devRef .tc Cert.ReferenceIdeal.main_v41) = WR (Proc.devRef .tc Cert.ReferenceIdeal.main_v41) := by
  keep_step Cert.ReferenceIdeal.Hand.w5_s4
theorem keepK_w5_s4_main_v62 (WK : ValK F) :
    after Cert.KernelIdeal.Gen.main_part5_ops4 WK (Proc.devRef .tc Cert.KernelIdeal.main_v62) = WK (Proc.devRef .tc Cert.KernelIdeal.main_v62) := by
  keep_step Cert.KernelIdeal.Gen.main_part5_ops4
theorem keepR_w5_s4_main_v62 (WR : ValR F) :
    after Cert.ReferenceIdeal.Hand.w5_s4 WR (Proc.devRef .tc Cert.ReferenceIdeal.main_v62) = WR (Proc.devRef .tc Cert.ReferenceIdeal.main_v62) := by
  keep_step Cert.ReferenceIdeal.Hand.w5_s4
theorem keepK_w5_s4_main_v83 (WK : ValK F) :
    after Cert.KernelIdeal.Gen.main_part5_ops4 WK (Proc.devRef .tc Cert.KernelIdeal.main_v83) = WK (Proc.devRef .tc Cert.KernelIdeal.main_v83) := by
  keep_step Cert.KernelIdeal.Gen.main_part5_ops4
theorem keepR_w5_s4_main_v83 (WR : ValR F) :
    after Cert.ReferenceIdeal.Hand.w5_s4 WR (Proc.devRef .tc Cert.ReferenceIdeal.main_v83) = WR (Proc.devRef .tc Cert.ReferenceIdeal.main_v83) := by
  keep_step Cert.ReferenceIdeal.Hand.w5_s4
theorem keepK_w5_s4_main_v104 (WK : ValK F) :
    after Cert.KernelIdeal.Gen.main_part5_ops4 WK (Proc.devRef .tc Cert.KernelIdeal.main_v104) = WK (Proc.devRef .tc Cert.KernelIdeal.main_v104) := by
  keep_step Cert.KernelIdeal.Gen.main_part5_ops4
theorem keepR_w5_s4_main_v104 (WR : ValR F) :
    after Cert.ReferenceIdeal.Hand.w5_s4 WR (Proc.devRef .tc Cert.ReferenceIdeal.main_v104) = WR (Proc.devRef .tc Cert.ReferenceIdeal.main_v104) := by
  keep_step Cert.ReferenceIdeal.Hand.w5_s4
theorem keepK_w5_s4_main_v125 (WK : ValK F) :
    after Cert.KernelIdeal.Gen.main_part5_ops4 WK (Proc.devRef .tc Cert.KernelIdeal.main_v125) = WK (Proc.devRef .tc Cert.KernelIdeal.main_v125) := by
  keep_step Cert.KernelIdeal.Gen.main_part5_ops4
theorem keepR_w5_s4_main_v125 (WR : ValR F) :
    after Cert.ReferenceIdeal.Hand.w5_s4 WR (Proc.devRef .tc Cert.ReferenceIdeal.main_v125) = WR (Proc.devRef .tc Cert.ReferenceIdeal.main_v125) := by
  keep_step Cert.ReferenceIdeal.Hand.w5_s4
theorem keepK_w5_s4_main_v146 (WK : ValK F) :
    after Cert.KernelIdeal.Gen.main_part5_ops4 WK (Proc.devRef .tc Cert.KernelIdeal.main_v146) = WK (Proc.devRef .tc Cert.KernelIdeal.main_v146) := by
  keep_step Cert.KernelIdeal.Gen.main_part5_ops4
theorem keepR_w5_s4_main_v146 (WR : ValR F) :
    after Cert.ReferenceIdeal.Hand.w5_s4 WR (Proc.devRef .tc Cert.ReferenceIdeal.main_v146) = WR (Proc.devRef .tc Cert.ReferenceIdeal.main_v146) := by
  keep_step Cert.ReferenceIdeal.Hand.w5_s4
theorem keepK_w5_s4_main_v167 (WK : ValK F) :
    after Cert.KernelIdeal.Gen.main_part5_ops4 WK (Proc.devRef .tc Cert.KernelIdeal.main_v167) = WK (Proc.devRef .tc Cert.KernelIdeal.main_v167) := by
  keep_step Cert.KernelIdeal.Gen.main_part5_ops4
theorem keepR_w5_s4_main_v167 (WR : ValR F) :
    after Cert.ReferenceIdeal.Hand.w5_s4 WR (Proc.devRef .tc Cert.ReferenceIdeal.main_v167) = WR (Proc.devRef .tc Cert.ReferenceIdeal.main_v167) := by
  keep_step Cert.ReferenceIdeal.Hand.w5_s4
theorem keepK_w5_s4_main_v169 (WK : ValK F) :
    after Cert.KernelIdeal.Gen.main_part5_ops4 WK (Proc.devRef .tc Cert.KernelIdeal.main_v169) = WK (Proc.devRef .tc Cert.KernelIdeal.main_v169) := by
  keep_step Cert.KernelIdeal.Gen.main_part5_ops4
theorem keepR_w5_s4_main_v169 (WR : ValR F) :
    after Cert.ReferenceIdeal.Hand.w5_s4 WR (Proc.devRef .tc Cert.ReferenceIdeal.main_v169) = WR (Proc.devRef .tc Cert.ReferenceIdeal.main_v169) := by
  keep_step Cert.ReferenceIdeal.Hand.w5_s4
theorem keepK_w5_s4_main_v171 (WK : ValK F) :
    after Cert.KernelIdeal.Gen.main_part5_ops4 WK (Proc.devRef .tc Cert.KernelIdeal.main_v171) = WK (Proc.devRef .tc Cert.KernelIdeal.main_v171) := by
  keep_step Cert.KernelIdeal.Gen.main_part5_ops4
theorem keepR_w5_s4_main_v171 (WR : ValR F) :
    after Cert.ReferenceIdeal.Hand.w5_s4 WR (Proc.devRef .tc Cert.ReferenceIdeal.main_v171) = WR (Proc.devRef .tc Cert.ReferenceIdeal.main_v171) := by
  keep_step Cert.ReferenceIdeal.Hand.w5_s4
theorem keepK_w5_s4_main_v172 (WK : ValK F) :
    after Cert.KernelIdeal.Gen.main_part5_ops4 WK (Proc.devRef .tc Cert.KernelIdeal.main_v172) = WK (Proc.devRef .tc Cert.KernelIdeal.main_v172) := by
  keep_step Cert.KernelIdeal.Gen.main_part5_ops4
theorem keepR_w5_s4_main_v172 (WR : ValR F) :
    after Cert.ReferenceIdeal.Hand.w5_s4 WR (Proc.devRef .tc Cert.ReferenceIdeal.main_v172) = WR (Proc.devRef .tc Cert.ReferenceIdeal.main_v172) := by
  keep_step Cert.ReferenceIdeal.Hand.w5_s4
theorem phiK_w5_s4_main_c_139 (WK : ValK F) :
    @Eq ((⟨S_, .i32⟩ : BufTy).Contents (Elt F)) (after Cert.KernelIdeal.Gen.main_part5_ops4 WK (Proc.devRef .tc Cert.KernelIdeal.main_c_139))
      (phi_w5_s4_main_c_139) := by
  phi_step Cert.KernelIdeal.Gen.main_part5_ops4 phi_w5_s4_main_c_139
theorem phiR_w5_s4_main_c_139 (WR : ValR F) :
    @Eq ((⟨S_, .i32⟩ : BufTy).Contents (Elt F)) (after Cert.ReferenceIdeal.Hand.w5_s4 WR (Proc.devRef .tc Cert.ReferenceIdeal.main_c_139))
      (phi_w5_s4_main_c_139) := by
  phi_step Cert.ReferenceIdeal.Hand.w5_s4 phi_w5_s4_main_c_139

theorem sim_w5_s4 (WK : ValK F) (WR : ValR F) (h : Inv9 WK WR) :
    Inv10 (after Cert.KernelIdeal.Gen.main_part5_ops4 WK) (after Cert.ReferenceIdeal.Hand.w5_s4 WR) := by
  sim_step h Inv9 Inv10 [keepK_w5_s4_main_arg10, keepR_w5_s4_main_arg10, keepK_w5_s4_main_arg11, keepR_w5_s4_main_arg11, keepK_w5_s4_main_v20, keepR_w5_s4_main_v20, keepK_w5_s4_main_v41, keepR_w5_s4_main_v41, keepK_w5_s4_main_v62, keepR_w5_s4_main_v62, keepK_w5_s4_main_v83, keepR_w5_s4_main_v83, keepK_w5_s4_main_v104, keepR_w5_s4_main_v104, keepK_w5_s4_main_v125, keepR_w5_s4_main_v125, keepK_w5_s4_main_v146, keepR_w5_s4_main_v146, keepK_w5_s4_main_v167, keepR_w5_s4_main_v167, keepK_w5_s4_main_v169, keepR_w5_s4_main_v169, keepK_w5_s4_main_v171, keepR_w5_s4_main_v171, keepK_w5_s4_main_v172, keepR_w5_s4_main_v172, phiK_w5_s4_main_c_139, phiR_w5_s4_main_c_139]

theorem keepK_w5_s5_main_arg10 (WK : ValK F) :
    after Cert.KernelIdeal.Gen.main_part5_ops5 WK (Proc.devRef .tc Cert.KernelIdeal.main_arg10) = WK (Proc.devRef .tc Cert.KernelIdeal.main_arg10) := by
  keep_step Cert.KernelIdeal.Gen.main_part5_ops5
theorem keepR_w5_s5_main_arg10 (WR : ValR F) :
    after Cert.ReferenceIdeal.Hand.w5_s5 WR (Proc.devRef .tc Cert.ReferenceIdeal.main_arg10) = WR (Proc.devRef .tc Cert.ReferenceIdeal.main_arg10) := by
  keep_step Cert.ReferenceIdeal.Hand.w5_s5
theorem keepK_w5_s5_main_arg11 (WK : ValK F) :
    after Cert.KernelIdeal.Gen.main_part5_ops5 WK (Proc.devRef .tc Cert.KernelIdeal.main_arg11) = WK (Proc.devRef .tc Cert.KernelIdeal.main_arg11) := by
  keep_step Cert.KernelIdeal.Gen.main_part5_ops5
theorem keepR_w5_s5_main_arg11 (WR : ValR F) :
    after Cert.ReferenceIdeal.Hand.w5_s5 WR (Proc.devRef .tc Cert.ReferenceIdeal.main_arg11) = WR (Proc.devRef .tc Cert.ReferenceIdeal.main_arg11) := by
  keep_step Cert.ReferenceIdeal.Hand.w5_s5
theorem keepK_w5_s5_main_v20 (WK : ValK F) :
    after Cert.KernelIdeal.Gen.main_part5_ops5 WK (Proc.devRef .tc Cert.KernelIdeal.main_v20) = WK (Proc.devRef .tc Cert.KernelIdeal.main_v20) := by
  keep_step Cert.KernelIdeal.Gen.main_part5_ops5
theorem keepR_w5_s5_main_v20 (WR : ValR F) :
    after Cert.ReferenceIdeal.Hand.w5_s5 WR (Proc.devRef .tc Cert.ReferenceIdeal.main_v20) = WR (Proc.devRef .tc Cert.ReferenceIdeal.main_v20) := by
  keep_step Cert.ReferenceIdeal.Hand.w5_s5
theorem keepK_w5_s5_main_v41 (WK : ValK F) :
    after Cert.KernelIdeal.Gen.main_part5_ops5 WK (Proc.devRef .tc Cert.KernelIdeal.main_v41) = WK (Proc.devRef .tc Cert.KernelIdeal.main_v41) := by
  keep_step Cert.KernelIdeal.Gen.main_part5_ops5
theorem keepR_w5_s5_main_v41 (WR : ValR F) :
    after Cert.ReferenceIdeal.Hand.w5_s5 WR (Proc.devRef .tc Cert.ReferenceIdeal.main_v41) = WR (Proc.devRef .tc Cert.ReferenceIdeal.main_v41) := by
  keep_step Cert.ReferenceIdeal.Hand.w5_s5
theorem keepK_w5_s5_main_v62 (WK : ValK F) :
    after Cert.KernelIdeal.Gen.main_part5_ops5 WK (Proc.devRef .tc Cert.KernelIdeal.main_v62) = WK (Proc.devRef .tc Cert.KernelIdeal.main_v62) := by
  keep_step Cert.KernelIdeal.Gen.main_part5_ops5
theorem keepR_w5_s5_main_v62 (WR : ValR F) :
    after Cert.ReferenceIdeal.Hand.w5_s5 WR (Proc.devRef .tc Cert.ReferenceIdeal.main_v62) = WR (Proc.devRef .tc Cert.ReferenceIdeal.main_v62) := by
  keep_step Cert.ReferenceIdeal.Hand.w5_s5
theorem keepK_w5_s5_main_v83 (WK : ValK F) :
    after Cert.KernelIdeal.Gen.main_part5_ops5 WK (Proc.devRef .tc Cert.KernelIdeal.main_v83) = WK (Proc.devRef .tc Cert.KernelIdeal.main_v83) := by
  keep_step Cert.KernelIdeal.Gen.main_part5_ops5
theorem keepR_w5_s5_main_v83 (WR : ValR F) :
    after Cert.ReferenceIdeal.Hand.w5_s5 WR (Proc.devRef .tc Cert.ReferenceIdeal.main_v83) = WR (Proc.devRef .tc Cert.ReferenceIdeal.main_v83) := by
  keep_step Cert.ReferenceIdeal.Hand.w5_s5
theorem keepK_w5_s5_main_v104 (WK : ValK F) :
    after Cert.KernelIdeal.Gen.main_part5_ops5 WK (Proc.devRef .tc Cert.KernelIdeal.main_v104) = WK (Proc.devRef .tc Cert.KernelIdeal.main_v104) := by
  keep_step Cert.KernelIdeal.Gen.main_part5_ops5
theorem keepR_w5_s5_main_v104 (WR : ValR F) :
    after Cert.ReferenceIdeal.Hand.w5_s5 WR (Proc.devRef .tc Cert.ReferenceIdeal.main_v104) = WR (Proc.devRef .tc Cert.ReferenceIdeal.main_v104) := by
  keep_step Cert.ReferenceIdeal.Hand.w5_s5
theorem keepK_w5_s5_main_v125 (WK : ValK F) :
    after Cert.KernelIdeal.Gen.main_part5_ops5 WK (Proc.devRef .tc Cert.KernelIdeal.main_v125) = WK (Proc.devRef .tc Cert.KernelIdeal.main_v125) := by
  keep_step Cert.KernelIdeal.Gen.main_part5_ops5
theorem keepR_w5_s5_main_v125 (WR : ValR F) :
    after Cert.ReferenceIdeal.Hand.w5_s5 WR (Proc.devRef .tc Cert.ReferenceIdeal.main_v125) = WR (Proc.devRef .tc Cert.ReferenceIdeal.main_v125) := by
  keep_step Cert.ReferenceIdeal.Hand.w5_s5
theorem keepK_w5_s5_main_v146 (WK : ValK F) :
    after Cert.KernelIdeal.Gen.main_part5_ops5 WK (Proc.devRef .tc Cert.KernelIdeal.main_v146) = WK (Proc.devRef .tc Cert.KernelIdeal.main_v146) := by
  keep_step Cert.KernelIdeal.Gen.main_part5_ops5
theorem keepR_w5_s5_main_v146 (WR : ValR F) :
    after Cert.ReferenceIdeal.Hand.w5_s5 WR (Proc.devRef .tc Cert.ReferenceIdeal.main_v146) = WR (Proc.devRef .tc Cert.ReferenceIdeal.main_v146) := by
  keep_step Cert.ReferenceIdeal.Hand.w5_s5
theorem keepK_w5_s5_main_v167 (WK : ValK F) :
    after Cert.KernelIdeal.Gen.main_part5_ops5 WK (Proc.devRef .tc Cert.KernelIdeal.main_v167) = WK (Proc.devRef .tc Cert.KernelIdeal.main_v167) := by
  keep_step Cert.KernelIdeal.Gen.main_part5_ops5
theorem keepR_w5_s5_main_v167 (WR : ValR F) :
    after Cert.ReferenceIdeal.Hand.w5_s5 WR (Proc.devRef .tc Cert.ReferenceIdeal.main_v167) = WR (Proc.devRef .tc Cert.ReferenceIdeal.main_v167) := by
  keep_step Cert.ReferenceIdeal.Hand.w5_s5
theorem keepK_w5_s5_main_v169 (WK : ValK F) :
    after Cert.KernelIdeal.Gen.main_part5_ops5 WK (Proc.devRef .tc Cert.KernelIdeal.main_v169) = WK (Proc.devRef .tc Cert.KernelIdeal.main_v169) := by
  keep_step Cert.KernelIdeal.Gen.main_part5_ops5
theorem keepR_w5_s5_main_v169 (WR : ValR F) :
    after Cert.ReferenceIdeal.Hand.w5_s5 WR (Proc.devRef .tc Cert.ReferenceIdeal.main_v169) = WR (Proc.devRef .tc Cert.ReferenceIdeal.main_v169) := by
  keep_step Cert.ReferenceIdeal.Hand.w5_s5
theorem keepK_w5_s5_main_v171 (WK : ValK F) :
    after Cert.KernelIdeal.Gen.main_part5_ops5 WK (Proc.devRef .tc Cert.KernelIdeal.main_v171) = WK (Proc.devRef .tc Cert.KernelIdeal.main_v171) := by
  keep_step Cert.KernelIdeal.Gen.main_part5_ops5
theorem keepR_w5_s5_main_v171 (WR : ValR F) :
    after Cert.ReferenceIdeal.Hand.w5_s5 WR (Proc.devRef .tc Cert.ReferenceIdeal.main_v171) = WR (Proc.devRef .tc Cert.ReferenceIdeal.main_v171) := by
  keep_step Cert.ReferenceIdeal.Hand.w5_s5
theorem keepK_w5_s5_main_v172 (WK : ValK F) :
    after Cert.KernelIdeal.Gen.main_part5_ops5 WK (Proc.devRef .tc Cert.KernelIdeal.main_v172) = WK (Proc.devRef .tc Cert.KernelIdeal.main_v172) := by
  keep_step Cert.KernelIdeal.Gen.main_part5_ops5
theorem keepR_w5_s5_main_v172 (WR : ValR F) :
    after Cert.ReferenceIdeal.Hand.w5_s5 WR (Proc.devRef .tc Cert.ReferenceIdeal.main_v172) = WR (Proc.devRef .tc Cert.ReferenceIdeal.main_v172) := by
  keep_step Cert.ReferenceIdeal.Hand.w5_s5
theorem phiK_w5_s5_main_v174 (WK : ValK F) :
    @Eq ((⟨S16, .i32⟩ : BufTy).Contents (Elt F)) (after Cert.KernelIdeal.Gen.main_part5_ops5 WK (Proc.devRef .tc Cert.KernelIdeal.main_v174))
      (phi_w5_s5_main_v174 (WK (Proc.devRef .tc Cert.KernelIdeal.main_v171)) (WK (Proc.devRef .tc Cert.KernelIdeal.main_c_139))) := by
  phi_step Cert.KernelIdeal.Gen.main_part5_ops5 phi_w5_s5_main_v174
theorem phiR_w5_s5_main_v174 (WR : ValR F) :
    @Eq ((⟨S16, .i32⟩ : BufTy).Contents (Elt F)) (after Cert.ReferenceIdeal.Hand.w5_s5 WR (Proc.devRef .tc Cert.ReferenceIdeal.main_v174))
      (phi_w5_s5_main_v174 (WR (Proc.devRef .tc Cert.ReferenceIdeal.main_v171)) (WR (Proc.devRef .tc Cert.ReferenceIdeal.main_c_139))) := by
  phi_step Cert.ReferenceIdeal.Hand.w5_s5 phi_w5_s5_main_v174

theorem sim_w5_s5 (WK : ValK F) (WR : ValR F) (h : Inv10 WK WR) :
    Inv11 (after Cert.KernelIdeal.Gen.main_part5_ops5 WK) (after Cert.ReferenceIdeal.Hand.w5_s5 WR) := by
  sim_step h Inv10 Inv11 [keepK_w5_s5_main_arg10, keepR_w5_s5_main_arg10, keepK_w5_s5_main_arg11, keepR_w5_s5_main_arg11, keepK_w5_s5_main_v20, keepR_w5_s5_main_v20, keepK_w5_s5_main_v41, keepR_w5_s5_main_v41, keepK_w5_s5_main_v62, keepR_w5_s5_main_v62, keepK_w5_s5_main_v83, keepR_w5_s5_main_v83, keepK_w5_s5_main_v104, keepR_w5_s5_main_v104, keepK_w5_s5_main_v125, keepR_w5_s5_main_v125, keepK_w5_s5_main_v146, keepR_w5_s5_main_v146, keepK_w5_s5_main_v167, keepR_w5_s5_main_v167, keepK_w5_s5_main_v169, keepR_w5_s5_main_v169, keepK_w5_s5_main_v171, keepR_w5_s5_main_v171, keepK_w5_s5_main_v172, keepR_w5_s5_main_v172, phiK_w5_s5_main_v174, phiR_w5_s5_main_v174]

theorem keepK_w5_s6_main_arg10 (WK : ValK F) :
    after Cert.KernelIdeal.Gen.main_part5_ops6 WK (Proc.devRef .tc Cert.KernelIdeal.main_arg10) = WK (Proc.devRef .tc Cert.KernelIdeal.main_arg10) := by
  keep_step Cert.KernelIdeal.Gen.main_part5_ops6
theorem keepR_w5_s6_main_arg10 (WR : ValR F) :
    after Cert.ReferenceIdeal.Hand.w5_s6 WR (Proc.devRef .tc Cert.ReferenceIdeal.main_arg10) = WR (Proc.devRef .tc Cert.ReferenceIdeal.main_arg10) := by
  keep_step Cert.ReferenceIdeal.Hand.w5_s6
theorem keepK_w5_s6_main_arg11 (WK : ValK F) :
    after Cert.KernelIdeal.Gen.main_part5_ops6 WK (Proc.devRef .tc Cert.KernelIdeal.main_arg11) = WK (Proc.devRef .tc Cert.KernelIdeal.main_arg11) := by
  keep_step Cert.KernelIdeal.Gen.main_part5_ops6
theorem keepR_w5_s6_main_arg11 (WR : ValR F) :
    after Cert.ReferenceIdeal.Hand.w5_s6 WR (Proc.devRef .tc Cert.ReferenceIdeal.main_arg11) = WR (Proc.devRef .tc Cert.ReferenceIdeal.main_arg11) := by
  keep_step Cert.ReferenceIdeal.Hand.w5_s6
theorem keepK_w5_s6_main_v20 (WK : ValK F) :
    after Cert.KernelIdeal.Gen.main_part5_ops6 WK (Proc.devRef .tc Cert.KernelIdeal.main_v20) = WK (Proc.devRef .tc Cert.KernelIdeal.main_v20) := by
  keep_step Cert.KernelIdeal.Gen.main_part5_ops6
theorem keepR_w5_s6_main_v20 (WR : ValR F) :
    after Cert.ReferenceIdeal.Hand.w5_s6 WR (Proc.devRef .tc Cert.ReferenceIdeal.main_v20) = WR (Proc.devRef .tc Cert.ReferenceIdeal.main_v20) := by
  keep_step Cert.ReferenceIdeal.Hand.w5_s6
theorem keepK_w5_s6_main_v41 (WK : ValK F) :
    after Cert.KernelIdeal.Gen.main_part5_ops6 WK (Proc.devRef .tc Cert.KernelIdeal.main_v41) = WK (Proc.devRef .tc Cert.KernelIdeal.main_v41) := by
  keep_step Cert.KernelIdeal.Gen.main_part5_ops6
theorem keepR_w5_s6_main_v41 (WR : ValR F) :
    after Cert.ReferenceIdeal.Hand.w5_s6 WR (Proc.devRef .tc Cert.ReferenceIdeal.main_v41) = WR (Proc.devRef .tc Cert.ReferenceIdeal.main_v41) := by
  keep_step Cert.ReferenceIdeal.Hand.w5_s6
theorem keepK_w5_s6_main_v62 (WK : ValK F) :
    after Cert.KernelIdeal.Gen.main_part5_ops6 WK (Proc.devRef .tc Cert.KernelIdeal.main_v62) = WK (Proc.devRef .tc Cert.KernelIdeal.main_v62) := by
  keep_step Cert.KernelIdeal.Gen.main_part5_ops6
theorem keepR_w5_s6_main_v62 (WR : ValR F) :
    after Cert.ReferenceIdeal.Hand.w5_s6 WR (Proc.devRef .tc Cert.ReferenceIdeal.main_v62) = WR (Proc.devRef .tc Cert.ReferenceIdeal.main_v62) := by
  keep_step Cert.ReferenceIdeal.Hand.w5_s6
theorem keepK_w5_s6_main_v83 (WK : ValK F) :
    after Cert.KernelIdeal.Gen.main_part5_ops6 WK (Proc.devRef .tc Cert.KernelIdeal.main_v83) = WK (Proc.devRef .tc Cert.KernelIdeal.main_v83) := by
  keep_step Cert.KernelIdeal.Gen.main_part5_ops6
theorem keepR_w5_s6_main_v83 (WR : ValR F) :
    after Cert.ReferenceIdeal.Hand.w5_s6 WR (Proc.devRef .tc Cert.ReferenceIdeal.main_v83) = WR (Proc.devRef .tc Cert.ReferenceIdeal.main_v83) := by
  keep_step Cert.ReferenceIdeal.Hand.w5_s6
theorem keepK_w5_s6_main_v104 (WK : ValK F) :
    after Cert.KernelIdeal.Gen.main_part5_ops6 WK (Proc.devRef .tc Cert.KernelIdeal.main_v104) = WK (Proc.devRef .tc Cert.KernelIdeal.main_v104) := by
  keep_step Cert.KernelIdeal.Gen.main_part5_ops6
theorem keepR_w5_s6_main_v104 (WR : ValR F) :
    after Cert.ReferenceIdeal.Hand.w5_s6 WR (Proc.devRef .tc Cert.ReferenceIdeal.main_v104) = WR (Proc.devRef .tc Cert.ReferenceIdeal.main_v104) := by
  keep_step Cert.ReferenceIdeal.Hand.w5_s6
theorem keepK_w5_s6_main_v125 (WK : ValK F) :
    after Cert.KernelIdeal.Gen.main_part5_ops6 WK (Proc.devRef .tc Cert.KernelIdeal.main_v125) = WK (Proc.devRef .tc Cert.KernelIdeal.main_v125) := by
  keep_step Cert.KernelIdeal.Gen.main_part5_ops6
theorem keepR_w5_s6_main_v125 (WR : ValR F) :
    after Cert.ReferenceIdeal.Hand.w5_s6 WR (Proc.devRef .tc Cert.ReferenceIdeal.main_v125) = WR (Proc.devRef .tc Cert.ReferenceIdeal.main_v125) := by
  keep_step Cert.ReferenceIdeal.Hand.w5_s6
theorem keepK_w5_s6_main_v146 (WK : ValK F) :
    after Cert.KernelIdeal.Gen.main_part5_ops6 WK (Proc.devRef .tc Cert.KernelIdeal.main_v146) = WK (Proc.devRef .tc Cert.KernelIdeal.main_v146) := by
  keep_step Cert.KernelIdeal.Gen.main_part5_ops6
theorem keepR_w5_s6_main_v146 (WR : ValR F) :
    after Cert.ReferenceIdeal.Hand.w5_s6 WR (Proc.devRef .tc Cert.ReferenceIdeal.main_v146) = WR (Proc.devRef .tc Cert.ReferenceIdeal.main_v146) := by
  keep_step Cert.ReferenceIdeal.Hand.w5_s6
theorem keepK_w5_s6_main_v167 (WK : ValK F) :
    after Cert.KernelIdeal.Gen.main_part5_ops6 WK (Proc.devRef .tc Cert.KernelIdeal.main_v167) = WK (Proc.devRef .tc Cert.KernelIdeal.main_v167) := by
  keep_step Cert.KernelIdeal.Gen.main_part5_ops6
theorem keepR_w5_s6_main_v167 (WR : ValR F) :
    after Cert.ReferenceIdeal.Hand.w5_s6 WR (Proc.devRef .tc Cert.ReferenceIdeal.main_v167) = WR (Proc.devRef .tc Cert.ReferenceIdeal.main_v167) := by
  keep_step Cert.ReferenceIdeal.Hand.w5_s6
theorem keepK_w5_s6_main_v169 (WK : ValK F) :
    after Cert.KernelIdeal.Gen.main_part5_ops6 WK (Proc.devRef .tc Cert.KernelIdeal.main_v169) = WK (Proc.devRef .tc Cert.KernelIdeal.main_v169) := by
  keep_step Cert.KernelIdeal.Gen.main_part5_ops6
theorem keepR_w5_s6_main_v169 (WR : ValR F) :
    after Cert.ReferenceIdeal.Hand.w5_s6 WR (Proc.devRef .tc Cert.ReferenceIdeal.main_v169) = WR (Proc.devRef .tc Cert.ReferenceIdeal.main_v169) := by
  keep_step Cert.ReferenceIdeal.Hand.w5_s6
theorem keepK_w5_s6_main_v171 (WK : ValK F) :
    after Cert.KernelIdeal.Gen.main_part5_ops6 WK (Proc.devRef .tc Cert.KernelIdeal.main_v171) = WK (Proc.devRef .tc Cert.KernelIdeal.main_v171) := by
  keep_step Cert.KernelIdeal.Gen.main_part5_ops6
theorem keepR_w5_s6_main_v171 (WR : ValR F) :
    after Cert.ReferenceIdeal.Hand.w5_s6 WR (Proc.devRef .tc Cert.ReferenceIdeal.main_v171) = WR (Proc.devRef .tc Cert.ReferenceIdeal.main_v171) := by
  keep_step Cert.ReferenceIdeal.Hand.w5_s6
theorem keepK_w5_s6_main_v172 (WK : ValK F) :
    after Cert.KernelIdeal.Gen.main_part5_ops6 WK (Proc.devRef .tc Cert.KernelIdeal.main_v172) = WK (Proc.devRef .tc Cert.KernelIdeal.main_v172) := by
  keep_step Cert.KernelIdeal.Gen.main_part5_ops6
theorem keepR_w5_s6_main_v172 (WR : ValR F) :
    after Cert.ReferenceIdeal.Hand.w5_s6 WR (Proc.devRef .tc Cert.ReferenceIdeal.main_v172) = WR (Proc.devRef .tc Cert.ReferenceIdeal.main_v172) := by
  keep_step Cert.ReferenceIdeal.Hand.w5_s6
theorem keepK_w5_s6_main_v174 (WK : ValK F) :
    after Cert.KernelIdeal.Gen.main_part5_ops6 WK (Proc.devRef .tc Cert.KernelIdeal.main_v174) = WK (Proc.devRef .tc Cert.KernelIdeal.main_v174) := by
  keep_step Cert.KernelIdeal.Gen.main_part5_ops6
theorem keepR_w5_s6_main_v174 (WR : ValR F) :
    after Cert.ReferenceIdeal.Hand.w5_s6 WR (Proc.devRef .tc Cert.ReferenceIdeal.main_v174) = WR (Proc.devRef .tc Cert.ReferenceIdeal.main_v174) := by
  keep_step Cert.ReferenceIdeal.Hand.w5_s6
theorem phiK_w5_s6_main_c_140 (WK : ValK F) :
    @Eq ((⟨S_, .i32⟩ : BufTy).Contents (Elt F)) (after Cert.KernelIdeal.Gen.main_part5_ops6 WK (Proc.devRef .tc Cert.KernelIdeal.main_c_140))
      (phi_w5_s6_main_c_140) := by
  phi_step Cert.KernelIdeal.Gen.main_part5_ops6 phi_w5_s6_main_c_140
theorem phiR_w5_s6_main_c_140 (WR : ValR F) :
    @Eq ((⟨S_, .i32⟩ : BufTy).Contents (Elt F)) (after Cert.ReferenceIdeal.Hand.w5_s6 WR (Proc.devRef .tc Cert.ReferenceIdeal.main_c_140))
      (phi_w5_s6_main_c_140) := by
  phi_step Cert.ReferenceIdeal.Hand.w5_s6 phi_w5_s6_main_c_140

theorem sim_w5_s6 (WK : ValK F) (WR : ValR F) (h : Inv11 WK WR) :
    Inv12 (after Cert.KernelIdeal.Gen.main_part5_ops6 WK) (after Cert.ReferenceIdeal.Hand.w5_s6 WR) := by
  sim_step h Inv11 Inv12 [keepK_w5_s6_main_arg10, keepR_w5_s6_main_arg10, keepK_w5_s6_main_arg11, keepR_w5_s6_main_arg11, keepK_w5_s6_main_v20, keepR_w5_s6_main_v20, keepK_w5_s6_main_v41, keepR_w5_s6_main_v41, keepK_w5_s6_main_v62, keepR_w5_s6_main_v62, keepK_w5_s6_main_v83, keepR_w5_s6_main_v83, keepK_w5_s6_main_v104, keepR_w5_s6_main_v104, keepK_w5_s6_main_v125, keepR_w5_s6_main_v125, keepK_w5_s6_main_v146, keepR_w5_s6_main_v146, keepK_w5_s6_main_v167, keepR_w5_s6_main_v167, keepK_w5_s6_main_v169, keepR_w5_s6_main_v169, keepK_w5_s6_main_v171, keepR_w5_s6_main_v171, keepK_w5_s6_main_v172, keepR_w5_s6_main_v172, keepK_w5_s6_main_v174, keepR_w5_s6_main_v174, phiK_w5_s6_main_c_140, phiR_w5_s6_main_c_140]

theorem keepK_w5_s7_main_arg10 (WK : ValK F) :
    after Cert.KernelIdeal.Gen.main_part5_ops7 WK (Proc.devRef .tc Cert.KernelIdeal.main_arg10) = WK (Proc.devRef .tc Cert.KernelIdeal.main_arg10) := by
  keep_step Cert.KernelIdeal.Gen.main_part5_ops7
theorem keepR_w5_s7_main_arg10 (WR : ValR F) :
    after Cert.ReferenceIdeal.Hand.w5_s7 WR (Proc.devRef .tc Cert.ReferenceIdeal.main_arg10) = WR (Proc.devRef .tc Cert.ReferenceIdeal.main_arg10) := by
  keep_step Cert.ReferenceIdeal.Hand.w5_s7
theorem keepK_w5_s7_main_arg11 (WK : ValK F) :
    after Cert.KernelIdeal.Gen.main_part5_ops7 WK (Proc.devRef .tc Cert.KernelIdeal.main_arg11) = WK (Proc.devRef .tc Cert.KernelIdeal.main_arg11) := by
  keep_step Cert.KernelIdeal.Gen.main_part5_ops7
theorem keepR_w5_s7_main_arg11 (WR : ValR F) :
    after Cert.ReferenceIdeal.Hand.w5_s7 WR (Proc.devRef .tc Cert.ReferenceIdeal.main_arg11) = WR (Proc.devRef .tc Cert.ReferenceIdeal.main_arg11) := by
  keep_step Cert.ReferenceIdeal.Hand.w5_s7
theorem keepK_w5_s7_main_v20 (WK : ValK F) :
    after Cert.KernelIdeal.Gen.main_part5_ops7 WK (Proc.devRef .tc Cert.KernelIdeal.main_v20) = WK (Proc.devRef .tc Cert.KernelIdeal.main_v20) := by
  keep_step Cert.KernelIdeal.Gen.main_part5_ops7
theorem keepR_w5_s7_main_v20 (WR : ValR F) :
    after Cert.ReferenceIdeal.Hand.w5_s7 WR (Proc.devRef .tc Cert.ReferenceIdeal.main_v20) = WR (Proc.devRef .tc Cert.ReferenceIdeal.main_v20) := by
  keep_step Cert.ReferenceIdeal.Hand.w5_s7
theorem keepK_w5_s7_main_v41 (WK : ValK F) :
    after Cert.KernelIdeal.Gen.main_part5_ops7 WK (Proc.devRef .tc Cert.KernelIdeal.main_v41) = WK (Proc.devRef .tc Cert.KernelIdeal.main_v41) := by
  keep_step Cert.KernelIdeal.Gen.main_part5_ops7
theorem keepR_w5_s7_main_v41 (WR : ValR F) :
    after Cert.ReferenceIdeal.Hand.w5_s7 WR (Proc.devRef .tc Cert.ReferenceIdeal.main_v41) = WR (Proc.devRef .tc Cert.ReferenceIdeal.main_v41) := by
  keep_step Cert.ReferenceIdeal.Hand.w5_s7
theorem keepK_w5_s7_main_v62 (WK : ValK F) :
    after Cert.KernelIdeal.Gen.main_part5_ops7 WK (Proc.devRef .tc Cert.KernelIdeal.main_v62) = WK (Proc.devRef .tc Cert.KernelIdeal.main_v62) := by
  keep_step Cert.KernelIdeal.Gen.main_part5_ops7
theorem keepR_w5_s7_main_v62 (WR : ValR F) :
    after Cert.ReferenceIdeal.Hand.w5_s7 WR (Proc.devRef .tc Cert.ReferenceIdeal.main_v62) = WR (Proc.devRef .tc Cert.ReferenceIdeal.main_v62) := by
  keep_step Cert.ReferenceIdeal.Hand.w5_s7
theorem keepK_w5_s7_main_v83 (WK : ValK F) :
    after Cert.KernelIdeal.Gen.main_part5_ops7 WK (Proc.devRef .tc Cert.KernelIdeal.main_v83) = WK (Proc.devRef .tc Cert.KernelIdeal.main_v83) := by
  keep_step Cert.KernelIdeal.Gen.main_part5_ops7
theorem keepR_w5_s7_main_v83 (WR : ValR F) :
    after Cert.ReferenceIdeal.Hand.w5_s7 WR (Proc.devRef .tc Cert.ReferenceIdeal.main_v83) = WR (Proc.devRef .tc Cert.ReferenceIdeal.main_v83) := by
  keep_step Cert.ReferenceIdeal.Hand.w5_s7
theorem keepK_w5_s7_main_v104 (WK : ValK F) :
    after Cert.KernelIdeal.Gen.main_part5_ops7 WK (Proc.devRef .tc Cert.KernelIdeal.main_v104) = WK (Proc.devRef .tc Cert.KernelIdeal.main_v104) := by
  keep_step Cert.KernelIdeal.Gen.main_part5_ops7
theorem keepR_w5_s7_main_v104 (WR : ValR F) :
    after Cert.ReferenceIdeal.Hand.w5_s7 WR (Proc.devRef .tc Cert.ReferenceIdeal.main_v104) = WR (Proc.devRef .tc Cert.ReferenceIdeal.main_v104) := by
  keep_step Cert.ReferenceIdeal.Hand.w5_s7
theorem keepK_w5_s7_main_v125 (WK : ValK F) :
    after Cert.KernelIdeal.Gen.main_part5_ops7 WK (Proc.devRef .tc Cert.KernelIdeal.main_v125) = WK (Proc.devRef .tc Cert.KernelIdeal.main_v125) := by
  keep_step Cert.KernelIdeal.Gen.main_part5_ops7
theorem keepR_w5_s7_main_v125 (WR : ValR F) :
    after Cert.ReferenceIdeal.Hand.w5_s7 WR (Proc.devRef .tc Cert.ReferenceIdeal.main_v125) = WR (Proc.devRef .tc Cert.ReferenceIdeal.main_v125) := by
  keep_step Cert.ReferenceIdeal.Hand.w5_s7
theorem keepK_w5_s7_main_v146 (WK : ValK F) :
    after Cert.KernelIdeal.Gen.main_part5_ops7 WK (Proc.devRef .tc Cert.KernelIdeal.main_v146) = WK (Proc.devRef .tc Cert.KernelIdeal.main_v146) := by
  keep_step Cert.KernelIdeal.Gen.main_part5_ops7
theorem keepR_w5_s7_main_v146 (WR : ValR F) :
    after Cert.ReferenceIdeal.Hand.w5_s7 WR (Proc.devRef .tc Cert.ReferenceIdeal.main_v146) = WR (Proc.devRef .tc Cert.ReferenceIdeal.main_v146) := by
  keep_step Cert.ReferenceIdeal.Hand.w5_s7
theorem keepK_w5_s7_main_v167 (WK : ValK F) :
    after Cert.KernelIdeal.Gen.main_part5_ops7 WK (Proc.devRef .tc Cert.KernelIdeal.main_v167) = WK (Proc.devRef .tc Cert.KernelIdeal.main_v167) := by
  keep_step Cert.KernelIdeal.Gen.main_part5_ops7
theorem keepR_w5_s7_main_v167 (WR : ValR F) :
    after Cert.ReferenceIdeal.Hand.w5_s7 WR (Proc.devRef .tc Cert.ReferenceIdeal.main_v167) = WR (Proc.devRef .tc Cert.ReferenceIdeal.main_v167) := by
  keep_step Cert.ReferenceIdeal.Hand.w5_s7
theorem keepK_w5_s7_main_v169 (WK : ValK F) :
    after Cert.KernelIdeal.Gen.main_part5_ops7 WK (Proc.devRef .tc Cert.KernelIdeal.main_v169) = WK (Proc.devRef .tc Cert.KernelIdeal.main_v169) := by
  keep_step Cert.KernelIdeal.Gen.main_part5_ops7
theorem keepR_w5_s7_main_v169 (WR : ValR F) :
    after Cert.ReferenceIdeal.Hand.w5_s7 WR (Proc.devRef .tc Cert.ReferenceIdeal.main_v169) = WR (Proc.devRef .tc Cert.ReferenceIdeal.main_v169) := by
  keep_step Cert.ReferenceIdeal.Hand.w5_s7
theorem keepK_w5_s7_main_v171 (WK : ValK F) :
    after Cert.KernelIdeal.Gen.main_part5_ops7 WK (Proc.devRef .tc Cert.KernelIdeal.main_v171) = WK (Proc.devRef .tc Cert.KernelIdeal.main_v171) := by
  keep_step Cert.KernelIdeal.Gen.main_part5_ops7
theorem keepR_w5_s7_main_v171 (WR : ValR F) :
    after Cert.ReferenceIdeal.Hand.w5_s7 WR (Proc.devRef .tc Cert.ReferenceIdeal.main_v171) = WR (Proc.devRef .tc Cert.ReferenceIdeal.main_v171) := by
  keep_step Cert.ReferenceIdeal.Hand.w5_s7
theorem keepK_w5_s7_main_v172 (WK : ValK F) :
    after Cert.KernelIdeal.Gen.main_part5_ops7 WK (Proc.devRef .tc Cert.KernelIdeal.main_v172) = WK (Proc.devRef .tc Cert.KernelIdeal.main_v172) := by
  keep_step Cert.KernelIdeal.Gen.main_part5_ops7
theorem keepR_w5_s7_main_v172 (WR : ValR F) :
    after Cert.ReferenceIdeal.Hand.w5_s7 WR (Proc.devRef .tc Cert.ReferenceIdeal.main_v172) = WR (Proc.devRef .tc Cert.ReferenceIdeal.main_v172) := by
  keep_step Cert.ReferenceIdeal.Hand.w5_s7
theorem keepK_w5_s7_main_v174 (WK : ValK F) :
    after Cert.KernelIdeal.Gen.main_part5_ops7 WK (Proc.devRef .tc Cert.KernelIdeal.main_v174) = WK (Proc.devRef .tc Cert.KernelIdeal.main_v174) := by
  keep_step Cert.KernelIdeal.Gen.main_part5_ops7
theorem keepR_w5_s7_main_v174 (WR : ValR F) :
    after Cert.ReferenceIdeal.Hand.w5_s7 WR (Proc.devRef .tc Cert.ReferenceIdeal.main_v174) = WR (Proc.devRef .tc Cert.ReferenceIdeal.main_v174) := by
  keep_step Cert.ReferenceIdeal.Hand.w5_s7

theorem sim_w5_s7 (WK : ValK F) (WR : ValR F) (h : Inv12 WK WR) :
    Inv13 (after Cert.KernelIdeal.Gen.main_part5_ops7 WK) (after Cert.ReferenceIdeal.Hand.w5_s7 WR) := by
  sim_step h Inv12 Inv13 [keepK_w5_s7_main_arg10, keepR_w5_s7_main_arg10, keepK_w5_s7_main_arg11, keepR_w5_s7_main_arg11, keepK_w5_s7_main_v20, keepR_w5_s7_main_v20, keepK_w5_s7_main_v41, keepR_w5_s7_main_v41, keepK_w5_s7_main_v62, keepR_w5_s7_main_v62, keepK_w5_s7_main_v83, keepR_w5_s7_main_v83, keepK_w5_s7_main_v104, keepR_w5_s7_main_v104, keepK_w5_s7_main_v125, keepR_w5_s7_main_v125, keepK_w5_s7_main_v146, keepR_w5_s7_main_v146, keepK_w5_s7_main_v167, keepR_w5_s7_main_v167, keepK_w5_s7_main_v169, keepR_w5_s7_main_v169, keepK_w5_s7_main_v171, keepR_w5_s7_main_v171, keepK_w5_s7_main_v172, keepR_w5_s7_main_v172, keepK_w5_s7_main_v174, keepR_w5_s7_main_v174]

theorem keepK_w5_s8_main_arg10 (WK : ValK F) :
    after Cert.KernelIdeal.Gen.main_part5_ops8 WK (Proc.devRef .tc Cert.KernelIdeal.main_arg10) = WK (Proc.devRef .tc Cert.KernelIdeal.main_arg10) := by
  keep_step Cert.KernelIdeal.Gen.main_part5_ops8
theorem keepR_w5_s8_main_arg10 (WR : ValR F) :
    after Cert.ReferenceIdeal.Hand.w5_s8 WR (Proc.devRef .tc Cert.ReferenceIdeal.main_arg10) = WR (Proc.devRef .tc Cert.ReferenceIdeal.main_arg10) := by
  keep_step Cert.ReferenceIdeal.Hand.w5_s8
theorem keepK_w5_s8_main_arg11 (WK : ValK F) :
    after Cert.KernelIdeal.Gen.main_part5_ops8 WK (Proc.devRef .tc Cert.KernelIdeal.main_arg11) = WK (Proc.devRef .tc Cert.KernelIdeal.main_arg11) := by
  keep_step Cert.KernelIdeal.Gen.main_part5_ops8
theorem keepR_w5_s8_main_arg11 (WR : ValR F) :
    after Cert.ReferenceIdeal.Hand.w5_s8 WR (Proc.devRef .tc Cert.ReferenceIdeal.main_arg11) = WR (Proc.devRef .tc Cert.ReferenceIdeal.main_arg11) := by
  keep_step Cert.ReferenceIdeal.Hand.w5_s8
theorem keepK_w5_s8_main_v20 (WK : ValK F) :
    after Cert.KernelIdeal.Gen.main_part5_ops8 WK (Proc.devRef .tc Cert.KernelIdeal.main_v20) = WK (Proc.devRef .tc Cert.KernelIdeal.main_v20) := by
  keep_step Cert.KernelIdeal.Gen.main_part5_ops8
theorem keepR_w5_s8_main_v20 (WR : ValR F) :
    after Cert.ReferenceIdeal.Hand.w5_s8 WR (Proc.devRef .tc Cert.ReferenceIdeal.main_v20) = WR (Proc.devRef .tc Cert.ReferenceIdeal.main_v20) := by
  keep_step Cert.ReferenceIdeal.Hand.w5_s8
theorem keepK_w5_s8_main_v41 (WK : ValK F) :
    after Cert.KernelIdeal.Gen.main_part5_ops8 WK (Proc.devRef .tc Cert.KernelIdeal.main_v41) = WK (Proc.devRef .tc Cert.KernelIdeal.main_v41) := by
  keep_step Cert.KernelIdeal.Gen.main_part5_ops8
theorem keepR_w5_s8_main_v41 (WR : ValR F) :
    after Cert.ReferenceIdeal.Hand.w5_s8 WR (Proc.devRef .tc Cert.ReferenceIdeal.main_v41) = WR (Proc.devRef .tc Cert.ReferenceIdeal.main_v41) := by
  keep_step Cert.ReferenceIdeal.Hand.w5_s8
theorem keepK_w5_s8_main_v62 (WK : ValK F) :
    after Cert.KernelIdeal.Gen.main_part5_ops8 WK (Proc.devRef .tc Cert.KernelIdeal.main_v62) = WK (Proc.devRef .tc Cert.KernelIdeal.main_v62) := by
  keep_step Cert.KernelIdeal.Gen.main_part5_ops8
theorem keepR_w5_s8_main_v62 (WR : ValR F) :
    after Cert.ReferenceIdeal.Hand.w5_s8 WR (Proc.devRef .tc Cert.ReferenceIdeal.main_v62) = WR (Proc.devRef .tc Cert.ReferenceIdeal.main_v62) := by
  keep_step Cert.ReferenceIdeal.Hand.w5_s8
theorem keepK_w5_s8_main_v83 (WK : ValK F) :
    after Cert.KernelIdeal.Gen.main_part5_ops8 WK (Proc.devRef .tc Cert.KernelIdeal.main_v83) = WK (Proc.devRef .tc Cert.KernelIdeal.main_v83) := by
  keep_step Cert.KernelIdeal.Gen.main_part5_ops8
theorem keepR_w5_s8_main_v83 (WR : ValR F) :
    after Cert.ReferenceIdeal.Hand.w5_s8 WR (Proc.devRef .tc Cert.ReferenceIdeal.main_v83) = WR (Proc.devRef .tc Cert.ReferenceIdeal.main_v83) := by
  keep_step Cert.ReferenceIdeal.Hand.w5_s8
theorem keepK_w5_s8_main_v104 (WK : ValK F) :
    after Cert.KernelIdeal.Gen.main_part5_ops8 WK (Proc.devRef .tc Cert.KernelIdeal.main_v104) = WK (Proc.devRef .tc Cert.KernelIdeal.main_v104) := by
  keep_step Cert.KernelIdeal.Gen.main_part5_ops8
theorem keepR_w5_s8_main_v104 (WR : ValR F) :
    after Cert.ReferenceIdeal.Hand.w5_s8 WR (Proc.devRef .tc Cert.ReferenceIdeal.main_v104) = WR (Proc.devRef .tc Cert.ReferenceIdeal.main_v104) := by
  keep_step Cert.ReferenceIdeal.Hand.w5_s8
theorem keepK_w5_s8_main_v125 (WK : ValK F) :
    after Cert.KernelIdeal.Gen.main_part5_ops8 WK (Proc.devRef .tc Cert.KernelIdeal.main_v125) = WK (Proc.devRef .tc Cert.KernelIdeal.main_v125) := by
  keep_step Cert.KernelIdeal.Gen.main_part5_ops8
theorem keepR_w5_s8_main_v125 (WR : ValR F) :
    after Cert.ReferenceIdeal.Hand.w5_s8 WR (Proc.devRef .tc Cert.ReferenceIdeal.main_v125) = WR (Proc.devRef .tc Cert.ReferenceIdeal.main_v125) := by
  keep_step Cert.ReferenceIdeal.Hand.w5_s8
theorem keepK_w5_s8_main_v146 (WK : ValK F) :
    after Cert.KernelIdeal.Gen.main_part5_ops8 WK (Proc.devRef .tc Cert.KernelIdeal.main_v146) = WK (Proc.devRef .tc Cert.KernelIdeal.main_v146) := by
  keep_step Cert.KernelIdeal.Gen.main_part5_ops8
theorem keepR_w5_s8_main_v146 (WR : ValR F) :
    after Cert.ReferenceIdeal.Hand.w5_s8 WR (Proc.devRef .tc Cert.ReferenceIdeal.main_v146) = WR (Proc.devRef .tc Cert.ReferenceIdeal.main_v146) := by
  keep_step Cert.ReferenceIdeal.Hand.w5_s8
theorem keepK_w5_s8_main_v167 (WK : ValK F) :
    after Cert.KernelIdeal.Gen.main_part5_ops8 WK (Proc.devRef .tc Cert.KernelIdeal.main_v167) = WK (Proc.devRef .tc Cert.KernelIdeal.main_v167) := by
  keep_step Cert.KernelIdeal.Gen.main_part5_ops8
theorem keepR_w5_s8_main_v167 (WR : ValR F) :
    after Cert.ReferenceIdeal.Hand.w5_s8 WR (Proc.devRef .tc Cert.ReferenceIdeal.main_v167) = WR (Proc.devRef .tc Cert.ReferenceIdeal.main_v167) := by
  keep_step Cert.ReferenceIdeal.Hand.w5_s8
theorem keepK_w5_s8_main_v169 (WK : ValK F) :
    after Cert.KernelIdeal.Gen.main_part5_ops8 WK (Proc.devRef .tc Cert.KernelIdeal.main_v169) = WK (Proc.devRef .tc Cert.KernelIdeal.main_v169) := by
  keep_step Cert.KernelIdeal.Gen.main_part5_ops8
theorem keepR_w5_s8_main_v169 (WR : ValR F) :
    after Cert.ReferenceIdeal.Hand.w5_s8 WR (Proc.devRef .tc Cert.ReferenceIdeal.main_v169) = WR (Proc.devRef .tc Cert.ReferenceIdeal.main_v169) := by
  keep_step Cert.ReferenceIdeal.Hand.w5_s8
theorem keepK_w5_s8_main_v171 (WK : ValK F) :
    after Cert.KernelIdeal.Gen.main_part5_ops8 WK (Proc.devRef .tc Cert.KernelIdeal.main_v171) = WK (Proc.devRef .tc Cert.KernelIdeal.main_v171) := by
  keep_step Cert.KernelIdeal.Gen.main_part5_ops8
theorem keepR_w5_s8_main_v171 (WR : ValR F) :
    after Cert.ReferenceIdeal.Hand.w5_s8 WR (Proc.devRef .tc Cert.ReferenceIdeal.main_v171) = WR (Proc.devRef .tc Cert.ReferenceIdeal.main_v171) := by
  keep_step Cert.ReferenceIdeal.Hand.w5_s8
theorem keepK_w5_s8_main_v172 (WK : ValK F) :
    after Cert.KernelIdeal.Gen.main_part5_ops8 WK (Proc.devRef .tc Cert.KernelIdeal.main_v172) = WK (Proc.devRef .tc Cert.KernelIdeal.main_v172) := by
  keep_step Cert.KernelIdeal.Gen.main_part5_ops8
theorem keepR_w5_s8_main_v172 (WR : ValR F) :
    after Cert.ReferenceIdeal.Hand.w5_s8 WR (Proc.devRef .tc Cert.ReferenceIdeal.main_v172) = WR (Proc.devRef .tc Cert.ReferenceIdeal.main_v172) := by
  keep_step Cert.ReferenceIdeal.Hand.w5_s8
theorem keepK_w5_s8_main_v174 (WK : ValK F) :
    after Cert.KernelIdeal.Gen.main_part5_ops8 WK (Proc.devRef .tc Cert.KernelIdeal.main_v174) = WK (Proc.devRef .tc Cert.KernelIdeal.main_v174) := by
  keep_step Cert.KernelIdeal.Gen.main_part5_ops8
theorem keepR_w5_s8_main_v174 (WR : ValR F) :
    after Cert.ReferenceIdeal.Hand.w5_s8 WR (Proc.devRef .tc Cert.ReferenceIdeal.main_v174) = WR (Proc.devRef .tc Cert.ReferenceIdeal.main_v174) := by
  keep_step Cert.ReferenceIdeal.Hand.w5_s8
theorem phiK_w5_s8_main_c_141 (WK : ValK F) :
    @Eq ((⟨S_, .i32⟩ : BufTy).Contents (Elt F)) (after Cert.KernelIdeal.Gen.main_part5_ops8 WK (Proc.devRef .tc Cert.KernelIdeal.main_c_141))
      (phi_w5_s8_main_c_141) := by
  phi_step Cert.KernelIdeal.Gen.main_part5_ops8 phi_w5_s8_main_c_141
theorem phiR_w5_s8_main_c_141 (WR : ValR F) :
    @Eq ((⟨S_, .i32⟩ : BufTy).Contents (Elt F)) (after Cert.ReferenceIdeal.Hand.w5_s8 WR (Proc.devRef .tc Cert.ReferenceIdeal.main_c_141))
      (phi_w5_s8_main_c_141) := by
  phi_step Cert.ReferenceIdeal.Hand.w5_s8 phi_w5_s8_main_c_141

theorem sim_w5_s8 (WK : ValK F) (WR : ValR F) (h : Inv13 WK WR) :
    Inv14 (after Cert.KernelIdeal.Gen.main_part5_ops8 WK) (after Cert.ReferenceIdeal.Hand.w5_s8 WR) := by
  sim_step h Inv13 Inv14 [keepK_w5_s8_main_arg10, keepR_w5_s8_main_arg10, keepK_w5_s8_main_arg11, keepR_w5_s8_main_arg11, keepK_w5_s8_main_v20, keepR_w5_s8_main_v20, keepK_w5_s8_main_v41, keepR_w5_s8_main_v41, keepK_w5_s8_main_v62, keepR_w5_s8_main_v62, keepK_w5_s8_main_v83, keepR_w5_s8_main_v83, keepK_w5_s8_main_v104, keepR_w5_s8_main_v104, keepK_w5_s8_main_v125, keepR_w5_s8_main_v125, keepK_w5_s8_main_v146, keepR_w5_s8_main_v146, keepK_w5_s8_main_v167, keepR_w5_s8_main_v167, keepK_w5_s8_main_v169, keepR_w5_s8_main_v169, keepK_w5_s8_main_v171, keepR_w5_s8_main_v171, keepK_w5_s8_main_v172, keepR_w5_s8_main_v172, keepK_w5_s8_main_v174, keepR_w5_s8_main_v174, phiK_w5_s8_main_c_141, phiR_w5_s8_main_c_141]

theorem keepK_w5_s9_main_arg10 (WK : ValK F) :
    after Cert.KernelIdeal.Gen.main_part5_ops9 WK (Proc.devRef .tc Cert.KernelIdeal.main_arg10) = WK (Proc.devRef .tc Cert.KernelIdeal.main_arg10) := by
  keep_step Cert.KernelIdeal.Gen.main_part5_ops9
theorem keepR_w5_s9_main_arg10 (WR : ValR F) :
    after Cert.ReferenceIdeal.Hand.w5_s9 WR (Proc.devRef .tc Cert.ReferenceIdeal.main_arg10) = WR (Proc.devRef .tc Cert.ReferenceIdeal.main_arg10) := by
  keep_step Cert.ReferenceIdeal.Hand.w5_s9
theorem keepK_w5_s9_main_arg11 (WK : ValK F) :
    after Cert.KernelIdeal.Gen.main_part5_ops9 WK (Proc.devRef .tc Cert.KernelIdeal.main_arg11) = WK (Proc.devRef .tc Cert.KernelIdeal.main_arg11) := by
  keep_step Cert.KernelIdeal.Gen.main_part5_ops9
theorem keepR_w5_s9_main_arg11 (WR : ValR F) :
    after Cert.ReferenceIdeal.Hand.w5_s9 WR (Proc.devRef .tc Cert.ReferenceIdeal.main_arg11) = WR (Proc.devRef .tc Cert.ReferenceIdeal.main_arg11) := by
  keep_step Cert.ReferenceIdeal.Hand.w5_s9
theorem keepK_w5_s9_main_v20 (WK : ValK F) :
    after Cert.KernelIdeal.Gen.main_part5_ops9 WK (Proc.devRef .tc Cert.KernelIdeal.main_v20) = WK (Proc.devRef .tc Cert.KernelIdeal.main_v20) := by
  keep_step Cert.KernelIdeal.Gen.main_part5_ops9
theorem keepR_w5_s9_main_v20 (WR : ValR F) :
    after Cert.ReferenceIdeal.Hand.w5_s9 WR (Proc.devRef .tc Cert.ReferenceIdeal.main_v20) = WR (Proc.devRef .tc Cert.ReferenceIdeal.main_v20) := by
  keep_step Cert.ReferenceIdeal.Hand.w5_s9
theorem keepK_w5_s9_main_v41 (WK : ValK F) :
    after Cert.KernelIdeal.Gen.main_part5_ops9 WK (Proc.devRef .tc Cert.KernelIdeal.main_v41) = WK (Proc.devRef .tc Cert.KernelIdeal.main_v41) := by
  keep_step Cert.KernelIdeal.Gen.main_part5_ops9
theorem keepR_w5_s9_main_v41 (WR : ValR F) :
    after Cert.ReferenceIdeal.Hand.w5_s9 WR (Proc.devRef .tc Cert.ReferenceIdeal.main_v41) = WR (Proc.devRef .tc Cert.ReferenceIdeal.main_v41) := by
  keep_step Cert.ReferenceIdeal.Hand.w5_s9
theorem keepK_w5_s9_main_v62 (WK : ValK F) :
    after Cert.KernelIdeal.Gen.main_part5_ops9 WK (Proc.devRef .tc Cert.KernelIdeal.main_v62) = WK (Proc.devRef .tc Cert.KernelIdeal.main_v62) := by
  keep_step Cert.KernelIdeal.Gen.main_part5_ops9
theorem keepR_w5_s9_main_v62 (WR : ValR F) :
    after Cert.ReferenceIdeal.Hand.w5_s9 WR (Proc.devRef .tc Cert.ReferenceIdeal.main_v62) = WR (Proc.devRef .tc Cert.ReferenceIdeal.main_v62) := by
  keep_step Cert.ReferenceIdeal.Hand.w5_s9
theorem keepK_w5_s9_main_v83 (WK : ValK F) :
    after Cert.KernelIdeal.Gen.main_part5_ops9 WK (Proc.devRef .tc Cert.KernelIdeal.main_v83) = WK (Proc.devRef .tc Cert.KernelIdeal.main_v83) := by
  keep_step Cert.KernelIdeal.Gen.main_part5_ops9
theorem keepR_w5_s9_main_v83 (WR : ValR F) :
    after Cert.ReferenceIdeal.Hand.w5_s9 WR (Proc.devRef .tc Cert.ReferenceIdeal.main_v83) = WR (Proc.devRef .tc Cert.ReferenceIdeal.main_v83) := by
  keep_step Cert.ReferenceIdeal.Hand.w5_s9
theorem keepK_w5_s9_main_v104 (WK : ValK F) :
    after Cert.KernelIdeal.Gen.main_part5_ops9 WK (Proc.devRef .tc Cert.KernelIdeal.main_v104) = WK (Proc.devRef .tc Cert.KernelIdeal.main_v104) := by
  keep_step Cert.KernelIdeal.Gen.main_part5_ops9
theorem keepR_w5_s9_main_v104 (WR : ValR F) :
    after Cert.ReferenceIdeal.Hand.w5_s9 WR (Proc.devRef .tc Cert.ReferenceIdeal.main_v104) = WR (Proc.devRef .tc Cert.ReferenceIdeal.main_v104) := by
  keep_step Cert.ReferenceIdeal.Hand.w5_s9
theorem keepK_w5_s9_main_v125 (WK : ValK F) :
    after Cert.KernelIdeal.Gen.main_part5_ops9 WK (Proc.devRef .tc Cert.KernelIdeal.main_v125) = WK (Proc.devRef .tc Cert.KernelIdeal.main_v125) := by
  keep_step Cert.KernelIdeal.Gen.main_part5_ops9
theorem keepR_w5_s9_main_v125 (WR : ValR F) :
    after Cert.ReferenceIdeal.Hand.w5_s9 WR (Proc.devRef .tc Cert.ReferenceIdeal.main_v125) = WR (Proc.devRef .tc Cert.ReferenceIdeal.main_v125) := by
  keep_step Cert.ReferenceIdeal.Hand.w5_s9
theorem keepK_w5_s9_main_v146 (WK : ValK F) :
    after Cert.KernelIdeal.Gen.main_part5_ops9 WK (Proc.devRef .tc Cert.KernelIdeal.main_v146) = WK (Proc.devRef .tc Cert.KernelIdeal.main_v146) := by
  keep_step Cert.KernelIdeal.Gen.main_part5_ops9
theorem keepR_w5_s9_main_v146 (WR : ValR F) :
    after Cert.ReferenceIdeal.Hand.w5_s9 WR (Proc.devRef .tc Cert.ReferenceIdeal.main_v146) = WR (Proc.devRef .tc Cert.ReferenceIdeal.main_v146) := by
  keep_step Cert.ReferenceIdeal.Hand.w5_s9
theorem keepK_w5_s9_main_v167 (WK : ValK F) :
    after Cert.KernelIdeal.Gen.main_part5_ops9 WK (Proc.devRef .tc Cert.KernelIdeal.main_v167) = WK (Proc.devRef .tc Cert.KernelIdeal.main_v167) := by
  keep_step Cert.KernelIdeal.Gen.main_part5_ops9
theorem keepR_w5_s9_main_v167 (WR : ValR F) :
    after Cert.ReferenceIdeal.Hand.w5_s9 WR (Proc.devRef .tc Cert.ReferenceIdeal.main_v167) = WR (Proc.devRef .tc Cert.ReferenceIdeal.main_v167) := by
  keep_step Cert.ReferenceIdeal.Hand.w5_s9
theorem keepK_w5_s9_main_v169 (WK : ValK F) :
    after Cert.KernelIdeal.Gen.main_part5_ops9 WK (Proc.devRef .tc Cert.KernelIdeal.main_v169) = WK (Proc.devRef .tc Cert.KernelIdeal.main_v169) := by
  keep_step Cert.KernelIdeal.Gen.main_part5_ops9
theorem keepR_w5_s9_main_v169 (WR : ValR F) :
    after Cert.ReferenceIdeal.Hand.w5_s9 WR (Proc.devRef .tc Cert.ReferenceIdeal.main_v169) = WR (Proc.devRef .tc Cert.ReferenceIdeal.main_v169) := by
  keep_step Cert.ReferenceIdeal.Hand.w5_s9
theorem keepK_w5_s9_main_v171 (WK : ValK F) :
    after Cert.KernelIdeal.Gen.main_part5_ops9 WK (Proc.devRef .tc Cert.KernelIdeal.main_v171) = WK (Proc.devRef .tc Cert.KernelIdeal.main_v171) := by
  keep_step Cert.KernelIdeal.Gen.main_part5_ops9
theorem keepR_w5_s9_main_v171 (WR : ValR F) :
    after Cert.ReferenceIdeal.Hand.w5_s9 WR (Proc.devRef .tc Cert.ReferenceIdeal.main_v171) = WR (Proc.devRef .tc Cert.ReferenceIdeal.main_v171) := by
  keep_step Cert.ReferenceIdeal.Hand.w5_s9
theorem keepK_w5_s9_main_v172 (WK : ValK F) :
    after Cert.KernelIdeal.Gen.main_part5_ops9 WK (Proc.devRef .tc Cert.KernelIdeal.main_v172) = WK (Proc.devRef .tc Cert.KernelIdeal.main_v172) := by
  keep_step Cert.KernelIdeal.Gen.main_part5_ops9
theorem keepR_w5_s9_main_v172 (WR : ValR F) :
    after Cert.ReferenceIdeal.Hand.w5_s9 WR (Proc.devRef .tc Cert.ReferenceIdeal.main_v172) = WR (Proc.devRef .tc Cert.ReferenceIdeal.main_v172) := by
  keep_step Cert.ReferenceIdeal.Hand.w5_s9
theorem keepK_w5_s9_main_v174 (WK : ValK F) :
    after Cert.KernelIdeal.Gen.main_part5_ops9 WK (Proc.devRef .tc Cert.KernelIdeal.main_v174) = WK (Proc.devRef .tc Cert.KernelIdeal.main_v174) := by
  keep_step Cert.KernelIdeal.Gen.main_part5_ops9
theorem keepR_w5_s9_main_v174 (WR : ValR F) :
    after Cert.ReferenceIdeal.Hand.w5_s9 WR (Proc.devRef .tc Cert.ReferenceIdeal.main_v174) = WR (Proc.devRef .tc Cert.ReferenceIdeal.main_v174) := by
  keep_step Cert.ReferenceIdeal.Hand.w5_s9
theorem phiK_w5_s9_main_v176 (WK : ValK F) :
    @Eq ((⟨S16, .i32⟩ : BufTy).Contents (Elt F)) (after Cert.KernelIdeal.Gen.main_part5_ops9 WK (Proc.devRef .tc Cert.KernelIdeal.main_v176))
      (phi_w5_s9_main_v176 (WK (Proc.devRef .tc Cert.KernelIdeal.main_arg10)) (WK (Proc.devRef .tc Cert.KernelIdeal.main_c_141))) := by
  phi_step Cert.KernelIdeal.Gen.main_part5_ops9 phi_w5_s9_main_v176
theorem phiR_w5_s9_main_v176 (WR : ValR F) :
    @Eq ((⟨S16, .i32⟩ : BufTy).Contents (Elt F)) (after Cert.ReferenceIdeal.Hand.w5_s9 WR (Proc.devRef .tc Cert.ReferenceIdeal.main_v176))
      (phi_w5_s9_main_v176 (WR (Proc.devRef .tc Cert.ReferenceIdeal.main_arg10)) (WR (Proc.devRef .tc Cert.ReferenceIdeal.main_c_141))) := by
  phi_step Cert.ReferenceIdeal.Hand.w5_s9 phi_w5_s9_main_v176

theorem sim_w5_s9 (WK : ValK F) (WR : ValR F) (h : Inv14 WK WR) :
    Inv15 (after Cert.KernelIdeal.Gen.main_part5_ops9 WK) (after Cert.ReferenceIdeal.Hand.w5_s9 WR) := by
  sim_step h Inv14 Inv15 [keepK_w5_s9_main_arg10, keepR_w5_s9_main_arg10, keepK_w5_s9_main_arg11, keepR_w5_s9_main_arg11, keepK_w5_s9_main_v20, keepR_w5_s9_main_v20, keepK_w5_s9_main_v41, keepR_w5_s9_main_v41, keepK_w5_s9_main_v62, keepR_w5_s9_main_v62, keepK_w5_s9_main_v83, keepR_w5_s9_main_v83, keepK_w5_s9_main_v104, keepR_w5_s9_main_v104, keepK_w5_s9_main_v125, keepR_w5_s9_main_v125, keepK_w5_s9_main_v146, keepR_w5_s9_main_v146, keepK_w5_s9_main_v167, keepR_w5_s9_main_v167, keepK_w5_s9_main_v169, keepR_w5_s9_main_v169, keepK_w5_s9_main_v171, keepR_w5_s9_main_v171, keepK_w5_s9_main_v172, keepR_w5_s9_main_v172, keepK_w5_s9_main_v174, keepR_w5_s9_main_v174, phiK_w5_s9_main_v176, phiR_w5_s9_main_v176]

theorem keepK_w5_s10_main_arg10 (WK : ValK F) :
    after Cert.KernelIdeal.Gen.main_part5_ops10 WK (Proc.devRef .tc Cert.KernelIdeal.main_arg10) = WK (Proc.devRef .tc Cert.KernelIdeal.main_arg10) := by
  keep_step Cert.KernelIdeal.Gen.main_part5_ops10
theorem keepR_w5_s10_main_arg10 (WR : ValR F) :
    after Cert.ReferenceIdeal.Hand.w5_s10 WR (Proc.devRef .tc Cert.ReferenceIdeal.main_arg10) = WR (Proc.devRef .tc Cert.ReferenceIdeal.main_arg10) := by
  keep_step Cert.ReferenceIdeal.Hand.w5_s10
theorem keepK_w5_s10_main_arg11 (WK : ValK F) :
    after Cert.KernelIdeal.Gen.main_part5_ops10 WK (Proc.devRef .tc Cert.KernelIdeal.main_arg11) = WK (Proc.devRef .tc Cert.KernelIdeal.main_arg11) := by
  keep_step Cert.KernelIdeal.Gen.main_part5_ops10
theorem keepR_w5_s10_main_arg11 (WR : ValR F) :
    after Cert.ReferenceIdeal.Hand.w5_s10 WR (Proc.devRef .tc Cert.ReferenceIdeal.main_arg11) = WR (Proc.devRef .tc Cert.ReferenceIdeal.main_arg11) := by
  keep_step Cert.ReferenceIdeal.Hand.w5_s10
theorem keepK_w5_s10_main_v20 (WK : ValK F) :
    after Cert.KernelIdeal.Gen.main_part5_ops10 WK (Proc.devRef .tc Cert.KernelIdeal.main_v20) = WK (Proc.devRef .tc Cert.KernelIdeal.main_v20) := by
  keep_step Cert.KernelIdeal.Gen.main_part5_ops10
theorem keepR_w5_s10_main_v20 (WR : ValR F) :
    after Cert.ReferenceIdeal.Hand.w5_s10 WR (Proc.devRef .tc Cert.ReferenceIdeal.main_v20) = WR (Proc.devRef .tc Cert.ReferenceIdeal.main_v20) := by
  keep_step Cert.ReferenceIdeal.Hand.w5_s10
theorem keepK_w5_s10_main_v41 (WK : ValK F) :
    after Cert.KernelIdeal.Gen.main_part5_ops10 WK (Proc.devRef .tc Cert.KernelIdeal.main_v41) = WK (Proc.devRef .tc Cert.KernelIdeal.main_v41) := by
  keep_step Cert.KernelIdeal.Gen.main_part5_ops10
theorem keepR_w5_s10_main_v41 (WR : ValR F) :
    after Cert.ReferenceIdeal.Hand.w5_s10 WR (Proc.devRef .tc Cert.ReferenceIdeal.main_v41) = WR (Proc.devRef .tc Cert.ReferenceIdeal.main_v41) := by
  keep_step Cert.ReferenceIdeal.Hand.w5_s10
theorem keepK_w5_s10_main_v62 (WK : ValK F) :
    after Cert.KernelIdeal.Gen.main_part5_ops10 WK (Proc.devRef .tc Cert.KernelIdeal.main_v62) = WK (Proc.devRef .tc Cert.KernelIdeal.main_v62) := by
  keep_step Cert.KernelIdeal.Gen.main_part5_ops10
theorem keepR_w5_s10_main_v62 (WR : ValR F) :
    after Cert.ReferenceIdeal.Hand.w5_s10 WR (Proc.devRef .tc Cert.ReferenceIdeal.main_v62) = WR (Proc.devRef .tc Cert.ReferenceIdeal.main_v62) := by
  keep_step Cert.ReferenceIdeal.Hand.w5_s10
theorem keepK_w5_s10_main_v83 (WK : ValK F) :
    after Cert.KernelIdeal.Gen.main_part5_ops10 WK (Proc.devRef .tc Cert.KernelIdeal.main_v83) = WK (Proc.devRef .tc Cert.KernelIdeal.main_v83) := by
  keep_step Cert.KernelIdeal.Gen.main_part5_ops10
theorem keepR_w5_s10_main_v83 (WR : ValR F) :
    after Cert.ReferenceIdeal.Hand.w5_s10 WR (Proc.devRef .tc Cert.ReferenceIdeal.main_v83) = WR (Proc.devRef .tc Cert.ReferenceIdeal.main_v83) := by
  keep_step Cert.ReferenceIdeal.Hand.w5_s10
theorem keepK_w5_s10_main_v104 (WK : ValK F) :
    after Cert.KernelIdeal.Gen.main_part5_ops10 WK (Proc.devRef .tc Cert.KernelIdeal.main_v104) = WK (Proc.devRef .tc Cert.KernelIdeal.main_v104) := by
  keep_step Cert.KernelIdeal.Gen.main_part5_ops10
theorem keepR_w5_s10_main_v104 (WR : ValR F) :
    after Cert.ReferenceIdeal.Hand.w5_s10 WR (Proc.devRef .tc Cert.ReferenceIdeal.main_v104) = WR (Proc.devRef .tc Cert.ReferenceIdeal.main_v104) := by
  keep_step Cert.ReferenceIdeal.Hand.w5_s10
theorem keepK_w5_s10_main_v125 (WK : ValK F) :
    after Cert.KernelIdeal.Gen.main_part5_ops10 WK (Proc.devRef .tc Cert.KernelIdeal.main_v125) = WK (Proc.devRef .tc Cert.KernelIdeal.main_v125) := by
  keep_step Cert.KernelIdeal.Gen.main_part5_ops10
theorem keepR_w5_s10_main_v125 (WR : ValR F) :
    after Cert.ReferenceIdeal.Hand.w5_s10 WR (Proc.devRef .tc Cert.ReferenceIdeal.main_v125) = WR (Proc.devRef .tc Cert.ReferenceIdeal.main_v125) := by
  keep_step Cert.ReferenceIdeal.Hand.w5_s10
theorem keepK_w5_s10_main_v146 (WK : ValK F) :
    after Cert.KernelIdeal.Gen.main_part5_ops10 WK (Proc.devRef .tc Cert.KernelIdeal.main_v146) = WK (Proc.devRef .tc Cert.KernelIdeal.main_v146) := by
  keep_step Cert.KernelIdeal.Gen.main_part5_ops10
theorem keepR_w5_s10_main_v146 (WR : ValR F) :
    after Cert.ReferenceIdeal.Hand.w5_s10 WR (Proc.devRef .tc Cert.ReferenceIdeal.main_v146) = WR (Proc.devRef .tc Cert.ReferenceIdeal.main_v146) := by
  keep_step Cert.ReferenceIdeal.Hand.w5_s10
theorem keepK_w5_s10_main_v167 (WK : ValK F) :
    after Cert.KernelIdeal.Gen.main_part5_ops10 WK (Proc.devRef .tc Cert.KernelIdeal.main_v167) = WK (Proc.devRef .tc Cert.KernelIdeal.main_v167) := by
  keep_step Cert.KernelIdeal.Gen.main_part5_ops10
theorem keepR_w5_s10_main_v167 (WR : ValR F) :
    after Cert.ReferenceIdeal.Hand.w5_s10 WR (Proc.devRef .tc Cert.ReferenceIdeal.main_v167) = WR (Proc.devRef .tc Cert.ReferenceIdeal.main_v167) := by
  keep_step Cert.ReferenceIdeal.Hand.w5_s10
theorem keepK_w5_s10_main_v169 (WK : ValK F) :
    after Cert.KernelIdeal.Gen.main_part5_ops10 WK (Proc.devRef .tc Cert.KernelIdeal.main_v169) = WK (Proc.devRef .tc Cert.KernelIdeal.main_v169) := by
  keep_step Cert.KernelIdeal.Gen.main_part5_ops10
theorem keepR_w5_s10_main_v169 (WR : ValR F) :
    after Cert.ReferenceIdeal.Hand.w5_s10 WR (Proc.devRef .tc Cert.ReferenceIdeal.main_v169) = WR (Proc.devRef .tc Cert.ReferenceIdeal.main_v169) := by
  keep_step Cert.ReferenceIdeal.Hand.w5_s10
theorem keepK_w5_s10_main_v171 (WK : ValK F) :
    after Cert.KernelIdeal.Gen.main_part5_ops10 WK (Proc.devRef .tc Cert.KernelIdeal.main_v171) = WK (Proc.devRef .tc Cert.KernelIdeal.main_v171) := by
  keep_step Cert.KernelIdeal.Gen.main_part5_ops10
theorem keepR_w5_s10_main_v171 (WR : ValR F) :
    after Cert.ReferenceIdeal.Hand.w5_s10 WR (Proc.devRef .tc Cert.ReferenceIdeal.main_v171) = WR (Proc.devRef .tc Cert.ReferenceIdeal.main_v171) := by
  keep_step Cert.ReferenceIdeal.Hand.w5_s10
theorem keepK_w5_s10_main_v172 (WK : ValK F) :
    after Cert.KernelIdeal.Gen.main_part5_ops10 WK (Proc.devRef .tc Cert.KernelIdeal.main_v172) = WK (Proc.devRef .tc Cert.KernelIdeal.main_v172) := by
  keep_step Cert.KernelIdeal.Gen.main_part5_ops10
theorem keepR_w5_s10_main_v172 (WR : ValR F) :
    after Cert.ReferenceIdeal.Hand.w5_s10 WR (Proc.devRef .tc Cert.ReferenceIdeal.main_v172) = WR (Proc.devRef .tc Cert.ReferenceIdeal.main_v172) := by
  keep_step Cert.ReferenceIdeal.Hand.w5_s10
theorem keepK_w5_s10_main_v174 (WK : ValK F) :
    after Cert.KernelIdeal.Gen.main_part5_ops10 WK (Proc.devRef .tc Cert.KernelIdeal.main_v174) = WK (Proc.devRef .tc Cert.KernelIdeal.main_v174) := by
  keep_step Cert.KernelIdeal.Gen.main_part5_ops10
theorem keepR_w5_s10_main_v174 (WR : ValR F) :
    after Cert.ReferenceIdeal.Hand.w5_s10 WR (Proc.devRef .tc Cert.ReferenceIdeal.main_v174) = WR (Proc.devRef .tc Cert.ReferenceIdeal.main_v174) := by
  keep_step Cert.ReferenceIdeal.Hand.w5_s10
theorem keepK_w5_s10_main_v176 (WK : ValK F) :
    after Cert.KernelIdeal.Gen.main_part5_ops10 WK (Proc.devRef .tc Cert.KernelIdeal.main_v176) = WK (Proc.devRef .tc Cert.KernelIdeal.main_v176) := by
  keep_step Cert.KernelIdeal.Gen.main_part5_ops10
theorem keepR_w5_s10_main_v176 (WR : ValR F) :
    after Cert.ReferenceIdeal.Hand.w5_s10 WR (Proc.devRef .tc Cert.ReferenceIdeal.main_v176) = WR (Proc.devRef .tc Cert.ReferenceIdeal.main_v176) := by
  keep_step Cert.ReferenceIdeal.Hand.w5_s10
theorem phiK_w5_s10_main_c_142 (WK : ValK F) :
    @Eq ((⟨S_, .i32⟩ : BufTy).Contents (Elt F)) (after Cert.KernelIdeal.Gen.main_part5_ops10 WK (Proc.devRef .tc Cert.KernelIdeal.main_c_142))
      (phi_w5_s10_main_c_142) := by
  phi_step Cert.KernelIdeal.Gen.main_part5_ops10 phi_w5_s10_main_c_142
theorem phiR_w5_s10_main_c_142 (WR : ValR F) :
    @Eq ((⟨S_, .i32⟩ : BufTy).Contents (Elt F)) (after Cert.ReferenceIdeal.Hand.w5_s10 WR (Proc.devRef .tc Cert.ReferenceIdeal.main_c_142))
      (phi_w5_s10_main_c_142) := by
  phi_step Cert.ReferenceIdeal.Hand.w5_s10 phi_w5_s10_main_c_142

theorem sim_w5_s10 (WK : ValK F) (WR : ValR F) (h : Inv15 WK WR) :
    Inv16 (after Cert.KernelIdeal.Gen.main_part5_ops10 WK) (after Cert.ReferenceIdeal.Hand.w5_s10 WR) := by
  sim_step h Inv15 Inv16 [keepK_w5_s10_main_arg10, keepR_w5_s10_main_arg10, keepK_w5_s10_main_arg11, keepR_w5_s10_main_arg11, keepK_w5_s10_main_v20, keepR_w5_s10_main_v20, keepK_w5_s10_main_v41, keepR_w5_s10_main_v41, keepK_w5_s10_main_v62, keepR_w5_s10_main_v62, keepK_w5_s10_main_v83, keepR_w5_s10_main_v83, keepK_w5_s10_main_v104, keepR_w5_s10_main_v104, keepK_w5_s10_main_v125, keepR_w5_s10_main_v125, keepK_w5_s10_main_v146, keepR_w5_s10_main_v146, keepK_w5_s10_main_v167, keepR_w5_s10_main_v167, keepK_w5_s10_main_v169, keepR_w5_s10_main_v169, keepK_w5_s10_main_v171, keepR_w5_s10_main_v171, keepK_w5_s10_main_v172, keepR_w5_s10_main_v172, keepK_w5_s10_main_v174, keepR_w5_s10_main_v174, keepK_w5_s10_main_v176, keepR_w5_s10_main_v176, phiK_w5_s10_main_c_142, phiR_w5_s10_main_c_142]

theorem keepK_w5_s11_main_arg10 (WK : ValK F) :
    after Cert.KernelIdeal.Gen.main_part5_ops11 WK (Proc.devRef .tc Cert.KernelIdeal.main_arg10) = WK (Proc.devRef .tc Cert.KernelIdeal.main_arg10) := by
  keep_step Cert.KernelIdeal.Gen.main_part5_ops11
theorem keepR_w5_s11_main_arg10 (WR : ValR F) :
    after Cert.ReferenceIdeal.Hand.w5_s11 WR (Proc.devRef .tc Cert.ReferenceIdeal.main_arg10) = WR (Proc.devRef .tc Cert.ReferenceIdeal.main_arg10) := by
  keep_step Cert.ReferenceIdeal.Hand.w5_s11
theorem keepK_w5_s11_main_arg11 (WK : ValK F) :
    after Cert.KernelIdeal.Gen.main_part5_ops11 WK (Proc.devRef .tc Cert.KernelIdeal.main_arg11) = WK (Proc.devRef .tc Cert.KernelIdeal.main_arg11) := by
  keep_step Cert.KernelIdeal.Gen.main_part5_ops11
theorem keepR_w5_s11_main_arg11 (WR : ValR F) :
    after Cert.ReferenceIdeal.Hand.w5_s11 WR (Proc.devRef .tc Cert.ReferenceIdeal.main_arg11) = WR (Proc.devRef .tc Cert.ReferenceIdeal.main_arg11) := by
  keep_step Cert.ReferenceIdeal.Hand.w5_s11
theorem keepK_w5_s11_main_v20 (WK : ValK F) :
    after Cert.KernelIdeal.Gen.main_part5_ops11 WK (Proc.devRef .tc Cert.KernelIdeal.main_v20) = WK (Proc.devRef .tc Cert.KernelIdeal.main_v20) := by
  keep_step Cert.KernelIdeal.Gen.main_part5_ops11
theorem keepR_w5_s11_main_v20 (WR : ValR F) :
    after Cert.ReferenceIdeal.Hand.w5_s11 WR (Proc.devRef .tc Cert.ReferenceIdeal.main_v20) = WR (Proc.devRef .tc Cert.ReferenceIdeal.main_v20) := by
  keep_step Cert.ReferenceIdeal.Hand.w5_s11
theorem keepK_w5_s11_main_v41 (WK : ValK F) :
    after Cert.KernelIdeal.Gen.main_part5_ops11 WK (Proc.devRef .tc Cert.KernelIdeal.main_v41) = WK (Proc.devRef .tc Cert.KernelIdeal.main_v41) := by
  keep_step Cert.KernelIdeal.Gen.main_part5_ops11
theorem keepR_w5_s11_main_v41 (WR : ValR F) :
    after Cert.ReferenceIdeal.Hand.w5_s11 WR (Proc.devRef .tc Cert.ReferenceIdeal.main_v41) = WR (Proc.devRef .tc Cert.ReferenceIdeal.main_v41) := by
  keep_step Cert.ReferenceIdeal.Hand.w5_s11
theorem keepK_w5_s11_main_v62 (WK : ValK F) :
    after Cert.KernelIdeal.Gen.main_part5_ops11 WK (Proc.devRef .tc Cert.KernelIdeal.main_v62) = WK (Proc.devRef .tc Cert.KernelIdeal.main_v62) := by
  keep_step Cert.KernelIdeal.Gen.main_part5_ops11
theorem keepR_w5_s11_main_v62 (WR : ValR F) :
    after Cert.ReferenceIdeal.Hand.w5_s11 WR (Proc.devRef .tc Cert.ReferenceIdeal.main_v62) = WR (Proc.devRef .tc Cert.ReferenceIdeal.main_v62) := by
  keep_step Cert.ReferenceIdeal.Hand.w5_s11
theorem keepK_w5_s11_main_v83 (WK : ValK F) :
    after Cert.KernelIdeal.Gen.main_part5_ops11 WK (Proc.devRef .tc Cert.KernelIdeal.main_v83) = WK (Proc.devRef .tc Cert.KernelIdeal.main_v83) := by
  keep_step Cert.KernelIdeal.Gen.main_part5_ops11
theorem keepR_w5_s11_main_v83 (WR : ValR F) :
    after Cert.ReferenceIdeal.Hand.w5_s11 WR (Proc.devRef .tc Cert.ReferenceIdeal.main_v83) = WR (Proc.devRef .tc Cert.ReferenceIdeal.main_v83) := by
  keep_step Cert.ReferenceIdeal.Hand.w5_s11
theorem keepK_w5_s11_main_v104 (WK : ValK F) :
    after Cert.KernelIdeal.Gen.main_part5_ops11 WK (Proc.devRef .tc Cert.KernelIdeal.main_v104) = WK (Proc.devRef .tc Cert.KernelIdeal.main_v104) := by
  keep_step Cert.KernelIdeal.Gen.main_part5_ops11
theorem keepR_w5_s11_main_v104 (WR : ValR F) :
    after Cert.ReferenceIdeal.Hand.w5_s11 WR (Proc.devRef .tc Cert.ReferenceIdeal.main_v104) = WR (Proc.devRef .tc Cert.ReferenceIdeal.main_v104) := by
  keep_step Cert.ReferenceIdeal.Hand.w5_s11
theorem keepK_w5_s11_main_v125 (WK : ValK F) :
    after Cert.KernelIdeal.Gen.main_part5_ops11 WK (Proc.devRef .tc Cert.KernelIdeal.main_v125) = WK (Proc.devRef .tc Cert.KernelIdeal.main_v125) := by
  keep_step Cert.KernelIdeal.Gen.main_part5_ops11
theorem keepR_w5_s11_main_v125 (WR : ValR F) :
    after Cert.ReferenceIdeal.Hand.w5_s11 WR (Proc.devRef .tc Cert.ReferenceIdeal.main_v125) = WR (Proc.devRef .tc Cert.ReferenceIdeal.main_v125) := by
  keep_step Cert.ReferenceIdeal.Hand.w5_s11
theorem keepK_w5_s11_main_v146 (WK : ValK F) :
    after Cert.KernelIdeal.Gen.main_part5_ops11 WK (Proc.devRef .tc Cert.KernelIdeal.main_v146) = WK (Proc.devRef .tc Cert.KernelIdeal.main_v146) := by
  keep_step Cert.KernelIdeal.Gen.main_part5_ops11
theorem keepR_w5_s11_main_v146 (WR : ValR F) :
    after Cert.ReferenceIdeal.Hand.w5_s11 WR (Proc.devRef .tc Cert.ReferenceIdeal.main_v146) = WR (Proc.devRef .tc Cert.ReferenceIdeal.main_v146) := by
  keep_step Cert.ReferenceIdeal.Hand.w5_s11
theorem keepK_w5_s11_main_v167 (WK : ValK F) :
    after Cert.KernelIdeal.Gen.main_part5_ops11 WK (Proc.devRef .tc Cert.KernelIdeal.main_v167) = WK (Proc.devRef .tc Cert.KernelIdeal.main_v167) := by
  keep_step Cert.KernelIdeal.Gen.main_part5_ops11
theorem keepR_w5_s11_main_v167 (WR : ValR F) :
    after Cert.ReferenceIdeal.Hand.w5_s11 WR (Proc.devRef .tc Cert.ReferenceIdeal.main_v167) = WR (Proc.devRef .tc Cert.ReferenceIdeal.main_v167) := by
  keep_step Cert.ReferenceIdeal.Hand.w5_s11
theorem keepK_w5_s11_main_v169 (WK : ValK F) :
    after Cert.KernelIdeal.Gen.main_part5_ops11 WK (Proc.devRef .tc Cert.KernelIdeal.main_v169) = WK (Proc.devRef .tc Cert.KernelIdeal.main_v169) := by
  keep_step Cert.KernelIdeal.Gen.main_part5_ops11
theorem keepR_w5_s11_main_v169 (WR : ValR F) :
    after Cert.ReferenceIdeal.Hand.w5_s11 WR (Proc.devRef .tc Cert.ReferenceIdeal.main_v169) = WR (Proc.devRef .tc Cert.ReferenceIdeal.main_v169) := by
  keep_step Cert.ReferenceIdeal.Hand.w5_s11
theorem keepK_w5_s11_main_v171 (WK : ValK F) :
    after Cert.KernelIdeal.Gen.main_part5_ops11 WK (Proc.devRef .tc Cert.KernelIdeal.main_v171) = WK (Proc.devRef .tc Cert.KernelIdeal.main_v171) := by
  keep_step Cert.KernelIdeal.Gen.main_part5_ops11
theorem keepR_w5_s11_main_v171 (WR : ValR F) :
    after Cert.ReferenceIdeal.Hand.w5_s11 WR (Proc.devRef .tc Cert.ReferenceIdeal.main_v171) = WR (Proc.devRef .tc Cert.ReferenceIdeal.main_v171) := by
  keep_step Cert.ReferenceIdeal.Hand.w5_s11
theorem keepK_w5_s11_main_v172 (WK : ValK F) :
    after Cert.KernelIdeal.Gen.main_part5_ops11 WK (Proc.devRef .tc Cert.KernelIdeal.main_v172) = WK (Proc.devRef .tc Cert.KernelIdeal.main_v172) := by
  keep_step Cert.KernelIdeal.Gen.main_part5_ops11
theorem keepR_w5_s11_main_v172 (WR : ValR F) :
    after Cert.ReferenceIdeal.Hand.w5_s11 WR (Proc.devRef .tc Cert.ReferenceIdeal.main_v172) = WR (Proc.devRef .tc Cert.ReferenceIdeal.main_v172) := by
  keep_step Cert.ReferenceIdeal.Hand.w5_s11
theorem keepK_w5_s11_main_v174 (WK : ValK F) :
    after Cert.KernelIdeal.Gen.main_part5_ops11 WK (Proc.devRef .tc Cert.KernelIdeal.main_v174) = WK (Proc.devRef .tc Cert.KernelIdeal.main_v174) := by
  keep_step Cert.KernelIdeal.Gen.main_part5_ops11
theorem keepR_w5_s11_main_v174 (WR : ValR F) :
    after Cert.ReferenceIdeal.Hand.w5_s11 WR (Proc.devRef .tc Cert.ReferenceIdeal.main_v174) = WR (Proc.devRef .tc Cert.ReferenceIdeal.main_v174) := by
  keep_step Cert.ReferenceIdeal.Hand.w5_s11
theorem keepK_w5_s11_main_v176 (WK : ValK F) :
    after Cert.KernelIdeal.Gen.main_part5_ops11 WK (Proc.devRef .tc Cert.KernelIdeal.main_v176) = WK (Proc.devRef .tc Cert.KernelIdeal.main_v176) := by
  keep_step Cert.KernelIdeal.Gen.main_part5_ops11
theorem keepR_w5_s11_main_v176 (WR : ValR F) :
    after Cert.ReferenceIdeal.Hand.w5_s11 WR (Proc.devRef .tc Cert.ReferenceIdeal.main_v176) = WR (Proc.devRef .tc Cert.ReferenceIdeal.main_v176) := by
  keep_step Cert.ReferenceIdeal.Hand.w5_s11
theorem phiK_w5_s11_main_v177 (WK : ValK F) :
    @Eq ((⟨S16, .i32⟩ : BufTy).Contents (Elt F)) (after Cert.KernelIdeal.Gen.main_part5_ops11 WK (Proc.devRef .tc Cert.KernelIdeal.main_v177))
      (phi_w5_s11_main_v177 (WK (Proc.devRef .tc Cert.KernelIdeal.main_arg11)) (WK (Proc.devRef .tc Cert.KernelIdeal.main_c_142))) := by
  phi_step Cert.KernelIdeal.Gen.main_part5_ops11 phi_w5_s11_main_v177
theorem phiR_w5_s11_main_v177 (WR : ValR F) :
    @Eq ((⟨S16, .i32⟩ : BufTy).Contents (Elt F)) (after Cert.ReferenceIdeal.Hand.w5_s11 WR (Proc.devRef .tc Cert.ReferenceIdeal.main_v177))
      (phi_w5_s11_main_v177 (WR (Proc.devRef .tc Cert.ReferenceIdeal.main_arg11)) (WR (Proc.devRef .tc Cert.ReferenceIdeal.main_c_142))) := by
  phi_step Cert.ReferenceIdeal.Hand.w5_s11 phi_w5_s11_main_v177

theorem sim_w5_s11 (WK : ValK F) (WR : ValR F) (h : Inv16 WK WR) :
    Inv17 (after Cert.KernelIdeal.Gen.main_part5_ops11 WK) (after Cert.ReferenceIdeal.Hand.w5_s11 WR) := by
  sim_step h Inv16 Inv17 [keepK_w5_s11_main_arg10, keepR_w5_s11_main_arg10, keepK_w5_s11_main_arg11, keepR_w5_s11_main_arg11, keepK_w5_s11_main_v20, keepR_w5_s11_main_v20, keepK_w5_s11_main_v41, keepR_w5_s11_main_v41, keepK_w5_s11_main_v62, keepR_w5_s11_main_v62, keepK_w5_s11_main_v83, keepR_w5_s11_main_v83, keepK_w5_s11_main_v104, keepR_w5_s11_main_v104, keepK_w5_s11_main_v125, keepR_w5_s11_main_v125, keepK_w5_s11_main_v146, keepR_w5_s11_main_v146, keepK_w5_s11_main_v167, keepR_w5_s11_main_v167, keepK_w5_s11_main_v169, keepR_w5_s11_main_v169, keepK_w5_s11_main_v171, keepR_w5_s11_main_v171, keepK_w5_s11_main_v172, keepR_w5_s11_main_v172, keepK_w5_s11_main_v174, keepR_w5_s11_main_v174, keepK_w5_s11_main_v176, keepR_w5_s11_main_v176, phiK_w5_s11_main_v177, phiR_w5_s11_main_v177]

theorem keepK_w5_s12_main_arg10 (WK : ValK F) :
    after Cert.KernelIdeal.Gen.main_part5_ops12 WK (Proc.devRef .tc Cert.KernelIdeal.main_arg10) = WK (Proc.devRef .tc Cert.KernelIdeal.main_arg10) := by
  keep_step Cert.KernelIdeal.Gen.main_part5_ops12
theorem keepR_w5_s12_main_arg10 (WR : ValR F) :
    after Cert.ReferenceIdeal.Hand.w5_s12 WR (Proc.devRef .tc Cert.ReferenceIdeal.main_arg10) = WR (Proc.devRef .tc Cert.ReferenceIdeal.main_arg10) := by
  keep_step Cert.ReferenceIdeal.Hand.w5_s12
theorem keepK_w5_s12_main_arg11 (WK : ValK F) :
    after Cert.KernelIdeal.Gen.main_part5_ops12 WK (Proc.devRef .tc Cert.KernelIdeal.main_arg11) = WK (Proc.devRef .tc Cert.KernelIdeal.main_arg11) := by
  keep_step Cert.KernelIdeal.Gen.main_part5_ops12
theorem keepR_w5_s12_main_arg11 (WR : ValR F) :
    after Cert.ReferenceIdeal.Hand.w5_s12 WR (Proc.devRef .tc Cert.ReferenceIdeal.main_arg11) = WR (Proc.devRef .tc Cert.ReferenceIdeal.main_arg11) := by
  keep_step Cert.ReferenceIdeal.Hand.w5_s12
theorem keepK_w5_s12_main_v20 (WK : ValK F) :
    after Cert.KernelIdeal.Gen.main_part5_ops12 WK (Proc.devRef .tc Cert.KernelIdeal.main_v20) = WK (Proc.devRef .tc Cert.KernelIdeal.main_v20) := by
  keep_step Cert.KernelIdeal.Gen.main_part5_ops12
theorem keepR_w5_s12_main_v20 (WR : ValR F) :
    after Cert.ReferenceIdeal.Hand.w5_s12 WR (Proc.devRef .tc Cert.ReferenceIdeal.main_v20) = WR (Proc.devRef .tc Cert.ReferenceIdeal.main_v20) := by
  keep_step Cert.ReferenceIdeal.Hand.w5_s12
theorem keepK_w5_s12_main_v41 (WK : ValK F) :
    after Cert.KernelIdeal.Gen.main_part5_ops12 WK (Proc.devRef .tc Cert.KernelIdeal.main_v41) = WK (Proc.devRef .tc Cert.KernelIdeal.main_v41) := by
  keep_step Cert.KernelIdeal.Gen.main_part5_ops12
theorem keepR_w5_s12_main_v41 (WR : ValR F) :
    after Cert.ReferenceIdeal.Hand.w5_s12 WR (Proc.devRef .tc Cert.ReferenceIdeal.main_v41) = WR (Proc.devRef .tc Cert.ReferenceIdeal.main_v41) := by
  keep_step Cert.ReferenceIdeal.Hand.w5_s12
theorem keepK_w5_s12_main_v62 (WK : ValK F) :
    after Cert.KernelIdeal.Gen.main_part5_ops12 WK (Proc.devRef .tc Cert.KernelIdeal.main_v62) = WK (Proc.devRef .tc Cert.KernelIdeal.main_v62) := by
  keep_step Cert.KernelIdeal.Gen.main_part5_ops12
theorem keepR_w5_s12_main_v62 (WR : ValR F) :
    after Cert.ReferenceIdeal.Hand.w5_s12 WR (Proc.devRef .tc Cert.ReferenceIdeal.main_v62) = WR (Proc.devRef .tc Cert.ReferenceIdeal.main_v62) := by
  keep_step Cert.ReferenceIdeal.Hand.w5_s12
theorem keepK_w5_s12_main_v83 (WK : ValK F) :
    after Cert.KernelIdeal.Gen.main_part5_ops12 WK (Proc.devRef .tc Cert.KernelIdeal.main_v83) = WK (Proc.devRef .tc Cert.KernelIdeal.main_v83) := by
  keep_step Cert.KernelIdeal.Gen.main_part5_ops12
theorem keepR_w5_s12_main_v83 (WR : ValR F) :
    after Cert.ReferenceIdeal.Hand.w5_s12 WR (Proc.devRef .tc Cert.ReferenceIdeal.main_v83) = WR (Proc.devRef .tc Cert.ReferenceIdeal.main_v83) := by
  keep_step Cert.ReferenceIdeal.Hand.w5_s12
theorem keepK_w5_s12_main_v104 (WK : ValK F) :
    after Cert.KernelIdeal.Gen.main_part5_ops12 WK (Proc.devRef .tc Cert.KernelIdeal.main_v104) = WK (Proc.devRef .tc Cert.KernelIdeal.main_v104) := by
  keep_step Cert.KernelIdeal.Gen.main_part5_ops12
theorem keepR_w5_s12_main_v104 (WR : ValR F) :
    after Cert.ReferenceIdeal.Hand.w5_s12 WR (Proc.devRef .tc Cert.ReferenceIdeal.main_v104) = WR (Proc.devRef .tc Cert.ReferenceIdeal.main_v104) := by
  keep_step Cert.ReferenceIdeal.Hand.w5_s12
theorem keepK_w5_s12_main_v125 (WK : ValK F) :
    after Cert.KernelIdeal.Gen.main_part5_ops12 WK (Proc.devRef .tc Cert.KernelIdeal.main_v125) = WK (Proc.devRef .tc Cert.KernelIdeal.main_v125) := by
  keep_step Cert.KernelIdeal.Gen.main_part5_ops12
theorem keepR_w5_s12_main_v125 (WR : ValR F) :
    after Cert.ReferenceIdeal.Hand.w5_s12 WR (Proc.devRef .tc Cert.ReferenceIdeal.main_v125) = WR (Proc.devRef .tc Cert.ReferenceIdeal.main_v125) := by
  keep_step Cert.ReferenceIdeal.Hand.w5_s12
theorem keepK_w5_s12_main_v146 (WK : ValK F) :
    after Cert.KernelIdeal.Gen.main_part5_ops12 WK (Proc.devRef .tc Cert.KernelIdeal.main_v146) = WK (Proc.devRef .tc Cert.KernelIdeal.main_v146) := by
  keep_step Cert.KernelIdeal.Gen.main_part5_ops12
theorem keepR_w5_s12_main_v146 (WR : ValR F) :
    after Cert.ReferenceIdeal.Hand.w5_s12 WR (Proc.devRef .tc Cert.ReferenceIdeal.main_v146) = WR (Proc.devRef .tc Cert.ReferenceIdeal.main_v146) := by
  keep_step Cert.ReferenceIdeal.Hand.w5_s12
theorem keepK_w5_s12_main_v167 (WK : ValK F) :
    after Cert.KernelIdeal.Gen.main_part5_ops12 WK (Proc.devRef .tc Cert.KernelIdeal.main_v167) = WK (Proc.devRef .tc Cert.KernelIdeal.main_v167) := by
  keep_step Cert.KernelIdeal.Gen.main_part5_ops12
theorem keepR_w5_s12_main_v167 (WR : ValR F) :
    after Cert.ReferenceIdeal.Hand.w5_s12 WR (Proc.devRef .tc Cert.ReferenceIdeal.main_v167) = WR (Proc.devRef .tc Cert.ReferenceIdeal.main_v167) := by
  keep_step Cert.ReferenceIdeal.Hand.w5_s12
theorem keepK_w5_s12_main_v169 (WK : ValK F) :
    after Cert.KernelIdeal.Gen.main_part5_ops12 WK (Proc.devRef .tc Cert.KernelIdeal.main_v169) = WK (Proc.devRef .tc Cert.KernelIdeal.main_v169) := by
  keep_step Cert.KernelIdeal.Gen.main_part5_ops12
theorem keepR_w5_s12_main_v169 (WR : ValR F) :
    after Cert.ReferenceIdeal.Hand.w5_s12 WR (Proc.devRef .tc Cert.ReferenceIdeal.main_v169) = WR (Proc.devRef .tc Cert.ReferenceIdeal.main_v169) := by
  keep_step Cert.ReferenceIdeal.Hand.w5_s12
theorem keepK_w5_s12_main_v171 (WK : ValK F) :
    after Cert.KernelIdeal.Gen.main_part5_ops12 WK (Proc.devRef .tc Cert.KernelIdeal.main_v171) = WK (Proc.devRef .tc Cert.KernelIdeal.main_v171) := by
  keep_step Cert.KernelIdeal.Gen.main_part5_ops12
theorem keepR_w5_s12_main_v171 (WR : ValR F) :
    after Cert.ReferenceIdeal.Hand.w5_s12 WR (Proc.devRef .tc Cert.ReferenceIdeal.main_v171) = WR (Proc.devRef .tc Cert.ReferenceIdeal.main_v171) := by
  keep_step Cert.ReferenceIdeal.Hand.w5_s12
theorem keepK_w5_s12_main_v172 (WK : ValK F) :
    after Cert.KernelIdeal.Gen.main_part5_ops12 WK (Proc.devRef .tc Cert.KernelIdeal.main_v172) = WK (Proc.devRef .tc Cert.KernelIdeal.main_v172) := by
  keep_step Cert.KernelIdeal.Gen.main_part5_ops12
theorem keepR_w5_s12_main_v172 (WR : ValR F) :
    after Cert.ReferenceIdeal.Hand.w5_s12 WR (Proc.devRef .tc Cert.ReferenceIdeal.main_v172) = WR (Proc.devRef .tc Cert.ReferenceIdeal.main_v172) := by
  keep_step Cert.ReferenceIdeal.Hand.w5_s12
theorem keepK_w5_s12_main_v176 (WK : ValK F) :
    after Cert.KernelIdeal.Gen.main_part5_ops12 WK (Proc.devRef .tc Cert.KernelIdeal.main_v176) = WK (Proc.devRef .tc Cert.KernelIdeal.main_v176) := by
  keep_step Cert.KernelIdeal.Gen.main_part5_ops12
theorem keepR_w5_s12_main_v176 (WR : ValR F) :
    after Cert.ReferenceIdeal.Hand.w5_s12 WR (Proc.devRef .tc Cert.ReferenceIdeal.main_v176) = WR (Proc.devRef .tc Cert.ReferenceIdeal.main_v176) := by
  keep_step Cert.ReferenceIdeal.Hand.w5_s12
theorem keepK_w5_s12_main_v177 (WK : ValK F) :
    after Cert.KernelIdeal.Gen.main_part5_ops12 WK (Proc.devRef .tc Cert.KernelIdeal.main_v177) = WK (Proc.devRef .tc Cert.KernelIdeal.main_v177) := by
  keep_step Cert.KernelIdeal.Gen.main_part5_ops12
theorem keepR_w5_s12_main_v177 (WR : ValR F) :
    after Cert.ReferenceIdeal.Hand.w5_s12 WR (Proc.devRef .tc Cert.ReferenceIdeal.main_v177) = WR (Proc.devRef .tc Cert.ReferenceIdeal.main_v177) := by
  keep_step Cert.ReferenceIdeal.Hand.w5_s12
theorem phiK_w5_s12_main_v178 (WK : ValK F) :
    @Eq ((⟨S224, .i32⟩ : BufTy).Contents (Elt F)) (after Cert.KernelIdeal.Gen.main_part5_ops12 WK (Proc.devRef .tc Cert.KernelIdeal.main_v178))
      (phi_w5_s12_main_v178) := by
  phi_step Cert.KernelIdeal.Gen.main_part5_ops12 phi_w5_s12_main_v178
theorem phiR_w5_s12_main_v178 (WR : ValR F) :
    @Eq ((⟨S224, .i32⟩ : BufTy).Contents (Elt F)) (after Cert.ReferenceIdeal.Hand.w5_s12 WR (Proc.devRef .tc Cert.ReferenceIdeal.main_v178))
      (phi_w5_s12_main_v178) := by
  phi_step Cert.ReferenceIdeal.Hand.w5_s12 phi_w5_s12_main_v178
theorem phiK_w5_s12_main_v179 (WK : ValK F) :
    @Eq ((⟨S224, .i32⟩ : BufTy).Contents (Elt F)) (after Cert.KernelIdeal.Gen.main_part5_ops12 WK (Proc.devRef .tc Cert.KernelIdeal.main_v179))
      (phi_w5_s12_main_v179) := by
  phi_step Cert.KernelIdeal.Gen.main_part5_ops12 phi_w5_s12_main_v179
theorem phiR_w5_s12_main_v179 (WR : ValR F) :
    @Eq ((⟨S224, .i32⟩ : BufTy).Contents (Elt F)) (after Cert.ReferenceIdeal.Hand.w5_s12 WR (Proc.devRef .tc Cert.ReferenceIdeal.main_v179))
      (phi_w5_s12_main_v179) := by
  phi_step Cert.ReferenceIdeal.Hand.w5_s12 phi_w5_s12_main_v179
theorem phiK_w5_s12_main_v180 (WK : ValK F) :
    @Eq ((⟨S224x1, .i32⟩ : BufTy).Contents (Elt F)) (after Cert.KernelIdeal.Gen.main_part5_ops12 WK (Proc.devRef .tc Cert.KernelIdeal.main_v180))
      (phi_w5_s12_main_v180) := by
  phi_step Cert.KernelIdeal.Gen.main_part5_ops12 phi_w5_s12_main_v180
theorem phiR_w5_s12_main_v180 (WR : ValR F) :
    @Eq ((⟨S224x1, .i32⟩ : BufTy).Contents (Elt F)) (after Cert.ReferenceIdeal.Hand.w5_s12 WR (Proc.devRef .tc Cert.ReferenceIdeal.main_v180))
      (phi_w5_s12_main_v180) := by
  phi_step Cert.ReferenceIdeal.Hand.w5_s12 phi_w5_s12_main_v180
theorem phiK_w5_s12_main_v181 (WK : ValK F) :
    @Eq ((⟨S1x224, .i32⟩ : BufTy).Contents (Elt F)) (after Cert.KernelIdeal.Gen.main_part5_ops12 WK (Proc.devRef .tc Cert.KernelIdeal.main_v181))
      (phi_w5_s12_main_v181) := by
  phi_step Cert.KernelIdeal.Gen.main_part5_ops12 phi_w5_s12_main_v181
theorem phiR_w5_s12_main_v181 (WR : ValR F) :
    @Eq ((⟨S1x224, .i32⟩ : BufTy).Contents (Elt F)) (after Cert.ReferenceIdeal.Hand.w5_s12 WR (Proc.devRef .tc Cert.ReferenceIdeal.main_v181))
      (phi_w5_s12_main_v181) := by
  phi_step Cert.ReferenceIdeal.Hand.w5_s12 phi_w5_s12_main_v181
theorem phiK_w5_s12_main_v188 (WK : ValK F) :
    @Eq ((⟨S16x224x1, .i1⟩ : BufTy).Contents (Elt F)) (after Cert.KernelIdeal.Gen.main_part5_ops12 WK (Proc.devRef .tc Cert.KernelIdeal.main_v188))
      (phi_w5_s12_main_v188 (WK (Proc.devRef .tc Cert.KernelIdeal.main_v174))) := by
  phi_step Cert.KernelIdeal.Gen.main_part5_ops12 phi_w5_s12_main_v188
theorem phiR_w5_s12_main_v188 (WR : ValR F) :
    @Eq ((⟨S16x224x1, .i1⟩ : BufTy).Contents (Elt F)) (after Cert.ReferenceIdeal.Hand.w5_s12 WR (Proc.devRef .tc Cert.ReferenceIdeal.main_v188))
      (phi_w5_s12_main_v188 (WR (Proc.devRef .tc Cert.ReferenceIdeal.main_v174))) := by
  phi_step Cert.ReferenceIdeal.Hand.w5_s12 phi_w5_s12_main_v188
theorem phiK_w5_s12_main_c_144 (WK : ValK F) :
    @Eq ((⟨S_, .i32⟩ : BufTy).Contents (Elt F)) (after Cert.KernelIdeal.Gen.main_part5_ops12 WK (Proc.devRef .tc Cert.KernelIdeal.main_c_144))
      (phi_w5_s12_main_c_144) := by
  phi_step Cert.KernelIdeal.Gen.main_part5_ops12 phi_w5_s12_main_c_144
theorem phiR_w5_s12_main_c_144 (WR : ValR F) :
    @Eq ((⟨S_, .i32⟩ : BufTy).Contents (Elt F)) (after Cert.ReferenceIdeal.Hand.w5_s12 WR (Proc.devRef .tc Cert.ReferenceIdeal.main_c_144))
      (phi_w5_s12_main_c_144) := by
  phi_step Cert.ReferenceIdeal.Hand.w5_s12 phi_w5_s12_main_c_144

theorem sim_w5_s12 (WK : ValK F) (WR : ValR F) (h : Inv17 WK WR) :
    Inv18 (after Cert.KernelIdeal.Gen.main_part5_ops12 WK) (after Cert.ReferenceIdeal.Hand.w5_s12 WR) := by
  sim_step h Inv17 Inv18 [keepK_w5_s12_main_arg10, keepR_w5_s12_main_arg10, keepK_w5_s12_main_arg11, keepR_w5_s12_main_arg11, keepK_w5_s12_main_v20, keepR_w5_s12_main_v20, keepK_w5_s12_main_v41, keepR_w5_s12_main_v41, keepK_w5_s12_main_v62, keepR_w5_s12_main_v62, keepK_w5_s12_main_v83, keepR_w5_s12_main_v83, keepK_w5_s12_main_v104, keepR_w5_s12_main_v104, keepK_w5_s12_main_v125, keepR_w5_s12_main_v125, keepK_w5_s12_main_v146, keepR_w5_s12_main_v146, keepK_w5_s12_main_v167, keepR_w5_s12_main_v167, keepK_w5_s12_main_v169, keepR_w5_s12_main_v169, keepK_w5_s12_main_v171, keepR_w5_s12_main_v171, keepK_w5_s12_main_v172, keepR_w5_s12_main_v172, keepK_w5_s12_main_v176, keepR_w5_s12_main_v176, keepK_w5_s12_main_v177, keepR_w5_s12_main_v177, phiK_w5_s12_main_v178, phiR_w5_s12_main_v178, phiK_w5_s12_main_v179, phiR_w5_s12_main_v179, phiK_w5_s12_main_v180, phiR_w5_s12_main_v180, phiK_w5_s12_main_v181, phiR_w5_s12_main_v181, phiK_w5_s12_main_v188, phiR_w5_s12_main_v188, phiK_w5_s12_main_c_144, phiR_w5_s12_main_c_144]

theorem keepK_w5_s13_main_arg10 (WK : ValK F) :
    after Cert.KernelIdeal.Gen.main_part5_ops13 WK (Proc.devRef .tc Cert.KernelIdeal.main_arg10) = WK (Proc.devRef .tc Cert.KernelIdeal.main_arg10) := by
  keep_step Cert.KernelIdeal.Gen.main_part5_ops13
theorem keepR_w5_s13_main_arg10 (WR : ValR F) :
    after Cert.ReferenceIdeal.Hand.w5_s13 WR (Proc.devRef .tc Cert.ReferenceIdeal.main_arg10) = WR (Proc.devRef .tc Cert.ReferenceIdeal.main_arg10) := by
  keep_step Cert.ReferenceIdeal.Hand.w5_s13
theorem keepK_w5_s13_main_arg11 (WK : ValK F) :
    after Cert.KernelIdeal.Gen.main_part5_ops13 WK (Proc.devRef .tc Cert.KernelIdeal.main_arg11) = WK (Proc.devRef .tc Cert.KernelIdeal.main_arg11) := by
  keep_step Cert.KernelIdeal.Gen.main_part5_ops13
theorem keepR_w5_s13_main_arg11 (WR : ValR F) :
    after Cert.ReferenceIdeal.Hand.w5_s13 WR (Proc.devRef .tc Cert.ReferenceIdeal.main_arg11) = WR (Proc.devRef .tc Cert.ReferenceIdeal.main_arg11) := by
  keep_step Cert.ReferenceIdeal.Hand.w5_s13
theorem keepK_w5_s13_main_v20 (WK : ValK F) :
    after Cert.KernelIdeal.Gen.main_part5_ops13 WK (Proc.devRef .tc Cert.KernelIdeal.main_v20) = WK (Proc.devRef .tc Cert.KernelIdeal.main_v20) := by
  keep_step Cert.KernelIdeal.Gen.main_part5_ops13
theorem keepR_w5_s13_main_v20 (WR : ValR F) :
    after Cert.ReferenceIdeal.Hand.w5_s13 WR (Proc.devRef .tc Cert.ReferenceIdeal.main_v20) = WR (Proc.devRef .tc Cert.ReferenceIdeal.main_v20) := by
  keep_step Cert.ReferenceIdeal.Hand.w5_s13
theorem keepK_w5_s13_main_v41 (WK : ValK F) :
    after Cert.KernelIdeal.Gen.main_part5_ops13 WK (Proc.devRef .tc Cert.KernelIdeal.main_v41) = WK (Proc.devRef .tc Cert.KernelIdeal.main_v41) := by
  keep_step Cert.KernelIdeal.Gen.main_part5_ops13
theorem keepR_w5_s13_main_v41 (WR : ValR F) :
    after Cert.ReferenceIdeal.Hand.w5_s13 WR (Proc.devRef .tc Cert.ReferenceIdeal.main_v41) = WR (Proc.devRef .tc Cert.ReferenceIdeal.main_v41) := by
  keep_step Cert.ReferenceIdeal.Hand.w5_s13
theorem keepK_w5_s13_main_v62 (WK : ValK F) :
    after Cert.KernelIdeal.Gen.main_part5_ops13 WK (Proc.devRef .tc Cert.KernelIdeal.main_v62) = WK (Proc.devRef .tc Cert.KernelIdeal.main_v62) := by
  keep_step Cert.KernelIdeal.Gen.main_part5_ops13
theorem keepR_w5_s13_main_v62 (WR : ValR F) :
    after Cert.ReferenceIdeal.Hand.w5_s13 WR (Proc.devRef .tc Cert.ReferenceIdeal.main_v62) = WR (Proc.devRef .tc Cert.ReferenceIdeal.main_v62) := by
  keep_step Cert.ReferenceIdeal.Hand.w5_s13
theorem keepK_w5_s13_main_v83 (WK : ValK F) :
    after Cert.KernelIdeal.Gen.main_part5_ops13 WK (Proc.devRef .tc Cert.KernelIdeal.main_v83) = WK (Proc.devRef .tc Cert.KernelIdeal.main_v83) := by
  keep_step Cert.KernelIdeal.Gen.main_part5_ops13
theorem keepR_w5_s13_main_v83 (WR : ValR F) :
    after Cert.ReferenceIdeal.Hand.w5_s13 WR (Proc.devRef .tc Cert.ReferenceIdeal.main_v83) = WR (Proc.devRef .tc Cert.ReferenceIdeal.main_v83) := by
  keep_step Cert.ReferenceIdeal.Hand.w5_s13
theorem keepK_w5_s13_main_v104 (WK : ValK F) :
    after Cert.KernelIdeal.Gen.main_part5_ops13 WK (Proc.devRef .tc Cert.KernelIdeal.main_v104) = WK (Proc.devRef .tc Cert.KernelIdeal.main_v104) := by
  keep_step Cert.KernelIdeal.Gen.main_part5_ops13
theorem keepR_w5_s13_main_v104 (WR : ValR F) :
    after Cert.ReferenceIdeal.Hand.w5_s13 WR (Proc.devRef .tc Cert.ReferenceIdeal.main_v104) = WR (Proc.devRef .tc Cert.ReferenceIdeal.main_v104) := by
  keep_step Cert.ReferenceIdeal.Hand.w5_s13
theorem keepK_w5_s13_main_v125 (WK : ValK F) :
    after Cert.KernelIdeal.Gen.main_part5_ops13 WK (Proc.devRef .tc Cert.KernelIdeal.main_v125) = WK (Proc.devRef .tc Cert.KernelIdeal.main_v125) := by
  keep_step Cert.KernelIdeal.Gen.main_part5_ops13
theorem keepR_w5_s13_main_v125 (WR : ValR F) :
    after Cert.ReferenceIdeal.Hand.w5_s13 WR (Proc.devRef .tc Cert.ReferenceIdeal.main_v125) = WR (Proc.devRef .tc Cert.ReferenceIdeal.main_v125) := by
  keep_step Cert.ReferenceIdeal.Hand.w5_s13
theorem keepK_w5_s13_main_v146 (WK : ValK F) :
    after Cert.KernelIdeal.Gen.main_part5_ops13 WK (Proc.devRef .tc Cert.KernelIdeal.main_v146) = WK (Proc.devRef .tc Cert.KernelIdeal.main_v146) := by
  keep_step Cert.KernelIdeal.Gen.main_part5_ops13
theorem keepR_w5_s13_main_v146 (WR : ValR F) :
    after Cert.ReferenceIdeal.Hand.w5_s13 WR (Proc.devRef .tc Cert.ReferenceIdeal.main_v146) = WR (Proc.devRef .tc Cert.ReferenceIdeal.main_v146) := by
  keep_step Cert.ReferenceIdeal.Hand.w5_s13
theorem keepK_w5_s13_main_v167 (WK : ValK F) :
    after Cert.KernelIdeal.Gen.main_part5_ops13 WK (Proc.devRef .tc Cert.KernelIdeal.main_v167) = WK (Proc.devRef .tc Cert.KernelIdeal.main_v167) := by
  keep_step Cert.KernelIdeal.Gen.main_part5_ops13
theorem keepR_w5_s13_main_v167 (WR : ValR F) :
    after Cert.ReferenceIdeal.Hand.w5_s13 WR (Proc.devRef .tc Cert.ReferenceIdeal.main_v167) = WR (Proc.devRef .tc Cert.ReferenceIdeal.main_v167) := by
  keep_step Cert.ReferenceIdeal.Hand.w5_s13
theorem keepK_w5_s13_main_v169 (WK : ValK F) :
    after Cert.KernelIdeal.Gen.main_part5_ops13 WK (Proc.devRef .tc Cert.KernelIdeal.main_v169) = WK (Proc.devRef .tc Cert.KernelIdeal.main_v169) := by
  keep_step Cert.KernelIdeal.Gen.main_part5_ops13
theorem keepR_w5_s13_main_v169 (WR : ValR F) :
    after Cert.ReferenceIdeal.Hand.w5_s13 WR (Proc.devRef .tc Cert.ReferenceIdeal.main_v169) = WR (Proc.devRef .tc Cert.ReferenceIdeal.main_v169) := by
  keep_step Cert.ReferenceIdeal.Hand.w5_s13
theorem keepK_w5_s13_main_v171 (WK : ValK F) :
    after Cert.KernelIdeal.Gen.main_part5_ops13 WK (Proc.devRef .tc Cert.KernelIdeal.main_v171) = WK (Proc.devRef .tc Cert.KernelIdeal.main_v171) := by
  keep_step Cert.KernelIdeal.Gen.main_part5_ops13
theorem keepR_w5_s13_main_v171 (WR : ValR F) :
    after Cert.ReferenceIdeal.Hand.w5_s13 WR (Proc.devRef .tc Cert.ReferenceIdeal.main_v171) = WR (Proc.devRef .tc Cert.ReferenceIdeal.main_v171) := by
  keep_step Cert.ReferenceIdeal.Hand.w5_s13
theorem keepK_w5_s13_main_v172 (WK : ValK F) :
    after Cert.KernelIdeal.Gen.main_part5_ops13 WK (Proc.devRef .tc Cert.KernelIdeal.main_v172) = WK (Proc.devRef .tc Cert.KernelIdeal.main_v172) := by
  keep_step Cert.KernelIdeal.Gen.main_part5_ops13
theorem keepR_w5_s13_main_v172 (WR : ValR F) :
    after Cert.ReferenceIdeal.Hand.w5_s13 WR (Proc.devRef .tc Cert.ReferenceIdeal.main_v172) = WR (Proc.devRef .tc Cert.ReferenceIdeal.main_v172) := by
  keep_step Cert.ReferenceIdeal.Hand.w5_s13
theorem keepK_w5_s13_main_v176 (WK : ValK F) :
    after Cert.KernelIdeal.Gen.main_part5_ops13 WK (Proc.devRef .tc Cert.KernelIdeal.main_v176) = WK (Proc.devRef .tc Cert.KernelIdeal.main_v176) := by
  keep_step Cert.KernelIdeal.Gen.main_part5_ops13
theorem keepR_w5_s13_main_v176 (WR : ValR F) :
    after Cert.ReferenceIdeal.Hand.w5_s13 WR (Proc.devRef .tc Cert.ReferenceIdeal.main_v176) = WR (Proc.devRef .tc Cert.ReferenceIdeal.main_v176) := by
  keep_step Cert.ReferenceIdeal.Hand.w5_s13
theorem keepK_w5_s13_main_v177 (WK : ValK F) :
    after Cert.KernelIdeal.Gen.main_part5_ops13 WK (Proc.devRef .tc Cert.KernelIdeal.main_v177) = WK (Proc.devRef .tc Cert.KernelIdeal.main_v177) := by
  keep_step Cert.KernelIdeal.Gen.main_part5_ops13
theorem keepR_w5_s13_main_v177 (WR : ValR F) :
    after Cert.ReferenceIdeal.Hand.w5_s13 WR (Proc.devRef .tc Cert.ReferenceIdeal.main_v177) = WR (Proc.devRef .tc Cert.ReferenceIdeal.main_v177) := by
  keep_step Cert.ReferenceIdeal.Hand.w5_s13
theorem keepK_w5_s13_main_v178 (WK : ValK F) :
    after Cert.KernelIdeal.Gen.main_part5_ops13 WK (Proc.devRef .tc Cert.KernelIdeal.main_v178) = WK (Proc.devRef .tc Cert.KernelIdeal.main_v178) := by
  keep_step Cert.KernelIdeal.Gen.main_part5_ops13
theorem keepR_w5_s13_main_v178 (WR : ValR F) :
    after Cert.ReferenceIdeal.Hand.w5_s13 WR (Proc.devRef .tc Cert.ReferenceIdeal.main_v178) = WR (Proc.devRef .tc Cert.ReferenceIdeal.main_v178) := by
  keep_step Cert.ReferenceIdeal.Hand.w5_s13
theorem keepK_w5_s13_main_v179 (WK : ValK F) :
    after Cert.KernelIdeal.Gen.main_part5_ops13 WK (Proc.devRef .tc Cert.KernelIdeal.main_v179) = WK (Proc.devRef .tc Cert.KernelIdeal.main_v179) := by
  keep_step Cert.KernelIdeal.Gen.main_part5_ops13
theorem keepR_w5_s13_main_v179 (WR : ValR F) :
    after Cert.ReferenceIdeal.Hand.w5_s13 WR (Proc.devRef .tc Cert.ReferenceIdeal.main_v179) = WR (Proc.devRef .tc Cert.ReferenceIdeal.main_v179) := by
  keep_step Cert.ReferenceIdeal.Hand.w5_s13
theorem keepK_w5_s13_main_v180 (WK : ValK F) :
    after Cert.KernelIdeal.Gen.main_part5_ops13 WK (Proc.devRef .tc Cert.KernelIdeal.main_v180) = WK (Proc.devRef .tc Cert.KernelIdeal.main_v180) := by
  keep_step Cert.KernelIdeal.Gen.main_part5_ops13
theorem keepR_w5_s13_main_v180 (WR : ValR F) :
    after Cert.ReferenceIdeal.Hand.w5_s13 WR (Proc.devRef .tc Cert.ReferenceIdeal.main_v180) = WR (Proc.devRef .tc Cert.ReferenceIdeal.main_v180) := by
  keep_step Cert.ReferenceIdeal.Hand.w5_s13
theorem keepK_w5_s13_main_v181 (WK : ValK F) :
    after Cert.KernelIdeal.Gen.main_part5_ops13 WK (Proc.devRef .tc Cert.KernelIdeal.main_v181) = WK (Proc.devRef .tc Cert.KernelIdeal.main_v181) := by
  keep_step Cert.KernelIdeal.Gen.main_part5_ops13
theorem keepR_w5_s13_main_v181 (WR : ValR F) :
    after Cert.ReferenceIdeal.Hand.w5_s13 WR (Proc.devRef .tc Cert.ReferenceIdeal.main_v181) = WR (Proc.devRef .tc Cert.ReferenceIdeal.main_v181) := by
  keep_step Cert.ReferenceIdeal.Hand.w5_s13
theorem keepK_w5_s13_main_v188 (WK : ValK F) :
    after Cert.KernelIdeal.Gen.main_part5_ops13 WK (Proc.devRef .tc Cert.KernelIdeal.main_v188) = WK (Proc.devRef .tc Cert.KernelIdeal.main_v188) := by
  keep_step Cert.KernelIdeal.Gen.main_part5_ops13
theorem keepR_w5_s13_main_v188 (WR : ValR F) :
    after Cert.ReferenceIdeal.Hand.w5_s13 WR (Proc.devRef .tc Cert.ReferenceIdeal.main_v188) = WR (Proc.devRef .tc Cert.ReferenceIdeal.main_v188) := by
  keep_step Cert.ReferenceIdeal.Hand.w5_s13
theorem phiK_w5_s13_main_v189 (WK : ValK F) :
    @Eq ((⟨S224, .i32⟩ : BufTy).Contents (Elt F)) (after Cert.KernelIdeal.Gen.main_part5_ops13 WK (Proc.devRef .tc Cert.KernelIdeal.main_v189))
      (phi_w5_s13_main_v189 (WK (Proc.devRef .tc Cert.KernelIdeal.main_v178)) (WK (Proc.devRef .tc Cert.KernelIdeal.main_c_144))) := by
  phi_step Cert.KernelIdeal.Gen.main_part5_ops13 phi_w5_s13_main_v189
theorem phiR_w5_s13_main_v189 (WR : ValR F) :
    @Eq ((⟨S224, .i32⟩ : BufTy).Contents (Elt F)) (after Cert.ReferenceIdeal.Hand.w5_s13 WR (Proc.devRef .tc Cert.ReferenceIdeal.main_v189))
      (phi_w5_s13_main_v189 (WR (Proc.devRef .tc Cert.ReferenceIdeal.main_v178)) (WR (Proc.devRef .tc Cert.ReferenceIdeal.main_c_144))) := by
  phi_step Cert.ReferenceIdeal.Hand.w5_s13 phi_w5_s13_main_v189

theorem sim_w5_s13 (WK : ValK F) (WR : ValR F) (h : Inv18 WK WR) :
    Inv19 (after Cert.KernelIdeal.Gen.main_part5_ops13 WK) (after Cert.ReferenceIdeal.Hand.w5_s13 WR) := by
  sim_step h Inv18 Inv19 [keepK_w5_s13_main_arg10, keepR_w5_s13_main_arg10, keepK_w5_s13_main_arg11, keepR_w5_s13_main_arg11, keepK_w5_s13_main_v20, keepR_w5_s13_main_v20, keepK_w5_s13_main_v41, keepR_w5_s13_main_v41, keepK_w5_s13_main_v62, keepR_w5_s13_main_v62, keepK_w5_s13_main_v83, keepR_w5_s13_main_v83, keepK_w5_s13_main_v104, keepR_w5_s13_main_v104, keepK_w5_s13_main_v125, keepR_w5_s13_main_v125, keepK_w5_s13_main_v146, keepR_w5_s13_main_v146, keepK_w5_s13_main_v167, keepR_w5_s13_main_v167, keepK_w5_s13_main_v169, keepR_w5_s13_main_v169, keepK_w5_s13_main_v171, keepR_w5_s13_main_v171, keepK_w5_s13_main_v172, keepR_w5_s13_main_v172, keepK_w5_s13_main_v176, keepR_w5_s13_main_v176, keepK_w5_s13_main_v177, keepR_w5_s13_main_v177, keepK_w5_s13_main_v178, keepR_w5_s13_main_v178, keepK_w5_s13_main_v179, keepR_w5_s13_main_v179, keepK_w5_s13_main_v180, keepR_w5_s13_main_v180, keepK_w5_s13_main_v181, keepR_w5_s13_main_v181, keepK_w5_s13_main_v188, keepR_w5_s13_main_v188, phiK_w5_s13_main_v189, phiR_w5_s13_main_v189]

theorem keepK_w5_s14_main_arg10 (WK : ValK F) :
    after Cert.KernelIdeal.Gen.main_part5_ops14 WK (Proc.devRef .tc Cert.KernelIdeal.main_arg10) = WK (Proc.devRef .tc Cert.KernelIdeal.main_arg10) := by
  keep_step Cert.KernelIdeal.Gen.main_part5_ops14
theorem keepR_w5_s14_main_arg10 (WR : ValR F) :
    after Cert.ReferenceIdeal.Hand.w5_s14 WR (Proc.devRef .tc Cert.ReferenceIdeal.main_arg10) = WR (Proc.devRef .tc Cert.ReferenceIdeal.main_arg10) := by
  keep_step Cert.ReferenceIdeal.Hand.w5_s14
theorem keepK_w5_s14_main_arg11 (WK : ValK F) :
    after Cert.KernelIdeal.Gen.main_part5_ops14 WK (Proc.devRef .tc Cert.KernelIdeal.main_arg11) = WK (Proc.devRef .tc Cert.KernelIdeal.main_arg11) := by
  keep_step Cert.KernelIdeal.Gen.main_part5_ops14
theorem keepR_w5_s14_main_arg11 (WR : ValR F) :
    after Cert.ReferenceIdeal.Hand.w5_s14 WR (Proc.devRef .tc Cert.ReferenceIdeal.main_arg11) = WR (Proc.devRef .tc Cert.ReferenceIdeal.main_arg11) := by
  keep_step Cert.ReferenceIdeal.Hand.w5_s14
theorem keepK_w5_s14_main_v62 (WK : ValK F) :
    after Cert.KernelIdeal.Gen.main_part5_ops14 WK (Proc.devRef .tc Cert.KernelIdeal.main_v62) = WK (Proc.devRef .tc Cert.KernelIdeal.main_v62) := by
  keep_step Cert.KernelIdeal.Gen.main_part5_ops14
theorem keepR_w5_s14_main_v62 (WR : ValR F) :
    after Cert.ReferenceIdeal.Hand.w5_s14 WR (Proc.devRef .tc Cert.ReferenceIdeal.main_v62) = WR (Proc.devRef .tc Cert.ReferenceIdeal.main_v62) := by
  keep_step Cert.ReferenceIdeal.Hand.w5_s14
theorem keepK_w5_s14_main_v83 (WK : ValK F) :
    after Cert.KernelIdeal.Gen.main_part5_ops14 WK (Proc.devRef .tc Cert.KernelIdeal.main_v83) = WK (Proc.devRef .tc Cert.KernelIdeal.main_v83) := by
  keep_step Cert.KernelIdeal.Gen.main_part5_ops14
theorem keepR_w5_s14_main_v83 (WR : ValR F) :
    after Cert.ReferenceIdeal.Hand.w5_s14 WR (Proc.devRef .tc Cert.ReferenceIdeal.main_v83) = WR (Proc.devRef .tc Cert.ReferenceIdeal.main_v83) := by
  keep_step Cert.ReferenceIdeal.Hand.w5_s14
theorem keepK_w5_s14_main_v104 (WK : ValK F) :
    after Cert.KernelIdeal.Gen.main_part5_ops14 WK (Proc.devRef .tc Cert.KernelIdeal.main_v104) = WK (Proc.devRef .tc Cert.KernelIdeal.main_v104) := by
  keep_step Cert.KernelIdeal.Gen.main_part5_ops14
theorem keepR_w5_s14_main_v104 (WR : ValR F) :
    after Cert.ReferenceIdeal.Hand.w5_s14 WR (Proc.devRef .tc Cert.ReferenceIdeal.main_v104) = WR (Proc.devRef .tc Cert.ReferenceIdeal.main_v104) := by
  keep_step Cert.ReferenceIdeal.Hand.w5_s14
theorem keepK_w5_s14_main_v125 (WK : ValK F) :
    after Cert.KernelIdeal.Gen.main_part5_ops14 WK (Proc.devRef .tc Cert.KernelIdeal.main_v125) = WK (Proc.devRef .tc Cert.KernelIdeal.main_v125) := by
  keep_step Cert.KernelIdeal.Gen.main_part5_ops14
theorem keepR_w5_s14_main_v125 (WR : ValR F) :
    after Cert.ReferenceIdeal.Hand.w5_s14 WR (Proc.devRef .tc Cert.ReferenceIdeal.main_v125) = WR (Proc.devRef .tc Cert.ReferenceIdeal.main_v125) := by
  keep_step Cert.ReferenceIdeal.Hand.w5_s14
theorem keepK_w5_s14_main_v146 (WK : ValK F) :
    after Cert.KernelIdeal.Gen.main_part5_ops14 WK (Proc.devRef .tc Cert.KernelIdeal.main_v146) = WK (Proc.devRef .tc Cert.KernelIdeal.main_v146) := by
  keep_step Cert.KernelIdeal.Gen.main_part5_ops14
theorem keepR_w5_s14_main_v146 (WR : ValR F) :
    after Cert.ReferenceIdeal.Hand.w5_s14 WR (Proc.devRef .tc Cert.ReferenceIdeal.main_v146) = WR (Proc.devRef .tc Cert.ReferenceIdeal.main_v146) := by
  keep_step Cert.ReferenceIdeal.Hand.w5_s14
theorem keepK_w5_s14_main_v167 (WK : ValK F) :
    after Cert.KernelIdeal.Gen.main_part5_ops14 WK (Proc.devRef .tc Cert.KernelIdeal.main_v167) = WK (Proc.devRef .tc Cert.KernelIdeal.main_v167) := by
  keep_step Cert.KernelIdeal.Gen.main_part5_ops14
theorem keepR_w5_s14_main_v167 (WR : ValR F) :
    after Cert.ReferenceIdeal.Hand.w5_s14 WR (Proc.devRef .tc Cert.ReferenceIdeal.main_v167) = WR (Proc.devRef .tc Cert.ReferenceIdeal.main_v167) := by
  keep_step Cert.ReferenceIdeal.Hand.w5_s14
theorem keepK_w5_s14_main_v169 (WK : ValK F) :
    after Cert.KernelIdeal.Gen.main_part5_ops14 WK (Proc.devRef .tc Cert.KernelIdeal.main_v169) = WK (Proc.devRef .tc Cert.KernelIdeal.main_v169) := by
  keep_step Cert.KernelIdeal.Gen.main_part5_ops14
theorem keepR_w5_s14_main_v169 (WR : ValR F) :
    after Cert.ReferenceIdeal.Hand.w5_s14 WR (Proc.devRef .tc Cert.ReferenceIdeal.main_v169) = WR (Proc.devRef .tc Cert.ReferenceIdeal.main_v169) := by
  keep_step Cert.ReferenceIdeal.Hand.w5_s14
theorem keepK_w5_s14_main_v171 (WK : ValK F) :
    after Cert.KernelIdeal.Gen.main_part5_ops14 WK (Proc.devRef .tc Cert.KernelIdeal.main_v171) = WK (Proc.devRef .tc Cert.KernelIdeal.main_v171) := by
  keep_step Cert.KernelIdeal.Gen.main_part5_ops14
theorem keepR_w5_s14_main_v171 (WR : ValR F) :
    after Cert.ReferenceIdeal.Hand.w5_s14 WR (Proc.devRef .tc Cert.ReferenceIdeal.main_v171) = WR (Proc.devRef .tc Cert.ReferenceIdeal.main_v171) := by
  keep_step Cert.ReferenceIdeal.Hand.w5_s14
theorem keepK_w5_s14_main_v172 (WK : ValK F) :
    after Cert.KernelIdeal.Gen.main_part5_ops14 WK (Proc.devRef .tc Cert.KernelIdeal.main_v172) = WK (Proc.devRef .tc Cert.KernelIdeal.main_v172) := by
  keep_step Cert.KernelIdeal.Gen.main_part5_ops14
theorem keepR_w5_s14_main_v172 (WR : ValR F) :
    after Cert.ReferenceIdeal.Hand.w5_s14 WR (Proc.devRef .tc Cert.ReferenceIdeal.main_v172) = WR (Proc.devRef .tc Cert.ReferenceIdeal.main_v172) := by
  keep_step Cert.ReferenceIdeal.Hand.w5_s14
theorem keepK_w5_s14_main_v176 (WK : ValK F) :
    after Cert.KernelIdeal.Gen.main_part5_ops14 WK (Proc.devRef .tc Cert.KernelIdeal.main_v176) = WK (Proc.devRef .tc Cert.KernelIdeal.main_v176) := by
  keep_step Cert.KernelIdeal.Gen.main_part5_ops14
theorem keepR_w5_s14_main_v176 (WR : ValR F) :
    after Cert.ReferenceIdeal.Hand.w5_s14 WR (Proc.devRef .tc Cert.ReferenceIdeal.main_v176) = WR (Proc.devRef .tc Cert.ReferenceIdeal.main_v176) := by
  keep_step Cert.ReferenceIdeal.Hand.w5_s14
theorem keepK_w5_s14_main_v177 (WK : ValK F) :
    after Cert.KernelIdeal.Gen.main_part5_ops14 WK (Proc.devRef .tc Cert.KernelIdeal.main_v177) = WK (Proc.devRef .tc Cert.KernelIdeal.main_v177) := by
  keep_step Cert.KernelIdeal.Gen.main_part5_ops14
theorem keepR_w5_s14_main_v177 (WR : ValR F) :
    after Cert.ReferenceIdeal.Hand.w5_s14 WR (Proc.devRef .tc Cert.ReferenceIdeal.main_v177) = WR (Proc.devRef .tc Cert.ReferenceIdeal.main_v177) := by
  keep_step Cert.ReferenceIdeal.Hand.w5_s14
theorem keepK_w5_s14_main_v178 (WK : ValK F) :
    after Cert.KernelIdeal.Gen.main_part5_ops14 WK (Proc.devRef .tc Cert.KernelIdeal.main_v178) = WK (Proc.devRef .tc Cert.KernelIdeal.main_v178) := by
  keep_step Cert.KernelIdeal.Gen.main_part5_ops14
theorem keepR_w5_s14_main_v178 (WR : ValR F) :
    after Cert.ReferenceIdeal.Hand.w5_s14 WR (Proc.devRef .tc Cert.ReferenceIdeal.main_v178) = WR (Proc.devRef .tc Cert.ReferenceIdeal.main_v178) := by
  keep_step Cert.ReferenceIdeal.Hand.w5_s14
theorem keepK_w5_s14_main_v179 (WK : ValK F) :
    after Cert.KernelIdeal.Gen.main_part5_ops14 WK (Proc.devRef .tc Cert.KernelIdeal.main_v179) = WK (Proc.devRef .tc Cert.KernelIdeal.main_v179) := by
  keep_step Cert.KernelIdeal.Gen.main_part5_ops14
theorem keepR_w5_s14_main_v179 (WR : ValR F) :
    after Cert.ReferenceIdeal.Hand.w5_s14 WR (Proc.devRef .tc Cert.ReferenceIdeal.main_v179) = WR (Proc.devRef .tc Cert.ReferenceIdeal.main_v179) := by
  keep_step Cert.ReferenceIdeal.Hand.w5_s14
theorem keepK_w5_s14_main_v180 (WK : ValK F) :
    after Cert.KernelIdeal.Gen.main_part5_ops14 WK (Proc.devRef .tc Cert.KernelIdeal.main_v180) = WK (Proc.devRef .tc Cert.KernelIdeal.main_v180) := by
  keep_step Cert.KernelIdeal.Gen.main_part5_ops14
theorem keepR_w5_s14_main_v180 (WR : ValR F) :
    after Cert.ReferenceIdeal.Hand.w5_s14 WR (Proc.devRef .tc Cert.ReferenceIdeal.main_v180) = WR (Proc.devRef .tc Cert.ReferenceIdeal.main_v180) := by
  keep_step Cert.ReferenceIdeal.Hand.w5_s14
theorem keepK_w5_s14_main_v181 (WK : ValK F) :
    after Cert.KernelIdeal.Gen.main_part5_ops14 WK (Proc.devRef .tc Cert.KernelIdeal.main_v181) = WK (Proc.devRef .tc Cert.KernelIdeal.main_v181) := by
  keep_step Cert.KernelIdeal.Gen.main_part5_ops14
theorem keepR_w5_s14_main_v181 (WR : ValR F) :
    after Cert.ReferenceIdeal.Hand.w5_s14 WR (Proc.devRef .tc Cert.ReferenceIdeal.main_v181) = WR (Proc.devRef .tc Cert.ReferenceIdeal.main_v181) := by
  keep_step Cert.ReferenceIdeal.Hand.w5_s14
theorem keepK_w5_s14_main_v188 (WK : ValK F) :
    after Cert.KernelIdeal.Gen.main_part5_ops14 WK (Proc.devRef .tc Cert.KernelIdeal.main_v188) = WK (Proc.devRef .tc Cert.KernelIdeal.main_v188) := by
  keep_step Cert.KernelIdeal.Gen.main_part5_ops14
theorem keepR_w5_s14_main_v188 (WR : ValR F) :
    after Cert.ReferenceIdeal.Hand.w5_s14 WR (Proc.devRef .tc Cert.ReferenceIdeal.main_v188) = WR (Proc.devRef .tc Cert.ReferenceIdeal.main_v188) := by
  keep_step Cert.ReferenceIdeal.Hand.w5_s14
theorem phiK_w5_s14_main_v196 (WK : ValK F) :
    @Eq ((⟨S16x3x224x224, .f32⟩ : BufTy).Contents (Elt F)) (after Cert.KernelIdeal.Gen.main_part5_ops14 WK (Proc.devRef .tc Cert.KernelIdeal.main_v196))
      (phi_w5_s14_main_v196 (WK (Proc.devRef .tc Cert.KernelIdeal.main_v41)) (WK (Proc.devRef .tc Cert.KernelIdeal.main_v189))) := by
  phi_step Cert.KernelIdeal.Gen.main_part5_ops14 phi_w5_s14_main_v196
theorem phiR_w5_s14_main_v196 (WR : ValR F) :
    @Eq ((⟨S16x3x224x224, .f32⟩ : BufTy).Contents (Elt F)) (after Cert.ReferenceIdeal.Hand.w5_s14 WR (Proc.devRef .tc Cert.ReferenceIdeal.main_v196))
      (phi_w5_s14_main_v196 (WR (Proc.devRef .tc Cert.ReferenceIdeal.main_v41)) (WR (Proc.devRef .tc Cert.ReferenceIdeal.main_v189))) := by
  phi_step Cert.ReferenceIdeal.Hand.w5_s14 phi_w5_s14_main_v196
theorem phiK_w5_s14_main_v197 (WK : ValK F) :
    @Eq ((⟨S16x3x1x224, .f32⟩ : BufTy).Contents (Elt F)) (after Cert.KernelIdeal.Gen.main_part5_ops14 WK (Proc.devRef .tc Cert.KernelIdeal.main_v197))
      (phi_w5_s14_main_v197 (WK (Proc.devRef .tc Cert.KernelIdeal.main_v20))) := by
  phi_step Cert.KernelIdeal.Gen.main_part5_ops14 phi_w5_s14_main_v197
theorem phiR_w5_s14_main_v197 (WR : ValR F) :
    @Eq ((⟨S16x3x1x224, .f32⟩ : BufTy).Contents (Elt F)) (after Cert.ReferenceIdeal.Hand.w5_s14 WR (Proc.devRef .tc Cert.ReferenceIdeal.main_v197))
      (phi_w5_s14_main_v197 (WR (Proc.devRef .tc Cert.ReferenceIdeal.main_v20))) := by
  phi_step Cert.ReferenceIdeal.Hand.w5_s14 phi_w5_s14_main_v197

theorem sim_w5_s14 (WK : ValK F) (WR : ValR F) (h : Inv19 WK WR) :
    Inv20 (after Cert.KernelIdeal.Gen.main_part5_ops14 WK) (after Cert.ReferenceIdeal.Hand.w5_s14 WR) := by
  sim_step h Inv19 Inv20 [keepK_w5_s14_main_arg10, keepR_w5_s14_main_arg10, keepK_w5_s14_main_arg11, keepR_w5_s14_main_arg11, keepK_w5_s14_main_v62, keepR_w5_s14_main_v62, keepK_w5_s14_main_v83, keepR_w5_s14_main_v83, keepK_w5_s14_main_v104, keepR_w5_s14_main_v104, keepK_w5_s14_main_v125, keepR_w5_s14_main_v125, keepK_w5_s14_main_v146, keepR_w5_s14_main_v146, keepK_w5_s14_main_v167, keepR_w5_s14_main_v167, keepK_w5_s14_main_v169, keepR_w5_s14_main_v169, keepK_w5_s14_main_v171, keepR_w5_s14_main_v171, keepK_w5_s14_main_v172, keepR_w5_s14_main_v172, keepK_w5_s14_main_v176, keepR_w5_s14_main_v176, keepK_w5_s14_main_v177, keepR_w5_s14_main_v177, keepK_w5_s14_main_v178, keepR_w5_s14_main_v178, keepK_w5_s14_main_v179, keepR_w5_s14_main_v179, keepK_w5_s14_main_v180, keepR_w5_s14_main_v180, keepK_w5_s14_main_v181, keepR_w5_s14_main_v181, keepK_w5_s14_main_v188, keepR_w5_s14_main_v188, phiK_w5_s14_main_v196, phiR_w5_s14_main_v196, phiK_w5_s14_main_v197, phiR_w5_s14_main_v197]

theorem keepK_w5_s15_main_arg10 (WK : ValK F) :
    after Cert.KernelIdeal.Gen.main_part5_ops15 WK (Proc.devRef .tc Cert.KernelIdeal.main_arg10) = WK (Proc.devRef .tc Cert.KernelIdeal.main_arg10) := by
  keep_step Cert.KernelIdeal.Gen.main_part5_ops15
theorem keepR_w5_s15_main_arg10 (WR : ValR F) :
    after Cert.ReferenceIdeal.Hand.w5_s15 WR (Proc.devRef .tc Cert.ReferenceIdeal.main_arg10) = WR (Proc.devRef .tc Cert.ReferenceIdeal.main_arg10) := by
  keep_step Cert.ReferenceIdeal.Hand.w5_s15
theorem keepK_w5_s15_main_arg11 (WK : ValK F) :
    after Cert.KernelIdeal.Gen.main_part5_ops15 WK (Proc.devRef .tc Cert.KernelIdeal.main_arg11) = WK (Proc.devRef .tc Cert.KernelIdeal.main_arg11) := by
  keep_step Cert.KernelIdeal.Gen.main_part5_ops15
theorem keepR_w5_s15_main_arg11 (WR : ValR F) :
    after Cert.ReferenceIdeal.Hand.w5_s15 WR (Proc.devRef .tc Cert.ReferenceIdeal.main_arg11) = WR (Proc.devRef .tc Cert.ReferenceIdeal.main_arg11) := by
  keep_step Cert.ReferenceIdeal.Hand.w5_s15
theorem keepK_w5_s15_main_v62 (WK : ValK F) :
    after Cert.KernelIdeal.Gen.main_part5_ops15 WK (Proc.devRef .tc Cert.KernelIdeal.main_v62) = WK (Proc.devRef .tc Cert.KernelIdeal.main_v62) := by
  keep_step Cert.KernelIdeal.Gen.main_part5_ops15
theorem keepR_w5_s15_main_v62 (WR : ValR F) :
    after Cert.ReferenceIdeal.Hand.w5_s15 WR (Proc.devRef .tc Cert.ReferenceIdeal.main_v62) = WR (Proc.devRef .tc Cert.ReferenceIdeal.main_v62) := by
  keep_step Cert.ReferenceIdeal.Hand.w5_s15
theorem keepK_w5_s15_main_v83 (WK : ValK F) :
    after Cert.KernelIdeal.Gen.main_part5_ops15 WK (Proc.devRef .tc Cert.KernelIdeal.main_v83) = WK (Proc.devRef .tc Cert.KernelIdeal.main_v83) := by
  keep_step Cert.KernelIdeal.Gen.main_part5_ops15
theorem keepR_w5_s15_main_v83 (WR : ValR F) :
    after Cert.ReferenceIdeal.Hand.w5_s15 WR (Proc.devRef .tc Cert.ReferenceIdeal.main_v83) = WR (Proc.devRef .tc Cert.ReferenceIdeal.main_v83) := by
  keep_step Cert.ReferenceIdeal.Hand.w5_s15
theorem keepK_w5_s15_main_v104 (WK : ValK F) :
    after Cert.KernelIdeal.Gen.main_part5_ops15 WK (Proc.devRef .tc Cert.KernelIdeal.main_v104) = WK (Proc.devRef .tc Cert.KernelIdeal.main_v104) := by
  keep_step Cert.KernelIdeal.Gen.main_part5_ops15
theorem keepR_w5_s15_main_v104 (WR : ValR F) :
    after Cert.ReferenceIdeal.Hand.w5_s15 WR (Proc.devRef .tc Cert.ReferenceIdeal.main_v104) = WR (Proc.devRef .tc Cert.ReferenceIdeal.main_v104) := by
  keep_step Cert.ReferenceIdeal.Hand.w5_s15
theorem keepK_w5_s15_main_v125 (WK : ValK F) :
    after Cert.KernelIdeal.Gen.main_part5_ops15 WK (Proc.devRef .tc Cert.KernelIdeal.main_v125) = WK (Proc.devRef .tc Cert.KernelIdeal.main_v125) := by
  keep_step Cert.KernelIdeal.Gen.main_part5_ops15
theorem keepR_w5_s15_main_v125 (WR : ValR F) :
    after Cert.ReferenceIdeal.Hand.w5_s15 WR (Proc.devRef .tc Cert.ReferenceIdeal.main_v125) = WR (Proc.devRef .tc Cert.ReferenceIdeal.main_v125) := by
  keep_step Cert.ReferenceIdeal.Hand.w5_s15
theorem keepK_w5_s15_main_v146 (WK : ValK F) :
    after Cert.KernelIdeal.Gen.main_part5_ops15 WK (Proc.devRef .tc Cert.KernelIdeal.main_v146) = WK (Proc.devRef .tc Cert.KernelIdeal.main_v146) := by
  keep_step Cert.KernelIdeal.Gen.main_part5_ops15
theorem keepR_w5_s15_main_v146 (WR : ValR F) :
    after Cert.ReferenceIdeal.Hand.w5_s15 WR (Proc.devRef .tc Cert.ReferenceIdeal.main_v146) = WR (Proc.devRef .tc Cert.ReferenceIdeal.main_v146) := by
  keep_step Cert.ReferenceIdeal.Hand.w5_s15
theorem keepK_w5_s15_main_v167 (WK : ValK F) :
    after Cert.KernelIdeal.Gen.main_part5_ops15 WK (Proc.devRef .tc Cert.KernelIdeal.main_v167) = WK (Proc.devRef .tc Cert.KernelIdeal.main_v167) := by
  keep_step Cert.KernelIdeal.Gen.main_part5_ops15
theorem keepR_w5_s15_main_v167 (WR : ValR F) :
    after Cert.ReferenceIdeal.Hand.w5_s15 WR (Proc.devRef .tc Cert.ReferenceIdeal.main_v167) = WR (Proc.devRef .tc Cert.ReferenceIdeal.main_v167) := by
  keep_step Cert.ReferenceIdeal.Hand.w5_s15
theorem keepK_w5_s15_main_v169 (WK : ValK F) :
    after Cert.KernelIdeal.Gen.main_part5_ops15 WK (Proc.devRef .tc Cert.KernelIdeal.main_v169) = WK (Proc.devRef .tc Cert.KernelIdeal.main_v169) := by
  keep_step Cert.KernelIdeal.Gen.main_part5_ops15
theorem keepR_w5_s15_main_v169 (WR : ValR F) :
    after Cert.ReferenceIdeal.Hand.w5_s15 WR (Proc.devRef .tc Cert.ReferenceIdeal.main_v169) = WR (Proc.devRef .tc Cert.ReferenceIdeal.main_v169) := by
  keep_step Cert.ReferenceIdeal.Hand.w5_s15
theorem keepK_w5_s15_main_v171 (WK : ValK F) :
    after Cert.KernelIdeal.Gen.main_part5_ops15 WK (Proc.devRef .tc Cert.KernelIdeal.main_v171) = WK (Proc.devRef .tc Cert.KernelIdeal.main_v171) := by
  keep_step Cert.KernelIdeal.Gen.main_part5_ops15
theorem keepR_w5_s15_main_v171 (WR : ValR F) :
    after Cert.ReferenceIdeal.Hand.w5_s15 WR (Proc.devRef .tc Cert.ReferenceIdeal.main_v171) = WR (Proc.devRef .tc Cert.ReferenceIdeal.main_v171) := by
  keep_step Cert.ReferenceIdeal.Hand.w5_s15
theorem keepK_w5_s15_main_v172 (WK : ValK F) :
    after Cert.KernelIdeal.Gen.main_part5_ops15 WK (Proc.devRef .tc Cert.KernelIdeal.main_v172) = WK (Proc.devRef .tc Cert.KernelIdeal.main_v172) := by
  keep_step Cert.KernelIdeal.Gen.main_part5_ops15
theorem keepR_w5_s15_main_v172 (WR : ValR F) :
    after Cert.ReferenceIdeal.Hand.w5_s15 WR (Proc.devRef .tc Cert.ReferenceIdeal.main_v172) = WR (Proc.devRef .tc Cert.ReferenceIdeal.main_v172) := by
  keep_step Cert.ReferenceIdeal.Hand.w5_s15
theorem keepK_w5_s15_main_v176 (WK : ValK F) :
    after Cert.KernelIdeal.Gen.main_part5_ops15 WK (Proc.devRef .tc Cert.KernelIdeal.main_v176) = WK (Proc.devRef .tc Cert.KernelIdeal.main_v176) := by
  keep_step Cert.KernelIdeal.Gen.main_part5_ops15
theorem keepR_w5_s15_main_v176 (WR : ValR F) :
    after Cert.ReferenceIdeal.Hand.w5_s15 WR (Proc.devRef .tc Cert.ReferenceIdeal.main_v176) = WR (Proc.devRef .tc Cert.ReferenceIdeal.main_v176) := by
  keep_step Cert.ReferenceIdeal.Hand.w5_s15
theorem keepK_w5_s15_main_v177 (WK : ValK F) :
    after Cert.KernelIdeal.Gen.main_part5_ops15 WK (Proc.devRef .tc Cert.KernelIdeal.main_v177) = WK (Proc.devRef .tc Cert.KernelIdeal.main_v177) := by
  keep_step Cert.KernelIdeal.Gen.main_part5_ops15
theorem keepR_w5_s15_main_v177 (WR : ValR F) :
    after Cert.ReferenceIdeal.Hand.w5_s15 WR (Proc.devRef .tc Cert.ReferenceIdeal.main_v177) = WR (Proc.devRef .tc Cert.ReferenceIdeal.main_v177) := by
  keep_step Cert.ReferenceIdeal.Hand.w5_s15
theorem keepK_w5_s15_main_v178 (WK : ValK F) :
    after Cert.KernelIdeal.Gen.main_part5_ops15 WK (Proc.devRef .tc Cert.KernelIdeal.main_v178) = WK (Proc.devRef .tc Cert.KernelIdeal.main_v178) := by
  keep_step Cert.KernelIdeal.Gen.main_part5_ops15
theorem keepR_w5_s15_main_v178 (WR : ValR F) :
    after Cert.ReferenceIdeal.Hand.w5_s15 WR (Proc.devRef .tc Cert.ReferenceIdeal.main_v178) = WR (Proc.devRef .tc Cert.ReferenceIdeal.main_v178) := by
  keep_step Cert.ReferenceIdeal.Hand.w5_s15
theorem keepK_w5_s15_main_v179 (WK : ValK F) :
    after Cert.KernelIdeal.Gen.main_part5_ops15 WK (Proc.devRef .tc Cert.KernelIdeal.main_v179) = WK (Proc.devRef .tc Cert.KernelIdeal.main_v179) := by
  keep_step Cert.KernelIdeal.Gen.main_part5_ops15
theorem keepR_w5_s15_main_v179 (WR : ValR F) :
    after Cert.ReferenceIdeal.Hand.w5_s15 WR (Proc.devRef .tc Cert.ReferenceIdeal.main_v179) = WR (Proc.devRef .tc Cert.ReferenceIdeal.main_v179) := by
  keep_step Cert.ReferenceIdeal.Hand.w5_s15
theorem keepK_w5_s15_main_v180 (WK : ValK F) :
    after Cert.KernelIdeal.Gen.main_part5_ops15 WK (Proc.devRef .tc Cert.KernelIdeal.main_v180) = WK (Proc.devRef .tc Cert.KernelIdeal.main_v180) := by
  keep_step Cert.KernelIdeal.Gen.main_part5_ops15
theorem keepR_w5_s15_main_v180 (WR : ValR F) :
    after Cert.ReferenceIdeal.Hand.w5_s15 WR (Proc.devRef .tc Cert.ReferenceIdeal.main_v180) = WR (Proc.devRef .tc Cert.ReferenceIdeal.main_v180) := by
  keep_step Cert.ReferenceIdeal.Hand.w5_s15
theorem keepK_w5_s15_main_v181 (WK : ValK F) :
    after Cert.KernelIdeal.Gen.main_part5_ops15 WK (Proc.devRef .tc Cert.KernelIdeal.main_v181) = WK (Proc.devRef .tc Cert.KernelIdeal.main_v181) := by
  keep_step Cert.KernelIdeal.Gen.main_part5_ops15
theorem keepR_w5_s15_main_v181 (WR : ValR F) :
    after Cert.ReferenceIdeal.Hand.w5_s15 WR (Proc.devRef .tc Cert.ReferenceIdeal.main_v181) = WR (Proc.devRef .tc Cert.ReferenceIdeal.main_v181) := by
  keep_step Cert.ReferenceIdeal.Hand.w5_s15
theorem phiK_w5_s15_main_v198 (WK : ValK F) :
    @Eq ((⟨S16x3x224x224, .f32⟩ : BufTy).Contents (Elt F)) (after Cert.KernelIdeal.Gen.main_part5_ops15 WK (Proc.devRef .tc Cert.KernelIdeal.main_v198))
      (phi_w5_s15_main_v198 (WK (Proc.devRef .tc Cert.KernelIdeal.main_v188)) (WK (Proc.devRef .tc Cert.KernelIdeal.main_v196)) (WK (Proc.devRef .tc Cert.KernelIdeal.main_v197))) := by
  phi_step Cert.KernelIdeal.Gen.main_part5_ops15 phi_w5_s15_main_v198
theorem phiR_w5_s15_main_v198 (WR : ValR F) :
    @Eq ((⟨S16x3x224x224, .f32⟩ : BufTy).Contents (Elt F)) (after Cert.ReferenceIdeal.Hand.w5_s15 WR (Proc.devRef .tc Cert.ReferenceIdeal.main_v198))
      (phi_w5_s15_main_v198 (WR (Proc.devRef .tc Cert.ReferenceIdeal.main_v188)) (WR (Proc.devRef .tc Cert.ReferenceIdeal.main_v196)) (WR (Proc.devRef .tc Cert.ReferenceIdeal.main_v197))) := by
  phi_step Cert.ReferenceIdeal.Hand.w5_s15 phi_w5_s15_main_v198

theorem sim_w5_s15 (WK : ValK F) (WR : ValR F) (h : Inv20 WK WR) :
    Inv21 (after Cert.KernelIdeal.Gen.main_part5_ops15 WK) (after Cert.ReferenceIdeal.Hand.w5_s15 WR) := by
  sim_step h Inv20 Inv21 [keepK_w5_s15_main_arg10, keepR_w5_s15_main_arg10, keepK_w5_s15_main_arg11, keepR_w5_s15_main_arg11, keepK_w5_s15_main_v62, keepR_w5_s15_main_v62, keepK_w5_s15_main_v83, keepR_w5_s15_main_v83, keepK_w5_s15_main_v104, keepR_w5_s15_main_v104, keepK_w5_s15_main_v125, keepR_w5_s15_main_v125, keepK_w5_s15_main_v146, keepR_w5_s15_main_v146, keepK_w5_s15_main_v167, keepR_w5_s15_main_v167, keepK_w5_s15_main_v169, keepR_w5_s15_main_v169, keepK_w5_s15_main_v171, keepR_w5_s15_main_v171, keepK_w5_s15_main_v172, keepR_w5_s15_main_v172, keepK_w5_s15_main_v176, keepR_w5_s15_main_v176, keepK_w5_s15_main_v177, keepR_w5_s15_main_v177, keepK_w5_s15_main_v178, keepR_w5_s15_main_v178, keepK_w5_s15_main_v179, keepR_w5_s15_main_v179, keepK_w5_s15_main_v180, keepR_w5_s15_main_v180, keepK_w5_s15_main_v181, keepR_w5_s15_main_v181, phiK_w5_s15_main_v198, phiR_w5_s15_main_v198]

theorem keepK_w5_s16_main_arg10 (WK : ValK F) :
    after Cert.KernelIdeal.Gen.main_part5_ops16 WK (Proc.devRef .tc Cert.KernelIdeal.main_arg10) = WK (Proc.devRef .tc Cert.KernelIdeal.main_arg10) := by
  keep_step Cert.KernelIdeal.Gen.main_part5_ops16
theorem keepR_w5_s16_main_arg10 (WR : ValR F) :
    after Cert.ReferenceIdeal.Hand.w5_s16 WR (Proc.devRef .tc Cert.ReferenceIdeal.main_arg10) = WR (Proc.devRef .tc Cert.ReferenceIdeal.main_arg10) := by
  keep_step Cert.ReferenceIdeal.Hand.w5_s16
theorem keepK_w5_s16_main_arg11 (WK : ValK F) :
    after Cert.KernelIdeal.Gen.main_part5_ops16 WK (Proc.devRef .tc Cert.KernelIdeal.main_arg11) = WK (Proc.devRef .tc Cert.KernelIdeal.main_arg11) := by
  keep_step Cert.KernelIdeal.Gen.main_part5_ops16
theorem keepR_w5_s16_main_arg11 (WR : ValR F) :
    after Cert.ReferenceIdeal.Hand.w5_s16 WR (Proc.devRef .tc Cert.ReferenceIdeal.main_arg11) = WR (Proc.devRef .tc Cert.ReferenceIdeal.main_arg11) := by
  keep_step Cert.ReferenceIdeal.Hand.w5_s16
theorem keepK_w5_s16_main_v62 (WK : ValK F) :
    after Cert.KernelIdeal.Gen.main_part5_ops16 WK (Proc.devRef .tc Cert.KernelIdeal.main_v62) = WK (Proc.devRef .tc Cert.KernelIdeal.main_v62) := by
  keep_step Cert.KernelIdeal.Gen.main_part5_ops16
theorem keepR_w5_s16_main_v62 (WR : ValR F) :
    after Cert.ReferenceIdeal.Hand.w5_s16 WR (Proc.devRef .tc Cert.ReferenceIdeal.main_v62) = WR (Proc.devRef .tc Cert.ReferenceIdeal.main_v62) := by
  keep_step Cert.ReferenceIdeal.Hand.w5_s16
theorem keepK_w5_s16_main_v83 (WK : ValK F) :
    after Cert.KernelIdeal.Gen.main_part5_ops16 WK (Proc.devRef .tc Cert.KernelIdeal.main_v83) = WK (Proc.devRef .tc Cert.KernelIdeal.main_v83) := by
  keep_step Cert.KernelIdeal.Gen.main_part5_ops16
theorem keepR_w5_s16_main_v83 (WR : ValR F) :
    after Cert.ReferenceIdeal.Hand.w5_s16 WR (Proc.devRef .tc Cert.ReferenceIdeal.main_v83) = WR (Proc.devRef .tc Cert.ReferenceIdeal.main_v83) := by
  keep_step Cert.ReferenceIdeal.Hand.w5_s16
theorem keepK_w5_s16_main_v104 (WK : ValK F) :
    after Cert.KernelIdeal.Gen.main_part5_ops16 WK (Proc.devRef .tc Cert.KernelIdeal.main_v104) = WK (Proc.devRef .tc Cert.KernelIdeal.main_v104) := by
  keep_step Cert.KernelIdeal.Gen.main_part5_ops16
theorem keepR_w5_s16_main_v104 (WR : ValR F) :
    after Cert.ReferenceIdeal.Hand.w5_s16 WR (Proc.devRef .tc Cert.ReferenceIdeal.main_v104) = WR (Proc.devRef .tc Cert.ReferenceIdeal.main_v104) := by
  keep_step Cert.ReferenceIdeal.Hand.w5_s16
theorem keepK_w5_s16_main_v125 (WK : ValK F) :
    after Cert.KernelIdeal.Gen.main_part5_ops16 WK (Proc.devRef .tc Cert.KernelIdeal.main_v125) = WK (Proc.devRef .tc Cert.KernelIdeal.main_v125) := by
  keep_step Cert.KernelIdeal.Gen.main_part5_ops16
theorem keepR_w5_s16_main_v125 (WR : ValR F) :
    after Cert.ReferenceIdeal.Hand.w5_s16 WR (Proc.devRef .tc Cert.ReferenceIdeal.main_v125) = WR (Proc.devRef .tc Cert.ReferenceIdeal.main_v125) := by
  keep_step Cert.ReferenceIdeal.Hand.w5_s16
theorem keepK_w5_s16_main_v146 (WK : ValK F) :
    after Cert.KernelIdeal.Gen.main_part5_ops16 WK (Proc.devRef .tc Cert.KernelIdeal.main_v146) = WK (Proc.devRef .tc Cert.KernelIdeal.main_v146) := by
  keep_step Cert.KernelIdeal.Gen.main_part5_ops16
theorem keepR_w5_s16_main_v146 (WR : ValR F) :
    after Cert.ReferenceIdeal.Hand.w5_s16 WR (Proc.devRef .tc Cert.ReferenceIdeal.main_v146) = WR (Proc.devRef .tc Cert.ReferenceIdeal.main_v146) := by
  keep_step Cert.ReferenceIdeal.Hand.w5_s16
theorem keepK_w5_s16_main_v167 (WK : ValK F) :
    after Cert.KernelIdeal.Gen.main_part5_ops16 WK (Proc.devRef .tc Cert.KernelIdeal.main_v167) = WK (Proc.devRef .tc Cert.KernelIdeal.main_v167) := by
  keep_step Cert.KernelIdeal.Gen.main_part5_ops16
theorem keepR_w5_s16_main_v167 (WR : ValR F) :
    after Cert.ReferenceIdeal.Hand.w5_s16 WR (Proc.devRef .tc Cert.ReferenceIdeal.main_v167) = WR (Proc.devRef .tc Cert.ReferenceIdeal.main_v167) := by
  keep_step Cert.ReferenceIdeal.Hand.w5_s16
theorem keepK_w5_s16_main_v169 (WK : ValK F) :
    after Cert.KernelIdeal.Gen.main_part5_ops16 WK (Proc.devRef .tc Cert.KernelIdeal.main_v169) = WK (Proc.devRef .tc Cert.KernelIdeal.main_v169) := by
  keep_step Cert.KernelIdeal.Gen.main_part5_ops16
theorem keepR_w5_s16_main_v169 (WR : ValR F) :
    after Cert.ReferenceIdeal.Hand.w5_s16 WR (Proc.devRef .tc Cert.ReferenceIdeal.main_v169) = WR (Proc.devRef .tc Cert.ReferenceIdeal.main_v169) := by
  keep_step Cert.ReferenceIdeal.Hand.w5_s16
theorem keepK_w5_s16_main_v171 (WK : ValK F) :
    after Cert.KernelIdeal.Gen.main_part5_ops16 WK (Proc.devRef .tc Cert.KernelIdeal.main_v171) = WK (Proc.devRef .tc Cert.KernelIdeal.main_v171) := by
  keep_step Cert.KernelIdeal.Gen.main_part5_ops16
theorem keepR_w5_s16_main_v171 (WR : ValR F) :
    after Cert.ReferenceIdeal.Hand.w5_s16 WR (Proc.devRef .tc Cert.ReferenceIdeal.main_v171) = WR (Proc.devRef .tc Cert.ReferenceIdeal.main_v171) := by
  keep_step Cert.ReferenceIdeal.Hand.w5_s16
theorem keepK_w5_s16_main_v172 (WK : ValK F) :
    after Cert.KernelIdeal.Gen.main_part5_ops16 WK (Proc.devRef .tc Cert.KernelIdeal.main_v172) = WK (Proc.devRef .tc Cert.KernelIdeal.main_v172) := by
  keep_step Cert.KernelIdeal.Gen.main_part5_ops16
theorem keepR_w5_s16_main_v172 (WR : ValR F) :
    after Cert.ReferenceIdeal.Hand.w5_s16 WR (Proc.devRef .tc Cert.ReferenceIdeal.main_v172) = WR (Proc.devRef .tc Cert.ReferenceIdeal.main_v172) := by
  keep_step Cert.ReferenceIdeal.Hand.w5_s16
theorem keepK_w5_s16_main_v176 (WK : ValK F) :
    after Cert.KernelIdeal.Gen.main_part5_ops16 WK (Proc.devRef .tc Cert.KernelIdeal.main_v176) = WK (Proc.devRef .tc Cert.KernelIdeal.main_v176) := by
  keep_step Cert.KernelIdeal.Gen.main_part5_ops16
theorem keepR_w5_s16_main_v176 (WR : ValR F) :
    after Cert.ReferenceIdeal.Hand.w5_s16 WR (Proc.devRef .tc Cert.ReferenceIdeal.main_v176) = WR (Proc.devRef .tc Cert.ReferenceIdeal.main_v176) := by
  keep_step Cert.ReferenceIdeal.Hand.w5_s16
theorem keepK_w5_s16_main_v177 (WK : ValK F) :
    after Cert.KernelIdeal.Gen.main_part5_ops16 WK (Proc.devRef .tc Cert.KernelIdeal.main_v177) = WK (Proc.devRef .tc Cert.KernelIdeal.main_v177) := by
  keep_step Cert.KernelIdeal.Gen.main_part5_ops16
theorem keepR_w5_s16_main_v177 (WR : ValR F) :
    after Cert.ReferenceIdeal.Hand.w5_s16 WR (Proc.devRef .tc Cert.ReferenceIdeal.main_v177) = WR (Proc.devRef .tc Cert.ReferenceIdeal.main_v177) := by
  keep_step Cert.ReferenceIdeal.Hand.w5_s16
theorem keepK_w5_s16_main_v178 (WK : ValK F) :
    after Cert.KernelIdeal.Gen.main_part5_ops16 WK (Proc.devRef .tc Cert.KernelIdeal.main_v178) = WK (Proc.devRef .tc Cert.KernelIdeal.main_v178) := by
  keep_step Cert.KernelIdeal.Gen.main_part5_ops16
theorem keepR_w5_s16_main_v178 (WR : ValR F) :
    after Cert.ReferenceIdeal.Hand.w5_s16 WR (Proc.devRef .tc Cert.ReferenceIdeal.main_v178) = WR (Proc.devRef .tc Cert.ReferenceIdeal.main_v178) := by
  keep_step Cert.ReferenceIdeal.Hand.w5_s16
theorem keepK_w5_s16_main_v179 (WK : ValK F) :
    after Cert.KernelIdeal.Gen.main_part5_ops16 WK (Proc.devRef .tc Cert.KernelIdeal.main_v179) = WK (Proc.devRef .tc Cert.KernelIdeal.main_v179) := by
  keep_step Cert.KernelIdeal.Gen.main_part5_ops16
theorem keepR_w5_s16_main_v179 (WR : ValR F) :
    after Cert.ReferenceIdeal.Hand.w5_s16 WR (Proc.devRef .tc Cert.ReferenceIdeal.main_v179) = WR (Proc.devRef .tc Cert.ReferenceIdeal.main_v179) := by
  keep_step Cert.ReferenceIdeal.Hand.w5_s16
theorem keepK_w5_s16_main_v180 (WK : ValK F) :
    after Cert.KernelIdeal.Gen.main_part5_ops16 WK (Proc.devRef .tc Cert.KernelIdeal.main_v180) = WK (Proc.devRef .tc Cert.KernelIdeal.main_v180) := by
  keep_step Cert.KernelIdeal.Gen.main_part5_ops16
theorem keepR_w5_s16_main_v180 (WR : ValR F) :
    after Cert.ReferenceIdeal.Hand.w5_s16 WR (Proc.devRef .tc Cert.ReferenceIdeal.main_v180) = WR (Proc.devRef .tc Cert.ReferenceIdeal.main_v180) := by
  keep_step Cert.ReferenceIdeal.Hand.w5_s16
theorem keepK_w5_s16_main_v181 (WK : ValK F) :
    after Cert.KernelIdeal.Gen.main_part5_ops16 WK (Proc.devRef .tc Cert.KernelIdeal.main_v181) = WK (Proc.devRef .tc Cert.KernelIdeal.main_v181) := by
  keep_step Cert.KernelIdeal.Gen.main_part5_ops16
theorem keepR_w5_s16_main_v181 (WR : ValR F) :
    after Cert.ReferenceIdeal.Hand.w5_s16 WR (Proc.devRef .tc Cert.ReferenceIdeal.main_v181) = WR (Proc.devRef .tc Cert.ReferenceIdeal.main_v181) := by
  keep_step Cert.ReferenceIdeal.Hand.w5_s16
theorem keepK_w5_s16_main_v198 (WK : ValK F) :
    after Cert.KernelIdeal.Gen.main_part5_ops16 WK (Proc.devRef .tc Cert.KernelIdeal.main_v198) = WK (Proc.devRef .tc Cert.KernelIdeal.main_v198) := by
  keep_step Cert.KernelIdeal.Gen.main_part5_ops16
theorem keepR_w5_s16_main_v198 (WR : ValR F) :
    after Cert.ReferenceIdeal.Hand.w5_s16 WR (Proc.devRef .tc Cert.ReferenceIdeal.main_v198) = WR (Proc.devRef .tc Cert.ReferenceIdeal.main_v198) := by
  keep_step Cert.ReferenceIdeal.Hand.w5_s16
theorem phiK_w5_s16_main_v205 (WK : ValK F) :
    @Eq ((⟨S16x224x1, .i32⟩ : BufTy).Contents (Elt F)) (after Cert.KernelIdeal.Gen.main_part5_ops16 WK (Proc.devRef .tc Cert.KernelIdeal.main_v205))
      (phi_w5_s16_main_v205 (WK (Proc.devRef .tc Cert.KernelIdeal.main_arg11)) (WK (Proc.devRef .tc Cert.KernelIdeal.main_v180))) := by
  phi_step Cert.KernelIdeal.Gen.main_part5_ops16 phi_w5_s16_main_v205
theorem phiR_w5_s16_main_v205 (WR : ValR F) :
    @Eq ((⟨S16x224x1, .i32⟩ : BufTy).Contents (Elt F)) (after Cert.ReferenceIdeal.Hand.w5_s16 WR (Proc.devRef .tc Cert.ReferenceIdeal.main_v205))
      (phi_w5_s16_main_v205 (WR (Proc.devRef .tc Cert.ReferenceIdeal.main_arg11)) (WR (Proc.devRef .tc Cert.ReferenceIdeal.main_v180))) := by
  phi_step Cert.ReferenceIdeal.Hand.w5_s16 phi_w5_s16_main_v205
theorem phiK_w5_s16_main_v208 (WK : ValK F) :
    @Eq ((⟨S16x224x1, .i32⟩ : BufTy).Contents (Elt F)) (after Cert.KernelIdeal.Gen.main_part5_ops16 WK (Proc.devRef .tc Cert.KernelIdeal.main_v208))
      (phi_w5_s16_main_v208 (WK (Proc.devRef .tc Cert.KernelIdeal.main_arg11)) (WK (Proc.devRef .tc Cert.KernelIdeal.main_v177)) (WK (Proc.devRef .tc Cert.KernelIdeal.main_v180))) := by
  phi_step Cert.KernelIdeal.Gen.main_part5_ops16 phi_w5_s16_main_v208
theorem phiR_w5_s16_main_v208 (WR : ValR F) :
    @Eq ((⟨S16x224x1, .i32⟩ : BufTy).Contents (Elt F)) (after Cert.ReferenceIdeal.Hand.w5_s16 WR (Proc.devRef .tc Cert.ReferenceIdeal.main_v208))
      (phi_w5_s16_main_v208 (WR (Proc.devRef .tc Cert.ReferenceIdeal.main_arg11)) (WR (Proc.devRef .tc Cert.ReferenceIdeal.main_v177)) (WR (Proc.devRef .tc Cert.ReferenceIdeal.main_v180))) := by
  phi_step Cert.ReferenceIdeal.Hand.w5_s16 phi_w5_s16_main_v208
theorem phiK_w5_s16_main_c_148 (WK : ValK F) :
    @Eq ((⟨S_, .i32⟩ : BufTy).Contents (Elt F)) (after Cert.KernelIdeal.Gen.main_part5_ops16 WK (Proc.devRef .tc Cert.KernelIdeal.main_c_148))
      (phi_w5_s16_main_c_148) := by
  phi_step Cert.KernelIdeal.Gen.main_part5_ops16 phi_w5_s16_main_c_148
theorem phiR_w5_s16_main_c_148 (WR : ValR F) :
    @Eq ((⟨S_, .i32⟩ : BufTy).Contents (Elt F)) (after Cert.ReferenceIdeal.Hand.w5_s16 WR (Proc.devRef .tc Cert.ReferenceIdeal.main_c_148))
      (phi_w5_s16_main_c_148) := by
  phi_step Cert.ReferenceIdeal.Hand.w5_s16 phi_w5_s16_main_c_148

theorem sim_w5_s16 (WK : ValK F) (WR : ValR F) (h : Inv21 WK WR) :
    Inv22 (after Cert.KernelIdeal.Gen.main_part5_ops16 WK) (after Cert.ReferenceIdeal.Hand.w5_s16 WR) := by
  sim_step h Inv21 Inv22 [keepK_w5_s16_main_arg10, keepR_w5_s16_main_arg10, keepK_w5_s16_main_arg11, keepR_w5_s16_main_arg11, keepK_w5_s16_main_v62, keepR_w5_s16_main_v62, keepK_w5_s16_main_v83, keepR_w5_s16_main_v83, keepK_w5_s16_main_v104, keepR_w5_s16_main_v104, keepK_w5_s16_main_v125, keepR_w5_s16_main_v125, keepK_w5_s16_main_v146, keepR_w5_s16_main_v146, keepK_w5_s16_main_v167, keepR_w5_s16_main_v167, keepK_w5_s16_main_v169, keepR_w5_s16_main_v169, keepK_w5_s16_main_v171, keepR_w5_s16_main_v171, keepK_w5_s16_main_v172, keepR_w5_s16_main_v172, keepK_w5_s16_main_v176, keepR_w5_s16_main_v176, keepK_w5_s16_main_v177, keepR_w5_s16_main_v177, keepK_w5_s16_main_v178, keepR_w5_s16_main_v178, keepK_w5_s16_main_v179, keepR_w5_s16_main_v179, keepK_w5_s16_main_v180, keepR_w5_s16_main_v180, keepK_w5_s16_main_v181, keepR_w5_s16_main_v181, keepK_w5_s16_main_v198, keepR_w5_s16_main_v198, phiK_w5_s16_main_v205, phiR_w5_s16_main_v205, phiK_w5_s16_main_v208, phiR_w5_s16_main_v208, phiK_w5_s16_main_c_148, phiR_w5_s16_main_c_148]

theorem keepK_w5_s17_main_arg10 (WK : ValK F) :
    after Cert.KernelIdeal.Gen.main_part5_ops17 WK (Proc.devRef .tc Cert.KernelIdeal.main_arg10) = WK (Proc.devRef .tc Cert.KernelIdeal.main_arg10) := by
  keep_step Cert.KernelIdeal.Gen.main_part5_ops17
theorem keepR_w5_s17_main_arg10 (WR : ValR F) :
    after Cert.ReferenceIdeal.Hand.w5_s17 WR (Proc.devRef .tc Cert.ReferenceIdeal.main_arg10) = WR (Proc.devRef .tc Cert.ReferenceIdeal.main_arg10) := by
  keep_step Cert.ReferenceIdeal.Hand.w5_s17
theorem keepK_w5_s17_main_arg11 (WK : ValK F) :
    after Cert.KernelIdeal.Gen.main_part5_ops17 WK (Proc.devRef .tc Cert.KernelIdeal.main_arg11) = WK (Proc.devRef .tc Cert.KernelIdeal.main_arg11) := by
  keep_step Cert.KernelIdeal.Gen.main_part5_ops17
theorem keepR_w5_s17_main_arg11 (WR : ValR F) :
    after Cert.ReferenceIdeal.Hand.w5_s17 WR (Proc.devRef .tc Cert.ReferenceIdeal.main_arg11) = WR (Proc.devRef .tc Cert.ReferenceIdeal.main_arg11) := by
  keep_step Cert.ReferenceIdeal.Hand.w5_s17
theorem keepK_w5_s17_main_v62 (WK : ValK F) :
    after Cert.KernelIdeal.Gen.main_part5_ops17 WK (Proc.devRef .tc Cert.KernelIdeal.main_v62) = WK (Proc.devRef .tc Cert.KernelIdeal.main_v62) := by
  keep_step Cert.KernelIdeal.Gen.main_part5_ops17
theorem keepR_w5_s17_main_v62 (WR : ValR F) :
    after Cert.ReferenceIdeal.Hand.w5_s17 WR (Proc.devRef .tc Cert.ReferenceIdeal.main_v62) = WR (Proc.devRef .tc Cert.ReferenceIdeal.main_v62) := by
  keep_step Cert.ReferenceIdeal.Hand.w5_s17
theorem keepK_w5_s17_main_v83 (WK : ValK F) :
    after Cert.KernelIdeal.Gen.main_part5_ops17 WK (Proc.devRef .tc Cert.KernelIdeal.main_v83) = WK (Proc.devRef .tc Cert.KernelIdeal.main_v83) := by
  keep_step Cert.KernelIdeal.Gen.main_part5_ops17
theorem keepR_w5_s17_main_v83 (WR : ValR F) :
    after Cert.ReferenceIdeal.Hand.w5_s17 WR (Proc.devRef .tc Cert.ReferenceIdeal.main_v83) = WR (Proc.devRef .tc Cert.ReferenceIdeal.main_v83) := by
  keep_step Cert.ReferenceIdeal.Hand.w5_s17
theorem keepK_w5_s17_main_v104 (WK : ValK F) :
    after Cert.KernelIdeal.Gen.main_part5_ops17 WK (Proc.devRef .tc Cert.KernelIdeal.main_v104) = WK (Proc.devRef .tc Cert.KernelIdeal.main_v104) := by
  keep_step Cert.KernelIdeal.Gen.main_part5_ops17
theorem keepR_w5_s17_main_v104 (WR : ValR F) :
    after Cert.ReferenceIdeal.Hand.w5_s17 WR (Proc.devRef .tc Cert.ReferenceIdeal.main_v104) = WR (Proc.devRef .tc Cert.ReferenceIdeal.main_v104) := by
  keep_step Cert.ReferenceIdeal.Hand.w5_s17
theorem keepK_w5_s17_main_v125 (WK : ValK F) :
    after Cert.KernelIdeal.Gen.main_part5_ops17 WK (Proc.devRef .tc Cert.KernelIdeal.main_v125) = WK (Proc.devRef .tc Cert.KernelIdeal.main_v125) := by
  keep_step Cert.KernelIdeal.Gen.main_part5_ops17
theorem keepR_w5_s17_main_v125 (WR : ValR F) :
    after Cert.ReferenceIdeal.Hand.w5_s17 WR (Proc.devRef .tc Cert.ReferenceIdeal.main_v125) = WR (Proc.devRef .tc Cert.ReferenceIdeal.main_v125) := by
  keep_step Cert.ReferenceIdeal.Hand.w5_s17
theorem keepK_w5_s17_main_v146 (WK : ValK F) :
    after Cert.KernelIdeal.Gen.main_part5_ops17 WK (Proc.devRef .tc Cert.KernelIdeal.main_v146) = WK (Proc.devRef .tc Cert.KernelIdeal.main_v146) := by
  keep_step Cert.KernelIdeal.Gen.main_part5_ops17
theorem keepR_w5_s17_main_v146 (WR : ValR F) :
    after Cert.ReferenceIdeal.Hand.w5_s17 WR (Proc.devRef .tc Cert.ReferenceIdeal.main_v146) = WR (Proc.devRef .tc Cert.ReferenceIdeal.main_v146) := by
  keep_step Cert.ReferenceIdeal.Hand.w5_s17
theorem keepK_w5_s17_main_v167 (WK : ValK F) :
    after Cert.KernelIdeal.Gen.main_part5_ops17 WK (Proc.devRef .tc Cert.KernelIdeal.main_v167) = WK (Proc.devRef .tc Cert.KernelIdeal.main_v167) := by
  keep_step Cert.KernelIdeal.Gen.main_part5_ops17
theorem keepR_w5_s17_main_v167 (WR : ValR F) :
    after Cert.ReferenceIdeal.Hand.w5_s17 WR (Proc.devRef .tc Cert.ReferenceIdeal.main_v167) = WR (Proc.devRef .tc Cert.ReferenceIdeal.main_v167) := by
  keep_step Cert.ReferenceIdeal.Hand.w5_s17
theorem keepK_w5_s17_main_v169 (WK : ValK F) :
    after Cert.KernelIdeal.Gen.main_part5_ops17 WK (Proc.devRef .tc Cert.KernelIdeal.main_v169) = WK (Proc.devRef .tc Cert.KernelIdeal.main_v169) := by
  keep_step Cert.KernelIdeal.Gen.main_part5_ops17
theorem keepR_w5_s17_main_v169 (WR : ValR F) :
    after Cert.ReferenceIdeal.Hand.w5_s17 WR (Proc.devRef .tc Cert.ReferenceIdeal.main_v169) = WR (Proc.devRef .tc Cert.ReferenceIdeal.main_v169) := by
  keep_step Cert.ReferenceIdeal.Hand.w5_s17
theorem keepK_w5_s17_main_v171 (WK : ValK F) :
    after Cert.KernelIdeal.Gen.main_part5_ops17 WK (Proc.devRef .tc Cert.KernelIdeal.main_v171) = WK (Proc.devRef .tc Cert.KernelIdeal.main_v171) := by
  keep_step Cert.KernelIdeal.Gen.main_part5_ops17
theorem keepR_w5_s17_main_v171 (WR : ValR F) :
    after Cert.ReferenceIdeal.Hand.w5_s17 WR (Proc.devRef .tc Cert.ReferenceIdeal.main_v171) = WR (Proc.devRef .tc Cert.ReferenceIdeal.main_v171) := by
  keep_step Cert.ReferenceIdeal.Hand.w5_s17
theorem keepK_w5_s17_main_v172 (WK : ValK F) :
    after Cert.KernelIdeal.Gen.main_part5_ops17 WK (Proc.devRef .tc Cert.KernelIdeal.main_v172) = WK (Proc.devRef .tc Cert.KernelIdeal.main_v172) := by
  keep_step Cert.KernelIdeal.Gen.main_part5_ops17
theorem keepR_w5_s17_main_v172 (WR : ValR F) :
    after Cert.ReferenceIdeal.Hand.w5_s17 WR (Proc.devRef .tc Cert.ReferenceIdeal.main_v172) = WR (Proc.devRef .tc Cert.ReferenceIdeal.main_v172) := by
  keep_step Cert.ReferenceIdeal.Hand.w5_s17
theorem keepK_w5_s17_main_v176 (WK : ValK F) :
    after Cert.KernelIdeal.Gen.main_part5_ops17 WK (Proc.devRef .tc Cert.KernelIdeal.main_v176) = WK (Proc.devRef .tc Cert.KernelIdeal.main_v176) := by
  keep_step Cert.KernelIdeal.Gen.main_part5_ops17
theorem keepR_w5_s17_main_v176 (WR : ValR F) :
    after Cert.ReferenceIdeal.Hand.w5_s17 WR (Proc.devRef .tc Cert.ReferenceIdeal.main_v176) = WR (Proc.devRef .tc Cert.ReferenceIdeal.main_v176) := by
  keep_step Cert.ReferenceIdeal.Hand.w5_s17
theorem keepK_w5_s17_main_v177 (WK : ValK F) :
    after Cert.KernelIdeal.Gen.main_part5_ops17 WK (Proc.devRef .tc Cert.KernelIdeal.main_v177) = WK (Proc.devRef .tc Cert.KernelIdeal.main_v177) := by
  keep_step Cert.KernelIdeal.Gen.main_part5_ops17
theorem keepR_w5_s17_main_v177 (WR : ValR F) :
    after Cert.ReferenceIdeal.Hand.w5_s17 WR (Proc.devRef .tc Cert.ReferenceIdeal.main_v177) = WR (Proc.devRef .tc Cert.ReferenceIdeal.main_v177) := by
  keep_step Cert.ReferenceIdeal.Hand.w5_s17
theorem keepK_w5_s17_main_v178 (WK : ValK F) :
    after Cert.KernelIdeal.Gen.main_part5_ops17 WK (Proc.devRef .tc Cert.KernelIdeal.main_v178) = WK (Proc.devRef .tc Cert.KernelIdeal.main_v178) := by
  keep_step Cert.KernelIdeal.Gen.main_part5_ops17
theorem keepR_w5_s17_main_v178 (WR : ValR F) :
    after Cert.ReferenceIdeal.Hand.w5_s17 WR (Proc.devRef .tc Cert.ReferenceIdeal.main_v178) = WR (Proc.devRef .tc Cert.ReferenceIdeal.main_v178) := by
  keep_step Cert.ReferenceIdeal.Hand.w5_s17
theorem keepK_w5_s17_main_v179 (WK : ValK F) :
    after Cert.KernelIdeal.Gen.main_part5_ops17 WK (Proc.devRef .tc Cert.KernelIdeal.main_v179) = WK (Proc.devRef .tc Cert.KernelIdeal.main_v179) := by
  keep_step Cert.KernelIdeal.Gen.main_part5_ops17
theorem keepR_w5_s17_main_v179 (WR : ValR F) :
    after Cert.ReferenceIdeal.Hand.w5_s17 WR (Proc.devRef .tc Cert.ReferenceIdeal.main_v179) = WR (Proc.devRef .tc Cert.ReferenceIdeal.main_v179) := by
  keep_step Cert.ReferenceIdeal.Hand.w5_s17
theorem keepK_w5_s17_main_v180 (WK : ValK F) :
    after Cert.KernelIdeal.Gen.main_part5_ops17 WK (Proc.devRef .tc Cert.KernelIdeal.main_v180) = WK (Proc.devRef .tc Cert.KernelIdeal.main_v180) := by
  keep_step Cert.KernelIdeal.Gen.main_part5_ops17
theorem keepR_w5_s17_main_v180 (WR : ValR F) :
    after Cert.ReferenceIdeal.Hand.w5_s17 WR (Proc.devRef .tc Cert.ReferenceIdeal.main_v180) = WR (Proc.devRef .tc Cert.ReferenceIdeal.main_v180) := by
  keep_step Cert.ReferenceIdeal.Hand.w5_s17
theorem keepK_w5_s17_main_v181 (WK : ValK F) :
    after Cert.KernelIdeal.Gen.main_part5_ops17 WK (Proc.devRef .tc Cert.KernelIdeal.main_v181) = WK (Proc.devRef .tc Cert.KernelIdeal.main_v181) := by
  keep_step Cert.KernelIdeal.Gen.main_part5_ops17
theorem keepR_w5_s17_main_v181 (WR : ValR F) :
    after Cert.ReferenceIdeal.Hand.w5_s17 WR (Proc.devRef .tc Cert.ReferenceIdeal.main_v181) = WR (Proc.devRef .tc Cert.ReferenceIdeal.main_v181) := by
  keep_step Cert.ReferenceIdeal.Hand.w5_s17
theorem keepK_w5_s17_main_v198 (WK : ValK F) :
    after Cert.KernelIdeal.Gen.main_part5_ops17 WK (Proc.devRef .tc Cert.KernelIdeal.main_v198) = WK (Proc.devRef .tc Cert.KernelIdeal.main_v198) := by
  keep_step Cert.KernelIdeal.Gen.main_part5_ops17
theorem keepR_w5_s17_main_v198 (WR : ValR F) :
    after Cert.ReferenceIdeal.Hand.w5_s17 WR (Proc.devRef .tc Cert.ReferenceIdeal.main_v198) = WR (Proc.devRef .tc Cert.ReferenceIdeal.main_v198) := by
  keep_step Cert.ReferenceIdeal.Hand.w5_s17
theorem keepK_w5_s17_main_v205 (WK : ValK F) :
    after Cert.KernelIdeal.Gen.main_part5_ops17 WK (Proc.devRef .tc Cert.KernelIdeal.main_v205) = WK (Proc.devRef .tc Cert.KernelIdeal.main_v205) := by
  keep_step Cert.KernelIdeal.Gen.main_part5_ops17
theorem keepR_w5_s17_main_v205 (WR : ValR F) :
    after Cert.ReferenceIdeal.Hand.w5_s17 WR (Proc.devRef .tc Cert.ReferenceIdeal.main_v205) = WR (Proc.devRef .tc Cert.ReferenceIdeal.main_v205) := by
  keep_step Cert.ReferenceIdeal.Hand.w5_s17
theorem phiK_w5_s17_main_v209 (WK : ValK F) :
    @Eq ((⟨S16x224x1, .i32⟩ : BufTy).Contents (Elt F)) (after Cert.KernelIdeal.Gen.main_part5_ops17 WK (Proc.devRef .tc Cert.KernelIdeal.main_v209))
      (phi_w5_s17_main_v209 (WK (Proc.devRef .tc Cert.KernelIdeal.main_v208)) (WK (Proc.devRef .tc Cert.KernelIdeal.main_c_148))) := by
  phi_step Cert.KernelIdeal.Gen.main_part5_ops17 phi_w5_s17_main_v209
theorem phiR_w5_s17_main_v209 (WR : ValR F) :
    @Eq ((⟨S16x224x1, .i32⟩ : BufTy).Contents (Elt F)) (after Cert.ReferenceIdeal.Hand.w5_s17 WR (Proc.devRef .tc Cert.ReferenceIdeal.main_v209))
      (phi_w5_s17_main_v209 (WR (Proc.devRef .tc Cert.ReferenceIdeal.main_v208)) (WR (Proc.devRef .tc Cert.ReferenceIdeal.main_c_148))) := by
  phi_step Cert.ReferenceIdeal.Hand.w5_s17 phi_w5_s17_main_v209

theorem sim_w5_s17 (WK : ValK F) (WR : ValR F) (h : Inv22 WK WR) :
    Inv23 (after Cert.KernelIdeal.Gen.main_part5_ops17 WK) (after Cert.ReferenceIdeal.Hand.w5_s17 WR) := by
  sim_step h Inv22 Inv23 [keepK_w5_s17_main_arg10, keepR_w5_s17_main_arg10, keepK_w5_s17_main_arg11, keepR_w5_s17_main_arg11, keepK_w5_s17_main_v62, keepR_w5_s17_main_v62, keepK_w5_s17_main_v83, keepR_w5_s17_main_v83, keepK_w5_s17_main_v104, keepR_w5_s17_main_v104, keepK_w5_s17_main_v125, keepR_w5_s17_main_v125, keepK_w5_s17_main_v146, keepR_w5_s17_main_v146, keepK_w5_s17_main_v167, keepR_w5_s17_main_v167, keepK_w5_s17_main_v169, keepR_w5_s17_main_v169, keepK_w5_s17_main_v171, keepR_w5_s17_main_v171, keepK_w5_s17_main_v172, keepR_w5_s17_main_v172, keepK_w5_s17_main_v176, keepR_w5_s17_main_v176, keepK_w5_s17_main_v177, keepR_w5_s17_main_v177, keepK_w5_s17_main_v178, keepR_w5_s17_main_v178, keepK_w5_s17_main_v179, keepR_w5_s17_main_v179, keepK_w5_s17_main_v180, keepR_w5_s17_main_v180, keepK_w5_s17_main_v181, keepR_w5_s17_main_v181, keepK_w5_s17_main_v198, keepR_w5_s17_main_v198, keepK_w5_s17_main_v205, keepR_w5_s17_main_v205, phiK_w5_s17_main_v209, phiR_w5_s17_main_v209]

end Cert.PromptBridge

end
-- ==== Proof.PromptBridgePhi6.lean ====
import proofs.«144763_j39642548142243_2_alg».proof.Proof.PromptBridgeBase

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

/-- main_v213 after stretch w6_s0, from the contents before it. -/
def phi_w6_s0_main_v213 (t_main_v177 : (⟨S16, .i32⟩ : BufTy).Contents (Elt F)) (t_main_v205 : (⟨S16x224x1, .i32⟩ : BufTy).Contents (Elt F)) : (⟨S16x224x1, .i1⟩ : BufTy).Contents (Elt F) :=
  let t_main_v211 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v177
  let t_main_v212 : (⟨S16x224x1, .i32⟩ : BufTy).Contents (Elt F) := (broadcastInDim S16x224x1 ![0, 1, 2] bcast_S16x1x1_S16x224x1_0_1_2 : (⟨S16x1x1, .i32⟩ : BufTy).Contents (Elt F) → (⟨S16x224x1, .i32⟩ : BufTy).Contents (Elt F)) t_main_v211
  let t_main_v213 : (⟨S16x224x1, .i1⟩ : BufTy).Contents (Elt F) := (cmpi .slt : (⟨S16x224x1, .i32⟩ : BufTy).Contents (Elt F) → (⟨S16x224x1, .i32⟩ : BufTy).Contents (Elt F) → (⟨S16x224x1, .i1⟩ : BufTy).Contents (Elt F)) t_main_v205 t_main_v212
  t_main_v213

/-- main_v214 after stretch w6_s0, from the contents before it. -/
def phi_w6_s0_main_v214 (t_main_v62 : (⟨S16x3x224, .f32⟩ : BufTy).Contents (Elt F)) : (⟨S16x3x1x224, .f32⟩ : BufTy).Contents (Elt F) :=
  let t_main_v214 : (⟨S16x3x1x224, .f32⟩ : BufTy).Contents (Elt F) := (broadcastInDim S16x3x1x224 ![0, 1, 3] bcast_S16x3x224_S16x3x1x224_0_1_3 : (⟨S16x3x224, .f32⟩ : BufTy).Contents (Elt F) → (⟨S16x3x1x224, .f32⟩ : BufTy).Contents (Elt F)) t_main_v62
  t_main_v214

/-- main_v221 after stretch w6_s0, from the contents before it. -/
def phi_w6_s0_main_v221 (t_main_v83 : (⟨S16x3x10x224, .f32⟩ : BufTy).Contents (Elt F)) (t_main_v209 : (⟨S16x224x1, .i32⟩ : BufTy).Contents (Elt F)) : (⟨S16x3x224x224, .f32⟩ : BufTy).Contents (Elt F) :=
  let t_main_v210 : (⟨S16x224, .i32⟩ : BufTy).Contents (Elt F) := (fun i => shapeCast S16x224 t_main_v209 shapeCasts_S16x224x1_S16x224 i)
  let t_main_c_149 : (⟨S_, .i32⟩ : BufTy).Contents (Elt F) := (constantI S_ 32 0#32)
  let t_main_v215 : (⟨S16x224, .i32⟩ : BufTy).Contents (Elt F) := (broadcastInDim S16x224 ![] bcast_S_S16x224 : (⟨S_, .i32⟩ : BufTy).Contents (Elt F) → (⟨S16x224, .i32⟩ : BufTy).Contents (Elt F)) t_main_c_149
  let t_main_v216 : (⟨S16x224, .i1⟩ : BufTy).Contents (Elt F) := (cmpi .slt : (⟨S16x224, .i32⟩ : BufTy).Contents (Elt F) → (⟨S16x224, .i32⟩ : BufTy).Contents (Elt F) → (⟨S16x224, .i1⟩ : BufTy).Contents (Elt F)) t_main_v210 t_main_v215
  let t_main_c_150 : (⟨S_, .i32⟩ : BufTy).Contents (Elt F) := (constantI S_ 32 10#32)
  let t_main_v217 : (⟨S16x224, .i32⟩ : BufTy).Contents (Elt F) := (broadcastInDim S16x224 ![] bcast_S_S16x224 : (⟨S_, .i32⟩ : BufTy).Contents (Elt F) → (⟨S16x224, .i32⟩ : BufTy).Contents (Elt F)) t_main_c_150
  let t_main_v218 : (⟨S16x224, .i32⟩ : BufTy).Contents (Elt F) := (addi : (⟨S16x224, .i32⟩ : BufTy).Contents (Elt F) → (⟨S16x224, .i32⟩ : BufTy).Contents (Elt F) → (⟨S16x224, .i32⟩ : BufTy).Contents (Elt F)) t_main_v210 t_main_v217
  let t_main_v219 : (⟨S16x224, .i32⟩ : BufTy).Contents (Elt F) := (select : (⟨S16x224, .i1⟩ : BufTy).Contents (Elt F) → (⟨S16x224, .i32⟩ : BufTy).Contents (Elt F) → (⟨S16x224, .i32⟩ : BufTy).Contents (Elt F) → (⟨S16x224, .i32⟩ : BufTy).Contents (Elt F)) t_main_v216 t_main_v218 t_main_v210
  let t_main_v220 : (⟨S16x224x1, .i32⟩ : BufTy).Contents (Elt F) := (broadcastInDim S16x224x1 ![0, 1] bcast_S16x224_S16x224x1_0_1 : (⟨S16x224, .i32⟩ : BufTy).Contents (Elt F) → (⟨S16x224x1, .i32⟩ : BufTy).Contents (Elt F)) t_main_v219
  let t_main_v221 : (⟨S16x3x224x224, .f32⟩ : BufTy).Contents (Elt F) := ((fun x i => Host.gather gather_S16x3x10x224_S16x224x1_S16x3x224x224_13_2_0_0_2_2_131224 x i) : (⟨S16x3x10x224, .f32⟩ : BufTy).Contents (Elt F) → (⟨S16x224x1, .i32⟩ : BufTy).Contents (Elt F) → (⟨S16x3x224x224, .f32⟩ : BufTy).Contents (Elt F)) t_main_v83 t_main_v220
  t_main_v221

/-- main_v222 after stretch w6_s1, from the contents before it. -/
def phi_w6_s1_main_v222 (t_main_v213 : (⟨S16x224x1, .i1⟩ : BufTy).Contents (Elt F)) (t_main_v214 : (⟨S16x3x1x224, .f32⟩ : BufTy).Contents (Elt F)) (t_main_v221 : (⟨S16x3x224x224, .f32⟩ : BufTy).Contents (Elt F)) : (⟨S16x3x224x224, .f32⟩ : BufTy).Contents (Elt F) :=
  let t_main_call9_v0 : (⟨S16x3x224x224, .i1⟩ : BufTy).Contents (Elt F) := (broadcastInDim S16x3x224x224 ![0, 2, 3] bcast_S16x224x1_S16x3x224x224_0_2_3) t_main_v213
  let t_main_call9_v1 : (⟨S16x3x224x224, .f32⟩ : BufTy).Contents (Elt F) := (broadcastInDim S16x3x224x224 ![0, 1, 2, 3] bcast_S16x3x1x224_S16x3x224x224_0_1_2_3) t_main_v214
  let t_main_v222 : (⟨S16x3x224x224, .f32⟩ : BufTy).Contents (Elt F) := (select) t_main_call9_v0 t_main_call9_v1 t_main_v221
  t_main_v222

/-- main_v227 after stretch w6_s2, from the contents before it. -/
def phi_w6_s2_main_v227 (t_main_v171 : (⟨S16, .i32⟩ : BufTy).Contents (Elt F)) (t_main_v178 : (⟨S224, .i32⟩ : BufTy).Contents (Elt F)) : (⟨S16x224, .i32⟩ : BufTy).Contents (Elt F) :=
  let t_main_v223 : (⟨S1x224, .i32⟩ : BufTy).Contents (Elt F) := (broadcastInDim S1x224 ![1] bcast_S224_S1x224_1 : (⟨S224, .i32⟩ : BufTy).Contents (Elt F) → (⟨S1x224, .i32⟩ : BufTy).Contents (Elt F)) t_main_v178
  let t_main_v224 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v171
  let t_main_v225 : (⟨S16x224, .i32⟩ : BufTy).Contents (Elt F) := (broadcastInDim S16x224 ![0, 1] bcast_S1x224_S16x224_0_1 : (⟨S1x224, .i32⟩ : BufTy).Contents (Elt F) → (⟨S16x224, .i32⟩ : BufTy).Contents (Elt F)) t_main_v223
  let t_main_v226 : (⟨S16x224, .i32⟩ : BufTy).Contents (Elt F) := (broadcastInDim S16x224 ![0, 1] bcast_S16x1_S16x224_0_1 : (⟨S16x1, .i32⟩ : BufTy).Contents (Elt F) → (⟨S16x224, .i32⟩ : BufTy).Contents (Elt F)) t_main_v224
  let t_main_v227 : (⟨S16x224, .i32⟩ : BufTy).Contents (Elt F) := (subi : (⟨S16x224, .i32⟩ : BufTy).Contents (Elt F) → (⟨S16x224, .i32⟩ : BufTy).Contents (Elt F) → (⟨S16x224, .i32⟩ : BufTy).Contents (Elt F)) t_main_v225 t_main_v226
  t_main_v227

/-- main_c_151 after stretch w6_s2, from the contents before it. -/
def phi_w6_s2_main_c_151  : (⟨S_, .i32⟩ : BufTy).Contents (Elt F) :=
  let t_main_c_151 : (⟨S_, .i32⟩ : BufTy).Contents (Elt F) := (constantI S_ 32 0#32)
  t_main_c_151

/-- main_c_152 after stretch w6_s2, from the contents before it. -/
def phi_w6_s2_main_c_152  : (⟨S_, .i32⟩ : BufTy).Contents (Elt F) :=
  let t_main_c_152 : (⟨S_, .i32⟩ : BufTy).Contents (Elt F) := (constantI S_ 32 163#32)
  t_main_c_152

/-- main_v228 after stretch w6_s3, from the contents before it. -/
def phi_w6_s3_main_v228 (t_main_v227 : (⟨S16x224, .i32⟩ : BufTy).Contents (Elt F)) (t_main_c_151 : (⟨S_, .i32⟩ : BufTy).Contents (Elt F)) (t_main_c_152 : (⟨S_, .i32⟩ : BufTy).Contents (Elt F)) : (⟨S16x224, .i32⟩ : BufTy).Contents (Elt F) :=
  let t_main_call10_v0 : (⟨S_, .i32⟩ : BufTy).Contents (Elt F) := (id) t_main_c_151
  let t_main_call10_v1 : (⟨S16x224, .i32⟩ : BufTy).Contents (Elt F) := (broadcastInDim S16x224 ![] bcast_S_S16x224) t_main_call10_v0
  let t_main_call10_v2 : (⟨S16x224, .i32⟩ : BufTy).Contents (Elt F) := (maxsi) t_main_call10_v1 t_main_v227
  let t_main_call10_v3 : (⟨S_, .i32⟩ : BufTy).Contents (Elt F) := (id) t_main_c_152
  let t_main_call10_v4 : (⟨S16x224, .i32⟩ : BufTy).Contents (Elt F) := (broadcastInDim S16x224 ![] bcast_S_S16x224) t_main_call10_v3
  let t_main_v228 : (⟨S16x224, .i32⟩ : BufTy).Contents (Elt F) := (minsi) t_main_call10_v4 t_main_call10_v2
  t_main_v228

/-- main_v235 after stretch w6_s4, from the contents before it. -/
def phi_w6_s4_main_v235 (t_main_v172 : (⟨S16, .i32⟩ : BufTy).Contents (Elt F)) (t_main_v181 : (⟨S1x224, .i32⟩ : BufTy).Contents (Elt F)) : (⟨S16x1x224, .i1⟩ : BufTy).Contents (Elt F) :=
  let t_main_c_153 : (⟨S_, .i32⟩ : BufTy).Contents (Elt F) := (constantI S_ 32 10#32)
  let t_main_v229 : (⟨S16, .i32⟩ : BufTy).Contents (Elt F) := (broadcastInDim S16 ![] bcast_S_S16 : (⟨S_, .i32⟩ : BufTy).Contents (Elt F) → (⟨S16, .i32⟩ : BufTy).Contents (Elt F)) t_main_c_153
  let t_main_v230 : (⟨S16, .i32⟩ : BufTy).Contents (Elt F) := (muli : (⟨S16, .i32⟩ : BufTy).Contents (Elt F) → (⟨S16, .i32⟩ : BufTy).Contents (Elt F) → (⟨S16, .i32⟩ : BufTy).Contents (Elt F)) t_main_v172 t_main_v229
  let t_main_v231 : (⟨S1x1x224, .i32⟩ : BufTy).Contents (Elt F) := (broadcastInDim S1x1x224 ![1, 2] bcast_S1x224_S1x1x224_1_2 : (⟨S1x224, .i32⟩ : BufTy).Contents (Elt F) → (⟨S1x1x224, .i32⟩ : BufTy).Contents (Elt F)) t_main_v181
  let t_main_v232 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v230
  let t_main_v233 : (⟨S16x1x224, .i32⟩ : BufTy).Contents (Elt F) := (broadcastInDim S16x1x224 ![0, 1, 2] bcast_S1x1x224_S16x1x224_0_1_2 : (⟨S1x1x224, .i32⟩ : BufTy).Contents (Elt F) → (⟨S16x1x224, .i32⟩ : BufTy).Contents (Elt F)) t_main_v231
  let t_main_v234 : (⟨S16x1x224, .i32⟩ : BufTy).Contents (Elt F) := (broadcastInDim S16x1x224 ![0, 1, 2] bcast_S16x1x1_S16x1x224_0_1_2 : (⟨S16x1x1, .i32⟩ : BufTy).Contents (Elt F) → (⟨S16x1x224, .i32⟩ : BufTy).Contents (Elt F)) t_main_v232
  let t_main_v235 : (⟨S16x1x224, .i1⟩ : BufTy).Contents (Elt F) := (cmpi .slt : (⟨S16x1x224, .i32⟩ : BufTy).Contents (Elt F) → (⟨S16x1x224, .i32⟩ : BufTy).Contents (Elt F) → (⟨S16x1x224, .i1⟩ : BufTy).Contents (Elt F)) t_main_v233 t_main_v234
  t_main_v235

/-- main_v236 after stretch w6_s4, from the contents before it. -/
def phi_w6_s4_main_v236 (t_main_v228 : (⟨S16x224, .i32⟩ : BufTy).Contents (Elt F)) : (⟨S16x224x1, .i32⟩ : BufTy).Contents (Elt F) :=
  let t_main_v236 : (⟨S16x224x1, .i32⟩ : BufTy).Contents (Elt F) := (broadcastInDim S16x224x1 ![0, 1] bcast_S16x224_S16x224x1_0_1 : (⟨S16x224, .i32⟩ : BufTy).Contents (Elt F) → (⟨S16x224x1, .i32⟩ : BufTy).Contents (Elt F)) t_main_v228
  t_main_v236

/-- main_c_154 after stretch w6_s4, from the contents before it. -/
def phi_w6_s4_main_c_154  : (⟨S_, .i32⟩ : BufTy).Contents (Elt F) :=
  let t_main_c_154 : (⟨S_, .i32⟩ : BufTy).Contents (Elt F) := (constantI S_ 32 10#32)
  t_main_c_154

/-- main_v237 after stretch w6_s5, from the contents before it. -/
def phi_w6_s5_main_v237 (t_main_v179 : (⟨S224, .i32⟩ : BufTy).Contents (Elt F)) (t_main_c_154 : (⟨S_, .i32⟩ : BufTy).Contents (Elt F)) : (⟨S224, .i32⟩ : BufTy).Contents (Elt F) :=
  let t_main_call11_v0 : (⟨S_, .i32⟩ : BufTy).Contents (Elt F) := (id) t_main_c_154
  let t_main_call11_c : (⟨S_, .i32⟩ : BufTy).Contents (Elt F) := (constantI S_ 32 0#32)
  let t_main_call11_v1 : (⟨S_, .i1⟩ : BufTy).Contents (Elt F) := (cmpi .eq) t_main_call11_v0 t_main_call11_c
  let t_main_call11_c_0 : (⟨S_, .i32⟩ : BufTy).Contents (Elt F) := (constantI S_ 32 1#32)
  let t_main_call11_v2 : (⟨S_, .i32⟩ : BufTy).Contents (Elt F) := (select) t_main_call11_v1 t_main_call11_c_0 t_main_call11_v0
  let t_main_call11_v3 : (⟨S224, .i32⟩ : BufTy).Contents (Elt F) := (broadcastInDim S224 ![] bcast_S_S224) t_main_call11_v2
  let t_main_call11_v4 : (⟨S224, .i32⟩ : BufTy).Contents (Elt F) := (Host.remsi) t_main_v179 t_main_call11_v3
  let t_main_call11_c_1 : (⟨S_, .i32⟩ : BufTy).Contents (Elt F) := (constantI S_ 32 0#32)
  let t_main_call11_v5 : (⟨S224, .i32⟩ : BufTy).Contents (Elt F) := (broadcastInDim S224 ![] bcast_S_S224) t_main_call11_c_1
  let t_main_call11_v6 : (⟨S224, .i1⟩ : BufTy).Contents (Elt F) := (cmpi .ne) t_main_call11_v4 t_main_call11_v5
  let t_main_call11_c_2 : (⟨S_, .i32⟩ : BufTy).Contents (Elt F) := (constantI S_ 32 0#32)
  let t_main_call11_v7 : (⟨S224, .i32⟩ : BufTy).Contents (Elt F) := (broadcastInDim S224 ![] bcast_S_S224) t_main_call11_c_2
  let t_main_call11_v8 : (⟨S224, .i1⟩ : BufTy).Contents (Elt F) := (cmpi .slt) t_main_call11_v4 t_main_call11_v7
  let t_main_call11_c_3 : (⟨S_, .i32⟩ : BufTy).Contents (Elt F) := (constantI S_ 32 0#32)
  let t_main_call11_v9 : (⟨S_, .i1⟩ : BufTy).Contents (Elt F) := (cmpi .slt) t_main_call11_v2 t_main_call11_c_3
  let t_main_call11_v10 : (⟨S224, .i1⟩ : BufTy).Contents (Elt F) := (broadcastInDim S224 ![] bcast_S_S224) t_main_call11_v9
  let t_main_call11_v11 : (⟨S224, .i1⟩ : BufTy).Contents (Elt F) := (cmpi .ne) t_main_call11_v8 t_main_call11_v10
  let t_main_call11_v12 : (⟨S224, .i1⟩ : BufTy).Contents (Elt F) := (andi) t_main_call11_v11 t_main_call11_v6
  let t_main_call11_v13 : (⟨S224, .i32⟩ : BufTy).Contents (Elt F) := (broadcastInDim S224 ![] bcast_S_S224) t_main_call11_v2
  let t_main_call11_v14 : (⟨S224, .i32⟩ : BufTy).Contents (Elt F) := (addi) t_main_call11_v4 t_main_call11_v13
  let t_main_v237 : (⟨S224, .i32⟩ : BufTy).Contents (Elt F) := (select) t_main_call11_v12 t_main_call11_v14 t_main_call11_v4
  t_main_v237

/-- main_v255 after stretch w6_s6, from the contents before it. -/
def phi_w6_s6_main_v255 (t_main_v125 : (⟨S16x3x164x10, .f32⟩ : BufTy).Contents (Elt F)) (t_main_v236 : (⟨S16x224x1, .i32⟩ : BufTy).Contents (Elt F)) (t_main_v237 : (⟨S224, .i32⟩ : BufTy).Contents (Elt F)) : (⟨S16x3x224x224, .f32⟩ : BufTy).Contents (Elt F) :=
  let t_main_v238 : (⟨S1x224, .i32⟩ : BufTy).Contents (Elt F) := (broadcastInDim S1x224 ![1] bcast_S224_S1x224_1 : (⟨S224, .i32⟩ : BufTy).Contents (Elt F) → (⟨S1x224, .i32⟩ : BufTy).Contents (Elt F)) t_main_v237
  let t_main_c_155 : (⟨S_, .i32⟩ : BufTy).Contents (Elt F) := (constantI S_ 32 0#32)
  let t_main_v239 : (⟨S16x224x1, .i32⟩ : BufTy).Contents (Elt F) := (broadcastInDim S16x224x1 ![] bcast_S_S16x224x1 : (⟨S_, .i32⟩ : BufTy).Contents (Elt F) → (⟨S16x224x1, .i32⟩ : BufTy).Contents (Elt F)) t_main_c_155
  let t_main_v240 : (⟨S16x224x1, .i1⟩ : BufTy).Contents (Elt F) := (cmpi .slt : (⟨S16x224x1, .i32⟩ : BufTy).Contents (Elt F) → (⟨S16x224x1, .i32⟩ : BufTy).Contents (Elt F) → (⟨S16x224x1, .i1⟩ : BufTy).Contents (Elt F)) t_main_v236 t_main_v239
  let t_main_c_156 : (⟨S_, .i32⟩ : BufTy).Contents (Elt F) := (constantI S_ 32 164#32)
  let t_main_v241 : (⟨S16x224x1, .i32⟩ : BufTy).Contents (Elt F) := (broadcastInDim S16x224x1 ![] bcast_S_S16x224x1 : (⟨S_, .i32⟩ : BufTy).Contents (Elt F) → (⟨S16x224x1, .i32⟩ : BufTy).Contents (Elt F)) t_main_c_156
  let t_main_v242 : (⟨S16x224x1, .i32⟩ : BufTy).Contents (Elt F) := (addi : (⟨S16x224x1, .i32⟩ : BufTy).Contents (Elt F) → (⟨S16x224x1, .i32⟩ : BufTy).Contents (Elt F) → (⟨S16x224x1, .i32⟩ : BufTy).Contents (Elt F)) t_main_v236 t_main_v241
  let t_main_v243 : (⟨S16x224x1, .i32⟩ : BufTy).Contents (Elt F) := (select : (⟨S16x224x1, .i1⟩ : BufTy).Contents (Elt F) → (⟨S16x224x1, .i32⟩ : BufTy).Contents (Elt F) → (⟨S16x224x1, .i32⟩ : BufTy).Contents (Elt F) → (⟨S16x224x1, .i32⟩ : BufTy).Contents (Elt F)) t_main_v240 t_main_v242 t_main_v236
  let t_main_c_157 : (⟨S_, .i32⟩ : BufTy).Contents (Elt F) := (constantI S_ 32 0#32)
  let t_main_v244 : (⟨S1x224, .i32⟩ : BufTy).Contents (Elt F) := (broadcastInDim S1x224 ![] bcast_S_S1x224 : (⟨S_, .i32⟩ : BufTy).Contents (Elt F) → (⟨S1x224, .i32⟩ : BufTy).Contents (Elt F)) t_main_c_157
  let t_main_v245 : (⟨S1x224, .i1⟩ : BufTy).Contents (Elt F) := (cmpi .slt : (⟨S1x224, .i32⟩ : BufTy).Contents (Elt F) → (⟨S1x224, .i32⟩ : BufTy).Contents (Elt F) → (⟨S1x224, .i1⟩ : BufTy).Contents (Elt F)) t_main_v238 t_main_v244
  let t_main_c_158 : (⟨S_, .i32⟩ : BufTy).Contents (Elt F) := (constantI S_ 32 10#32)
  let t_main_v246 : (⟨S1x224, .i32⟩ : BufTy).Contents (Elt F) := (broadcastInDim S1x224 ![] bcast_S_S1x224 : (⟨S_, .i32⟩ : BufTy).Contents (Elt F) → (⟨S1x224, .i32⟩ : BufTy).Contents (Elt F)) t_main_c_158
  let t_main_v247 : (⟨S1x224, .i32⟩ : BufTy).Contents (Elt F) := (addi : (⟨S1x224, .i32⟩ : BufTy).Contents (Elt F) → (⟨S1x224, .i32⟩ : BufTy).Contents (Elt F) → (⟨S1x224, .i32⟩ : BufTy).Contents (Elt F)) t_main_v238 t_main_v246
  let t_main_v248 : (⟨S1x224, .i32⟩ : BufTy).Contents (Elt F) := (select : (⟨S1x224, .i1⟩ : BufTy).Contents (Elt F) → (⟨S1x224, .i32⟩ : BufTy).Contents (Elt F) → (⟨S1x224, .i32⟩ : BufTy).Contents (Elt F) → (⟨S1x224, .i32⟩ : BufTy).Contents (Elt F)) t_main_v245 t_main_v247 t_main_v238
  let t_main_v249 : (⟨S16x224x224, .i32⟩ : BufTy).Contents (Elt F) := (broadcastInDim S16x224x224 ![0, 1, 2] bcast_S16x224x1_S16x224x224_0_1_2 : (⟨S16x224x1, .i32⟩ : BufTy).Contents (Elt F) → (⟨S16x224x224, .i32⟩ : BufTy).Contents (Elt F)) t_main_v243
  let t_main_v250 : (⟨S224x224, .i32⟩ : BufTy).Contents (Elt F) := (broadcastInDim S224x224 ![0, 1] bcast_S1x224_S224x224_0_1 : (⟨S1x224, .i32⟩ : BufTy).Contents (Elt F) → (⟨S224x224, .i32⟩ : BufTy).Contents (Elt F)) t_main_v248
  let t_main_v251 : (⟨S16x224x224x1, .i32⟩ : BufTy).Contents (Elt F) := (broadcastInDim S16x224x224x1 ![0, 1, 2] bcast_S16x224x224_S16x224x224x1_0_1_2 : (⟨S16x224x224, .i32⟩ : BufTy).Contents (Elt F) → (⟨S16x224x224x1, .i32⟩ : BufTy).Contents (Elt F)) t_main_v249
  let t_main_v252 : (⟨S224x224x1, .i32⟩ : BufTy).Contents (Elt F) := (broadcastInDim S224x224x1 ![0, 1] bcast_S224x224_S224x224x1_0_1 : (⟨S224x224, .i32⟩ : BufTy).Contents (Elt F) → (⟨S224x224x1, .i32⟩ : BufTy).Contents (Elt F)) t_main_v250
  let t_main_v253 : (⟨S16x224x224x1, .i32⟩ : BufTy).Contents (Elt F) := (broadcastInDim S16x224x224x1 ![1, 2, 3] bcast_S224x224x1_S16x224x224x1_1_2_3 : (⟨S224x224x1, .i32⟩ : BufTy).Contents (Elt F) → (⟨S16x224x224x1, .i32⟩ : BufTy).Contents (Elt F)) t_main_v252
  let t_main_v254 : (⟨S16x224x224x2, .i32⟩ : BufTy).Contents (Elt F) := ((fun a b => concatenate S16x224x224x2 3 [⟨S16x224x224x1, a⟩, ⟨S16x224x224x1, b⟩] concatenates_S16x224x224x1_S16x224x224x1_S16x224x224x2_d3) : (⟨S16x224x224x1, .i32⟩ : BufTy).Contents (Elt F) → (⟨S16x224x224x1, .i32⟩ : BufTy).Contents (Elt F) → (⟨S16x224x224x2, .i32⟩ : BufTy).Contents (Elt F)) t_main_v251 t_main_v253
  let t_main_v255 : (⟨S16x3x224x224, .f32⟩ : BufTy).Contents (Elt F) := ((fun x i => Host.gather gather_S16x3x164x10_S16x224x224x2_S16x3x224x224_1_23_0_0_23_3_1311 x i) : (⟨S16x3x164x10, .f32⟩ : BufTy).Contents (Elt F) → (⟨S16x224x224x2, .i32⟩ : BufTy).Contents (Elt F) → (⟨S16x3x224x224, .f32⟩ : BufTy).Contents (Elt F)) t_main_v125 t_main_v254
  t_main_v255

/-- main_v257 after stretch w6_s6, from the contents before it. -/
def phi_w6_s6_main_v257 (t_main_v228 : (⟨S16x224, .i32⟩ : BufTy).Contents (Elt F)) : (⟨S16x224, .i1⟩ : BufTy).Contents (Elt F) :=
  let t_main_c_159 : (⟨S_, .i32⟩ : BufTy).Contents (Elt F) := (constantI S_ 32 0#32)
  let t_main_v256 : (⟨S16x224, .i32⟩ : BufTy).Contents (Elt F) := (broadcastInDim S16x224 ![] bcast_S_S16x224 : (⟨S_, .i32⟩ : BufTy).Contents (Elt F) → (⟨S16x224, .i32⟩ : BufTy).Contents (Elt F)) t_main_c_159
  let t_main_v257 : (⟨S16x224, .i1⟩ : BufTy).Contents (Elt F) := (cmpi .slt : (⟨S16x224, .i32⟩ : BufTy).Contents (Elt F) → (⟨S16x224, .i32⟩ : BufTy).Contents (Elt F) → (⟨S16x224, .i1⟩ : BufTy).Contents (Elt F)) t_main_v228 t_main_v256
  t_main_v257

/-- main_c_160 after stretch w6_s6, from the contents before it. -/
def phi_w6_s6_main_c_160  : (⟨S_, .i32⟩ : BufTy).Contents (Elt F) :=
  let t_main_c_160 : (⟨S_, .i32⟩ : BufTy).Contents (Elt F) := (constantI S_ 32 164#32)
  t_main_c_160

end Cert.PromptBridge

end
-- ==== Proof.PromptBridgeL6.lean ====
import proofs.«144763_j39642548142243_2_alg».proof.Proof.PromptBridgePhi6

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

theorem keepK_w6_s0_main_arg10 (WK : ValK F) :
    after Cert.KernelIdeal.Gen.main_part6_ops0 WK (Proc.devRef .tc Cert.KernelIdeal.main_arg10) = WK (Proc.devRef .tc Cert.KernelIdeal.main_arg10) := by
  keep_step Cert.KernelIdeal.Gen.main_part6_ops0
theorem keepR_w6_s0_main_arg10 (WR : ValR F) :
    after Cert.ReferenceIdeal.Hand.w6_s0 WR (Proc.devRef .tc Cert.ReferenceIdeal.main_arg10) = WR (Proc.devRef .tc Cert.ReferenceIdeal.main_arg10) := by
  keep_step Cert.ReferenceIdeal.Hand.w6_s0
theorem keepK_w6_s0_main_arg11 (WK : ValK F) :
    after Cert.KernelIdeal.Gen.main_part6_ops0 WK (Proc.devRef .tc Cert.KernelIdeal.main_arg11) = WK (Proc.devRef .tc Cert.KernelIdeal.main_arg11) := by
  keep_step Cert.KernelIdeal.Gen.main_part6_ops0
theorem keepR_w6_s0_main_arg11 (WR : ValR F) :
    after Cert.ReferenceIdeal.Hand.w6_s0 WR (Proc.devRef .tc Cert.ReferenceIdeal.main_arg11) = WR (Proc.devRef .tc Cert.ReferenceIdeal.main_arg11) := by
  keep_step Cert.ReferenceIdeal.Hand.w6_s0
theorem keepK_w6_s0_main_v104 (WK : ValK F) :
    after Cert.KernelIdeal.Gen.main_part6_ops0 WK (Proc.devRef .tc Cert.KernelIdeal.main_v104) = WK (Proc.devRef .tc Cert.KernelIdeal.main_v104) := by
  keep_step Cert.KernelIdeal.Gen.main_part6_ops0
theorem keepR_w6_s0_main_v104 (WR : ValR F) :
    after Cert.ReferenceIdeal.Hand.w6_s0 WR (Proc.devRef .tc Cert.ReferenceIdeal.main_v104) = WR (Proc.devRef .tc Cert.ReferenceIdeal.main_v104) := by
  keep_step Cert.ReferenceIdeal.Hand.w6_s0
theorem keepK_w6_s0_main_v125 (WK : ValK F) :
    after Cert.KernelIdeal.Gen.main_part6_ops0 WK (Proc.devRef .tc Cert.KernelIdeal.main_v125) = WK (Proc.devRef .tc Cert.KernelIdeal.main_v125) := by
  keep_step Cert.KernelIdeal.Gen.main_part6_ops0
theorem keepR_w6_s0_main_v125 (WR : ValR F) :
    after Cert.ReferenceIdeal.Hand.w6_s0 WR (Proc.devRef .tc Cert.ReferenceIdeal.main_v125) = WR (Proc.devRef .tc Cert.ReferenceIdeal.main_v125) := by
  keep_step Cert.ReferenceIdeal.Hand.w6_s0
theorem keepK_w6_s0_main_v146 (WK : ValK F) :
    after Cert.KernelIdeal.Gen.main_part6_ops0 WK (Proc.devRef .tc Cert.KernelIdeal.main_v146) = WK (Proc.devRef .tc Cert.KernelIdeal.main_v146) := by
  keep_step Cert.KernelIdeal.Gen.main_part6_ops0
theorem keepR_w6_s0_main_v146 (WR : ValR F) :
    after Cert.ReferenceIdeal.Hand.w6_s0 WR (Proc.devRef .tc Cert.ReferenceIdeal.main_v146) = WR (Proc.devRef .tc Cert.ReferenceIdeal.main_v146) := by
  keep_step Cert.ReferenceIdeal.Hand.w6_s0
theorem keepK_w6_s0_main_v167 (WK : ValK F) :
    after Cert.KernelIdeal.Gen.main_part6_ops0 WK (Proc.devRef .tc Cert.KernelIdeal.main_v167) = WK (Proc.devRef .tc Cert.KernelIdeal.main_v167) := by
  keep_step Cert.KernelIdeal.Gen.main_part6_ops0
theorem keepR_w6_s0_main_v167 (WR : ValR F) :
    after Cert.ReferenceIdeal.Hand.w6_s0 WR (Proc.devRef .tc Cert.ReferenceIdeal.main_v167) = WR (Proc.devRef .tc Cert.ReferenceIdeal.main_v167) := by
  keep_step Cert.ReferenceIdeal.Hand.w6_s0
theorem keepK_w6_s0_main_v169 (WK : ValK F) :
    after Cert.KernelIdeal.Gen.main_part6_ops0 WK (Proc.devRef .tc Cert.KernelIdeal.main_v169) = WK (Proc.devRef .tc Cert.KernelIdeal.main_v169) := by
  keep_step Cert.KernelIdeal.Gen.main_part6_ops0
theorem keepR_w6_s0_main_v169 (WR : ValR F) :
    after Cert.ReferenceIdeal.Hand.w6_s0 WR (Proc.devRef .tc Cert.ReferenceIdeal.main_v169) = WR (Proc.devRef .tc Cert.ReferenceIdeal.main_v169) := by
  keep_step Cert.ReferenceIdeal.Hand.w6_s0
theorem keepK_w6_s0_main_v171 (WK : ValK F) :
    after Cert.KernelIdeal.Gen.main_part6_ops0 WK (Proc.devRef .tc Cert.KernelIdeal.main_v171) = WK (Proc.devRef .tc Cert.KernelIdeal.main_v171) := by
  keep_step Cert.KernelIdeal.Gen.main_part6_ops0
theorem keepR_w6_s0_main_v171 (WR : ValR F) :
    after Cert.ReferenceIdeal.Hand.w6_s0 WR (Proc.devRef .tc Cert.ReferenceIdeal.main_v171) = WR (Proc.devRef .tc Cert.ReferenceIdeal.main_v171) := by
  keep_step Cert.ReferenceIdeal.Hand.w6_s0
theorem keepK_w6_s0_main_v172 (WK : ValK F) :
    after Cert.KernelIdeal.Gen.main_part6_ops0 WK (Proc.devRef .tc Cert.KernelIdeal.main_v172) = WK (Proc.devRef .tc Cert.KernelIdeal.main_v172) := by
  keep_step Cert.KernelIdeal.Gen.main_part6_ops0
theorem keepR_w6_s0_main_v172 (WR : ValR F) :
    after Cert.ReferenceIdeal.Hand.w6_s0 WR (Proc.devRef .tc Cert.ReferenceIdeal.main_v172) = WR (Proc.devRef .tc Cert.ReferenceIdeal.main_v172) := by
  keep_step Cert.ReferenceIdeal.Hand.w6_s0
theorem keepK_w6_s0_main_v176 (WK : ValK F) :
    after Cert.KernelIdeal.Gen.main_part6_ops0 WK (Proc.devRef .tc Cert.KernelIdeal.main_v176) = WK (Proc.devRef .tc Cert.KernelIdeal.main_v176) := by
  keep_step Cert.KernelIdeal.Gen.main_part6_ops0
theorem keepR_w6_s0_main_v176 (WR : ValR F) :
    after Cert.ReferenceIdeal.Hand.w6_s0 WR (Proc.devRef .tc Cert.ReferenceIdeal.main_v176) = WR (Proc.devRef .tc Cert.ReferenceIdeal.main_v176) := by
  keep_step Cert.ReferenceIdeal.Hand.w6_s0
theorem keepK_w6_s0_main_v178 (WK : ValK F) :
    after Cert.KernelIdeal.Gen.main_part6_ops0 WK (Proc.devRef .tc Cert.KernelIdeal.main_v178) = WK (Proc.devRef .tc Cert.KernelIdeal.main_v178) := by
  keep_step Cert.KernelIdeal.Gen.main_part6_ops0
theorem keepR_w6_s0_main_v178 (WR : ValR F) :
    after Cert.ReferenceIdeal.Hand.w6_s0 WR (Proc.devRef .tc Cert.ReferenceIdeal.main_v178) = WR (Proc.devRef .tc Cert.ReferenceIdeal.main_v178) := by
  keep_step Cert.ReferenceIdeal.Hand.w6_s0
theorem keepK_w6_s0_main_v179 (WK : ValK F) :
    after Cert.KernelIdeal.Gen.main_part6_ops0 WK (Proc.devRef .tc Cert.KernelIdeal.main_v179) = WK (Proc.devRef .tc Cert.KernelIdeal.main_v179) := by
  keep_step Cert.KernelIdeal.Gen.main_part6_ops0
theorem keepR_w6_s0_main_v179 (WR : ValR F) :
    after Cert.ReferenceIdeal.Hand.w6_s0 WR (Proc.devRef .tc Cert.ReferenceIdeal.main_v179) = WR (Proc.devRef .tc Cert.ReferenceIdeal.main_v179) := by
  keep_step Cert.ReferenceIdeal.Hand.w6_s0
theorem keepK_w6_s0_main_v180 (WK : ValK F) :
    after Cert.KernelIdeal.Gen.main_part6_ops0 WK (Proc.devRef .tc Cert.KernelIdeal.main_v180) = WK (Proc.devRef .tc Cert.KernelIdeal.main_v180) := by
  keep_step Cert.KernelIdeal.Gen.main_part6_ops0
theorem keepR_w6_s0_main_v180 (WR : ValR F) :
    after Cert.ReferenceIdeal.Hand.w6_s0 WR (Proc.devRef .tc Cert.ReferenceIdeal.main_v180) = WR (Proc.devRef .tc Cert.ReferenceIdeal.main_v180) := by
  keep_step Cert.ReferenceIdeal.Hand.w6_s0
theorem keepK_w6_s0_main_v181 (WK : ValK F) :
    after Cert.KernelIdeal.Gen.main_part6_ops0 WK (Proc.devRef .tc Cert.KernelIdeal.main_v181) = WK (Proc.devRef .tc Cert.KernelIdeal.main_v181) := by
  keep_step Cert.KernelIdeal.Gen.main_part6_ops0
theorem keepR_w6_s0_main_v181 (WR : ValR F) :
    after Cert.ReferenceIdeal.Hand.w6_s0 WR (Proc.devRef .tc Cert.ReferenceIdeal.main_v181) = WR (Proc.devRef .tc Cert.ReferenceIdeal.main_v181) := by
  keep_step Cert.ReferenceIdeal.Hand.w6_s0
theorem keepK_w6_s0_main_v198 (WK : ValK F) :
    after Cert.KernelIdeal.Gen.main_part6_ops0 WK (Proc.devRef .tc Cert.KernelIdeal.main_v198) = WK (Proc.devRef .tc Cert.KernelIdeal.main_v198) := by
  keep_step Cert.KernelIdeal.Gen.main_part6_ops0
theorem keepR_w6_s0_main_v198 (WR : ValR F) :
    after Cert.ReferenceIdeal.Hand.w6_s0 WR (Proc.devRef .tc Cert.ReferenceIdeal.main_v198) = WR (Proc.devRef .tc Cert.ReferenceIdeal.main_v198) := by
  keep_step Cert.ReferenceIdeal.Hand.w6_s0
theorem phiK_w6_s0_main_v213 (WK : ValK F) :
    @Eq ((⟨S16x224x1, .i1⟩ : BufTy).Contents (Elt F)) (after Cert.KernelIdeal.Gen.main_part6_ops0 WK (Proc.devRef .tc Cert.KernelIdeal.main_v213))
      (phi_w6_s0_main_v213 (WK (Proc.devRef .tc Cert.KernelIdeal.main_v177)) (WK (Proc.devRef .tc Cert.KernelIdeal.main_v205))) := by
  phi_step Cert.KernelIdeal.Gen.main_part6_ops0 phi_w6_s0_main_v213
theorem phiR_w6_s0_main_v213 (WR : ValR F) :
    @Eq ((⟨S16x224x1, .i1⟩ : BufTy).Contents (Elt F)) (after Cert.ReferenceIdeal.Hand.w6_s0 WR (Proc.devRef .tc Cert.ReferenceIdeal.main_v213))
      (phi_w6_s0_main_v213 (WR (Proc.devRef .tc Cert.ReferenceIdeal.main_v177)) (WR (Proc.devRef .tc Cert.ReferenceIdeal.main_v205))) := by
  phi_step Cert.ReferenceIdeal.Hand.w6_s0 phi_w6_s0_main_v213
theorem phiK_w6_s0_main_v214 (WK : ValK F) :
    @Eq ((⟨S16x3x1x224, .f32⟩ : BufTy).Contents (Elt F)) (after Cert.KernelIdeal.Gen.main_part6_ops0 WK (Proc.devRef .tc Cert.KernelIdeal.main_v214))
      (phi_w6_s0_main_v214 (WK (Proc.devRef .tc Cert.KernelIdeal.main_v62))) := by
  phi_step Cert.KernelIdeal.Gen.main_part6_ops0 phi_w6_s0_main_v214
theorem phiR_w6_s0_main_v214 (WR : ValR F) :
    @Eq ((⟨S16x3x1x224, .f32⟩ : BufTy).Contents (Elt F)) (after Cert.ReferenceIdeal.Hand.w6_s0 WR (Proc.devRef .tc Cert.ReferenceIdeal.main_v214))
      (phi_w6_s0_main_v214 (WR (Proc.devRef .tc Cert.ReferenceIdeal.main_v62))) := by
  phi_step Cert.ReferenceIdeal.Hand.w6_s0 phi_w6_s0_main_v214
theorem phiK_w6_s0_main_v221 (WK : ValK F) :
    @Eq ((⟨S16x3x224x224, .f32⟩ : BufTy).Contents (Elt F)) (after Cert.KernelIdeal.Gen.main_part6_ops0 WK (Proc.devRef .tc Cert.KernelIdeal.main_v221))
      (phi_w6_s0_main_v221 (WK (Proc.devRef .tc Cert.KernelIdeal.main_v83)) (WK (Proc.devRef .tc Cert.KernelIdeal.main_v209))) := by
  phi_step Cert.KernelIdeal.Gen.main_part6_ops0 phi_w6_s0_main_v221
theorem phiR_w6_s0_main_v221 (WR : ValR F) :
    @Eq ((⟨S16x3x224x224, .f32⟩ : BufTy).Contents (Elt F)) (after Cert.ReferenceIdeal.Hand.w6_s0 WR (Proc.devRef .tc Cert.ReferenceIdeal.main_v221))
      (phi_w6_s0_main_v221 (WR (Proc.devRef .tc Cert.ReferenceIdeal.main_v83)) (WR (Proc.devRef .tc Cert.ReferenceIdeal.main_v209))) := by
  phi_step Cert.ReferenceIdeal.Hand.w6_s0 phi_w6_s0_main_v221

theorem sim_w6_s0 (WK : ValK F) (WR : ValR F) (h : Inv23 WK WR) :
    Inv24 (after Cert.KernelIdeal.Gen.main_part6_ops0 WK) (after Cert.ReferenceIdeal.Hand.w6_s0 WR) := by
  sim_step h Inv23 Inv24 [keepK_w6_s0_main_arg10, keepR_w6_s0_main_arg10, keepK_w6_s0_main_arg11, keepR_w6_s0_main_arg11, keepK_w6_s0_main_v104, keepR_w6_s0_main_v104, keepK_w6_s0_main_v125, keepR_w6_s0_main_v125, keepK_w6_s0_main_v146, keepR_w6_s0_main_v146, keepK_w6_s0_main_v167, keepR_w6_s0_main_v167, keepK_w6_s0_main_v169, keepR_w6_s0_main_v169, keepK_w6_s0_main_v171, keepR_w6_s0_main_v171, keepK_w6_s0_main_v172, keepR_w6_s0_main_v172, keepK_w6_s0_main_v176, keepR_w6_s0_main_v176, keepK_w6_s0_main_v178, keepR_w6_s0_main_v178, keepK_w6_s0_main_v179, keepR_w6_s0_main_v179, keepK_w6_s0_main_v180, keepR_w6_s0_main_v180, keepK_w6_s0_main_v181, keepR_w6_s0_main_v181, keepK_w6_s0_main_v198, keepR_w6_s0_main_v198, phiK_w6_s0_main_v213, phiR_w6_s0_main_v213, phiK_w6_s0_main_v214, phiR_w6_s0_main_v214, phiK_w6_s0_main_v221, phiR_w6_s0_main_v221]

theorem keepK_w6_s1_main_arg10 (WK : ValK F) :
    after Cert.KernelIdeal.Gen.main_part6_ops1 WK (Proc.devRef .tc Cert.KernelIdeal.main_arg10) = WK (Proc.devRef .tc Cert.KernelIdeal.main_arg10) := by
  keep_step Cert.KernelIdeal.Gen.main_part6_ops1
theorem keepR_w6_s1_main_arg10 (WR : ValR F) :
    after Cert.ReferenceIdeal.Hand.w6_s1 WR (Proc.devRef .tc Cert.ReferenceIdeal.main_arg10) = WR (Proc.devRef .tc Cert.ReferenceIdeal.main_arg10) := by
  keep_step Cert.ReferenceIdeal.Hand.w6_s1
theorem keepK_w6_s1_main_arg11 (WK : ValK F) :
    after Cert.KernelIdeal.Gen.main_part6_ops1 WK (Proc.devRef .tc Cert.KernelIdeal.main_arg11) = WK (Proc.devRef .tc Cert.KernelIdeal.main_arg11) := by
  keep_step Cert.KernelIdeal.Gen.main_part6_ops1
theorem keepR_w6_s1_main_arg11 (WR : ValR F) :
    after Cert.ReferenceIdeal.Hand.w6_s1 WR (Proc.devRef .tc Cert.ReferenceIdeal.main_arg11) = WR (Proc.devRef .tc Cert.ReferenceIdeal.main_arg11) := by
  keep_step Cert.ReferenceIdeal.Hand.w6_s1
theorem keepK_w6_s1_main_v104 (WK : ValK F) :
    after Cert.KernelIdeal.Gen.main_part6_ops1 WK (Proc.devRef .tc Cert.KernelIdeal.main_v104) = WK (Proc.devRef .tc Cert.KernelIdeal.main_v104) := by
  keep_step Cert.KernelIdeal.Gen.main_part6_ops1
theorem keepR_w6_s1_main_v104 (WR : ValR F) :
    after Cert.ReferenceIdeal.Hand.w6_s1 WR (Proc.devRef .tc Cert.ReferenceIdeal.main_v104) = WR (Proc.devRef .tc Cert.ReferenceIdeal.main_v104) := by
  keep_step Cert.ReferenceIdeal.Hand.w6_s1
theorem keepK_w6_s1_main_v125 (WK : ValK F) :
    after Cert.KernelIdeal.Gen.main_part6_ops1 WK (Proc.devRef .tc Cert.KernelIdeal.main_v125) = WK (Proc.devRef .tc Cert.KernelIdeal.main_v125) := by
  keep_step Cert.KernelIdeal.Gen.main_part6_ops1
theorem keepR_w6_s1_main_v125 (WR : ValR F) :
    after Cert.ReferenceIdeal.Hand.w6_s1 WR (Proc.devRef .tc Cert.ReferenceIdeal.main_v125) = WR (Proc.devRef .tc Cert.ReferenceIdeal.main_v125) := by
  keep_step Cert.ReferenceIdeal.Hand.w6_s1
theorem keepK_w6_s1_main_v146 (WK : ValK F) :
    after Cert.KernelIdeal.Gen.main_part6_ops1 WK (Proc.devRef .tc Cert.KernelIdeal.main_v146) = WK (Proc.devRef .tc Cert.KernelIdeal.main_v146) := by
  keep_step Cert.KernelIdeal.Gen.main_part6_ops1
theorem keepR_w6_s1_main_v146 (WR : ValR F) :
    after Cert.ReferenceIdeal.Hand.w6_s1 WR (Proc.devRef .tc Cert.ReferenceIdeal.main_v146) = WR (Proc.devRef .tc Cert.ReferenceIdeal.main_v146) := by
  keep_step Cert.ReferenceIdeal.Hand.w6_s1
theorem keepK_w6_s1_main_v167 (WK : ValK F) :
    after Cert.KernelIdeal.Gen.main_part6_ops1 WK (Proc.devRef .tc Cert.KernelIdeal.main_v167) = WK (Proc.devRef .tc Cert.KernelIdeal.main_v167) := by
  keep_step Cert.KernelIdeal.Gen.main_part6_ops1
theorem keepR_w6_s1_main_v167 (WR : ValR F) :
    after Cert.ReferenceIdeal.Hand.w6_s1 WR (Proc.devRef .tc Cert.ReferenceIdeal.main_v167) = WR (Proc.devRef .tc Cert.ReferenceIdeal.main_v167) := by
  keep_step Cert.ReferenceIdeal.Hand.w6_s1
theorem keepK_w6_s1_main_v169 (WK : ValK F) :
    after Cert.KernelIdeal.Gen.main_part6_ops1 WK (Proc.devRef .tc Cert.KernelIdeal.main_v169) = WK (Proc.devRef .tc Cert.KernelIdeal.main_v169) := by
  keep_step Cert.KernelIdeal.Gen.main_part6_ops1
theorem keepR_w6_s1_main_v169 (WR : ValR F) :
    after Cert.ReferenceIdeal.Hand.w6_s1 WR (Proc.devRef .tc Cert.ReferenceIdeal.main_v169) = WR (Proc.devRef .tc Cert.ReferenceIdeal.main_v169) := by
  keep_step Cert.ReferenceIdeal.Hand.w6_s1
theorem keepK_w6_s1_main_v171 (WK : ValK F) :
    after Cert.KernelIdeal.Gen.main_part6_ops1 WK (Proc.devRef .tc Cert.KernelIdeal.main_v171) = WK (Proc.devRef .tc Cert.KernelIdeal.main_v171) := by
  keep_step Cert.KernelIdeal.Gen.main_part6_ops1
theorem keepR_w6_s1_main_v171 (WR : ValR F) :
    after Cert.ReferenceIdeal.Hand.w6_s1 WR (Proc.devRef .tc Cert.ReferenceIdeal.main_v171) = WR (Proc.devRef .tc Cert.ReferenceIdeal.main_v171) := by
  keep_step Cert.ReferenceIdeal.Hand.w6_s1
theorem keepK_w6_s1_main_v172 (WK : ValK F) :
    after Cert.KernelIdeal.Gen.main_part6_ops1 WK (Proc.devRef .tc Cert.KernelIdeal.main_v172) = WK (Proc.devRef .tc Cert.KernelIdeal.main_v172) := by
  keep_step Cert.KernelIdeal.Gen.main_part6_ops1
theorem keepR_w6_s1_main_v172 (WR : ValR F) :
    after Cert.ReferenceIdeal.Hand.w6_s1 WR (Proc.devRef .tc Cert.ReferenceIdeal.main_v172) = WR (Proc.devRef .tc Cert.ReferenceIdeal.main_v172) := by
  keep_step Cert.ReferenceIdeal.Hand.w6_s1
theorem keepK_w6_s1_main_v176 (WK : ValK F) :
    after Cert.KernelIdeal.Gen.main_part6_ops1 WK (Proc.devRef .tc Cert.KernelIdeal.main_v176) = WK (Proc.devRef .tc Cert.KernelIdeal.main_v176) := by
  keep_step Cert.KernelIdeal.Gen.main_part6_ops1
theorem keepR_w6_s1_main_v176 (WR : ValR F) :
    after Cert.ReferenceIdeal.Hand.w6_s1 WR (Proc.devRef .tc Cert.ReferenceIdeal.main_v176) = WR (Proc.devRef .tc Cert.ReferenceIdeal.main_v176) := by
  keep_step Cert.ReferenceIdeal.Hand.w6_s1
theorem keepK_w6_s1_main_v178 (WK : ValK F) :
    after Cert.KernelIdeal.Gen.main_part6_ops1 WK (Proc.devRef .tc Cert.KernelIdeal.main_v178) = WK (Proc.devRef .tc Cert.KernelIdeal.main_v178) := by
  keep_step Cert.KernelIdeal.Gen.main_part6_ops1
theorem keepR_w6_s1_main_v178 (WR : ValR F) :
    after Cert.ReferenceIdeal.Hand.w6_s1 WR (Proc.devRef .tc Cert.ReferenceIdeal.main_v178) = WR (Proc.devRef .tc Cert.ReferenceIdeal.main_v178) := by
  keep_step Cert.ReferenceIdeal.Hand.w6_s1
theorem keepK_w6_s1_main_v179 (WK : ValK F) :
    after Cert.KernelIdeal.Gen.main_part6_ops1 WK (Proc.devRef .tc Cert.KernelIdeal.main_v179) = WK (Proc.devRef .tc Cert.KernelIdeal.main_v179) := by
  keep_step Cert.KernelIdeal.Gen.main_part6_ops1
theorem keepR_w6_s1_main_v179 (WR : ValR F) :
    after Cert.ReferenceIdeal.Hand.w6_s1 WR (Proc.devRef .tc Cert.ReferenceIdeal.main_v179) = WR (Proc.devRef .tc Cert.ReferenceIdeal.main_v179) := by
  keep_step Cert.ReferenceIdeal.Hand.w6_s1
theorem keepK_w6_s1_main_v180 (WK : ValK F) :
    after Cert.KernelIdeal.Gen.main_part6_ops1 WK (Proc.devRef .tc Cert.KernelIdeal.main_v180) = WK (Proc.devRef .tc Cert.KernelIdeal.main_v180) := by
  keep_step Cert.KernelIdeal.Gen.main_part6_ops1
theorem keepR_w6_s1_main_v180 (WR : ValR F) :
    after Cert.ReferenceIdeal.Hand.w6_s1 WR (Proc.devRef .tc Cert.ReferenceIdeal.main_v180) = WR (Proc.devRef .tc Cert.ReferenceIdeal.main_v180) := by
  keep_step Cert.ReferenceIdeal.Hand.w6_s1
theorem keepK_w6_s1_main_v181 (WK : ValK F) :
    after Cert.KernelIdeal.Gen.main_part6_ops1 WK (Proc.devRef .tc Cert.KernelIdeal.main_v181) = WK (Proc.devRef .tc Cert.KernelIdeal.main_v181) := by
  keep_step Cert.KernelIdeal.Gen.main_part6_ops1
theorem keepR_w6_s1_main_v181 (WR : ValR F) :
    after Cert.ReferenceIdeal.Hand.w6_s1 WR (Proc.devRef .tc Cert.ReferenceIdeal.main_v181) = WR (Proc.devRef .tc Cert.ReferenceIdeal.main_v181) := by
  keep_step Cert.ReferenceIdeal.Hand.w6_s1
theorem keepK_w6_s1_main_v198 (WK : ValK F) :
    after Cert.KernelIdeal.Gen.main_part6_ops1 WK (Proc.devRef .tc Cert.KernelIdeal.main_v198) = WK (Proc.devRef .tc Cert.KernelIdeal.main_v198) := by
  keep_step Cert.KernelIdeal.Gen.main_part6_ops1
theorem keepR_w6_s1_main_v198 (WR : ValR F) :
    after Cert.ReferenceIdeal.Hand.w6_s1 WR (Proc.devRef .tc Cert.ReferenceIdeal.main_v198) = WR (Proc.devRef .tc Cert.ReferenceIdeal.main_v198) := by
  keep_step Cert.ReferenceIdeal.Hand.w6_s1
theorem phiK_w6_s1_main_v222 (WK : ValK F) :
    @Eq ((⟨S16x3x224x224, .f32⟩ : BufTy).Contents (Elt F)) (after Cert.KernelIdeal.Gen.main_part6_ops1 WK (Proc.devRef .tc Cert.KernelIdeal.main_v222))
      (phi_w6_s1_main_v222 (WK (Proc.devRef .tc Cert.KernelIdeal.main_v213)) (WK (Proc.devRef .tc Cert.KernelIdeal.main_v214)) (WK (Proc.devRef .tc Cert.KernelIdeal.main_v221))) := by
  phi_step Cert.KernelIdeal.Gen.main_part6_ops1 phi_w6_s1_main_v222
theorem phiR_w6_s1_main_v222 (WR : ValR F) :
    @Eq ((⟨S16x3x224x224, .f32⟩ : BufTy).Contents (Elt F)) (after Cert.ReferenceIdeal.Hand.w6_s1 WR (Proc.devRef .tc Cert.ReferenceIdeal.main_v222))
      (phi_w6_s1_main_v222 (WR (Proc.devRef .tc Cert.ReferenceIdeal.main_v213)) (WR (Proc.devRef .tc Cert.ReferenceIdeal.main_v214)) (WR (Proc.devRef .tc Cert.ReferenceIdeal.main_v221))) := by
  phi_step Cert.ReferenceIdeal.Hand.w6_s1 phi_w6_s1_main_v222

theorem sim_w6_s1 (WK : ValK F) (WR : ValR F) (h : Inv24 WK WR) :
    Inv25 (after Cert.KernelIdeal.Gen.main_part6_ops1 WK) (after Cert.ReferenceIdeal.Hand.w6_s1 WR) := by
  sim_step h Inv24 Inv25 [keepK_w6_s1_main_arg10, keepR_w6_s1_main_arg10, keepK_w6_s1_main_arg11, keepR_w6_s1_main_arg11, keepK_w6_s1_main_v104, keepR_w6_s1_main_v104, keepK_w6_s1_main_v125, keepR_w6_s1_main_v125, keepK_w6_s1_main_v146, keepR_w6_s1_main_v146, keepK_w6_s1_main_v167, keepR_w6_s1_main_v167, keepK_w6_s1_main_v169, keepR_w6_s1_main_v169, keepK_w6_s1_main_v171, keepR_w6_s1_main_v171, keepK_w6_s1_main_v172, keepR_w6_s1_main_v172, keepK_w6_s1_main_v176, keepR_w6_s1_main_v176, keepK_w6_s1_main_v178, keepR_w6_s1_main_v178, keepK_w6_s1_main_v179, keepR_w6_s1_main_v179, keepK_w6_s1_main_v180, keepR_w6_s1_main_v180, keepK_w6_s1_main_v181, keepR_w6_s1_main_v181, keepK_w6_s1_main_v198, keepR_w6_s1_main_v198, phiK_w6_s1_main_v222, phiR_w6_s1_main_v222]

theorem keepK_w6_s2_main_arg10 (WK : ValK F) :
    after Cert.KernelIdeal.Gen.main_part6_ops2 WK (Proc.devRef .tc Cert.KernelIdeal.main_arg10) = WK (Proc.devRef .tc Cert.KernelIdeal.main_arg10) := by
  keep_step Cert.KernelIdeal.Gen.main_part6_ops2
theorem keepR_w6_s2_main_arg10 (WR : ValR F) :
    after Cert.ReferenceIdeal.Hand.w6_s2 WR (Proc.devRef .tc Cert.ReferenceIdeal.main_arg10) = WR (Proc.devRef .tc Cert.ReferenceIdeal.main_arg10) := by
  keep_step Cert.ReferenceIdeal.Hand.w6_s2
theorem keepK_w6_s2_main_arg11 (WK : ValK F) :
    after Cert.KernelIdeal.Gen.main_part6_ops2 WK (Proc.devRef .tc Cert.KernelIdeal.main_arg11) = WK (Proc.devRef .tc Cert.KernelIdeal.main_arg11) := by
  keep_step Cert.KernelIdeal.Gen.main_part6_ops2
theorem keepR_w6_s2_main_arg11 (WR : ValR F) :
    after Cert.ReferenceIdeal.Hand.w6_s2 WR (Proc.devRef .tc Cert.ReferenceIdeal.main_arg11) = WR (Proc.devRef .tc Cert.ReferenceIdeal.main_arg11) := by
  keep_step Cert.ReferenceIdeal.Hand.w6_s2
theorem keepK_w6_s2_main_v104 (WK : ValK F) :
    after Cert.KernelIdeal.Gen.main_part6_ops2 WK (Proc.devRef .tc Cert.KernelIdeal.main_v104) = WK (Proc.devRef .tc Cert.KernelIdeal.main_v104) := by
  keep_step Cert.KernelIdeal.Gen.main_part6_ops2
theorem keepR_w6_s2_main_v104 (WR : ValR F) :
    after Cert.ReferenceIdeal.Hand.w6_s2 WR (Proc.devRef .tc Cert.ReferenceIdeal.main_v104) = WR (Proc.devRef .tc Cert.ReferenceIdeal.main_v104) := by
  keep_step Cert.ReferenceIdeal.Hand.w6_s2
theorem keepK_w6_s2_main_v125 (WK : ValK F) :
    after Cert.KernelIdeal.Gen.main_part6_ops2 WK (Proc.devRef .tc Cert.KernelIdeal.main_v125) = WK (Proc.devRef .tc Cert.KernelIdeal.main_v125) := by
  keep_step Cert.KernelIdeal.Gen.main_part6_ops2
theorem keepR_w6_s2_main_v125 (WR : ValR F) :
    after Cert.ReferenceIdeal.Hand.w6_s2 WR (Proc.devRef .tc Cert.ReferenceIdeal.main_v125) = WR (Proc.devRef .tc Cert.ReferenceIdeal.main_v125) := by
  keep_step Cert.ReferenceIdeal.Hand.w6_s2
theorem keepK_w6_s2_main_v146 (WK : ValK F) :
    after Cert.KernelIdeal.Gen.main_part6_ops2 WK (Proc.devRef .tc Cert.KernelIdeal.main_v146) = WK (Proc.devRef .tc Cert.KernelIdeal.main_v146) := by
  keep_step Cert.KernelIdeal.Gen.main_part6_ops2
theorem keepR_w6_s2_main_v146 (WR : ValR F) :
    after Cert.ReferenceIdeal.Hand.w6_s2 WR (Proc.devRef .tc Cert.ReferenceIdeal.main_v146) = WR (Proc.devRef .tc Cert.ReferenceIdeal.main_v146) := by
  keep_step Cert.ReferenceIdeal.Hand.w6_s2
theorem keepK_w6_s2_main_v167 (WK : ValK F) :
    after Cert.KernelIdeal.Gen.main_part6_ops2 WK (Proc.devRef .tc Cert.KernelIdeal.main_v167) = WK (Proc.devRef .tc Cert.KernelIdeal.main_v167) := by
  keep_step Cert.KernelIdeal.Gen.main_part6_ops2
theorem keepR_w6_s2_main_v167 (WR : ValR F) :
    after Cert.ReferenceIdeal.Hand.w6_s2 WR (Proc.devRef .tc Cert.ReferenceIdeal.main_v167) = WR (Proc.devRef .tc Cert.ReferenceIdeal.main_v167) := by
  keep_step Cert.ReferenceIdeal.Hand.w6_s2
theorem keepK_w6_s2_main_v169 (WK : ValK F) :
    after Cert.KernelIdeal.Gen.main_part6_ops2 WK (Proc.devRef .tc Cert.KernelIdeal.main_v169) = WK (Proc.devRef .tc Cert.KernelIdeal.main_v169) := by
  keep_step Cert.KernelIdeal.Gen.main_part6_ops2
theorem keepR_w6_s2_main_v169 (WR : ValR F) :
    after Cert.ReferenceIdeal.Hand.w6_s2 WR (Proc.devRef .tc Cert.ReferenceIdeal.main_v169) = WR (Proc.devRef .tc Cert.ReferenceIdeal.main_v169) := by
  keep_step Cert.ReferenceIdeal.Hand.w6_s2
theorem keepK_w6_s2_main_v171 (WK : ValK F) :
    after Cert.KernelIdeal.Gen.main_part6_ops2 WK (Proc.devRef .tc Cert.KernelIdeal.main_v171) = WK (Proc.devRef .tc Cert.KernelIdeal.main_v171) := by
  keep_step Cert.KernelIdeal.Gen.main_part6_ops2
theorem keepR_w6_s2_main_v171 (WR : ValR F) :
    after Cert.ReferenceIdeal.Hand.w6_s2 WR (Proc.devRef .tc Cert.ReferenceIdeal.main_v171) = WR (Proc.devRef .tc Cert.ReferenceIdeal.main_v171) := by
  keep_step Cert.ReferenceIdeal.Hand.w6_s2
theorem keepK_w6_s2_main_v172 (WK : ValK F) :
    after Cert.KernelIdeal.Gen.main_part6_ops2 WK (Proc.devRef .tc Cert.KernelIdeal.main_v172) = WK (Proc.devRef .tc Cert.KernelIdeal.main_v172) := by
  keep_step Cert.KernelIdeal.Gen.main_part6_ops2
theorem keepR_w6_s2_main_v172 (WR : ValR F) :
    after Cert.ReferenceIdeal.Hand.w6_s2 WR (Proc.devRef .tc Cert.ReferenceIdeal.main_v172) = WR (Proc.devRef .tc Cert.ReferenceIdeal.main_v172) := by
  keep_step Cert.ReferenceIdeal.Hand.w6_s2
theorem keepK_w6_s2_main_v176 (WK : ValK F) :
    after Cert.KernelIdeal.Gen.main_part6_ops2 WK (Proc.devRef .tc Cert.KernelIdeal.main_v176) = WK (Proc.devRef .tc Cert.KernelIdeal.main_v176) := by
  keep_step Cert.KernelIdeal.Gen.main_part6_ops2
theorem keepR_w6_s2_main_v176 (WR : ValR F) :
    after Cert.ReferenceIdeal.Hand.w6_s2 WR (Proc.devRef .tc Cert.ReferenceIdeal.main_v176) = WR (Proc.devRef .tc Cert.ReferenceIdeal.main_v176) := by
  keep_step Cert.ReferenceIdeal.Hand.w6_s2
theorem keepK_w6_s2_main_v179 (WK : ValK F) :
    after Cert.KernelIdeal.Gen.main_part6_ops2 WK (Proc.devRef .tc Cert.KernelIdeal.main_v179) = WK (Proc.devRef .tc Cert.KernelIdeal.main_v179) := by
  keep_step Cert.KernelIdeal.Gen.main_part6_ops2
theorem keepR_w6_s2_main_v179 (WR : ValR F) :
    after Cert.ReferenceIdeal.Hand.w6_s2 WR (Proc.devRef .tc Cert.ReferenceIdeal.main_v179) = WR (Proc.devRef .tc Cert.ReferenceIdeal.main_v179) := by
  keep_step Cert.ReferenceIdeal.Hand.w6_s2
theorem keepK_w6_s2_main_v180 (WK : ValK F) :
    after Cert.KernelIdeal.Gen.main_part6_ops2 WK (Proc.devRef .tc Cert.KernelIdeal.main_v180) = WK (Proc.devRef .tc Cert.KernelIdeal.main_v180) := by
  keep_step Cert.KernelIdeal.Gen.main_part6_ops2
theorem keepR_w6_s2_main_v180 (WR : ValR F) :
    after Cert.ReferenceIdeal.Hand.w6_s2 WR (Proc.devRef .tc Cert.ReferenceIdeal.main_v180) = WR (Proc.devRef .tc Cert.ReferenceIdeal.main_v180) := by
  keep_step Cert.ReferenceIdeal.Hand.w6_s2
theorem keepK_w6_s2_main_v181 (WK : ValK F) :
    after Cert.KernelIdeal.Gen.main_part6_ops2 WK (Proc.devRef .tc Cert.KernelIdeal.main_v181) = WK (Proc.devRef .tc Cert.KernelIdeal.main_v181) := by
  keep_step Cert.KernelIdeal.Gen.main_part6_ops2
theorem keepR_w6_s2_main_v181 (WR : ValR F) :
    after Cert.ReferenceIdeal.Hand.w6_s2 WR (Proc.devRef .tc Cert.ReferenceIdeal.main_v181) = WR (Proc.devRef .tc Cert.ReferenceIdeal.main_v181) := by
  keep_step Cert.ReferenceIdeal.Hand.w6_s2
theorem keepK_w6_s2_main_v198 (WK : ValK F) :
    after Cert.KernelIdeal.Gen.main_part6_ops2 WK (Proc.devRef .tc Cert.KernelIdeal.main_v198) = WK (Proc.devRef .tc Cert.KernelIdeal.main_v198) := by
  keep_step Cert.KernelIdeal.Gen.main_part6_ops2
theorem keepR_w6_s2_main_v198 (WR : ValR F) :
    after Cert.ReferenceIdeal.Hand.w6_s2 WR (Proc.devRef .tc Cert.ReferenceIdeal.main_v198) = WR (Proc.devRef .tc Cert.ReferenceIdeal.main_v198) := by
  keep_step Cert.ReferenceIdeal.Hand.w6_s2
theorem keepK_w6_s2_main_v222 (WK : ValK F) :
    after Cert.KernelIdeal.Gen.main_part6_ops2 WK (Proc.devRef .tc Cert.KernelIdeal.main_v222) = WK (Proc.devRef .tc Cert.KernelIdeal.main_v222) := by
  keep_step Cert.KernelIdeal.Gen.main_part6_ops2
theorem keepR_w6_s2_main_v222 (WR : ValR F) :
    after Cert.ReferenceIdeal.Hand.w6_s2 WR (Proc.devRef .tc Cert.ReferenceIdeal.main_v222) = WR (Proc.devRef .tc Cert.ReferenceIdeal.main_v222) := by
  keep_step Cert.ReferenceIdeal.Hand.w6_s2
theorem phiK_w6_s2_main_v227 (WK : ValK F) :
    @Eq ((⟨S16x224, .i32⟩ : BufTy).Contents (Elt F)) (after Cert.KernelIdeal.Gen.main_part6_ops2 WK (Proc.devRef .tc Cert.KernelIdeal.main_v227))
      (phi_w6_s2_main_v227 (WK (Proc.devRef .tc Cert.KernelIdeal.main_v171)) (WK (Proc.devRef .tc Cert.KernelIdeal.main_v178))) := by
  phi_step Cert.KernelIdeal.Gen.main_part6_ops2 phi_w6_s2_main_v227
theorem phiR_w6_s2_main_v227 (WR : ValR F) :
    @Eq ((⟨S16x224, .i32⟩ : BufTy).Contents (Elt F)) (after Cert.ReferenceIdeal.Hand.w6_s2 WR (Proc.devRef .tc Cert.ReferenceIdeal.main_v227))
      (phi_w6_s2_main_v227 (WR (Proc.devRef .tc Cert.ReferenceIdeal.main_v171)) (WR (Proc.devRef .tc Cert.ReferenceIdeal.main_v178))) := by
  phi_step Cert.ReferenceIdeal.Hand.w6_s2 phi_w6_s2_main_v227
theorem phiK_w6_s2_main_c_151 (WK : ValK F) :
    @Eq ((⟨S_, .i32⟩ : BufTy).Contents (Elt F)) (after Cert.KernelIdeal.Gen.main_part6_ops2 WK (Proc.devRef .tc Cert.KernelIdeal.main_c_151))
      (phi_w6_s2_main_c_151) := by
  phi_step Cert.KernelIdeal.Gen.main_part6_ops2 phi_w6_s2_main_c_151
theorem phiR_w6_s2_main_c_151 (WR : ValR F) :
    @Eq ((⟨S_, .i32⟩ : BufTy).Contents (Elt F)) (after Cert.ReferenceIdeal.Hand.w6_s2 WR (Proc.devRef .tc Cert.ReferenceIdeal.main_c_151))
      (phi_w6_s2_main_c_151) := by
  phi_step Cert.ReferenceIdeal.Hand.w6_s2 phi_w6_s2_main_c_151
theorem phiK_w6_s2_main_c_152 (WK : ValK F) :
    @Eq ((⟨S_, .i32⟩ : BufTy).Contents (Elt F)) (after Cert.KernelIdeal.Gen.main_part6_ops2 WK (Proc.devRef .tc Cert.KernelIdeal.main_c_152))
      (phi_w6_s2_main_c_152) := by
  phi_step Cert.KernelIdeal.Gen.main_part6_ops2 phi_w6_s2_main_c_152
theorem phiR_w6_s2_main_c_152 (WR : ValR F) :
    @Eq ((⟨S_, .i32⟩ : BufTy).Contents (Elt F)) (after Cert.ReferenceIdeal.Hand.w6_s2 WR (Proc.devRef .tc Cert.ReferenceIdeal.main_c_152))
      (phi_w6_s2_main_c_152) := by
  phi_step Cert.ReferenceIdeal.Hand.w6_s2 phi_w6_s2_main_c_152

theorem sim_w6_s2 (WK : ValK F) (WR : ValR F) (h : Inv25 WK WR) :
    Inv26 (after Cert.KernelIdeal.Gen.main_part6_ops2 WK) (after Cert.ReferenceIdeal.Hand.w6_s2 WR) := by
  sim_step h Inv25 Inv26 [keepK_w6_s2_main_arg10, keepR_w6_s2_main_arg10, keepK_w6_s2_main_arg11, keepR_w6_s2_main_arg11, keepK_w6_s2_main_v104, keepR_w6_s2_main_v104, keepK_w6_s2_main_v125, keepR_w6_s2_main_v125, keepK_w6_s2_main_v146, keepR_w6_s2_main_v146, keepK_w6_s2_main_v167, keepR_w6_s2_main_v167, keepK_w6_s2_main_v169, keepR_w6_s2_main_v169, keepK_w6_s2_main_v171, keepR_w6_s2_main_v171, keepK_w6_s2_main_v172, keepR_w6_s2_main_v172, keepK_w6_s2_main_v176, keepR_w6_s2_main_v176, keepK_w6_s2_main_v179, keepR_w6_s2_main_v179, keepK_w6_s2_main_v180, keepR_w6_s2_main_v180, keepK_w6_s2_main_v181, keepR_w6_s2_main_v181, keepK_w6_s2_main_v198, keepR_w6_s2_main_v198, keepK_w6_s2_main_v222, keepR_w6_s2_main_v222, phiK_w6_s2_main_v227, phiR_w6_s2_main_v227, phiK_w6_s2_main_c_151, phiR_w6_s2_main_c_151, phiK_w6_s2_main_c_152, phiR_w6_s2_main_c_152]

theorem keepK_w6_s3_main_arg10 (WK : ValK F) :
    after Cert.KernelIdeal.Gen.main_part6_ops3 WK (Proc.devRef .tc Cert.KernelIdeal.main_arg10) = WK (Proc.devRef .tc Cert.KernelIdeal.main_arg10) := by
  keep_step Cert.KernelIdeal.Gen.main_part6_ops3
theorem keepR_w6_s3_main_arg10 (WR : ValR F) :
    after Cert.ReferenceIdeal.Hand.w6_s3 WR (Proc.devRef .tc Cert.ReferenceIdeal.main_arg10) = WR (Proc.devRef .tc Cert.ReferenceIdeal.main_arg10) := by
  keep_step Cert.ReferenceIdeal.Hand.w6_s3
theorem keepK_w6_s3_main_arg11 (WK : ValK F) :
    after Cert.KernelIdeal.Gen.main_part6_ops3 WK (Proc.devRef .tc Cert.KernelIdeal.main_arg11) = WK (Proc.devRef .tc Cert.KernelIdeal.main_arg11) := by
  keep_step Cert.KernelIdeal.Gen.main_part6_ops3
theorem keepR_w6_s3_main_arg11 (WR : ValR F) :
    after Cert.ReferenceIdeal.Hand.w6_s3 WR (Proc.devRef .tc Cert.ReferenceIdeal.main_arg11) = WR (Proc.devRef .tc Cert.ReferenceIdeal.main_arg11) := by
  keep_step Cert.ReferenceIdeal.Hand.w6_s3
theorem keepK_w6_s3_main_v104 (WK : ValK F) :
    after Cert.KernelIdeal.Gen.main_part6_ops3 WK (Proc.devRef .tc Cert.KernelIdeal.main_v104) = WK (Proc.devRef .tc Cert.KernelIdeal.main_v104) := by
  keep_step Cert.KernelIdeal.Gen.main_part6_ops3
theorem keepR_w6_s3_main_v104 (WR : ValR F) :
    after Cert.ReferenceIdeal.Hand.w6_s3 WR (Proc.devRef .tc Cert.ReferenceIdeal.main_v104) = WR (Proc.devRef .tc Cert.ReferenceIdeal.main_v104) := by
  keep_step Cert.ReferenceIdeal.Hand.w6_s3
theorem keepK_w6_s3_main_v125 (WK : ValK F) :
    after Cert.KernelIdeal.Gen.main_part6_ops3 WK (Proc.devRef .tc Cert.KernelIdeal.main_v125) = WK (Proc.devRef .tc Cert.KernelIdeal.main_v125) := by
  keep_step Cert.KernelIdeal.Gen.main_part6_ops3
theorem keepR_w6_s3_main_v125 (WR : ValR F) :
    after Cert.ReferenceIdeal.Hand.w6_s3 WR (Proc.devRef .tc Cert.ReferenceIdeal.main_v125) = WR (Proc.devRef .tc Cert.ReferenceIdeal.main_v125) := by
  keep_step Cert.ReferenceIdeal.Hand.w6_s3
theorem keepK_w6_s3_main_v146 (WK : ValK F) :
    after Cert.KernelIdeal.Gen.main_part6_ops3 WK (Proc.devRef .tc Cert.KernelIdeal.main_v146) = WK (Proc.devRef .tc Cert.KernelIdeal.main_v146) := by
  keep_step Cert.KernelIdeal.Gen.main_part6_ops3
theorem keepR_w6_s3_main_v146 (WR : ValR F) :
    after Cert.ReferenceIdeal.Hand.w6_s3 WR (Proc.devRef .tc Cert.ReferenceIdeal.main_v146) = WR (Proc.devRef .tc Cert.ReferenceIdeal.main_v146) := by
  keep_step Cert.ReferenceIdeal.Hand.w6_s3
theorem keepK_w6_s3_main_v167 (WK : ValK F) :
    after Cert.KernelIdeal.Gen.main_part6_ops3 WK (Proc.devRef .tc Cert.KernelIdeal.main_v167) = WK (Proc.devRef .tc Cert.KernelIdeal.main_v167) := by
  keep_step Cert.KernelIdeal.Gen.main_part6_ops3
theorem keepR_w6_s3_main_v167 (WR : ValR F) :
    after Cert.ReferenceIdeal.Hand.w6_s3 WR (Proc.devRef .tc Cert.ReferenceIdeal.main_v167) = WR (Proc.devRef .tc Cert.ReferenceIdeal.main_v167) := by
  keep_step Cert.ReferenceIdeal.Hand.w6_s3
theorem keepK_w6_s3_main_v169 (WK : ValK F) :
    after Cert.KernelIdeal.Gen.main_part6_ops3 WK (Proc.devRef .tc Cert.KernelIdeal.main_v169) = WK (Proc.devRef .tc Cert.KernelIdeal.main_v169) := by
  keep_step Cert.KernelIdeal.Gen.main_part6_ops3
theorem keepR_w6_s3_main_v169 (WR : ValR F) :
    after Cert.ReferenceIdeal.Hand.w6_s3 WR (Proc.devRef .tc Cert.ReferenceIdeal.main_v169) = WR (Proc.devRef .tc Cert.ReferenceIdeal.main_v169) := by
  keep_step Cert.ReferenceIdeal.Hand.w6_s3
theorem keepK_w6_s3_main_v171 (WK : ValK F) :
    after Cert.KernelIdeal.Gen.main_part6_ops3 WK (Proc.devRef .tc Cert.KernelIdeal.main_v171) = WK (Proc.devRef .tc Cert.KernelIdeal.main_v171) := by
  keep_step Cert.KernelIdeal.Gen.main_part6_ops3
theorem keepR_w6_s3_main_v171 (WR : ValR F) :
    after Cert.ReferenceIdeal.Hand.w6_s3 WR (Proc.devRef .tc Cert.ReferenceIdeal.main_v171) = WR (Proc.devRef .tc Cert.ReferenceIdeal.main_v171) := by
  keep_step Cert.ReferenceIdeal.Hand.w6_s3
theorem keepK_w6_s3_main_v172 (WK : ValK F) :
    after Cert.KernelIdeal.Gen.main_part6_ops3 WK (Proc.devRef .tc Cert.KernelIdeal.main_v172) = WK (Proc.devRef .tc Cert.KernelIdeal.main_v172) := by
  keep_step Cert.KernelIdeal.Gen.main_part6_ops3
theorem keepR_w6_s3_main_v172 (WR : ValR F) :
    after Cert.ReferenceIdeal.Hand.w6_s3 WR (Proc.devRef .tc Cert.ReferenceIdeal.main_v172) = WR (Proc.devRef .tc Cert.ReferenceIdeal.main_v172) := by
  keep_step Cert.ReferenceIdeal.Hand.w6_s3
theorem keepK_w6_s3_main_v176 (WK : ValK F) :
    after Cert.KernelIdeal.Gen.main_part6_ops3 WK (Proc.devRef .tc Cert.KernelIdeal.main_v176) = WK (Proc.devRef .tc Cert.KernelIdeal.main_v176) := by
  keep_step Cert.KernelIdeal.Gen.main_part6_ops3
theorem keepR_w6_s3_main_v176 (WR : ValR F) :
    after Cert.ReferenceIdeal.Hand.w6_s3 WR (Proc.devRef .tc Cert.ReferenceIdeal.main_v176) = WR (Proc.devRef .tc Cert.ReferenceIdeal.main_v176) := by
  keep_step Cert.ReferenceIdeal.Hand.w6_s3
theorem keepK_w6_s3_main_v179 (WK : ValK F) :
    after Cert.KernelIdeal.Gen.main_part6_ops3 WK (Proc.devRef .tc Cert.KernelIdeal.main_v179) = WK (Proc.devRef .tc Cert.KernelIdeal.main_v179) := by
  keep_step Cert.KernelIdeal.Gen.main_part6_ops3
theorem keepR_w6_s3_main_v179 (WR : ValR F) :
    after Cert.ReferenceIdeal.Hand.w6_s3 WR (Proc.devRef .tc Cert.ReferenceIdeal.main_v179) = WR (Proc.devRef .tc Cert.ReferenceIdeal.main_v179) := by
  keep_step Cert.ReferenceIdeal.Hand.w6_s3
theorem keepK_w6_s3_main_v180 (WK : ValK F) :
    after Cert.KernelIdeal.Gen.main_part6_ops3 WK (Proc.devRef .tc Cert.KernelIdeal.main_v180) = WK (Proc.devRef .tc Cert.KernelIdeal.main_v180) := by
  keep_step Cert.KernelIdeal.Gen.main_part6_ops3
theorem keepR_w6_s3_main_v180 (WR : ValR F) :
    after Cert.ReferenceIdeal.Hand.w6_s3 WR (Proc.devRef .tc Cert.ReferenceIdeal.main_v180) = WR (Proc.devRef .tc Cert.ReferenceIdeal.main_v180) := by
  keep_step Cert.ReferenceIdeal.Hand.w6_s3
theorem keepK_w6_s3_main_v181 (WK : ValK F) :
    after Cert.KernelIdeal.Gen.main_part6_ops3 WK (Proc.devRef .tc Cert.KernelIdeal.main_v181) = WK (Proc.devRef .tc Cert.KernelIdeal.main_v181) := by
  keep_step Cert.KernelIdeal.Gen.main_part6_ops3
theorem keepR_w6_s3_main_v181 (WR : ValR F) :
    after Cert.ReferenceIdeal.Hand.w6_s3 WR (Proc.devRef .tc Cert.ReferenceIdeal.main_v181) = WR (Proc.devRef .tc Cert.ReferenceIdeal.main_v181) := by
  keep_step Cert.ReferenceIdeal.Hand.w6_s3
theorem keepK_w6_s3_main_v198 (WK : ValK F) :
    after Cert.KernelIdeal.Gen.main_part6_ops3 WK (Proc.devRef .tc Cert.KernelIdeal.main_v198) = WK (Proc.devRef .tc Cert.KernelIdeal.main_v198) := by
  keep_step Cert.KernelIdeal.Gen.main_part6_ops3
theorem keepR_w6_s3_main_v198 (WR : ValR F) :
    after Cert.ReferenceIdeal.Hand.w6_s3 WR (Proc.devRef .tc Cert.ReferenceIdeal.main_v198) = WR (Proc.devRef .tc Cert.ReferenceIdeal.main_v198) := by
  keep_step Cert.ReferenceIdeal.Hand.w6_s3
theorem keepK_w6_s3_main_v222 (WK : ValK F) :
    after Cert.KernelIdeal.Gen.main_part6_ops3 WK (Proc.devRef .tc Cert.KernelIdeal.main_v222) = WK (Proc.devRef .tc Cert.KernelIdeal.main_v222) := by
  keep_step Cert.KernelIdeal.Gen.main_part6_ops3
theorem keepR_w6_s3_main_v222 (WR : ValR F) :
    after Cert.ReferenceIdeal.Hand.w6_s3 WR (Proc.devRef .tc Cert.ReferenceIdeal.main_v222) = WR (Proc.devRef .tc Cert.ReferenceIdeal.main_v222) := by
  keep_step Cert.ReferenceIdeal.Hand.w6_s3
theorem phiK_w6_s3_main_v228 (WK : ValK F) :
    @Eq ((⟨S16x224, .i32⟩ : BufTy).Contents (Elt F)) (after Cert.KernelIdeal.Gen.main_part6_ops3 WK (Proc.devRef .tc Cert.KernelIdeal.main_v228))
      (phi_w6_s3_main_v228 (WK (Proc.devRef .tc Cert.KernelIdeal.main_v227)) (WK (Proc.devRef .tc Cert.KernelIdeal.main_c_151)) (WK (Proc.devRef .tc Cert.KernelIdeal.main_c_152))) := by
  phi_step Cert.KernelIdeal.Gen.main_part6_ops3 phi_w6_s3_main_v228
theorem phiR_w6_s3_main_v228 (WR : ValR F) :
    @Eq ((⟨S16x224, .i32⟩ : BufTy).Contents (Elt F)) (after Cert.ReferenceIdeal.Hand.w6_s3 WR (Proc.devRef .tc Cert.ReferenceIdeal.main_v228))
      (phi_w6_s3_main_v228 (WR (Proc.devRef .tc Cert.ReferenceIdeal.main_v227)) (WR (Proc.devRef .tc Cert.ReferenceIdeal.main_c_151)) (WR (Proc.devRef .tc Cert.ReferenceIdeal.main_c_152))) := by
  phi_step Cert.ReferenceIdeal.Hand.w6_s3 phi_w6_s3_main_v228

theorem sim_w6_s3 (WK : ValK F) (WR : ValR F) (h : Inv26 WK WR) :
    Inv27 (after Cert.KernelIdeal.Gen.main_part6_ops3 WK) (after Cert.ReferenceIdeal.Hand.w6_s3 WR) := by
  sim_step h Inv26 Inv27 [keepK_w6_s3_main_arg10, keepR_w6_s3_main_arg10, keepK_w6_s3_main_arg11, keepR_w6_s3_main_arg11, keepK_w6_s3_main_v104, keepR_w6_s3_main_v104, keepK_w6_s3_main_v125, keepR_w6_s3_main_v125, keepK_w6_s3_main_v146, keepR_w6_s3_main_v146, keepK_w6_s3_main_v167, keepR_w6_s3_main_v167, keepK_w6_s3_main_v169, keepR_w6_s3_main_v169, keepK_w6_s3_main_v171, keepR_w6_s3_main_v171, keepK_w6_s3_main_v172, keepR_w6_s3_main_v172, keepK_w6_s3_main_v176, keepR_w6_s3_main_v176, keepK_w6_s3_main_v179, keepR_w6_s3_main_v179, keepK_w6_s3_main_v180, keepR_w6_s3_main_v180, keepK_w6_s3_main_v181, keepR_w6_s3_main_v181, keepK_w6_s3_main_v198, keepR_w6_s3_main_v198, keepK_w6_s3_main_v222, keepR_w6_s3_main_v222, phiK_w6_s3_main_v228, phiR_w6_s3_main_v228]

theorem keepK_w6_s4_main_arg10 (WK : ValK F) :
    after Cert.KernelIdeal.Gen.main_part6_ops4 WK (Proc.devRef .tc Cert.KernelIdeal.main_arg10) = WK (Proc.devRef .tc Cert.KernelIdeal.main_arg10) := by
  keep_step Cert.KernelIdeal.Gen.main_part6_ops4
theorem keepR_w6_s4_main_arg10 (WR : ValR F) :
    after Cert.ReferenceIdeal.Hand.w6_s4 WR (Proc.devRef .tc Cert.ReferenceIdeal.main_arg10) = WR (Proc.devRef .tc Cert.ReferenceIdeal.main_arg10) := by
  keep_step Cert.ReferenceIdeal.Hand.w6_s4
theorem keepK_w6_s4_main_arg11 (WK : ValK F) :
    after Cert.KernelIdeal.Gen.main_part6_ops4 WK (Proc.devRef .tc Cert.KernelIdeal.main_arg11) = WK (Proc.devRef .tc Cert.KernelIdeal.main_arg11) := by
  keep_step Cert.KernelIdeal.Gen.main_part6_ops4
theorem keepR_w6_s4_main_arg11 (WR : ValR F) :
    after Cert.ReferenceIdeal.Hand.w6_s4 WR (Proc.devRef .tc Cert.ReferenceIdeal.main_arg11) = WR (Proc.devRef .tc Cert.ReferenceIdeal.main_arg11) := by
  keep_step Cert.ReferenceIdeal.Hand.w6_s4
theorem keepK_w6_s4_main_v104 (WK : ValK F) :
    after Cert.KernelIdeal.Gen.main_part6_ops4 WK (Proc.devRef .tc Cert.KernelIdeal.main_v104) = WK (Proc.devRef .tc Cert.KernelIdeal.main_v104) := by
  keep_step Cert.KernelIdeal.Gen.main_part6_ops4
theorem keepR_w6_s4_main_v104 (WR : ValR F) :
    after Cert.ReferenceIdeal.Hand.w6_s4 WR (Proc.devRef .tc Cert.ReferenceIdeal.main_v104) = WR (Proc.devRef .tc Cert.ReferenceIdeal.main_v104) := by
  keep_step Cert.ReferenceIdeal.Hand.w6_s4
theorem keepK_w6_s4_main_v125 (WK : ValK F) :
    after Cert.KernelIdeal.Gen.main_part6_ops4 WK (Proc.devRef .tc Cert.KernelIdeal.main_v125) = WK (Proc.devRef .tc Cert.KernelIdeal.main_v125) := by
  keep_step Cert.KernelIdeal.Gen.main_part6_ops4
theorem keepR_w6_s4_main_v125 (WR : ValR F) :
    after Cert.ReferenceIdeal.Hand.w6_s4 WR (Proc.devRef .tc Cert.ReferenceIdeal.main_v125) = WR (Proc.devRef .tc Cert.ReferenceIdeal.main_v125) := by
  keep_step Cert.ReferenceIdeal.Hand.w6_s4
theorem keepK_w6_s4_main_v146 (WK : ValK F) :
    after Cert.KernelIdeal.Gen.main_part6_ops4 WK (Proc.devRef .tc Cert.KernelIdeal.main_v146) = WK (Proc.devRef .tc Cert.KernelIdeal.main_v146) := by
  keep_step Cert.KernelIdeal.Gen.main_part6_ops4
theorem keepR_w6_s4_main_v146 (WR : ValR F) :
    after Cert.ReferenceIdeal.Hand.w6_s4 WR (Proc.devRef .tc Cert.ReferenceIdeal.main_v146) = WR (Proc.devRef .tc Cert.ReferenceIdeal.main_v146) := by
  keep_step Cert.ReferenceIdeal.Hand.w6_s4
theorem keepK_w6_s4_main_v167 (WK : ValK F) :
    after Cert.KernelIdeal.Gen.main_part6_ops4 WK (Proc.devRef .tc Cert.KernelIdeal.main_v167) = WK (Proc.devRef .tc Cert.KernelIdeal.main_v167) := by
  keep_step Cert.KernelIdeal.Gen.main_part6_ops4
theorem keepR_w6_s4_main_v167 (WR : ValR F) :
    after Cert.ReferenceIdeal.Hand.w6_s4 WR (Proc.devRef .tc Cert.ReferenceIdeal.main_v167) = WR (Proc.devRef .tc Cert.ReferenceIdeal.main_v167) := by
  keep_step Cert.ReferenceIdeal.Hand.w6_s4
theorem keepK_w6_s4_main_v169 (WK : ValK F) :
    after Cert.KernelIdeal.Gen.main_part6_ops4 WK (Proc.devRef .tc Cert.KernelIdeal.main_v169) = WK (Proc.devRef .tc Cert.KernelIdeal.main_v169) := by
  keep_step Cert.KernelIdeal.Gen.main_part6_ops4
theorem keepR_w6_s4_main_v169 (WR : ValR F) :
    after Cert.ReferenceIdeal.Hand.w6_s4 WR (Proc.devRef .tc Cert.ReferenceIdeal.main_v169) = WR (Proc.devRef .tc Cert.ReferenceIdeal.main_v169) := by
  keep_step Cert.ReferenceIdeal.Hand.w6_s4
theorem keepK_w6_s4_main_v171 (WK : ValK F) :
    after Cert.KernelIdeal.Gen.main_part6_ops4 WK (Proc.devRef .tc Cert.KernelIdeal.main_v171) = WK (Proc.devRef .tc Cert.KernelIdeal.main_v171) := by
  keep_step Cert.KernelIdeal.Gen.main_part6_ops4
theorem keepR_w6_s4_main_v171 (WR : ValR F) :
    after Cert.ReferenceIdeal.Hand.w6_s4 WR (Proc.devRef .tc Cert.ReferenceIdeal.main_v171) = WR (Proc.devRef .tc Cert.ReferenceIdeal.main_v171) := by
  keep_step Cert.ReferenceIdeal.Hand.w6_s4
theorem keepK_w6_s4_main_v176 (WK : ValK F) :
    after Cert.KernelIdeal.Gen.main_part6_ops4 WK (Proc.devRef .tc Cert.KernelIdeal.main_v176) = WK (Proc.devRef .tc Cert.KernelIdeal.main_v176) := by
  keep_step Cert.KernelIdeal.Gen.main_part6_ops4
theorem keepR_w6_s4_main_v176 (WR : ValR F) :
    after Cert.ReferenceIdeal.Hand.w6_s4 WR (Proc.devRef .tc Cert.ReferenceIdeal.main_v176) = WR (Proc.devRef .tc Cert.ReferenceIdeal.main_v176) := by
  keep_step Cert.ReferenceIdeal.Hand.w6_s4
theorem keepK_w6_s4_main_v179 (WK : ValK F) :
    after Cert.KernelIdeal.Gen.main_part6_ops4 WK (Proc.devRef .tc Cert.KernelIdeal.main_v179) = WK (Proc.devRef .tc Cert.KernelIdeal.main_v179) := by
  keep_step Cert.KernelIdeal.Gen.main_part6_ops4
theorem keepR_w6_s4_main_v179 (WR : ValR F) :
    after Cert.ReferenceIdeal.Hand.w6_s4 WR (Proc.devRef .tc Cert.ReferenceIdeal.main_v179) = WR (Proc.devRef .tc Cert.ReferenceIdeal.main_v179) := by
  keep_step Cert.ReferenceIdeal.Hand.w6_s4
theorem keepK_w6_s4_main_v180 (WK : ValK F) :
    after Cert.KernelIdeal.Gen.main_part6_ops4 WK (Proc.devRef .tc Cert.KernelIdeal.main_v180) = WK (Proc.devRef .tc Cert.KernelIdeal.main_v180) := by
  keep_step Cert.KernelIdeal.Gen.main_part6_ops4
theorem keepR_w6_s4_main_v180 (WR : ValR F) :
    after Cert.ReferenceIdeal.Hand.w6_s4 WR (Proc.devRef .tc Cert.ReferenceIdeal.main_v180) = WR (Proc.devRef .tc Cert.ReferenceIdeal.main_v180) := by
  keep_step Cert.ReferenceIdeal.Hand.w6_s4
theorem keepK_w6_s4_main_v181 (WK : ValK F) :
    after Cert.KernelIdeal.Gen.main_part6_ops4 WK (Proc.devRef .tc Cert.KernelIdeal.main_v181) = WK (Proc.devRef .tc Cert.KernelIdeal.main_v181) := by
  keep_step Cert.KernelIdeal.Gen.main_part6_ops4
theorem keepR_w6_s4_main_v181 (WR : ValR F) :
    after Cert.ReferenceIdeal.Hand.w6_s4 WR (Proc.devRef .tc Cert.ReferenceIdeal.main_v181) = WR (Proc.devRef .tc Cert.ReferenceIdeal.main_v181) := by
  keep_step Cert.ReferenceIdeal.Hand.w6_s4
theorem keepK_w6_s4_main_v198 (WK : ValK F) :
    after Cert.KernelIdeal.Gen.main_part6_ops4 WK (Proc.devRef .tc Cert.KernelIdeal.main_v198) = WK (Proc.devRef .tc Cert.KernelIdeal.main_v198) := by
  keep_step Cert.KernelIdeal.Gen.main_part6_ops4
theorem keepR_w6_s4_main_v198 (WR : ValR F) :
    after Cert.ReferenceIdeal.Hand.w6_s4 WR (Proc.devRef .tc Cert.ReferenceIdeal.main_v198) = WR (Proc.devRef .tc Cert.ReferenceIdeal.main_v198) := by
  keep_step Cert.ReferenceIdeal.Hand.w6_s4
theorem keepK_w6_s4_main_v222 (WK : ValK F) :
    after Cert.KernelIdeal.Gen.main_part6_ops4 WK (Proc.devRef .tc Cert.KernelIdeal.main_v222) = WK (Proc.devRef .tc Cert.KernelIdeal.main_v222) := by
  keep_step Cert.KernelIdeal.Gen.main_part6_ops4
theorem keepR_w6_s4_main_v222 (WR : ValR F) :
    after Cert.ReferenceIdeal.Hand.w6_s4 WR (Proc.devRef .tc Cert.ReferenceIdeal.main_v222) = WR (Proc.devRef .tc Cert.ReferenceIdeal.main_v222) := by
  keep_step Cert.ReferenceIdeal.Hand.w6_s4
theorem keepK_w6_s4_main_v228 (WK : ValK F) :
    after Cert.KernelIdeal.Gen.main_part6_ops4 WK (Proc.devRef .tc Cert.KernelIdeal.main_v228) = WK (Proc.devRef .tc Cert.KernelIdeal.main_v228) := by
  keep_step Cert.KernelIdeal.Gen.main_part6_ops4
theorem keepR_w6_s4_main_v228 (WR : ValR F) :
    after Cert.ReferenceIdeal.Hand.w6_s4 WR (Proc.devRef .tc Cert.ReferenceIdeal.main_v228) = WR (Proc.devRef .tc Cert.ReferenceIdeal.main_v228) := by
  keep_step Cert.ReferenceIdeal.Hand.w6_s4
theorem phiK_w6_s4_main_v235 (WK : ValK F) :
    @Eq ((⟨S16x1x224, .i1⟩ : BufTy).Contents (Elt F)) (after Cert.KernelIdeal.Gen.main_part6_ops4 WK (Proc.devRef .tc Cert.KernelIdeal.main_v235))
      (phi_w6_s4_main_v235 (WK (Proc.devRef .tc Cert.KernelIdeal.main_v172)) (WK (Proc.devRef .tc Cert.KernelIdeal.main_v181))) := by
  phi_step Cert.KernelIdeal.Gen.main_part6_ops4 phi_w6_s4_main_v235
theorem phiR_w6_s4_main_v235 (WR : ValR F) :
    @Eq ((⟨S16x1x224, .i1⟩ : BufTy).Contents (Elt F)) (after Cert.ReferenceIdeal.Hand.w6_s4 WR (Proc.devRef .tc Cert.ReferenceIdeal.main_v235))
      (phi_w6_s4_main_v235 (WR (Proc.devRef .tc Cert.ReferenceIdeal.main_v172)) (WR (Proc.devRef .tc Cert.ReferenceIdeal.main_v181))) := by
  phi_step Cert.ReferenceIdeal.Hand.w6_s4 phi_w6_s4_main_v235
theorem phiK_w6_s4_main_v236 (WK : ValK F) :
    @Eq ((⟨S16x224x1, .i32⟩ : BufTy).Contents (Elt F)) (after Cert.KernelIdeal.Gen.main_part6_ops4 WK (Proc.devRef .tc Cert.KernelIdeal.main_v236))
      (phi_w6_s4_main_v236 (WK (Proc.devRef .tc Cert.KernelIdeal.main_v228))) := by
  phi_step Cert.KernelIdeal.Gen.main_part6_ops4 phi_w6_s4_main_v236
theorem phiR_w6_s4_main_v236 (WR : ValR F) :
    @Eq ((⟨S16x224x1, .i32⟩ : BufTy).Contents (Elt F)) (after Cert.ReferenceIdeal.Hand.w6_s4 WR (Proc.devRef .tc Cert.ReferenceIdeal.main_v236))
      (phi_w6_s4_main_v236 (WR (Proc.devRef .tc Cert.ReferenceIdeal.main_v228))) := by
  phi_step Cert.ReferenceIdeal.Hand.w6_s4 phi_w6_s4_main_v236
theorem phiK_w6_s4_main_c_154 (WK : ValK F) :
    @Eq ((⟨S_, .i32⟩ : BufTy).Contents (Elt F)) (after Cert.KernelIdeal.Gen.main_part6_ops4 WK (Proc.devRef .tc Cert.KernelIdeal.main_c_154))
      (phi_w6_s4_main_c_154) := by
  phi_step Cert.KernelIdeal.Gen.main_part6_ops4 phi_w6_s4_main_c_154
theorem phiR_w6_s4_main_c_154 (WR : ValR F) :
    @Eq ((⟨S_, .i32⟩ : BufTy).Contents (Elt F)) (after Cert.ReferenceIdeal.Hand.w6_s4 WR (Proc.devRef .tc Cert.ReferenceIdeal.main_c_154))
      (phi_w6_s4_main_c_154) := by
  phi_step Cert.ReferenceIdeal.Hand.w6_s4 phi_w6_s4_main_c_154

theorem sim_w6_s4 (WK : ValK F) (WR : ValR F) (h : Inv27 WK WR) :
    Inv28 (after Cert.KernelIdeal.Gen.main_part6_ops4 WK) (after Cert.ReferenceIdeal.Hand.w6_s4 WR) := by
  sim_step h Inv27 Inv28 [keepK_w6_s4_main_arg10, keepR_w6_s4_main_arg10, keepK_w6_s4_main_arg11, keepR_w6_s4_main_arg11, keepK_w6_s4_main_v104, keepR_w6_s4_main_v104, keepK_w6_s4_main_v125, keepR_w6_s4_main_v125, keepK_w6_s4_main_v146, keepR_w6_s4_main_v146, keepK_w6_s4_main_v167, keepR_w6_s4_main_v167, keepK_w6_s4_main_v169, keepR_w6_s4_main_v169, keepK_w6_s4_main_v171, keepR_w6_s4_main_v171, keepK_w6_s4_main_v176, keepR_w6_s4_main_v176, keepK_w6_s4_main_v179, keepR_w6_s4_main_v179, keepK_w6_s4_main_v180, keepR_w6_s4_main_v180, keepK_w6_s4_main_v181, keepR_w6_s4_main_v181, keepK_w6_s4_main_v198, keepR_w6_s4_main_v198, keepK_w6_s4_main_v222, keepR_w6_s4_main_v222, keepK_w6_s4_main_v228, keepR_w6_s4_main_v228, phiK_w6_s4_main_v235, phiR_w6_s4_main_v235, phiK_w6_s4_main_v236, phiR_w6_s4_main_v236, phiK_w6_s4_main_c_154, phiR_w6_s4_main_c_154]

theorem keepK_w6_s5_main_arg10 (WK : ValK F) :
    after Cert.KernelIdeal.Gen.main_part6_ops5 WK (Proc.devRef .tc Cert.KernelIdeal.main_arg10) = WK (Proc.devRef .tc Cert.KernelIdeal.main_arg10) := by
  keep_step Cert.KernelIdeal.Gen.main_part6_ops5
theorem keepR_w6_s5_main_arg10 (WR : ValR F) :
    after Cert.ReferenceIdeal.Hand.w6_s5 WR (Proc.devRef .tc Cert.ReferenceIdeal.main_arg10) = WR (Proc.devRef .tc Cert.ReferenceIdeal.main_arg10) := by
  keep_step Cert.ReferenceIdeal.Hand.w6_s5
theorem keepK_w6_s5_main_arg11 (WK : ValK F) :
    after Cert.KernelIdeal.Gen.main_part6_ops5 WK (Proc.devRef .tc Cert.KernelIdeal.main_arg11) = WK (Proc.devRef .tc Cert.KernelIdeal.main_arg11) := by
  keep_step Cert.KernelIdeal.Gen.main_part6_ops5
theorem keepR_w6_s5_main_arg11 (WR : ValR F) :
    after Cert.ReferenceIdeal.Hand.w6_s5 WR (Proc.devRef .tc Cert.ReferenceIdeal.main_arg11) = WR (Proc.devRef .tc Cert.ReferenceIdeal.main_arg11) := by
  keep_step Cert.ReferenceIdeal.Hand.w6_s5
theorem keepK_w6_s5_main_v104 (WK : ValK F) :
    after Cert.KernelIdeal.Gen.main_part6_ops5 WK (Proc.devRef .tc Cert.KernelIdeal.main_v104) = WK (Proc.devRef .tc Cert.KernelIdeal.main_v104) := by
  keep_step Cert.KernelIdeal.Gen.main_part6_ops5
theorem keepR_w6_s5_main_v104 (WR : ValR F) :
    after Cert.ReferenceIdeal.Hand.w6_s5 WR (Proc.devRef .tc Cert.ReferenceIdeal.main_v104) = WR (Proc.devRef .tc Cert.ReferenceIdeal.main_v104) := by
  keep_step Cert.ReferenceIdeal.Hand.w6_s5
theorem keepK_w6_s5_main_v125 (WK : ValK F) :
    after Cert.KernelIdeal.Gen.main_part6_ops5 WK (Proc.devRef .tc Cert.KernelIdeal.main_v125) = WK (Proc.devRef .tc Cert.KernelIdeal.main_v125) := by
  keep_step Cert.KernelIdeal.Gen.main_part6_ops5
theorem keepR_w6_s5_main_v125 (WR : ValR F) :
    after Cert.ReferenceIdeal.Hand.w6_s5 WR (Proc.devRef .tc Cert.ReferenceIdeal.main_v125) = WR (Proc.devRef .tc Cert.ReferenceIdeal.main_v125) := by
  keep_step Cert.ReferenceIdeal.Hand.w6_s5
theorem keepK_w6_s5_main_v146 (WK : ValK F) :
    after Cert.KernelIdeal.Gen.main_part6_ops5 WK (Proc.devRef .tc Cert.KernelIdeal.main_v146) = WK (Proc.devRef .tc Cert.KernelIdeal.main_v146) := by
  keep_step Cert.KernelIdeal.Gen.main_part6_ops5
theorem keepR_w6_s5_main_v146 (WR : ValR F) :
    after Cert.ReferenceIdeal.Hand.w6_s5 WR (Proc.devRef .tc Cert.ReferenceIdeal.main_v146) = WR (Proc.devRef .tc Cert.ReferenceIdeal.main_v146) := by
  keep_step Cert.ReferenceIdeal.Hand.w6_s5
theorem keepK_w6_s5_main_v167 (WK : ValK F) :
    after Cert.KernelIdeal.Gen.main_part6_ops5 WK (Proc.devRef .tc Cert.KernelIdeal.main_v167) = WK (Proc.devRef .tc Cert.KernelIdeal.main_v167) := by
  keep_step Cert.KernelIdeal.Gen.main_part6_ops5
theorem keepR_w6_s5_main_v167 (WR : ValR F) :
    after Cert.ReferenceIdeal.Hand.w6_s5 WR (Proc.devRef .tc Cert.ReferenceIdeal.main_v167) = WR (Proc.devRef .tc Cert.ReferenceIdeal.main_v167) := by
  keep_step Cert.ReferenceIdeal.Hand.w6_s5
theorem keepK_w6_s5_main_v169 (WK : ValK F) :
    after Cert.KernelIdeal.Gen.main_part6_ops5 WK (Proc.devRef .tc Cert.KernelIdeal.main_v169) = WK (Proc.devRef .tc Cert.KernelIdeal.main_v169) := by
  keep_step Cert.KernelIdeal.Gen.main_part6_ops5
theorem keepR_w6_s5_main_v169 (WR : ValR F) :
    after Cert.ReferenceIdeal.Hand.w6_s5 WR (Proc.devRef .tc Cert.ReferenceIdeal.main_v169) = WR (Proc.devRef .tc Cert.ReferenceIdeal.main_v169) := by
  keep_step Cert.ReferenceIdeal.Hand.w6_s5
theorem keepK_w6_s5_main_v171 (WK : ValK F) :
    after Cert.KernelIdeal.Gen.main_part6_ops5 WK (Proc.devRef .tc Cert.KernelIdeal.main_v171) = WK (Proc.devRef .tc Cert.KernelIdeal.main_v171) := by
  keep_step Cert.KernelIdeal.Gen.main_part6_ops5
theorem keepR_w6_s5_main_v171 (WR : ValR F) :
    after Cert.ReferenceIdeal.Hand.w6_s5 WR (Proc.devRef .tc Cert.ReferenceIdeal.main_v171) = WR (Proc.devRef .tc Cert.ReferenceIdeal.main_v171) := by
  keep_step Cert.ReferenceIdeal.Hand.w6_s5
theorem keepK_w6_s5_main_v176 (WK : ValK F) :
    after Cert.KernelIdeal.Gen.main_part6_ops5 WK (Proc.devRef .tc Cert.KernelIdeal.main_v176) = WK (Proc.devRef .tc Cert.KernelIdeal.main_v176) := by
  keep_step Cert.KernelIdeal.Gen.main_part6_ops5
theorem keepR_w6_s5_main_v176 (WR : ValR F) :
    after Cert.ReferenceIdeal.Hand.w6_s5 WR (Proc.devRef .tc Cert.ReferenceIdeal.main_v176) = WR (Proc.devRef .tc Cert.ReferenceIdeal.main_v176) := by
  keep_step Cert.ReferenceIdeal.Hand.w6_s5
theorem keepK_w6_s5_main_v179 (WK : ValK F) :
    after Cert.KernelIdeal.Gen.main_part6_ops5 WK (Proc.devRef .tc Cert.KernelIdeal.main_v179) = WK (Proc.devRef .tc Cert.KernelIdeal.main_v179) := by
  keep_step Cert.KernelIdeal.Gen.main_part6_ops5
theorem keepR_w6_s5_main_v179 (WR : ValR F) :
    after Cert.ReferenceIdeal.Hand.w6_s5 WR (Proc.devRef .tc Cert.ReferenceIdeal.main_v179) = WR (Proc.devRef .tc Cert.ReferenceIdeal.main_v179) := by
  keep_step Cert.ReferenceIdeal.Hand.w6_s5
theorem keepK_w6_s5_main_v180 (WK : ValK F) :
    after Cert.KernelIdeal.Gen.main_part6_ops5 WK (Proc.devRef .tc Cert.KernelIdeal.main_v180) = WK (Proc.devRef .tc Cert.KernelIdeal.main_v180) := by
  keep_step Cert.KernelIdeal.Gen.main_part6_ops5
theorem keepR_w6_s5_main_v180 (WR : ValR F) :
    after Cert.ReferenceIdeal.Hand.w6_s5 WR (Proc.devRef .tc Cert.ReferenceIdeal.main_v180) = WR (Proc.devRef .tc Cert.ReferenceIdeal.main_v180) := by
  keep_step Cert.ReferenceIdeal.Hand.w6_s5
theorem keepK_w6_s5_main_v181 (WK : ValK F) :
    after Cert.KernelIdeal.Gen.main_part6_ops5 WK (Proc.devRef .tc Cert.KernelIdeal.main_v181) = WK (Proc.devRef .tc Cert.KernelIdeal.main_v181) := by
  keep_step Cert.KernelIdeal.Gen.main_part6_ops5
theorem keepR_w6_s5_main_v181 (WR : ValR F) :
    after Cert.ReferenceIdeal.Hand.w6_s5 WR (Proc.devRef .tc Cert.ReferenceIdeal.main_v181) = WR (Proc.devRef .tc Cert.ReferenceIdeal.main_v181) := by
  keep_step Cert.ReferenceIdeal.Hand.w6_s5
theorem keepK_w6_s5_main_v198 (WK : ValK F) :
    after Cert.KernelIdeal.Gen.main_part6_ops5 WK (Proc.devRef .tc Cert.KernelIdeal.main_v198) = WK (Proc.devRef .tc Cert.KernelIdeal.main_v198) := by
  keep_step Cert.KernelIdeal.Gen.main_part6_ops5
theorem keepR_w6_s5_main_v198 (WR : ValR F) :
    after Cert.ReferenceIdeal.Hand.w6_s5 WR (Proc.devRef .tc Cert.ReferenceIdeal.main_v198) = WR (Proc.devRef .tc Cert.ReferenceIdeal.main_v198) := by
  keep_step Cert.ReferenceIdeal.Hand.w6_s5
theorem keepK_w6_s5_main_v222 (WK : ValK F) :
    after Cert.KernelIdeal.Gen.main_part6_ops5 WK (Proc.devRef .tc Cert.KernelIdeal.main_v222) = WK (Proc.devRef .tc Cert.KernelIdeal.main_v222) := by
  keep_step Cert.KernelIdeal.Gen.main_part6_ops5
theorem keepR_w6_s5_main_v222 (WR : ValR F) :
    after Cert.ReferenceIdeal.Hand.w6_s5 WR (Proc.devRef .tc Cert.ReferenceIdeal.main_v222) = WR (Proc.devRef .tc Cert.ReferenceIdeal.main_v222) := by
  keep_step Cert.ReferenceIdeal.Hand.w6_s5
theorem keepK_w6_s5_main_v228 (WK : ValK F) :
    after Cert.KernelIdeal.Gen.main_part6_ops5 WK (Proc.devRef .tc Cert.KernelIdeal.main_v228) = WK (Proc.devRef .tc Cert.KernelIdeal.main_v228) := by
  keep_step Cert.KernelIdeal.Gen.main_part6_ops5
theorem keepR_w6_s5_main_v228 (WR : ValR F) :
    after Cert.ReferenceIdeal.Hand.w6_s5 WR (Proc.devRef .tc Cert.ReferenceIdeal.main_v228) = WR (Proc.devRef .tc Cert.ReferenceIdeal.main_v228) := by
  keep_step Cert.ReferenceIdeal.Hand.w6_s5
theorem keepK_w6_s5_main_v235 (WK : ValK F) :
    after Cert.KernelIdeal.Gen.main_part6_ops5 WK (Proc.devRef .tc Cert.KernelIdeal.main_v235) = WK (Proc.devRef .tc Cert.KernelIdeal.main_v235) := by
  keep_step Cert.KernelIdeal.Gen.main_part6_ops5
theorem keepR_w6_s5_main_v235 (WR : ValR F) :
    after Cert.ReferenceIdeal.Hand.w6_s5 WR (Proc.devRef .tc Cert.ReferenceIdeal.main_v235) = WR (Proc.devRef .tc Cert.ReferenceIdeal.main_v235) := by
  keep_step Cert.ReferenceIdeal.Hand.w6_s5
theorem keepK_w6_s5_main_v236 (WK : ValK F) :
    after Cert.KernelIdeal.Gen.main_part6_ops5 WK (Proc.devRef .tc Cert.KernelIdeal.main_v236) = WK (Proc.devRef .tc Cert.KernelIdeal.main_v236) := by
  keep_step Cert.KernelIdeal.Gen.main_part6_ops5
theorem keepR_w6_s5_main_v236 (WR : ValR F) :
    after Cert.ReferenceIdeal.Hand.w6_s5 WR (Proc.devRef .tc Cert.ReferenceIdeal.main_v236) = WR (Proc.devRef .tc Cert.ReferenceIdeal.main_v236) := by
  keep_step Cert.ReferenceIdeal.Hand.w6_s5
theorem phiK_w6_s5_main_v237 (WK : ValK F) :
    @Eq ((⟨S224, .i32⟩ : BufTy).Contents (Elt F)) (after Cert.KernelIdeal.Gen.main_part6_ops5 WK (Proc.devRef .tc Cert.KernelIdeal.main_v237))
      (phi_w6_s5_main_v237 (WK (Proc.devRef .tc Cert.KernelIdeal.main_v179)) (WK (Proc.devRef .tc Cert.KernelIdeal.main_c_154))) := by
  phi_step Cert.KernelIdeal.Gen.main_part6_ops5 phi_w6_s5_main_v237
theorem phiR_w6_s5_main_v237 (WR : ValR F) :
    @Eq ((⟨S224, .i32⟩ : BufTy).Contents (Elt F)) (after Cert.ReferenceIdeal.Hand.w6_s5 WR (Proc.devRef .tc Cert.ReferenceIdeal.main_v237))
      (phi_w6_s5_main_v237 (WR (Proc.devRef .tc Cert.ReferenceIdeal.main_v179)) (WR (Proc.devRef .tc Cert.ReferenceIdeal.main_c_154))) := by
  phi_step Cert.ReferenceIdeal.Hand.w6_s5 phi_w6_s5_main_v237

theorem sim_w6_s5 (WK : ValK F) (WR : ValR F) (h : Inv28 WK WR) :
    Inv29 (after Cert.KernelIdeal.Gen.main_part6_ops5 WK) (after Cert.ReferenceIdeal.Hand.w6_s5 WR) := by
  sim_step h Inv28 Inv29 [keepK_w6_s5_main_arg10, keepR_w6_s5_main_arg10, keepK_w6_s5_main_arg11, keepR_w6_s5_main_arg11, keepK_w6_s5_main_v104, keepR_w6_s5_main_v104, keepK_w6_s5_main_v125, keepR_w6_s5_main_v125, keepK_w6_s5_main_v146, keepR_w6_s5_main_v146, keepK_w6_s5_main_v167, keepR_w6_s5_main_v167, keepK_w6_s5_main_v169, keepR_w6_s5_main_v169, keepK_w6_s5_main_v171, keepR_w6_s5_main_v171, keepK_w6_s5_main_v176, keepR_w6_s5_main_v176, keepK_w6_s5_main_v179, keepR_w6_s5_main_v179, keepK_w6_s5_main_v180, keepR_w6_s5_main_v180, keepK_w6_s5_main_v181, keepR_w6_s5_main_v181, keepK_w6_s5_main_v198, keepR_w6_s5_main_v198, keepK_w6_s5_main_v222, keepR_w6_s5_main_v222, keepK_w6_s5_main_v228, keepR_w6_s5_main_v228, keepK_w6_s5_main_v235, keepR_w6_s5_main_v235, keepK_w6_s5_main_v236, keepR_w6_s5_main_v236, phiK_w6_s5_main_v237, phiR_w6_s5_main_v237]

theorem keepK_w6_s6_main_arg10 (WK : ValK F) :
    after Cert.KernelIdeal.Gen.main_part6_ops6 WK (Proc.devRef .tc Cert.KernelIdeal.main_arg10) = WK (Proc.devRef .tc Cert.KernelIdeal.main_arg10) := by
  keep_step Cert.KernelIdeal.Gen.main_part6_ops6
theorem keepR_w6_s6_main_arg10 (WR : ValR F) :
    after Cert.ReferenceIdeal.Hand.w6_s6 WR (Proc.devRef .tc Cert.ReferenceIdeal.main_arg10) = WR (Proc.devRef .tc Cert.ReferenceIdeal.main_arg10) := by
  keep_step Cert.ReferenceIdeal.Hand.w6_s6
theorem keepK_w6_s6_main_arg11 (WK : ValK F) :
    after Cert.KernelIdeal.Gen.main_part6_ops6 WK (Proc.devRef .tc Cert.KernelIdeal.main_arg11) = WK (Proc.devRef .tc Cert.KernelIdeal.main_arg11) := by
  keep_step Cert.KernelIdeal.Gen.main_part6_ops6
theorem keepR_w6_s6_main_arg11 (WR : ValR F) :
    after Cert.ReferenceIdeal.Hand.w6_s6 WR (Proc.devRef .tc Cert.ReferenceIdeal.main_arg11) = WR (Proc.devRef .tc Cert.ReferenceIdeal.main_arg11) := by
  keep_step Cert.ReferenceIdeal.Hand.w6_s6
theorem keepK_w6_s6_main_v104 (WK : ValK F) :
    after Cert.KernelIdeal.Gen.main_part6_ops6 WK (Proc.devRef .tc Cert.KernelIdeal.main_v104) = WK (Proc.devRef .tc Cert.KernelIdeal.main_v104) := by
  keep_step Cert.KernelIdeal.Gen.main_part6_ops6
theorem keepR_w6_s6_main_v104 (WR : ValR F) :
    after Cert.ReferenceIdeal.Hand.w6_s6 WR (Proc.devRef .tc Cert.ReferenceIdeal.main_v104) = WR (Proc.devRef .tc Cert.ReferenceIdeal.main_v104) := by
  keep_step Cert.ReferenceIdeal.Hand.w6_s6
theorem keepK_w6_s6_main_v146 (WK : ValK F) :
    after Cert.KernelIdeal.Gen.main_part6_ops6 WK (Proc.devRef .tc Cert.KernelIdeal.main_v146) = WK (Proc.devRef .tc Cert.KernelIdeal.main_v146) := by
  keep_step Cert.KernelIdeal.Gen.main_part6_ops6
theorem keepR_w6_s6_main_v146 (WR : ValR F) :
    after Cert.ReferenceIdeal.Hand.w6_s6 WR (Proc.devRef .tc Cert.ReferenceIdeal.main_v146) = WR (Proc.devRef .tc Cert.ReferenceIdeal.main_v146) := by
  keep_step Cert.ReferenceIdeal.Hand.w6_s6
theorem keepK_w6_s6_main_v167 (WK : ValK F) :
    after Cert.KernelIdeal.Gen.main_part6_ops6 WK (Proc.devRef .tc Cert.KernelIdeal.main_v167) = WK (Proc.devRef .tc Cert.KernelIdeal.main_v167) := by
  keep_step Cert.KernelIdeal.Gen.main_part6_ops6
theorem keepR_w6_s6_main_v167 (WR : ValR F) :
    after Cert.ReferenceIdeal.Hand.w6_s6 WR (Proc.devRef .tc Cert.ReferenceIdeal.main_v167) = WR (Proc.devRef .tc Cert.ReferenceIdeal.main_v167) := by
  keep_step Cert.ReferenceIdeal.Hand.w6_s6
theorem keepK_w6_s6_main_v169 (WK : ValK F) :
    after Cert.KernelIdeal.Gen.main_part6_ops6 WK (Proc.devRef .tc Cert.KernelIdeal.main_v169) = WK (Proc.devRef .tc Cert.KernelIdeal.main_v169) := by
  keep_step Cert.KernelIdeal.Gen.main_part6_ops6
theorem keepR_w6_s6_main_v169 (WR : ValR F) :
    after Cert.ReferenceIdeal.Hand.w6_s6 WR (Proc.devRef .tc Cert.ReferenceIdeal.main_v169) = WR (Proc.devRef .tc Cert.ReferenceIdeal.main_v169) := by
  keep_step Cert.ReferenceIdeal.Hand.w6_s6
theorem keepK_w6_s6_main_v171 (WK : ValK F) :
    after Cert.KernelIdeal.Gen.main_part6_ops6 WK (Proc.devRef .tc Cert.KernelIdeal.main_v171) = WK (Proc.devRef .tc Cert.KernelIdeal.main_v171) := by
  keep_step Cert.KernelIdeal.Gen.main_part6_ops6
theorem keepR_w6_s6_main_v171 (WR : ValR F) :
    after Cert.ReferenceIdeal.Hand.w6_s6 WR (Proc.devRef .tc Cert.ReferenceIdeal.main_v171) = WR (Proc.devRef .tc Cert.ReferenceIdeal.main_v171) := by
  keep_step Cert.ReferenceIdeal.Hand.w6_s6
theorem keepK_w6_s6_main_v176 (WK : ValK F) :
    after Cert.KernelIdeal.Gen.main_part6_ops6 WK (Proc.devRef .tc Cert.KernelIdeal.main_v176) = WK (Proc.devRef .tc Cert.KernelIdeal.main_v176) := by
  keep_step Cert.KernelIdeal.Gen.main_part6_ops6
theorem keepR_w6_s6_main_v176 (WR : ValR F) :
    after Cert.ReferenceIdeal.Hand.w6_s6 WR (Proc.devRef .tc Cert.ReferenceIdeal.main_v176) = WR (Proc.devRef .tc Cert.ReferenceIdeal.main_v176) := by
  keep_step Cert.ReferenceIdeal.Hand.w6_s6
theorem keepK_w6_s6_main_v179 (WK : ValK F) :
    after Cert.KernelIdeal.Gen.main_part6_ops6 WK (Proc.devRef .tc Cert.KernelIdeal.main_v179) = WK (Proc.devRef .tc Cert.KernelIdeal.main_v179) := by
  keep_step Cert.KernelIdeal.Gen.main_part6_ops6
theorem keepR_w6_s6_main_v179 (WR : ValR F) :
    after Cert.ReferenceIdeal.Hand.w6_s6 WR (Proc.devRef .tc Cert.ReferenceIdeal.main_v179) = WR (Proc.devRef .tc Cert.ReferenceIdeal.main_v179) := by
  keep_step Cert.ReferenceIdeal.Hand.w6_s6
theorem keepK_w6_s6_main_v180 (WK : ValK F) :
    after Cert.KernelIdeal.Gen.main_part6_ops6 WK (Proc.devRef .tc Cert.KernelIdeal.main_v180) = WK (Proc.devRef .tc Cert.KernelIdeal.main_v180) := by
  keep_step Cert.KernelIdeal.Gen.main_part6_ops6
theorem keepR_w6_s6_main_v180 (WR : ValR F) :
    after Cert.ReferenceIdeal.Hand.w6_s6 WR (Proc.devRef .tc Cert.ReferenceIdeal.main_v180) = WR (Proc.devRef .tc Cert.ReferenceIdeal.main_v180) := by
  keep_step Cert.ReferenceIdeal.Hand.w6_s6
theorem keepK_w6_s6_main_v181 (WK : ValK F) :
    after Cert.KernelIdeal.Gen.main_part6_ops6 WK (Proc.devRef .tc Cert.KernelIdeal.main_v181) = WK (Proc.devRef .tc Cert.KernelIdeal.main_v181) := by
  keep_step Cert.KernelIdeal.Gen.main_part6_ops6
theorem keepR_w6_s6_main_v181 (WR : ValR F) :
    after Cert.ReferenceIdeal.Hand.w6_s6 WR (Proc.devRef .tc Cert.ReferenceIdeal.main_v181) = WR (Proc.devRef .tc Cert.ReferenceIdeal.main_v181) := by
  keep_step Cert.ReferenceIdeal.Hand.w6_s6
theorem keepK_w6_s6_main_v198 (WK : ValK F) :
    after Cert.KernelIdeal.Gen.main_part6_ops6 WK (Proc.devRef .tc Cert.KernelIdeal.main_v198) = WK (Proc.devRef .tc Cert.KernelIdeal.main_v198) := by
  keep_step Cert.KernelIdeal.Gen.main_part6_ops6
theorem keepR_w6_s6_main_v198 (WR : ValR F) :
    after Cert.ReferenceIdeal.Hand.w6_s6 WR (Proc.devRef .tc Cert.ReferenceIdeal.main_v198) = WR (Proc.devRef .tc Cert.ReferenceIdeal.main_v198) := by
  keep_step Cert.ReferenceIdeal.Hand.w6_s6
theorem keepK_w6_s6_main_v222 (WK : ValK F) :
    after Cert.KernelIdeal.Gen.main_part6_ops6 WK (Proc.devRef .tc Cert.KernelIdeal.main_v222) = WK (Proc.devRef .tc Cert.KernelIdeal.main_v222) := by
  keep_step Cert.KernelIdeal.Gen.main_part6_ops6
theorem keepR_w6_s6_main_v222 (WR : ValR F) :
    after Cert.ReferenceIdeal.Hand.w6_s6 WR (Proc.devRef .tc Cert.ReferenceIdeal.main_v222) = WR (Proc.devRef .tc Cert.ReferenceIdeal.main_v222) := by
  keep_step Cert.ReferenceIdeal.Hand.w6_s6
theorem keepK_w6_s6_main_v228 (WK : ValK F) :
    after Cert.KernelIdeal.Gen.main_part6_ops6 WK (Proc.devRef .tc Cert.KernelIdeal.main_v228) = WK (Proc.devRef .tc Cert.KernelIdeal.main_v228) := by
  keep_step Cert.KernelIdeal.Gen.main_part6_ops6
theorem keepR_w6_s6_main_v228 (WR : ValR F) :
    after Cert.ReferenceIdeal.Hand.w6_s6 WR (Proc.devRef .tc Cert.ReferenceIdeal.main_v228) = WR (Proc.devRef .tc Cert.ReferenceIdeal.main_v228) := by
  keep_step Cert.ReferenceIdeal.Hand.w6_s6
theorem keepK_w6_s6_main_v235 (WK : ValK F) :
    after Cert.KernelIdeal.Gen.main_part6_ops6 WK (Proc.devRef .tc Cert.KernelIdeal.main_v235) = WK (Proc.devRef .tc Cert.KernelIdeal.main_v235) := by
  keep_step Cert.KernelIdeal.Gen.main_part6_ops6
theorem keepR_w6_s6_main_v235 (WR : ValR F) :
    after Cert.ReferenceIdeal.Hand.w6_s6 WR (Proc.devRef .tc Cert.ReferenceIdeal.main_v235) = WR (Proc.devRef .tc Cert.ReferenceIdeal.main_v235) := by
  keep_step Cert.ReferenceIdeal.Hand.w6_s6
theorem phiK_w6_s6_main_v255 (WK : ValK F) :
    @Eq ((⟨S16x3x224x224, .f32⟩ : BufTy).Contents (Elt F)) (after Cert.KernelIdeal.Gen.main_part6_ops6 WK (Proc.devRef .tc Cert.KernelIdeal.main_v255))
      (phi_w6_s6_main_v255 (WK (Proc.devRef .tc Cert.KernelIdeal.main_v125)) (WK (Proc.devRef .tc Cert.KernelIdeal.main_v236)) (WK (Proc.devRef .tc Cert.KernelIdeal.main_v237))) := by
  phi_step Cert.KernelIdeal.Gen.main_part6_ops6 phi_w6_s6_main_v255
theorem phiR_w6_s6_main_v255 (WR : ValR F) :
    @Eq ((⟨S16x3x224x224, .f32⟩ : BufTy).Contents (Elt F)) (after Cert.ReferenceIdeal.Hand.w6_s6 WR (Proc.devRef .tc Cert.ReferenceIdeal.main_v255))
      (phi_w6_s6_main_v255 (WR (Proc.devRef .tc Cert.ReferenceIdeal.main_v125)) (WR (Proc.devRef .tc Cert.ReferenceIdeal.main_v236)) (WR (Proc.devRef .tc Cert.ReferenceIdeal.main_v237))) := by
  phi_step Cert.ReferenceIdeal.Hand.w6_s6 phi_w6_s6_main_v255
theorem phiK_w6_s6_main_v257 (WK : ValK F) :
    @Eq ((⟨S16x224, .i1⟩ : BufTy).Contents (Elt F)) (after Cert.KernelIdeal.Gen.main_part6_ops6 WK (Proc.devRef .tc Cert.KernelIdeal.main_v257))
      (phi_w6_s6_main_v257 (WK (Proc.devRef .tc Cert.KernelIdeal.main_v228))) := by
  phi_step Cert.KernelIdeal.Gen.main_part6_ops6 phi_w6_s6_main_v257
theorem phiR_w6_s6_main_v257 (WR : ValR F) :
    @Eq ((⟨S16x224, .i1⟩ : BufTy).Contents (Elt F)) (after Cert.ReferenceIdeal.Hand.w6_s6 WR (Proc.devRef .tc Cert.ReferenceIdeal.main_v257))
      (phi_w6_s6_main_v257 (WR (Proc.devRef .tc Cert.ReferenceIdeal.main_v228))) := by
  phi_step Cert.ReferenceIdeal.Hand.w6_s6 phi_w6_s6_main_v257
theorem phiK_w6_s6_main_c_160 (WK : ValK F) :
    @Eq ((⟨S_, .i32⟩ : BufTy).Contents (Elt F)) (after Cert.KernelIdeal.Gen.main_part6_ops6 WK (Proc.devRef .tc Cert.KernelIdeal.main_c_160))
      (phi_w6_s6_main_c_160) := by
  phi_step Cert.KernelIdeal.Gen.main_part6_ops6 phi_w6_s6_main_c_160
theorem phiR_w6_s6_main_c_160 (WR : ValR F) :
    @Eq ((⟨S_, .i32⟩ : BufTy).Contents (Elt F)) (after Cert.ReferenceIdeal.Hand.w6_s6 WR (Proc.devRef .tc Cert.ReferenceIdeal.main_c_160))
      (phi_w6_s6_main_c_160) := by
  phi_step Cert.ReferenceIdeal.Hand.w6_s6 phi_w6_s6_main_c_160

theorem sim_w6_s6 (WK : ValK F) (WR : ValR F) (h : Inv29 WK WR) :
    Inv30 (after Cert.KernelIdeal.Gen.main_part6_ops6 WK) (after Cert.ReferenceIdeal.Hand.w6_s6 WR) := by
  sim_step h Inv29 Inv30 [keepK_w6_s6_main_arg10, keepR_w6_s6_main_arg10, keepK_w6_s6_main_arg11, keepR_w6_s6_main_arg11, keepK_w6_s6_main_v104, keepR_w6_s6_main_v104, keepK_w6_s6_main_v146, keepR_w6_s6_main_v146, keepK_w6_s6_main_v167, keepR_w6_s6_main_v167, keepK_w6_s6_main_v169, keepR_w6_s6_main_v169, keepK_w6_s6_main_v171, keepR_w6_s6_main_v171, keepK_w6_s6_main_v176, keepR_w6_s6_main_v176, keepK_w6_s6_main_v179, keepR_w6_s6_main_v179, keepK_w6_s6_main_v180, keepR_w6_s6_main_v180, keepK_w6_s6_main_v181, keepR_w6_s6_main_v181, keepK_w6_s6_main_v198, keepR_w6_s6_main_v198, keepK_w6_s6_main_v222, keepR_w6_s6_main_v222, keepK_w6_s6_main_v228, keepR_w6_s6_main_v228, keepK_w6_s6_main_v235, keepR_w6_s6_main_v235, phiK_w6_s6_main_v255, phiR_w6_s6_main_v255, phiK_w6_s6_main_v257, phiR_w6_s6_main_v257, phiK_w6_s6_main_c_160, phiR_w6_s6_main_c_160]

end Cert.PromptBridge

end
-- ==== Proof.PromptBridgePhi7.lean ====
import proofs.«144763_j39642548142243_2_alg».proof.Proof.PromptBridgeBase

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

/-- main_v263 after stretch w7_s0, from the contents before it. -/
def phi_w7_s0_main_v263 (t_main_v104 : (⟨S16x3x164, .f32⟩ : BufTy).Contents (Elt F)) (t_main_v228 : (⟨S16x224, .i32⟩ : BufTy).Contents (Elt F)) (t_main_v257 : (⟨S16x224, .i1⟩ : BufTy).Contents (Elt F)) (t_main_c_160 : (⟨S_, .i32⟩ : BufTy).Contents (Elt F)) : (⟨S16x3x224x1, .f32⟩ : BufTy).Contents (Elt F) :=
  let t_main_v258 : (⟨S16x224, .i32⟩ : BufTy).Contents (Elt F) := (broadcastInDim S16x224 ![] bcast_S_S16x224 : (⟨S_, .i32⟩ : BufTy).Contents (Elt F) → (⟨S16x224, .i32⟩ : BufTy).Contents (Elt F)) t_main_c_160
  let t_main_v259 : (⟨S16x224, .i32⟩ : BufTy).Contents (Elt F) := (addi : (⟨S16x224, .i32⟩ : BufTy).Contents (Elt F) → (⟨S16x224, .i32⟩ : BufTy).Contents (Elt F) → (⟨S16x224, .i32⟩ : BufTy).Contents (Elt F)) t_main_v228 t_main_v258
  let t_main_v260 : (⟨S16x224, .i32⟩ : BufTy).Contents (Elt F) := (select : (⟨S16x224, .i1⟩ : BufTy).Contents (Elt F) → (⟨S16x224, .i32⟩ : BufTy).Contents (Elt F) → (⟨S16x224, .i32⟩ : BufTy).Contents (Elt F) → (⟨S16x224, .i32⟩ : BufTy).Contents (Elt F)) t_main_v257 t_main_v259 t_main_v228
  let t_main_v261 : (⟨S16x224x1, .i32⟩ : BufTy).Contents (Elt F) := (broadcastInDim S16x224x1 ![0, 1] bcast_S16x224_S16x224x1_0_1 : (⟨S16x224, .i32⟩ : BufTy).Contents (Elt F) → (⟨S16x224x1, .i32⟩ : BufTy).Contents (Elt F)) t_main_v260
  let t_main_v262 : (⟨S16x3x224, .f32⟩ : BufTy).Contents (Elt F) := ((fun x i => Host.gather gather_S16x3x164_S16x224x1_S16x3x224_1_2_0_0_2_2_131 x i) : (⟨S16x3x164, .f32⟩ : BufTy).Contents (Elt F) → (⟨S16x224x1, .i32⟩ : BufTy).Contents (Elt F) → (⟨S16x3x224, .f32⟩ : BufTy).Contents (Elt F)) t_main_v104 t_main_v261
  let t_main_v263 : (⟨S16x3x224x1, .f32⟩ : BufTy).Contents (Elt F) := (broadcastInDim S16x3x224x1 ![0, 1, 2] bcast_S16x3x224_S16x3x224x1_0_1_2 : (⟨S16x3x224, .f32⟩ : BufTy).Contents (Elt F) → (⟨S16x3x224x1, .f32⟩ : BufTy).Contents (Elt F)) t_main_v262
  t_main_v263

/-- main_v264 after stretch w7_s1, from the contents before it. -/
def phi_w7_s1_main_v264 (t_main_v235 : (⟨S16x1x224, .i1⟩ : BufTy).Contents (Elt F)) (t_main_v255 : (⟨S16x3x224x224, .f32⟩ : BufTy).Contents (Elt F)) (t_main_v263 : (⟨S16x3x224x1, .f32⟩ : BufTy).Contents (Elt F)) : (⟨S16x3x224x224, .f32⟩ : BufTy).Contents (Elt F) :=
  let t_main_call12_v0 : (⟨S16x3x224x224, .i1⟩ : BufTy).Contents (Elt F) := (broadcastInDim S16x3x224x224 ![0, 2, 3] bcast_S16x1x224_S16x3x224x224_0_2_3) t_main_v235
  let t_main_call12_v1 : (⟨S16x3x224x224, .f32⟩ : BufTy).Contents (Elt F) := (broadcastInDim S16x3x224x224 ![0, 1, 2, 3] bcast_S16x3x224x1_S16x3x224x224_0_1_2_3) t_main_v263
  let t_main_v264 : (⟨S16x3x224x224, .f32⟩ : BufTy).Contents (Elt F) := (select) t_main_call12_v0 t_main_v255 t_main_call12_v1
  t_main_v264

/-- main_v271 after stretch w7_s2, from the contents before it. -/
def phi_w7_s2_main_v271 (t_main_arg10 : (⟨S16, .i32⟩ : BufTy).Contents (Elt F)) (t_main_v179 : (⟨S224, .i32⟩ : BufTy).Contents (Elt F)) : (⟨S16x224, .i32⟩ : BufTy).Contents (Elt F) :=
  let t_main_c_161 : (⟨S_, .i32⟩ : BufTy).Contents (Elt F) := (constantI S_ 32 224#32)
  let t_main_v265 : (⟨S16, .i32⟩ : BufTy).Contents (Elt F) := (broadcastInDim S16 ![] bcast_S_S16 : (⟨S_, .i32⟩ : BufTy).Contents (Elt F) → (⟨S16, .i32⟩ : BufTy).Contents (Elt F)) t_main_c_161
  let t_main_v266 : (⟨S16, .i32⟩ : BufTy).Contents (Elt F) := (subi : (⟨S16, .i32⟩ : BufTy).Contents (Elt F) → (⟨S16, .i32⟩ : BufTy).Contents (Elt F) → (⟨S16, .i32⟩ : BufTy).Contents (Elt F)) t_main_v265 t_main_arg10
  let t_main_v267 : (⟨S1x224, .i32⟩ : BufTy).Contents (Elt F) := (broadcastInDim S1x224 ![1] bcast_S224_S1x224_1 : (⟨S224, .i32⟩ : BufTy).Contents (Elt F) → (⟨S1x224, .i32⟩ : BufTy).Contents (Elt F)) t_main_v179
  let t_main_v268 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v266
  let t_main_v269 : (⟨S16x224, .i32⟩ : BufTy).Contents (Elt F) := (broadcastInDim S16x224 ![0, 1] bcast_S1x224_S16x224_0_1 : (⟨S1x224, .i32⟩ : BufTy).Contents (Elt F) → (⟨S16x224, .i32⟩ : BufTy).Contents (Elt F)) t_main_v267
  let t_main_v270 : (⟨S16x224, .i32⟩ : BufTy).Contents (Elt F) := (broadcastInDim S16x224 ![0, 1] bcast_S16x1_S16x224_0_1 : (⟨S16x1, .i32⟩ : BufTy).Contents (Elt F) → (⟨S16x224, .i32⟩ : BufTy).Contents (Elt F)) t_main_v268
  let t_main_v271 : (⟨S16x224, .i32⟩ : BufTy).Contents (Elt F) := (subi : (⟨S16x224, .i32⟩ : BufTy).Contents (Elt F) → (⟨S16x224, .i32⟩ : BufTy).Contents (Elt F) → (⟨S16x224, .i32⟩ : BufTy).Contents (Elt F)) t_main_v269 t_main_v270
  t_main_v271

/-- main_v274 after stretch w7_s2, from the contents before it. -/
def phi_w7_s2_main_v274 (t_main_arg10 : (⟨S16, .i32⟩ : BufTy).Contents (Elt F)) (t_main_v176 : (⟨S16, .i32⟩ : BufTy).Contents (Elt F)) (t_main_v179 : (⟨S224, .i32⟩ : BufTy).Contents (Elt F)) : (⟨S16x224, .i32⟩ : BufTy).Contents (Elt F) :=
  let t_main_c_161 : (⟨S_, .i32⟩ : BufTy).Contents (Elt F) := (constantI S_ 32 224#32)
  let t_main_v265 : (⟨S16, .i32⟩ : BufTy).Contents (Elt F) := (broadcastInDim S16 ![] bcast_S_S16 : (⟨S_, .i32⟩ : BufTy).Contents (Elt F) → (⟨S16, .i32⟩ : BufTy).Contents (Elt F)) t_main_c_161
  let t_main_v266 : (⟨S16, .i32⟩ : BufTy).Contents (Elt F) := (subi : (⟨S16, .i32⟩ : BufTy).Contents (Elt F) → (⟨S16, .i32⟩ : BufTy).Contents (Elt F) → (⟨S16, .i32⟩ : BufTy).Contents (Elt F)) t_main_v265 t_main_arg10
  let t_main_v267 : (⟨S1x224, .i32⟩ : BufTy).Contents (Elt F) := (broadcastInDim S1x224 ![1] bcast_S224_S1x224_1 : (⟨S224, .i32⟩ : BufTy).Contents (Elt F) → (⟨S1x224, .i32⟩ : BufTy).Contents (Elt F)) t_main_v179
  let t_main_v268 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v266
  let t_main_v269 : (⟨S16x224, .i32⟩ : BufTy).Contents (Elt F) := (broadcastInDim S16x224 ![0, 1] bcast_S1x224_S16x224_0_1 : (⟨S1x224, .i32⟩ : BufTy).Contents (Elt F) → (⟨S16x224, .i32⟩ : BufTy).Contents (Elt F)) t_main_v267
  let t_main_v270 : (⟨S16x224, .i32⟩ : BufTy).Contents (Elt F) := (broadcastInDim S16x224 ![0, 1] bcast_S16x1_S16x224_0_1 : (⟨S16x1, .i32⟩ : BufTy).Contents (Elt F) → (⟨S16x224, .i32⟩ : BufTy).Contents (Elt F)) t_main_v268
  let t_main_v271 : (⟨S16x224, .i32⟩ : BufTy).Contents (Elt F) := (subi : (⟨S16x224, .i32⟩ : BufTy).Contents (Elt F) → (⟨S16x224, .i32⟩ : BufTy).Contents (Elt F) → (⟨S16x224, .i32⟩ : BufTy).Contents (Elt F)) t_main_v269 t_main_v270
  let t_main_v272 : (⟨S16x1, .i32⟩ : BufTy).Contents (Elt F) := (broadcastInDim S16x1 ![0] bcast_S16_S16x1_0 : (⟨S16, .i32⟩ : BufTy).Contents (Elt F) → (⟨S16x1, .i32⟩ : BufTy).Contents (Elt F)) t_main_v176
  let t_main_v273 : (⟨S16x224, .i32⟩ : BufTy).Contents (Elt F) := (broadcastInDim S16x224 ![0, 1] bcast_S16x1_S16x224_0_1 : (⟨S16x1, .i32⟩ : BufTy).Contents (Elt F) → (⟨S16x224, .i32⟩ : BufTy).Contents (Elt F)) t_main_v272
  let t_main_v274 : (⟨S16x224, .i32⟩ : BufTy).Contents (Elt F) := (subi : (⟨S16x224, .i32⟩ : BufTy).Contents (Elt F) → (⟨S16x224, .i32⟩ : BufTy).Contents (Elt F) → (⟨S16x224, .i32⟩ : BufTy).Contents (Elt F)) t_main_v271 t_main_v273
  t_main_v274

/-- main_c_162 after stretch w7_s2, from the contents before it. -/
def phi_w7_s2_main_c_162  : (⟨S_, .i32⟩ : BufTy).Contents (Elt F) :=
  let t_main_c_162 : (⟨S_, .i32⟩ : BufTy).Contents (Elt F) := (constantI S_ 32 10#32)
  t_main_c_162

/-- main_v275 after stretch w7_s3, from the contents before it. -/
def phi_w7_s3_main_v275 (t_main_v274 : (⟨S16x224, .i32⟩ : BufTy).Contents (Elt F)) (t_main_c_162 : (⟨S_, .i32⟩ : BufTy).Contents (Elt F)) : (⟨S16x224, .i32⟩ : BufTy).Contents (Elt F) :=
  let t_main_call13_v0 : (⟨S_, .i32⟩ : BufTy).Contents (Elt F) := (id) t_main_c_162
  let t_main_call13_c : (⟨S_, .i32⟩ : BufTy).Contents (Elt F) := (constantI S_ 32 0#32)
  let t_main_call13_v1 : (⟨S_, .i1⟩ : BufTy).Contents (Elt F) := (cmpi .eq) t_main_call13_v0 t_main_call13_c
  let t_main_call13_c_0 : (⟨S_, .i32⟩ : BufTy).Contents (Elt F) := (constantI S_ 32 1#32)
  let t_main_call13_v2 : (⟨S_, .i32⟩ : BufTy).Contents (Elt F) := (select) t_main_call13_v1 t_main_call13_c_0 t_main_call13_v0
  let t_main_call13_v3 : (⟨S16x224, .i32⟩ : BufTy).Contents (Elt F) := (broadcastInDim S16x224 ![] bcast_S_S16x224) t_main_call13_v2
  let t_main_call13_v4 : (⟨S16x224, .i32⟩ : BufTy).Contents (Elt F) := (Host.remsi) t_main_v274 t_main_call13_v3
  let t_main_call13_c_1 : (⟨S_, .i32⟩ : BufTy).Contents (Elt F) := (constantI S_ 32 0#32)
  let t_main_call13_v5 : (⟨S16x224, .i32⟩ : BufTy).Contents (Elt F) := (broadcastInDim S16x224 ![] bcast_S_S16x224) t_main_call13_c_1
  let t_main_call13_v6 : (⟨S16x224, .i1⟩ : BufTy).Contents (Elt F) := (cmpi .ne) t_main_call13_v4 t_main_call13_v5
  let t_main_call13_c_2 : (⟨S_, .i32⟩ : BufTy).Contents (Elt F) := (constantI S_ 32 0#32)
  let t_main_call13_v7 : (⟨S16x224, .i32⟩ : BufTy).Contents (Elt F) := (broadcastInDim S16x224 ![] bcast_S_S16x224) t_main_call13_c_2
  let t_main_call13_v8 : (⟨S16x224, .i1⟩ : BufTy).Contents (Elt F) := (cmpi .slt) t_main_call13_v4 t_main_call13_v7
  let t_main_call13_c_3 : (⟨S_, .i32⟩ : BufTy).Contents (Elt F) := (constantI S_ 32 0#32)
  let t_main_call13_v9 : (⟨S_, .i1⟩ : BufTy).Contents (Elt F) := (cmpi .slt) t_main_call13_v2 t_main_call13_c_3
  let t_main_call13_v10 : (⟨S16x224, .i1⟩ : BufTy).Contents (Elt F) := (broadcastInDim S16x224 ![] bcast_S_S16x224) t_main_call13_v9
  let t_main_call13_v11 : (⟨S16x224, .i1⟩ : BufTy).Contents (Elt F) := (cmpi .ne) t_main_call13_v8 t_main_call13_v10
  let t_main_call13_v12 : (⟨S16x224, .i1⟩ : BufTy).Contents (Elt F) := (andi) t_main_call13_v11 t_main_call13_v6
  let t_main_call13_v13 : (⟨S16x224, .i32⟩ : BufTy).Contents (Elt F) := (broadcastInDim S16x224 ![] bcast_S_S16x224) t_main_call13_v2
  let t_main_call13_v14 : (⟨S16x224, .i32⟩ : BufTy).Contents (Elt F) := (addi) t_main_call13_v4 t_main_call13_v13
  let t_main_v275 : (⟨S16x224, .i32⟩ : BufTy).Contents (Elt F) := (select) t_main_call13_v12 t_main_call13_v14 t_main_call13_v4
  t_main_v275

/-- main_v279 after stretch w7_s4, from the contents before it. -/
def phi_w7_s4_main_v279 (t_main_v176 : (⟨S16, .i32⟩ : BufTy).Contents (Elt F)) (t_main_v271 : (⟨S16x224, .i32⟩ : BufTy).Contents (Elt F)) : (⟨S16x1x224, .i1⟩ : BufTy).Contents (Elt F) :=
  let t_main_v276 : (⟨S16x1x224, .i32⟩ : BufTy).Contents (Elt F) := (broadcastInDim S16x1x224 ![0, 2] bcast_S16x224_S16x1x224_0_2 : (⟨S16x224, .i32⟩ : BufTy).Contents (Elt F) → (⟨S16x1x224, .i32⟩ : BufTy).Contents (Elt F)) t_main_v271
  let t_main_v277 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v176
  let t_main_v278 : (⟨S16x1x224, .i32⟩ : BufTy).Contents (Elt F) := (broadcastInDim S16x1x224 ![0, 1, 2] bcast_S16x1x1_S16x1x224_0_1_2 : (⟨S16x1x1, .i32⟩ : BufTy).Contents (Elt F) → (⟨S16x1x224, .i32⟩ : BufTy).Contents (Elt F)) t_main_v277
  let t_main_v279 : (⟨S16x1x224, .i1⟩ : BufTy).Contents (Elt F) := (cmpi .slt : (⟨S16x1x224, .i32⟩ : BufTy).Contents (Elt F) → (⟨S16x1x224, .i32⟩ : BufTy).Contents (Elt F) → (⟨S16x1x224, .i1⟩ : BufTy).Contents (Elt F)) t_main_v276 t_main_v278
  t_main_v279

/-- main_v287 after stretch w7_s4, from the contents before it. -/
def phi_w7_s4_main_v287 (t_main_v146 : (⟨S16x3x164, .f32⟩ : BufTy).Contents (Elt F)) (t_main_v228 : (⟨S16x224, .i32⟩ : BufTy).Contents (Elt F)) : (⟨S16x3x224x1, .f32⟩ : BufTy).Contents (Elt F) :=
  let t_main_c_163 : (⟨S_, .i32⟩ : BufTy).Contents (Elt F) := (constantI S_ 32 0#32)
  let t_main_v280 : (⟨S16x224, .i32⟩ : BufTy).Contents (Elt F) := (broadcastInDim S16x224 ![] bcast_S_S16x224 : (⟨S_, .i32⟩ : BufTy).Contents (Elt F) → (⟨S16x224, .i32⟩ : BufTy).Contents (Elt F)) t_main_c_163
  let t_main_v281 : (⟨S16x224, .i1⟩ : BufTy).Contents (Elt F) := (cmpi .slt : (⟨S16x224, .i32⟩ : BufTy).Contents (Elt F) → (⟨S16x224, .i32⟩ : BufTy).Contents (Elt F) → (⟨S16x224, .i1⟩ : BufTy).Contents (Elt F)) t_main_v228 t_main_v280
  let t_main_c_164 : (⟨S_, .i32⟩ : BufTy).Contents (Elt F) := (constantI S_ 32 164#32)
  let t_main_v282 : (⟨S16x224, .i32⟩ : BufTy).Contents (Elt F) := (broadcastInDim S16x224 ![] bcast_S_S16x224 : (⟨S_, .i32⟩ : BufTy).Contents (Elt F) → (⟨S16x224, .i32⟩ : BufTy).Contents (Elt F)) t_main_c_164
  let t_main_v283 : (⟨S16x224, .i32⟩ : BufTy).Contents (Elt F) := (addi : (⟨S16x224, .i32⟩ : BufTy).Contents (Elt F) → (⟨S16x224, .i32⟩ : BufTy).Contents (Elt F) → (⟨S16x224, .i32⟩ : BufTy).Contents (Elt F)) t_main_v228 t_main_v282
  let t_main_v284 : (⟨S16x224, .i32⟩ : BufTy).Contents (Elt F) := (select : (⟨S16x224, .i1⟩ : BufTy).Contents (Elt F) → (⟨S16x224, .i32⟩ : BufTy).Contents (Elt F) → (⟨S16x224, .i32⟩ : BufTy).Contents (Elt F) → (⟨S16x224, .i32⟩ : BufTy).Contents (Elt F)) t_main_v281 t_main_v283 t_main_v228
  let t_main_v285 : (⟨S16x224x1, .i32⟩ : BufTy).Contents (Elt F) := (broadcastInDim S16x224x1 ![0, 1] bcast_S16x224_S16x224x1_0_1 : (⟨S16x224, .i32⟩ : BufTy).Contents (Elt F) → (⟨S16x224x1, .i32⟩ : BufTy).Contents (Elt F)) t_main_v284
  let t_main_v286 : (⟨S16x3x224, .f32⟩ : BufTy).Contents (Elt F) := ((fun x i => Host.gather gather_S16x3x164_S16x224x1_S16x3x224_1_2_0_0_2_2_131 x i) : (⟨S16x3x164, .f32⟩ : BufTy).Contents (Elt F) → (⟨S16x224x1, .i32⟩ : BufTy).Contents (Elt F) → (⟨S16x3x224, .f32⟩ : BufTy).Contents (Elt F)) t_main_v146 t_main_v285
  let t_main_v287 : (⟨S16x3x224x1, .f32⟩ : BufTy).Contents (Elt F) := (broadcastInDim S16x3x224x1 ![0, 1, 2] bcast_S16x3x224_S16x3x224x1_0_1_2 : (⟨S16x3x224, .f32⟩ : BufTy).Contents (Elt F) → (⟨S16x3x224x1, .f32⟩ : BufTy).Contents (Elt F)) t_main_v286
  t_main_v287

/-- main_v305 after stretch w7_s4, from the contents before it. -/
def phi_w7_s4_main_v305 (t_main_v167 : (⟨S16x3x164x10, .f32⟩ : BufTy).Contents (Elt F)) (t_main_v228 : (⟨S16x224, .i32⟩ : BufTy).Contents (Elt F)) (t_main_v275 : (⟨S16x224, .i32⟩ : BufTy).Contents (Elt F)) : (⟨S16x3x224x224, .f32⟩ : BufTy).Contents (Elt F) :=
  let t_main_v288 : (⟨S16x224x1, .i32⟩ : BufTy).Contents (Elt F) := (broadcastInDim S16x224x1 ![0, 1] bcast_S16x224_S16x224x1_0_1 : (⟨S16x224, .i32⟩ : BufTy).Contents (Elt F) → (⟨S16x224x1, .i32⟩ : BufTy).Contents (Elt F)) t_main_v228
  let t_main_v289 : (⟨S16x1x224, .i32⟩ : BufTy).Contents (Elt F) := (broadcastInDim S16x1x224 ![0, 2] bcast_S16x224_S16x1x224_0_2 : (⟨S16x224, .i32⟩ : BufTy).Contents (Elt F) → (⟨S16x1x224, .i32⟩ : BufTy).Contents (Elt F)) t_main_v275
  let t_main_c_165 : (⟨S_, .i32⟩ : BufTy).Contents (Elt F) := (constantI S_ 32 0#32)
  let t_main_v290 : (⟨S16x224x1, .i32⟩ : BufTy).Contents (Elt F) := (broadcastInDim S16x224x1 ![] bcast_S_S16x224x1 : (⟨S_, .i32⟩ : BufTy).Contents (Elt F) → (⟨S16x224x1, .i32⟩ : BufTy).Contents (Elt F)) t_main_c_165
  let t_main_v291 : (⟨S16x224x1, .i1⟩ : BufTy).Contents (Elt F) := (cmpi .slt : (⟨S16x224x1, .i32⟩ : BufTy).Contents (Elt F) → (⟨S16x224x1, .i32⟩ : BufTy).Contents (Elt F) → (⟨S16x224x1, .i1⟩ : BufTy).Contents (Elt F)) t_main_v288 t_main_v290
  let t_main_c_166 : (⟨S_, .i32⟩ : BufTy).Contents (Elt F) := (constantI S_ 32 164#32)
  let t_main_v292 : (⟨S16x224x1, .i32⟩ : BufTy).Contents (Elt F) := (broadcastInDim S16x224x1 ![] bcast_S_S16x224x1 : (⟨S_, .i32⟩ : BufTy).Contents (Elt F) → (⟨S16x224x1, .i32⟩ : BufTy).Contents (Elt F)) t_main_c_166
  let t_main_v293 : (⟨S16x224x1, .i32⟩ : BufTy).Contents (Elt F) := (addi : (⟨S16x224x1, .i32⟩ : BufTy).Contents (Elt F) → (⟨S16x224x1, .i32⟩ : BufTy).Contents (Elt F) → (⟨S16x224x1, .i32⟩ : BufTy).Contents (Elt F)) t_main_v288 t_main_v292
  let t_main_v294 : (⟨S16x224x1, .i32⟩ : BufTy).Contents (Elt F) := (select : (⟨S16x224x1, .i1⟩ : BufTy).Contents (Elt F) → (⟨S16x224x1, .i32⟩ : BufTy).Contents (Elt F) → (⟨S16x224x1, .i32⟩ : BufTy).Contents (Elt F) → (⟨S16x224x1, .i32⟩ : BufTy).Contents (Elt F)) t_main_v291 t_main_v293 t_main_v288
  let t_main_c_167 : (⟨S_, .i32⟩ : BufTy).Contents (Elt F) := (constantI S_ 32 0#32)
  let t_main_v295 : (⟨S16x1x224, .i32⟩ : BufTy).Contents (Elt F) := (broadcastInDim S16x1x224 ![] bcast_S_S16x1x224 : (⟨S_, .i32⟩ : BufTy).Contents (Elt F) → (⟨S16x1x224, .i32⟩ : BufTy).Contents (Elt F)) t_main_c_167
  let t_main_v296 : (⟨S16x1x224, .i1⟩ : BufTy).Contents (Elt F) := (cmpi .slt : (⟨S16x1x224, .i32⟩ : BufTy).Contents (Elt F) → (⟨S16x1x224, .i32⟩ : BufTy).Contents (Elt F) → (⟨S16x1x224, .i1⟩ : BufTy).Contents (Elt F)) t_main_v289 t_main_v295
  let t_main_c_168 : (⟨S_, .i32⟩ : BufTy).Contents (Elt F) := (constantI S_ 32 10#32)
  let t_main_v297 : (⟨S16x1x224, .i32⟩ : BufTy).Contents (Elt F) := (broadcastInDim S16x1x224 ![] bcast_S_S16x1x224 : (⟨S_, .i32⟩ : BufTy).Contents (Elt F) → (⟨S16x1x224, .i32⟩ : BufTy).Contents (Elt F)) t_main_c_168
  let t_main_v298 : (⟨S16x1x224, .i32⟩ : BufTy).Contents (Elt F) := (addi : (⟨S16x1x224, .i32⟩ : BufTy).Contents (Elt F) → (⟨S16x1x224, .i32⟩ : BufTy).Contents (Elt F) → (⟨S16x1x224, .i32⟩ : BufTy).Contents (Elt F)) t_main_v289 t_main_v297
  let t_main_v299 : (⟨S16x1x224, .i32⟩ : BufTy).Contents (Elt F) := (select : (⟨S16x1x224, .i1⟩ : BufTy).Contents (Elt F) → (⟨S16x1x224, .i32⟩ : BufTy).Contents (Elt F) → (⟨S16x1x224, .i32⟩ : BufTy).Contents (Elt F) → (⟨S16x1x224, .i32⟩ : BufTy).Contents (Elt F)) t_main_v296 t_main_v298 t_main_v289
  let t_main_v300 : (⟨S16x224x224, .i32⟩ : BufTy).Contents (Elt F) := (broadcastInDim S16x224x224 ![0, 1, 2] bcast_S16x224x1_S16x224x224_0_1_2 : (⟨S16x224x1, .i32⟩ : BufTy).Contents (Elt F) → (⟨S16x224x224, .i32⟩ : BufTy).Contents (Elt F)) t_main_v294
  let t_main_v301 : (⟨S16x224x224, .i32⟩ : BufTy).Contents (Elt F) := (broadcastInDim S16x224x224 ![0, 1, 2] bcast_S16x1x224_S16x224x224_0_1_2 : (⟨S16x1x224, .i32⟩ : BufTy).Contents (Elt F) → (⟨S16x224x224, .i32⟩ : BufTy).Contents (Elt F)) t_main_v299
  let t_main_v302 : (⟨S16x224x224x1, .i32⟩ : BufTy).Contents (Elt F) := (broadcastInDim S16x224x224x1 ![0, 1, 2] bcast_S16x224x224_S16x224x224x1_0_1_2 : (⟨S16x224x224, .i32⟩ : BufTy).Contents (Elt F) → (⟨S16x224x224x1, .i32⟩ : BufTy).Contents (Elt F)) t_main_v300
  let t_main_v303 : (⟨S16x224x224x1, .i32⟩ : BufTy).Contents (Elt F) := (broadcastInDim S16x224x224x1 ![0, 1, 2] bcast_S16x224x224_S16x224x224x1_0_1_2 : (⟨S16x224x224, .i32⟩ : BufTy).Contents (Elt F) → (⟨S16x224x224x1, .i32⟩ : BufTy).Contents (Elt F)) t_main_v301
  let t_main_v304 : (⟨S16x224x224x2, .i32⟩ : BufTy).Contents (Elt F) := ((fun a b => concatenate S16x224x224x2 3 [⟨S16x224x224x1, a⟩, ⟨S16x224x224x1, b⟩] concatenates_S16x224x224x1_S16x224x224x1_S16x224x224x2_d3) : (⟨S16x224x224x1, .i32⟩ : BufTy).Contents (Elt F) → (⟨S16x224x224x1, .i32⟩ : BufTy).Contents (Elt F) → (⟨S16x224x224x2, .i32⟩ : BufTy).Contents (Elt F)) t_main_v302 t_main_v303
  let t_main_v305 : (⟨S16x3x224x224, .f32⟩ : BufTy).Contents (Elt F) := ((fun x i => Host.gather gather_S16x3x164x10_S16x224x224x2_S16x3x224x224_1_23_0_0_23_3_1311 x i) : (⟨S16x3x164x10, .f32⟩ : BufTy).Contents (Elt F) → (⟨S16x224x224x2, .i32⟩ : BufTy).Contents (Elt F) → (⟨S16x3x224x224, .f32⟩ : BufTy).Contents (Elt F)) t_main_v167 t_main_v304
  t_main_v305

/-- main_v306 after stretch w7_s5, from the contents before it. -/
def phi_w7_s5_main_v306 (t_main_v279 : (⟨S16x1x224, .i1⟩ : BufTy).Contents (Elt F)) (t_main_v287 : (⟨S16x3x224x1, .f32⟩ : BufTy).Contents (Elt F)) (t_main_v305 : (⟨S16x3x224x224, .f32⟩ : BufTy).Contents (Elt F)) : (⟨S16x3x224x224, .f32⟩ : BufTy).Contents (Elt F) :=
  let t_main_call14_v0 : (⟨S16x3x224x224, .i1⟩ : BufTy).Contents (Elt F) := (broadcastInDim S16x3x224x224 ![0, 2, 3] bcast_S16x1x224_S16x3x224x224_0_2_3) t_main_v279
  let t_main_call14_v1 : (⟨S16x3x224x224, .f32⟩ : BufTy).Contents (Elt F) := (broadcastInDim S16x3x224x224 ![0, 1, 2, 3] bcast_S16x3x224x1_S16x3x224x224_0_1_2_3) t_main_v287
  let t_main_v306 : (⟨S16x3x224x224, .f32⟩ : BufTy).Contents (Elt F) := (select) t_main_call14_v0 t_main_call14_v1 t_main_v305
  t_main_v306

/-- main_v308 after stretch w7_s6, from the contents before it. -/
def phi_w7_s6_main_v308 (t_main_v169 : (⟨S16, .i32⟩ : BufTy).Contents (Elt F)) : (⟨S16x1x1, .i32⟩ : BufTy).Contents (Elt F) :=
  let t_main_v308 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v169
  t_main_v308

/-- main_v309 after stretch w7_s6, from the contents before it. -/
def phi_w7_s6_main_v309 (t_main_v181 : (⟨S1x224, .i32⟩ : BufTy).Contents (Elt F)) : (⟨S16x1x224, .i32⟩ : BufTy).Contents (Elt F) :=
  let t_main_v307 : (⟨S1x1x224, .i32⟩ : BufTy).Contents (Elt F) := (broadcastInDim S1x1x224 ![1, 2] bcast_S1x224_S1x1x224_1_2 : (⟨S1x224, .i32⟩ : BufTy).Contents (Elt F) → (⟨S1x1x224, .i32⟩ : BufTy).Contents (Elt F)) t_main_v181
  let t_main_v309 : (⟨S16x1x224, .i32⟩ : BufTy).Contents (Elt F) := (broadcastInDim S16x1x224 ![0, 1, 2] bcast_S1x1x224_S16x1x224_0_1_2 : (⟨S1x1x224, .i32⟩ : BufTy).Contents (Elt F) → (⟨S16x1x224, .i32⟩ : BufTy).Contents (Elt F)) t_main_v307
  t_main_v309

end Cert.PromptBridge

end
-- ==== Proof.PromptBridgeL7.lean ====
import proofs.«144763_j39642548142243_2_alg».proof.Proof.PromptBridgePhi7

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

theorem keepK_w7_s0_main_arg10 (WK : ValK F) :
    after Cert.KernelIdeal.Gen.main_part7_ops0 WK (Proc.devRef .tc Cert.KernelIdeal.main_arg10) = WK (Proc.devRef .tc Cert.KernelIdeal.main_arg10) := by
  keep_step Cert.KernelIdeal.Gen.main_part7_ops0
theorem keepR_w7_s0_main_arg10 (WR : ValR F) :
    after Cert.ReferenceIdeal.Hand.w7_s0 WR (Proc.devRef .tc Cert.ReferenceIdeal.main_arg10) = WR (Proc.devRef .tc Cert.ReferenceIdeal.main_arg10) := by
  keep_step Cert.ReferenceIdeal.Hand.w7_s0
theorem keepK_w7_s0_main_arg11 (WK : ValK F) :
    after Cert.KernelIdeal.Gen.main_part7_ops0 WK (Proc.devRef .tc Cert.KernelIdeal.main_arg11) = WK (Proc.devRef .tc Cert.KernelIdeal.main_arg11) := by
  keep_step Cert.KernelIdeal.Gen.main_part7_ops0
theorem keepR_w7_s0_main_arg11 (WR : ValR F) :
    after Cert.ReferenceIdeal.Hand.w7_s0 WR (Proc.devRef .tc Cert.ReferenceIdeal.main_arg11) = WR (Proc.devRef .tc Cert.ReferenceIdeal.main_arg11) := by
  keep_step Cert.ReferenceIdeal.Hand.w7_s0
theorem keepK_w7_s0_main_v146 (WK : ValK F) :
    after Cert.KernelIdeal.Gen.main_part7_ops0 WK (Proc.devRef .tc Cert.KernelIdeal.main_v146) = WK (Proc.devRef .tc Cert.KernelIdeal.main_v146) := by
  keep_step Cert.KernelIdeal.Gen.main_part7_ops0
theorem keepR_w7_s0_main_v146 (WR : ValR F) :
    after Cert.ReferenceIdeal.Hand.w7_s0 WR (Proc.devRef .tc Cert.ReferenceIdeal.main_v146) = WR (Proc.devRef .tc Cert.ReferenceIdeal.main_v146) := by
  keep_step Cert.ReferenceIdeal.Hand.w7_s0
theorem keepK_w7_s0_main_v167 (WK : ValK F) :
    after Cert.KernelIdeal.Gen.main_part7_ops0 WK (Proc.devRef .tc Cert.KernelIdeal.main_v167) = WK (Proc.devRef .tc Cert.KernelIdeal.main_v167) := by
  keep_step Cert.KernelIdeal.Gen.main_part7_ops0
theorem keepR_w7_s0_main_v167 (WR : ValR F) :
    after Cert.ReferenceIdeal.Hand.w7_s0 WR (Proc.devRef .tc Cert.ReferenceIdeal.main_v167) = WR (Proc.devRef .tc Cert.ReferenceIdeal.main_v167) := by
  keep_step Cert.ReferenceIdeal.Hand.w7_s0
theorem keepK_w7_s0_main_v169 (WK : ValK F) :
    after Cert.KernelIdeal.Gen.main_part7_ops0 WK (Proc.devRef .tc Cert.KernelIdeal.main_v169) = WK (Proc.devRef .tc Cert.KernelIdeal.main_v169) := by
  keep_step Cert.KernelIdeal.Gen.main_part7_ops0
theorem keepR_w7_s0_main_v169 (WR : ValR F) :
    after Cert.ReferenceIdeal.Hand.w7_s0 WR (Proc.devRef .tc Cert.ReferenceIdeal.main_v169) = WR (Proc.devRef .tc Cert.ReferenceIdeal.main_v169) := by
  keep_step Cert.ReferenceIdeal.Hand.w7_s0
theorem keepK_w7_s0_main_v171 (WK : ValK F) :
    after Cert.KernelIdeal.Gen.main_part7_ops0 WK (Proc.devRef .tc Cert.KernelIdeal.main_v171) = WK (Proc.devRef .tc Cert.KernelIdeal.main_v171) := by
  keep_step Cert.KernelIdeal.Gen.main_part7_ops0
theorem keepR_w7_s0_main_v171 (WR : ValR F) :
    after Cert.ReferenceIdeal.Hand.w7_s0 WR (Proc.devRef .tc Cert.ReferenceIdeal.main_v171) = WR (Proc.devRef .tc Cert.ReferenceIdeal.main_v171) := by
  keep_step Cert.ReferenceIdeal.Hand.w7_s0
theorem keepK_w7_s0_main_v176 (WK : ValK F) :
    after Cert.KernelIdeal.Gen.main_part7_ops0 WK (Proc.devRef .tc Cert.KernelIdeal.main_v176) = WK (Proc.devRef .tc Cert.KernelIdeal.main_v176) := by
  keep_step Cert.KernelIdeal.Gen.main_part7_ops0
theorem keepR_w7_s0_main_v176 (WR : ValR F) :
    after Cert.ReferenceIdeal.Hand.w7_s0 WR (Proc.devRef .tc Cert.ReferenceIdeal.main_v176) = WR (Proc.devRef .tc Cert.ReferenceIdeal.main_v176) := by
  keep_step Cert.ReferenceIdeal.Hand.w7_s0
theorem keepK_w7_s0_main_v179 (WK : ValK F) :
    after Cert.KernelIdeal.Gen.main_part7_ops0 WK (Proc.devRef .tc Cert.KernelIdeal.main_v179) = WK (Proc.devRef .tc Cert.KernelIdeal.main_v179) := by
  keep_step Cert.KernelIdeal.Gen.main_part7_ops0
theorem keepR_w7_s0_main_v179 (WR : ValR F) :
    after Cert.ReferenceIdeal.Hand.w7_s0 WR (Proc.devRef .tc Cert.ReferenceIdeal.main_v179) = WR (Proc.devRef .tc Cert.ReferenceIdeal.main_v179) := by
  keep_step Cert.ReferenceIdeal.Hand.w7_s0
theorem keepK_w7_s0_main_v180 (WK : ValK F) :
    after Cert.KernelIdeal.Gen.main_part7_ops0 WK (Proc.devRef .tc Cert.KernelIdeal.main_v180) = WK (Proc.devRef .tc Cert.KernelIdeal.main_v180) := by
  keep_step Cert.KernelIdeal.Gen.main_part7_ops0
theorem keepR_w7_s0_main_v180 (WR : ValR F) :
    after Cert.ReferenceIdeal.Hand.w7_s0 WR (Proc.devRef .tc Cert.ReferenceIdeal.main_v180) = WR (Proc.devRef .tc Cert.ReferenceIdeal.main_v180) := by
  keep_step Cert.ReferenceIdeal.Hand.w7_s0
theorem keepK_w7_s0_main_v181 (WK : ValK F) :
    after Cert.KernelIdeal.Gen.main_part7_ops0 WK (Proc.devRef .tc Cert.KernelIdeal.main_v181) = WK (Proc.devRef .tc Cert.KernelIdeal.main_v181) := by
  keep_step Cert.KernelIdeal.Gen.main_part7_ops0
theorem keepR_w7_s0_main_v181 (WR : ValR F) :
    after Cert.ReferenceIdeal.Hand.w7_s0 WR (Proc.devRef .tc Cert.ReferenceIdeal.main_v181) = WR (Proc.devRef .tc Cert.ReferenceIdeal.main_v181) := by
  keep_step Cert.ReferenceIdeal.Hand.w7_s0
theorem keepK_w7_s0_main_v198 (WK : ValK F) :
    after Cert.KernelIdeal.Gen.main_part7_ops0 WK (Proc.devRef .tc Cert.KernelIdeal.main_v198) = WK (Proc.devRef .tc Cert.KernelIdeal.main_v198) := by
  keep_step Cert.KernelIdeal.Gen.main_part7_ops0
theorem keepR_w7_s0_main_v198 (WR : ValR F) :
    after Cert.ReferenceIdeal.Hand.w7_s0 WR (Proc.devRef .tc Cert.ReferenceIdeal.main_v198) = WR (Proc.devRef .tc Cert.ReferenceIdeal.main_v198) := by
  keep_step Cert.ReferenceIdeal.Hand.w7_s0
theorem keepK_w7_s0_main_v222 (WK : ValK F) :
    after Cert.KernelIdeal.Gen.main_part7_ops0 WK (Proc.devRef .tc Cert.KernelIdeal.main_v222) = WK (Proc.devRef .tc Cert.KernelIdeal.main_v222) := by
  keep_step Cert.KernelIdeal.Gen.main_part7_ops0
theorem keepR_w7_s0_main_v222 (WR : ValR F) :
    after Cert.ReferenceIdeal.Hand.w7_s0 WR (Proc.devRef .tc Cert.ReferenceIdeal.main_v222) = WR (Proc.devRef .tc Cert.ReferenceIdeal.main_v222) := by
  keep_step Cert.ReferenceIdeal.Hand.w7_s0
theorem keepK_w7_s0_main_v228 (WK : ValK F) :
    after Cert.KernelIdeal.Gen.main_part7_ops0 WK (Proc.devRef .tc Cert.KernelIdeal.main_v228) = WK (Proc.devRef .tc Cert.KernelIdeal.main_v228) := by
  keep_step Cert.KernelIdeal.Gen.main_part7_ops0
theorem keepR_w7_s0_main_v228 (WR : ValR F) :
    after Cert.ReferenceIdeal.Hand.w7_s0 WR (Proc.devRef .tc Cert.ReferenceIdeal.main_v228) = WR (Proc.devRef .tc Cert.ReferenceIdeal.main_v228) := by
  keep_step Cert.ReferenceIdeal.Hand.w7_s0
theorem keepK_w7_s0_main_v235 (WK : ValK F) :
    after Cert.KernelIdeal.Gen.main_part7_ops0 WK (Proc.devRef .tc Cert.KernelIdeal.main_v235) = WK (Proc.devRef .tc Cert.KernelIdeal.main_v235) := by
  keep_step Cert.KernelIdeal.Gen.main_part7_ops0
theorem keepR_w7_s0_main_v235 (WR : ValR F) :
    after Cert.ReferenceIdeal.Hand.w7_s0 WR (Proc.devRef .tc Cert.ReferenceIdeal.main_v235) = WR (Proc.devRef .tc Cert.ReferenceIdeal.main_v235) := by
  keep_step Cert.ReferenceIdeal.Hand.w7_s0
theorem keepK_w7_s0_main_v255 (WK : ValK F) :
    after Cert.KernelIdeal.Gen.main_part7_ops0 WK (Proc.devRef .tc Cert.KernelIdeal.main_v255) = WK (Proc.devRef .tc Cert.KernelIdeal.main_v255) := by
  keep_step Cert.KernelIdeal.Gen.main_part7_ops0
theorem keepR_w7_s0_main_v255 (WR : ValR F) :
    after Cert.ReferenceIdeal.Hand.w7_s0 WR (Proc.devRef .tc Cert.ReferenceIdeal.main_v255) = WR (Proc.devRef .tc Cert.ReferenceIdeal.main_v255) := by
  keep_step Cert.ReferenceIdeal.Hand.w7_s0
theorem phiK_w7_s0_main_v263 (WK : ValK F) :
    @Eq ((⟨S16x3x224x1, .f32⟩ : BufTy).Contents (Elt F)) (after Cert.KernelIdeal.Gen.main_part7_ops0 WK (Proc.devRef .tc Cert.KernelIdeal.main_v263))
      (phi_w7_s0_main_v263 (WK (Proc.devRef .tc Cert.KernelIdeal.main_v104)) (WK (Proc.devRef .tc Cert.KernelIdeal.main_v228)) (WK (Proc.devRef .tc Cert.KernelIdeal.main_v257)) (WK (Proc.devRef .tc Cert.KernelIdeal.main_c_160))) := by
  phi_step Cert.KernelIdeal.Gen.main_part7_ops0 phi_w7_s0_main_v263
theorem phiR_w7_s0_main_v263 (WR : ValR F) :
    @Eq ((⟨S16x3x224x1, .f32⟩ : BufTy).Contents (Elt F)) (after Cert.ReferenceIdeal.Hand.w7_s0 WR (Proc.devRef .tc Cert.ReferenceIdeal.main_v263))
      (phi_w7_s0_main_v263 (WR (Proc.devRef .tc Cert.ReferenceIdeal.main_v104)) (WR (Proc.devRef .tc Cert.ReferenceIdeal.main_v228)) (WR (Proc.devRef .tc Cert.ReferenceIdeal.main_v257)) (WR (Proc.devRef .tc Cert.ReferenceIdeal.main_c_160))) := by
  phi_step Cert.ReferenceIdeal.Hand.w7_s0 phi_w7_s0_main_v263

theorem sim_w7_s0 (WK : ValK F) (WR : ValR F) (h : Inv30 WK WR) :
    Inv31 (after Cert.KernelIdeal.Gen.main_part7_ops0 WK) (after Cert.ReferenceIdeal.Hand.w7_s0 WR) := by
  sim_step h Inv30 Inv31 [keepK_w7_s0_main_arg10, keepR_w7_s0_main_arg10, keepK_w7_s0_main_arg11, keepR_w7_s0_main_arg11, keepK_w7_s0_main_v146, keepR_w7_s0_main_v146, keepK_w7_s0_main_v167, keepR_w7_s0_main_v167, keepK_w7_s0_main_v169, keepR_w7_s0_main_v169, keepK_w7_s0_main_v171, keepR_w7_s0_main_v171, keepK_w7_s0_main_v176, keepR_w7_s0_main_v176, keepK_w7_s0_main_v179, keepR_w7_s0_main_v179, keepK_w7_s0_main_v180, keepR_w7_s0_main_v180, keepK_w7_s0_main_v181, keepR_w7_s0_main_v181, keepK_w7_s0_main_v198, keepR_w7_s0_main_v198, keepK_w7_s0_main_v222, keepR_w7_s0_main_v222, keepK_w7_s0_main_v228, keepR_w7_s0_main_v228, keepK_w7_s0_main_v235, keepR_w7_s0_main_v235, keepK_w7_s0_main_v255, keepR_w7_s0_main_v255, phiK_w7_s0_main_v263, phiR_w7_s0_main_v263]

theorem keepK_w7_s1_main_arg10 (WK : ValK F) :
    after Cert.KernelIdeal.Gen.main_part7_ops1 WK (Proc.devRef .tc Cert.KernelIdeal.main_arg10) = WK (Proc.devRef .tc Cert.KernelIdeal.main_arg10) := by
  keep_step Cert.KernelIdeal.Gen.main_part7_ops1
theorem keepR_w7_s1_main_arg10 (WR : ValR F) :
    after Cert.ReferenceIdeal.Hand.w7_s1 WR (Proc.devRef .tc Cert.ReferenceIdeal.main_arg10) = WR (Proc.devRef .tc Cert.ReferenceIdeal.main_arg10) := by
  keep_step Cert.ReferenceIdeal.Hand.w7_s1
theorem keepK_w7_s1_main_arg11 (WK : ValK F) :
    after Cert.KernelIdeal.Gen.main_part7_ops1 WK (Proc.devRef .tc Cert.KernelIdeal.main_arg11) = WK (Proc.devRef .tc Cert.KernelIdeal.main_arg11) := by
  keep_step Cert.KernelIdeal.Gen.main_part7_ops1
theorem keepR_w7_s1_main_arg11 (WR : ValR F) :
    after Cert.ReferenceIdeal.Hand.w7_s1 WR (Proc.devRef .tc Cert.ReferenceIdeal.main_arg11) = WR (Proc.devRef .tc Cert.ReferenceIdeal.main_arg11) := by
  keep_step Cert.ReferenceIdeal.Hand.w7_s1
theorem keepK_w7_s1_main_v146 (WK : ValK F) :
    after Cert.KernelIdeal.Gen.main_part7_ops1 WK (Proc.devRef .tc Cert.KernelIdeal.main_v146) = WK (Proc.devRef .tc Cert.KernelIdeal.main_v146) := by
  keep_step Cert.KernelIdeal.Gen.main_part7_ops1
theorem keepR_w7_s1_main_v146 (WR : ValR F) :
    after Cert.ReferenceIdeal.Hand.w7_s1 WR (Proc.devRef .tc Cert.ReferenceIdeal.main_v146) = WR (Proc.devRef .tc Cert.ReferenceIdeal.main_v146) := by
  keep_step Cert.ReferenceIdeal.Hand.w7_s1
theorem keepK_w7_s1_main_v167 (WK : ValK F) :
    after Cert.KernelIdeal.Gen.main_part7_ops1 WK (Proc.devRef .tc Cert.KernelIdeal.main_v167) = WK (Proc.devRef .tc Cert.KernelIdeal.main_v167) := by
  keep_step Cert.KernelIdeal.Gen.main_part7_ops1
theorem keepR_w7_s1_main_v167 (WR : ValR F) :
    after Cert.ReferenceIdeal.Hand.w7_s1 WR (Proc.devRef .tc Cert.ReferenceIdeal.main_v167) = WR (Proc.devRef .tc Cert.ReferenceIdeal.main_v167) := by
  keep_step Cert.ReferenceIdeal.Hand.w7_s1
theorem keepK_w7_s1_main_v169 (WK : ValK F) :
    after Cert.KernelIdeal.Gen.main_part7_ops1 WK (Proc.devRef .tc Cert.KernelIdeal.main_v169) = WK (Proc.devRef .tc Cert.KernelIdeal.main_v169) := by
  keep_step Cert.KernelIdeal.Gen.main_part7_ops1
theorem keepR_w7_s1_main_v169 (WR : ValR F) :
    after Cert.ReferenceIdeal.Hand.w7_s1 WR (Proc.devRef .tc Cert.ReferenceIdeal.main_v169) = WR (Proc.devRef .tc Cert.ReferenceIdeal.main_v169) := by
  keep_step Cert.ReferenceIdeal.Hand.w7_s1
theorem keepK_w7_s1_main_v171 (WK : ValK F) :
    after Cert.KernelIdeal.Gen.main_part7_ops1 WK (Proc.devRef .tc Cert.KernelIdeal.main_v171) = WK (Proc.devRef .tc Cert.KernelIdeal.main_v171) := by
  keep_step Cert.KernelIdeal.Gen.main_part7_ops1
theorem keepR_w7_s1_main_v171 (WR : ValR F) :
    after Cert.ReferenceIdeal.Hand.w7_s1 WR (Proc.devRef .tc Cert.ReferenceIdeal.main_v171) = WR (Proc.devRef .tc Cert.ReferenceIdeal.main_v171) := by
  keep_step Cert.ReferenceIdeal.Hand.w7_s1
theorem keepK_w7_s1_main_v176 (WK : ValK F) :
    after Cert.KernelIdeal.Gen.main_part7_ops1 WK (Proc.devRef .tc Cert.KernelIdeal.main_v176) = WK (Proc.devRef .tc Cert.KernelIdeal.main_v176) := by
  keep_step Cert.KernelIdeal.Gen.main_part7_ops1
theorem keepR_w7_s1_main_v176 (WR : ValR F) :
    after Cert.ReferenceIdeal.Hand.w7_s1 WR (Proc.devRef .tc Cert.ReferenceIdeal.main_v176) = WR (Proc.devRef .tc Cert.ReferenceIdeal.main_v176) := by
  keep_step Cert.ReferenceIdeal.Hand.w7_s1
theorem keepK_w7_s1_main_v179 (WK : ValK F) :
    after Cert.KernelIdeal.Gen.main_part7_ops1 WK (Proc.devRef .tc Cert.KernelIdeal.main_v179) = WK (Proc.devRef .tc Cert.KernelIdeal.main_v179) := by
  keep_step Cert.KernelIdeal.Gen.main_part7_ops1
theorem keepR_w7_s1_main_v179 (WR : ValR F) :
    after Cert.ReferenceIdeal.Hand.w7_s1 WR (Proc.devRef .tc Cert.ReferenceIdeal.main_v179) = WR (Proc.devRef .tc Cert.ReferenceIdeal.main_v179) := by
  keep_step Cert.ReferenceIdeal.Hand.w7_s1
theorem keepK_w7_s1_main_v180 (WK : ValK F) :
    after Cert.KernelIdeal.Gen.main_part7_ops1 WK (Proc.devRef .tc Cert.KernelIdeal.main_v180) = WK (Proc.devRef .tc Cert.KernelIdeal.main_v180) := by
  keep_step Cert.KernelIdeal.Gen.main_part7_ops1
theorem keepR_w7_s1_main_v180 (WR : ValR F) :
    after Cert.ReferenceIdeal.Hand.w7_s1 WR (Proc.devRef .tc Cert.ReferenceIdeal.main_v180) = WR (Proc.devRef .tc Cert.ReferenceIdeal.main_v180) := by
  keep_step Cert.ReferenceIdeal.Hand.w7_s1
theorem keepK_w7_s1_main_v181 (WK : ValK F) :
    after Cert.KernelIdeal.Gen.main_part7_ops1 WK (Proc.devRef .tc Cert.KernelIdeal.main_v181) = WK (Proc.devRef .tc Cert.KernelIdeal.main_v181) := by
  keep_step Cert.KernelIdeal.Gen.main_part7_ops1
theorem keepR_w7_s1_main_v181 (WR : ValR F) :
    after Cert.ReferenceIdeal.Hand.w7_s1 WR (Proc.devRef .tc Cert.ReferenceIdeal.main_v181) = WR (Proc.devRef .tc Cert.ReferenceIdeal.main_v181) := by
  keep_step Cert.ReferenceIdeal.Hand.w7_s1
theorem keepK_w7_s1_main_v198 (WK : ValK F) :
    after Cert.KernelIdeal.Gen.main_part7_ops1 WK (Proc.devRef .tc Cert.KernelIdeal.main_v198) = WK (Proc.devRef .tc Cert.KernelIdeal.main_v198) := by
  keep_step Cert.KernelIdeal.Gen.main_part7_ops1
theorem keepR_w7_s1_main_v198 (WR : ValR F) :
    after Cert.ReferenceIdeal.Hand.w7_s1 WR (Proc.devRef .tc Cert.ReferenceIdeal.main_v198) = WR (Proc.devRef .tc Cert.ReferenceIdeal.main_v198) := by
  keep_step Cert.ReferenceIdeal.Hand.w7_s1
theorem keepK_w7_s1_main_v222 (WK : ValK F) :
    after Cert.KernelIdeal.Gen.main_part7_ops1 WK (Proc.devRef .tc Cert.KernelIdeal.main_v222) = WK (Proc.devRef .tc Cert.KernelIdeal.main_v222) := by
  keep_step Cert.KernelIdeal.Gen.main_part7_ops1
theorem keepR_w7_s1_main_v222 (WR : ValR F) :
    after Cert.ReferenceIdeal.Hand.w7_s1 WR (Proc.devRef .tc Cert.ReferenceIdeal.main_v222) = WR (Proc.devRef .tc Cert.ReferenceIdeal.main_v222) := by
  keep_step Cert.ReferenceIdeal.Hand.w7_s1
theorem keepK_w7_s1_main_v228 (WK : ValK F) :
    after Cert.KernelIdeal.Gen.main_part7_ops1 WK (Proc.devRef .tc Cert.KernelIdeal.main_v228) = WK (Proc.devRef .tc Cert.KernelIdeal.main_v228) := by
  keep_step Cert.KernelIdeal.Gen.main_part7_ops1
theorem keepR_w7_s1_main_v228 (WR : ValR F) :
    after Cert.ReferenceIdeal.Hand.w7_s1 WR (Proc.devRef .tc Cert.ReferenceIdeal.main_v228) = WR (Proc.devRef .tc Cert.ReferenceIdeal.main_v228) := by
  keep_step Cert.ReferenceIdeal.Hand.w7_s1
theorem phiK_w7_s1_main_v264 (WK : ValK F) :
    @Eq ((⟨S16x3x224x224, .f32⟩ : BufTy).Contents (Elt F)) (after Cert.KernelIdeal.Gen.main_part7_ops1 WK (Proc.devRef .tc Cert.KernelIdeal.main_v264))
      (phi_w7_s1_main_v264 (WK (Proc.devRef .tc Cert.KernelIdeal.main_v235)) (WK (Proc.devRef .tc Cert.KernelIdeal.main_v255)) (WK (Proc.devRef .tc Cert.KernelIdeal.main_v263))) := by
  phi_step Cert.KernelIdeal.Gen.main_part7_ops1 phi_w7_s1_main_v264
theorem phiR_w7_s1_main_v264 (WR : ValR F) :
    @Eq ((⟨S16x3x224x224, .f32⟩ : BufTy).Contents (Elt F)) (after Cert.ReferenceIdeal.Hand.w7_s1 WR (Proc.devRef .tc Cert.ReferenceIdeal.main_v264))
      (phi_w7_s1_main_v264 (WR (Proc.devRef .tc Cert.ReferenceIdeal.main_v235)) (WR (Proc.devRef .tc Cert.ReferenceIdeal.main_v255)) (WR (Proc.devRef .tc Cert.ReferenceIdeal.main_v263))) := by
  phi_step Cert.ReferenceIdeal.Hand.w7_s1 phi_w7_s1_main_v264

theorem sim_w7_s1 (WK : ValK F) (WR : ValR F) (h : Inv31 WK WR) :
    Inv32 (after Cert.KernelIdeal.Gen.main_part7_ops1 WK) (after Cert.ReferenceIdeal.Hand.w7_s1 WR) := by
  sim_step h Inv31 Inv32 [keepK_w7_s1_main_arg10, keepR_w7_s1_main_arg10, keepK_w7_s1_main_arg11, keepR_w7_s1_main_arg11, keepK_w7_s1_main_v146, keepR_w7_s1_main_v146, keepK_w7_s1_main_v167, keepR_w7_s1_main_v167, keepK_w7_s1_main_v169, keepR_w7_s1_main_v169, keepK_w7_s1_main_v171, keepR_w7_s1_main_v171, keepK_w7_s1_main_v176, keepR_w7_s1_main_v176, keepK_w7_s1_main_v179, keepR_w7_s1_main_v179, keepK_w7_s1_main_v180, keepR_w7_s1_main_v180, keepK_w7_s1_main_v181, keepR_w7_s1_main_v181, keepK_w7_s1_main_v198, keepR_w7_s1_main_v198, keepK_w7_s1_main_v222, keepR_w7_s1_main_v222, keepK_w7_s1_main_v228, keepR_w7_s1_main_v228, phiK_w7_s1_main_v264, phiR_w7_s1_main_v264]

theorem keepK_w7_s2_main_arg10 (WK : ValK F) :
    after Cert.KernelIdeal.Gen.main_part7_ops2 WK (Proc.devRef .tc Cert.KernelIdeal.main_arg10) = WK (Proc.devRef .tc Cert.KernelIdeal.main_arg10) := by
  keep_step Cert.KernelIdeal.Gen.main_part7_ops2
theorem keepR_w7_s2_main_arg10 (WR : ValR F) :
    after Cert.ReferenceIdeal.Hand.w7_s2 WR (Proc.devRef .tc Cert.ReferenceIdeal.main_arg10) = WR (Proc.devRef .tc Cert.ReferenceIdeal.main_arg10) := by
  keep_step Cert.ReferenceIdeal.Hand.w7_s2
theorem keepK_w7_s2_main_arg11 (WK : ValK F) :
    after Cert.KernelIdeal.Gen.main_part7_ops2 WK (Proc.devRef .tc Cert.KernelIdeal.main_arg11) = WK (Proc.devRef .tc Cert.KernelIdeal.main_arg11) := by
  keep_step Cert.KernelIdeal.Gen.main_part7_ops2
theorem keepR_w7_s2_main_arg11 (WR : ValR F) :
    after Cert.ReferenceIdeal.Hand.w7_s2 WR (Proc.devRef .tc Cert.ReferenceIdeal.main_arg11) = WR (Proc.devRef .tc Cert.ReferenceIdeal.main_arg11) := by
  keep_step Cert.ReferenceIdeal.Hand.w7_s2
theorem keepK_w7_s2_main_v146 (WK : ValK F) :
    after Cert.KernelIdeal.Gen.main_part7_ops2 WK (Proc.devRef .tc Cert.KernelIdeal.main_v146) = WK (Proc.devRef .tc Cert.KernelIdeal.main_v146) := by
  keep_step Cert.KernelIdeal.Gen.main_part7_ops2
theorem keepR_w7_s2_main_v146 (WR : ValR F) :
    after Cert.ReferenceIdeal.Hand.w7_s2 WR (Proc.devRef .tc Cert.ReferenceIdeal.main_v146) = WR (Proc.devRef .tc Cert.ReferenceIdeal.main_v146) := by
  keep_step Cert.ReferenceIdeal.Hand.w7_s2
theorem keepK_w7_s2_main_v167 (WK : ValK F) :
    after Cert.KernelIdeal.Gen.main_part7_ops2 WK (Proc.devRef .tc Cert.KernelIdeal.main_v167) = WK (Proc.devRef .tc Cert.KernelIdeal.main_v167) := by
  keep_step Cert.KernelIdeal.Gen.main_part7_ops2
theorem keepR_w7_s2_main_v167 (WR : ValR F) :
    after Cert.ReferenceIdeal.Hand.w7_s2 WR (Proc.devRef .tc Cert.ReferenceIdeal.main_v167) = WR (Proc.devRef .tc Cert.ReferenceIdeal.main_v167) := by
  keep_step Cert.ReferenceIdeal.Hand.w7_s2
theorem keepK_w7_s2_main_v169 (WK : ValK F) :
    after Cert.KernelIdeal.Gen.main_part7_ops2 WK (Proc.devRef .tc Cert.KernelIdeal.main_v169) = WK (Proc.devRef .tc Cert.KernelIdeal.main_v169) := by
  keep_step Cert.KernelIdeal.Gen.main_part7_ops2
theorem keepR_w7_s2_main_v169 (WR : ValR F) :
    after Cert.ReferenceIdeal.Hand.w7_s2 WR (Proc.devRef .tc Cert.ReferenceIdeal.main_v169) = WR (Proc.devRef .tc Cert.ReferenceIdeal.main_v169) := by
  keep_step Cert.ReferenceIdeal.Hand.w7_s2
theorem keepK_w7_s2_main_v171 (WK : ValK F) :
    after Cert.KernelIdeal.Gen.main_part7_ops2 WK (Proc.devRef .tc Cert.KernelIdeal.main_v171) = WK (Proc.devRef .tc Cert.KernelIdeal.main_v171) := by
  keep_step Cert.KernelIdeal.Gen.main_part7_ops2
theorem keepR_w7_s2_main_v171 (WR : ValR F) :
    after Cert.ReferenceIdeal.Hand.w7_s2 WR (Proc.devRef .tc Cert.ReferenceIdeal.main_v171) = WR (Proc.devRef .tc Cert.ReferenceIdeal.main_v171) := by
  keep_step Cert.ReferenceIdeal.Hand.w7_s2
theorem keepK_w7_s2_main_v176 (WK : ValK F) :
    after Cert.KernelIdeal.Gen.main_part7_ops2 WK (Proc.devRef .tc Cert.KernelIdeal.main_v176) = WK (Proc.devRef .tc Cert.KernelIdeal.main_v176) := by
  keep_step Cert.KernelIdeal.Gen.main_part7_ops2
theorem keepR_w7_s2_main_v176 (WR : ValR F) :
    after Cert.ReferenceIdeal.Hand.w7_s2 WR (Proc.devRef .tc Cert.ReferenceIdeal.main_v176) = WR (Proc.devRef .tc Cert.ReferenceIdeal.main_v176) := by
  keep_step Cert.ReferenceIdeal.Hand.w7_s2
theorem keepK_w7_s2_main_v180 (WK : ValK F) :
    after Cert.KernelIdeal.Gen.main_part7_ops2 WK (Proc.devRef .tc Cert.KernelIdeal.main_v180) = WK (Proc.devRef .tc Cert.KernelIdeal.main_v180) := by
  keep_step Cert.KernelIdeal.Gen.main_part7_ops2
theorem keepR_w7_s2_main_v180 (WR : ValR F) :
    after Cert.ReferenceIdeal.Hand.w7_s2 WR (Proc.devRef .tc Cert.ReferenceIdeal.main_v180) = WR (Proc.devRef .tc Cert.ReferenceIdeal.main_v180) := by
  keep_step Cert.ReferenceIdeal.Hand.w7_s2
theorem keepK_w7_s2_main_v181 (WK : ValK F) :
    after Cert.KernelIdeal.Gen.main_part7_ops2 WK (Proc.devRef .tc Cert.KernelIdeal.main_v181) = WK (Proc.devRef .tc Cert.KernelIdeal.main_v181) := by
  keep_step Cert.KernelIdeal.Gen.main_part7_ops2
theorem keepR_w7_s2_main_v181 (WR : ValR F) :
    after Cert.ReferenceIdeal.Hand.w7_s2 WR (Proc.devRef .tc Cert.ReferenceIdeal.main_v181) = WR (Proc.devRef .tc Cert.ReferenceIdeal.main_v181) := by
  keep_step Cert.ReferenceIdeal.Hand.w7_s2
theorem keepK_w7_s2_main_v198 (WK : ValK F) :
    after Cert.KernelIdeal.Gen.main_part7_ops2 WK (Proc.devRef .tc Cert.KernelIdeal.main_v198) = WK (Proc.devRef .tc Cert.KernelIdeal.main_v198) := by
  keep_step Cert.KernelIdeal.Gen.main_part7_ops2
theorem keepR_w7_s2_main_v198 (WR : ValR F) :
    after Cert.ReferenceIdeal.Hand.w7_s2 WR (Proc.devRef .tc Cert.ReferenceIdeal.main_v198) = WR (Proc.devRef .tc Cert.ReferenceIdeal.main_v198) := by
  keep_step Cert.ReferenceIdeal.Hand.w7_s2
theorem keepK_w7_s2_main_v222 (WK : ValK F) :
    after Cert.KernelIdeal.Gen.main_part7_ops2 WK (Proc.devRef .tc Cert.KernelIdeal.main_v222) = WK (Proc.devRef .tc Cert.KernelIdeal.main_v222) := by
  keep_step Cert.KernelIdeal.Gen.main_part7_ops2
theorem keepR_w7_s2_main_v222 (WR : ValR F) :
    after Cert.ReferenceIdeal.Hand.w7_s2 WR (Proc.devRef .tc Cert.ReferenceIdeal.main_v222) = WR (Proc.devRef .tc Cert.ReferenceIdeal.main_v222) := by
  keep_step Cert.ReferenceIdeal.Hand.w7_s2
theorem keepK_w7_s2_main_v228 (WK : ValK F) :
    after Cert.KernelIdeal.Gen.main_part7_ops2 WK (Proc.devRef .tc Cert.KernelIdeal.main_v228) = WK (Proc.devRef .tc Cert.KernelIdeal.main_v228) := by
  keep_step Cert.KernelIdeal.Gen.main_part7_ops2
theorem keepR_w7_s2_main_v228 (WR : ValR F) :
    after Cert.ReferenceIdeal.Hand.w7_s2 WR (Proc.devRef .tc Cert.ReferenceIdeal.main_v228) = WR (Proc.devRef .tc Cert.ReferenceIdeal.main_v228) := by
  keep_step Cert.ReferenceIdeal.Hand.w7_s2
theorem keepK_w7_s2_main_v264 (WK : ValK F) :
    after Cert.KernelIdeal.Gen.main_part7_ops2 WK (Proc.devRef .tc Cert.KernelIdeal.main_v264) = WK (Proc.devRef .tc Cert.KernelIdeal.main_v264) := by
  keep_step Cert.KernelIdeal.Gen.main_part7_ops2
theorem keepR_w7_s2_main_v264 (WR : ValR F) :
    after Cert.ReferenceIdeal.Hand.w7_s2 WR (Proc.devRef .tc Cert.ReferenceIdeal.main_v264) = WR (Proc.devRef .tc Cert.ReferenceIdeal.main_v264) := by
  keep_step Cert.ReferenceIdeal.Hand.w7_s2
theorem phiK_w7_s2_main_v271 (WK : ValK F) :
    @Eq ((⟨S16x224, .i32⟩ : BufTy).Contents (Elt F)) (after Cert.KernelIdeal.Gen.main_part7_ops2 WK (Proc.devRef .tc Cert.KernelIdeal.main_v271))
      (phi_w7_s2_main_v271 (WK (Proc.devRef .tc Cert.KernelIdeal.main_arg10)) (WK (Proc.devRef .tc Cert.KernelIdeal.main_v179))) := by
  phi_step Cert.KernelIdeal.Gen.main_part7_ops2 phi_w7_s2_main_v271
theorem phiR_w7_s2_main_v271 (WR : ValR F) :
    @Eq ((⟨S16x224, .i32⟩ : BufTy).Contents (Elt F)) (after Cert.ReferenceIdeal.Hand.w7_s2 WR (Proc.devRef .tc Cert.ReferenceIdeal.main_v271))
      (phi_w7_s2_main_v271 (WR (Proc.devRef .tc Cert.ReferenceIdeal.main_arg10)) (WR (Proc.devRef .tc Cert.ReferenceIdeal.main_v179))) := by
  phi_step Cert.ReferenceIdeal.Hand.w7_s2 phi_w7_s2_main_v271
theorem phiK_w7_s2_main_v274 (WK : ValK F) :
    @Eq ((⟨S16x224, .i32⟩ : BufTy).Contents (Elt F)) (after Cert.KernelIdeal.Gen.main_part7_ops2 WK (Proc.devRef .tc Cert.KernelIdeal.main_v274))
      (phi_w7_s2_main_v274 (WK (Proc.devRef .tc Cert.KernelIdeal.main_arg10)) (WK (Proc.devRef .tc Cert.KernelIdeal.main_v176)) (WK (Proc.devRef .tc Cert.KernelIdeal.main_v179))) := by
  phi_step Cert.KernelIdeal.Gen.main_part7_ops2 phi_w7_s2_main_v274
theorem phiR_w7_s2_main_v274 (WR : ValR F) :
    @Eq ((⟨S16x224, .i32⟩ : BufTy).Contents (Elt F)) (after Cert.ReferenceIdeal.Hand.w7_s2 WR (Proc.devRef .tc Cert.ReferenceIdeal.main_v274))
      (phi_w7_s2_main_v274 (WR (Proc.devRef .tc Cert.ReferenceIdeal.main_arg10)) (WR (Proc.devRef .tc Cert.ReferenceIdeal.main_v176)) (WR (Proc.devRef .tc Cert.ReferenceIdeal.main_v179))) := by
  phi_step Cert.ReferenceIdeal.Hand.w7_s2 phi_w7_s2_main_v274
theorem phiK_w7_s2_main_c_162 (WK : ValK F) :
    @Eq ((⟨S_, .i32⟩ : BufTy).Contents (Elt F)) (after Cert.KernelIdeal.Gen.main_part7_ops2 WK (Proc.devRef .tc Cert.KernelIdeal.main_c_162))
      (phi_w7_s2_main_c_162) := by
  phi_step Cert.KernelIdeal.Gen.main_part7_ops2 phi_w7_s2_main_c_162
theorem phiR_w7_s2_main_c_162 (WR : ValR F) :
    @Eq ((⟨S_, .i32⟩ : BufTy).Contents (Elt F)) (after Cert.ReferenceIdeal.Hand.w7_s2 WR (Proc.devRef .tc Cert.ReferenceIdeal.main_c_162))
      (phi_w7_s2_main_c_162) := by
  phi_step Cert.ReferenceIdeal.Hand.w7_s2 phi_w7_s2_main_c_162

theorem sim_w7_s2 (WK : ValK F) (WR : ValR F) (h : Inv32 WK WR) :
    Inv33 (after Cert.KernelIdeal.Gen.main_part7_ops2 WK) (after Cert.ReferenceIdeal.Hand.w7_s2 WR) := by
  sim_step h Inv32 Inv33 [keepK_w7_s2_main_arg10, keepR_w7_s2_main_arg10, keepK_w7_s2_main_arg11, keepR_w7_s2_main_arg11, keepK_w7_s2_main_v146, keepR_w7_s2_main_v146, keepK_w7_s2_main_v167, keepR_w7_s2_main_v167, keepK_w7_s2_main_v169, keepR_w7_s2_main_v169, keepK_w7_s2_main_v171, keepR_w7_s2_main_v171, keepK_w7_s2_main_v176, keepR_w7_s2_main_v176, keepK_w7_s2_main_v180, keepR_w7_s2_main_v180, keepK_w7_s2_main_v181, keepR_w7_s2_main_v181, keepK_w7_s2_main_v198, keepR_w7_s2_main_v198, keepK_w7_s2_main_v222, keepR_w7_s2_main_v222, keepK_w7_s2_main_v228, keepR_w7_s2_main_v228, keepK_w7_s2_main_v264, keepR_w7_s2_main_v264, phiK_w7_s2_main_v271, phiR_w7_s2_main_v271, phiK_w7_s2_main_v274, phiR_w7_s2_main_v274, phiK_w7_s2_main_c_162, phiR_w7_s2_main_c_162]

theorem keepK_w7_s3_main_arg10 (WK : ValK F) :
    after Cert.KernelIdeal.Gen.main_part7_ops3 WK (Proc.devRef .tc Cert.KernelIdeal.main_arg10) = WK (Proc.devRef .tc Cert.KernelIdeal.main_arg10) := by
  keep_step Cert.KernelIdeal.Gen.main_part7_ops3
theorem keepR_w7_s3_main_arg10 (WR : ValR F) :
    after Cert.ReferenceIdeal.Hand.w7_s3 WR (Proc.devRef .tc Cert.ReferenceIdeal.main_arg10) = WR (Proc.devRef .tc Cert.ReferenceIdeal.main_arg10) := by
  keep_step Cert.ReferenceIdeal.Hand.w7_s3
theorem keepK_w7_s3_main_arg11 (WK : ValK F) :
    after Cert.KernelIdeal.Gen.main_part7_ops3 WK (Proc.devRef .tc Cert.KernelIdeal.main_arg11) = WK (Proc.devRef .tc Cert.KernelIdeal.main_arg11) := by
  keep_step Cert.KernelIdeal.Gen.main_part7_ops3
theorem keepR_w7_s3_main_arg11 (WR : ValR F) :
    after Cert.ReferenceIdeal.Hand.w7_s3 WR (Proc.devRef .tc Cert.ReferenceIdeal.main_arg11) = WR (Proc.devRef .tc Cert.ReferenceIdeal.main_arg11) := by
  keep_step Cert.ReferenceIdeal.Hand.w7_s3
theorem keepK_w7_s3_main_v146 (WK : ValK F) :
    after Cert.KernelIdeal.Gen.main_part7_ops3 WK (Proc.devRef .tc Cert.KernelIdeal.main_v146) = WK (Proc.devRef .tc Cert.KernelIdeal.main_v146) := by
  keep_step Cert.KernelIdeal.Gen.main_part7_ops3
theorem keepR_w7_s3_main_v146 (WR : ValR F) :
    after Cert.ReferenceIdeal.Hand.w7_s3 WR (Proc.devRef .tc Cert.ReferenceIdeal.main_v146) = WR (Proc.devRef .tc Cert.ReferenceIdeal.main_v146) := by
  keep_step Cert.ReferenceIdeal.Hand.w7_s3
theorem keepK_w7_s3_main_v167 (WK : ValK F) :
    after Cert.KernelIdeal.Gen.main_part7_ops3 WK (Proc.devRef .tc Cert.KernelIdeal.main_v167) = WK (Proc.devRef .tc Cert.KernelIdeal.main_v167) := by
  keep_step Cert.KernelIdeal.Gen.main_part7_ops3
theorem keepR_w7_s3_main_v167 (WR : ValR F) :
    after Cert.ReferenceIdeal.Hand.w7_s3 WR (Proc.devRef .tc Cert.ReferenceIdeal.main_v167) = WR (Proc.devRef .tc Cert.ReferenceIdeal.main_v167) := by
  keep_step Cert.ReferenceIdeal.Hand.w7_s3
theorem keepK_w7_s3_main_v169 (WK : ValK F) :
    after Cert.KernelIdeal.Gen.main_part7_ops3 WK (Proc.devRef .tc Cert.KernelIdeal.main_v169) = WK (Proc.devRef .tc Cert.KernelIdeal.main_v169) := by
  keep_step Cert.KernelIdeal.Gen.main_part7_ops3
theorem keepR_w7_s3_main_v169 (WR : ValR F) :
    after Cert.ReferenceIdeal.Hand.w7_s3 WR (Proc.devRef .tc Cert.ReferenceIdeal.main_v169) = WR (Proc.devRef .tc Cert.ReferenceIdeal.main_v169) := by
  keep_step Cert.ReferenceIdeal.Hand.w7_s3
theorem keepK_w7_s3_main_v171 (WK : ValK F) :
    after Cert.KernelIdeal.Gen.main_part7_ops3 WK (Proc.devRef .tc Cert.KernelIdeal.main_v171) = WK (Proc.devRef .tc Cert.KernelIdeal.main_v171) := by
  keep_step Cert.KernelIdeal.Gen.main_part7_ops3
theorem keepR_w7_s3_main_v171 (WR : ValR F) :
    after Cert.ReferenceIdeal.Hand.w7_s3 WR (Proc.devRef .tc Cert.ReferenceIdeal.main_v171) = WR (Proc.devRef .tc Cert.ReferenceIdeal.main_v171) := by
  keep_step Cert.ReferenceIdeal.Hand.w7_s3
theorem keepK_w7_s3_main_v176 (WK : ValK F) :
    after Cert.KernelIdeal.Gen.main_part7_ops3 WK (Proc.devRef .tc Cert.KernelIdeal.main_v176) = WK (Proc.devRef .tc Cert.KernelIdeal.main_v176) := by
  keep_step Cert.KernelIdeal.Gen.main_part7_ops3
theorem keepR_w7_s3_main_v176 (WR : ValR F) :
    after Cert.ReferenceIdeal.Hand.w7_s3 WR (Proc.devRef .tc Cert.ReferenceIdeal.main_v176) = WR (Proc.devRef .tc Cert.ReferenceIdeal.main_v176) := by
  keep_step Cert.ReferenceIdeal.Hand.w7_s3
theorem keepK_w7_s3_main_v180 (WK : ValK F) :
    after Cert.KernelIdeal.Gen.main_part7_ops3 WK (Proc.devRef .tc Cert.KernelIdeal.main_v180) = WK (Proc.devRef .tc Cert.KernelIdeal.main_v180) := by
  keep_step Cert.KernelIdeal.Gen.main_part7_ops3
theorem keepR_w7_s3_main_v180 (WR : ValR F) :
    after Cert.ReferenceIdeal.Hand.w7_s3 WR (Proc.devRef .tc Cert.ReferenceIdeal.main_v180) = WR (Proc.devRef .tc Cert.ReferenceIdeal.main_v180) := by
  keep_step Cert.ReferenceIdeal.Hand.w7_s3
theorem keepK_w7_s3_main_v181 (WK : ValK F) :
    after Cert.KernelIdeal.Gen.main_part7_ops3 WK (Proc.devRef .tc Cert.KernelIdeal.main_v181) = WK (Proc.devRef .tc Cert.KernelIdeal.main_v181) := by
  keep_step Cert.KernelIdeal.Gen.main_part7_ops3
theorem keepR_w7_s3_main_v181 (WR : ValR F) :
    after Cert.ReferenceIdeal.Hand.w7_s3 WR (Proc.devRef .tc Cert.ReferenceIdeal.main_v181) = WR (Proc.devRef .tc Cert.ReferenceIdeal.main_v181) := by
  keep_step Cert.ReferenceIdeal.Hand.w7_s3
theorem keepK_w7_s3_main_v198 (WK : ValK F) :
    after Cert.KernelIdeal.Gen.main_part7_ops3 WK (Proc.devRef .tc Cert.KernelIdeal.main_v198) = WK (Proc.devRef .tc Cert.KernelIdeal.main_v198) := by
  keep_step Cert.KernelIdeal.Gen.main_part7_ops3
theorem keepR_w7_s3_main_v198 (WR : ValR F) :
    after Cert.ReferenceIdeal.Hand.w7_s3 WR (Proc.devRef .tc Cert.ReferenceIdeal.main_v198) = WR (Proc.devRef .tc Cert.ReferenceIdeal.main_v198) := by
  keep_step Cert.ReferenceIdeal.Hand.w7_s3
theorem keepK_w7_s3_main_v222 (WK : ValK F) :
    after Cert.KernelIdeal.Gen.main_part7_ops3 WK (Proc.devRef .tc Cert.KernelIdeal.main_v222) = WK (Proc.devRef .tc Cert.KernelIdeal.main_v222) := by
  keep_step Cert.KernelIdeal.Gen.main_part7_ops3
theorem keepR_w7_s3_main_v222 (WR : ValR F) :
    after Cert.ReferenceIdeal.Hand.w7_s3 WR (Proc.devRef .tc Cert.ReferenceIdeal.main_v222) = WR (Proc.devRef .tc Cert.ReferenceIdeal.main_v222) := by
  keep_step Cert.ReferenceIdeal.Hand.w7_s3
theorem keepK_w7_s3_main_v228 (WK : ValK F) :
    after Cert.KernelIdeal.Gen.main_part7_ops3 WK (Proc.devRef .tc Cert.KernelIdeal.main_v228) = WK (Proc.devRef .tc Cert.KernelIdeal.main_v228) := by
  keep_step Cert.KernelIdeal.Gen.main_part7_ops3
theorem keepR_w7_s3_main_v228 (WR : ValR F) :
    after Cert.ReferenceIdeal.Hand.w7_s3 WR (Proc.devRef .tc Cert.ReferenceIdeal.main_v228) = WR (Proc.devRef .tc Cert.ReferenceIdeal.main_v228) := by
  keep_step Cert.ReferenceIdeal.Hand.w7_s3
theorem keepK_w7_s3_main_v264 (WK : ValK F) :
    after Cert.KernelIdeal.Gen.main_part7_ops3 WK (Proc.devRef .tc Cert.KernelIdeal.main_v264) = WK (Proc.devRef .tc Cert.KernelIdeal.main_v264) := by
  keep_step Cert.KernelIdeal.Gen.main_part7_ops3
theorem keepR_w7_s3_main_v264 (WR : ValR F) :
    after Cert.ReferenceIdeal.Hand.w7_s3 WR (Proc.devRef .tc Cert.ReferenceIdeal.main_v264) = WR (Proc.devRef .tc Cert.ReferenceIdeal.main_v264) := by
  keep_step Cert.ReferenceIdeal.Hand.w7_s3
theorem keepK_w7_s3_main_v271 (WK : ValK F) :
    after Cert.KernelIdeal.Gen.main_part7_ops3 WK (Proc.devRef .tc Cert.KernelIdeal.main_v271) = WK (Proc.devRef .tc Cert.KernelIdeal.main_v271) := by
  keep_step Cert.KernelIdeal.Gen.main_part7_ops3
theorem keepR_w7_s3_main_v271 (WR : ValR F) :
    after Cert.ReferenceIdeal.Hand.w7_s3 WR (Proc.devRef .tc Cert.ReferenceIdeal.main_v271) = WR (Proc.devRef .tc Cert.ReferenceIdeal.main_v271) := by
  keep_step Cert.ReferenceIdeal.Hand.w7_s3
theorem phiK_w7_s3_main_v275 (WK : ValK F) :
    @Eq ((⟨S16x224, .i32⟩ : BufTy).Contents (Elt F)) (after Cert.KernelIdeal.Gen.main_part7_ops3 WK (Proc.devRef .tc Cert.KernelIdeal.main_v275))
      (phi_w7_s3_main_v275 (WK (Proc.devRef .tc Cert.KernelIdeal.main_v274)) (WK (Proc.devRef .tc Cert.KernelIdeal.main_c_162))) := by
  phi_step Cert.KernelIdeal.Gen.main_part7_ops3 phi_w7_s3_main_v275
theorem phiR_w7_s3_main_v275 (WR : ValR F) :
    @Eq ((⟨S16x224, .i32⟩ : BufTy).Contents (Elt F)) (after Cert.ReferenceIdeal.Hand.w7_s3 WR (Proc.devRef .tc Cert.ReferenceIdeal.main_v275))
      (phi_w7_s3_main_v275 (WR (Proc.devRef .tc Cert.ReferenceIdeal.main_v274)) (WR (Proc.devRef .tc Cert.ReferenceIdeal.main_c_162))) := by
  phi_step Cert.ReferenceIdeal.Hand.w7_s3 phi_w7_s3_main_v275

theorem sim_w7_s3 (WK : ValK F) (WR : ValR F) (h : Inv33 WK WR) :
    Inv34 (after Cert.KernelIdeal.Gen.main_part7_ops3 WK) (after Cert.ReferenceIdeal.Hand.w7_s3 WR) := by
  sim_step h Inv33 Inv34 [keepK_w7_s3_main_arg10, keepR_w7_s3_main_arg10, keepK_w7_s3_main_arg11, keepR_w7_s3_main_arg11, keepK_w7_s3_main_v146, keepR_w7_s3_main_v146, keepK_w7_s3_main_v167, keepR_w7_s3_main_v167, keepK_w7_s3_main_v169, keepR_w7_s3_main_v169, keepK_w7_s3_main_v171, keepR_w7_s3_main_v171, keepK_w7_s3_main_v176, keepR_w7_s3_main_v176, keepK_w7_s3_main_v180, keepR_w7_s3_main_v180, keepK_w7_s3_main_v181, keepR_w7_s3_main_v181, keepK_w7_s3_main_v198, keepR_w7_s3_main_v198, keepK_w7_s3_main_v222, keepR_w7_s3_main_v222, keepK_w7_s3_main_v228, keepR_w7_s3_main_v228, keepK_w7_s3_main_v264, keepR_w7_s3_main_v264, keepK_w7_s3_main_v271, keepR_w7_s3_main_v271, phiK_w7_s3_main_v275, phiR_w7_s3_main_v275]

theorem keepK_w7_s4_main_arg10 (WK : ValK F) :
    after Cert.KernelIdeal.Gen.main_part7_ops4 WK (Proc.devRef .tc Cert.KernelIdeal.main_arg10) = WK (Proc.devRef .tc Cert.KernelIdeal.main_arg10) := by
  keep_step Cert.KernelIdeal.Gen.main_part7_ops4
theorem keepR_w7_s4_main_arg10 (WR : ValR F) :
    after Cert.ReferenceIdeal.Hand.w7_s4 WR (Proc.devRef .tc Cert.ReferenceIdeal.main_arg10) = WR (Proc.devRef .tc Cert.ReferenceIdeal.main_arg10) := by
  keep_step Cert.ReferenceIdeal.Hand.w7_s4
theorem keepK_w7_s4_main_arg11 (WK : ValK F) :
    after Cert.KernelIdeal.Gen.main_part7_ops4 WK (Proc.devRef .tc Cert.KernelIdeal.main_arg11) = WK (Proc.devRef .tc Cert.KernelIdeal.main_arg11) := by
  keep_step Cert.KernelIdeal.Gen.main_part7_ops4
theorem keepR_w7_s4_main_arg11 (WR : ValR F) :
    after Cert.ReferenceIdeal.Hand.w7_s4 WR (Proc.devRef .tc Cert.ReferenceIdeal.main_arg11) = WR (Proc.devRef .tc Cert.ReferenceIdeal.main_arg11) := by
  keep_step Cert.ReferenceIdeal.Hand.w7_s4
theorem keepK_w7_s4_main_v169 (WK : ValK F) :
    after Cert.KernelIdeal.Gen.main_part7_ops4 WK (Proc.devRef .tc Cert.KernelIdeal.main_v169) = WK (Proc.devRef .tc Cert.KernelIdeal.main_v169) := by
  keep_step Cert.KernelIdeal.Gen.main_part7_ops4
theorem keepR_w7_s4_main_v169 (WR : ValR F) :
    after Cert.ReferenceIdeal.Hand.w7_s4 WR (Proc.devRef .tc Cert.ReferenceIdeal.main_v169) = WR (Proc.devRef .tc Cert.ReferenceIdeal.main_v169) := by
  keep_step Cert.ReferenceIdeal.Hand.w7_s4
theorem keepK_w7_s4_main_v171 (WK : ValK F) :
    after Cert.KernelIdeal.Gen.main_part7_ops4 WK (Proc.devRef .tc Cert.KernelIdeal.main_v171) = WK (Proc.devRef .tc Cert.KernelIdeal.main_v171) := by
  keep_step Cert.KernelIdeal.Gen.main_part7_ops4
theorem keepR_w7_s4_main_v171 (WR : ValR F) :
    after Cert.ReferenceIdeal.Hand.w7_s4 WR (Proc.devRef .tc Cert.ReferenceIdeal.main_v171) = WR (Proc.devRef .tc Cert.ReferenceIdeal.main_v171) := by
  keep_step Cert.ReferenceIdeal.Hand.w7_s4
theorem keepK_w7_s4_main_v180 (WK : ValK F) :
    after Cert.KernelIdeal.Gen.main_part7_ops4 WK (Proc.devRef .tc Cert.KernelIdeal.main_v180) = WK (Proc.devRef .tc Cert.KernelIdeal.main_v180) := by
  keep_step Cert.KernelIdeal.Gen.main_part7_ops4
theorem keepR_w7_s4_main_v180 (WR : ValR F) :
    after Cert.ReferenceIdeal.Hand.w7_s4 WR (Proc.devRef .tc Cert.ReferenceIdeal.main_v180) = WR (Proc.devRef .tc Cert.ReferenceIdeal.main_v180) := by
  keep_step Cert.ReferenceIdeal.Hand.w7_s4
theorem keepK_w7_s4_main_v181 (WK : ValK F) :
    after Cert.KernelIdeal.Gen.main_part7_ops4 WK (Proc.devRef .tc Cert.KernelIdeal.main_v181) = WK (Proc.devRef .tc Cert.KernelIdeal.main_v181) := by
  keep_step Cert.KernelIdeal.Gen.main_part7_ops4
theorem keepR_w7_s4_main_v181 (WR : ValR F) :
    after Cert.ReferenceIdeal.Hand.w7_s4 WR (Proc.devRef .tc Cert.ReferenceIdeal.main_v181) = WR (Proc.devRef .tc Cert.ReferenceIdeal.main_v181) := by
  keep_step Cert.ReferenceIdeal.Hand.w7_s4
theorem keepK_w7_s4_main_v198 (WK : ValK F) :
    after Cert.KernelIdeal.Gen.main_part7_ops4 WK (Proc.devRef .tc Cert.KernelIdeal.main_v198) = WK (Proc.devRef .tc Cert.KernelIdeal.main_v198) := by
  keep_step Cert.KernelIdeal.Gen.main_part7_ops4
theorem keepR_w7_s4_main_v198 (WR : ValR F) :
    after Cert.ReferenceIdeal.Hand.w7_s4 WR (Proc.devRef .tc Cert.ReferenceIdeal.main_v198) = WR (Proc.devRef .tc Cert.ReferenceIdeal.main_v198) := by
  keep_step Cert.ReferenceIdeal.Hand.w7_s4
theorem keepK_w7_s4_main_v222 (WK : ValK F) :
    after Cert.KernelIdeal.Gen.main_part7_ops4 WK (Proc.devRef .tc Cert.KernelIdeal.main_v222) = WK (Proc.devRef .tc Cert.KernelIdeal.main_v222) := by
  keep_step Cert.KernelIdeal.Gen.main_part7_ops4
theorem keepR_w7_s4_main_v222 (WR : ValR F) :
    after Cert.ReferenceIdeal.Hand.w7_s4 WR (Proc.devRef .tc Cert.ReferenceIdeal.main_v222) = WR (Proc.devRef .tc Cert.ReferenceIdeal.main_v222) := by
  keep_step Cert.ReferenceIdeal.Hand.w7_s4
theorem keepK_w7_s4_main_v264 (WK : ValK F) :
    after Cert.KernelIdeal.Gen.main_part7_ops4 WK (Proc.devRef .tc Cert.KernelIdeal.main_v264) = WK (Proc.devRef .tc Cert.KernelIdeal.main_v264) := by
  keep_step Cert.KernelIdeal.Gen.main_part7_ops4
theorem keepR_w7_s4_main_v264 (WR : ValR F) :
    after Cert.ReferenceIdeal.Hand.w7_s4 WR (Proc.devRef .tc Cert.ReferenceIdeal.main_v264) = WR (Proc.devRef .tc Cert.ReferenceIdeal.main_v264) := by
  keep_step Cert.ReferenceIdeal.Hand.w7_s4
theorem phiK_w7_s4_main_v279 (WK : ValK F) :
    @Eq ((⟨S16x1x224, .i1⟩ : BufTy).Contents (Elt F)) (after Cert.KernelIdeal.Gen.main_part7_ops4 WK (Proc.devRef .tc Cert.KernelIdeal.main_v279))
      (phi_w7_s4_main_v279 (WK (Proc.devRef .tc Cert.KernelIdeal.main_v176)) (WK (Proc.devRef .tc Cert.KernelIdeal.main_v271))) := by
  phi_step Cert.KernelIdeal.Gen.main_part7_ops4 phi_w7_s4_main_v279
theorem phiR_w7_s4_main_v279 (WR : ValR F) :
    @Eq ((⟨S16x1x224, .i1⟩ : BufTy).Contents (Elt F)) (after Cert.ReferenceIdeal.Hand.w7_s4 WR (Proc.devRef .tc Cert.ReferenceIdeal.main_v279))
      (phi_w7_s4_main_v279 (WR (Proc.devRef .tc Cert.ReferenceIdeal.main_v176)) (WR (Proc.devRef .tc Cert.ReferenceIdeal.main_v271))) := by
  phi_step Cert.ReferenceIdeal.Hand.w7_s4 phi_w7_s4_main_v279
theorem phiK_w7_s4_main_v287 (WK : ValK F) :
    @Eq ((⟨S16x3x224x1, .f32⟩ : BufTy).Contents (Elt F)) (after Cert.KernelIdeal.Gen.main_part7_ops4 WK (Proc.devRef .tc Cert.KernelIdeal.main_v287))
      (phi_w7_s4_main_v287 (WK (Proc.devRef .tc Cert.KernelIdeal.main_v146)) (WK (Proc.devRef .tc Cert.KernelIdeal.main_v228))) := by
  phi_step Cert.KernelIdeal.Gen.main_part7_ops4 phi_w7_s4_main_v287
theorem phiR_w7_s4_main_v287 (WR : ValR F) :
    @Eq ((⟨S16x3x224x1, .f32⟩ : BufTy).Contents (Elt F)) (after Cert.ReferenceIdeal.Hand.w7_s4 WR (Proc.devRef .tc Cert.ReferenceIdeal.main_v287))
      (phi_w7_s4_main_v287 (WR (Proc.devRef .tc Cert.ReferenceIdeal.main_v146)) (WR (Proc.devRef .tc Cert.ReferenceIdeal.main_v228))) := by
  phi_step Cert.ReferenceIdeal.Hand.w7_s4 phi_w7_s4_main_v287
theorem phiK_w7_s4_main_v305 (WK : ValK F) :
    @Eq ((⟨S16x3x224x224, .f32⟩ : BufTy).Contents (Elt F)) (after Cert.KernelIdeal.Gen.main_part7_ops4 WK (Proc.devRef .tc Cert.KernelIdeal.main_v305))
      (phi_w7_s4_main_v305 (WK (Proc.devRef .tc Cert.KernelIdeal.main_v167)) (WK (Proc.devRef .tc Cert.KernelIdeal.main_v228)) (WK (Proc.devRef .tc Cert.KernelIdeal.main_v275))) := by
  phi_step Cert.KernelIdeal.Gen.main_part7_ops4 phi_w7_s4_main_v305
theorem phiR_w7_s4_main_v305 (WR : ValR F) :
    @Eq ((⟨S16x3x224x224, .f32⟩ : BufTy).Contents (Elt F)) (after Cert.ReferenceIdeal.Hand.w7_s4 WR (Proc.devRef .tc Cert.ReferenceIdeal.main_v305))
      (phi_w7_s4_main_v305 (WR (Proc.devRef .tc Cert.ReferenceIdeal.main_v167)) (WR (Proc.devRef .tc Cert.ReferenceIdeal.main_v228)) (WR (Proc.devRef .tc Cert.ReferenceIdeal.main_v275))) := by
  phi_step Cert.ReferenceIdeal.Hand.w7_s4 phi_w7_s4_main_v305

theorem sim_w7_s4 (WK : ValK F) (WR : ValR F) (h : Inv34 WK WR) :
    Inv35 (after Cert.KernelIdeal.Gen.main_part7_ops4 WK) (after Cert.ReferenceIdeal.Hand.w7_s4 WR) := by
  sim_step h Inv34 Inv35 [keepK_w7_s4_main_arg10, keepR_w7_s4_main_arg10, keepK_w7_s4_main_arg11, keepR_w7_s4_main_arg11, keepK_w7_s4_main_v169, keepR_w7_s4_main_v169, keepK_w7_s4_main_v171, keepR_w7_s4_main_v171, keepK_w7_s4_main_v180, keepR_w7_s4_main_v180, keepK_w7_s4_main_v181, keepR_w7_s4_main_v181, keepK_w7_s4_main_v198, keepR_w7_s4_main_v198, keepK_w7_s4_main_v222, keepR_w7_s4_main_v222, keepK_w7_s4_main_v264, keepR_w7_s4_main_v264, phiK_w7_s4_main_v279, phiR_w7_s4_main_v279, phiK_w7_s4_main_v287, phiR_w7_s4_main_v287, phiK_w7_s4_main_v305, phiR_w7_s4_main_v305]

theorem keepK_w7_s5_main_arg10 (WK : ValK F) :
    after Cert.KernelIdeal.Gen.main_part7_ops5 WK (Proc.devRef .tc Cert.KernelIdeal.main_arg10) = WK (Proc.devRef .tc Cert.KernelIdeal.main_arg10) := by
  keep_step Cert.KernelIdeal.Gen.main_part7_ops5
theorem keepR_w7_s5_main_arg10 (WR : ValR F) :
    after Cert.ReferenceIdeal.Hand.w7_s5 WR (Proc.devRef .tc Cert.ReferenceIdeal.main_arg10) = WR (Proc.devRef .tc Cert.ReferenceIdeal.main_arg10) := by
  keep_step Cert.ReferenceIdeal.Hand.w7_s5
theorem keepK_w7_s5_main_arg11 (WK : ValK F) :
    after Cert.KernelIdeal.Gen.main_part7_ops5 WK (Proc.devRef .tc Cert.KernelIdeal.main_arg11) = WK (Proc.devRef .tc Cert.KernelIdeal.main_arg11) := by
  keep_step Cert.KernelIdeal.Gen.main_part7_ops5
theorem keepR_w7_s5_main_arg11 (WR : ValR F) :
    after Cert.ReferenceIdeal.Hand.w7_s5 WR (Proc.devRef .tc Cert.ReferenceIdeal.main_arg11) = WR (Proc.devRef .tc Cert.ReferenceIdeal.main_arg11) := by
  keep_step Cert.ReferenceIdeal.Hand.w7_s5
theorem keepK_w7_s5_main_v169 (WK : ValK F) :
    after Cert.KernelIdeal.Gen.main_part7_ops5 WK (Proc.devRef .tc Cert.KernelIdeal.main_v169) = WK (Proc.devRef .tc Cert.KernelIdeal.main_v169) := by
  keep_step Cert.KernelIdeal.Gen.main_part7_ops5
theorem keepR_w7_s5_main_v169 (WR : ValR F) :
    after Cert.ReferenceIdeal.Hand.w7_s5 WR (Proc.devRef .tc Cert.ReferenceIdeal.main_v169) = WR (Proc.devRef .tc Cert.ReferenceIdeal.main_v169) := by
  keep_step Cert.ReferenceIdeal.Hand.w7_s5
theorem keepK_w7_s5_main_v171 (WK : ValK F) :
    after Cert.KernelIdeal.Gen.main_part7_ops5 WK (Proc.devRef .tc Cert.KernelIdeal.main_v171) = WK (Proc.devRef .tc Cert.KernelIdeal.main_v171) := by
  keep_step Cert.KernelIdeal.Gen.main_part7_ops5
theorem keepR_w7_s5_main_v171 (WR : ValR F) :
    after Cert.ReferenceIdeal.Hand.w7_s5 WR (Proc.devRef .tc Cert.ReferenceIdeal.main_v171) = WR (Proc.devRef .tc Cert.ReferenceIdeal.main_v171) := by
  keep_step Cert.ReferenceIdeal.Hand.w7_s5
theorem keepK_w7_s5_main_v180 (WK : ValK F) :
    after Cert.KernelIdeal.Gen.main_part7_ops5 WK (Proc.devRef .tc Cert.KernelIdeal.main_v180) = WK (Proc.devRef .tc Cert.KernelIdeal.main_v180) := by
  keep_step Cert.KernelIdeal.Gen.main_part7_ops5
theorem keepR_w7_s5_main_v180 (WR : ValR F) :
    after Cert.ReferenceIdeal.Hand.w7_s5 WR (Proc.devRef .tc Cert.ReferenceIdeal.main_v180) = WR (Proc.devRef .tc Cert.ReferenceIdeal.main_v180) := by
  keep_step Cert.ReferenceIdeal.Hand.w7_s5
theorem keepK_w7_s5_main_v181 (WK : ValK F) :
    after Cert.KernelIdeal.Gen.main_part7_ops5 WK (Proc.devRef .tc Cert.KernelIdeal.main_v181) = WK (Proc.devRef .tc Cert.KernelIdeal.main_v181) := by
  keep_step Cert.KernelIdeal.Gen.main_part7_ops5
theorem keepR_w7_s5_main_v181 (WR : ValR F) :
    after Cert.ReferenceIdeal.Hand.w7_s5 WR (Proc.devRef .tc Cert.ReferenceIdeal.main_v181) = WR (Proc.devRef .tc Cert.ReferenceIdeal.main_v181) := by
  keep_step Cert.ReferenceIdeal.Hand.w7_s5
theorem keepK_w7_s5_main_v198 (WK : ValK F) :
    after Cert.KernelIdeal.Gen.main_part7_ops5 WK (Proc.devRef .tc Cert.KernelIdeal.main_v198) = WK (Proc.devRef .tc Cert.KernelIdeal.main_v198) := by
  keep_step Cert.KernelIdeal.Gen.main_part7_ops5
theorem keepR_w7_s5_main_v198 (WR : ValR F) :
    after Cert.ReferenceIdeal.Hand.w7_s5 WR (Proc.devRef .tc Cert.ReferenceIdeal.main_v198) = WR (Proc.devRef .tc Cert.ReferenceIdeal.main_v198) := by
  keep_step Cert.ReferenceIdeal.Hand.w7_s5
theorem keepK_w7_s5_main_v222 (WK : ValK F) :
    after Cert.KernelIdeal.Gen.main_part7_ops5 WK (Proc.devRef .tc Cert.KernelIdeal.main_v222) = WK (Proc.devRef .tc Cert.KernelIdeal.main_v222) := by
  keep_step Cert.KernelIdeal.Gen.main_part7_ops5
theorem keepR_w7_s5_main_v222 (WR : ValR F) :
    after Cert.ReferenceIdeal.Hand.w7_s5 WR (Proc.devRef .tc Cert.ReferenceIdeal.main_v222) = WR (Proc.devRef .tc Cert.ReferenceIdeal.main_v222) := by
  keep_step Cert.ReferenceIdeal.Hand.w7_s5
theorem keepK_w7_s5_main_v264 (WK : ValK F) :
    after Cert.KernelIdeal.Gen.main_part7_ops5 WK (Proc.devRef .tc Cert.KernelIdeal.main_v264) = WK (Proc.devRef .tc Cert.KernelIdeal.main_v264) := by
  keep_step Cert.KernelIdeal.Gen.main_part7_ops5
theorem keepR_w7_s5_main_v264 (WR : ValR F) :
    after Cert.ReferenceIdeal.Hand.w7_s5 WR (Proc.devRef .tc Cert.ReferenceIdeal.main_v264) = WR (Proc.devRef .tc Cert.ReferenceIdeal.main_v264) := by
  keep_step Cert.ReferenceIdeal.Hand.w7_s5
theorem phiK_w7_s5_main_v306 (WK : ValK F) :
    @Eq ((⟨S16x3x224x224, .f32⟩ : BufTy).Contents (Elt F)) (after Cert.KernelIdeal.Gen.main_part7_ops5 WK (Proc.devRef .tc Cert.KernelIdeal.main_v306))
      (phi_w7_s5_main_v306 (WK (Proc.devRef .tc Cert.KernelIdeal.main_v279)) (WK (Proc.devRef .tc Cert.KernelIdeal.main_v287)) (WK (Proc.devRef .tc Cert.KernelIdeal.main_v305))) := by
  phi_step Cert.KernelIdeal.Gen.main_part7_ops5 phi_w7_s5_main_v306
theorem phiR_w7_s5_main_v306 (WR : ValR F) :
    @Eq ((⟨S16x3x224x224, .f32⟩ : BufTy).Contents (Elt F)) (after Cert.ReferenceIdeal.Hand.w7_s5 WR (Proc.devRef .tc Cert.ReferenceIdeal.main_v306))
      (phi_w7_s5_main_v306 (WR (Proc.devRef .tc Cert.ReferenceIdeal.main_v279)) (WR (Proc.devRef .tc Cert.ReferenceIdeal.main_v287)) (WR (Proc.devRef .tc Cert.ReferenceIdeal.main_v305))) := by
  phi_step Cert.ReferenceIdeal.Hand.w7_s5 phi_w7_s5_main_v306

theorem sim_w7_s5 (WK : ValK F) (WR : ValR F) (h : Inv35 WK WR) :
    Inv36 (after Cert.KernelIdeal.Gen.main_part7_ops5 WK) (after Cert.ReferenceIdeal.Hand.w7_s5 WR) := by
  sim_step h Inv35 Inv36 [keepK_w7_s5_main_arg10, keepR_w7_s5_main_arg10, keepK_w7_s5_main_arg11, keepR_w7_s5_main_arg11, keepK_w7_s5_main_v169, keepR_w7_s5_main_v169, keepK_w7_s5_main_v171, keepR_w7_s5_main_v171, keepK_w7_s5_main_v180, keepR_w7_s5_main_v180, keepK_w7_s5_main_v181, keepR_w7_s5_main_v181, keepK_w7_s5_main_v198, keepR_w7_s5_main_v198, keepK_w7_s5_main_v222, keepR_w7_s5_main_v222, keepK_w7_s5_main_v264, keepR_w7_s5_main_v264, phiK_w7_s5_main_v306, phiR_w7_s5_main_v306]

theorem keepK_w7_s6_main_arg10 (WK : ValK F) :
    after Cert.KernelIdeal.Gen.main_part7_ops6 WK (Proc.devRef .tc Cert.KernelIdeal.main_arg10) = WK (Proc.devRef .tc Cert.KernelIdeal.main_arg10) := by
  keep_step Cert.KernelIdeal.Gen.main_part7_ops6
theorem keepR_w7_s6_main_arg10 (WR : ValR F) :
    after Cert.ReferenceIdeal.Hand.w7_s6 WR (Proc.devRef .tc Cert.ReferenceIdeal.main_arg10) = WR (Proc.devRef .tc Cert.ReferenceIdeal.main_arg10) := by
  keep_step Cert.ReferenceIdeal.Hand.w7_s6
theorem keepK_w7_s6_main_arg11 (WK : ValK F) :
    after Cert.KernelIdeal.Gen.main_part7_ops6 WK (Proc.devRef .tc Cert.KernelIdeal.main_arg11) = WK (Proc.devRef .tc Cert.KernelIdeal.main_arg11) := by
  keep_step Cert.KernelIdeal.Gen.main_part7_ops6
theorem keepR_w7_s6_main_arg11 (WR : ValR F) :
    after Cert.ReferenceIdeal.Hand.w7_s6 WR (Proc.devRef .tc Cert.ReferenceIdeal.main_arg11) = WR (Proc.devRef .tc Cert.ReferenceIdeal.main_arg11) := by
  keep_step Cert.ReferenceIdeal.Hand.w7_s6
theorem keepK_w7_s6_main_v171 (WK : ValK F) :
    after Cert.KernelIdeal.Gen.main_part7_ops6 WK (Proc.devRef .tc Cert.KernelIdeal.main_v171) = WK (Proc.devRef .tc Cert.KernelIdeal.main_v171) := by
  keep_step Cert.KernelIdeal.Gen.main_part7_ops6
theorem keepR_w7_s6_main_v171 (WR : ValR F) :
    after Cert.ReferenceIdeal.Hand.w7_s6 WR (Proc.devRef .tc Cert.ReferenceIdeal.main_v171) = WR (Proc.devRef .tc Cert.ReferenceIdeal.main_v171) := by
  keep_step Cert.ReferenceIdeal.Hand.w7_s6
theorem keepK_w7_s6_main_v180 (WK : ValK F) :
    after Cert.KernelIdeal.Gen.main_part7_ops6 WK (Proc.devRef .tc Cert.KernelIdeal.main_v180) = WK (Proc.devRef .tc Cert.KernelIdeal.main_v180) := by
  keep_step Cert.KernelIdeal.Gen.main_part7_ops6
theorem keepR_w7_s6_main_v180 (WR : ValR F) :
    after Cert.ReferenceIdeal.Hand.w7_s6 WR (Proc.devRef .tc Cert.ReferenceIdeal.main_v180) = WR (Proc.devRef .tc Cert.ReferenceIdeal.main_v180) := by
  keep_step Cert.ReferenceIdeal.Hand.w7_s6
theorem keepK_w7_s6_main_v181 (WK : ValK F) :
    after Cert.KernelIdeal.Gen.main_part7_ops6 WK (Proc.devRef .tc Cert.KernelIdeal.main_v181) = WK (Proc.devRef .tc Cert.KernelIdeal.main_v181) := by
  keep_step Cert.KernelIdeal.Gen.main_part7_ops6
theorem keepR_w7_s6_main_v181 (WR : ValR F) :
    after Cert.ReferenceIdeal.Hand.w7_s6 WR (Proc.devRef .tc Cert.ReferenceIdeal.main_v181) = WR (Proc.devRef .tc Cert.ReferenceIdeal.main_v181) := by
  keep_step Cert.ReferenceIdeal.Hand.w7_s6
theorem keepK_w7_s6_main_v198 (WK : ValK F) :
    after Cert.KernelIdeal.Gen.main_part7_ops6 WK (Proc.devRef .tc Cert.KernelIdeal.main_v198) = WK (Proc.devRef .tc Cert.KernelIdeal.main_v198) := by
  keep_step Cert.KernelIdeal.Gen.main_part7_ops6
theorem keepR_w7_s6_main_v198 (WR : ValR F) :
    after Cert.ReferenceIdeal.Hand.w7_s6 WR (Proc.devRef .tc Cert.ReferenceIdeal.main_v198) = WR (Proc.devRef .tc Cert.ReferenceIdeal.main_v198) := by
  keep_step Cert.ReferenceIdeal.Hand.w7_s6
theorem keepK_w7_s6_main_v222 (WK : ValK F) :
    after Cert.KernelIdeal.Gen.main_part7_ops6 WK (Proc.devRef .tc Cert.KernelIdeal.main_v222) = WK (Proc.devRef .tc Cert.KernelIdeal.main_v222) := by
  keep_step Cert.KernelIdeal.Gen.main_part7_ops6
theorem keepR_w7_s6_main_v222 (WR : ValR F) :
    after Cert.ReferenceIdeal.Hand.w7_s6 WR (Proc.devRef .tc Cert.ReferenceIdeal.main_v222) = WR (Proc.devRef .tc Cert.ReferenceIdeal.main_v222) := by
  keep_step Cert.ReferenceIdeal.Hand.w7_s6
theorem keepK_w7_s6_main_v264 (WK : ValK F) :
    after Cert.KernelIdeal.Gen.main_part7_ops6 WK (Proc.devRef .tc Cert.KernelIdeal.main_v264) = WK (Proc.devRef .tc Cert.KernelIdeal.main_v264) := by
  keep_step Cert.KernelIdeal.Gen.main_part7_ops6
theorem keepR_w7_s6_main_v264 (WR : ValR F) :
    after Cert.ReferenceIdeal.Hand.w7_s6 WR (Proc.devRef .tc Cert.ReferenceIdeal.main_v264) = WR (Proc.devRef .tc Cert.ReferenceIdeal.main_v264) := by
  keep_step Cert.ReferenceIdeal.Hand.w7_s6
theorem keepK_w7_s6_main_v306 (WK : ValK F) :
    after Cert.KernelIdeal.Gen.main_part7_ops6 WK (Proc.devRef .tc Cert.KernelIdeal.main_v306) = WK (Proc.devRef .tc Cert.KernelIdeal.main_v306) := by
  keep_step Cert.KernelIdeal.Gen.main_part7_ops6
theorem keepR_w7_s6_main_v306 (WR : ValR F) :
    after Cert.ReferenceIdeal.Hand.w7_s6 WR (Proc.devRef .tc Cert.ReferenceIdeal.main_v306) = WR (Proc.devRef .tc Cert.ReferenceIdeal.main_v306) := by
  keep_step Cert.ReferenceIdeal.Hand.w7_s6
theorem phiK_w7_s6_main_v308 (WK : ValK F) :
    @Eq ((⟨S16x1x1, .i32⟩ : BufTy).Contents (Elt F)) (after Cert.KernelIdeal.Gen.main_part7_ops6 WK (Proc.devRef .tc Cert.KernelIdeal.main_v308))
      (phi_w7_s6_main_v308 (WK (Proc.devRef .tc Cert.KernelIdeal.main_v169))) := by
  phi_step Cert.KernelIdeal.Gen.main_part7_ops6 phi_w7_s6_main_v308
theorem phiR_w7_s6_main_v308 (WR : ValR F) :
    @Eq ((⟨S16x1x1, .i32⟩ : BufTy).Contents (Elt F)) (after Cert.ReferenceIdeal.Hand.w7_s6 WR (Proc.devRef .tc Cert.ReferenceIdeal.main_v308))
      (phi_w7_s6_main_v308 (WR (Proc.devRef .tc Cert.ReferenceIdeal.main_v169))) := by
  phi_step Cert.ReferenceIdeal.Hand.w7_s6 phi_w7_s6_main_v308
theorem phiK_w7_s6_main_v309 (WK : ValK F) :
    @Eq ((⟨S16x1x224, .i32⟩ : BufTy).Contents (Elt F)) (after Cert.KernelIdeal.Gen.main_part7_ops6 WK (Proc.devRef .tc Cert.KernelIdeal.main_v309))
      (phi_w7_s6_main_v309 (WK (Proc.devRef .tc Cert.KernelIdeal.main_v181))) := by
  phi_step Cert.KernelIdeal.Gen.main_part7_ops6 phi_w7_s6_main_v309
theorem phiR_w7_s6_main_v309 (WR : ValR F) :
    @Eq ((⟨S16x1x224, .i32⟩ : BufTy).Contents (Elt F)) (after Cert.ReferenceIdeal.Hand.w7_s6 WR (Proc.devRef .tc Cert.ReferenceIdeal.main_v309))
      (phi_w7_s6_main_v309 (WR (Proc.devRef .tc Cert.ReferenceIdeal.main_v181))) := by
  phi_step Cert.ReferenceIdeal.Hand.w7_s6 phi_w7_s6_main_v309

theorem sim_w7_s6 (WK : ValK F) (WR : ValR F) (h : Inv36 WK WR) :
    Inv37 (after Cert.KernelIdeal.Gen.main_part7_ops6 WK) (after Cert.ReferenceIdeal.Hand.w7_s6 WR) := by
  sim_step h Inv36 Inv37 [keepK_w7_s6_main_arg10, keepR_w7_s6_main_arg10, keepK_w7_s6_main_arg11, keepR_w7_s6_main_arg11, keepK_w7_s6_main_v171, keepR_w7_s6_main_v171, keepK_w7_s6_main_v180, keepR_w7_s6_main_v180, keepK_w7_s6_main_v181, keepR_w7_s6_main_v181, keepK_w7_s6_main_v198, keepR_w7_s6_main_v198, keepK_w7_s6_main_v222, keepR_w7_s6_main_v222, keepK_w7_s6_main_v264, keepR_w7_s6_main_v264, keepK_w7_s6_main_v306, keepR_w7_s6_main_v306, phiK_w7_s6_main_v308, phiR_w7_s6_main_v308, phiK_w7_s6_main_v309, phiR_w7_s6_main_v309]

end Cert.PromptBridge

end
-- ==== Proof.PromptBridgePhi8.lean ====
import proofs.«144763_j39642548142243_2_alg».proof.Proof.PromptBridgeBase

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

/-- main_v311 after stretch w8_s0, from the contents before it. -/
def phi_w8_s0_main_v311 (t_main_v308 : (⟨S16x1x1, .i32⟩ : BufTy).Contents (Elt F)) (t_main_v309 : (⟨S16x1x224, .i32⟩ : BufTy).Contents (Elt F)) : (⟨S16x1x224, .i1⟩ : BufTy).Contents (Elt F) :=
  let t_main_v310 : (⟨S16x1x224, .i32⟩ : BufTy).Contents (Elt F) := (broadcastInDim S16x1x224 ![0, 1, 2] bcast_S16x1x1_S16x1x224_0_1_2 : (⟨S16x1x1, .i32⟩ : BufTy).Contents (Elt F) → (⟨S16x1x224, .i32⟩ : BufTy).Contents (Elt F)) t_main_v308
  let t_main_v311 : (⟨S16x1x224, .i1⟩ : BufTy).Contents (Elt F) := (cmpi .slt : (⟨S16x1x224, .i32⟩ : BufTy).Contents (Elt F) → (⟨S16x1x224, .i32⟩ : BufTy).Contents (Elt F) → (⟨S16x1x224, .i1⟩ : BufTy).Contents (Elt F)) t_main_v309 t_main_v310
  t_main_v311

/-- main_v318 after stretch w8_s0, from the contents before it. -/
def phi_w8_s0_main_v318 (t_main_arg10 : (⟨S16, .i32⟩ : BufTy).Contents (Elt F)) (t_main_v181 : (⟨S1x224, .i32⟩ : BufTy).Contents (Elt F)) : (⟨S16x1x224, .i1⟩ : BufTy).Contents (Elt F) :=
  let t_main_c_169 : (⟨S_, .i32⟩ : BufTy).Contents (Elt F) := (constantI S_ 32 224#32)
  let t_main_v312 : (⟨S16, .i32⟩ : BufTy).Contents (Elt F) := (broadcastInDim S16 ![] bcast_S_S16 : (⟨S_, .i32⟩ : BufTy).Contents (Elt F) → (⟨S16, .i32⟩ : BufTy).Contents (Elt F)) t_main_c_169
  let t_main_v313 : (⟨S16, .i32⟩ : BufTy).Contents (Elt F) := (subi : (⟨S16, .i32⟩ : BufTy).Contents (Elt F) → (⟨S16, .i32⟩ : BufTy).Contents (Elt F) → (⟨S16, .i32⟩ : BufTy).Contents (Elt F)) t_main_v312 t_main_arg10
  let t_main_v314 : (⟨S1x1x224, .i32⟩ : BufTy).Contents (Elt F) := (broadcastInDim S1x1x224 ![1, 2] bcast_S1x224_S1x1x224_1_2 : (⟨S1x224, .i32⟩ : BufTy).Contents (Elt F) → (⟨S1x1x224, .i32⟩ : BufTy).Contents (Elt F)) t_main_v181
  let t_main_v315 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v313
  let t_main_v316 : (⟨S16x1x224, .i32⟩ : BufTy).Contents (Elt F) := (broadcastInDim S16x1x224 ![0, 1, 2] bcast_S1x1x224_S16x1x224_0_1_2 : (⟨S1x1x224, .i32⟩ : BufTy).Contents (Elt F) → (⟨S16x1x224, .i32⟩ : BufTy).Contents (Elt F)) t_main_v314
  let t_main_v317 : (⟨S16x1x224, .i32⟩ : BufTy).Contents (Elt F) := (broadcastInDim S16x1x224 ![0, 1, 2] bcast_S16x1x1_S16x1x224_0_1_2 : (⟨S16x1x1, .i32⟩ : BufTy).Contents (Elt F) → (⟨S16x1x224, .i32⟩ : BufTy).Contents (Elt F)) t_main_v315
  let t_main_v318 : (⟨S16x1x224, .i1⟩ : BufTy).Contents (Elt F) := (cmpi .sge : (⟨S16x1x224, .i32⟩ : BufTy).Contents (Elt F) → (⟨S16x1x224, .i32⟩ : BufTy).Contents (Elt F) → (⟨S16x1x224, .i1⟩ : BufTy).Contents (Elt F)) t_main_v316 t_main_v317
  t_main_v318

/-- main_cst after stretch w8_s0, from the contents before it. -/
def phi_w8_s0_main_cst  : (⟨S_, .f32⟩ : BufTy).Contents (Elt F) :=
  let t_main_cst : (⟨S_, .f32⟩ : BufTy).Contents (Elt F) := (constant S_ .f32 0x00000000#32)
  t_main_cst

/-- main_v319 after stretch w8_s1, from the contents before it. -/
def phi_w8_s1_main_v319 (t_main_v306 : (⟨S16x3x224x224, .f32⟩ : BufTy).Contents (Elt F)) (t_main_v318 : (⟨S16x1x224, .i1⟩ : BufTy).Contents (Elt F)) (t_main_cst : (⟨S_, .f32⟩ : BufTy).Contents (Elt F)) : (⟨S16x3x224x224, .f32⟩ : BufTy).Contents (Elt F) :=
  let t_main_call15_v0 : (⟨S16x3x224x224, .i1⟩ : BufTy).Contents (Elt F) := (broadcastInDim S16x3x224x224 ![0, 2, 3] bcast_S16x1x224_S16x3x224x224_0_2_3) t_main_v318
  let t_main_call15_v1 : (⟨S3x224x224, .f32⟩ : BufTy).Contents (Elt F) := (broadcastInDim S3x224x224 ![] bcast_S_S3x224x224) t_main_cst
  let t_main_call15_v2 : (⟨S16x3x224x224, .f32⟩ : BufTy).Contents (Elt F) := (broadcastInDim S16x3x224x224 ![1, 2, 3] bcast_S3x224x224_S16x3x224x224_1_2_3) t_main_call15_v1
  let t_main_v319 : (⟨S16x3x224x224, .f32⟩ : BufTy).Contents (Elt F) := (select) t_main_call15_v0 t_main_v306 t_main_call15_v2
  t_main_v319

/-- main_v320 after stretch w8_s2, from the contents before it. -/
def phi_w8_s2_main_v320 (t_main_v264 : (⟨S16x3x224x224, .f32⟩ : BufTy).Contents (Elt F)) (t_main_v311 : (⟨S16x1x224, .i1⟩ : BufTy).Contents (Elt F)) (t_main_v319 : (⟨S16x3x224x224, .f32⟩ : BufTy).Contents (Elt F)) : (⟨S16x3x224x224, .f32⟩ : BufTy).Contents (Elt F) :=
  let t_main_call16_v0 : (⟨S16x3x224x224, .i1⟩ : BufTy).Contents (Elt F) := (broadcastInDim S16x3x224x224 ![0, 2, 3] bcast_S16x1x224_S16x3x224x224_0_2_3) t_main_v311
  let t_main_v320 : (⟨S16x3x224x224, .f32⟩ : BufTy).Contents (Elt F) := (select) t_main_call16_v0 t_main_v264 t_main_v319
  t_main_v320

/-- main_v325 after stretch w8_s3, from the contents before it. -/
def phi_w8_s3_main_v325 (t_main_v171 : (⟨S16, .i32⟩ : BufTy).Contents (Elt F)) (t_main_v180 : (⟨S224x1, .i32⟩ : BufTy).Contents (Elt F)) : (⟨S16x224x1, .i1⟩ : BufTy).Contents (Elt F) :=
  let t_main_v321 : (⟨S1x224x1, .i32⟩ : BufTy).Contents (Elt F) := (broadcastInDim S1x224x1 ![1, 2] bcast_S224x1_S1x224x1_1_2 : (⟨S224x1, .i32⟩ : BufTy).Contents (Elt F) → (⟨S1x224x1, .i32⟩ : BufTy).Contents (Elt F)) t_main_v180
  let t_main_v322 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v171
  let t_main_v323 : (⟨S16x224x1, .i32⟩ : BufTy).Contents (Elt F) := (broadcastInDim S16x224x1 ![0, 1, 2] bcast_S1x224x1_S16x224x1_0_1_2 : (⟨S1x224x1, .i32⟩ : BufTy).Contents (Elt F) → (⟨S16x224x1, .i32⟩ : BufTy).Contents (Elt F)) t_main_v321
  let t_main_v324 : (⟨S16x224x1, .i32⟩ : BufTy).Contents (Elt F) := (broadcastInDim S16x224x1 ![0, 1, 2] bcast_S16x1x1_S16x224x1_0_1_2 : (⟨S16x1x1, .i32⟩ : BufTy).Contents (Elt F) → (⟨S16x224x1, .i32⟩ : BufTy).Contents (Elt F)) t_main_v322
  let t_main_v325 : (⟨S16x224x1, .i1⟩ : BufTy).Contents (Elt F) := (cmpi .slt : (⟨S16x224x1, .i32⟩ : BufTy).Contents (Elt F) → (⟨S16x224x1, .i32⟩ : BufTy).Contents (Elt F) → (⟨S16x224x1, .i1⟩ : BufTy).Contents (Elt F)) t_main_v323 t_main_v324
  t_main_v325

/-- main_v332 after stretch w8_s3, from the contents before it. -/
def phi_w8_s3_main_v332 (t_main_arg11 : (⟨S16, .i32⟩ : BufTy).Contents (Elt F)) (t_main_v180 : (⟨S224x1, .i32⟩ : BufTy).Contents (Elt F)) : (⟨S16x224x1, .i1⟩ : BufTy).Contents (Elt F) :=
  let t_main_c_170 : (⟨S_, .i32⟩ : BufTy).Contents (Elt F) := (constantI S_ 32 224#32)
  let t_main_v326 : (⟨S16, .i32⟩ : BufTy).Contents (Elt F) := (broadcastInDim S16 ![] bcast_S_S16 : (⟨S_, .i32⟩ : BufTy).Contents (Elt F) → (⟨S16, .i32⟩ : BufTy).Contents (Elt F)) t_main_c_170
  let t_main_v327 : (⟨S16, .i32⟩ : BufTy).Contents (Elt F) := (subi : (⟨S16, .i32⟩ : BufTy).Contents (Elt F) → (⟨S16, .i32⟩ : BufTy).Contents (Elt F) → (⟨S16, .i32⟩ : BufTy).Contents (Elt F)) t_main_v326 t_main_arg11
  let t_main_v328 : (⟨S1x224x1, .i32⟩ : BufTy).Contents (Elt F) := (broadcastInDim S1x224x1 ![1, 2] bcast_S224x1_S1x224x1_1_2 : (⟨S224x1, .i32⟩ : BufTy).Contents (Elt F) → (⟨S1x224x1, .i32⟩ : BufTy).Contents (Elt F)) t_main_v180
  let t_main_v329 : (⟨S16x1x1, .i32⟩ : BufTy).Contents (Elt F) := (broadcastInDim S16x1x1 ![0] bcast_S16_S16x1x1_0 : (⟨S16, .i32⟩ : BufTy).Contents (Elt F) → (⟨S16x1x1, .i32⟩ : BufTy).Contents (Elt F)) t_main_v327
  let t_main_v330 : (⟨S16x224x1, .i32⟩ : BufTy).Contents (Elt F) := (broadcastInDim S16x224x1 ![0, 1, 2] bcast_S1x224x1_S16x224x1_0_1_2 : (⟨S1x224x1, .i32⟩ : BufTy).Contents (Elt F) → (⟨S16x224x1, .i32⟩ : BufTy).Contents (Elt F)) t_main_v328
  let t_main_v331 : (⟨S16x224x1, .i32⟩ : BufTy).Contents (Elt F) := (broadcastInDim S16x224x1 ![0, 1, 2] bcast_S16x1x1_S16x224x1_0_1_2 : (⟨S16x1x1, .i32⟩ : BufTy).Contents (Elt F) → (⟨S16x224x1, .i32⟩ : BufTy).Contents (Elt F)) t_main_v329
  let t_main_v332 : (⟨S16x224x1, .i1⟩ : BufTy).Contents (Elt F) := (cmpi .sge : (⟨S16x224x1, .i32⟩ : BufTy).Contents (Elt F) → (⟨S16x224x1, .i32⟩ : BufTy).Contents (Elt F) → (⟨S16x224x1, .i1⟩ : BufTy).Contents (Elt F)) t_main_v330 t_main_v331
  t_main_v332

/-- main_v333 after stretch w8_s4, from the contents before it. -/
def phi_w8_s4_main_v333 (t_main_v222 : (⟨S16x3x224x224, .f32⟩ : BufTy).Contents (Elt F)) (t_main_v320 : (⟨S16x3x224x224, .f32⟩ : BufTy).Contents (Elt F)) (t_main_v332 : (⟨S16x224x1, .i1⟩ : BufTy).Contents (Elt F)) : (⟨S16x3x224x224, .f32⟩ : BufTy).Contents (Elt F) :=
  let t_main_call17_v0 : (⟨S16x3x224x224, .i1⟩ : BufTy).Contents (Elt F) := (broadcastInDim S16x3x224x224 ![0, 2, 3] bcast_S16x224x1_S16x3x224x224_0_2_3) t_main_v332
  let t_main_v333 : (⟨S16x3x224x224, .f32⟩ : BufTy).Contents (Elt F) := (select) t_main_call17_v0 t_main_v222 t_main_v320
  t_main_v333

/-- main_v334 after stretch w8_s5, from the contents before it. -/
def phi_w8_s5_main_v334 (t_main_v198 : (⟨S16x3x224x224, .f32⟩ : BufTy).Contents (Elt F)) (t_main_v325 : (⟨S16x224x1, .i1⟩ : BufTy).Contents (Elt F)) (t_main_v333 : (⟨S16x3x224x224, .f32⟩ : BufTy).Contents (Elt F)) : (⟨S16x3x224x224, .f32⟩ : BufTy).Contents (Elt F) :=
  let t_main_call18_v0 : (⟨S16x3x224x224, .i1⟩ : BufTy).Contents (Elt F) := (broadcastInDim S16x3x224x224 ![0, 2, 3] bcast_S16x224x1_S16x3x224x224_0_2_3) t_main_v325
  let t_main_v334 : (⟨S16x3x224x224, .f32⟩ : BufTy).Contents (Elt F) := (select) t_main_call18_v0 t_main_v198 t_main_v333
  t_main_v334

end Cert.PromptBridge

end
-- ==== Proof.PromptBridgeL8.lean ====
import proofs.«144763_j39642548142243_2_alg».proof.Proof.PromptBridgePhi8

set_option maxRecDepth 16384
set_option maxHeartbeats 8000000

noncomputable section

namespace Cert.PromptBridge

open Cert.ReferenceIdeal Idealize.ShloMosaic Idealize.SL.Sem Idealize.ShloMosaic.StableHlo

variable {F : FTy → Type} [FloatOps F] [Cert.KernelIdeal.Facts] [Cert.ReferenceIdeal.Facts]
open Facts₀ Facts

theorem keepK_w8_s0_main_arg11 (WK : ValK F) :
    after Cert.KernelIdeal.Gen.main_part8_ops0 WK (Proc.devRef .tc Cert.KernelIdeal.main_arg11) = WK (Proc.devRef .tc Cert.KernelIdeal.main_arg11) := by
  keep_step Cert.KernelIdeal.Gen.main_part8_ops0
theorem keepR_w8_s0_main_arg11 (WR : ValR F) :
    after Cert.ReferenceIdeal.Hand.w8_s0 WR (Proc.devRef .tc Cert.ReferenceIdeal.main_arg11) = WR (Proc.devRef .tc Cert.ReferenceIdeal.main_arg11) := by
  keep_step Cert.ReferenceIdeal.Hand.w8_s0
theorem keepK_w8_s0_main_v171 (WK : ValK F) :
    after Cert.KernelIdeal.Gen.main_part8_ops0 WK (Proc.devRef .tc Cert.KernelIdeal.main_v171) = WK (Proc.devRef .tc Cert.KernelIdeal.main_v171) := by
  keep_step Cert.KernelIdeal.Gen.main_part8_ops0
theorem keepR_w8_s0_main_v171 (WR : ValR F) :
    after Cert.ReferenceIdeal.Hand.w8_s0 WR (Proc.devRef .tc Cert.ReferenceIdeal.main_v171) = WR (Proc.devRef .tc Cert.ReferenceIdeal.main_v171) := by
  keep_step Cert.ReferenceIdeal.Hand.w8_s0
theorem keepK_w8_s0_main_v180 (WK : ValK F) :
    after Cert.KernelIdeal.Gen.main_part8_ops0 WK (Proc.devRef .tc Cert.KernelIdeal.main_v180) = WK (Proc.devRef .tc Cert.KernelIdeal.main_v180) := by
  keep_step Cert.KernelIdeal.Gen.main_part8_ops0
theorem keepR_w8_s0_main_v180 (WR : ValR F) :
    after Cert.ReferenceIdeal.Hand.w8_s0 WR (Proc.devRef .tc Cert.ReferenceIdeal.main_v180) = WR (Proc.devRef .tc Cert.ReferenceIdeal.main_v180) := by
  keep_step Cert.ReferenceIdeal.Hand.w8_s0
theorem keepK_w8_s0_main_v198 (WK : ValK F) :
    after Cert.KernelIdeal.Gen.main_part8_ops0 WK (Proc.devRef .tc Cert.KernelIdeal.main_v198) = WK (Proc.devRef .tc Cert.KernelIdeal.main_v198) := by
  keep_step Cert.KernelIdeal.Gen.main_part8_ops0
theorem keepR_w8_s0_main_v198 (WR : ValR F) :
    after Cert.ReferenceIdeal.Hand.w8_s0 WR (Proc.devRef .tc Cert.ReferenceIdeal.main_v198) = WR (Proc.devRef .tc Cert.ReferenceIdeal.main_v198) := by
  keep_step Cert.ReferenceIdeal.Hand.w8_s0
theorem keepK_w8_s0_main_v222 (WK : ValK F) :
    after Cert.KernelIdeal.Gen.main_part8_ops0 WK (Proc.devRef .tc Cert.KernelIdeal.main_v222) = WK (Proc.devRef .tc Cert.KernelIdeal.main_v222) := by
  keep_step Cert.KernelIdeal.Gen.main_part8_ops0
theorem keepR_w8_s0_main_v222 (WR : ValR F) :
    after Cert.ReferenceIdeal.Hand.w8_s0 WR (Proc.devRef .tc Cert.ReferenceIdeal.main_v222) = WR (Proc.devRef .tc Cert.ReferenceIdeal.main_v222) := by
  keep_step Cert.ReferenceIdeal.Hand.w8_s0
theorem keepK_w8_s0_main_v264 (WK : ValK F) :
    after Cert.KernelIdeal.Gen.main_part8_ops0 WK (Proc.devRef .tc Cert.KernelIdeal.main_v264) = WK (Proc.devRef .tc Cert.KernelIdeal.main_v264) := by
  keep_step Cert.KernelIdeal.Gen.main_part8_ops0
theorem keepR_w8_s0_main_v264 (WR : ValR F) :
    after Cert.ReferenceIdeal.Hand.w8_s0 WR (Proc.devRef .tc Cert.ReferenceIdeal.main_v264) = WR (Proc.devRef .tc Cert.ReferenceIdeal.main_v264) := by
  keep_step Cert.ReferenceIdeal.Hand.w8_s0
theorem keepK_w8_s0_main_v306 (WK : ValK F) :
    after Cert.KernelIdeal.Gen.main_part8_ops0 WK (Proc.devRef .tc Cert.KernelIdeal.main_v306) = WK (Proc.devRef .tc Cert.KernelIdeal.main_v306) := by
  keep_step Cert.KernelIdeal.Gen.main_part8_ops0
theorem keepR_w8_s0_main_v306 (WR : ValR F) :
    after Cert.ReferenceIdeal.Hand.w8_s0 WR (Proc.devRef .tc Cert.ReferenceIdeal.main_v306) = WR (Proc.devRef .tc Cert.ReferenceIdeal.main_v306) := by
  keep_step Cert.ReferenceIdeal.Hand.w8_s0
theorem phiK_w8_s0_main_v311 (WK : ValK F) :
    @Eq ((⟨S16x1x224, .i1⟩ : BufTy).Contents (Elt F)) (after Cert.KernelIdeal.Gen.main_part8_ops0 WK (Proc.devRef .tc Cert.KernelIdeal.main_v311))
      (phi_w8_s0_main_v311 (WK (Proc.devRef .tc Cert.KernelIdeal.main_v308)) (WK (Proc.devRef .tc Cert.KernelIdeal.main_v309))) := by
  phi_step Cert.KernelIdeal.Gen.main_part8_ops0 phi_w8_s0_main_v311
theorem phiR_w8_s0_main_v311 (WR : ValR F) :
    @Eq ((⟨S16x1x224, .i1⟩ : BufTy).Contents (Elt F)) (after Cert.ReferenceIdeal.Hand.w8_s0 WR (Proc.devRef .tc Cert.ReferenceIdeal.main_v311))
      (phi_w8_s0_main_v311 (WR (Proc.devRef .tc Cert.ReferenceIdeal.main_v308)) (WR (Proc.devRef .tc Cert.ReferenceIdeal.main_v309))) := by
  phi_step Cert.ReferenceIdeal.Hand.w8_s0 phi_w8_s0_main_v311
theorem phiK_w8_s0_main_v318 (WK : ValK F) :
    @Eq ((⟨S16x1x224, .i1⟩ : BufTy).Contents (Elt F)) (after Cert.KernelIdeal.Gen.main_part8_ops0 WK (Proc.devRef .tc Cert.KernelIdeal.main_v318))
      (phi_w8_s0_main_v318 (WK (Proc.devRef .tc Cert.KernelIdeal.main_arg10)) (WK (Proc.devRef .tc Cert.KernelIdeal.main_v181))) := by
  phi_step Cert.KernelIdeal.Gen.main_part8_ops0 phi_w8_s0_main_v318
theorem phiR_w8_s0_main_v318 (WR : ValR F) :
    @Eq ((⟨S16x1x224, .i1⟩ : BufTy).Contents (Elt F)) (after Cert.ReferenceIdeal.Hand.w8_s0 WR (Proc.devRef .tc Cert.ReferenceIdeal.main_v318))
      (phi_w8_s0_main_v318 (WR (Proc.devRef .tc Cert.ReferenceIdeal.main_arg10)) (WR (Proc.devRef .tc Cert.ReferenceIdeal.main_v181))) := by
  phi_step Cert.ReferenceIdeal.Hand.w8_s0 phi_w8_s0_main_v318
theorem phiK_w8_s0_main_cst (WK : ValK F) :
    @Eq ((⟨S_, .f32⟩ : BufTy).Contents (Elt F)) (after Cert.KernelIdeal.Gen.main_part8_ops0 WK (Proc.devRef .tc Cert.KernelIdeal.main_cst))
      (phi_w8_s0_main_cst) := by
  phi_step Cert.KernelIdeal.Gen.main_part8_ops0 phi_w8_s0_main_cst
theorem phiR_w8_s0_main_cst (WR : ValR F) :
    @Eq ((⟨S_, .f32⟩ : BufTy).Contents (Elt F)) (after Cert.ReferenceIdeal.Hand.w8_s0 WR (Proc.devRef .tc Cert.ReferenceIdeal.main_cst))
      (phi_w8_s0_main_cst) := by
  phi_step Cert.ReferenceIdeal.Hand.w8_s0 phi_w8_s0_main_cst

theorem sim_w8_s0 (WK : ValK F) (WR : ValR F) (h : Inv37 WK WR) :
    Inv38 (after Cert.KernelIdeal.Gen.main_part8_ops0 WK) (after Cert.ReferenceIdeal.Hand.w8_s0 WR) := by
  sim_step h Inv37 Inv38 [keepK_w8_s0_main_arg11, keepR_w8_s0_main_arg11, keepK_w8_s0_main_v171, keepR_w8_s0_main_v171, keepK_w8_s0_main_v180, keepR_w8_s0_main_v180, keepK_w8_s0_main_v198, keepR_w8_s0_main_v198, keepK_w8_s0_main_v222, keepR_w8_s0_main_v222, keepK_w8_s0_main_v264, keepR_w8_s0_main_v264, keepK_w8_s0_main_v306, keepR_w8_s0_main_v306, phiK_w8_s0_main_v311, phiR_w8_s0_main_v311, phiK_w8_s0_main_v318, phiR_w8_s0_main_v318, phiK_w8_s0_main_cst, phiR_w8_s0_main_cst]

theorem keepK_w8_s1_main_arg11 (WK : ValK F) :
    after Cert.KernelIdeal.Gen.main_part8_ops1 WK (Proc.devRef .tc Cert.KernelIdeal.main_arg11) = WK (Proc.devRef .tc Cert.KernelIdeal.main_arg11) := by
  keep_step Cert.KernelIdeal.Gen.main_part8_ops1
theorem keepR_w8_s1_main_arg11 (WR : ValR F) :
    after Cert.ReferenceIdeal.Hand.w8_s1 WR (Proc.devRef .tc Cert.ReferenceIdeal.main_arg11) = WR (Proc.devRef .tc Cert.ReferenceIdeal.main_arg11) := by
  keep_step Cert.ReferenceIdeal.Hand.w8_s1
theorem keepK_w8_s1_main_v171 (WK : ValK F) :
    after Cert.KernelIdeal.Gen.main_part8_ops1 WK (Proc.devRef .tc Cert.KernelIdeal.main_v171) = WK (Proc.devRef .tc Cert.KernelIdeal.main_v171) := by
  keep_step Cert.KernelIdeal.Gen.main_part8_ops1
theorem keepR_w8_s1_main_v171 (WR : ValR F) :
    after Cert.ReferenceIdeal.Hand.w8_s1 WR (Proc.devRef .tc Cert.ReferenceIdeal.main_v171) = WR (Proc.devRef .tc Cert.ReferenceIdeal.main_v171) := by
  keep_step Cert.ReferenceIdeal.Hand.w8_s1
theorem keepK_w8_s1_main_v180 (WK : ValK F) :
    after Cert.KernelIdeal.Gen.main_part8_ops1 WK (Proc.devRef .tc Cert.KernelIdeal.main_v180) = WK (Proc.devRef .tc Cert.KernelIdeal.main_v180) := by
  keep_step Cert.KernelIdeal.Gen.main_part8_ops1
theorem keepR_w8_s1_main_v180 (WR : ValR F) :
    after Cert.ReferenceIdeal.Hand.w8_s1 WR (Proc.devRef .tc Cert.ReferenceIdeal.main_v180) = WR (Proc.devRef .tc Cert.ReferenceIdeal.main_v180) := by
  keep_step Cert.ReferenceIdeal.Hand.w8_s1
theorem keepK_w8_s1_main_v198 (WK : ValK F) :
    after Cert.KernelIdeal.Gen.main_part8_ops1 WK (Proc.devRef .tc Cert.KernelIdeal.main_v198) = WK (Proc.devRef .tc Cert.KernelIdeal.main_v198) := by
  keep_step Cert.KernelIdeal.Gen.main_part8_ops1
theorem keepR_w8_s1_main_v198 (WR : ValR F) :
    after Cert.ReferenceIdeal.Hand.w8_s1 WR (Proc.devRef .tc Cert.ReferenceIdeal.main_v198) = WR (Proc.devRef .tc Cert.ReferenceIdeal.main_v198) := by
  keep_step Cert.ReferenceIdeal.Hand.w8_s1
theorem keepK_w8_s1_main_v222 (WK : ValK F) :
    after Cert.KernelIdeal.Gen.main_part8_ops1 WK (Proc.devRef .tc Cert.KernelIdeal.main_v222) = WK (Proc.devRef .tc Cert.KernelIdeal.main_v222) := by
  keep_step Cert.KernelIdeal.Gen.main_part8_ops1
theorem keepR_w8_s1_main_v222 (WR : ValR F) :
    after Cert.ReferenceIdeal.Hand.w8_s1 WR (Proc.devRef .tc Cert.ReferenceIdeal.main_v222) = WR (Proc.devRef .tc Cert.ReferenceIdeal.main_v222) := by
  keep_step Cert.ReferenceIdeal.Hand.w8_s1
theorem keepK_w8_s1_main_v264 (WK : ValK F) :
    after Cert.KernelIdeal.Gen.main_part8_ops1 WK (Proc.devRef .tc Cert.KernelIdeal.main_v264) = WK (Proc.devRef .tc Cert.KernelIdeal.main_v264) := by
  keep_step Cert.KernelIdeal.Gen.main_part8_ops1
theorem keepR_w8_s1_main_v264 (WR : ValR F) :
    after Cert.ReferenceIdeal.Hand.w8_s1 WR (Proc.devRef .tc Cert.ReferenceIdeal.main_v264) = WR (Proc.devRef .tc Cert.ReferenceIdeal.main_v264) := by
  keep_step Cert.ReferenceIdeal.Hand.w8_s1
theorem keepK_w8_s1_main_v311 (WK : ValK F) :
    after Cert.KernelIdeal.Gen.main_part8_ops1 WK (Proc.devRef .tc Cert.KernelIdeal.main_v311) = WK (Proc.devRef .tc Cert.KernelIdeal.main_v311) := by
  keep_step Cert.KernelIdeal.Gen.main_part8_ops1
theorem keepR_w8_s1_main_v311 (WR : ValR F) :
    after Cert.ReferenceIdeal.Hand.w8_s1 WR (Proc.devRef .tc Cert.ReferenceIdeal.main_v311) = WR (Proc.devRef .tc Cert.ReferenceIdeal.main_v311) := by
  keep_step Cert.ReferenceIdeal.Hand.w8_s1
theorem phiK_w8_s1_main_v319 (WK : ValK F) :
    @Eq ((⟨S16x3x224x224, .f32⟩ : BufTy).Contents (Elt F)) (after Cert.KernelIdeal.Gen.main_part8_ops1 WK (Proc.devRef .tc Cert.KernelIdeal.main_v319))
      (phi_w8_s1_main_v319 (WK (Proc.devRef .tc Cert.KernelIdeal.main_v306)) (WK (Proc.devRef .tc Cert.KernelIdeal.main_v318)) (WK (Proc.devRef .tc Cert.KernelIdeal.main_cst))) := by
  phi_step Cert.KernelIdeal.Gen.main_part8_ops1 phi_w8_s1_main_v319
theorem phiR_w8_s1_main_v319 (WR : ValR F) :
    @Eq ((⟨S16x3x224x224, .f32⟩ : BufTy).Contents (Elt F)) (after Cert.ReferenceIdeal.Hand.w8_s1 WR (Proc.devRef .tc Cert.ReferenceIdeal.main_v319))
      (phi_w8_s1_main_v319 (WR (Proc.devRef .tc Cert.ReferenceIdeal.main_v306)) (WR (Proc.devRef .tc Cert.ReferenceIdeal.main_v318)) (WR (Proc.devRef .tc Cert.ReferenceIdeal.main_cst))) := by
  phi_step Cert.ReferenceIdeal.Hand.w8_s1 phi_w8_s1_main_v319

theorem sim_w8_s1 (WK : ValK F) (WR : ValR F) (h : Inv38 WK WR) :
    Inv39 (after Cert.KernelIdeal.Gen.main_part8_ops1 WK) (after Cert.ReferenceIdeal.Hand.w8_s1 WR) := by
  sim_step h Inv38 Inv39 [keepK_w8_s1_main_arg11, keepR_w8_s1_main_arg11, keepK_w8_s1_main_v171, keepR_w8_s1_main_v171, keepK_w8_s1_main_v180, keepR_w8_s1_main_v180, keepK_w8_s1_main_v198, keepR_w8_s1_main_v198, keepK_w8_s1_main_v222, keepR_w8_s1_main_v222, keepK_w8_s1_main_v264, keepR_w8_s1_main_v264, keepK_w8_s1_main_v311, keepR_w8_s1_main_v311, phiK_w8_s1_main_v319, phiR_w8_s1_main_v319]

theorem keepK_w8_s2_main_arg11 (WK : ValK F) :
    after Cert.KernelIdeal.Gen.main_part8_ops2 WK (Proc.devRef .tc Cert.KernelIdeal.main_arg11) = WK (Proc.devRef .tc Cert.KernelIdeal.main_arg11) := by
  keep_step Cert.KernelIdeal.Gen.main_part8_ops2
theorem keepR_w8_s2_main_arg11 (WR : ValR F) :
    after Cert.ReferenceIdeal.Hand.w8_s2 WR (Proc.devRef .tc Cert.ReferenceIdeal.main_arg11) = WR (Proc.devRef .tc Cert.ReferenceIdeal.main_arg11) := by
  keep_step Cert.ReferenceIdeal.Hand.w8_s2
theorem keepK_w8_s2_main_v171 (WK : ValK F) :
    after Cert.KernelIdeal.Gen.main_part8_ops2 WK (Proc.devRef .tc Cert.KernelIdeal.main_v171) = WK (Proc.devRef .tc Cert.KernelIdeal.main_v171) := by
  keep_step Cert.KernelIdeal.Gen.main_part8_ops2
theorem keepR_w8_s2_main_v171 (WR : ValR F) :
    after Cert.ReferenceIdeal.Hand.w8_s2 WR (Proc.devRef .tc Cert.ReferenceIdeal.main_v171) = WR (Proc.devRef .tc Cert.ReferenceIdeal.main_v171) := by
  keep_step Cert.ReferenceIdeal.Hand.w8_s2
theorem keepK_w8_s2_main_v180 (WK : ValK F) :
    after Cert.KernelIdeal.Gen.main_part8_ops2 WK (Proc.devRef .tc Cert.KernelIdeal.main_v180) = WK (Proc.devRef .tc Cert.KernelIdeal.main_v180) := by
  keep_step Cert.KernelIdeal.Gen.main_part8_ops2
theorem keepR_w8_s2_main_v180 (WR : ValR F) :
    after Cert.ReferenceIdeal.Hand.w8_s2 WR (Proc.devRef .tc Cert.ReferenceIdeal.main_v180) = WR (Proc.devRef .tc Cert.ReferenceIdeal.main_v180) := by
  keep_step Cert.ReferenceIdeal.Hand.w8_s2
theorem keepK_w8_s2_main_v198 (WK : ValK F) :
    after Cert.KernelIdeal.Gen.main_part8_ops2 WK (Proc.devRef .tc Cert.KernelIdeal.main_v198) = WK (Proc.devRef .tc Cert.KernelIdeal.main_v198) := by
  keep_step Cert.KernelIdeal.Gen.main_part8_ops2
theorem keepR_w8_s2_main_v198 (WR : ValR F) :
    after Cert.ReferenceIdeal.Hand.w8_s2 WR (Proc.devRef .tc Cert.ReferenceIdeal.main_v198) = WR (Proc.devRef .tc Cert.ReferenceIdeal.main_v198) := by
  keep_step Cert.ReferenceIdeal.Hand.w8_s2
theorem keepK_w8_s2_main_v222 (WK : ValK F) :
    after Cert.KernelIdeal.Gen.main_part8_ops2 WK (Proc.devRef .tc Cert.KernelIdeal.main_v222) = WK (Proc.devRef .tc Cert.KernelIdeal.main_v222) := by
  keep_step Cert.KernelIdeal.Gen.main_part8_ops2
theorem keepR_w8_s2_main_v222 (WR : ValR F) :
    after Cert.ReferenceIdeal.Hand.w8_s2 WR (Proc.devRef .tc Cert.ReferenceIdeal.main_v222) = WR (Proc.devRef .tc Cert.ReferenceIdeal.main_v222) := by
  keep_step Cert.ReferenceIdeal.Hand.w8_s2
theorem phiK_w8_s2_main_v320 (WK : ValK F) :
    @Eq ((⟨S16x3x224x224, .f32⟩ : BufTy).Contents (Elt F)) (after Cert.KernelIdeal.Gen.main_part8_ops2 WK (Proc.devRef .tc Cert.KernelIdeal.main_v320))
      (phi_w8_s2_main_v320 (WK (Proc.devRef .tc Cert.KernelIdeal.main_v264)) (WK (Proc.devRef .tc Cert.KernelIdeal.main_v311)) (WK (Proc.devRef .tc Cert.KernelIdeal.main_v319))) := by
  phi_step Cert.KernelIdeal.Gen.main_part8_ops2 phi_w8_s2_main_v320
theorem phiR_w8_s2_main_v320 (WR : ValR F) :
    @Eq ((⟨S16x3x224x224, .f32⟩ : BufTy).Contents (Elt F)) (after Cert.ReferenceIdeal.Hand.w8_s2 WR (Proc.devRef .tc Cert.ReferenceIdeal.main_v320))
      (phi_w8_s2_main_v320 (WR (Proc.devRef .tc Cert.ReferenceIdeal.main_v264)) (WR (Proc.devRef .tc Cert.ReferenceIdeal.main_v311)) (WR (Proc.devRef .tc Cert.ReferenceIdeal.main_v319))) := by
  phi_step Cert.ReferenceIdeal.Hand.w8_s2 phi_w8_s2_main_v320

theorem sim_w8_s2 (WK : ValK F) (WR : ValR F) (h : Inv39 WK WR) :
    Inv40 (after Cert.KernelIdeal.Gen.main_part8_ops2 WK) (after Cert.ReferenceIdeal.Hand.w8_s2 WR) := by
  sim_step h Inv39 Inv40 [keepK_w8_s2_main_arg11, keepR_w8_s2_main_arg11, keepK_w8_s2_main_v171, keepR_w8_s2_main_v171, keepK_w8_s2_main_v180, keepR_w8_s2_main_v180, keepK_w8_s2_main_v198, keepR_w8_s2_main_v198, keepK_w8_s2_main_v222, keepR_w8_s2_main_v222, phiK_w8_s2_main_v320, phiR_w8_s2_main_v320]

theorem keepK_w8_s3_main_v198 (WK : ValK F) :
    after Cert.KernelIdeal.Gen.main_part8_ops3 WK (Proc.devRef .tc Cert.KernelIdeal.main_v198) = WK (Proc.devRef .tc Cert.KernelIdeal.main_v198) := by
  keep_step Cert.KernelIdeal.Gen.main_part8_ops3
theorem keepR_w8_s3_main_v198 (WR : ValR F) :
    after Cert.ReferenceIdeal.Hand.w8_s3 WR (Proc.devRef .tc Cert.ReferenceIdeal.main_v198) = WR (Proc.devRef .tc Cert.ReferenceIdeal.main_v198) := by
  keep_step Cert.ReferenceIdeal.Hand.w8_s3
theorem keepK_w8_s3_main_v222 (WK : ValK F) :
    after Cert.KernelIdeal.Gen.main_part8_ops3 WK (Proc.devRef .tc Cert.KernelIdeal.main_v222) = WK (Proc.devRef .tc Cert.KernelIdeal.main_v222) := by
  keep_step Cert.KernelIdeal.Gen.main_part8_ops3
theorem keepR_w8_s3_main_v222 (WR : ValR F) :
    after Cert.ReferenceIdeal.Hand.w8_s3 WR (Proc.devRef .tc Cert.ReferenceIdeal.main_v222) = WR (Proc.devRef .tc Cert.ReferenceIdeal.main_v222) := by
  keep_step Cert.ReferenceIdeal.Hand.w8_s3
theorem keepK_w8_s3_main_v320 (WK : ValK F) :
    after Cert.KernelIdeal.Gen.main_part8_ops3 WK (Proc.devRef .tc Cert.KernelIdeal.main_v320) = WK (Proc.devRef .tc Cert.KernelIdeal.main_v320) := by
  keep_step Cert.KernelIdeal.Gen.main_part8_ops3
theorem keepR_w8_s3_main_v320 (WR : ValR F) :
    after Cert.ReferenceIdeal.Hand.w8_s3 WR (Proc.devRef .tc Cert.ReferenceIdeal.main_v320) = WR (Proc.devRef .tc Cert.ReferenceIdeal.main_v320) := by
  keep_step Cert.ReferenceIdeal.Hand.w8_s3
theorem phiK_w8_s3_main_v325 (WK : ValK F) :
    @Eq ((⟨S16x224x1, .i1⟩ : BufTy).Contents (Elt F)) (after Cert.KernelIdeal.Gen.main_part8_ops3 WK (Proc.devRef .tc Cert.KernelIdeal.main_v325))
      (phi_w8_s3_main_v325 (WK (Proc.devRef .tc Cert.KernelIdeal.main_v171)) (WK (Proc.devRef .tc Cert.KernelIdeal.main_v180))) := by
  phi_step Cert.KernelIdeal.Gen.main_part8_ops3 phi_w8_s3_main_v325
theorem phiR_w8_s3_main_v325 (WR : ValR F) :
    @Eq ((⟨S16x224x1, .i1⟩ : BufTy).Contents (Elt F)) (after Cert.ReferenceIdeal.Hand.w8_s3 WR (Proc.devRef .tc Cert.ReferenceIdeal.main_v325))
      (phi_w8_s3_main_v325 (WR (Proc.devRef .tc Cert.ReferenceIdeal.main_v171)) (WR (Proc.devRef .tc Cert.ReferenceIdeal.main_v180))) := by
  phi_step Cert.ReferenceIdeal.Hand.w8_s3 phi_w8_s3_main_v325
theorem phiK_w8_s3_main_v332 (WK : ValK F) :
    @Eq ((⟨S16x224x1, .i1⟩ : BufTy).Contents (Elt F)) (after Cert.KernelIdeal.Gen.main_part8_ops3 WK (Proc.devRef .tc Cert.KernelIdeal.main_v332))
      (phi_w8_s3_main_v332 (WK (Proc.devRef .tc Cert.KernelIdeal.main_arg11)) (WK (Proc.devRef .tc Cert.KernelIdeal.main_v180))) := by
  phi_step Cert.KernelIdeal.Gen.main_part8_ops3 phi_w8_s3_main_v332
theorem phiR_w8_s3_main_v332 (WR : ValR F) :
    @Eq ((⟨S16x224x1, .i1⟩ : BufTy).Contents (Elt F)) (after Cert.ReferenceIdeal.Hand.w8_s3 WR (Proc.devRef .tc Cert.ReferenceIdeal.main_v332))
      (phi_w8_s3_main_v332 (WR (Proc.devRef .tc Cert.ReferenceIdeal.main_arg11)) (WR (Proc.devRef .tc Cert.ReferenceIdeal.main_v180))) := by
  phi_step Cert.ReferenceIdeal.Hand.w8_s3 phi_w8_s3_main_v332

theorem sim_w8_s3 (WK : ValK F) (WR : ValR F) (h : Inv40 WK WR) :
    Inv41 (after Cert.KernelIdeal.Gen.main_part8_ops3 WK) (after Cert.ReferenceIdeal.Hand.w8_s3 WR) := by
  sim_step h Inv40 Inv41 [keepK_w8_s3_main_v198, keepR_w8_s3_main_v198, keepK_w8_s3_main_v222, keepR_w8_s3_main_v222, keepK_w8_s3_main_v320, keepR_w8_s3_main_v320, phiK_w8_s3_main_v325, phiR_w8_s3_main_v325, phiK_w8_s3_main_v332, phiR_w8_s3_main_v332]

theorem keepK_w8_s4_main_v198 (WK : ValK F) :
    after Cert.KernelIdeal.Gen.main_part8_ops4 WK (Proc.devRef .tc Cert.KernelIdeal.main_v198) = WK (Proc.devRef .tc Cert.KernelIdeal.main_v198) := by
  keep_step Cert.KernelIdeal.Gen.main_part8_ops4
theorem keepR_w8_s4_main_v198 (WR : ValR F) :
    after Cert.ReferenceIdeal.Hand.w8_s4 WR (Proc.devRef .tc Cert.ReferenceIdeal.main_v198) = WR (Proc.devRef .tc Cert.ReferenceIdeal.main_v198) := by
  keep_step Cert.ReferenceIdeal.Hand.w8_s4
theorem keepK_w8_s4_main_v325 (WK : ValK F) :
    after Cert.KernelIdeal.Gen.main_part8_ops4 WK (Proc.devRef .tc Cert.KernelIdeal.main_v325) = WK (Proc.devRef .tc Cert.KernelIdeal.main_v325) := by
  keep_step Cert.KernelIdeal.Gen.main_part8_ops4
theorem keepR_w8_s4_main_v325 (WR : ValR F) :
    after Cert.ReferenceIdeal.Hand.w8_s4 WR (Proc.devRef .tc Cert.ReferenceIdeal.main_v325) = WR (Proc.devRef .tc Cert.ReferenceIdeal.main_v325) := by
  keep_step Cert.ReferenceIdeal.Hand.w8_s4
theorem phiK_w8_s4_main_v333 (WK : ValK F) :
    @Eq ((⟨S16x3x224x224, .f32⟩ : BufTy).Contents (Elt F)) (after Cert.KernelIdeal.Gen.main_part8_ops4 WK (Proc.devRef .tc Cert.KernelIdeal.main_v333))
      (phi_w8_s4_main_v333 (WK (Proc.devRef .tc Cert.KernelIdeal.main_v222)) (WK (Proc.devRef .tc Cert.KernelIdeal.main_v320)) (WK (Proc.devRef .tc Cert.KernelIdeal.main_v332))) := by
  phi_step Cert.KernelIdeal.Gen.main_part8_ops4 phi_w8_s4_main_v333
theorem phiR_w8_s4_main_v333 (WR : ValR F) :
    @Eq ((⟨S16x3x224x224, .f32⟩ : BufTy).Contents (Elt F)) (after Cert.ReferenceIdeal.Hand.w8_s4 WR (Proc.devRef .tc Cert.ReferenceIdeal.main_v333))
      (phi_w8_s4_main_v333 (WR (Proc.devRef .tc Cert.ReferenceIdeal.main_v222)) (WR (Proc.devRef .tc Cert.ReferenceIdeal.main_v320)) (WR (Proc.devRef .tc Cert.ReferenceIdeal.main_v332))) := by
  phi_step Cert.ReferenceIdeal.Hand.w8_s4 phi_w8_s4_main_v333

theorem sim_w8_s4 (WK : ValK F) (WR : ValR F) (h : Inv41 WK WR) :
    Inv42 (after Cert.KernelIdeal.Gen.main_part8_ops4 WK) (after Cert.ReferenceIdeal.Hand.w8_s4 WR) := by
  sim_step h Inv41 Inv42 [keepK_w8_s4_main_v198, keepR_w8_s4_main_v198, keepK_w8_s4_main_v325, keepR_w8_s4_main_v325, phiK_w8_s4_main_v333, phiR_w8_s4_main_v333]

theorem phiK_w8_s5_main_v334 (WK : ValK F) :
    @Eq ((⟨S16x3x224x224, .f32⟩ : BufTy).Contents (Elt F)) (after Cert.KernelIdeal.Gen.main_part8_ops5 WK (Proc.devRef .tc Cert.KernelIdeal.main_v334))
      (phi_w8_s5_main_v334 (WK (Proc.devRef .tc Cert.KernelIdeal.main_v198)) (WK (Proc.devRef .tc Cert.KernelIdeal.main_v325)) (WK (Proc.devRef .tc Cert.KernelIdeal.main_v333))) := by
  phi_step Cert.KernelIdeal.Gen.main_part8_ops5 phi_w8_s5_main_v334
theorem phiR_w8_s5_main_v334 (WR : ValR F) :
    @Eq ((⟨S16x3x224x224, .f32⟩ : BufTy).Contents (Elt F)) (after Cert.ReferenceIdeal.Hand.w8_s5 WR (Proc.devRef .tc Cert.ReferenceIdeal.main_v334))
      (phi_w8_s5_main_v334 (WR (Proc.devRef .tc Cert.ReferenceIdeal.main_v198)) (WR (Proc.devRef .tc Cert.ReferenceIdeal.main_v325)) (WR (Proc.devRef .tc Cert.ReferenceIdeal.main_v333))) := by
  phi_step Cert.ReferenceIdeal.Hand.w8_s5 phi_w8_s5_main_v334

theorem sim_w8_s5 (WK : ValK F) (WR : ValR F) (h : Inv42 WK WR) :
    Inv43 (after Cert.KernelIdeal.Gen.main_part8_ops5 WK) (after Cert.ReferenceIdeal.Hand.w8_s5 WR) := by
  sim_step h Inv42 Inv43 [phiK_w8_s5_main_v334, phiR_w8_s5_main_v334]

end Cert.PromptBridge

end
-- ==== Proof.PromptBridge.lean ====
/- The bridge between the two programs' prompts, part 3 of 3: from contents that agree at the eleven arguments the
   prompt is built from, the kernel program's host operations and the reference's leave the same prompt. The kernel
   program's stretches are cut where the reference's are (its windows' lists); the agreement at the buffers live at a
   boundary is carried across each of the forty-three stretches in turn, and at the last boundary the one live
   buffer is the prompt's. -/
import proofs.«144763_j39642548142243_2_alg».proof.Proof.PromptBridgeL0
import proofs.«144763_j39642548142243_2_alg».proof.Proof.PromptBridgeL1
import proofs.«144763_j39642548142243_2_alg».proof.Proof.PromptBridgeL2
import proofs.«144763_j39642548142243_2_alg».proof.Proof.PromptBridgeL3
import proofs.«144763_j39642548142243_2_alg».proof.Proof.PromptBridgeL4
import proofs.«144763_j39642548142243_2_alg».proof.Proof.PromptBridgeL5
import proofs.«144763_j39642548142243_2_alg».proof.Proof.PromptBridgeL6
import proofs.«144763_j39642548142243_2_alg».proof.Proof.PromptBridgeL7
import proofs.«144763_j39642548142243_2_alg».proof.Proof.PromptBridgeL8

set_option maxRecDepth 100000

noncomputable section

namespace Cert.PromptBridge

open Idealize.ShloMosaic Idealize.SL.Sem Idealize.ShloMosaic.StableHlo

variable {F : FTy → Type} [FloatOps F] [Cert.KernelIdeal.Facts] [Cert.ReferenceIdeal.Facts]

/-- The kernel program's host operations that build the prompt, cut where the reference's stretches are. -/
abbrev kops : List (List (HloOp Cert.KernelIdeal.τ Cert.KernelIdeal.sig (Elt F))) :=
  [ Cert.KernelIdeal.Gen.main_part0_ops0, Cert.KernelIdeal.Gen.main_part1_ops0,
    Cert.KernelIdeal.Gen.main_part2_ops0, Cert.KernelIdeal.Gen.main_part3_ops0,
    Cert.KernelIdeal.Gen.main_part4_ops0, Cert.KernelIdeal.Gen.main_part5_ops0,
    Cert.KernelIdeal.Gen.main_part5_ops1, Cert.KernelIdeal.Gen.main_part5_ops2,
    Cert.KernelIdeal.Gen.main_part5_ops3, Cert.KernelIdeal.Gen.main_part5_ops4,
    Cert.KernelIdeal.Gen.main_part5_ops5, Cert.KernelIdeal.Gen.main_part5_ops6,
    Cert.KernelIdeal.Gen.main_part5_ops7, Cert.KernelIdeal.Gen.main_part5_ops8,
    Cert.KernelIdeal.Gen.main_part5_ops9, Cert.KernelIdeal.Gen.main_part5_ops10,
    Cert.KernelIdeal.Gen.main_part5_ops11, Cert.KernelIdeal.Gen.main_part5_ops12,
    Cert.KernelIdeal.Gen.main_part5_ops13, Cert.KernelIdeal.Gen.main_part5_ops14,
    Cert.KernelIdeal.Gen.main_part5_ops15, Cert.KernelIdeal.Gen.main_part5_ops16,
    Cert.KernelIdeal.Gen.main_part5_ops17, Cert.KernelIdeal.Gen.main_part6_ops0,
    Cert.KernelIdeal.Gen.main_part6_ops1, Cert.KernelIdeal.Gen.main_part6_ops2,
    Cert.KernelIdeal.Gen.main_part6_ops3, Cert.KernelIdeal.Gen.main_part6_ops4,
    Cert.KernelIdeal.Gen.main_part6_ops5, Cert.KernelIdeal.Gen.main_part6_ops6,
    Cert.KernelIdeal.Gen.main_part7_ops0, Cert.KernelIdeal.Gen.main_part7_ops1,
    Cert.KernelIdeal.Gen.main_part7_ops2, Cert.KernelIdeal.Gen.main_part7_ops3,
    Cert.KernelIdeal.Gen.main_part7_ops4, Cert.KernelIdeal.Gen.main_part7_ops5,
    Cert.KernelIdeal.Gen.main_part7_ops6, Cert.KernelIdeal.Gen.main_part8_ops0,
    Cert.KernelIdeal.Gen.main_part8_ops1, Cert.KernelIdeal.Gen.main_part8_ops2,
    Cert.KernelIdeal.Gen.main_part8_ops3, Cert.KernelIdeal.Gen.main_part8_ops4,
    Cert.KernelIdeal.Gen.main_part8_ops5 ]

/-- The reference's stretches but the closing one. -/
abbrev rops : List (List (HloOp Cert.ReferenceIdeal.τ Cert.ReferenceIdeal.sig (Elt F))) :=
  [ Cert.ReferenceIdeal.Hand.w0_s0, Cert.ReferenceIdeal.Hand.w1_s0, Cert.ReferenceIdeal.Hand.w2_s0,
    Cert.ReferenceIdeal.Hand.w3_s0, Cert.ReferenceIdeal.Hand.w4_s0, Cert.ReferenceIdeal.Hand.w5_s0,
    Cert.ReferenceIdeal.Hand.w5_s1, Cert.ReferenceIdeal.Hand.w5_s2, Cert.ReferenceIdeal.Hand.w5_s3,
    Cert.ReferenceIdeal.Hand.w5_s4, Cert.ReferenceIdeal.Hand.w5_s5, Cert.ReferenceIdeal.Hand.w5_s6,
    Cert.ReferenceIdeal.Hand.w5_s7, Cert.ReferenceIdeal.Hand.w5_s8, Cert.ReferenceIdeal.Hand.w5_s9,
    Cert.ReferenceIdeal.Hand.w5_s10, Cert.ReferenceIdeal.Hand.w5_s11, Cert.ReferenceIdeal.Hand.w5_s12,
    Cert.ReferenceIdeal.Hand.w5_s13, Cert.ReferenceIdeal.Hand.w5_s14, Cert.ReferenceIdeal.Hand.w5_s15,
    Cert.ReferenceIdeal.Hand.w5_s16, Cert.ReferenceIdeal.Hand.w5_s17, Cert.ReferenceIdeal.Hand.w6_s0,
    Cert.ReferenceIdeal.Hand.w6_s1, Cert.ReferenceIdeal.Hand.w6_s2, Cert.ReferenceIdeal.Hand.w6_s3,
    Cert.ReferenceIdeal.Hand.w6_s4, Cert.ReferenceIdeal.Hand.w6_s5, Cert.ReferenceIdeal.Hand.w6_s6,
    Cert.ReferenceIdeal.Hand.w7_s0, Cert.ReferenceIdeal.Hand.w7_s1, Cert.ReferenceIdeal.Hand.w7_s2,
    Cert.ReferenceIdeal.Hand.w7_s3, Cert.ReferenceIdeal.Hand.w7_s4, Cert.ReferenceIdeal.Hand.w7_s5,
    Cert.ReferenceIdeal.Hand.w7_s6, Cert.ReferenceIdeal.Hand.w8_s0, Cert.ReferenceIdeal.Hand.w8_s1,
    Cert.ReferenceIdeal.Hand.w8_s2, Cert.ReferenceIdeal.Hand.w8_s3, Cert.ReferenceIdeal.Hand.w8_s4,
    Cert.ReferenceIdeal.Hand.w8_s5 ]

/-- Cut either way, the kernel program's operations are the same list. -/
theorem kops_eq : (Cert.KernelIdeal.HandValue.promptOps (F := F)).flatten = (kops (F := F)).flatten := by
  rfl

theorem rops_eq : (Cert.ReferenceIdeal.Hand.opss (F := F)).dropLast = rops (F := F) := rfl

/-- Agreement at the eleven arguments before the first stretch gives agreement at the prompt after the last. -/
theorem bridge (VK : ValK F) (VR : ValR F) (h0 : Inv0 VK VR) :
    Inv43 (after (kops (F := F)).flatten VK) (after (rops (F := F)).flatten VR) := by
  have s0 := sim_w0_s0 VK VR h0
  have s1 := sim_w1_s0 _ _ s0
  have s2 := sim_w2_s0 _ _ s1
  have s3 := sim_w3_s0 _ _ s2
  have s4 := sim_w4_s0 _ _ s3
  have s5 := sim_w5_s0 _ _ s4
  have s6 := sim_w5_s1 _ _ s5
  have s7 := sim_w5_s2 _ _ s6
  have s8 := sim_w5_s3 _ _ s7
  have s9 := sim_w5_s4 _ _ s8
  have s10 := sim_w5_s5 _ _ s9
  have s11 := sim_w5_s6 _ _ s10
  have s12 := sim_w5_s7 _ _ s11
  have s13 := sim_w5_s8 _ _ s12
  have s14 := sim_w5_s9 _ _ s13
  have s15 := sim_w5_s10 _ _ s14
  have s16 := sim_w5_s11 _ _ s15
  have s17 := sim_w5_s12 _ _ s16
  have s18 := sim_w5_s13 _ _ s17
  have s19 := sim_w5_s14 _ _ s18
  have s20 := sim_w5_s15 _ _ s19
  have s21 := sim_w5_s16 _ _ s20
  have s22 := sim_w5_s17 _ _ s21
  have s23 := sim_w6_s0 _ _ s22
  have s24 := sim_w6_s1 _ _ s23
  have s25 := sim_w6_s2 _ _ s24
  have s26 := sim_w6_s3 _ _ s25
  have s27 := sim_w6_s4 _ _ s26
  have s28 := sim_w6_s5 _ _ s27
  have s29 := sim_w6_s6 _ _ s28
  have s30 := sim_w7_s0 _ _ s29
  have s31 := sim_w7_s1 _ _ s30
  have s32 := sim_w7_s2 _ _ s31
  have s33 := sim_w7_s3 _ _ s32
  have s34 := sim_w7_s4 _ _ s33
  have s35 := sim_w7_s5 _ _ s34
  have s36 := sim_w7_s6 _ _ s35
  have s37 := sim_w8_s0 _ _ s36
  have s38 := sim_w8_s1 _ _ s37
  have s39 := sim_w8_s2 _ _ s38
  have s40 := sim_w8_s3 _ _ s39
  have s41 := sim_w8_s4 _ _ s40
  have s42 := sim_w8_s5 _ _ s41
  simp only [kops, rops, List.flatten_cons, List.flatten_nil, List.append_nil,
    Cert.KernelIdeal.HandValue.after_append, Cert.ReferenceIdeal.Hand.after_append]
  exact s42

/-- From contents that agree at the arguments 1 … 11, the two programs' host operations before their closing
    stretches leave the same prompt (an equation at the prompt's literal type). -/
theorem prompt_bridge (VK : ValK F) (VR : ValR F)
    (h1 : @Eq ((⟨Cert.ReferenceIdeal.S3x3x1x224, .f32⟩ : BufTy).Contents (Elt F)) (VR (Proc.devRef .tc Cert.ReferenceIdeal.main_arg1)) (VK (Proc.devRef .tc Cert.KernelIdeal.main_arg1)))
    (h2 : @Eq ((⟨Cert.ReferenceIdeal.S3x3x10x224, .f32⟩ : BufTy).Contents (Elt F)) (VR (Proc.devRef .tc Cert.ReferenceIdeal.main_arg2)) (VK (Proc.devRef .tc Cert.KernelIdeal.main_arg2)))
    (h3 : @Eq ((⟨Cert.ReferenceIdeal.S3x3x1x224, .f32⟩ : BufTy).Contents (Elt F)) (VR (Proc.devRef .tc Cert.ReferenceIdeal.main_arg3)) (VK (Proc.devRef .tc Cert.KernelIdeal.main_arg3)))
    (h4 : @Eq ((⟨Cert.ReferenceIdeal.S3x3x10x224, .f32⟩ : BufTy).Contents (Elt F)) (VR (Proc.devRef .tc Cert.ReferenceIdeal.main_arg4)) (VK (Proc.devRef .tc Cert.KernelIdeal.main_arg4)))
    (h5 : @Eq ((⟨Cert.ReferenceIdeal.S3x3x164x1, .f32⟩ : BufTy).Contents (Elt F)) (VR (Proc.devRef .tc Cert.ReferenceIdeal.main_arg5)) (VK (Proc.devRef .tc Cert.KernelIdeal.main_arg5)))
    (h6 : @Eq ((⟨Cert.ReferenceIdeal.S3x3x164x10, .f32⟩ : BufTy).Contents (Elt F)) (VR (Proc.devRef .tc Cert.ReferenceIdeal.main_arg6)) (VK (Proc.devRef .tc Cert.KernelIdeal.main_arg6)))
    (h7 : @Eq ((⟨Cert.ReferenceIdeal.S3x3x164x1, .f32⟩ : BufTy).Contents (Elt F)) (VR (Proc.devRef .tc Cert.ReferenceIdeal.main_arg7)) (VK (Proc.devRef .tc Cert.KernelIdeal.main_arg7)))
    (h8 : @Eq ((⟨Cert.ReferenceIdeal.S3x3x164x10, .f32⟩ : BufTy).Contents (Elt F)) (VR (Proc.devRef .tc Cert.ReferenceIdeal.main_arg8)) (VK (Proc.devRef .tc Cert.KernelIdeal.main_arg8)))
    (h9 : @Eq ((⟨Cert.ReferenceIdeal.S16, .i32⟩ : BufTy).Contents (Elt F)) (VR (Proc.devRef .tc Cert.ReferenceIdeal.main_arg9)) (VK (Proc.devRef .tc Cert.KernelIdeal.main_arg9)))
    (h10 : @Eq ((⟨Cert.ReferenceIdeal.S16, .i32⟩ : BufTy).Contents (Elt F)) (VR (Proc.devRef .tc Cert.ReferenceIdeal.main_arg10)) (VK (Proc.devRef .tc Cert.KernelIdeal.main_arg10)))
    (h11 : @Eq ((⟨Cert.ReferenceIdeal.S16, .i32⟩ : BufTy).Contents (Elt F)) (VR (Proc.devRef .tc Cert.ReferenceIdeal.main_arg11)) (VK (Proc.devRef .tc Cert.KernelIdeal.main_arg11))) :
    @Eq ((⟨Cert.ReferenceIdeal.S16x3x224x224, .f32⟩ : BufTy).Contents (Elt F))
      (after (Cert.KernelIdeal.HandValue.promptOps (F := F)).flatten VK (Proc.devRef .tc Cert.KernelIdeal.main_v334))
      (after (Cert.ReferenceIdeal.Hand.opss (F := F)).dropLast.flatten VR (Proc.devRef .tc Cert.ReferenceIdeal.main_v334)) := by
  rw [kops_eq, rops_eq]
  exact bridge VK VR ⟨h1.symm, h2.symm, h3.symm, h4.symm, h5.symm, h6.symm, h7.symm, h8.symm, h9.symm, h10.symm, h11.symm⟩

end Cert.PromptBridge

end
-- ==== Proof.lean ====
/-
  The certificate of the prompt-adding kernel against its jnp reference.

  Both programs first build, with the same host operations, a per-sample prompt image (16, 3, 224, 224) from the eleven
  small arguments, and then add it to every one of the 16 frames of x (16, 3, 16, 224, 224).  The reference adds by
  broadcasting the prompt along the frame axis.  The kernel program re-lays the trailing 224 × 224 pixels of x and of the
  prompt as 392 × 128, runs one region over a grid of 16 points — point t adds sample t's prompt block to each of the
  16 frame slabs of sample t's x block — and re-lays the result back.  Re-laying moves no element's row-major position,
  the sixteen slabs tile a block and the sixteen blocks tile the array, and the sum of two extended reals is one
  operation on both sides: so at the exact extended reals both results are  x + prompt  index by index, the two
  prompts being one function of the arguments (the two host prefixes are the same operations, stretch by stretch).
  No law that needs finiteness is used, so the precondition is never opened.
-/
import proofs.«144763_j39642548142243_2_alg».proof.Defs
import proofs.«144763_j39642548142243_2_alg».proof.Proof.Gen.Kernel
import proofs.«144763_j39642548142243_2_alg».proof.Proof.Gen.KernelIdeal
import proofs.«144763_j39642548142243_2_alg».proof.Proof.Gen.ReferenceIdeal
import proofs.«144763_j39642548142243_2_alg».proof.Proof.Gen.Pre_finite_inputs
import proofs.«144763_j39642548142243_2_alg».proof.Proof.KernelFrame
import proofs.«144763_j39642548142243_2_alg».proof.Proof.KernelIdealFrame
import proofs.«144763_j39642548142243_2_alg».proof.Proof.KernelIdealValue
import proofs.«144763_j39642548142243_2_alg».proof.Proof.RefRun
import proofs.«144763_j39642548142243_2_alg».proof.Proof.RefValue
import proofs.«144763_j39642548142243_2_alg».proof.Proof.ResultsAgree
import proofs.«144763_j39642548142243_2_alg».proof.Proof.PromptBridge
import Idealize.ShloMosaic.Adequacy
import Idealize.ShloMosaic.Init

noncomputable section

namespace Cert.Proof

open Idealize.ShloMosaic Idealize.ShloMosaic.TcCoe Idealize.SL.Sem Cert.PromptSum

/-- The kernel program at the word level runs to the end and leaves its arguments as they were. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- Both idealized programs end with x plus the prompt: the kernel program by its run read through the blocks, the
    reference by its last three operations; the two prompts agree because the arguments do. -/
theorem algebraic : Cert.algebraic_KernelIdeal_ReferenceIdeal :=
  fun m ρ m' ρ' _ hagree =>
    ⟨fun c => sumOver eadd (m ((c.tc : Thread Cert.KernelIdeal.nD Cert.KernelIdeal.τ).loc Cert.KernelIdeal.main_arg0))
        (Cert.KernelIdeal.HandValue.promptK m c),
      Cert.KernelIdeal.HandValue.run m ρ,
      (θ_run Cert.ReferenceIdeal.defs _ _).mono (fun _ h c =>
          ⟨(h c).1.trans (Cert.ResultsAgree.results_agree m m' c c (hagree c).1
              (Cert.PromptBridge.prompt_bridge (F := Ideal) (fun b => m (c, b)) (fun b => m' (c, b))
                (hagree c).2.1
                (hagree c).2.2.1
                (hagree c).2.2.2.1
                (hagree c).2.2.2.2.1
                (hagree c).2.2.2.2.2.1
                (hagree c).2.2.2.2.2.2.1
                (hagree c).2.2.2.2.2.2.2.1
                (hagree c).2.2.2.2.2.2.2.2.1
                (hagree c).2.2.2.2.2.2.2.2.2.1
                (hagree c).2.2.2.2.2.2.2.2.2.2.1
                (hagree c).2.2.2.2.2.2.2.2.2.2.2)),
            (h c).2⟩)
        (Cert.ReferenceIdeal.Hand.run (F := Ideal) m' ρ')⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
